-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v288)) (v1 : (c : Dev Cert.KernelIdeal.nD) → Buf (Elt Ideal) ((c.tc : Thread Cert.KernelIdeal.nD Cert.KernelIdeal.τ).loc Cert.KernelIdeal.main_v305)) (v2 : (c : Dev Cert.KernelIdeal.nD) → Buf (Elt Ideal) ((c.tc : Thread Cert.KernelIdeal.nD Cert.KernelIdeal.τ).loc Cert.KernelIdeal.main_v179)) (v3 : (c : Dev Cert.KernelIdeal.nD) → Buf (Elt Ideal) ((c.tc : Thread Cert.KernelIdeal.nD Cert.KernelIdeal.τ).loc Cert.KernelIdeal.main_v267)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v288) = v0 c
          ∧ r.2.mem ((c.tc : Thread Cert.KernelIdeal.nD Cert.KernelIdeal.τ).loc Cert.KernelIdeal.main_v305) = v1 c
          ∧ r.2.mem ((c.tc : Thread Cert.KernelIdeal.nD Cert.KernelIdeal.τ).loc Cert.KernelIdeal.main_v179) = v2 c
          ∧ r.2.mem ((c.tc : Thread Cert.KernelIdeal.nD Cert.KernelIdeal.τ).loc Cert.KernelIdeal.main_v267) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v317) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_v279) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S25000x64 : Shape := ⟨2, ![25000, 64]⟩
abbrev S1000x64 : Shape := ⟨2, ![1000, 64]⟩
abbrev S262144 : Shape := ⟨1, ![262144]⟩
abbrev S65536 : Shape := ⟨1, ![65536]⟩
abbrev S4096 : Shape := ⟨1, ![4096]⟩
abbrev S50000 : Shape := ⟨1, ![50000]⟩
abbrev S25000 : Shape := ⟨1, ![25000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S25000x64 : S_.BroadcastsInDim S25000x64 (![] : Fin 0 → Fin S25000x64.rank)
  reducesTo_S25000x64_S_d0_1 : S25000x64.ReducesTo [0, 1] S_
  bcast_S_S1000x64 : S_.BroadcastsInDim S1000x64 (![] : Fin 0 → Fin S1000x64.rank)
  reducesTo_S1000x64_S_d0_1 : S1000x64.ReducesTo [0, 1] S_

variable [Facts]

def fn_part1 {F : FTy → Type} [FloatOps F] (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  main_v18

def fn {F : FTy → Type} [FloatOps F] (main_arg0 : FVec F S50000x64 .f32) (main_arg1 : FVec F S25000x64 .f32) (main_arg2 : FVec F S1000x64 .f32) (main_arg3 : FVec F S1000x64 .f32) (main_arg4 : IVec S262144 32) (main_arg5 : IVec S262144 32) (main_arg6 : IVec S65536 32) (main_arg7 : IVec S65536 32) (main_arg8 : IVec S65536 32) (main_arg9 : IVec S65536 32) (main_arg10 : IVec S4096 32) (main_arg11 : IVec S4096 32) (main_arg12 : IVec S50000 32) (main_arg13 : IVec S25000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S25000x64 .f32 := Host.absf main_arg1
  let main_cst_0 : FVec F S_ .f32 := constant S_ .f32 0x7F800000#32
  let main_v5 : FVec F S25000x64 .f32 := broadcastInDim S25000x64 ![] bcast_S_S25000x64 main_cst_0
  let main_v6 : IVec S25000x64 1 := cmpf .olt main_v4 main_v5
  let main_c_1 : IVec S_ 1 := constantI S_ 1 1#1
  let main_v7 : IVec S_ 1 := (fun x v => Host.reduce IntOp.andi x v reducesTo_S25000x64_S_d0_1 h_S_) main_v6 main_c_1
  let main_v8 : IVec S_ 1 := andi main_v3 main_v7
  let main_v9 : FVec F S1000x64 .f32 := Host.absf main_arg2
  let main_cst_2 : FVec F S_ .f32 := constant S_ .f32 0x7F800000#32
  let main_v10 : FVec F S1000x64 .f32 := broadcastInDim S1000x64 ![] bcast_S_S1000x64 main_cst_2
  let main_v11 : IVec S1000x64 1 := cmpf .olt main_v9 main_v10
  let main_c_3 : IVec S_ 1 := constantI S_ 1 1#1
  let main_v12 : IVec S_ 1 := (fun x v => Host.reduce IntOp.andi x v reducesTo_S1000x64_S_d0_1 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_v13 main_v16
-- ==== Kernel.lean ====
abbrev S50000x64 : Shape := ⟨2, ![50000, 64]⟩
abbrev S25000x64 : Shape := ⟨2, ![25000, 64]⟩
abbrev S1000x64 : Shape := ⟨2, ![1000, 64]⟩
abbrev S262144 : Shape := ⟨1, ![262144]⟩
abbrev S65536 : Shape := ⟨1, ![65536]⟩
abbrev S4096 : Shape := ⟨1, ![4096]⟩
abbrev S50000 : Shape := ⟨1, ![50000]⟩
abbrev S25000 : Shape := ⟨1, ![25000]⟩
abbrev S_ : Shape := ⟨0, ![]⟩
abbrev S262144x1 : Shape := ⟨2, ![262144, 1]⟩
abbrev S4096x1 : Shape := ⟨2, ![4096, 1]⟩
abbrev S4096x64 : Shape := ⟨2, ![4096, 64]⟩
abbrev S262144x64 : Shape := ⟨2, ![262144, 64]⟩
abbrev S50000x1 : Shape := ⟨2, ![50000, 1]⟩
abbrev S256x64 : Shape := ⟨2, ![256, 64]⟩
abbrev S5000x64 : Shape := ⟨2, ![5000, 64]⟩
abbrev S256x1 : Shape := ⟨2, ![256, 1]⟩
abbrev S256x5000 : Shape := ⟨2, ![256, 5000]⟩
abbrev S256 : Shape := ⟨1, ![256]⟩
abbrev S25000x1 : Shape := ⟨2, ![25000, 1]⟩
abbrev S1000 : Shape := ⟨1, ![1000]⟩
abbrev S1000x1 : Shape := ⟨2, ![1000, 1]⟩
abbrev S256x1000 : Shape := ⟨2, ![256, 1000]⟩
abbrev S65536x1 : Shape := ⟨2, ![65536, 1]⟩
abbrev S65536x64 : Shape := ⟨2, ![65536, 64]⟩

abbrev nBuf : Space → Nat
  | .hbm => 438
  | .vmem => 26
  | .smem => 0
  | _ => 0

abbrev hbmTy0_0 (i : Nat) : BufTy := match i % 128 with
  | 0 => ⟨S50000x64, .f32⟩
  | 1 => ⟨S25000x64, .f32⟩
  | 2 => ⟨S1000x64, .f32⟩
  | 3 => ⟨S1000x64, .f32⟩
  | 4 => ⟨S262144, .i32⟩
  | 5 => ⟨S262144, .i32⟩
  | 6 => ⟨S65536, .i32⟩
  | 7 => ⟨S65536, .i32⟩
  | 8 => ⟨S65536, .i32⟩
  | 9 => ⟨S65536, .i32⟩
  | 10 => ⟨S4096, .i32⟩
  | 11 => ⟨S4096, .i32⟩
  | 12 => ⟨S50000, .i32⟩
  | 13 => ⟨S25000, .i32⟩
  | 14 => ⟨S_, .f32⟩
  | 15 => ⟨S262144, .f32⟩
  | 16 => ⟨S_, .f32⟩
  | 17 => ⟨S4096, .f32⟩
  | 18 => ⟨S262144x1, .i32⟩
  | 19 => ⟨S4096, .f32⟩
  | 20 => ⟨S_, .f32⟩
  | 21 => ⟨S4096, .f32⟩
  | 22 => ⟨S262144x1, .i32⟩
  | 23 => ⟨S4096, .f32⟩
  | 24 => ⟨S_, .f32⟩
  | 25 => ⟨S4096, .f32⟩
  | 26 => ⟨S4096, .f32⟩
  | 27 => ⟨S4096, .f32⟩
  | 28 => ⟨S_, .f32⟩
  | 29 => ⟨S4096, .f32⟩
  | 30 => ⟨S4096, .f32⟩
  | 31 => ⟨S4096x1, .f32⟩
  | 32 => ⟨S_, .f32⟩
  | 33 => ⟨S4096, .f32⟩
  | 34 => ⟨S4096, .f32⟩
  | 35 => ⟨S4096, .f32⟩
  | 36 => ⟨S_, .f32⟩
  | 37 => ⟨S4096, .f32⟩
  | 38 => ⟨S4096, .f32⟩
  | 39 => ⟨S4096x1, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x64, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x64, .f32⟩
  | 58 => ⟨S4096x64, .f32⟩
  | 59 => ⟨S4096x64, .f32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S262144x64, .f32⟩
  | 69 => ⟨S4096x64, .f32⟩
  | 70 => ⟨S4096x64, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x64, .f32⟩
  | 80 => ⟨S_, .f32⟩
  | 81 => ⟨S4096x64, .f32⟩
  | 82 => ⟨S262144x1, .i32⟩
  | 83 => ⟨S4096x64, .f32⟩
  | 84 => ⟨S4096x64, .f32⟩
  | 85 => ⟨S4096x64, .f32⟩
  | 86 => ⟨S_, .f32⟩
  | 87 => ⟨S4096x64, .f32⟩
  | 88 => ⟨S262144x1, .i32⟩
  | 89 => ⟨S4096x64, .f32⟩
  | 90 => ⟨S4096x64, .f32⟩
  | 91 => ⟨S4096x64, .f32⟩
  | 92 => ⟨S4096x64, .f32⟩
  | 93 => ⟨S4096x64, .f32⟩
  | 94 => ⟨S4096x64, .f32⟩
  | 95 => ⟨S4096x64, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x64, .f32⟩
  | 105 => ⟨S4096x64, .f32⟩
  | 106 => ⟨S4096x64, .f32⟩
  | 107 => ⟨S_, .i32⟩
  | 108 => ⟨S262144, .i32⟩
  | 109 => ⟨S262144, .i1⟩
  | 110 => ⟨S_, .i32⟩
  | 111 => ⟨S262144, .i32⟩
  | 112 => ⟨S262144, .i32⟩
  | 113 => ⟨S262144, .i32⟩
  | 114 => ⟨S262144x1, .i32⟩
  | 115 => ⟨S262144x64, .f32⟩
  | 116 => ⟨S_, .f32⟩
  | 117 => ⟨S4096x64, .f32⟩
  | 118 => ⟨S262144x1, .i32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S262144x1, .i32⟩
  | 125 => ⟨S4096x64, .f32⟩
  | 126 => ⟨S4096x64, .f32⟩
  | 127 => ⟨S4096x64, .f32⟩
  | _ => ⟨S50000x64, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S_, .i32⟩
  | 5 => ⟨S262144, .i32⟩
  | 6 => ⟨S262144, .i1⟩
  | 7 => ⟨S_, .i32⟩
  | 8 => ⟨S262144, .i32⟩
  | 9 => ⟨S262144, .i32⟩
  | 10 => ⟨S262144, .i32⟩
  | 11 => ⟨S262144x1, .i32⟩
  | 12 => ⟨S262144x64, .f32⟩
  | 13 => ⟨S4096x64, .f32⟩
  | 14 => ⟨S4096x64, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x64, .f32⟩
  | 24 => ⟨S_, .f32⟩
  | 25 => ⟨S4096x64, .f32⟩
  | 26 => ⟨S262144x1, .i32⟩
  | 27 => ⟨S4096x64, .f32⟩
  | 28 => ⟨S4096x64, .f32⟩
  | 29 => ⟨S4096x64, .f32⟩
  | 30 => ⟨S_, .f32⟩
  | 31 => ⟨S4096x64, .f32⟩
  | 32 => ⟨S262144x1, .i32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S_, .f32⟩
  | 40 => ⟨S4096, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x64, .f32⟩
  | 47 => ⟨S4096x64, .f32⟩
  | 48 => ⟨S4096x64, .f32⟩
  | 49 => ⟨S_, .f32⟩
  | 50 => ⟨S4096, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x64, .f32⟩
  | 57 => ⟨S4096x64, .f32⟩
  | 58 => ⟨S50000x64, .f32⟩
  | 59 => ⟨S_, .f32⟩
  | 60 => ⟨S50000, .f32⟩
  | 61 => ⟨S50000x1, .f32⟩
  | 62 => ⟨S50000x1, .f32⟩
  | 63 => ⟨S_, .f32⟩
  | 64 => ⟨S50000x1, .f32⟩
  | 65 => ⟨S50000x1, .f32⟩
  | 66 => ⟨S50000x64, .f32⟩
  | 67 => ⟨S50000x64, .f32⟩
  | 68 => ⟨S4096x1, .f32⟩
  | 69 => ⟨S4096, .f32⟩
  | 70 => ⟨S4096x64, .f32⟩
  | 71 => ⟨S_, .f32⟩
  | 72 => ⟨S4096, .f32⟩
  | 73 => ⟨S_, .f32⟩
  | 74 => ⟨S4096, .f32⟩
  | 75 => ⟨S4096, .f32⟩
  | 76 => ⟨S4096, .f32⟩
  | 77 => ⟨S4096, .f32⟩
  | 78 => ⟨S4096, .f32⟩
  | 79 => ⟨S4096, .f32⟩
  | 80 => ⟨S_, .f32⟩
  | 81 => ⟨S_, .f32⟩
  | 82 => ⟨S_, .f32⟩
  | 83 => ⟨S4096x64, .f32⟩
  | 84 => ⟨S_, .f32⟩
  | 85 => ⟨S4096, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x64, .f32⟩
  | 92 => ⟨S4096x64, .f32⟩
  | 93 => ⟨S4096x64, .f32⟩
  | 94 => ⟨S_, .f32⟩
  | 95 => ⟨S4096, .f32⟩
  | 96 => ⟨S4096x1, .f32⟩
  | 97 => ⟨S4096x1, .f32⟩
  | 98 => ⟨S_, .f32⟩
  | 99 => ⟨S4096x1, .f32⟩
  | 100 => ⟨S4096x1, .f32⟩
  | 101 => ⟨S4096x64, .f32⟩
  | 102 => ⟨S4096x64, .f32⟩
  | 103 => ⟨S25000x64, .f32⟩
  | 104 => ⟨S_, .f32⟩
  | 105 => ⟨S25000, .f32⟩
  | 106 => ⟨S25000x1, .f32⟩
  | 107 => ⟨S25000x1, .f32⟩
  | 108 => ⟨S_, .f32⟩
  | 109 => ⟨S25000x1, .f32⟩
  | 110 => ⟨S25000x1, .f32⟩
  | 111 => ⟨S25000x64, .f32⟩
  | 112 => ⟨S25000x64, .f32⟩
  | 113 => ⟨S4096x1, .f32⟩
  | 114 => ⟨S4096, .f32⟩
  | 115 => ⟨S4096x64, .f32⟩
  | 116 => ⟨S_, .f32⟩
  | 117 => ⟨S4096, .f32⟩
  | 118 => ⟨S_, .f32⟩
  | 119 => ⟨S4096, .f32⟩
  | 120 => ⟨S4096, .f32⟩
  | 121 => ⟨S4096, .f32⟩
  | 122 => ⟨S4096, .f32⟩
  | 123 => ⟨S4096, .f32⟩
  | 124 => ⟨S4096, .f32⟩
  | 125 => ⟨S_, .f32⟩
  | 126 => ⟨S_, .f32⟩
  | 127 => ⟨S_, .f32⟩
  | _ => ⟨S50000x64, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S4096x1, .i32⟩
  | 13 => ⟨S4096x64, .f32⟩
  | 14 => ⟨S4096x64, .f32⟩
  | 15 => ⟨S_, .f32⟩
  | 16 => ⟨S4096, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x64, .f32⟩
  | 23 => ⟨S4096x64, .f32⟩
  | 24 => ⟨S1000x64, .f32⟩
  | 25 => ⟨S_, .f32⟩
  | 26 => ⟨S1000, .f32⟩
  | 27 => ⟨S1000x1, .f32⟩
  | 28 => ⟨S1000x1, .f32⟩
  | 29 => ⟨S_, .f32⟩
  | 30 => ⟨S1000x1, .f32⟩
  | 31 => ⟨S1000x1, .f32⟩
  | 32 => ⟨S1000x64, .f32⟩
  | 33 => ⟨S1000x64, .f32⟩
  | 34 => ⟨S_, .i32⟩
  | 35 => ⟨S4096, .i32⟩
  | 36 => ⟨S4096, .i1⟩
  | 37 => ⟨S_, .i32⟩
  | 38 => ⟨S4096, .i32⟩
  | 39 => ⟨S4096, .i32⟩
  | 40 => ⟨S4096, .i32⟩
  | 41 => ⟨S4096x1, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x64, .f32⟩
  | 52 => ⟨S4096x64, .f32⟩
  | 53 => ⟨S_, .f32⟩
  | 54 => ⟨S4096, .f32⟩
  | 55 => ⟨S_, .f32⟩
  | 56 => ⟨S4096, .f32⟩
  | 57 => ⟨S4096, .f32⟩
  | 58 => ⟨S4096, .f32⟩
  | 59 => ⟨S4096x1, .f32⟩
  | 60 => ⟨S4096, .f32⟩
  | 61 => ⟨S4096, .f32⟩
  | 62 => ⟨S4096, .f32⟩
  | 63 => ⟨S4096, .f32⟩
  | 64 => ⟨S_, .f32⟩
  | 65 => ⟨S_, .f32⟩
  | 66 => ⟨S_, .f32⟩
  | 67 => ⟨S_, .i32⟩
  | 68 => ⟨S4096, .i32⟩
  | 69 => ⟨S4096, .i1⟩
  | 70 => ⟨S_, .i32⟩
  | 71 => ⟨S4096, .i32⟩
  | 72 => ⟨S4096, .i32⟩
  | 73 => ⟨S4096, .i32⟩
  | 74 => ⟨S4096x1, .i32⟩
  | 75 => ⟨S4096x64, .f32⟩
  | 76 => ⟨S4096x64, .f32⟩
  | 77 => ⟨S_, .f32⟩
  | 78 => ⟨S4096, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S4096x64, .f32⟩
  | 85 => ⟨S4096x64, .f32⟩
  | 86 => ⟨S1000x64, .f32⟩
  | 87 => ⟨S_, .f32⟩
  | 88 => ⟨S1000, .f32⟩
  | 89 => ⟨S1000x1, .f32⟩
  | 90 => ⟨S1000x1, .f32⟩
  | 91 => ⟨S_, .f32⟩
  | 92 => ⟨S1000x1, .f32⟩
  | 93 => ⟨S1000x1, .f32⟩
  | 94 => ⟨S1000x64, .f32⟩
  | 95 => ⟨S1000x64, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S4096x64, .f32⟩
  | 114 => ⟨S4096x64, .f32⟩
  | 115 => ⟨S_, .f32⟩
  | 116 => ⟨S4096, .f32⟩
  | 117 => ⟨S_, .f32⟩
  | 118 => ⟨S4096, .f32⟩
  | 119 => ⟨S4096, .f32⟩
  | 120 => ⟨S4096, .f32⟩
  | 121 => ⟨S4096x1, .f32⟩
  | 122 => ⟨S4096, .f32⟩
  | 123 => ⟨S4096, .f32⟩
  | 124 => ⟨S4096, .f32⟩
  | 125 => ⟨S4096, .f32⟩
  | 126 => ⟨S_, .f32⟩
  | 127 => ⟨S_, .f32⟩
  | _ => ⟨S50000x64, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096x64, .f32⟩
  | 6 => ⟨S4096x64, .f32⟩
  | 7 => ⟨S_, .f32⟩
  | 8 => ⟨S4096x64, .f32⟩
  | 9 => ⟨S4096x64, .f32⟩
  | 10 => ⟨S_, .i32⟩
  | 11 => ⟨S65536, .i32⟩
  | 12 => ⟨S65536, .i1⟩
  | 13 => ⟨S_, .i32⟩
  | 14 => ⟨S65536, .i32⟩
  | 15 => ⟨S65536, .i32⟩
  | 16 => ⟨S65536, .i32⟩
  | 17 => ⟨S65536x1, .i32⟩
  | 18 => ⟨S65536x64, .f32⟩
  | 19 => ⟨S_, .i32⟩
  | 20 => ⟨S65536, .i32⟩
  | 21 => ⟨S65536, .i1⟩
  | 22 => ⟨S_, .i32⟩
  | 23 => ⟨S65536, .i32⟩
  | 24 => ⟨S65536, .i32⟩
  | 25 => ⟨S65536, .i32⟩
  | 26 => ⟨S65536x1, .i32⟩
  | 27 => ⟨S65536x64, .f32⟩
  | 28 => ⟨S65536x64, .f32⟩
  | 29 => ⟨S_, .f32⟩
  | 30 => ⟨S65536, .f32⟩
  | 31 => ⟨S65536x1, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x64, .f32⟩
  | 41 => ⟨S_, .i32⟩
  | 42 => ⟨S65536, .i32⟩
  | 43 => ⟨S65536, .i1⟩
  | 44 => ⟨S_, .i32⟩
  | 45 => ⟨S65536, .i32⟩
  | 46 => ⟨S65536, .i32⟩
  | 47 => ⟨S65536, .i32⟩
  | 48 => ⟨S65536x1, .i32⟩
  | 49 => ⟨S65536x64, .f32⟩
  | 50 => ⟨S65536x64, .f32⟩
  | 51 => ⟨S_, .f32⟩
  | 52 => ⟨S65536, .f32⟩
  | 53 => ⟨S65536x1, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S256x64, .f32⟩
  | .local _ .vmem, ⟨2, _⟩ => ⟨S5000x64, .f32⟩
  | .local _ .vmem, ⟨3, _⟩ => ⟨S5000x64, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x64, .f32⟩
  | .local _ .vmem, ⟨8, _⟩ => ⟨S256x64, .f32⟩
  | .local _ .vmem, ⟨9, _⟩ => ⟨S5000x64, .f32⟩
  | .local _ .vmem, ⟨10, _⟩ => ⟨S5000x64, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x64, .f32⟩
  | .local _ .vmem, ⟨15, _⟩ => ⟨S256x64, .f32⟩
  | .local _ .vmem, ⟨16, _⟩ => ⟨S1000x64, .f32⟩
  | .local _ .vmem, ⟨17, _⟩ => ⟨S256x1, .f32⟩
  | .local _ .vmem, ⟨18, _⟩ => ⟨S256x1, .f32⟩
  | .local _ .vmem, ⟨19, _⟩ => ⟨S256x1, .f32⟩
  | .local _ .vmem, ⟨20, _⟩ => ⟨S256x64, .f32⟩
  | .local _ .vmem, ⟨21, _⟩ => ⟨S256x64, .f32⟩
  | .local _ .vmem, ⟨22, _⟩ => ⟨S1000x64, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_c_22 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_25 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call0_v0 : Ref sig .tc := ⟨.hbm, 166, rfl⟩
abbrev main_call0_cst : Ref sig .tc := ⟨.hbm, 167, rfl⟩
abbrev main_call0_v1 : Ref sig .tc := ⟨.hbm, 168, rfl⟩
abbrev main_call0_v2 : Ref sig .tc := ⟨.hbm, 169, rfl⟩
abbrev main_v123 : Ref sig .tc := ⟨.hbm, 170, rfl⟩
abbrev main_cst_27 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call1_v0 : Ref sig .tc := ⟨.hbm, 176, rfl⟩
abbrev main_call1_cst : Ref sig .tc := ⟨.hbm, 177, rfl⟩
abbrev main_call1_v1 : Ref sig .tc := ⟨.hbm, 178, rfl⟩
abbrev main_call1_v2 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_call2_v0 : Ref sig .tc := ⟨.hbm, 186, rfl⟩
abbrev main_call2_cst : Ref sig .tc := ⟨.hbm, 187, rfl⟩
abbrev main_call2_v1 : Ref sig .tc := ⟨.hbm, 188, rfl⟩
abbrev main_call2_v2 : Ref sig .tc := ⟨.hbm, 189, rfl⟩
abbrev main_v133 : Ref sig .tc := ⟨.hbm, 190, rfl⟩
abbrev main_cst_29 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_cst_30 : Ref sig .tc := ⟨.hbm, 199, rfl⟩
abbrev main_v141 : Ref sig .tc := ⟨.hbm, 200, rfl⟩
abbrev main_cst_31 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_32 : Ref sig .tc := ⟨.hbm, 208, rfl⟩
abbrev main_v148 : Ref sig .tc := ⟨.hbm, 209, rfl⟩
abbrev main_v149 : Ref sig .tc := ⟨.hbm, 210, rfl⟩
abbrev main_call3_v0 : Ref sig .tc := ⟨.hbm, 211, rfl⟩
abbrev main_call3_cst : Ref sig .tc := ⟨.hbm, 212, rfl⟩
abbrev main_call3_v1 : Ref sig .tc := ⟨.hbm, 213, rfl⟩
abbrev main_call3_v2 : Ref sig .tc := ⟨.hbm, 214, rfl⟩
abbrev main_v150 : Ref sig .tc := ⟨.hbm, 215, rfl⟩
abbrev main_cst_33 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_call4_v0 : Ref sig .tc := ⟨.hbm, 221, rfl⟩
abbrev main_call4_cst : Ref sig .tc := ⟨.hbm, 222, rfl⟩
abbrev main_call4_v1 : Ref sig .tc := ⟨.hbm, 223, rfl⟩
abbrev main_call4_v2 : Ref sig .tc := ⟨.hbm, 224, rfl⟩
abbrev main_v155 : Ref sig .tc := ⟨.hbm, 225, rfl⟩
abbrev main_cst_34 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_call5_v0 : Ref sig .tc := ⟨.hbm, 231, rfl⟩
abbrev main_call5_cst : Ref sig .tc := ⟨.hbm, 232, rfl⟩
abbrev main_call5_v1 : Ref sig .tc := ⟨.hbm, 233, rfl⟩
abbrev main_call5_v2 : Ref sig .tc := ⟨.hbm, 234, rfl⟩
abbrev main_v160 : Ref sig .tc := ⟨.hbm, 235, rfl⟩
abbrev main_cst_35 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_36 : Ref sig .tc := ⟨.hbm, 244, rfl⟩
abbrev main_v168 : Ref sig .tc := ⟨.hbm, 245, rfl⟩
abbrev main_cst_37 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_v173 : Ref sig .tc := ⟨.hbm, 251, rfl⟩
abbrev main_v174 : Ref sig .tc := ⟨.hbm, 252, rfl⟩
abbrev main_cst_38 : Ref sig .tc := ⟨.hbm, 253, rfl⟩
abbrev main_v175 : Ref sig .tc := ⟨.hbm, 254, rfl⟩
abbrev main_v176 : Ref sig .tc := ⟨.hbm, 255, rfl⟩
abbrev main_cst_39 : Ref sig .tc := ⟨.hbm, 256, rfl⟩
abbrev main_v177 : Ref sig .tc := ⟨.hbm, 257, rfl⟩
abbrev main_v178 : Ref sig .tc := ⟨.hbm, 258, rfl⟩
abbrev main_cst_40 : Ref sig .tc := ⟨.hbm, 259, rfl⟩
abbrev main_v179 : Ref sig .tc := ⟨.hbm, 260, rfl⟩
abbrev main_c_41 : Ref sig .tc := ⟨.hbm, 261, rfl⟩
abbrev main_v180 : Ref sig .tc := ⟨.hbm, 262, rfl⟩
abbrev main_v181 : Ref sig .tc := ⟨.hbm, 263, rfl⟩
abbrev main_c_42 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_call6_v0 : Ref sig .tc := ⟨.hbm, 270, rfl⟩
abbrev main_call6_cst : Ref sig .tc := ⟨.hbm, 271, rfl⟩
abbrev main_call6_v1 : Ref sig .tc := ⟨.hbm, 272, rfl⟩
abbrev main_call6_v2 : Ref sig .tc := ⟨.hbm, 273, rfl⟩
abbrev main_v187 : Ref sig .tc := ⟨.hbm, 274, rfl⟩
abbrev main_cst_43 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_call7_v0 : Ref sig .tc := ⟨.hbm, 280, rfl⟩
abbrev main_call7_cst : Ref sig .tc := ⟨.hbm, 281, rfl⟩
abbrev main_call7_v1 : Ref sig .tc := ⟨.hbm, 282, rfl⟩
abbrev main_call7_v2 : Ref sig .tc := ⟨.hbm, 283, rfl⟩
abbrev main_v192 : Ref sig .tc := ⟨.hbm, 284, rfl⟩
abbrev main_cst_44 : Ref sig .tc := ⟨.hbm, 285, rfl⟩
abbrev main_v193 : Ref sig .tc := ⟨.hbm, 286, rfl⟩
abbrev main_v194 : Ref sig .tc := ⟨.hbm, 287, rfl⟩
abbrev main_v195 : Ref sig .tc := ⟨.hbm, 288, rfl⟩
abbrev main_v196 : Ref sig .tc := ⟨.hbm, 289, rfl⟩
abbrev main_c_45 : Ref sig .tc := ⟨.hbm, 290, rfl⟩
abbrev main_v197 : Ref sig .tc := ⟨.hbm, 291, rfl⟩
abbrev main_v198 : Ref sig .tc := ⟨.hbm, 292, rfl⟩
abbrev main_c_46 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_c_47 : Ref sig .tc := ⟨.hbm, 299, rfl⟩
abbrev main_v204 : Ref sig .tc := ⟨.hbm, 300, rfl⟩
abbrev main_v205 : Ref sig .tc := ⟨.hbm, 301, rfl⟩
abbrev main_c_48 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_cst_49 : Ref sig .tc := ⟨.hbm, 309, rfl⟩
abbrev main_v212 : Ref sig .tc := ⟨.hbm, 310, rfl⟩
abbrev main_cst_50 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_cst_51 : Ref sig .tc := ⟨.hbm, 320, rfl⟩
abbrev main_v221 : Ref sig .tc := ⟨.hbm, 321, rfl⟩
abbrev main_v222 : Ref sig .tc := ⟨.hbm, 322, rfl⟩
abbrev main_c_52 : Ref sig .tc := ⟨.hbm, 323, rfl⟩
abbrev main_v223 : Ref sig .tc := ⟨.hbm, 324, rfl⟩
abbrev main_v224 : Ref sig .tc := ⟨.hbm, 325, rfl⟩
abbrev main_c_53 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_call8_v0 : Ref sig .tc := ⟨.hbm, 332, rfl⟩
abbrev main_call8_cst : Ref sig .tc := ⟨.hbm, 333, rfl⟩
abbrev main_call8_v1 : Ref sig .tc := ⟨.hbm, 334, rfl⟩
abbrev main_call8_v2 : Ref sig .tc := ⟨.hbm, 335, rfl⟩
abbrev main_v230 : Ref sig .tc := ⟨.hbm, 336, rfl⟩
abbrev main_cst_54 : Ref sig .tc := ⟨.hbm, 337, rfl⟩
abbrev main_v231 : Ref sig .tc := ⟨.hbm, 338, rfl⟩
abbrev main_v232 : Ref sig .tc := ⟨.hbm, 339, rfl⟩
abbrev main_v233 : Ref sig .tc := ⟨.hbm, 340, rfl⟩
abbrev main_v234 : Ref sig .tc := ⟨.hbm, 341, rfl⟩
abbrev main_call9_v0 : Ref sig .tc := ⟨.hbm, 342, rfl⟩
abbrev main_call9_cst : Ref sig .tc := ⟨.hbm, 343, rfl⟩
abbrev main_call9_v1 : Ref sig .tc := ⟨.hbm, 344, rfl⟩
abbrev main_call9_v2 : Ref sig .tc := ⟨.hbm, 345, rfl⟩
abbrev main_v235 : Ref sig .tc := ⟨.hbm, 346, rfl⟩
abbrev main_cst_55 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_v239 : Ref sig .tc := ⟨.hbm, 351, rfl⟩
abbrev main_c_56 : Ref sig .tc := ⟨.hbm, 352, rfl⟩
abbrev main_v240 : Ref sig .tc := ⟨.hbm, 353, rfl⟩
abbrev main_v241 : Ref sig .tc := ⟨.hbm, 354, rfl⟩
abbrev main_c_57 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_c_58 : Ref sig .tc := ⟨.hbm, 361, rfl⟩
abbrev main_v247 : Ref sig .tc := ⟨.hbm, 362, rfl⟩
abbrev main_v248 : Ref sig .tc := ⟨.hbm, 363, rfl⟩
abbrev main_c_59 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_v253 : Ref sig .tc := ⟨.hbm, 369, rfl⟩
abbrev main_v254 : Ref sig .tc := ⟨.hbm, 370, rfl⟩
abbrev main_cst_60 : Ref sig .tc := ⟨.hbm, 371, rfl⟩
abbrev main_v255 : Ref sig .tc := ⟨.hbm, 372, rfl⟩
abbrev main_cst_61 : Ref sig .tc := ⟨.hbm, 373, rfl⟩
abbrev main_v256 : Ref sig .tc := ⟨.hbm, 374, rfl⟩
abbrev main_v257 : Ref sig .tc := ⟨.hbm, 375, rfl⟩
abbrev main_v258 : Ref sig .tc := ⟨.hbm, 376, rfl⟩
abbrev main_v259 : Ref sig .tc := ⟨.hbm, 377, rfl⟩
abbrev main_v260 : Ref sig .tc := ⟨.hbm, 378, rfl⟩
abbrev main_v261 : Ref sig .tc := ⟨.hbm, 379, rfl⟩
abbrev main_v262 : Ref sig .tc := ⟨.hbm, 380, rfl⟩
abbrev main_v263 : Ref sig .tc := ⟨.hbm, 381, rfl⟩
abbrev main_cst_62 : Ref sig .tc := ⟨.hbm, 382, rfl⟩
abbrev main_v264 : Ref sig .tc := ⟨.hbm, 383, rfl⟩
abbrev main_v265 : Ref sig .tc := ⟨.hbm, 384, rfl⟩
abbrev main_v266 : Ref sig .tc := ⟨.hbm, 385, rfl⟩
abbrev main_cst_63 : Ref sig .tc := ⟨.hbm, 386, rfl⟩
abbrev main_v267 : Ref sig .tc := ⟨.hbm, 387, rfl⟩
abbrev main_cst_64 : Ref sig .tc := ⟨.hbm, 388, rfl⟩
abbrev main_v268 : Ref sig .tc := ⟨.hbm, 389, rfl⟩
abbrev main_v269 : Ref sig .tc := ⟨.hbm, 390, rfl⟩
abbrev main_cst_65 : Ref sig .tc := ⟨.hbm, 391, rfl⟩
abbrev main_v270 : Ref sig .tc := ⟨.hbm, 392, rfl⟩
abbrev main_v271 : Ref sig .tc := ⟨.hbm, 393, rfl⟩
abbrev main_c_66 : Ref sig .tc := ⟨.hbm, 394, rfl⟩
abbrev main_v272 : Ref sig .tc := ⟨.hbm, 395, rfl⟩
abbrev main_v273 : Ref sig .tc := ⟨.hbm, 396, rfl⟩
abbrev main_c_67 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_v277 : Ref sig .tc := ⟨.hbm, 401, rfl⟩
abbrev main_v278 : Ref sig .tc := ⟨.hbm, 402, rfl⟩
abbrev main_c_68 : Ref sig .tc := ⟨.hbm, 403, rfl⟩
abbrev main_v279 : Ref sig .tc := ⟨.hbm, 404, rfl⟩
abbrev main_v280 : Ref sig .tc := ⟨.hbm, 405, rfl⟩
abbrev main_c_69 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_v284 : Ref sig .tc := ⟨.hbm, 410, rfl⟩
abbrev main_v285 : Ref sig .tc := ⟨.hbm, 411, rfl⟩
abbrev main_v286 : Ref sig .tc := ⟨.hbm, 412, rfl⟩
abbrev main_cst_70 : Ref sig .tc := ⟨.hbm, 413, rfl⟩
abbrev main_v287 : Ref sig .tc := ⟨.hbm, 414, rfl⟩
abbrev main_v288 : Ref sig .tc := ⟨.hbm, 415, rfl⟩
abbrev main_c_71 : Ref sig .tc := ⟨.hbm, 416, rfl⟩
abbrev main_v289 : Ref sig .tc := ⟨.hbm, 417, rfl⟩
abbrev main_v290 : Ref sig .tc := ⟨.hbm, 418, rfl⟩
abbrev main_c_72 : Ref sig .tc := ⟨.hbm, 419, rfl⟩
abbrev main_v291 : Ref sig .tc := ⟨.hbm, 420, rfl⟩
abbrev main_v292 : Ref sig .tc := ⟨.hbm, 421, rfl⟩
abbrev main_v293 : Ref sig .tc := ⟨.hbm, 422, rfl⟩
abbrev main_v294 : Ref sig .tc := ⟨.hbm, 423, rfl⟩
abbrev main_v295 : Ref sig .tc := ⟨.hbm, 424, rfl⟩
abbrev main_c_73 : Ref sig .tc := ⟨.hbm, 425, rfl⟩
abbrev main_v296 : Ref sig .tc := ⟨.hbm, 426, rfl⟩
abbrev main_v297 : Ref sig .tc := ⟨.hbm, 427, rfl⟩
abbrev main_c_74 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_v301 : Ref sig .tc := ⟨.hbm, 432, rfl⟩
abbrev main_v302 : Ref sig .tc := ⟨.hbm, 433, rfl⟩
abbrev main_v303 : Ref sig .tc := ⟨.hbm, 434, rfl⟩
abbrev main_cst_75 : Ref sig .tc := ⟨.hbm, 435, rfl⟩
abbrev main_v304 : Ref sig .tc := ⟨.hbm, 436, rfl⟩
abbrev main_v305 : Ref sig .tc := ⟨.hbm, 437, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v20 : BitVec 1 := Scalar.cmpi .eq arg1 c9_i32
  let v21 : BitVec 32 := Scalar.extui v20
  let c0_i32_10 : BitVec 32 := 0#32
  let v22 : BitVec 1 := Scalar.cmpi .ne v21 c0_i32_10
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 5], ![false, false]⟩

def k1_cond2 (i : grid1.Coords) : BitVec 1 :=
  let arg1 : BitVec 32 := BitVec.ofNat 32 (i 1).val
  let c4_i32 : BitVec 32 := 4#32
  let v20 : BitVec 1 := Scalar.cmpi .eq arg1 c4_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![16, 1], ![false, false]⟩

def k2_cond2 (i : grid2.Coords) : BitVec 1 :=
  let arg1 : BitVec 32 := BitVec.ofNat 32 (i 1).val
  let c0_i32_10 : BitVec 32 := 0#32
  let v20 : BitVec 1 := Scalar.cmpi .eq arg1 c0_i32_10
  let v21 : BitVec 32 := Scalar.extui v20
  let c0_i32_11 : BitVec 32 := 0#32
  let v22 : BitVec 1 := Scalar.cmpi .ne v21 c0_i32_11
  v22

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![16, 1], ![false, false]⟩

def k3_cond2 (i : grid3.Coords) : BitVec 1 :=
  let arg1 : BitVec 32 := BitVec.ofNat 32 (i 1).val
  let c0_i32_10 : BitVec 32 := 0#32
  let v20 : BitVec 1 := Scalar.cmpi .eq arg1 c0_i32_10
  let v21 : BitVec 32 := Scalar.extui v20
  let c0_i32_11 : BitVec 32 := 0#32
  let v22 : BitVec 1 := Scalar.cmpi .ne v21 c0_i32_11
  v22

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

class Facts₀ : Prop where
  bcast_S_S262144 : S_.BroadcastsInDim S262144 (![] : Fin 0 → Fin S262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  h_S_ : 0 < S_.numel
  bcast_S_S4096x1 : S_.BroadcastsInDim S4096x1 (![] : Fin 0 → Fin S4096x1.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S256x5000_S256 : S256x5000.Reduces [1] S256
  shapeCasts_S256_S256x1 : S256.ShapeCasts S256x1
  shapeCasts_S4096x1_S4096 : S4096x1.ShapeCasts S4096
  reducesTo_S4096_S_d0 : S4096.ReducesTo [0] S_
  reducesTo_S25000x64_S25000_d1 : S25000x64.ReducesTo [1] S25000
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x64_0_1 : S25000x1.BroadcastsInDim S25000x64 (![0, 1] : Fin 2 → Fin S25000x64.rank)
  reducesTo_S1000x64_S1000_d1 : S1000x64.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  reduces_S256x1000_S256 : S256x1000.Reduces [1] S256
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  scatter_S4096_S262144x1_S262144_n_0_0_1_wf : ScatterDims.WF S4096 S262144x1 S262144 [] [0] [0] 1
  gather_S50000x64_S4096x1_S4096x64_1_0_n_n_0_1_164_wf : GatherDims.WF S50000x64 S4096x1 S4096x64 [1] [0] [] [0] [] 1 ![1, 64]
  gather_S25000x64_S4096x1_S4096x64_1_0_n_n_0_1_164_wf : GatherDims.WF S25000x64 S4096x1 S4096x64 [1] [0] [] [0] [] 1 ![1, 64]
  gather_S4096x64_S262144x1_S262144x64_1_0_n_n_0_1_164_wf : GatherDims.WF S4096x64 S262144x1 S262144x64 [1] [0] [] [0] [] 1 ![1, 64]
  scatter_S4096x64_S262144x1_S262144x64_1_0_0_1_wf : ScatterDims.WF S4096x64 S262144x1 S262144x64 [1] [0] [0] 1
  dot_S256x64_S5000x64_S256x5000_1_1_0_0_n_n_wf : DotDims.WF S256x64 S5000x64 S256x5000 [1] [1] [0] [0] [] []
  gather_S50000_S4096x1_S4096_n_0_n_n_0_1_1_wf : GatherDims.WF S50000 S4096x1 S4096 [] [0] [] [0] [] 1 ![1]
  gather_S1000x64_S4096x1_S4096x64_1_0_n_n_0_1_164_wf : GatherDims.WF S1000x64 S4096x1 S4096x64 [1] [0] [] [0] [] 1 ![1, 64]
  dot_S256x64_S1000x64_S256x1000_1_1_0_0_n_n_wf : DotDims.WF S256x64 S1000x64 S256x1000 [1] [1] [0] [0] [] []
  gather_S25000_S4096x1_S4096_n_0_n_n_0_1_1_wf : GatherDims.WF S25000 S4096x1 S4096 [] [0] [] [0] [] 1 ![1]
  gather_S4096x64_S65536x1_S65536x64_1_0_n_n_0_1_164_wf : GatherDims.WF S4096x64 S65536x1 S65536x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .f32 = 32 ∨ (Rect.block (s := S4096x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S4096x64.size a
  hwx1_0 : ∀ i : grid1.Coords, EltTy.bits .f32 = 32 ∨ (Rect.block (s := S4096x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S25000x64.size a
  hwx1_1 : ∀ i : grid1.Coords, EltTy.bits .f32 = 32 ∨ (Rect.block (s := S25000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x64.size a ≤ S4096x64.size a
  hwx2_0 : ∀ i : grid2.Coords, EltTy.bits .f32 = 32 ∨ (Rect.block (s := S4096x64) S256x64.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1000x64.size a ≤ S1000x64.size a
  hwx2_1 : ∀ i : grid2.Coords, EltTy.bits .f32 = 32 ∨ (Rect.block (s := S1000x64) S1000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x64.size a ≤ S4096x64.size a
  hwx3_0 : ∀ i : grid3.Coords, EltTy.bits .f32 = 32 ∨ (Rect.block (s := S4096x64) S256x64.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S1000x64.size a ≤ S1000x64.size a
  hwx3_1 : ∀ i : grid3.Coords, EltTy.bits .f32 = 32 ∨ (Rect.block (s := S1000x64) S1000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S4096x1.size a
  hwx3_2 : ∀ i : grid3.Coords, EltTy.bits .f32 = 32 ∨ (Rect.block (s := S4096x1) S256x1.size (cc3_transform_2 i) (hinb3_2 i)).WholeWords (EltTy.packing .f32)

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S25000x64_S4096x1_S4096x64_1_0_n_n_0_1_164 : GatherDims S25000x64 S4096x1 S4096x64 where
  offsetDims := [1]
  collapsedSliceDims := [0]
  operandBatchingDims := []
  startIndicesBatchingDims := []
  startIndexMap := [0]
  indexVectorDim := 1
  sliceSizes := ![1, 64]
  wf := gather_S25000x64_S4096x1_S4096x64_1_0_n_n_0_1_164_wf
def gather_S4096x64_S262144x1_S262144x64_1_0_n_n_0_1_164 : GatherDims S4096x64 S262144x1 S262144x64 where
  offsetDims := [1]
  collapsedSliceDims := [0]
  operandBatchingDims := []
  startIndicesBatchingDims := []
  startIndexMap := [0]
  indexVectorDim := 1
  sliceSizes := ![1, 64]
  wf := gather_S4096x64_S262144x1_S262144x64_1_0_n_n_0_1_164_wf
def scatter_S4096x64_S262144x1_S262144x64_1_0_0_1 : ScatterDims S4096x64 S262144x1 S262144x64 where
  updateWindowDims := [1]
  insertedWindowDims := [0]
  scatterDimsToOperandDims := [0]
  indexVectorDim := 1
  wf := scatter_S4096x64_S262144x1_S262144x64_1_0_0_1_wf
def dot_S256x64_S5000x64_S256x5000_1_1_0_0_n_n : DotDims S256x64 S5000x64 S256x5000 where
  lhsContracting := [1]
  rhsContracting := [1]
  lhsNonContracting := [0]
  rhsNonContracting := [0]
  lhsBatch := []
  rhsBatch := []
  wf := dot_S256x64_S5000x64_S256x5000_1_1_0_0_n_n_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf
def gather_S1000x64_S4096x1_S4096x64_1_0_n_n_0_1_164 : GatherDims S1000x64 S4096x1 S4096x64 where
  offsetDims := [1]
  collapsedSliceDims := [0]
  operandBatchingDims := []
  startIndicesBatchingDims := []
  startIndexMap := [0]
  indexVectorDim := 1
  sliceSizes := ![1, 64]
  wf := gather_S1000x64_S4096x1_S4096x64_1_0_n_n_0_1_164_wf
def dot_S256x64_S1000x64_S256x1000_1_1_0_0_n_n : DotDims S256x64 S1000x64 S256x1000 where
  lhsContracting := [1]
  rhsContracting := [1]
  lhsNonContracting := [0]
  rhsNonContracting := [0]
  lhsBatch := []
  rhsBatch := []
  wf := dot_S256x64_S1000x64_S256x1000_1_1_0_0_n_n_wf
def gather_S25000_S4096x1_S4096_n_0_n_n_0_1_1 : GatherDims S25000 S4096x1 S4096 where
  offsetDims := []
  collapsedSliceDims := [0]
  operandBatchingDims := []
  startIndicesBatchingDims := []
  startIndexMap := [0]
  indexVectorDim := 1
  sliceSizes := ![1]
  wf := gather_S25000_S4096x1_S4096_n_0_n_n_0_1_1_wf
def gather_S4096x64_S65536x1_S65536x64_1_0_n_n_0_1_164 : GatherDims S4096x64 S65536x1 S65536x64 where
  offsetDims := [1]
  collapsedSliceDims := [0]
  operandBatchingDims := []
  startIndicesBatchingDims := []
  startIndexMap := [0]
  indexVectorDim := 1
  sliceSizes := ![1, 64]
  wf := gather_S4096x64_S65536x1_S65536x64_1_0_n_n_0_1_164_wf

abbrev win0_0 : Pipeline.Window sig grid0 :=
  Pipeline.Window.ofSpec (Memref.whole main_v127) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v137) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v138) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v154) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v164) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v165) S256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v191) S256x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v196) S1000x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v216) S256x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v234) S256x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v239) S1000x64.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v259) S256x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x64 : Shape := ⟨2, ![50000, 64]⟩
abbrev S25000x64 : Shape := ⟨2, ![25000, 64]⟩
abbrev S1000x64 : Shape := ⟨2, ![1000, 64]⟩
abbrev S262144 : Shape := ⟨1, ![262144]⟩
abbrev S65536 : Shape := ⟨1, ![65536]⟩
abbrev S4096 : Shape := ⟨1, ![4096]⟩
abbrev S50000 : Shape := ⟨1, ![50000]⟩
abbrev S25000 : Shape := ⟨1, ![25000]⟩
abbrev S_ : Shape := ⟨0, ![]⟩
abbrev S262144x1 : Shape := ⟨2, ![262144, 1]⟩
abbrev S4096x1 : Shape := ⟨2, ![4096, 1]⟩
abbrev S4096x64 : Shape := ⟨2, ![4096, 64]⟩
abbrev S262144x64 : Shape := ⟨2, ![262144, 64]⟩
abbrev S50000x1 : Shape := ⟨2, ![50000, 1]⟩
abbrev S64x50000 : Shape := ⟨2, ![64, 50000]⟩
abbrev S4096x50000 : Shape := ⟨2, ![4096, 50000]⟩
abbrev S25000x1 : Shape := ⟨2, ![25000, 1]⟩
abbrev S64x25000 : Shape := ⟨2, ![64, 25000]⟩
abbrev S4096x25000 : Shape := ⟨2, ![4096, 25000]⟩
abbrev S1000 : Shape := ⟨1, ![1000]⟩
abbrev S1000x1 : Shape := ⟨2, ![1000, 1]⟩
abbrev S64x1000 : Shape := ⟨2, ![64, 1000]⟩
abbrev S4096x1000 : Shape := ⟨2, ![4096, 1000]⟩
abbrev S65536x1 : Shape := ⟨2, ![65536, 1]⟩
abbrev S65536x64 : Shape := ⟨2, ![65536, 64]⟩

abbrev nBuf : Space → Nat
  | .hbm => 458
  | .vmem => 0
  | .smem => 0
  | _ => 0

abbrev hbmTy0_0 (i : Nat) : BufTy := match i % 128 with
  | 0 => ⟨S50000x64, .f32⟩
  | 1 => ⟨S25000x64, .f32⟩
  | 2 => ⟨S1000x64, .f32⟩
  | 3 => ⟨S1000x64, .f32⟩
  | 4 => ⟨S262144, .i32⟩
  | 5 => ⟨S262144, .i32⟩
  | 6 => ⟨S65536, .i32⟩
  | 7 => ⟨S65536, .i32⟩
  | 8 => ⟨S65536, .i32⟩
  | 9 => ⟨S65536, .i32⟩
  | 10 => ⟨S4096, .i32⟩
  | 11 => ⟨S4096, .i32⟩
  | 12 => ⟨S50000, .i32⟩
  | 13 => ⟨S25000, .i32⟩
  | 14 => ⟨S_, .f32⟩
  | 15 => ⟨S262144, .f32⟩
  | 16 => ⟨S_, .f32⟩
  | 17 => ⟨S4096, .f32⟩
  | 18 => ⟨S262144x1, .i32⟩
  | 19 => ⟨S4096, .f32⟩
  | 20 => ⟨S_, .f32⟩
  | 21 => ⟨S4096, .f32⟩
  | 22 => ⟨S262144x1, .i32⟩
  | 23 => ⟨S4096, .f32⟩
  | 24 => ⟨S_, .f32⟩
  | 25 => ⟨S4096, .f32⟩
  | 26 => ⟨S4096, .f32⟩
  | 27 => ⟨S4096, .f32⟩
  | 28 => ⟨S_, .f32⟩
  | 29 => ⟨S4096, .f32⟩
  | 30 => ⟨S4096, .f32⟩
  | 31 => ⟨S4096x1, .f32⟩
  | 32 => ⟨S_, .f32⟩
  | 33 => ⟨S4096, .f32⟩
  | 34 => ⟨S4096, .f32⟩
  | 35 => ⟨S4096, .f32⟩
  | 36 => ⟨S_, .f32⟩
  | 37 => ⟨S4096, .f32⟩
  | 38 => ⟨S4096, .f32⟩
  | 39 => ⟨S4096x1, .f32⟩
  | 40 => ⟨S_, .i32⟩
  | 41 => ⟨S4096, .i32⟩
  | 42 => ⟨S4096, .i1⟩
  | 43 => ⟨S_, .i32⟩
  | 44 => ⟨S4096, .i32⟩
  | 45 => ⟨S4096, .i32⟩
  | 46 => ⟨S4096, .i32⟩
  | 47 => ⟨S4096x1, .i32⟩
  | 48 => ⟨S4096x64, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S4096x64, .f32⟩
  | 58 => ⟨S4096x64, .f32⟩
  | 59 => ⟨S4096x64, .f32⟩
  | 60 => ⟨S_, .i32⟩
  | 61 => ⟨S262144, .i32⟩
  | 62 => ⟨S262144, .i1⟩
  | 63 => ⟨S_, .i32⟩
  | 64 => ⟨S262144, .i32⟩
  | 65 => ⟨S262144, .i32⟩
  | 66 => ⟨S262144, .i32⟩
  | 67 => ⟨S262144x1, .i32⟩
  | 68 => ⟨S262144x64, .f32⟩
  | 69 => ⟨S4096x64, .f32⟩
  | 70 => ⟨S4096x64, .f32⟩
  | 71 => ⟨S_, .i32⟩
  | 72 => ⟨S262144, .i32⟩
  | 73 => ⟨S262144, .i1⟩
  | 74 => ⟨S_, .i32⟩
  | 75 => ⟨S262144, .i32⟩
  | 76 => ⟨S262144, .i32⟩
  | 77 => ⟨S262144, .i32⟩
  | 78 => ⟨S262144x1, .i32⟩
  | 79 => ⟨S262144x64, .f32⟩
  | 80 => ⟨S_, .f32⟩
  | 81 => ⟨S4096x64, .f32⟩
  | 82 => ⟨S262144x1, .i32⟩
  | 83 => ⟨S4096x64, .f32⟩
  | 84 => ⟨S4096x64, .f32⟩
  | 85 => ⟨S4096x64, .f32⟩
  | 86 => ⟨S_, .f32⟩
  | 87 => ⟨S4096x64, .f32⟩
  | 88 => ⟨S262144x1, .i32⟩
  | 89 => ⟨S4096x64, .f32⟩
  | 90 => ⟨S4096x64, .f32⟩
  | 91 => ⟨S4096x64, .f32⟩
  | 92 => ⟨S4096x64, .f32⟩
  | 93 => ⟨S4096x64, .f32⟩
  | 94 => ⟨S4096x64, .f32⟩
  | 95 => ⟨S4096x64, .f32⟩
  | 96 => ⟨S_, .i32⟩
  | 97 => ⟨S262144, .i32⟩
  | 98 => ⟨S262144, .i1⟩
  | 99 => ⟨S_, .i32⟩
  | 100 => ⟨S262144, .i32⟩
  | 101 => ⟨S262144, .i32⟩
  | 102 => ⟨S262144, .i32⟩
  | 103 => ⟨S262144x1, .i32⟩
  | 104 => ⟨S262144x64, .f32⟩
  | 105 => ⟨S4096x64, .f32⟩
  | 106 => ⟨S4096x64, .f32⟩
  | 107 => ⟨S_, .i32⟩
  | 108 => ⟨S262144, .i32⟩
  | 109 => ⟨S262144, .i1⟩
  | 110 => ⟨S_, .i32⟩
  | 111 => ⟨S262144, .i32⟩
  | 112 => ⟨S262144, .i32⟩
  | 113 => ⟨S262144, .i32⟩
  | 114 => ⟨S262144x1, .i32⟩
  | 115 => ⟨S262144x64, .f32⟩
  | 116 => ⟨S_, .f32⟩
  | 117 => ⟨S4096x64, .f32⟩
  | 118 => ⟨S262144x1, .i32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S262144x1, .i32⟩
  | 125 => ⟨S4096x64, .f32⟩
  | 126 => ⟨S4096x64, .f32⟩
  | 127 => ⟨S4096x64, .f32⟩
  | _ => ⟨S50000x64, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S_, .i32⟩
  | 5 => ⟨S262144, .i32⟩
  | 6 => ⟨S262144, .i1⟩
  | 7 => ⟨S_, .i32⟩
  | 8 => ⟨S262144, .i32⟩
  | 9 => ⟨S262144, .i32⟩
  | 10 => ⟨S262144, .i32⟩
  | 11 => ⟨S262144x1, .i32⟩
  | 12 => ⟨S262144x64, .f32⟩
  | 13 => ⟨S4096x64, .f32⟩
  | 14 => ⟨S4096x64, .f32⟩
  | 15 => ⟨S_, .i32⟩
  | 16 => ⟨S262144, .i32⟩
  | 17 => ⟨S262144, .i1⟩
  | 18 => ⟨S_, .i32⟩
  | 19 => ⟨S262144, .i32⟩
  | 20 => ⟨S262144, .i32⟩
  | 21 => ⟨S262144, .i32⟩
  | 22 => ⟨S262144x1, .i32⟩
  | 23 => ⟨S262144x64, .f32⟩
  | 24 => ⟨S_, .f32⟩
  | 25 => ⟨S4096x64, .f32⟩
  | 26 => ⟨S262144x1, .i32⟩
  | 27 => ⟨S4096x64, .f32⟩
  | 28 => ⟨S4096x64, .f32⟩
  | 29 => ⟨S4096x64, .f32⟩
  | 30 => ⟨S_, .f32⟩
  | 31 => ⟨S4096x64, .f32⟩
  | 32 => ⟨S262144x1, .i32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S_, .f32⟩
  | 40 => ⟨S4096, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x64, .f32⟩
  | 47 => ⟨S4096x64, .f32⟩
  | 48 => ⟨S4096x64, .f32⟩
  | 49 => ⟨S_, .f32⟩
  | 50 => ⟨S4096, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x64, .f32⟩
  | 57 => ⟨S4096x64, .f32⟩
  | 58 => ⟨S50000x64, .f32⟩
  | 59 => ⟨S_, .f32⟩
  | 60 => ⟨S50000, .f32⟩
  | 61 => ⟨S50000x1, .f32⟩
  | 62 => ⟨S50000x1, .f32⟩
  | 63 => ⟨S_, .f32⟩
  | 64 => ⟨S50000x1, .f32⟩
  | 65 => ⟨S50000x1, .f32⟩
  | 66 => ⟨S50000x64, .f32⟩
  | 67 => ⟨S50000x64, .f32⟩
  | 68 => ⟨S4096x64, .f32⟩
  | 69 => ⟨S_, .f32⟩
  | 70 => ⟨S4096, .f32⟩
  | 71 => ⟨S_, .f32⟩
  | 72 => ⟨S4096, .f32⟩
  | 73 => ⟨S4096, .f32⟩
  | 74 => ⟨S4096, .f32⟩
  | 75 => ⟨S64x50000, .f32⟩
  | 76 => ⟨S4096x50000, .f32⟩
  | 77 => ⟨S_, .f32⟩
  | 78 => ⟨S4096x50000, .f32⟩
  | 79 => ⟨S4096x50000, .f32⟩
  | 80 => ⟨S4096x50000, .f32⟩
  | 81 => ⟨S_, .f32⟩
  | 82 => ⟨S4096, .f32⟩
  | 83 => ⟨S4096, .f32⟩
  | 84 => ⟨S4096, .f32⟩
  | 85 => ⟨S_, .f32⟩
  | 86 => ⟨S_, .f32⟩
  | 87 => ⟨S_, .f32⟩
  | 88 => ⟨S4096x64, .f32⟩
  | 89 => ⟨S_, .f32⟩
  | 90 => ⟨S4096, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x64, .f32⟩
  | 97 => ⟨S4096x64, .f32⟩
  | 98 => ⟨S4096x64, .f32⟩
  | 99 => ⟨S_, .f32⟩
  | 100 => ⟨S4096, .f32⟩
  | 101 => ⟨S4096x1, .f32⟩
  | 102 => ⟨S4096x1, .f32⟩
  | 103 => ⟨S_, .f32⟩
  | 104 => ⟨S4096x1, .f32⟩
  | 105 => ⟨S4096x1, .f32⟩
  | 106 => ⟨S4096x64, .f32⟩
  | 107 => ⟨S4096x64, .f32⟩
  | 108 => ⟨S25000x64, .f32⟩
  | 109 => ⟨S_, .f32⟩
  | 110 => ⟨S25000, .f32⟩
  | 111 => ⟨S25000x1, .f32⟩
  | 112 => ⟨S25000x1, .f32⟩
  | 113 => ⟨S_, .f32⟩
  | 114 => ⟨S25000x1, .f32⟩
  | 115 => ⟨S25000x1, .f32⟩
  | 116 => ⟨S25000x64, .f32⟩
  | 117 => ⟨S25000x64, .f32⟩
  | 118 => ⟨S4096x64, .f32⟩
  | 119 => ⟨S_, .f32⟩
  | 120 => ⟨S4096, .f32⟩
  | 121 => ⟨S_, .f32⟩
  | 122 => ⟨S4096, .f32⟩
  | 123 => ⟨S4096, .f32⟩
  | 124 => ⟨S4096, .f32⟩
  | 125 => ⟨S64x25000, .f32⟩
  | 126 => ⟨S4096x25000, .f32⟩
  | 127 => ⟨S_, .f32⟩
  | _ => ⟨S50000x64, .f32⟩

abbrev hbmTy0_2 (i : Nat) : BufTy := match i % 128 with
  | 0 => ⟨S4096x25000, .f32⟩
  | 1 => ⟨S4096x25000, .f32⟩
  | 2 => ⟨S4096x25000, .f32⟩
  | 3 => ⟨S_, .f32⟩
  | 4 => ⟨S4096, .f32⟩
  | 5 => ⟨S4096, .f32⟩
  | 6 => ⟨S4096, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x64, .f32⟩
  | 24 => ⟨S4096x64, .f32⟩
  | 25 => ⟨S_, .f32⟩
  | 26 => ⟨S4096, .f32⟩
  | 27 => ⟨S4096x1, .f32⟩
  | 28 => ⟨S4096x1, .f32⟩
  | 29 => ⟨S_, .f32⟩
  | 30 => ⟨S4096x1, .f32⟩
  | 31 => ⟨S4096x1, .f32⟩
  | 32 => ⟨S4096x64, .f32⟩
  | 33 => ⟨S4096x64, .f32⟩
  | 34 => ⟨S1000x64, .f32⟩
  | 35 => ⟨S_, .f32⟩
  | 36 => ⟨S1000, .f32⟩
  | 37 => ⟨S1000x1, .f32⟩
  | 38 => ⟨S1000x1, .f32⟩
  | 39 => ⟨S_, .f32⟩
  | 40 => ⟨S1000x1, .f32⟩
  | 41 => ⟨S1000x1, .f32⟩
  | 42 => ⟨S1000x64, .f32⟩
  | 43 => ⟨S1000x64, .f32⟩
  | 44 => ⟨S_, .i32⟩
  | 45 => ⟨S4096, .i32⟩
  | 46 => ⟨S4096, .i1⟩
  | 47 => ⟨S_, .i32⟩
  | 48 => ⟨S4096, .i32⟩
  | 49 => ⟨S4096, .i32⟩
  | 50 => ⟨S4096, .i32⟩
  | 51 => ⟨S4096x1, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S4096x64, .f32⟩
  | 62 => ⟨S4096x64, .f32⟩
  | 63 => ⟨S_, .f32⟩
  | 64 => ⟨S4096, .f32⟩
  | 65 => ⟨S_, .f32⟩
  | 66 => ⟨S4096, .f32⟩
  | 67 => ⟨S4096, .f32⟩
  | 68 => ⟨S4096, .f32⟩
  | 69 => ⟨S64x1000, .f32⟩
  | 70 => ⟨S4096x1000, .f32⟩
  | 71 => ⟨S_, .f32⟩
  | 72 => ⟨S4096x1000, .f32⟩
  | 73 => ⟨S4096x1000, .f32⟩
  | 74 => ⟨S4096x1000, .f32⟩
  | 75 => ⟨S_, .f32⟩
  | 76 => ⟨S4096, .f32⟩
  | 77 => ⟨S4096, .f32⟩
  | 78 => ⟨S4096, .f32⟩
  | 79 => ⟨S_, .f32⟩
  | 80 => ⟨S_, .f32⟩
  | 81 => ⟨S_, .f32⟩
  | 82 => ⟨S_, .i32⟩
  | 83 => ⟨S4096, .i32⟩
  | 84 => ⟨S4096, .i1⟩
  | 85 => ⟨S_, .i32⟩
  | 86 => ⟨S4096, .i32⟩
  | 87 => ⟨S4096, .i32⟩
  | 88 => ⟨S4096, .i32⟩
  | 89 => ⟨S4096x1, .i32⟩
  | 90 => ⟨S4096x64, .f32⟩
  | 91 => ⟨S4096x64, .f32⟩
  | 92 => ⟨S_, .f32⟩
  | 93 => ⟨S4096, .f32⟩
  | 94 => ⟨S4096x1, .f32⟩
  | 95 => ⟨S4096x1, .f32⟩
  | 96 => ⟨S_, .f32⟩
  | 97 => ⟨S4096x1, .f32⟩
  | 98 => ⟨S4096x1, .f32⟩
  | 99 => ⟨S4096x64, .f32⟩
  | 100 => ⟨S4096x64, .f32⟩
  | 101 => ⟨S1000x64, .f32⟩
  | 102 => ⟨S_, .f32⟩
  | 103 => ⟨S1000, .f32⟩
  | 104 => ⟨S1000x1, .f32⟩
  | 105 => ⟨S1000x1, .f32⟩
  | 106 => ⟨S_, .f32⟩
  | 107 => ⟨S1000x1, .f32⟩
  | 108 => ⟨S1000x1, .f32⟩
  | 109 => ⟨S1000x64, .f32⟩
  | 110 => ⟨S1000x64, .f32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S4096x1, .i32⟩
  | _ => ⟨S50000x64, .f32⟩

abbrev hbmTy0_3 (i : Nat) : BufTy := match i % 128 with
  | 0 => ⟨S4096x64, .f32⟩
  | 1 => ⟨S4096x64, .f32⟩
  | 2 => ⟨S_, .f32⟩
  | 3 => ⟨S4096, .f32⟩
  | 4 => ⟨S_, .f32⟩
  | 5 => ⟨S4096, .f32⟩
  | 6 => ⟨S4096, .f32⟩
  | 7 => ⟨S4096, .f32⟩
  | 8 => ⟨S64x1000, .f32⟩
  | 9 => ⟨S4096x1000, .f32⟩
  | 10 => ⟨S_, .f32⟩
  | 11 => ⟨S4096x1000, .f32⟩
  | 12 => ⟨S4096x1000, .f32⟩
  | 13 => ⟨S4096x1000, .f32⟩
  | 14 => ⟨S_, .f32⟩
  | 15 => ⟨S4096, .f32⟩
  | 16 => ⟨S4096, .f32⟩
  | 17 => ⟨S4096, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S_, .i32⟩
  | 31 => ⟨S65536, .i32⟩
  | 32 => ⟨S65536, .i1⟩
  | 33 => ⟨S_, .i32⟩
  | 34 => ⟨S65536, .i32⟩
  | 35 => ⟨S65536, .i32⟩
  | 36 => ⟨S65536, .i32⟩
  | 37 => ⟨S65536x1, .i32⟩
  | 38 => ⟨S65536x64, .f32⟩
  | 39 => ⟨S_, .i32⟩
  | 40 => ⟨S65536, .i32⟩
  | 41 => ⟨S65536, .i1⟩
  | 42 => ⟨S_, .i32⟩
  | 43 => ⟨S65536, .i32⟩
  | 44 => ⟨S65536, .i32⟩
  | 45 => ⟨S65536, .i32⟩
  | 46 => ⟨S65536x1, .i32⟩
  | 47 => ⟨S65536x64, .f32⟩
  | 48 => ⟨S65536x64, .f32⟩
  | 49 => ⟨S_, .f32⟩
  | 50 => ⟨S65536, .f32⟩
  | 51 => ⟨S65536x1, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S65536x1, .i32⟩
  | 60 => ⟨S65536x64, .f32⟩
  | 61 => ⟨S_, .i32⟩
  | 62 => ⟨S65536, .i32⟩
  | 63 => ⟨S65536, .i1⟩
  | 64 => ⟨S_, .i32⟩
  | 65 => ⟨S65536, .i32⟩
  | 66 => ⟨S65536, .i32⟩
  | 67 => ⟨S65536, .i32⟩
  | 68 => ⟨S65536x1, .i32⟩
  | 69 => ⟨S65536x64, .f32⟩
  | 70 => ⟨S65536x64, .f32⟩
  | 71 => ⟨S_, .f32⟩
  | 72 => ⟨S65536, .f32⟩
  | 73 => ⟨S65536x1, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_c_8 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_20 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_21 : Ref sig .tc := ⟨.hbm, 132, rfl⟩
abbrev main_v95 : Ref sig .tc := ⟨.hbm, 133, rfl⟩
abbrev main_v96 : Ref sig .tc := ⟨.hbm, 134, rfl⟩
abbrev main_c_22 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_c_23 : Ref sig .tc := ⟨.hbm, 143, rfl⟩
abbrev main_v104 : Ref sig .tc := ⟨.hbm, 144, rfl⟩
abbrev main_v105 : Ref sig .tc := ⟨.hbm, 145, rfl⟩
abbrev main_c_24 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_cst_25 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_call0_v0 : Ref sig .tc := ⟨.hbm, 166, rfl⟩
abbrev main_call0_cst : Ref sig .tc := ⟨.hbm, 167, rfl⟩
abbrev main_call0_v1 : Ref sig .tc := ⟨.hbm, 168, rfl⟩
abbrev main_call0_v2 : Ref sig .tc := ⟨.hbm, 169, rfl⟩
abbrev main_v123 : Ref sig .tc := ⟨.hbm, 170, rfl⟩
abbrev main_cst_27 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call1_v0 : Ref sig .tc := ⟨.hbm, 176, rfl⟩
abbrev main_call1_cst : Ref sig .tc := ⟨.hbm, 177, rfl⟩
abbrev main_call1_v1 : Ref sig .tc := ⟨.hbm, 178, rfl⟩
abbrev main_call1_v2 : Ref sig .tc := ⟨.hbm, 179, rfl⟩
abbrev main_v128 : Ref sig .tc := ⟨.hbm, 180, rfl⟩
abbrev main_cst_28 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_call2_v0 : Ref sig .tc := ⟨.hbm, 186, rfl⟩
abbrev main_call2_cst : Ref sig .tc := ⟨.hbm, 187, rfl⟩
abbrev main_call2_v1 : Ref sig .tc := ⟨.hbm, 188, rfl⟩
abbrev main_call2_v2 : Ref sig .tc := ⟨.hbm, 189, rfl⟩
abbrev main_v133 : Ref sig .tc := ⟨.hbm, 190, rfl⟩
abbrev main_cst_29 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_30 : Ref sig .tc := ⟨.hbm, 197, rfl⟩
abbrev main_v139 : Ref sig .tc := ⟨.hbm, 198, rfl⟩
abbrev main_cst_31 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_32 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_cst_33 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_cst_34 : Ref sig .tc := ⟨.hbm, 213, rfl⟩
abbrev main_v151 : Ref sig .tc := ⟨.hbm, 214, rfl⟩
abbrev main_v152 : Ref sig .tc := ⟨.hbm, 215, rfl⟩
abbrev main_call3_v0 : Ref sig .tc := ⟨.hbm, 216, rfl⟩
abbrev main_call3_cst : Ref sig .tc := ⟨.hbm, 217, rfl⟩
abbrev main_call3_v1 : Ref sig .tc := ⟨.hbm, 218, rfl⟩
abbrev main_call3_v2 : Ref sig .tc := ⟨.hbm, 219, rfl⟩
abbrev main_v153 : Ref sig .tc := ⟨.hbm, 220, rfl⟩
abbrev main_cst_35 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_call4_v0 : Ref sig .tc := ⟨.hbm, 226, rfl⟩
abbrev main_call4_cst : Ref sig .tc := ⟨.hbm, 227, rfl⟩
abbrev main_call4_v1 : Ref sig .tc := ⟨.hbm, 228, rfl⟩
abbrev main_call4_v2 : Ref sig .tc := ⟨.hbm, 229, rfl⟩
abbrev main_v158 : Ref sig .tc := ⟨.hbm, 230, rfl⟩
abbrev main_cst_36 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_call5_v0 : Ref sig .tc := ⟨.hbm, 236, rfl⟩
abbrev main_call5_cst : Ref sig .tc := ⟨.hbm, 237, rfl⟩
abbrev main_call5_v1 : Ref sig .tc := ⟨.hbm, 238, rfl⟩
abbrev main_call5_v2 : Ref sig .tc := ⟨.hbm, 239, rfl⟩
abbrev main_v163 : Ref sig .tc := ⟨.hbm, 240, rfl⟩
abbrev main_cst_37 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_cst_38 : Ref sig .tc := ⟨.hbm, 247, rfl⟩
abbrev main_v169 : Ref sig .tc := ⟨.hbm, 248, rfl⟩
abbrev main_cst_39 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_cst_40 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_cst_41 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_cst_42 : Ref sig .tc := ⟨.hbm, 263, rfl⟩
abbrev main_v181 : Ref sig .tc := ⟨.hbm, 264, rfl⟩
abbrev main_v182 : Ref sig .tc := ⟨.hbm, 265, rfl⟩
abbrev main_cst_43 : Ref sig .tc := ⟨.hbm, 266, rfl⟩
abbrev main_v183 : Ref sig .tc := ⟨.hbm, 267, rfl⟩
abbrev main_v184 : Ref sig .tc := ⟨.hbm, 268, rfl⟩
abbrev main_cst_44 : Ref sig .tc := ⟨.hbm, 269, rfl⟩
abbrev main_v185 : Ref sig .tc := ⟨.hbm, 270, rfl⟩
abbrev main_c_45 : Ref sig .tc := ⟨.hbm, 271, rfl⟩
abbrev main_v186 : Ref sig .tc := ⟨.hbm, 272, rfl⟩
abbrev main_v187 : Ref sig .tc := ⟨.hbm, 273, rfl⟩
abbrev main_c_46 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_call6_v0 : Ref sig .tc := ⟨.hbm, 280, rfl⟩
abbrev main_call6_cst : Ref sig .tc := ⟨.hbm, 281, rfl⟩
abbrev main_call6_v1 : Ref sig .tc := ⟨.hbm, 282, rfl⟩
abbrev main_call6_v2 : Ref sig .tc := ⟨.hbm, 283, rfl⟩
abbrev main_v193 : Ref sig .tc := ⟨.hbm, 284, rfl⟩
abbrev main_cst_47 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_call7_v0 : Ref sig .tc := ⟨.hbm, 290, rfl⟩
abbrev main_call7_cst : Ref sig .tc := ⟨.hbm, 291, rfl⟩
abbrev main_call7_v1 : Ref sig .tc := ⟨.hbm, 292, rfl⟩
abbrev main_call7_v2 : Ref sig .tc := ⟨.hbm, 293, rfl⟩
abbrev main_v198 : Ref sig .tc := ⟨.hbm, 294, rfl⟩
abbrev main_cst_48 : Ref sig .tc := ⟨.hbm, 295, rfl⟩
abbrev main_v199 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_c_49 : Ref sig .tc := ⟨.hbm, 300, rfl⟩
abbrev main_v203 : Ref sig .tc := ⟨.hbm, 301, rfl⟩
abbrev main_v204 : Ref sig .tc := ⟨.hbm, 302, rfl⟩
abbrev main_c_50 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_c_51 : Ref sig .tc := ⟨.hbm, 309, rfl⟩
abbrev main_v210 : Ref sig .tc := ⟨.hbm, 310, rfl⟩
abbrev main_v211 : Ref sig .tc := ⟨.hbm, 311, rfl⟩
abbrev main_c_52 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_cst_53 : Ref sig .tc := ⟨.hbm, 319, rfl⟩
abbrev main_v218 : Ref sig .tc := ⟨.hbm, 320, rfl⟩
abbrev main_cst_54 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_cst_55 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_cst_56 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_cst_57 : Ref sig .tc := ⟨.hbm, 335, rfl⟩
abbrev main_v230 : Ref sig .tc := ⟨.hbm, 336, rfl⟩
abbrev main_v231 : Ref sig .tc := ⟨.hbm, 337, rfl⟩
abbrev main_c_58 : Ref sig .tc := ⟨.hbm, 338, rfl⟩
abbrev main_v232 : Ref sig .tc := ⟨.hbm, 339, rfl⟩
abbrev main_v233 : Ref sig .tc := ⟨.hbm, 340, rfl⟩
abbrev main_c_59 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_call8_v0 : Ref sig .tc := ⟨.hbm, 347, rfl⟩
abbrev main_call8_cst : Ref sig .tc := ⟨.hbm, 348, rfl⟩
abbrev main_call8_v1 : Ref sig .tc := ⟨.hbm, 349, rfl⟩
abbrev main_call8_v2 : Ref sig .tc := ⟨.hbm, 350, rfl⟩
abbrev main_v239 : Ref sig .tc := ⟨.hbm, 351, rfl⟩
abbrev main_cst_60 : Ref sig .tc := ⟨.hbm, 352, rfl⟩
abbrev main_v240 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_call9_v0 : Ref sig .tc := ⟨.hbm, 357, rfl⟩
abbrev main_call9_cst : Ref sig .tc := ⟨.hbm, 358, rfl⟩
abbrev main_call9_v1 : Ref sig .tc := ⟨.hbm, 359, rfl⟩
abbrev main_call9_v2 : Ref sig .tc := ⟨.hbm, 360, rfl⟩
abbrev main_v244 : Ref sig .tc := ⟨.hbm, 361, rfl⟩
abbrev main_cst_61 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_c_62 : Ref sig .tc := ⟨.hbm, 367, rfl⟩
abbrev main_v249 : Ref sig .tc := ⟨.hbm, 368, rfl⟩
abbrev main_v250 : Ref sig .tc := ⟨.hbm, 369, rfl⟩
abbrev main_c_63 : Ref sig .tc := ⟨.hbm, 370, rfl⟩
abbrev main_v251 : Ref sig .tc := ⟨.hbm, 371, rfl⟩
abbrev main_v252 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_c_64 : Ref sig .tc := ⟨.hbm, 376, rfl⟩
abbrev main_v256 : Ref sig .tc := ⟨.hbm, 377, rfl⟩
abbrev main_v257 : Ref sig .tc := ⟨.hbm, 378, rfl⟩
abbrev main_c_65 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_cst_66 : Ref sig .tc := ⟨.hbm, 386, rfl⟩
abbrev main_v264 : Ref sig .tc := ⟨.hbm, 387, rfl⟩
abbrev main_cst_67 : Ref sig .tc := ⟨.hbm, 388, rfl⟩
abbrev main_v265 : Ref sig .tc := ⟨.hbm, 389, rfl⟩
abbrev main_v266 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_cst_68 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_cst_69 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_cst_70 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_cst_71 : Ref sig .tc := ⟨.hbm, 406, rfl⟩
abbrev main_v279 : Ref sig .tc := ⟨.hbm, 407, rfl⟩
abbrev main_cst_72 : Ref sig .tc := ⟨.hbm, 408, rfl⟩
abbrev main_v280 : Ref sig .tc := ⟨.hbm, 409, rfl⟩
abbrev main_v281 : Ref sig .tc := ⟨.hbm, 410, rfl⟩
abbrev main_cst_73 : Ref sig .tc := ⟨.hbm, 411, rfl⟩
abbrev main_v282 : Ref sig .tc := ⟨.hbm, 412, rfl⟩
abbrev main_v283 : Ref sig .tc := ⟨.hbm, 413, rfl⟩
abbrev main_c_74 : Ref sig .tc := ⟨.hbm, 414, rfl⟩
abbrev main_v284 : Ref sig .tc := ⟨.hbm, 415, rfl⟩
abbrev main_v285 : Ref sig .tc := ⟨.hbm, 416, rfl⟩
abbrev main_c_75 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_v290 : Ref sig .tc := ⟨.hbm, 422, rfl⟩
abbrev main_c_76 : Ref sig .tc := ⟨.hbm, 423, rfl⟩
abbrev main_v291 : Ref sig .tc := ⟨.hbm, 424, rfl⟩
abbrev main_v292 : Ref sig .tc := ⟨.hbm, 425, rfl⟩
abbrev main_c_77 : Ref sig .tc := ⟨.hbm, 426, rfl⟩
abbrev main_v293 : Ref sig .tc := ⟨.hbm, 427, rfl⟩
abbrev main_v294 : Ref sig .tc := ⟨.hbm, 428, rfl⟩
abbrev main_v295 : Ref sig .tc := ⟨.hbm, 429, rfl⟩
abbrev main_v296 : Ref sig .tc := ⟨.hbm, 430, rfl⟩
abbrev main_v297 : Ref sig .tc := ⟨.hbm, 431, rfl⟩
abbrev main_v298 : Ref sig .tc := ⟨.hbm, 432, rfl⟩
abbrev main_cst_78 : Ref sig .tc := ⟨.hbm, 433, rfl⟩
abbrev main_v299 : Ref sig .tc := ⟨.hbm, 434, rfl⟩
abbrev main_v300 : Ref sig .tc := ⟨.hbm, 435, rfl⟩
abbrev main_c_79 : Ref sig .tc := ⟨.hbm, 436, rfl⟩
abbrev main_v301 : Ref sig .tc := ⟨.hbm, 437, rfl⟩
abbrev main_v302 : Ref sig .tc := ⟨.hbm, 438, rfl⟩
abbrev main_c_80 : Ref sig .tc := ⟨.hbm, 439, rfl⟩
abbrev main_v303 : Ref sig .tc := ⟨.hbm, 440, rfl⟩
abbrev main_v304 : Ref sig .tc := ⟨.hbm, 441, rfl⟩
abbrev main_v305 : Ref sig .tc := ⟨.hbm, 442, rfl⟩
abbrev main_v306 : Ref sig .tc := ⟨.hbm, 443, rfl⟩
abbrev main_v307 : Ref sig .tc := ⟨.hbm, 444, rfl⟩
abbrev main_c_81 : Ref sig .tc := ⟨.hbm, 445, rfl⟩
abbrev main_v308 : Ref sig .tc := ⟨.hbm, 446, rfl⟩
abbrev main_v309 : Ref sig .tc := ⟨.hbm, 447, rfl⟩
abbrev main_c_82 : Ref sig .tc := ⟨.hbm, 448, rfl⟩
abbrev main_v310 : Ref sig .tc := ⟨.hbm, 449, rfl⟩
abbrev main_v311 : Ref sig .tc := ⟨.hbm, 450, rfl⟩
abbrev main_v312 : Ref sig .tc := ⟨.hbm, 451, rfl⟩
abbrev main_v313 : Ref sig .tc := ⟨.hbm, 452, rfl⟩
abbrev main_v314 : Ref sig .tc := ⟨.hbm, 453, rfl⟩
abbrev main_v315 : Ref sig .tc := ⟨.hbm, 454, rfl⟩
abbrev main_cst_83 : Ref sig .tc := ⟨.hbm, 455, rfl⟩
abbrev main_v316 : Ref sig .tc := ⟨.hbm, 456, rfl⟩
abbrev main_v317 : Ref sig .tc := ⟨.hbm, 457, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S4096_S4096x1_0 : S4096.BroadcastsInDim S4096x1 (![0] : Fin 1 → Fin S4096x1.rank)
  bcast_S4096x1_S4096x64_0_1 : S4096x1.BroadcastsInDim S4096x64 (![0, 1] : Fin 2 → Fin S4096x64.rank)
  bcast_S_S4096x64 : S_.BroadcastsInDim S4096x64 (![] : Fin 0 → Fin S4096x64.rank)
  reducesTo_S4096x64_S4096_d1 : S4096x64.ReducesTo [1] S4096
  h_S_ : 0 < S_.numel
  bcast_S_S4096x1 : S_.BroadcastsInDim S4096x1 (![] : Fin 0 → Fin S4096x1.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  transposes_S50000x64_S64x50000_1_0 : S50000x64.Transposes [1, 0] S64x50000
  bcast_S_S4096x50000 : S_.BroadcastsInDim S4096x50000 (![] : Fin 0 → Fin S4096x50000.rank)
  reducesTo_S4096x50000_S4096_d1 : S4096x50000.ReducesTo [1] S4096
  reducesTo_S4096_S_d0 : S4096.ReducesTo [0] S_
  reducesTo_S25000x64_S25000_d1 : S25000x64.ReducesTo [1] S25000
  bcast_S25000_S25000x1_0 : S25000.BroadcastsInDim S25000x1 (![0] : Fin 1 → Fin S25000x1.rank)
  bcast_S_S25000x1 : S_.BroadcastsInDim S25000x1 (![] : Fin 0 → Fin S25000x1.rank)
  bcast_S25000x1_S25000x64_0_1 : S25000x1.BroadcastsInDim S25000x64 (![0, 1] : Fin 2 → Fin S25000x64.rank)
  transposes_S25000x64_S64x25000_1_0 : S25000x64.Transposes [1, 0] S64x25000
  bcast_S_S4096x25000 : S_.BroadcastsInDim S4096x25000 (![] : Fin 0 → Fin S4096x25000.rank)
  reducesTo_S4096x25000_S4096_d1 : S4096x25000.ReducesTo [1] S4096
  reducesTo_S1000x64_S1000_d1 : S1000x64.ReducesTo [1] S1000
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1000x1_S1000x64_0_1 : S1000x1.BroadcastsInDim S1000x64 (![0, 1] : Fin 2 → Fin S1000x64.rank)
  transposes_S1000x64_S64x1000_1_0 : S1000x64.Transposes [1, 0] S64x1000
  bcast_S_S4096x1000 : S_.BroadcastsInDim S4096x1000 (![] : Fin 0 → Fin S4096x1000.rank)
  reducesTo_S4096x1000_S4096_d1 : S4096x1000.ReducesTo [1] S4096
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  scatter_S4096_S262144x1_S262144_n_0_0_1_wf : ScatterDims.WF S4096 S262144x1 S262144 [] [0] [0] 1
  gather_S50000x64_S4096x1_S4096x64_1_0_n_n_0_1_164_wf : GatherDims.WF S50000x64 S4096x1 S4096x64 [1] [0] [] [0] [] 1 ![1, 64]
  gather_S25000x64_S4096x1_S4096x64_1_0_n_n_0_1_164_wf : GatherDims.WF S25000x64 S4096x1 S4096x64 [1] [0] [] [0] [] 1 ![1, 64]
  gather_S4096x64_S262144x1_S262144x64_1_0_n_n_0_1_164_wf : GatherDims.WF S4096x64 S262144x1 S262144x64 [1] [0] [] [0] [] 1 ![1, 64]
  scatter_S4096x64_S262144x1_S262144x64_1_0_0_1_wf : ScatterDims.WF S4096x64 S262144x1 S262144x64 [1] [0] [0] 1
  dot_S4096x64_S64x50000_S4096x50000_1_0_0_1_n_n_wf : DotDims.WF S4096x64 S64x50000 S4096x50000 [1] [0] [0] [1] [] []
  dot_S4096x64_S64x25000_S4096x25000_1_0_0_1_n_n_wf : DotDims.WF S4096x64 S64x25000 S4096x25000 [1] [0] [0] [1] [] []
  gather_S50000_S4096x1_S4096_n_0_n_n_0_1_1_wf : GatherDims.WF S50000 S4096x1 S4096 [] [0] [] [0] [] 1 ![1]
  gather_S1000x64_S4096x1_S4096x64_1_0_n_n_0_1_164_wf : GatherDims.WF S1000x64 S4096x1 S4096x64 [1] [0] [] [0] [] 1 ![1, 64]
  dot_S4096x64_S64x1000_S4096x1000_1_0_0_1_n_n_wf : DotDims.WF S4096x64 S64x1000 S4096x1000 [1] [0] [0] [1] [] []
  gather_S25000_S4096x1_S4096_n_0_n_n_0_1_1_wf : GatherDims.WF S25000 S4096x1 S4096 [] [0] [] [0] [] 1 ![1]
  gather_S4096x64_S65536x1_S65536x64_1_0_n_n_0_1_164_wf : GatherDims.WF S4096x64 S65536x1 S65536x64 [1] [0] [] [0] [] 1 ![1, 64]

variable [Facts₀]

def scatter_S4096_S262144x1_S262144_n_0_0_1 : ScatterDims S4096 S262144x1 S262144 where
  updateWindowDims := []
  insertedWindowDims := [0]
  scatterDimsToOperandDims := [0]
  indexVectorDim := 1
  wf := scatter_S4096_S262144x1_S262144_n_0_0_1_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S25000x64_S4096x1_S4096x64_1_0_n_n_0_1_164 : GatherDims S25000x64 S4096x1 S4096x64 where
  offsetDims := [1]
  collapsedSliceDims := [0]
  operandBatchingDims := []
  startIndicesBatchingDims := []
  startIndexMap := [0]
  indexVectorDim := 1
  sliceSizes := ![1, 64]
  wf := gather_S25000x64_S4096x1_S4096x64_1_0_n_n_0_1_164_wf
def gather_S4096x64_S262144x1_S262144x64_1_0_n_n_0_1_164 : GatherDims S4096x64 S262144x1 S262144x64 where
  offsetDims := [1]
  collapsedSliceDims := [0]
  operandBatchingDims := []
  startIndicesBatchingDims := []
  startIndexMap := [0]
  indexVectorDim := 1
  sliceSizes := ![1, 64]
  wf := gather_S4096x64_S262144x1_S262144x64_1_0_n_n_0_1_164_wf
def scatter_S4096x64_S262144x1_S262144x64_1_0_0_1 : ScatterDims S4096x64 S262144x1 S262144x64 where
  updateWindowDims := [1]
  insertedWindowDims := [0]
  scatterDimsToOperandDims := [0]
  indexVectorDim := 1
  wf := scatter_S4096x64_S262144x1_S262144x64_1_0_0_1_wf
def dot_S4096x64_S64x50000_S4096x50000_1_0_0_1_n_n : DotDims S4096x64 S64x50000 S4096x50000 where
  lhsContracting := [1]
  rhsContracting := [0]
  lhsNonContracting := [0]
  rhsNonContracting := [1]
  lhsBatch := []
  rhsBatch := []
  wf := dot_S4096x64_S64x50000_S4096x50000_1_0_0_1_n_n_wf
def dot_S4096x64_S64x25000_S4096x25000_1_0_0_1_n_n : DotDims S4096x64 S64x25000 S4096x25000 where
  lhsContracting := [1]
  rhsContracting := [0]
  lhsNonContracting := [0]
  rhsNonContracting := [1]
  lhsBatch := []
  rhsBatch := []
  wf := dot_S4096x64_S64x25000_S4096x25000_1_0_0_1_n_n_wf
def gather_S50000_S4096x1_S4096_n_0_n_n_0_1_1 : GatherDims S50000 S4096x1 S4096 where
  offsetDims := []
  collapsedSliceDims := [0]
  operandBatchingDims := []
  startIndicesBatchingDims := []
  startIndexMap := [0]
  indexVectorDim := 1
  sliceSizes := ![1]
  wf := gather_S50000_S4096x1_S4096_n_0_n_n_0_1_1_wf
def gather_S1000x64_S4096x1_S4096x64_1_0_n_n_0_1_164 : GatherDims S1000x64 S4096x1 S4096x64 where
  offsetDims := [1]
  collapsedSliceDims := [0]
  operandBatchingDims := []
  startIndicesBatchingDims := []
  startIndexMap := [0]
  indexVectorDim := 1
  sliceSizes := ![1, 64]
  wf := gather_S1000x64_S4096x1_S4096x64_1_0_n_n_0_1_164_wf
def dot_S4096x64_S64x1000_S4096x1000_1_0_0_1_n_n : DotDims S4096x64 S64x1000 S4096x1000 where
  lhsContracting := [1]
  rhsContracting := [0]
  lhsNonContracting := [0]
  rhsNonContracting := [1]
  lhsBatch := []
  rhsBatch := []
  wf := dot_S4096x64_S64x1000_S4096x1000_1_0_0_1_n_n_wf
def gather_S25000_S4096x1_S4096_n_0_n_n_0_1_1 : GatherDims S25000 S4096x1 S4096 where
  offsetDims := []
  collapsedSliceDims := [0]
  operandBatchingDims := []
  startIndicesBatchingDims := []
  startIndexMap := [0]
  indexVectorDim := 1
  sliceSizes := ![1]
  wf := gather_S25000_S4096x1_S4096_n_0_n_n_0_1_1_wf
def gather_S4096x64_S65536x1_S65536x64_1_0_n_n_0_1_164 : GatherDims S4096x64 S65536x1 S65536x64 where
  offsetDims := [1]
  collapsedSliceDims := [0]
  operandBatchingDims := []
  startIndicesBatchingDims := []
  startIndexMap := [0]
  indexVectorDim := 1
  sliceSizes := ![1, 64]
  wf := gather_S4096x64_S65536x1_S65536x64_1_0_n_n_0_1_164_wf

class Facts : Prop extends Facts₀ where

variable [Facts]
-- ==== Proof.Preserves.lean ====
/-
  The idealization's ledger has one rewrite, applied in each of the four kernel bodies: the scale `10.0` by which a
  tile of scores is multiplied before the exponential is read, at the extended reals, as the reciprocal of the
  reference's divisor — the single-precision number nearest to one tenth, 13421773 / 2^27 — that is as
  2^27 / 13421773.  The table of named constants gives the name that value, which is all each conjunct asks.
-/
import proofs.«110517_j15659450761722_1_alg».proof.Defs

noncomputable section

open Idealize.ShloMosaic

namespace Cert.Proof.Parts

/-- One ledger entry: the table reads the named scale as 2^27 / 13421773. -/
theorem inv_temp_entry :
    IdealRules.named_const.Statement Cert.KernelIdeal.κ "inv_temp" .f32 0x41200000#32 ((134217728 / 13421773 : ℝ) : EReal) :=
  IdealRules.named_const.statement Cert.KernelIdeal.κ "inv_temp" .f32 0x41200000#32 ((134217728 / 13421773 : ℝ) : EReal) rfl

/-- The four entries are the same statement. -/
theorem preserves : Cert.preserves_Kernel_KernelIdeal :=
  ⟨inv_temp_entry, inv_temp_entry, inv_temp_entry, inv_temp_entry⟩

end Cert.Proof.Parts

end
-- ==== Proof.LibWritesInOrder.lean ====
/-
  A straight line of host operations, each of which writes exactly one buffer, leaves every buffer that is not one
  of those written as it found it.  The written buffers are given as a list in the operations' own order, so the
  hypothesis is checked operation by operation in one pass, and the question whether a given buffer is written is a
  membership test on a list of references.
-/
import Idealize.ShloMosaic.Lib.StableHlo.Run

namespace Cert.Lib.WritesInOrder

open Idealize.ShloMosaic Idealize.ShloMosaic.StableHlo

variable {τ : Topo} {sig : RefSig} {Val : EltTy → Type}

/-- The k-th operation writes exactly the k-th listed reference. -/
abbrev InOrder (ops : List (HloOp τ sig Val)) (W : List (Ref sig .tc)) : Prop :=
  List.Forall₂ (fun (op : HloOp τ sig Val) (w : Ref sig .tc) => op.writes = {Proc.devRef (τ := τ) .tc w}) ops W

/-- A reference that is not listed is written by no operation. -/
theorem not_mem_writes {ops : List (HloOp τ sig Val)} {W : List (Ref sig .tc)} (h : InOrder ops W)
    {r : Ref sig .tc} (hr : r ∉ W) : ∀ op ∈ ops, (Proc.devRef .tc r : DevRef τ sig) ∉ op.writes := by
  induction h with
  | nil => intro op hop; exact absurd hop List.not_mem_nil
  | cons hhead _ ih =>
    intro op hop
    rcases List.mem_cons.mp hop with rfl | hop
    · rw [hhead, Finset.mem_singleton]
      intro e
      exact hr (by rw [Proc.devRef_injective _ e]; exact List.mem_cons_self)
    · exact ih (fun hmem => hr (List.mem_cons_of_mem _ hmem)) op hop

/-- So the fold of the operations over any contents keeps an unlisted buffer's contents. -/
theorem after_of_not_listed {ops : List (HloOp τ sig Val)} {W : List (Ref sig .tc)} (h : InOrder ops W)
    (V : Valuation τ sig Val) {r : Ref sig .tc} (hr : r ∉ W) :
    after ops V (Proc.devRef .tc r) = V (Proc.devRef .tc r) :=
  after_of_forall_not_mem ops V (not_mem_writes h hr)

end Cert.Lib.WritesInOrder
-- ==== Proof.RefFrame.lean ====
/-
  The reference is a straight line of 444 host operations with no kernel launch: every weakly fair execution runs
  them in order and none can fault, so it terminates with every buffer at the fold of the operations over the launch
  contents.  Each operation writes one buffer — a constant's, or an intermediate value's — and none of the fourteen
  argument buffers is among those, so the arguments end as launched.
-/
import proofs.«110517_j15659450761722_1_alg».proof.Defs
import proofs.«110517_j15659450761722_1_alg».proof.Proof.RefRun
import proofs.«110517_j15659450761722_1_alg».proof.Proof.Gen.Pre_finite_inputs
import proofs.«110517_j15659450761722_1_alg».proof.Proof.LibWritesInOrder

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

/-- The buffer each operation writes, in the operations' order. -/
abbrev refWritten : List (Ref sig .tc) :=
  [
    main_cst, main_v0, main_cst_0, main_v1, main_v2, main_v3, main_cst_1, main_v4, main_v5, main_v6, main_cst_2, main_v7,
    main_v8, main_v9, main_cst_3, main_v10, main_v11, main_v12, main_cst_4, main_v13, main_v14, main_v15, main_cst_5, main_v16,
    main_v17, main_v18, main_c, main_v19, main_v20, main_c_6, main_v21, main_v22, main_v23, main_v24, main_v25, main_c_7,
    main_v26, main_v27, main_c_8, main_v28, main_v29, main_v30, main_v31, main_v32, main_v33, main_v34, main_c_9, main_v35,
    main_v36, main_c_10, main_v37, main_v38, main_v39, main_v40, main_v41, main_v42, main_v43, main_c_11, main_v44, main_v45,
    main_c_12, main_v46, main_v47, main_v48, main_v49, main_v50, main_cst_13, main_v51, main_v52, main_v53, main_v54, main_v55,
    main_cst_14, main_v56, main_v57, main_v58, main_v59, main_v60, main_v61, main_v62, main_v63, main_v64, main_c_15, main_v65,
    main_v66, main_c_16, main_v67, main_v68, main_v69, main_v70, main_v71, main_v72, main_v73, main_c_17, main_v74, main_v75,
    main_c_18, main_v76, main_v77, main_v78, main_v79, main_v80, main_cst_19, main_v81, main_v82, main_v83, main_v84, main_v85,
    main_cst_20, main_v86, main_v87, main_v88, main_v89, main_v90, main_v91, main_v92, main_v93, main_v94, main_c_21, main_v95,
    main_v96, main_c_22, main_v97, main_v98, main_v99, main_v100, main_v101, main_v102, main_v103, main_c_23, main_v104, main_v105,
    main_c_24, main_v106, main_v107, main_v108, main_v109, main_v110, main_cst_25, main_v111, main_v112, main_v113, main_v114, main_v115,
    main_cst_26, main_v116, main_v117, main_v118, main_v119, main_v120, main_v121, main_v122, main_call0_v0, main_call0_cst, main_call0_v1, main_call0_v2,
    main_v123, main_cst_27, main_v124, main_v125, main_v126, main_v127, main_call1_v0, main_call1_cst, main_call1_v1, main_call1_v2, main_v128, main_cst_28,
    main_v129, main_v130, main_v131, main_v132, main_call2_v0, main_call2_cst, main_call2_v1, main_call2_v2, main_v133, main_cst_29, main_v134, main_v135,
    main_v136, main_v137, main_v138, main_cst_30, main_v139, main_cst_31, main_v140, main_v141, main_v142, main_v143, main_v144, main_cst_32,
    main_v145, main_v146, main_v147, main_cst_33, main_v148, main_v149, main_v150, main_cst_34, main_v151, main_v152, main_call3_v0, main_call3_cst,
    main_call3_v1, main_call3_v2, main_v153, main_cst_35, main_v154, main_v155, main_v156, main_v157, main_call4_v0, main_call4_cst, main_call4_v1, main_call4_v2,
    main_v158, main_cst_36, main_v159, main_v160, main_v161, main_v162, main_call5_v0, main_call5_cst, main_call5_v1, main_call5_v2, main_v163, main_cst_37,
    main_v164, main_v165, main_v166, main_v167, main_v168, main_cst_38, main_v169, main_cst_39, main_v170, main_v171, main_v172, main_v173,
    main_v174, main_cst_40, main_v175, main_v176, main_v177, main_cst_41, main_v178, main_v179, main_v180, main_cst_42, main_v181, main_v182,
    main_cst_43, main_v183, main_v184, main_cst_44, main_v185, main_c_45, main_v186, main_v187, main_c_46, main_v188, main_v189, main_v190,
    main_v191, main_v192, main_call6_v0, main_call6_cst, main_call6_v1, main_call6_v2, main_v193, main_cst_47, main_v194, main_v195, main_v196, main_v197,
    main_call7_v0, main_call7_cst, main_call7_v1, main_call7_v2, main_v198, main_cst_48, main_v199, main_v200, main_v201, main_v202, main_c_49, main_v203,
    main_v204, main_c_50, main_v205, main_v206, main_v207, main_v208, main_v209, main_c_51, main_v210, main_v211, main_c_52, main_v212,
    main_v213, main_v214, main_v215, main_v216, main_v217, main_cst_53, main_v218, main_cst_54, main_v219, main_v220, main_v221, main_v222,
    main_v223, main_cst_55, main_v224, main_v225, main_v226, main_cst_56, main_v227, main_v228, main_v229, main_cst_57, main_v230, main_v231,
    main_c_58, main_v232, main_v233, main_c_59, main_v234, main_v235, main_v236, main_v237, main_v238, main_call8_v0, main_call8_cst, main_call8_v1,
    main_call8_v2, main_v239, main_cst_60, main_v240, main_v241, main_v242, main_v243, main_call9_v0, main_call9_cst, main_call9_v1, main_call9_v2, main_v244,
    main_cst_61, main_v245, main_v246, main_v247, main_v248, main_c_62, main_v249, main_v250, main_c_63, main_v251, main_v252, main_v253,
    main_v254, main_v255, main_c_64, main_v256, main_v257, main_c_65, main_v258, main_v259, main_v260, main_v261, main_v262, main_v263,
    main_cst_66, main_v264, main_cst_67, main_v265, main_v266, main_v267, main_v268, main_v269, main_cst_68, main_v270, main_v271, main_v272,
    main_cst_69, main_v273, main_v274, main_v275, main_cst_70, main_v276, main_v277, main_v278, main_cst_71, main_v279, main_cst_72, main_v280,
    main_v281, main_cst_73, main_v282, main_v283, main_c_74, main_v284, main_v285, main_c_75, main_v286, main_v287, main_v288, main_v289,
    main_v290, main_c_76, main_v291, main_v292, main_c_77, main_v293, main_v294, main_v295, main_v296, main_v297, main_v298, main_cst_78,
    main_v299, main_v300, main_c_79, main_v301, main_v302, main_c_80, main_v303, main_v304, main_v305, main_v306, main_v307, main_c_81,
    main_v308, main_v309, main_c_82, main_v310, main_v311, main_v312, main_v313, main_v314, main_v315, main_cst_83, main_v316, main_v317 ]

set_option maxRecDepth 65536 in
set_option maxHeartbeats 16000000 in
/-- Operation by operation, that is the one buffer written. -/
theorem ref_inOrder : Cert.Lib.WritesInOrder.InOrder (ops : List (HloOp τ sig (Elt F))) refWritten := by
  repeat' constructor

set_option maxRecDepth 65536 in
set_option maxHeartbeats 16000000 in
/-- No operation allocates a buffer: each determines its result. -/
theorem ref_fresh : (ops : List (HloOp τ sig (Elt F))).Forall fun op => op.fresh = ∅ := by
  simp only [List.Forall]; repeat' constructor

/-- An argument's buffer after the whole line holds what it was launched with. -/
theorem ref_kept (m : (ℓ : Loc nD τ sig) → Buf (Elt F) ℓ) (c : Dev nD) (r : Ref sig .tc) (hr : r ∉ refWritten) :
    after (ops : List (HloOp τ sig (Elt F))) (launchContents m c) (Proc.devRef .tc r) = m ((c.tc : Thread nD τ).loc r) :=
  (Cert.Lib.WritesInOrder.after_of_not_listed ref_inOrder _ hr).trans rfl

set_option maxRecDepth 65536 in
set_option maxHeartbeats 16000000 in
/-- The reference's frame: it runs to the end, nothing faults, and the arguments end as launched. -/
theorem frame_reference : Cert.frame_ReferenceIdeal := fun m ρ _ =>
  (θ_run Cert.ReferenceIdeal.defs _ _).mono
    (fun _ h c => ⟨(h c main_arg0).trans (ref_kept m c main_arg0 (by decide)),
      (h c main_arg1).trans (ref_kept m c main_arg1 (by decide)),
      (h c main_arg2).trans (ref_kept m c main_arg2 (by decide)),
      (h c main_arg3).trans (ref_kept m c main_arg3 (by decide)),
      (h c main_arg4).trans (ref_kept m c main_arg4 (by decide)),
      (h c main_arg5).trans (ref_kept m c main_arg5 (by decide)),
      (h c main_arg6).trans (ref_kept m c main_arg6 (by decide)),
      (h c main_arg7).trans (ref_kept m c main_arg7 (by decide)),
      (h c main_arg8).trans (ref_kept m c main_arg8 (by decide)),
      (h c main_arg9).trans (ref_kept m c main_arg9 (by decide)),
      (h c main_arg10).trans (ref_kept m c main_arg10 (by decide)),
      (h c main_arg11).trans (ref_kept m c main_arg11 (by decide)),
      (h c main_arg12).trans (ref_kept m c main_arg12 (by decide)),
      (h c main_arg13).trans (ref_kept m c main_arg13 (by decide))⟩)
    (run_seq scopedRefs_eq scopedSems_eq defs main (fun _ => ops) main_eq (fun _ => ops_sub) m ρ
      (hfresh := fun _ => List.forall_iff_forall_mem.mp ref_fresh))

end Cert.Proof.Parts

end
-- ==== Proof.KRun0.lean ====
/-
  Pipeline 0 runs the streaming kernel on a grid of 16 × 10 points: for each block of 256 query rows the table is
  streamed in 10 tiles of 5000 rows.  The body keeps a column of running sums in a scratch buffer that lives across the
  points: at a block's first tile it clears the column, at every tile it adds the row sums of exp (scale · q · tᵀ) for
  the tile, and at the block's last tile it copies the column into the output block; at the other tiles the output
  block is not touched.  Which tile a point is, first / middle / last, is decided over the grid in closed form.  For
  each of the three cases the body's run is found by the symbolic executor from whole staging buffers, and what its
  stores leave in the accumulator (and, at a last tile, in the output block) is recorded as the list of pieces written.
-/
import proofs.«110517_j15659450761722_1_alg».proof.Proof.Gen.Kernel.Launch
import proofs.«110517_j15659450761722_1_alg».proof.Proof.Gen.Kernel.Skeleton
import proofs.«110517_j15659450761722_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "This is the block's first table tile": the body's first conditional, from the grid coordinates. -/
abbrev first0 (i : grid0.Coords) : Prop :=
  (Scalar.cmpi .ne (Scalar.extui (Scalar.cmpi .eq (BitVec.ofNat 32 (i 1).val) 0#32)) 0#32) = 1#1
/-- It holds at the points ≡ 0 (mod 10). -/
theorem first0_iff : ∀ t : Fin cfg0.N, first0 (grid0.coords t) ↔ t.val % 10 = 0 :=
  (by decide +kernel : ∀ t : Fin grid0.N, first0 (grid0.coords t) ↔ t.val % 10 = 0)

/-- "This is the block's last table tile": the body's second conditional. -/
abbrev last0 (i : grid0.Coords) : Prop := k0_cond2 i = 1#1
/-- It holds at the points ≡ 9 (mod 10). -/
theorem last0_iff : ∀ t : Fin cfg0.N, last0 (grid0.coords t) ↔ t.val % 10 = 9 :=
  (by decide +kernel : ∀ t : Fin grid0.N, last0 (grid0.coords t) ↔ t.val % 10 = 9)

set_option maxHeartbeats 4000000 in
/-- A FIRST tile: the inputs at `x0`, `x1`; the output block at `xo`, not touched; the accumulator at anything (it is
    cleared before it is read).  The accumulator ends overwritten by the recorded pieces. -/
noncomputable def bodyRun0_A (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : first0 i) (hlast : ¬last0 i) (x0 : Vec F S256x64 .f32) (x1 : Vec F S5000x64 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨[], ?_, fun xo E K => ?run⟩
  case run =>
    simp only [cc0__dotexpsum_kernel_eq_skeleton]; unfold cc0__dotexpsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A MIDDLE tile: as a first tile, but the accumulator is read before it is written, so it comes at named contents `xs`. -/
noncomputable def bodyRun0_B (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first0 i) (hlast : ¬last0 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨[], ?_, fun xo E K => ?run⟩
  case run =>
    simp only [cc0__dotexpsum_kernel_eq_skeleton]; unfold cc0__dotexpsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A LAST tile: the accumulator at named contents `xs`; the output block at anything, and overwritten by its recorded
    pieces. -/
noncomputable def bodyRun0_C (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first0 i) (hlast : last0 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨?_, ?_, fun E K => ?run⟩
  case run =>
    simp only [cc0__dotexpsum_kernel_eq_skeleton]; unfold cc0__dotexpsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KRegion0.lean ====
/-
  Pipeline 0 at the buffer contents `V` its region is entered with.  The accumulator column is carried from point to
  point: after point n it holds the value defined by recursion on n — at a block's first tile the body's result from
  the point's two input blocks alone, at a later tile its result from those blocks and what the point before left.
  The output block is written at a block's last tile only, with the accumulator's value; at the other points the
  window is idle (its buffer is handed back untouched and not written back), so what the proof data say it holds there
  is a placeholder nothing reads.  The region's invariant is the plain one before the first point and, after point n,
  the same with the accumulator at its named value.
-/
import proofs.«110517_j15659450761722_1_alg».proof.Proof.KRun0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from the
    point before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The inputs are never idle; the output window is idle, and not written back, exactly away from the last tiles. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-- Each window's current staging buffer at a point, as the pipeline passes it, and the accumulator. -/
abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev scM0 : Memref sig .tc .vmem S256x1 .f32 := Memref.whole cc0_scratch0
/-- The views through which the output block's and the accumulator's contents are stated. -/
abbrev VO0 : View sig .tc .vmem S256x1 .f32 := (Memref.whole cc0_stg2_0 : Memref sig .tc .vmem S256x1 .f32).view
abbrev VS0 : View sig .tc .vmem S256x1 .f32 := scM0.view

/-- The core's scoped buffers outside this pipeline's staging, with the accumulator taken out and named. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The plain invariant with the accumulator as a whole buffer owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What each case leaves -/

/-- A first tile's accumulator: its pieces read back; they tile the column, so they cover it. -/
def accA0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first0 i) (hlast : ¬last0 i) (x0 : Vec F S256x64 .f32) (x1 : Vec F S5000x64 .f32) : Vec F S256x1 .f32 :=
  VS0.read (Elt F) (VS0.writes (Elt F) VS0.junk (bodyRun0_A c i arg2 harg2 arg3 harg3 arg4 harg4 arg5 harg5 hfirst hlast x0 x1).2.1)
theorem accCoverA0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first0 i) (hlast : ¬last0 i) (x0 : Vec F S256x64 .f32) (x1 : Vec F S5000x64 .f32) (y : S256x1.Idx) :
    ∃ pc ∈ (bodyRun0_A c i arg2 harg2 arg3 harg3 arg4 harg4 arg5 harg5 hfirst hlast x0 x1).2.1, y ∈ pc.1.set :=
  View.cover_of_tiledL (bodyRun0_A c i arg2 harg2 arg3 harg3 arg4 harg4 arg5 harg5 hfirst hlast x0 x1).2.1 S256x1.size (by sl_kernel_rfl) y

/-- A middle tile's accumulator, over what the point before left (`xs`). -/
def accB0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : ¬last0 i) (x0 : Vec F S256x64 .f32) (x1 : Vec F S5000x64 .f32) (xs : Vec F S256x1 .f32) : Vec F S256x1 .f32 :=
  VS0.read (Elt F) (VS0.writes (Elt F) VS0.junk (bodyRun0_B c i arg2 harg2 arg3 harg3 arg4 harg4 arg5 harg5 hfirst hlast x0 x1 xs).2.1)
theorem accCoverB0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : ¬last0 i) (x0 : Vec F S256x64 .f32) (x1 : Vec F S5000x64 .f32) (xs : Vec F S256x1 .f32) (y : S256x1.Idx) :
    ∃ pc ∈ (bodyRun0_B c i arg2 harg2 arg3 harg3 arg4 harg4 arg5 harg5 hfirst hlast x0 x1 xs).2.1, y ∈ pc.1.set :=
  View.cover_of_tiledL (bodyRun0_B c i arg2 harg2 arg3 harg3 arg4 harg4 arg5 harg5 hfirst hlast x0 x1 xs).2.1 S256x1.size (by sl_kernel_rfl) y

/-- A last tile's accumulator and output block. -/
def accC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) : Vec F S256x1 .f32 :=
  VS0.read (Elt F) (VS0.writes (Elt F) VS0.junk (bodyRun0_C c i arg2 harg2 arg3 harg3 arg4 harg4 arg5 harg5 hfirst hlast x0 x1 xs).2.1)
theorem accCoverC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) (y : S256x1.Idx) :
    ∃ pc ∈ (bodyRun0_C c i arg2 harg2 arg3 harg3 arg4 harg4 arg5 harg5 hfirst hlast x0 x1 xs).2.1, y ∈ pc.1.set :=
  View.cover_of_tiledL (bodyRun0_C c i arg2 harg2 arg3 harg3 arg4 harg4 arg5 harg5 hfirst hlast x0 x1 xs).2.1 S256x1.size (by sl_kernel_rfl) y
def outC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) : Vec F S256x1 .f32 :=
  VO0.read (Elt F) (VO0.writes (Elt F) VO0.junk (bodyRun0_C c i arg2 harg2 arg3 harg3 arg4 harg4 arg5 harg5 hfirst hlast x0 x1 xs).1)
theorem outCoverC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) (y : S256x1.Idx) :
    ∃ pc ∈ (bodyRun0_C c i arg2 harg2 arg3 harg3 arg4 harg4 arg5 harg5 hfirst hlast x0 x1 xs).1, y ∈ pc.1.set :=
  View.cover_of_tiledL (bodyRun0_C c i arg2 harg2 arg3 harg3 arg4 harg4 arg5 harg5 hfirst hlast x0 x1 xs).1 S256x1.size (by sl_kernel_rfl) y

/-! ## The accumulator point by point -/

/-- The case conditions from a point's position. -/
theorem isFirst0 (t : Fin cfg0.N) (h : t.val % 10 = 0) : first0 (grid0.coords t) := (first0_iff t).mpr h
theorem notFirst0 (t : Fin cfg0.N) (h : ¬t.val % 10 = 0) : ¬first0 (grid0.coords t) := fun hf => h ((first0_iff t).mp hf)
theorem isLast0 (t : Fin cfg0.N) (h : t.val % 10 = 9) : last0 (grid0.coords t) := (last0_iff t).mpr h
theorem notLast0 (t : Fin cfg0.N) (h : ¬t.val % 10 = 9) : ¬last0 (grid0.coords t) := fun hl => h ((last0_iff t).mp hl)

/-- THE ACCUMULATION: what the accumulator holds after the body at position `n`. -/
def accAt0 (c : Dev nD) : (n : ℕ) → n < cfg0.N → Vec F S256x1 .f32
  | 0, hn => accA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (isFirst0 ⟨0, hn⟩ (Nat.zero_mod _)) (notLast0 ⟨0, hn⟩ (by show ¬ (0 : ℕ) % 10 = 9; decide)) (iblk0 V c 0 ⟨0, hn⟩) (iblk0 V c 1 ⟨0, hn⟩)
  | n + 1, hn =>
    if h0 : (n + 1) % 10 = 0 then
      accA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (isFirst0 ⟨n + 1, hn⟩ h0) (notLast0 ⟨n + 1, hn⟩ (by show ¬ (n + 1) % 10 = 9; omega)) (iblk0 V c 0 ⟨n + 1, hn⟩) (iblk0 V c 1 ⟨n + 1, hn⟩)
    else if h2 : (n + 1) % 10 = 9 then
      accC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notFirst0 ⟨n + 1, hn⟩ h0) (isLast0 ⟨n + 1, hn⟩ h2) (iblk0 V c 0 ⟨n + 1, hn⟩) (iblk0 V c 1 ⟨n + 1, hn⟩) (accAt0 c n (Nat.lt_of_succ_lt hn))
    else
      accB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notFirst0 ⟨n + 1, hn⟩ h0) (notLast0 ⟨n + 1, hn⟩ h2) (iblk0 V c 0 ⟨n + 1, hn⟩) (iblk0 V c 1 ⟨n + 1, hn⟩) (accAt0 c n (Nat.lt_of_succ_lt hn))

theorem accAt0_A (c : Dev nD) (t : Fin cfg0.N) (h0 : t.val % 10 = 0) (h2 : ¬t.val % 10 = 9) :
    accAt0 V c t.val t.isLt = accA0 c (grid0.coords t) (ms0_0 t) (hs0_0 t) (ms0_1 t) (hs0_1 t) (ms0_2 t) (hs0_2 t) scM0 (Memref.isWhole_whole _) (isFirst0 t h0) (notLast0 t h2) (iblk0 V c 0 t) (iblk0 V c 1 t) := by
  obtain ⟨n, hn⟩ := t
  cases n with
  | zero => exact rfl
  | succ n => exact (dif_pos h0).trans rfl

theorem accAt0_B (c : Dev nD) (t : Fin cfg0.N) (h0 : ¬t.val % 10 = 0) (h2 : ¬t.val % 10 = 9) :
    accAt0 V c t.val t.isLt = accB0 c (grid0.coords t) (ms0_0 t) (hs0_0 t) (ms0_1 t) (hs0_1 t) (ms0_2 t) (hs0_2 t) scM0 (Memref.isWhole_whole _) (notFirst0 t h0) (notLast0 t h2) (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem accAt0_C (c : Dev nD) (t : Fin cfg0.N) (h0 : ¬t.val % 10 = 0) (h2 : t.val % 10 = 9) :
    accAt0 V c t.val t.isLt = accC0 c (grid0.coords t) (ms0_0 t) (hs0_0 t) (ms0_1 t) (hs0_1 t) (ms0_2 t) (hs0_2 t) scM0 (Memref.isWhole_whole _) (notFirst0 t h0) (isLast0 t h2) (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- What the proof data say the output block holds after point `t`: at a last tile what the body stored there; elsewhere
    a placeholder (the window is idle there). -/
def outAt0 (c : Dev nD) (t : Fin cfg0.N) : Vec F S256x1 .f32 :=
  if h2 : t.val % 10 = 9 then
    outC0 c (grid0.coords t) (ms0_0 t) (hs0_0 t) (ms0_1 t) (hs0_1 t) (ms0_2 t) (hs0_2 t) scM0 (Memref.isWhole_whole _) (notFirst0 t (by omega)) (isLast0 t h2) (iblk0 V c 0 t) (iblk0 V c 1 t)
      (accAt0 V c (t.val - 1) (Nat.lt_of_le_of_lt (Nat.sub_le _ _) t.isLt))
  else VO0.read (Elt F) VO0.junk

theorem outAt0_C (c : Dev nD) (t : Fin cfg0.N) (h0 : ¬t.val % 10 = 0) (h2 : t.val % 10 = 9) :
    outAt0 V c t = outC0 c (grid0.coords t) (ms0_0 t) (hs0_0 t) (ms0_1 t) (hs0_1 t) (ms0_2 t) (hs0_2 t) scM0 (Memref.isWhole_whole _) (notFirst0 t h0) (isLast0 t h2) (iblk0 V c 0 t) (iblk0 V c 1 t)
      (accAt0 V c (t.val - 1) (Nat.lt_of_le_of_lt (Nat.sub_le _ _) t.isLt)) := by
  unfold outAt0; exact dif_pos h2

/-! ## The invariant and the proof data -/

/-- The region invariant before position `n`: the plain one before the first point; afterwards the same with the
    accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point, by the point's case: the inputs' buffers hold their blocks; the invariant lends the
    accumulator (at anything before the first point, at the point before's value afterwards) and takes it back at this
    point's value; the output block is handed back untouched away from a last tile and stored whole at one. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  by_cases h0 : t.val % 10 = 0
  · have h2 : ¬t.val % 10 = 9 := by omega
    rw [Dat.leavesExact_idle (dat0 V c) 2 t (idle0_2 t (notLast0 t h2)) (noFlush0_2 t (notLast0 t h2))]
    rw [accAt0_A V c t h0 h2]
    unfold accA0; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply ((bodyRun0_A c (grid0.coords t) _ _ _ _ _ _ _ _ (isFirst0 t h0) (notLast0 t h2) (iblk0 V c 0 t) (iblk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_A c (grid0.coords t) _ _ _ _ _ _ _ _ (isFirst0 t h0) (notLast0 t h2) (iblk0 V c 0 t) (iblk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h2 : t.val % 10 = 9
    · rw [show (dat0 V c).leavesExact 2 t = owns (c : Thread nD τ) (ms0_2 t) fullShare ((dat0 V c).after 2 t) from by
          unfold Dat.leavesExact; rw [live0_2 t (isLast0 t h2)], after0_2]
      rw [accAt0_C V c t h0 h2, outAt0_C V c t h0 h2]
      unfold accC0 outC0; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_C c (grid0.coords t) _ _ _ _ _ _ _ _ (notFirst0 t h0) (isLast0 t h2) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverC0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC0 c _ _ _ _ _ _ _ _ _ _ _ _ _ _)
    · rw [Dat.leavesExact_idle (dat0 V c) 2 t (idle0_2 t (notLast0 t h2)) (noFlush0_2 t (notLast0 t h2))]
      rw [accAt0_B V c t h0 h2]
      unfold accB0; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_B c (grid0.coords t) _ _ _ _ _ _ _ _ (notFirst0 t h0) (notLast0 t h2) (iblk0 V c 0 t) (iblk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverB0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives the plain one back: the accumulator's value is forgotten. -/
theorem hout0 (c : Dev nD) : (dat0 V c).Φ (Fin.last cfg0.N) ⊢ Pipeline.ΦA spec0 c := by
  have hN : cfg0.N = 160 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hrest⟩, Hg⟩
  isplitl [HS Hrest]
  · isplitl [HS]
    · iexists _; iexact HS
    iexact Hrest
  iexact Hg

end Cert.Kernel.Hand

end
-- ==== Proof.KRun1.lean ====
/-
  Pipeline 1 runs the streaming kernel on a grid of 16 × 5 points: for each block of 256 query rows the table is
  streamed in 5 tiles of 5000 rows.  The body keeps a column of running sums in a scratch buffer that lives across the
  points: at a block's first tile it clears the column, at every tile it adds the row sums of exp (scale · q · tᵀ) for
  the tile, and at the block's last tile it copies the column into the output block; at the other tiles the output
  block is not touched.  Which tile a point is, first / middle / last, is decided over the grid in closed form.  For
  each of the three cases the body's run is found by the symbolic executor from whole staging buffers, and what its
  stores leave in the accumulator (and, at a last tile, in the output block) is recorded as the list of pieces written.
-/
import proofs.«110517_j15659450761722_1_alg».proof.Proof.Gen.Kernel.Launch
import proofs.«110517_j15659450761722_1_alg».proof.Proof.Gen.Kernel.Skeleton
import proofs.«110517_j15659450761722_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "This is the block's first table tile": the body's first conditional, from the grid coordinates. -/
abbrev first1 (i : grid1.Coords) : Prop :=
  (Scalar.cmpi .ne (Scalar.extui (Scalar.cmpi .eq (BitVec.ofNat 32 (i 1).val) 0#32)) 0#32) = 1#1
/-- It holds at the points ≡ 0 (mod 5). -/
theorem first1_iff : ∀ t : Fin cfg1.N, first1 (grid1.coords t) ↔ t.val % 5 = 0 :=
  (by decide +kernel : ∀ t : Fin grid1.N, first1 (grid1.coords t) ↔ t.val % 5 = 0)

/-- "This is the block's last table tile": the body's second conditional. -/
abbrev last1 (i : grid1.Coords) : Prop := k1_cond2 i = 1#1
/-- It holds at the points ≡ 4 (mod 5). -/
theorem last1_iff : ∀ t : Fin cfg1.N, last1 (grid1.coords t) ↔ t.val % 5 = 4 :=
  (by decide +kernel : ∀ t : Fin grid1.N, last1 (grid1.coords t) ↔ t.val % 5 = 4)

set_option maxHeartbeats 4000000 in
/-- A FIRST tile: the inputs at `x0`, `x1`; the output block at `xo`, not touched; the accumulator at anything (it is
    cleared before it is read).  The accumulator ends overwritten by the recorded pieces. -/
noncomputable def bodyRun1_A (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : first1 i) (hlast : ¬last1 i) (x0 : Vec F S256x64 .f32) (x1 : Vec F S5000x64 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨[], ?_, fun xo E K => ?run⟩
  case run =>
    simp only [cc1__dotexpsum_kernel_eq_skeleton]; unfold cc1__dotexpsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A MIDDLE tile: as a first tile, but the accumulator is read before it is written, so it comes at named contents `xs`. -/
noncomputable def bodyRun1_B (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first1 i) (hlast : ¬last1 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨[], ?_, fun xo E K => ?run⟩
  case run =>
    simp only [cc1__dotexpsum_kernel_eq_skeleton]; unfold cc1__dotexpsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A LAST tile: the accumulator at named contents `xs`; the output block at anything, and overwritten by its recorded
    pieces. -/
noncomputable def bodyRun1_C (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first1 i) (hlast : last1 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨?_, ?_, fun E K => ?run⟩
  case run =>
    simp only [cc1__dotexpsum_kernel_eq_skeleton]; unfold cc1__dotexpsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KRegion1.lean ====
/-
  Pipeline 1 at the buffer contents `V` its region is entered with.  The accumulator column is carried from point to
  point: after point n it holds the value defined by recursion on n — at a block's first tile the body's result from
  the point's two input blocks alone, at a later tile its result from those blocks and what the point before left.
  The output block is written at a block's last tile only, with the accumulator's value; at the other points the
  window is idle (its buffer is handed back untouched and not written back), so what the proof data say it holds there
  is a placeholder nothing reads.  The region's invariant is the plain one before the first point and, after point n,
  the same with the accumulator at its named value.
-/
import proofs.«110517_j15659450761722_1_alg».proof.Proof.KRun1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from the
    point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The inputs are never idle; the output window is idle, and not written back, exactly away from the last tiles. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- Each window's current staging buffer at a point, as the pipeline passes it, and the accumulator. -/
abbrev ms1_0 (t : Fin cfg1.N) : Memref sig .tc .vmem S256x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev scM1 : Memref sig .tc .vmem S256x1 .f32 := Memref.whole cc1_scratch0
/-- The views through which the output block's and the accumulator's contents are stated. -/
abbrev VO1 : View sig .tc .vmem S256x1 .f32 := (Memref.whole cc1_stg2_0 : Memref sig .tc .vmem S256x1 .f32).view
abbrev VS1 : View sig .tc .vmem S256x1 .f32 := scM1.view

/-- The core's scoped buffers outside this pipeline's staging, with the accumulator taken out and named. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The plain invariant with the accumulator as a whole buffer owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves -/

/-- A first tile's accumulator: its pieces read back; they tile the column, so they cover it. -/
def accA1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first1 i) (hlast : ¬last1 i) (x0 : Vec F S256x64 .f32) (x1 : Vec F S5000x64 .f32) : Vec F S256x1 .f32 :=
  VS1.read (Elt F) (VS1.writes (Elt F) VS1.junk (bodyRun1_A c i arg2 harg2 arg3 harg3 arg4 harg4 arg5 harg5 hfirst hlast x0 x1).2.1)
theorem accCoverA1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first1 i) (hlast : ¬last1 i) (x0 : Vec F S256x64 .f32) (x1 : Vec F S5000x64 .f32) (y : S256x1.Idx) :
    ∃ pc ∈ (bodyRun1_A c i arg2 harg2 arg3 harg3 arg4 harg4 arg5 harg5 hfirst hlast x0 x1).2.1, y ∈ pc.1.set :=
  View.cover_of_tiledL (bodyRun1_A c i arg2 harg2 arg3 harg3 arg4 harg4 arg5 harg5 hfirst hlast x0 x1).2.1 S256x1.size (by sl_kernel_rfl) y

/-- A middle tile's accumulator, over what the point before left (`xs`). -/
def accB1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : ¬last1 i) (x0 : Vec F S256x64 .f32) (x1 : Vec F S5000x64 .f32) (xs : Vec F S256x1 .f32) : Vec F S256x1 .f32 :=
  VS1.read (Elt F) (VS1.writes (Elt F) VS1.junk (bodyRun1_B c i arg2 harg2 arg3 harg3 arg4 harg4 arg5 harg5 hfirst hlast x0 x1 xs).2.1)
theorem accCoverB1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : ¬last1 i) (x0 : Vec F S256x64 .f32) (x1 : Vec F S5000x64 .f32) (xs : Vec F S256x1 .f32) (y : S256x1.Idx) :
    ∃ pc ∈ (bodyRun1_B c i arg2 harg2 arg3 harg3 arg4 harg4 arg5 harg5 hfirst hlast x0 x1 xs).2.1, y ∈ pc.1.set :=
  View.cover_of_tiledL (bodyRun1_B c i arg2 harg2 arg3 harg3 arg4 harg4 arg5 harg5 hfirst hlast x0 x1 xs).2.1 S256x1.size (by sl_kernel_rfl) y

/-- A last tile's accumulator and output block. -/
def accC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) : Vec F S256x1 .f32 :=
  VS1.read (Elt F) (VS1.writes (Elt F) VS1.junk (bodyRun1_C c i arg2 harg2 arg3 harg3 arg4 harg4 arg5 harg5 hfirst hlast x0 x1 xs).2.1)
theorem accCoverC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) (y : S256x1.Idx) :
    ∃ pc ∈ (bodyRun1_C c i arg2 harg2 arg3 harg3 arg4 harg4 arg5 harg5 hfirst hlast x0 x1 xs).2.1, y ∈ pc.1.set :=
  View.cover_of_tiledL (bodyRun1_C c i arg2 harg2 arg3 harg3 arg4 harg4 arg5 harg5 hfirst hlast x0 x1 xs).2.1 S256x1.size (by sl_kernel_rfl) y
def outC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) : Vec F S256x1 .f32 :=
  VO1.read (Elt F) (VO1.writes (Elt F) VO1.junk (bodyRun1_C c i arg2 harg2 arg3 harg3 arg4 harg4 arg5 harg5 hfirst hlast x0 x1 xs).1)
theorem outCoverC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) (y : S256x1.Idx) :
    ∃ pc ∈ (bodyRun1_C c i arg2 harg2 arg3 harg3 arg4 harg4 arg5 harg5 hfirst hlast x0 x1 xs).1, y ∈ pc.1.set :=
  View.cover_of_tiledL (bodyRun1_C c i arg2 harg2 arg3 harg3 arg4 harg4 arg5 harg5 hfirst hlast x0 x1 xs).1 S256x1.size (by sl_kernel_rfl) y

/-! ## The accumulator point by point -/

/-- The case conditions from a point's position. -/
theorem isFirst1 (t : Fin cfg1.N) (h : t.val % 5 = 0) : first1 (grid1.coords t) := (first1_iff t).mpr h
theorem notFirst1 (t : Fin cfg1.N) (h : ¬t.val % 5 = 0) : ¬first1 (grid1.coords t) := fun hf => h ((first1_iff t).mp hf)
theorem isLast1 (t : Fin cfg1.N) (h : t.val % 5 = 4) : last1 (grid1.coords t) := (last1_iff t).mpr h
theorem notLast1 (t : Fin cfg1.N) (h : ¬t.val % 5 = 4) : ¬last1 (grid1.coords t) := fun hl => h ((last1_iff t).mp hl)

/-- THE ACCUMULATION: what the accumulator holds after the body at position `n`. -/
def accAt1 (c : Dev nD) : (n : ℕ) → n < cfg1.N → Vec F S256x1 .f32
  | 0, hn => accA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (isFirst1 ⟨0, hn⟩ (Nat.zero_mod _)) (notLast1 ⟨0, hn⟩ (by show ¬ (0 : ℕ) % 5 = 4; decide)) (iblk1 V c 0 ⟨0, hn⟩) (iblk1 V c 1 ⟨0, hn⟩)
  | n + 1, hn =>
    if h0 : (n + 1) % 5 = 0 then
      accA1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (isFirst1 ⟨n + 1, hn⟩ h0) (notLast1 ⟨n + 1, hn⟩ (by show ¬ (n + 1) % 5 = 4; omega)) (iblk1 V c 0 ⟨n + 1, hn⟩) (iblk1 V c 1 ⟨n + 1, hn⟩)
    else if h2 : (n + 1) % 5 = 4 then
      accC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h2) (iblk1 V c 0 ⟨n + 1, hn⟩) (iblk1 V c 1 ⟨n + 1, hn⟩) (accAt1 c n (Nat.lt_of_succ_lt hn))
    else
      accB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (notLast1 ⟨n + 1, hn⟩ h2) (iblk1 V c 0 ⟨n + 1, hn⟩) (iblk1 V c 1 ⟨n + 1, hn⟩) (accAt1 c n (Nat.lt_of_succ_lt hn))

theorem accAt1_A (c : Dev nD) (t : Fin cfg1.N) (h0 : t.val % 5 = 0) (h2 : ¬t.val % 5 = 4) :
    accAt1 V c t.val t.isLt = accA1 c (grid1.coords t) (ms1_0 t) (hs1_0 t) (ms1_1 t) (hs1_1 t) (ms1_2 t) (hs1_2 t) scM1 (Memref.isWhole_whole _) (isFirst1 t h0) (notLast1 t h2) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 5 = 0) (h2 : ¬t.val % 5 = 4) :
    accAt1 V c t.val t.isLt = accB1 c (grid1.coords t) (ms1_0 t) (hs1_0 t) (ms1_1 t) (hs1_1 t) (ms1_2 t) (hs1_2 t) scM1 (Memref.isWhole_whole _) (notFirst1 t h0) (notLast1 t h2) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem accAt1_C (c : Dev nD) (t : Fin cfg1.N) (h0 : ¬t.val % 5 = 0) (h2 : t.val % 5 = 4) :
    accAt1 V c t.val t.isLt = accC1 c (grid1.coords t) (ms1_0 t) (hs1_0 t) (ms1_1 t) (hs1_1 t) (ms1_2 t) (hs1_2 t) scM1 (Memref.isWhole_whole _) (notFirst1 t h0) (isLast1 t h2) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- What the proof data say the output block holds after point `t`: at a last tile what the body stored there; elsewhere
    a placeholder (the window is idle there). -/
def outAt1 (c : Dev nD) (t : Fin cfg1.N) : Vec F S256x1 .f32 :=
  if h2 : t.val % 5 = 4 then
    outC1 c (grid1.coords t) (ms1_0 t) (hs1_0 t) (ms1_1 t) (hs1_1 t) (ms1_2 t) (hs1_2 t) scM1 (Memref.isWhole_whole _) (notFirst1 t (by omega)) (isLast1 t h2) (iblk1 V c 0 t) (iblk1 V c 1 t)
      (accAt1 V c (t.val - 1) (Nat.lt_of_le_of_lt (Nat.sub_le _ _) t.isLt))
  else VO1.read (Elt F) VO1.junk

theorem outAt1_C (c : Dev nD) (t : Fin cfg1.N) (h0 : ¬t.val % 5 = 0) (h2 : t.val % 5 = 4) :
    outAt1 V c t = outC1 c (grid1.coords t) (ms1_0 t) (hs1_0 t) (ms1_1 t) (hs1_1 t) (ms1_2 t) (hs1_2 t) scM1 (Memref.isWhole_whole _) (notFirst1 t h0) (isLast1 t h2) (iblk1 V c 0 t) (iblk1 V c 1 t)
      (accAt1 V c (t.val - 1) (Nat.lt_of_le_of_lt (Nat.sub_le _ _) t.isLt)) := by
  unfold outAt1; exact dif_pos h2

/-! ## The invariant and the proof data -/

/-- The region invariant before position `n`: the plain one before the first point; afterwards the same with the
    accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point, by the point's case: the inputs' buffers hold their blocks; the invariant lends the
    accumulator (at anything before the first point, at the point before's value afterwards) and takes it back at this
    point's value; the output block is handed back untouched away from a last tile and stored whole at one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [live1_0 t], after1_0]
  rw [show (dat1 V c).leavesExact 1 t = owns (c : Thread nD τ) (ms1_1 t) fullShare ((dat1 V c).after 1 t) from by
      unfold Dat.leavesExact; rw [live1_1 t], after1_1]
  by_cases h0 : t.val % 5 = 0
  · have h2 : ¬t.val % 5 = 4 := by omega
    rw [Dat.leavesExact_idle (dat1 V c) 2 t (idle1_2 t (notLast1 t h2)) (noFlush1_2 t (notLast1 t h2))]
    rw [accAt1_A V c t h0 h2]
    unfold accA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply ((bodyRun1_A c (grid1.coords t) _ _ _ _ _ _ _ _ (isFirst1 t h0) (notLast1 t h2) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA1 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_A c (grid1.coords t) _ _ _ _ _ _ _ _ (isFirst1 t h0) (notLast1 t h2) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA1 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h2 : t.val % 5 = 4
    · rw [show (dat1 V c).leavesExact 2 t = owns (c : Thread nD τ) (ms1_2 t) fullShare ((dat1 V c).after 2 t) from by
          unfold Dat.leavesExact; rw [live1_2 t (isLast1 t h2)], after1_2]
      rw [accAt1_C V c t h0 h2, outAt1_C V c t h0 h2]
      unfold accC1 outC1; (try dsimp only)
      rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_C c (grid1.coords t) _ _ _ _ _ _ _ _ (notFirst1 t h0) (isLast1 t h2) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverC1 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC1 c _ _ _ _ _ _ _ _ _ _ _ _ _ _)
    · rw [Dat.leavesExact_idle (dat1 V c) 2 t (idle1_2 t (notLast1 t h2)) (noFlush1_2 t (notLast1 t h2))]
      rw [accAt1_B V c t h0 h2]
      unfold accB1; (try dsimp only)
      rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_B c (grid1.coords t) _ _ _ _ _ _ _ _ (notFirst1 t h0) (notLast1 t h2) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverB1 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives the plain one back: the accumulator's value is forgotten. -/
theorem hout1 (c : Dev nD) : (dat1 V c).Φ (Fin.last cfg1.N) ⊢ Pipeline.ΦA spec1 c := by
  have hN : cfg1.N = 80 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, Hrest⟩, Hg⟩
  isplitl [HS Hrest]
  · isplitl [HS]
    · iexists _; iexact HS
    iexact Hrest
  iexact Hg

end Cert.Kernel.Hand

end
-- ==== Proof.KRun2.lean ====
/-
  Pipeline 2 runs the streaming kernel on a grid of 16 × 1 points: the table is a single tile, so at every point the
  body first clears its accumulator column, then adds to it the row sums of exp (scale · q · tᵀ) for the point's
  256 query rows against the whole 1000-row table, and then copies the accumulator into the output block.
  Both of the body's conditionals (first tile? last tile?) hold at every point of this grid, which is decided over the
  grid once.  The body's run is found by the symbolic executor from whole staging buffers: the two inputs at given
  contents, the output block and the accumulator at anything; what the stores leave in the output block and in the
  accumulator is recorded as the list of pieces written.
-/
import proofs.«110517_j15659450761722_1_alg».proof.Proof.Gen.Kernel.Launch
import proofs.«110517_j15659450761722_1_alg».proof.Proof.Gen.Kernel.Skeleton
import proofs.«110517_j15659450761722_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "This is the first table tile": the body's first conditional, from the grid coordinates. -/
abbrev first2 (i : grid2.Coords) : Prop :=
  (Scalar.cmpi .ne (Scalar.extui (Scalar.cmpi .eq (BitVec.ofNat 32 (i 1).val) 0#32)) 0#32) = 1#1
/-- It holds at every point: the second grid axis has one position. -/
theorem first2_all : ∀ t : Fin cfg2.N, first2 (grid2.coords t) :=
  (by decide +kernel : ∀ t : Fin grid2.N, first2 (grid2.coords t))

/-- "This is the last table tile": the body's second conditional. -/
abbrev last2 (i : grid2.Coords) : Prop := k2_cond2 i = 1#1
/-- It too holds at every point. -/
theorem last2_all : ∀ t : Fin cfg2.N, last2 (grid2.coords t) :=
  (by decide +kernel : ∀ t : Fin grid2.N, last2 (grid2.coords t))

set_option maxHeartbeats 4000000 in
/-- The body at a point where both conditionals hold, on whole staging buffers: the query block at `x0`, the table tile
    at `x1`, the output block and the accumulator at anything.  It runs to the end, leaves the inputs as they were, and
    leaves the output block and the accumulator each overwritten by the recorded pieces. -/
noncomputable def bodyRun2 (c : Dev nD) (i : grid2.Coords)
    (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__dotexpsum_kernel i arg2 harg2 arg3 harg3 arg4 harg4 arg5 harg5) K } := by
  refine ⟨?_, ?_, fun E K => ?run⟩
  case run =>
    simp only [cc2__dotexpsum_kernel_eq_skeleton]; unfold cc2__dotexpsum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KRegion2.lean ====
/-
  Pipeline 2 at the buffer contents `V` its region is entered with.  A window's block at a point is read off its
  array in `V`.  After the body at a point the two input blocks are in place and the output block holds what the body's
  stores leave there — a function of the point's two input blocks only, because the accumulator is cleared before it is
  read.  So nothing is carried from one point to the next: the region's invariant is the plain one (the core's other
  scoped buffers, the accumulator among them, at some contents, and the generator register at some state).
-/
import proofs.«110517_j15659450761722_1_alg».proof.Proof.KRun2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept from the
    point before (the block index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- No window is idle at any point of this grid. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-- Each window's current staging buffer at a point, as the pipeline passes it, and the accumulator. -/
abbrev ms2_0 (t : Fin cfg2.N) : Memref sig .tc .vmem S256x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev scM2 : Memref sig .tc .vmem S256x1 .f32 := Memref.whole cc2_scratch0
/-- One staging buffer of the output window, through which the block's contents are stated. -/
abbrev VO2 : View sig .tc .vmem S256x1 .f32 := (Memref.whole cc2_stg2_0 : Memref sig .tc .vmem S256x1 .f32).view

/-- The core's scoped buffers outside this pipeline's staging, with the accumulator taken out and named. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The plain invariant with the accumulator as a whole buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- What the body leaves in the output block: its stores' pieces read back. -/
def out2 (c : Dev nD) (i : grid2.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) : Vec F S256x1 .f32 :=
  VO2.read (Elt F) (VO2.writes (Elt F) VO2.junk (bodyRun2 c i arg2 harg2 arg3 harg3 arg4 harg4 arg5 harg5 hfirst hlast x0 x1).1)

/-- Those pieces tile the block (one store of the whole block), so they cover it. -/
theorem cover2 (c : Dev nD) (i : grid2.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) (y : S256x1.Idx) :
    ∃ pc ∈ (bodyRun2 c i arg2 harg2 arg3 harg3 arg4 harg4 arg5 harg5 hfirst hlast x0 x1).1, y ∈ pc.1.set :=
  View.cover_of_tiledL (bodyRun2 c i arg2 harg2 arg3 harg3 arg4 harg4 arg5 harg5 hfirst hlast x0 x1).1 S256x1.size (by sl_kernel_rfl) y

/-- The output block after the body at point `t`, from that point's input blocks. -/
def outAt2 (c : Dev nD) (t : Fin cfg2.N) : Vec F S256x1 .f32 :=
  out2 c (grid2.coords t) (ms2_0 t) (hs2_0 t) (ms2_1 t) (hs2_1 t) (ms2_2 t) (hs2_2 t) scM2 (Memref.isWhole_whole _)
    (first2_all t) (last2_all t) (iblk2 V c 0 t) (iblk2 V c 1 t)

/-- The pipeline's proof data on core `c`: the arrays as the region finds them; after the body each input's buffer at
    its block and the output's at `outAt2`; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks, the invariant lends the accumulator at whatever it
    holds, the run applies, and the accumulator goes back into the invariant at whatever the body left in it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from by
      unfold Dat.leavesExact; rw [live2_0 t], after2_0]
  rw [show (dat2 V c).leavesExact 1 t = owns (c : Thread nD τ) (ms2_1 t) fullShare ((dat2 V c).after 1 t) from by
      unfold Dat.leavesExact; rw [live2_1 t], after2_1]
  rw [show (dat2 V c).leavesExact 2 t = owns (c : Thread nD τ) (ms2_2 t) fullShare ((dat2 V c).after 2 t) from by
      unfold Dat.leavesExact; rw [live2_2 t], after2_2]
  rw [show (dat2 V c).Φ t.castSucc = Pipeline.ΦA spec2 c from rfl, PhiA2_eq]
  unfold outAt2 out2
  iintro ⟨⟨⟨HS, Hrest⟩, Hg⟩, Ho, ⟨%d0, H0⟩, ⟨%d1, H1⟩, ⟨%d2, H2⟩⟩
  iapply ((bodyRun2 c (grid2.coords t) _ _ _ _ _ _ _ _ (first2_all t) (last2_all t) (iblk2 V c 0 t) (iblk2 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hrest Hg]
  · isplitl [HS Hrest]
    · isplitl [HS]
      · unfold owns; iexists _; iexists _; isplitr
        swap; · iexact HS
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun3.lean ====
/-
  Pipeline 3 runs the streaming kernel on a grid of 16 × 1 points: the table is a single tile, so at every point the
  body first clears its accumulator column, then adds to it the row sums of exp (scale · q · tᵀ) for the point's
  256 query rows against the whole 1000-row table, and then copies the accumulator into the output block.
  Both of the body's conditionals (first tile? last tile?) hold at every point of this grid, which is decided over the
  grid once.  The body's run is found by the symbolic executor from whole staging buffers: the two inputs at given
  contents, the output block and the accumulator at anything; what the stores leave in the output block and in the
  accumulator is recorded as the list of pieces written.
-/
import proofs.«110517_j15659450761722_1_alg».proof.Proof.Gen.Kernel.Launch
import proofs.«110517_j15659450761722_1_alg».proof.Proof.Gen.Kernel.Skeleton
import proofs.«110517_j15659450761722_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- "This is the first table tile": the body's first conditional, from the grid coordinates. -/
abbrev first3 (i : grid3.Coords) : Prop :=
  (Scalar.cmpi .ne (Scalar.extui (Scalar.cmpi .eq (BitVec.ofNat 32 (i 1).val) 0#32)) 0#32) = 1#1
/-- It holds at every point: the second grid axis has one position. -/
theorem first3_all : ∀ t : Fin cfg3.N, first3 (grid3.coords t) :=
  (by decide +kernel : ∀ t : Fin grid3.N, first3 (grid3.coords t))

/-- "This is the last table tile": the body's second conditional. -/
abbrev last3 (i : grid3.Coords) : Prop := k3_cond2 i = 1#1
/-- It too holds at every point. -/
theorem last3_all : ∀ t : Fin cfg3.N, last3 (grid3.coords t) :=
  (by decide +kernel : ∀ t : Fin grid3.N, last3 (grid3.coords t))

set_option maxHeartbeats 4000000 in
/-- The body at a point where both conditionals hold, on whole staging buffers: the query block at `x0`, the table tile
    at `x1`, the output block and the accumulator at anything.  It runs to the end, leaves the inputs as they were, and
    leaves the output block and the accumulator each overwritten by the recorded pieces. -/
noncomputable def bodyRun3 (c : Dev nD) (i : grid3.Coords)
    (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3__dotexpsum_kernel i arg2 harg2 arg3 harg3 arg4 harg4 arg5 harg5) K } := by
  refine ⟨?_, ?_, fun E K => ?run⟩
  case run =>
    simp only [cc3__dotexpsum_kernel_eq_skeleton]; unfold cc3__dotexpsum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Hand

end
-- ==== Proof.KRegion3.lean ====
/-
  Pipeline 3 at the buffer contents `V` its region is entered with.  A window's block at a point is read off its
  array in `V`.  After the body at a point the two input blocks are in place and the output block holds what the body's
  stores leave there — a function of the point's two input blocks only, because the accumulator is cleared before it is
  read.  So nothing is carried from one point to the next: the region's invariant is the plain one (the core's other
  scoped buffers, the accumulator among them, at some contents, and the generator register at some state).
-/
import proofs.«110517_j15659450761722_1_alg».proof.Proof.KRun3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether fetched there or kept from the
    point before (the block index has not moved then). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- No window is idle at any point of this grid. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

/-- Each window's current staging buffer at a point, as the pipeline passes it, and the accumulator. -/
abbrev ms3_0 (t : Fin cfg3.N) : Memref sig .tc .vmem S256x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev scM3 : Memref sig .tc .vmem S256x1 .f32 := Memref.whole cc3_scratch0
/-- One staging buffer of the output window, through which the block's contents are stated. -/
abbrev VO3 : View sig .tc .vmem S256x1 .f32 := (Memref.whole cc3_stg2_0 : Memref sig .tc .vmem S256x1 .f32).view

/-- The core's scoped buffers outside this pipeline's staging, with the accumulator taken out and named. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The plain invariant with the accumulator as a whole buffer owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- What the body leaves in the output block: its stores' pieces read back. -/
def out3 (c : Dev nD) (i : grid3.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) : Vec F S256x1 .f32 :=
  VO3.read (Elt F) (VO3.writes (Elt F) VO3.junk (bodyRun3 c i arg2 harg2 arg3 harg3 arg4 harg4 arg5 harg5 hfirst hlast x0 x1).1)

/-- Those pieces tile the block (one store of the whole block), so they cover it. -/
theorem cover3 (c : Dev nD) (i : grid3.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) (y : S256x1.Idx) :
    ∃ pc ∈ (bodyRun3 c i arg2 harg2 arg3 harg3 arg4 harg4 arg5 harg5 hfirst hlast x0 x1).1, y ∈ pc.1.set :=
  View.cover_of_tiledL (bodyRun3 c i arg2 harg2 arg3 harg3 arg4 harg4 arg5 harg5 hfirst hlast x0 x1).1 S256x1.size (by sl_kernel_rfl) y

/-- The output block after the body at point `t`, from that point's input blocks. -/
def outAt3 (c : Dev nD) (t : Fin cfg3.N) : Vec F S256x1 .f32 :=
  out3 c (grid3.coords t) (ms3_0 t) (hs3_0 t) (ms3_1 t) (hs3_1 t) (ms3_2 t) (hs3_2 t) scM3 (Memref.isWhole_whole _)
    (first3_all t) (last3_all t) (iblk3 V c 0 t) (iblk3 V c 1 t)

/-- The pipeline's proof data on core `c`: the arrays as the region finds them; after the body each input's buffer at
    its block and the output's at `outAt3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' buffers hold their blocks, the invariant lends the accumulator at whatever it
    holds, the run applies, and the accumulator goes back into the invariant at whatever the body left in it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
      unfold Dat.leavesExact; rw [live3_0 t], after3_0]
  rw [show (dat3 V c).leavesExact 1 t = owns (c : Thread nD τ) (ms3_1 t) fullShare ((dat3 V c).after 1 t) from by
      unfold Dat.leavesExact; rw [live3_1 t], after3_1]
  rw [show (dat3 V c).leavesExact 2 t = owns (c : Thread nD τ) (ms3_2 t) fullShare ((dat3 V c).after 2 t) from by
      unfold Dat.leavesExact; rw [live3_2 t], after3_2]
  rw [show (dat3 V c).Φ t.castSucc = Pipeline.ΦA spec3 c from rfl, PhiA3_eq]
  unfold outAt3 out3
  iintro ⟨⟨⟨HS, Hrest⟩, Hg⟩, Ho, ⟨%d0, H0⟩, ⟨%d1, H1⟩, ⟨%d2, H2⟩⟩
  iapply ((bodyRun3 c (grid3.coords t) _ _ _ _ _ _ _ _ (first3_all t) (last3_all t) (iblk3 V c 0 t) (iblk3 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hrest Hg]
  · isplitl [HS Hrest]
    · isplitl [HS]
      · unfold owns; iexists _; iexists _; isplitr
        swap; · iexact HS
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover3 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.KFrame.lean ====
/-
  The whole program's run.  @main is twenty-nine items in a row: twenty-five stretches of host operations and the four
  pipelines.  The TensorCore's buffer contents at each boundary are a fold from the launch memory: after a stretch, the
  stretch's operations applied; after a pipeline, its three arrays at what its write-backs leave and every other buffer
  as it was.  No stretch writes an argument buffer and no pipeline's array is one, so each argument reads back through
  the whole fold to its launch contents.  Every stretch and every pipeline is a segment over one thread state (every
  unscoped buffer at the boundary's contents, the generator register at some state, nothing owed), and the library's
  launch theorem over the segments gives: every weakly fair execution terminates, nothing faults, and every unscoped
  buffer ends at the last boundary's contents.
-/
import proofs.«110517_j15659450761722_1_alg».proof.Proof.KRegion0
import proofs.«110517_j15659450761722_1_alg».proof.Proof.KRegion1
import proofs.«110517_j15659450761722_1_alg».proof.Proof.KRegion2
import proofs.«110517_j15659450761722_1_alg».proof.Proof.KRegion3
import proofs.«110517_j15659450761722_1_alg».proof.Proof.LibWritesInOrder
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- Pipeline 0's entry contents at the TensorCore's references. -/
abbrev V7 : (c : Dev nD) → (b : Ref sig .tc) → Buf (Elt F) ((c : Thread nD τ).loc b) := fun c b => W7 m ρ c b
/-- At pipeline 0's exit: its arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- After `hostOps1_1`. -/
abbrev W10 : Dev nD → Valuation τ sig (Elt F) := fun c => StableHlo.after hostOps1_1 (W9 m ρ c)
/-- After `hostOps1_2`. -/
abbrev W11 : Dev nD → Valuation τ sig (Elt F) := fun c => StableHlo.after hostOps1_2 (W10 m ρ c)
/-- After `hostOps1_3`. -/
abbrev W12 : Dev nD → Valuation τ sig (Elt F) := fun c => StableHlo.after hostOps1_3 (W11 m ρ c)
/-- After `hostOps1_4`. -/
abbrev W13 : Dev nD → Valuation τ sig (Elt F) := fun c => StableHlo.after hostOps1_4 (W12 m ρ c)
/-- After `hostOps1_5`. -/
abbrev W14 : Dev nD → Valuation τ sig (Elt F) := fun c => StableHlo.after hostOps1_5 (W13 m ρ c)
/-- After `hostOps1_6`. -/
abbrev W15 : Dev nD → Valuation τ sig (Elt F) := fun c => StableHlo.after hostOps1_6 (W14 m ρ c)
/-- Pipeline 1's entry contents at the TensorCore's references. -/
abbrev V15 : (c : Dev nD) → (b : Ref sig .tc) → Buf (Elt F) ((c : Thread nD τ).loc b) := fun c b => W15 m ρ c b
/-- At pipeline 1's exit: its arrays at what the write-backs leave, every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After `hostOps2`. -/
abbrev W17 : Dev nD → Valuation τ sig (Elt F) := fun c => StableHlo.after hostOps2 (W16 m ρ c)
/-- After `hostOps2_1`. -/
abbrev W18 : Dev nD → Valuation τ sig (Elt F) := fun c => StableHlo.after hostOps2_1 (W17 m ρ c)
/-- After `hostOps2_2`. -/
abbrev W19 : Dev nD → Valuation τ sig (Elt F) := fun c => StableHlo.after hostOps2_2 (W18 m ρ c)
/-- After `hostOps2_3`. -/
abbrev W20 : Dev nD → Valuation τ sig (Elt F) := fun c => StableHlo.after hostOps2_3 (W19 m ρ c)
/-- After `hostOps2_4`. -/
abbrev W21 : Dev nD → Valuation τ sig (Elt F) := fun c => StableHlo.after hostOps2_4 (W20 m ρ c)
/-- Pipeline 2's entry contents at the TensorCore's references. -/
abbrev V21 : (c : Dev nD) → (b : Ref sig .tc) → Buf (Elt F) ((c : Thread nD τ).loc b) := fun c b => W21 m ρ c b
/-- At pipeline 2's exit: its arrays at what the write-backs leave, every other buffer as entered. -/
def W22 (c : Dev nD) : Valuation τ sig (Elt F) :=
  Pipeline.withArrays spec2 c (W21 m ρ c) fun w => (dat2 (V21 m ρ) c).arrAt w cfg2.N
theorem W22_arr (c : Dev nD) (w : Fin cfg2.W) :
    W22 m ρ c (Proc.devRef .tc (Pipeline.arrRef spec2 w)) = (dat2 (V21 m ρ) c).arrAt w cfg2.N := by
  unfold W22; exact Pipeline.withArrays_arr spec2 launch2.win.arr_inj c _ _ w
theorem W22_of_ne (c : Dev nD) (b : Ref sig .tc) (hb : ∀ w, Pipeline.arrRef spec2 w ≠ b) :
    W22 m ρ c (Proc.devRef .tc b) = W21 m ρ c (Proc.devRef .tc b) := by
  unfold W22; exact Pipeline.withArrays_of_ne spec2 c _ _ b hb
abbrev V22 : (c : Dev nD) → (b : Ref sig .tc) → Buf (Elt F) ((c : Thread nD τ).loc b) := fun c b => W22 m ρ c b
theorem hF2 (c : Dev nD) (w : Fin cfg2.W) : (dat2 (V21 m ρ) c).arrAt w cfg2.N = V22 m ρ c (Pipeline.arrRef spec2 w) :=
  (W22_arr m ρ c w).symm
theorem hrest2 (c : Dev nD) : ∀ b, b ∉ Finset.univ.image (Pipeline.arrRef spec2) → V22 m ρ c b = V21 m ρ c b :=
  fun b hb => W22_of_ne m ρ c b fun w e => hb (Finset.mem_image.mpr ⟨w, Finset.mem_univ _, e⟩)
/-- After `hostOps3`. -/
abbrev W23 : Dev nD → Valuation τ sig (Elt F) := fun c => StableHlo.after hostOps3 (W22 m ρ c)
/-- After `hostOps3_1`. -/
abbrev W24 : Dev nD → Valuation τ sig (Elt F) := fun c => StableHlo.after hostOps3_1 (W23 m ρ c)
/-- After `hostOps3_2`. -/
abbrev W25 : Dev nD → Valuation τ sig (Elt F) := fun c => StableHlo.after hostOps3_2 (W24 m ρ c)
/-- After `hostOps3_3`. -/
abbrev W26 : Dev nD → Valuation τ sig (Elt F) := fun c => StableHlo.after hostOps3_3 (W25 m ρ c)
/-- After `hostOps3_4`. -/
abbrev W27 : Dev nD → Valuation τ sig (Elt F) := fun c => StableHlo.after hostOps3_4 (W26 m ρ c)
/-- Pipeline 3's entry contents at the TensorCore's references. -/
abbrev V27 : (c : Dev nD) → (b : Ref sig .tc) → Buf (Elt F) ((c : Thread nD τ).loc b) := fun c b => W27 m ρ c b
/-- At pipeline 3's exit: its arrays at what the write-backs leave, every other buffer as entered. -/
def W28 (c : Dev nD) : Valuation τ sig (Elt F) :=
  Pipeline.withArrays spec3 c (W27 m ρ c) fun w => (dat3 (V27 m ρ) c).arrAt w cfg3.N
theorem W28_arr (c : Dev nD) (w : Fin cfg3.W) :
    W28 m ρ c (Proc.devRef .tc (Pipeline.arrRef spec3 w)) = (dat3 (V27 m ρ) c).arrAt w cfg3.N := by
  unfold W28; exact Pipeline.withArrays_arr spec3 launch3.win.arr_inj c _ _ w
theorem W28_of_ne (c : Dev nD) (b : Ref sig .tc) (hb : ∀ w, Pipeline.arrRef spec3 w ≠ b) :
    W28 m ρ c (Proc.devRef .tc b) = W27 m ρ c (Proc.devRef .tc b) := by
  unfold W28; exact Pipeline.withArrays_of_ne spec3 c _ _ b hb
abbrev V28 : (c : Dev nD) → (b : Ref sig .tc) → Buf (Elt F) ((c : Thread nD τ).loc b) := fun c b => W28 m ρ c b
theorem hF3 (c : Dev nD) (w : Fin cfg3.W) : (dat3 (V27 m ρ) c).arrAt w cfg3.N = V28 m ρ c (Pipeline.arrRef spec3 w) :=
  (W28_arr m ρ c w).symm
theorem hrest3 (c : Dev nD) : ∀ b, b ∉ Finset.univ.image (Pipeline.arrRef spec3) → V28 m ρ c b = V27 m ρ c b :=
  fun b hb => W28_of_ne m ρ c b fun w e => hb (Finset.mem_image.mpr ⟨w, Finset.mem_univ _, e⟩)
/-- After `hostOps4`. -/
abbrev W29 : Dev nD → Valuation τ sig (Elt F) := fun c => StableHlo.after hostOps4 (W28 m ρ c)

/-! ## What each stretch writes, and that it leaves everything else alone -/

abbrev hostOps0_W : List (Ref sig .tc) :=
  [
    main_cst, main_v0, main_cst_0, main_v1, main_v2, main_v3, main_cst_1, main_v4, main_v5, main_v6, main_cst_2, main_v7,
    main_v8, main_v9, main_cst_3, main_v10, main_v11, main_v12, main_cst_4, main_v13, main_v14, main_v15, main_cst_5, main_v16,
    main_v17, main_v18, main_c, main_v19, main_v20, main_c_6, main_v21, main_v22, main_v23, main_v24, main_v25, main_c_7,
    main_v26, main_v27, main_c_8, main_v28, main_v29, main_v30, main_v31, main_v32, main_v33, main_v34, main_c_9, main_v35,
    main_v36, main_c_10, main_v37, main_v38, main_v39, main_v40, main_v41, main_v42, main_v43, main_c_11, main_v44, main_v45,
    main_c_12, main_v46, main_v47, main_v48, main_v49, main_v50, main_cst_13, main_v51, main_v52, main_v53, main_v54, main_v55,
    main_cst_14, main_v56, main_v57, main_v58, main_v59, main_v60, main_v61, main_v62, main_v63, main_v64, main_c_15, main_v65,
    main_v66, main_c_16, main_v67, main_v68, main_v69, main_v70, main_v71, main_v72, main_v73, main_c_17, main_v74, main_v75,
    main_c_18, main_v76, main_v77, main_v78, main_v79, main_v80, main_cst_19, main_v81, main_v82, main_v83, main_v84, main_v85,
    main_cst_20, main_v86, main_v87, main_v88, main_v89, main_v90, main_v91, main_v92, main_v93, main_v94, main_c_21, main_v95,
    main_v96, main_c_22, main_v97, main_v98, main_v99, main_v100, main_v101, main_v102, main_v103, main_c_23, main_v104, main_v105,
    main_c_24, main_v106, main_v107, main_v108, main_v109, main_v110, main_cst_25, main_v111, main_v112, main_v113, main_v114, main_v115,
    main_cst_26, main_v116, main_v117, main_v118, main_v119, main_v120, main_v121, main_v122 ]
set_option maxHeartbeats 4000000 in
theorem hostOps0_inOrder : Cert.Lib.WritesInOrder.InOrder (hostOps0 : List (HloOp τ sig (Elt F))) hostOps0_W := by
  repeat' constructor
theorem W1_of (c : Dev nD) (r : Ref sig .tc) (h : r ∉ hostOps0_W) :
    W1 m ρ c (Proc.devRef .tc r) = W0 m ρ c (Proc.devRef .tc r) :=
  Cert.Lib.WritesInOrder.after_of_not_listed hostOps0_inOrder _ h
theorem hostOps0_fresh : (hostOps0 : List (HloOp τ sig (Elt F))).Forall fun op => op.fresh = ∅ := by
  simp only [List.Forall]; repeat' constructor
abbrev hostOps0_1_W : List (Ref sig .tc) :=
  [
    main_call0_v0, main_call0_cst, main_call0_v1, main_call0_v2, main_v123 ]
set_option maxHeartbeats 4000000 in
theorem hostOps0_1_inOrder : Cert.Lib.WritesInOrder.InOrder (hostOps0_1 : List (HloOp τ sig (Elt F))) hostOps0_1_W := by
  repeat' constructor
theorem W2_of (c : Dev nD) (r : Ref sig .tc) (h : r ∉ hostOps0_1_W) :
    W2 m ρ c (Proc.devRef .tc r) = W1 m ρ c (Proc.devRef .tc r) :=
  Cert.Lib.WritesInOrder.after_of_not_listed hostOps0_1_inOrder _ h
theorem hostOps0_1_fresh : (hostOps0_1 : List (HloOp τ sig (Elt F))).Forall fun op => op.fresh = ∅ := by
  simp only [List.Forall]; repeat' constructor
abbrev hostOps0_2_W : List (Ref sig .tc) :=
  [
    main_cst_27, main_v124, main_v125, main_v126, main_v127 ]
set_option maxHeartbeats 4000000 in
theorem hostOps0_2_inOrder : Cert.Lib.WritesInOrder.InOrder (hostOps0_2 : List (HloOp τ sig (Elt F))) hostOps0_2_W := by
  repeat' constructor
theorem W3_of (c : Dev nD) (r : Ref sig .tc) (h : r ∉ hostOps0_2_W) :
    W3 m ρ c (Proc.devRef .tc r) = W2 m ρ c (Proc.devRef .tc r) :=
  Cert.Lib.WritesInOrder.after_of_not_listed hostOps0_2_inOrder _ h
theorem hostOps0_2_fresh : (hostOps0_2 : List (HloOp τ sig (Elt F))).Forall fun op => op.fresh = ∅ := by
  simp only [List.Forall]; repeat' constructor
abbrev hostOps0_3_W : List (Ref sig .tc) :=
  [
    main_call1_v0, main_call1_cst, main_call1_v1, main_call1_v2, main_v128 ]
set_option maxHeartbeats 4000000 in
theorem hostOps0_3_inOrder : Cert.Lib.WritesInOrder.InOrder (hostOps0_3 : List (HloOp τ sig (Elt F))) hostOps0_3_W := by
  repeat' constructor
theorem W4_of (c : Dev nD) (r : Ref sig .tc) (h : r ∉ hostOps0_3_W) :
    W4 m ρ c (Proc.devRef .tc r) = W3 m ρ c (Proc.devRef .tc r) :=
  Cert.Lib.WritesInOrder.after_of_not_listed hostOps0_3_inOrder _ h
theorem hostOps0_3_fresh : (hostOps0_3 : List (HloOp τ sig (Elt F))).Forall fun op => op.fresh = ∅ := by
  simp only [List.Forall]; repeat' constructor
abbrev hostOps0_4_W : List (Ref sig .tc) :=
  [
    main_cst_28, main_v129, main_v130, main_v131, main_v132 ]
set_option maxHeartbeats 4000000 in
theorem hostOps0_4_inOrder : Cert.Lib.WritesInOrder.InOrder (hostOps0_4 : List (HloOp τ sig (Elt F))) hostOps0_4_W := by
  repeat' constructor
theorem W5_of (c : Dev nD) (r : Ref sig .tc) (h : r ∉ hostOps0_4_W) :
    W5 m ρ c (Proc.devRef .tc r) = W4 m ρ c (Proc.devRef .tc r) :=
  Cert.Lib.WritesInOrder.after_of_not_listed hostOps0_4_inOrder _ h
theorem hostOps0_4_fresh : (hostOps0_4 : List (HloOp τ sig (Elt F))).Forall fun op => op.fresh = ∅ := by
  simp only [List.Forall]; repeat' constructor
abbrev hostOps0_5_W : List (Ref sig .tc) :=
  [
    main_call2_v0, main_call2_cst, main_call2_v1, main_call2_v2, main_v133 ]
set_option maxHeartbeats 4000000 in
theorem hostOps0_5_inOrder : Cert.Lib.WritesInOrder.InOrder (hostOps0_5 : List (HloOp τ sig (Elt F))) hostOps0_5_W := by
  repeat' constructor
theorem W6_of (c : Dev nD) (r : Ref sig .tc) (h : r ∉ hostOps0_5_W) :
    W6 m ρ c (Proc.devRef .tc r) = W5 m ρ c (Proc.devRef .tc r) :=
  Cert.Lib.WritesInOrder.after_of_not_listed hostOps0_5_inOrder _ h
theorem hostOps0_5_fresh : (hostOps0_5 : List (HloOp τ sig (Elt F))).Forall fun op => op.fresh = ∅ := by
  simp only [List.Forall]; repeat' constructor
abbrev hostOps0_6_W : List (Ref sig .tc) :=
  [
    main_cst_29, main_v134, main_v135, main_v136, main_v137 ]
set_option maxHeartbeats 4000000 in
theorem hostOps0_6_inOrder : Cert.Lib.WritesInOrder.InOrder (hostOps0_6 : List (HloOp τ sig (Elt F))) hostOps0_6_W := by
  repeat' constructor
theorem W7_of (c : Dev nD) (r : Ref sig .tc) (h : r ∉ hostOps0_6_W) :
    W7 m ρ c (Proc.devRef .tc r) = W6 m ρ c (Proc.devRef .tc r) :=
  Cert.Lib.WritesInOrder.after_of_not_listed hostOps0_6_inOrder _ h
theorem hostOps0_6_fresh : (hostOps0_6 : List (HloOp τ sig (Elt F))).Forall fun op => op.fresh = ∅ := by
  simp only [List.Forall]; repeat' constructor
abbrev hostOps1_W : List (Ref sig .tc) :=
  [
    main_v139, main_v140, main_cst_30, main_v141, main_cst_31, main_v142, main_v143, main_v144, main_v145, main_v146, main_v147, main_cst_32,
    main_v148, main_v149 ]
set_option maxHeartbeats 4000000 in
theorem hostOps1_inOrder : Cert.Lib.WritesInOrder.InOrder (hostOps1 : List (HloOp τ sig (Elt F))) hostOps1_W := by
  repeat' constructor
theorem W9_of (c : Dev nD) (r : Ref sig .tc) (h : r ∉ hostOps1_W) :
    W9 m ρ c (Proc.devRef .tc r) = W8 m ρ c (Proc.devRef .tc r) :=
  Cert.Lib.WritesInOrder.after_of_not_listed hostOps1_inOrder _ h
theorem hostOps1_fresh : (hostOps1 : List (HloOp τ sig (Elt F))).Forall fun op => op.fresh = ∅ := by
  simp only [List.Forall]; repeat' constructor
abbrev hostOps1_1_W : List (Ref sig .tc) :=
  [
    main_call3_v0, main_call3_cst, main_call3_v1, main_call3_v2, main_v150 ]
set_option maxHeartbeats 4000000 in
theorem hostOps1_1_inOrder : Cert.Lib.WritesInOrder.InOrder (hostOps1_1 : List (HloOp τ sig (Elt F))) hostOps1_1_W := by
  repeat' constructor
theorem W10_of (c : Dev nD) (r : Ref sig .tc) (h : r ∉ hostOps1_1_W) :
    W10 m ρ c (Proc.devRef .tc r) = W9 m ρ c (Proc.devRef .tc r) :=
  Cert.Lib.WritesInOrder.after_of_not_listed hostOps1_1_inOrder _ h
theorem hostOps1_1_fresh : (hostOps1_1 : List (HloOp τ sig (Elt F))).Forall fun op => op.fresh = ∅ := by
  simp only [List.Forall]; repeat' constructor
abbrev hostOps1_2_W : List (Ref sig .tc) :=
  [
    main_cst_33, main_v151, main_v152, main_v153, main_v154 ]
set_option maxHeartbeats 4000000 in
theorem hostOps1_2_inOrder : Cert.Lib.WritesInOrder.InOrder (hostOps1_2 : List (HloOp τ sig (Elt F))) hostOps1_2_W := by
  repeat' constructor
theorem W11_of (c : Dev nD) (r : Ref sig .tc) (h : r ∉ hostOps1_2_W) :
    W11 m ρ c (Proc.devRef .tc r) = W10 m ρ c (Proc.devRef .tc r) :=
  Cert.Lib.WritesInOrder.after_of_not_listed hostOps1_2_inOrder _ h
theorem hostOps1_2_fresh : (hostOps1_2 : List (HloOp τ sig (Elt F))).Forall fun op => op.fresh = ∅ := by
  simp only [List.Forall]; repeat' constructor
abbrev hostOps1_3_W : List (Ref sig .tc) :=
  [
    main_call4_v0, main_call4_cst, main_call4_v1, main_call4_v2, main_v155 ]
set_option maxHeartbeats 4000000 in
theorem hostOps1_3_inOrder : Cert.Lib.WritesInOrder.InOrder (hostOps1_3 : List (HloOp τ sig (Elt F))) hostOps1_3_W := by
  repeat' constructor
theorem W12_of (c : Dev nD) (r : Ref sig .tc) (h : r ∉ hostOps1_3_W) :
    W12 m ρ c (Proc.devRef .tc r) = W11 m ρ c (Proc.devRef .tc r) :=
  Cert.Lib.WritesInOrder.after_of_not_listed hostOps1_3_inOrder _ h
theorem hostOps1_3_fresh : (hostOps1_3 : List (HloOp τ sig (Elt F))).Forall fun op => op.fresh = ∅ := by
  simp only [List.Forall]; repeat' constructor
abbrev hostOps1_4_W : List (Ref sig .tc) :=
  [
    main_cst_34, main_v156, main_v157, main_v158, main_v159 ]
set_option maxHeartbeats 4000000 in
theorem hostOps1_4_inOrder : Cert.Lib.WritesInOrder.InOrder (hostOps1_4 : List (HloOp τ sig (Elt F))) hostOps1_4_W := by
  repeat' constructor
theorem W13_of (c : Dev nD) (r : Ref sig .tc) (h : r ∉ hostOps1_4_W) :
    W13 m ρ c (Proc.devRef .tc r) = W12 m ρ c (Proc.devRef .tc r) :=
  Cert.Lib.WritesInOrder.after_of_not_listed hostOps1_4_inOrder _ h
theorem hostOps1_4_fresh : (hostOps1_4 : List (HloOp τ sig (Elt F))).Forall fun op => op.fresh = ∅ := by
  simp only [List.Forall]; repeat' constructor
abbrev hostOps1_5_W : List (Ref sig .tc) :=
  [
    main_call5_v0, main_call5_cst, main_call5_v1, main_call5_v2, main_v160 ]
set_option maxHeartbeats 4000000 in
theorem hostOps1_5_inOrder : Cert.Lib.WritesInOrder.InOrder (hostOps1_5 : List (HloOp τ sig (Elt F))) hostOps1_5_W := by
  repeat' constructor
theorem W14_of (c : Dev nD) (r : Ref sig .tc) (h : r ∉ hostOps1_5_W) :
    W14 m ρ c (Proc.devRef .tc r) = W13 m ρ c (Proc.devRef .tc r) :=
  Cert.Lib.WritesInOrder.after_of_not_listed hostOps1_5_inOrder _ h
theorem hostOps1_5_fresh : (hostOps1_5 : List (HloOp τ sig (Elt F))).Forall fun op => op.fresh = ∅ := by
  simp only [List.Forall]; repeat' constructor
abbrev hostOps1_6_W : List (Ref sig .tc) :=
  [
    main_cst_35, main_v161, main_v162, main_v163, main_v164 ]
set_option maxHeartbeats 4000000 in
theorem hostOps1_6_inOrder : Cert.Lib.WritesInOrder.InOrder (hostOps1_6 : List (HloOp τ sig (Elt F))) hostOps1_6_W := by
  repeat' constructor
theorem W15_of (c : Dev nD) (r : Ref sig .tc) (h : r ∉ hostOps1_6_W) :
    W15 m ρ c (Proc.devRef .tc r) = W14 m ρ c (Proc.devRef .tc r) :=
  Cert.Lib.WritesInOrder.after_of_not_listed hostOps1_6_inOrder _ h
theorem hostOps1_6_fresh : (hostOps1_6 : List (HloOp τ sig (Elt F))).Forall fun op => op.fresh = ∅ := by
  simp only [List.Forall]; repeat' constructor
abbrev hostOps2_W : List (Ref sig .tc) :=
  [
    main_v166, main_v167, main_cst_36, main_v168, main_cst_37, main_v169, main_v170, main_v171, main_v172, main_v173, main_v174, main_cst_38,
    main_v175, main_v176, main_cst_39, main_v177, main_v178, main_cst_40, main_v179, main_c_41, main_v180, main_v181, main_c_42, main_v182,
    main_v183, main_v184, main_v185, main_v186 ]
set_option maxHeartbeats 4000000 in
theorem hostOps2_inOrder : Cert.Lib.WritesInOrder.InOrder (hostOps2 : List (HloOp τ sig (Elt F))) hostOps2_W := by
  repeat' constructor
theorem W17_of (c : Dev nD) (r : Ref sig .tc) (h : r ∉ hostOps2_W) :
    W17 m ρ c (Proc.devRef .tc r) = W16 m ρ c (Proc.devRef .tc r) :=
  Cert.Lib.WritesInOrder.after_of_not_listed hostOps2_inOrder _ h
theorem hostOps2_fresh : (hostOps2 : List (HloOp τ sig (Elt F))).Forall fun op => op.fresh = ∅ := by
  simp only [List.Forall]; repeat' constructor
abbrev hostOps2_1_W : List (Ref sig .tc) :=
  [
    main_call6_v0, main_call6_cst, main_call6_v1, main_call6_v2, main_v187 ]
set_option maxHeartbeats 4000000 in
theorem hostOps2_1_inOrder : Cert.Lib.WritesInOrder.InOrder (hostOps2_1 : List (HloOp τ sig (Elt F))) hostOps2_1_W := by
  repeat' constructor
theorem W18_of (c : Dev nD) (r : Ref sig .tc) (h : r ∉ hostOps2_1_W) :
    W18 m ρ c (Proc.devRef .tc r) = W17 m ρ c (Proc.devRef .tc r) :=
  Cert.Lib.WritesInOrder.after_of_not_listed hostOps2_1_inOrder _ h
theorem hostOps2_1_fresh : (hostOps2_1 : List (HloOp τ sig (Elt F))).Forall fun op => op.fresh = ∅ := by
  simp only [List.Forall]; repeat' constructor
abbrev hostOps2_2_W : List (Ref sig .tc) :=
  [
    main_cst_43, main_v188, main_v189, main_v190, main_v191 ]
set_option maxHeartbeats 4000000 in
theorem hostOps2_2_inOrder : Cert.Lib.WritesInOrder.InOrder (hostOps2_2 : List (HloOp τ sig (Elt F))) hostOps2_2_W := by
  repeat' constructor
theorem W19_of (c : Dev nD) (r : Ref sig .tc) (h : r ∉ hostOps2_2_W) :
    W19 m ρ c (Proc.devRef .tc r) = W18 m ρ c (Proc.devRef .tc r) :=
  Cert.Lib.WritesInOrder.after_of_not_listed hostOps2_2_inOrder _ h
theorem hostOps2_2_fresh : (hostOps2_2 : List (HloOp τ sig (Elt F))).Forall fun op => op.fresh = ∅ := by
  simp only [List.Forall]; repeat' constructor
abbrev hostOps2_3_W : List (Ref sig .tc) :=
  [
    main_call7_v0, main_call7_cst, main_call7_v1, main_call7_v2, main_v192 ]
set_option maxHeartbeats 4000000 in
theorem hostOps2_3_inOrder : Cert.Lib.WritesInOrder.InOrder (hostOps2_3 : List (HloOp τ sig (Elt F))) hostOps2_3_W := by
  repeat' constructor
theorem W20_of (c : Dev nD) (r : Ref sig .tc) (h : r ∉ hostOps2_3_W) :
    W20 m ρ c (Proc.devRef .tc r) = W19 m ρ c (Proc.devRef .tc r) :=
  Cert.Lib.WritesInOrder.after_of_not_listed hostOps2_3_inOrder _ h
theorem hostOps2_3_fresh : (hostOps2_3 : List (HloOp τ sig (Elt F))).Forall fun op => op.fresh = ∅ := by
  simp only [List.Forall]; repeat' constructor
abbrev hostOps2_4_W : List (Ref sig .tc) :=
  [
    main_cst_44, main_v193, main_v194, main_v195, main_v196, main_c_45, main_v197, main_v198, main_c_46, main_v199, main_v200, main_v201,
    main_v202, main_v203, main_c_47, main_v204, main_v205, main_c_48, main_v206, main_v207, main_v208, main_v209, main_v210, main_v211,
    main_cst_49, main_v212, main_cst_50, main_v213, main_v214, main_v215 ]
set_option maxHeartbeats 4000000 in
theorem hostOps2_4_inOrder : Cert.Lib.WritesInOrder.InOrder (hostOps2_4 : List (HloOp τ sig (Elt F))) hostOps2_4_W := by
  repeat' constructor
theorem W21_of (c : Dev nD) (r : Ref sig .tc) (h : r ∉ hostOps2_4_W) :
    W21 m ρ c (Proc.devRef .tc r) = W20 m ρ c (Proc.devRef .tc r) :=
  Cert.Lib.WritesInOrder.after_of_not_listed hostOps2_4_inOrder _ h
theorem hostOps2_4_fresh : (hostOps2_4 : List (HloOp τ sig (Elt F))).Forall fun op => op.fresh = ∅ := by
  simp only [List.Forall]; repeat' constructor
abbrev hostOps3_W : List (Ref sig .tc) :=
  [
    main_v217, main_v218, main_v219, main_v220, main_cst_51, main_v221, main_v222, main_c_52, main_v223, main_v224, main_c_53, main_v225,
    main_v226, main_v227, main_v228, main_v229 ]
set_option maxHeartbeats 4000000 in
theorem hostOps3_inOrder : Cert.Lib.WritesInOrder.InOrder (hostOps3 : List (HloOp τ sig (Elt F))) hostOps3_W := by
  repeat' constructor
theorem W23_of (c : Dev nD) (r : Ref sig .tc) (h : r ∉ hostOps3_W) :
    W23 m ρ c (Proc.devRef .tc r) = W22 m ρ c (Proc.devRef .tc r) :=
  Cert.Lib.WritesInOrder.after_of_not_listed hostOps3_inOrder _ h
theorem hostOps3_fresh : (hostOps3 : List (HloOp τ sig (Elt F))).Forall fun op => op.fresh = ∅ := by
  simp only [List.Forall]; repeat' constructor
abbrev hostOps3_1_W : List (Ref sig .tc) :=
  [
    main_call8_v0, main_call8_cst, main_call8_v1, main_call8_v2, main_v230 ]
set_option maxHeartbeats 4000000 in
theorem hostOps3_1_inOrder : Cert.Lib.WritesInOrder.InOrder (hostOps3_1 : List (HloOp τ sig (Elt F))) hostOps3_1_W := by
  repeat' constructor
theorem W24_of (c : Dev nD) (r : Ref sig .tc) (h : r ∉ hostOps3_1_W) :
    W24 m ρ c (Proc.devRef .tc r) = W23 m ρ c (Proc.devRef .tc r) :=
  Cert.Lib.WritesInOrder.after_of_not_listed hostOps3_1_inOrder _ h
theorem hostOps3_1_fresh : (hostOps3_1 : List (HloOp τ sig (Elt F))).Forall fun op => op.fresh = ∅ := by
  simp only [List.Forall]; repeat' constructor
abbrev hostOps3_2_W : List (Ref sig .tc) :=
  [
    main_cst_54, main_v231, main_v232, main_v233, main_v234 ]
set_option maxHeartbeats 4000000 in
theorem hostOps3_2_inOrder : Cert.Lib.WritesInOrder.InOrder (hostOps3_2 : List (HloOp τ sig (Elt F))) hostOps3_2_W := by
  repeat' constructor
theorem W25_of (c : Dev nD) (r : Ref sig .tc) (h : r ∉ hostOps3_2_W) :
    W25 m ρ c (Proc.devRef .tc r) = W24 m ρ c (Proc.devRef .tc r) :=
  Cert.Lib.WritesInOrder.after_of_not_listed hostOps3_2_inOrder _ h
theorem hostOps3_2_fresh : (hostOps3_2 : List (HloOp τ sig (Elt F))).Forall fun op => op.fresh = ∅ := by
  simp only [List.Forall]; repeat' constructor
abbrev hostOps3_3_W : List (Ref sig .tc) :=
  [
    main_call9_v0, main_call9_cst, main_call9_v1, main_call9_v2, main_v235 ]
set_option maxHeartbeats 4000000 in
theorem hostOps3_3_inOrder : Cert.Lib.WritesInOrder.InOrder (hostOps3_3 : List (HloOp τ sig (Elt F))) hostOps3_3_W := by
  repeat' constructor
theorem W26_of (c : Dev nD) (r : Ref sig .tc) (h : r ∉ hostOps3_3_W) :
    W26 m ρ c (Proc.devRef .tc r) = W25 m ρ c (Proc.devRef .tc r) :=
  Cert.Lib.WritesInOrder.after_of_not_listed hostOps3_3_inOrder _ h
theorem hostOps3_3_fresh : (hostOps3_3 : List (HloOp τ sig (Elt F))).Forall fun op => op.fresh = ∅ := by
  simp only [List.Forall]; repeat' constructor
abbrev hostOps3_4_W : List (Ref sig .tc) :=
  [
    main_cst_55, main_v236, main_v237, main_v238, main_v239, main_c_56, main_v240, main_v241, main_c_57, main_v242, main_v243, main_v244,
    main_v245, main_v246, main_c_58, main_v247, main_v248, main_c_59, main_v249, main_v250, main_v251, main_v252, main_v253, main_v254,
    main_cst_60, main_v255, main_cst_61, main_v256, main_v257, main_v258 ]
set_option maxHeartbeats 4000000 in
theorem hostOps3_4_inOrder : Cert.Lib.WritesInOrder.InOrder (hostOps3_4 : List (HloOp τ sig (Elt F))) hostOps3_4_W := by
  repeat' constructor
theorem W27_of (c : Dev nD) (r : Ref sig .tc) (h : r ∉ hostOps3_4_W) :
    W27 m ρ c (Proc.devRef .tc r) = W26 m ρ c (Proc.devRef .tc r) :=
  Cert.Lib.WritesInOrder.after_of_not_listed hostOps3_4_inOrder _ h
theorem hostOps3_4_fresh : (hostOps3_4 : List (HloOp τ sig (Elt F))).Forall fun op => op.fresh = ∅ := by
  simp only [List.Forall]; repeat' constructor
abbrev hostOps4_W : List (Ref sig .tc) :=
  [
    main_v260, main_v261, main_v262, main_v263, main_cst_62, main_v264, main_v265, main_v266, main_cst_63, main_v267, main_cst_64, main_v268,
    main_v269, main_cst_65, main_v270, main_v271, main_c_66, main_v272, main_v273, main_c_67, main_v274, main_v275, main_v276, main_v277,
    main_v278, main_c_68, main_v279, main_v280, main_c_69, main_v281, main_v282, main_v283, main_v284, main_v285, main_v286, main_cst_70,
    main_v287, main_v288, main_c_71, main_v289, main_v290, main_c_72, main_v291, main_v292, main_v293, main_v294, main_v295, main_c_73,
    main_v296, main_v297, main_c_74, main_v298, main_v299, main_v300, main_v301, main_v302, main_v303, main_cst_75, main_v304, main_v305 ]
set_option maxHeartbeats 4000000 in
theorem hostOps4_inOrder : Cert.Lib.WritesInOrder.InOrder (hostOps4 : List (HloOp τ sig (Elt F))) hostOps4_W := by
  repeat' constructor
theorem W29_of (c : Dev nD) (r : Ref sig .tc) (h : r ∉ hostOps4_W) :
    W29 m ρ c (Proc.devRef .tc r) = W28 m ρ c (Proc.devRef .tc r) :=
  Cert.Lib.WritesInOrder.after_of_not_listed hostOps4_inOrder _ h
theorem hostOps4_fresh : (hostOps4 : List (HloOp τ sig (Elt F))).Forall fun op => op.fresh = ∅ := by
  simp only [List.Forall]; repeat' constructor

/-! ## The arguments end as launched -/

set_option maxRecDepth 65536 in
theorem W29_main_arg0 (c : Dev nD) : W29 m ρ c (Proc.devRef .tc main_arg0) = m ((c : Thread nD τ).loc main_arg0) :=
  (W29_of m ρ c main_arg0 (by decide)).trans
    ((W28_of_ne m ρ c main_arg0 (by decide)).trans
    ((W27_of m ρ c main_arg0 (by decide)).trans
    ((W26_of m ρ c main_arg0 (by decide)).trans
    ((W25_of m ρ c main_arg0 (by decide)).trans
    ((W24_of m ρ c main_arg0 (by decide)).trans
    ((W23_of m ρ c main_arg0 (by decide)).trans
    ((W22_of_ne m ρ c main_arg0 (by decide)).trans
    ((W21_of m ρ c main_arg0 (by decide)).trans
    ((W20_of m ρ c main_arg0 (by decide)).trans
    ((W19_of m ρ c main_arg0 (by decide)).trans
    ((W18_of m ρ c main_arg0 (by decide)).trans
    ((W17_of m ρ c main_arg0 (by decide)).trans
    ((W16_of_ne m ρ c main_arg0 (by decide)).trans
    ((W15_of m ρ c main_arg0 (by decide)).trans
    ((W14_of m ρ c main_arg0 (by decide)).trans
    ((W13_of m ρ c main_arg0 (by decide)).trans
    ((W12_of m ρ c main_arg0 (by decide)).trans
    ((W11_of m ρ c main_arg0 (by decide)).trans
    ((W10_of m ρ c main_arg0 (by decide)).trans
    ((W9_of m ρ c main_arg0 (by decide)).trans
    ((W8_of_ne m ρ c main_arg0 (by decide)).trans
    ((W7_of m ρ c main_arg0 (by decide)).trans
    ((W6_of m ρ c main_arg0 (by decide)).trans
    ((W5_of m ρ c main_arg0 (by decide)).trans
    ((W4_of m ρ c main_arg0 (by decide)).trans
    ((W3_of m ρ c main_arg0 (by decide)).trans
    ((W2_of m ρ c main_arg0 (by decide)).trans
    ((W1_of m ρ c main_arg0 (by decide)).trans
    ((rfl : W0 m ρ c (Proc.devRef .tc main_arg0) = m ((c : Thread nD τ).loc main_arg0)))))))))))))))))))))))))))))))
set_option maxRecDepth 65536 in
theorem W29_main_arg1 (c : Dev nD) : W29 m ρ c (Proc.devRef .tc main_arg1) = m ((c : Thread nD τ).loc main_arg1) :=
  (W29_of m ρ c main_arg1 (by decide)).trans
    ((W28_of_ne m ρ c main_arg1 (by decide)).trans
    ((W27_of m ρ c main_arg1 (by decide)).trans
    ((W26_of m ρ c main_arg1 (by decide)).trans
    ((W25_of m ρ c main_arg1 (by decide)).trans
    ((W24_of m ρ c main_arg1 (by decide)).trans
    ((W23_of m ρ c main_arg1 (by decide)).trans
    ((W22_of_ne m ρ c main_arg1 (by decide)).trans
    ((W21_of m ρ c main_arg1 (by decide)).trans
    ((W20_of m ρ c main_arg1 (by decide)).trans
    ((W19_of m ρ c main_arg1 (by decide)).trans
    ((W18_of m ρ c main_arg1 (by decide)).trans
    ((W17_of m ρ c main_arg1 (by decide)).trans
    ((W16_of_ne m ρ c main_arg1 (by decide)).trans
    ((W15_of m ρ c main_arg1 (by decide)).trans
    ((W14_of m ρ c main_arg1 (by decide)).trans
    ((W13_of m ρ c main_arg1 (by decide)).trans
    ((W12_of m ρ c main_arg1 (by decide)).trans
    ((W11_of m ρ c main_arg1 (by decide)).trans
    ((W10_of m ρ c main_arg1 (by decide)).trans
    ((W9_of m ρ c main_arg1 (by decide)).trans
    ((W8_of_ne m ρ c main_arg1 (by decide)).trans
    ((W7_of m ρ c main_arg1 (by decide)).trans
    ((W6_of m ρ c main_arg1 (by decide)).trans
    ((W5_of m ρ c main_arg1 (by decide)).trans
    ((W4_of m ρ c main_arg1 (by decide)).trans
    ((W3_of m ρ c main_arg1 (by decide)).trans
    ((W2_of m ρ c main_arg1 (by decide)).trans
    ((W1_of m ρ c main_arg1 (by decide)).trans
    ((rfl : W0 m ρ c (Proc.devRef .tc main_arg1) = m ((c : Thread nD τ).loc main_arg1)))))))))))))))))))))))))))))))
set_option maxRecDepth 65536 in
theorem W29_main_arg2 (c : Dev nD) : W29 m ρ c (Proc.devRef .tc main_arg2) = m ((c : Thread nD τ).loc main_arg2) :=
  (W29_of m ρ c main_arg2 (by decide)).trans
    ((W28_of_ne m ρ c main_arg2 (by decide)).trans
    ((W27_of m ρ c main_arg2 (by decide)).trans
    ((W26_of m ρ c main_arg2 (by decide)).trans
    ((W25_of m ρ c main_arg2 (by decide)).trans
    ((W24_of m ρ c main_arg2 (by decide)).trans
    ((W23_of m ρ c main_arg2 (by decide)).trans
    ((W22_of_ne m ρ c main_arg2 (by decide)).trans
    ((W21_of m ρ c main_arg2 (by decide)).trans
    ((W20_of m ρ c main_arg2 (by decide)).trans
    ((W19_of m ρ c main_arg2 (by decide)).trans
    ((W18_of m ρ c main_arg2 (by decide)).trans
    ((W17_of m ρ c main_arg2 (by decide)).trans
    ((W16_of_ne m ρ c main_arg2 (by decide)).trans
    ((W15_of m ρ c main_arg2 (by decide)).trans
    ((W14_of m ρ c main_arg2 (by decide)).trans
    ((W13_of m ρ c main_arg2 (by decide)).trans
    ((W12_of m ρ c main_arg2 (by decide)).trans
    ((W11_of m ρ c main_arg2 (by decide)).trans
    ((W10_of m ρ c main_arg2 (by decide)).trans
    ((W9_of m ρ c main_arg2 (by decide)).trans
    ((W8_of_ne m ρ c main_arg2 (by decide)).trans
    ((W7_of m ρ c main_arg2 (by decide)).trans
    ((W6_of m ρ c main_arg2 (by decide)).trans
    ((W5_of m ρ c main_arg2 (by decide)).trans
    ((W4_of m ρ c main_arg2 (by decide)).trans
    ((W3_of m ρ c main_arg2 (by decide)).trans
    ((W2_of m ρ c main_arg2 (by decide)).trans
    ((W1_of m ρ c main_arg2 (by decide)).trans
    ((rfl : W0 m ρ c (Proc.devRef .tc main_arg2) = m ((c : Thread nD τ).loc main_arg2)))))))))))))))))))))))))))))))
set_option maxRecDepth 65536 in
theorem W29_main_arg3 (c : Dev nD) : W29 m ρ c (Proc.devRef .tc main_arg3) = m ((c : Thread nD τ).loc main_arg3) :=
  (W29_of m ρ c main_arg3 (by decide)).trans
    ((W28_of_ne m ρ c main_arg3 (by decide)).trans
    ((W27_of m ρ c main_arg3 (by decide)).trans
    ((W26_of m ρ c main_arg3 (by decide)).trans
    ((W25_of m ρ c main_arg3 (by decide)).trans
    ((W24_of m ρ c main_arg3 (by decide)).trans
    ((W23_of m ρ c main_arg3 (by decide)).trans
    ((W22_of_ne m ρ c main_arg3 (by decide)).trans
    ((W21_of m ρ c main_arg3 (by decide)).trans
    ((W20_of m ρ c main_arg3 (by decide)).trans
    ((W19_of m ρ c main_arg3 (by decide)).trans
    ((W18_of m ρ c main_arg3 (by decide)).trans
    ((W17_of m ρ c main_arg3 (by decide)).trans
    ((W16_of_ne m ρ c main_arg3 (by decide)).trans
    ((W15_of m ρ c main_arg3 (by decide)).trans
    ((W14_of m ρ c main_arg3 (by decide)).trans
    ((W13_of m ρ c main_arg3 (by decide)).trans
    ((W12_of m ρ c main_arg3 (by decide)).trans
    ((W11_of m ρ c main_arg3 (by decide)).trans
    ((W10_of m ρ c main_arg3 (by decide)).trans
    ((W9_of m ρ c main_arg3 (by decide)).trans
    ((W8_of_ne m ρ c main_arg3 (by decide)).trans
    ((W7_of m ρ c main_arg3 (by decide)).trans
    ((W6_of m ρ c main_arg3 (by decide)).trans
    ((W5_of m ρ c main_arg3 (by decide)).trans
    ((W4_of m ρ c main_arg3 (by decide)).trans
    ((W3_of m ρ c main_arg3 (by decide)).trans
    ((W2_of m ρ c main_arg3 (by decide)).trans
    ((W1_of m ρ c main_arg3 (by decide)).trans
    ((rfl : W0 m ρ c (Proc.devRef .tc main_arg3) = m ((c : Thread nD τ).loc main_arg3)))))))))))))))))))))))))))))))
set_option maxRecDepth 65536 in
theorem W29_main_arg4 (c : Dev nD) : W29 m ρ c (Proc.devRef .tc main_arg4) = m ((c : Thread nD τ).loc main_arg4) :=
  (W29_of m ρ c main_arg4 (by decide)).trans
    ((W28_of_ne m ρ c main_arg4 (by decide)).trans
    ((W27_of m ρ c main_arg4 (by decide)).trans
    ((W26_of m ρ c main_arg4 (by decide)).trans
    ((W25_of m ρ c main_arg4 (by decide)).trans
    ((W24_of m ρ c main_arg4 (by decide)).trans
    ((W23_of m ρ c main_arg4 (by decide)).trans
    ((W22_of_ne m ρ c main_arg4 (by decide)).trans
    ((W21_of m ρ c main_arg4 (by decide)).trans
    ((W20_of m ρ c main_arg4 (by decide)).trans
    ((W19_of m ρ c main_arg4 (by decide)).trans
    ((W18_of m ρ c main_arg4 (by decide)).trans
    ((W17_of m ρ c main_arg4 (by decide)).trans
    ((W16_of_ne m ρ c main_arg4 (by decide)).trans
    ((W15_of m ρ c main_arg4 (by decide)).trans
    ((W14_of m ρ c main_arg4 (by decide)).trans
    ((W13_of m ρ c main_arg4 (by decide)).trans
    ((W12_of m ρ c main_arg4 (by decide)).trans
    ((W11_of m ρ c main_arg4 (by decide)).trans
    ((W10_of m ρ c main_arg4 (by decide)).trans
    ((W9_of m ρ c main_arg4 (by decide)).trans
    ((W8_of_ne m ρ c main_arg4 (by decide)).trans
    ((W7_of m ρ c main_arg4 (by decide)).trans
    ((W6_of m ρ c main_arg4 (by decide)).trans
    ((W5_of m ρ c main_arg4 (by decide)).trans
    ((W4_of m ρ c main_arg4 (by decide)).trans
    ((W3_of m ρ c main_arg4 (by decide)).trans
    ((W2_of m ρ c main_arg4 (by decide)).trans
    ((W1_of m ρ c main_arg4 (by decide)).trans
    ((rfl : W0 m ρ c (Proc.devRef .tc main_arg4) = m ((c : Thread nD τ).loc main_arg4)))))))))))))))))))))))))))))))
set_option maxRecDepth 65536 in
theorem W29_main_arg5 (c : Dev nD) : W29 m ρ c (Proc.devRef .tc main_arg5) = m ((c : Thread nD τ).loc main_arg5) :=
  (W29_of m ρ c main_arg5 (by decide)).trans
    ((W28_of_ne m ρ c main_arg5 (by decide)).trans
    ((W27_of m ρ c main_arg5 (by decide)).trans
    ((W26_of m ρ c main_arg5 (by decide)).trans
    ((W25_of m ρ c main_arg5 (by decide)).trans
    ((W24_of m ρ c main_arg5 (by decide)).trans
    ((W23_of m ρ c main_arg5 (by decide)).trans
    ((W22_of_ne m ρ c main_arg5 (by decide)).trans
    ((W21_of m ρ c main_arg5 (by decide)).trans
    ((W20_of m ρ c main_arg5 (by decide)).trans
    ((W19_of m ρ c main_arg5 (by decide)).trans
    ((W18_of m ρ c main_arg5 (by decide)).trans
    ((W17_of m ρ c main_arg5 (by decide)).trans
    ((W16_of_ne m ρ c main_arg5 (by decide)).trans
    ((W15_of m ρ c main_arg5 (by decide)).trans
    ((W14_of m ρ c main_arg5 (by decide)).trans
    ((W13_of m ρ c main_arg5 (by decide)).trans
    ((W12_of m ρ c main_arg5 (by decide)).trans
    ((W11_of m ρ c main_arg5 (by decide)).trans
    ((W10_of m ρ c main_arg5 (by decide)).trans
    ((W9_of m ρ c main_arg5 (by decide)).trans
    ((W8_of_ne m ρ c main_arg5 (by decide)).trans
    ((W7_of m ρ c main_arg5 (by decide)).trans
    ((W6_of m ρ c main_arg5 (by decide)).trans
    ((W5_of m ρ c main_arg5 (by decide)).trans
    ((W4_of m ρ c main_arg5 (by decide)).trans
    ((W3_of m ρ c main_arg5 (by decide)).trans
    ((W2_of m ρ c main_arg5 (by decide)).trans
    ((W1_of m ρ c main_arg5 (by decide)).trans
    ((rfl : W0 m ρ c (Proc.devRef .tc main_arg5) = m ((c : Thread nD τ).loc main_arg5)))))))))))))))))))))))))))))))
set_option maxRecDepth 65536 in
theorem W29_main_arg6 (c : Dev nD) : W29 m ρ c (Proc.devRef .tc main_arg6) = m ((c : Thread nD τ).loc main_arg6) :=
  (W29_of m ρ c main_arg6 (by decide)).trans
    ((W28_of_ne m ρ c main_arg6 (by decide)).trans
    ((W27_of m ρ c main_arg6 (by decide)).trans
    ((W26_of m ρ c main_arg6 (by decide)).trans
    ((W25_of m ρ c main_arg6 (by decide)).trans
    ((W24_of m ρ c main_arg6 (by decide)).trans
    ((W23_of m ρ c main_arg6 (by decide)).trans
    ((W22_of_ne m ρ c main_arg6 (by decide)).trans
    ((W21_of m ρ c main_arg6 (by decide)).trans
    ((W20_of m ρ c main_arg6 (by decide)).trans
    ((W19_of m ρ c main_arg6 (by decide)).trans
    ((W18_of m ρ c main_arg6 (by decide)).trans
    ((W17_of m ρ c main_arg6 (by decide)).trans
    ((W16_of_ne m ρ c main_arg6 (by decide)).trans
    ((W15_of m ρ c main_arg6 (by decide)).trans
    ((W14_of m ρ c main_arg6 (by decide)).trans
    ((W13_of m ρ c main_arg6 (by decide)).trans
    ((W12_of m ρ c main_arg6 (by decide)).trans
    ((W11_of m ρ c main_arg6 (by decide)).trans
    ((W10_of m ρ c main_arg6 (by decide)).trans
    ((W9_of m ρ c main_arg6 (by decide)).trans
    ((W8_of_ne m ρ c main_arg6 (by decide)).trans
    ((W7_of m ρ c main_arg6 (by decide)).trans
    ((W6_of m ρ c main_arg6 (by decide)).trans
    ((W5_of m ρ c main_arg6 (by decide)).trans
    ((W4_of m ρ c main_arg6 (by decide)).trans
    ((W3_of m ρ c main_arg6 (by decide)).trans
    ((W2_of m ρ c main_arg6 (by decide)).trans
    ((W1_of m ρ c main_arg6 (by decide)).trans
    ((rfl : W0 m ρ c (Proc.devRef .tc main_arg6) = m ((c : Thread nD τ).loc main_arg6)))))))))))))))))))))))))))))))
set_option maxRecDepth 65536 in
theorem W29_main_arg7 (c : Dev nD) : W29 m ρ c (Proc.devRef .tc main_arg7) = m ((c : Thread nD τ).loc main_arg7) :=
  (W29_of m ρ c main_arg7 (by decide)).trans
    ((W28_of_ne m ρ c main_arg7 (by decide)).trans
    ((W27_of m ρ c main_arg7 (by decide)).trans
    ((W26_of m ρ c main_arg7 (by decide)).trans
    ((W25_of m ρ c main_arg7 (by decide)).trans
    ((W24_of m ρ c main_arg7 (by decide)).trans
    ((W23_of m ρ c main_arg7 (by decide)).trans
    ((W22_of_ne m ρ c main_arg7 (by decide)).trans
    ((W21_of m ρ c main_arg7 (by decide)).trans
    ((W20_of m ρ c main_arg7 (by decide)).trans
    ((W19_of m ρ c main_arg7 (by decide)).trans
    ((W18_of m ρ c main_arg7 (by decide)).trans
    ((W17_of m ρ c main_arg7 (by decide)).trans
    ((W16_of_ne m ρ c main_arg7 (by decide)).trans
    ((W15_of m ρ c main_arg7 (by decide)).trans
    ((W14_of m ρ c main_arg7 (by decide)).trans
    ((W13_of m ρ c main_arg7 (by decide)).trans
    ((W12_of m ρ c main_arg7 (by decide)).trans
    ((W11_of m ρ c main_arg7 (by decide)).trans
    ((W10_of m ρ c main_arg7 (by decide)).trans
    ((W9_of m ρ c main_arg7 (by decide)).trans
    ((W8_of_ne m ρ c main_arg7 (by decide)).trans
    ((W7_of m ρ c main_arg7 (by decide)).trans
    ((W6_of m ρ c main_arg7 (by decide)).trans
    ((W5_of m ρ c main_arg7 (by decide)).trans
    ((W4_of m ρ c main_arg7 (by decide)).trans
    ((W3_of m ρ c main_arg7 (by decide)).trans
    ((W2_of m ρ c main_arg7 (by decide)).trans
    ((W1_of m ρ c main_arg7 (by decide)).trans
    ((rfl : W0 m ρ c (Proc.devRef .tc main_arg7) = m ((c : Thread nD τ).loc main_arg7)))))))))))))))))))))))))))))))
set_option maxRecDepth 65536 in
theorem W29_main_arg8 (c : Dev nD) : W29 m ρ c (Proc.devRef .tc main_arg8) = m ((c : Thread nD τ).loc main_arg8) :=
  (W29_of m ρ c main_arg8 (by decide)).trans
    ((W28_of_ne m ρ c main_arg8 (by decide)).trans
    ((W27_of m ρ c main_arg8 (by decide)).trans
    ((W26_of m ρ c main_arg8 (by decide)).trans
    ((W25_of m ρ c main_arg8 (by decide)).trans
    ((W24_of m ρ c main_arg8 (by decide)).trans
    ((W23_of m ρ c main_arg8 (by decide)).trans
    ((W22_of_ne m ρ c main_arg8 (by decide)).trans
    ((W21_of m ρ c main_arg8 (by decide)).trans
    ((W20_of m ρ c main_arg8 (by decide)).trans
    ((W19_of m ρ c main_arg8 (by decide)).trans
    ((W18_of m ρ c main_arg8 (by decide)).trans
    ((W17_of m ρ c main_arg8 (by decide)).trans
    ((W16_of_ne m ρ c main_arg8 (by decide)).trans
    ((W15_of m ρ c main_arg8 (by decide)).trans
    ((W14_of m ρ c main_arg8 (by decide)).trans
    ((W13_of m ρ c main_arg8 (by decide)).trans
    ((W12_of m ρ c main_arg8 (by decide)).trans
    ((W11_of m ρ c main_arg8 (by decide)).trans
    ((W10_of m ρ c main_arg8 (by decide)).trans
    ((W9_of m ρ c main_arg8 (by decide)).trans
    ((W8_of_ne m ρ c main_arg8 (by decide)).trans
    ((W7_of m ρ c main_arg8 (by decide)).trans
    ((W6_of m ρ c main_arg8 (by decide)).trans
    ((W5_of m ρ c main_arg8 (by decide)).trans
    ((W4_of m ρ c main_arg8 (by decide)).trans
    ((W3_of m ρ c main_arg8 (by decide)).trans
    ((W2_of m ρ c main_arg8 (by decide)).trans
    ((W1_of m ρ c main_arg8 (by decide)).trans
    ((rfl : W0 m ρ c (Proc.devRef .tc main_arg8) = m ((c : Thread nD τ).loc main_arg8)))))))))))))))))))))))))))))))
set_option maxRecDepth 65536 in
theorem W29_main_arg9 (c : Dev nD) : W29 m ρ c (Proc.devRef .tc main_arg9) = m ((c : Thread nD τ).loc main_arg9) :=
  (W29_of m ρ c main_arg9 (by decide)).trans
    ((W28_of_ne m ρ c main_arg9 (by decide)).trans
    ((W27_of m ρ c main_arg9 (by decide)).trans
    ((W26_of m ρ c main_arg9 (by decide)).trans
    ((W25_of m ρ c main_arg9 (by decide)).trans
    ((W24_of m ρ c main_arg9 (by decide)).trans
    ((W23_of m ρ c main_arg9 (by decide)).trans
    ((W22_of_ne m ρ c main_arg9 (by decide)).trans
    ((W21_of m ρ c main_arg9 (by decide)).trans
    ((W20_of m ρ c main_arg9 (by decide)).trans
    ((W19_of m ρ c main_arg9 (by decide)).trans
    ((W18_of m ρ c main_arg9 (by decide)).trans
    ((W17_of m ρ c main_arg9 (by decide)).trans
    ((W16_of_ne m ρ c main_arg9 (by decide)).trans
    ((W15_of m ρ c main_arg9 (by decide)).trans
    ((W14_of m ρ c main_arg9 (by decide)).trans
    ((W13_of m ρ c main_arg9 (by decide)).trans
    ((W12_of m ρ c main_arg9 (by decide)).trans
    ((W11_of m ρ c main_arg9 (by decide)).trans
    ((W10_of m ρ c main_arg9 (by decide)).trans
    ((W9_of m ρ c main_arg9 (by decide)).trans
    ((W8_of_ne m ρ c main_arg9 (by decide)).trans
    ((W7_of m ρ c main_arg9 (by decide)).trans
    ((W6_of m ρ c main_arg9 (by decide)).trans
    ((W5_of m ρ c main_arg9 (by decide)).trans
    ((W4_of m ρ c main_arg9 (by decide)).trans
    ((W3_of m ρ c main_arg9 (by decide)).trans
    ((W2_of m ρ c main_arg9 (by decide)).trans
    ((W1_of m ρ c main_arg9 (by decide)).trans
    ((rfl : W0 m ρ c (Proc.devRef .tc main_arg9) = m ((c : Thread nD τ).loc main_arg9)))))))))))))))))))))))))))))))
set_option maxRecDepth 65536 in
theorem W29_main_arg10 (c : Dev nD) : W29 m ρ c (Proc.devRef .tc main_arg10) = m ((c : Thread nD τ).loc main_arg10) :=
  (W29_of m ρ c main_arg10 (by decide)).trans
    ((W28_of_ne m ρ c main_arg10 (by decide)).trans
    ((W27_of m ρ c main_arg10 (by decide)).trans
    ((W26_of m ρ c main_arg10 (by decide)).trans
    ((W25_of m ρ c main_arg10 (by decide)).trans
    ((W24_of m ρ c main_arg10 (by decide)).trans
    ((W23_of m ρ c main_arg10 (by decide)).trans
    ((W22_of_ne m ρ c main_arg10 (by decide)).trans
    ((W21_of m ρ c main_arg10 (by decide)).trans
    ((W20_of m ρ c main_arg10 (by decide)).trans
    ((W19_of m ρ c main_arg10 (by decide)).trans
    ((W18_of m ρ c main_arg10 (by decide)).trans
    ((W17_of m ρ c main_arg10 (by decide)).trans
    ((W16_of_ne m ρ c main_arg10 (by decide)).trans
    ((W15_of m ρ c main_arg10 (by decide)).trans
    ((W14_of m ρ c main_arg10 (by decide)).trans
    ((W13_of m ρ c main_arg10 (by decide)).trans
    ((W12_of m ρ c main_arg10 (by decide)).trans
    ((W11_of m ρ c main_arg10 (by decide)).trans
    ((W10_of m ρ c main_arg10 (by decide)).trans
    ((W9_of m ρ c main_arg10 (by decide)).trans
    ((W8_of_ne m ρ c main_arg10 (by decide)).trans
    ((W7_of m ρ c main_arg10 (by decide)).trans
    ((W6_of m ρ c main_arg10 (by decide)).trans
    ((W5_of m ρ c main_arg10 (by decide)).trans
    ((W4_of m ρ c main_arg10 (by decide)).trans
    ((W3_of m ρ c main_arg10 (by decide)).trans
    ((W2_of m ρ c main_arg10 (by decide)).trans
    ((W1_of m ρ c main_arg10 (by decide)).trans
    ((rfl : W0 m ρ c (Proc.devRef .tc main_arg10) = m ((c : Thread nD τ).loc main_arg10)))))))))))))))))))))))))))))))
set_option maxRecDepth 65536 in
theorem W29_main_arg11 (c : Dev nD) : W29 m ρ c (Proc.devRef .tc main_arg11) = m ((c : Thread nD τ).loc main_arg11) :=
  (W29_of m ρ c main_arg11 (by decide)).trans
    ((W28_of_ne m ρ c main_arg11 (by decide)).trans
    ((W27_of m ρ c main_arg11 (by decide)).trans
    ((W26_of m ρ c main_arg11 (by decide)).trans
    ((W25_of m ρ c main_arg11 (by decide)).trans
    ((W24_of m ρ c main_arg11 (by decide)).trans
    ((W23_of m ρ c main_arg11 (by decide)).trans
    ((W22_of_ne m ρ c main_arg11 (by decide)).trans
    ((W21_of m ρ c main_arg11 (by decide)).trans
    ((W20_of m ρ c main_arg11 (by decide)).trans
    ((W19_of m ρ c main_arg11 (by decide)).trans
    ((W18_of m ρ c main_arg11 (by decide)).trans
    ((W17_of m ρ c main_arg11 (by decide)).trans
    ((W16_of_ne m ρ c main_arg11 (by decide)).trans
    ((W15_of m ρ c main_arg11 (by decide)).trans
    ((W14_of m ρ c main_arg11 (by decide)).trans
    ((W13_of m ρ c main_arg11 (by decide)).trans
    ((W12_of m ρ c main_arg11 (by decide)).trans
    ((W11_of m ρ c main_arg11 (by decide)).trans
    ((W10_of m ρ c main_arg11 (by decide)).trans
    ((W9_of m ρ c main_arg11 (by decide)).trans
    ((W8_of_ne m ρ c main_arg11 (by decide)).trans
    ((W7_of m ρ c main_arg11 (by decide)).trans
    ((W6_of m ρ c main_arg11 (by decide)).trans
    ((W5_of m ρ c main_arg11 (by decide)).trans
    ((W4_of m ρ c main_arg11 (by decide)).trans
    ((W3_of m ρ c main_arg11 (by decide)).trans
    ((W2_of m ρ c main_arg11 (by decide)).trans
    ((W1_of m ρ c main_arg11 (by decide)).trans
    ((rfl : W0 m ρ c (Proc.devRef .tc main_arg11) = m ((c : Thread nD τ).loc main_arg11)))))))))))))))))))))))))))))))
set_option maxRecDepth 65536 in
theorem W29_main_arg12 (c : Dev nD) : W29 m ρ c (Proc.devRef .tc main_arg12) = m ((c : Thread nD τ).loc main_arg12) :=
  (W29_of m ρ c main_arg12 (by decide)).trans
    ((W28_of_ne m ρ c main_arg12 (by decide)).trans
    ((W27_of m ρ c main_arg12 (by decide)).trans
    ((W26_of m ρ c main_arg12 (by decide)).trans
    ((W25_of m ρ c main_arg12 (by decide)).trans
    ((W24_of m ρ c main_arg12 (by decide)).trans
    ((W23_of m ρ c main_arg12 (by decide)).trans
    ((W22_of_ne m ρ c main_arg12 (by decide)).trans
    ((W21_of m ρ c main_arg12 (by decide)).trans
    ((W20_of m ρ c main_arg12 (by decide)).trans
    ((W19_of m ρ c main_arg12 (by decide)).trans
    ((W18_of m ρ c main_arg12 (by decide)).trans
    ((W17_of m ρ c main_arg12 (by decide)).trans
    ((W16_of_ne m ρ c main_arg12 (by decide)).trans
    ((W15_of m ρ c main_arg12 (by decide)).trans
    ((W14_of m ρ c main_arg12 (by decide)).trans
    ((W13_of m ρ c main_arg12 (by decide)).trans
    ((W12_of m ρ c main_arg12 (by decide)).trans
    ((W11_of m ρ c main_arg12 (by decide)).trans
    ((W10_of m ρ c main_arg12 (by decide)).trans
    ((W9_of m ρ c main_arg12 (by decide)).trans
    ((W8_of_ne m ρ c main_arg12 (by decide)).trans
    ((W7_of m ρ c main_arg12 (by decide)).trans
    ((W6_of m ρ c main_arg12 (by decide)).trans
    ((W5_of m ρ c main_arg12 (by decide)).trans
    ((W4_of m ρ c main_arg12 (by decide)).trans
    ((W3_of m ρ c main_arg12 (by decide)).trans
    ((W2_of m ρ c main_arg12 (by decide)).trans
    ((W1_of m ρ c main_arg12 (by decide)).trans
    ((rfl : W0 m ρ c (Proc.devRef .tc main_arg12) = m ((c : Thread nD τ).loc main_arg12)))))))))))))))))))))))))))))))
set_option maxRecDepth 65536 in
theorem W29_main_arg13 (c : Dev nD) : W29 m ρ c (Proc.devRef .tc main_arg13) = m ((c : Thread nD τ).loc main_arg13) :=
  (W29_of m ρ c main_arg13 (by decide)).trans
    ((W28_of_ne m ρ c main_arg13 (by decide)).trans
    ((W27_of m ρ c main_arg13 (by decide)).trans
    ((W26_of m ρ c main_arg13 (by decide)).trans
    ((W25_of m ρ c main_arg13 (by decide)).trans
    ((W24_of m ρ c main_arg13 (by decide)).trans
    ((W23_of m ρ c main_arg13 (by decide)).trans
    ((W22_of_ne m ρ c main_arg13 (by decide)).trans
    ((W21_of m ρ c main_arg13 (by decide)).trans
    ((W20_of m ρ c main_arg13 (by decide)).trans
    ((W19_of m ρ c main_arg13 (by decide)).trans
    ((W18_of m ρ c main_arg13 (by decide)).trans
    ((W17_of m ρ c main_arg13 (by decide)).trans
    ((W16_of_ne m ρ c main_arg13 (by decide)).trans
    ((W15_of m ρ c main_arg13 (by decide)).trans
    ((W14_of m ρ c main_arg13 (by decide)).trans
    ((W13_of m ρ c main_arg13 (by decide)).trans
    ((W12_of m ρ c main_arg13 (by decide)).trans
    ((W11_of m ρ c main_arg13 (by decide)).trans
    ((W10_of m ρ c main_arg13 (by decide)).trans
    ((W9_of m ρ c main_arg13 (by decide)).trans
    ((W8_of_ne m ρ c main_arg13 (by decide)).trans
    ((W7_of m ρ c main_arg13 (by decide)).trans
    ((W6_of m ρ c main_arg13 (by decide)).trans
    ((W5_of m ρ c main_arg13 (by decide)).trans
    ((W4_of m ρ c main_arg13 (by decide)).trans
    ((W3_of m ρ c main_arg13 (by decide)).trans
    ((W2_of m ρ c main_arg13 (by decide)).trans
    ((W1_of m ρ c main_arg13 (by decide)).trans
    ((rfl : W0 m ρ c (Proc.devRef .tc main_arg13) = m ((c : Thread nD τ).loc main_arg13)))))))))))))))))))))))))))))))

/-! ## The proof data family and the thread state -/

/-- No pipeline has a prefetched table. -/
abbrev adm : (p : Fin 4) → (pcfgs (F := F) p).Adm := fun p => (cfgs p).toPCfg_adm
/-- Every pipeline's proof data, each at its region's entry contents: a literal match on the pipeline's number. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V15 m ρ) c
  | ⟨2, _⟩ => fun c => dat2 (V21 m ρ) c
  | ⟨3, _⟩ => fun c => dat3 (V27 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W29 m ρ c) ∗ ∃ r, prngReg c r)

/-! ## The pipelines as segments -/

set_option backward.isDefEq.respectTransparency.types false in
/-- Pipeline 0 over the thread state: entered from every unscoped buffer at `W7`, left at `W8`.  Its arrays are
    split out of the unscoped buffers and put back at the exit contents; the generator register goes into the
    pipeline's invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V7 m ρ) c).Φ 0 from rfl]
    iintro ⟨Hp, -, Hr⟩
    iapply (hin0 (V7 m ρ) c)
    unfold Pipeline.ΦA
    isplitl [Hr]; · iexact Hr
    iexact Hp
  hout c := by
    rw [Pipeline.ownSems0_none, show (pdats m ρ 0 c).Φ (Fin.last _) = (dat0 (V7 m ρ) c).Φ (Fin.last cfg0.N) from rfl]
    iintro H
    ihave H2 := (hout0 (V7 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W15`, left at `W16`.  Its arrays are
    split out of the unscoped buffers and put back at the exit contents; the generator register goes into the
    pipeline's invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V15 m ρ) c).Φ 0 from rfl]
    iintro ⟨Hp, -, Hr⟩
    iapply (hin1 (V15 m ρ) c)
    unfold Pipeline.ΦA
    isplitl [Hr]; · iexact Hr
    iexact Hp
  hout c := by
    rw [Pipeline.ownSems0_none, show (pdats m ρ 1 c).Φ (Fin.last _) = (dat1 (V15 m ρ) c).Φ (Fin.last cfg1.N) from rfl]
    iintro H
    ihave H2 := (hout1 (V15 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W21`, left at `W22`.  Its arrays are
    split out of the unscoped buffers and put back at the exit contents; the generator register goes into the
    pipeline's invariant and comes out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V21 m ρ) c).loose
  hwaits := Pipeline.hwaits_of_owed_zero _ _ _ _ L lv 2 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec2 c (V21 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V21 m ρ c) (V22 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W27`, left at `W28`.  Its arrays are
    split out of the unscoped buffers and put back at the exit contents; the generator register goes into the
    pipeline's invariant and comes out of it; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V27 m ρ) c).loose
  hwaits := Pipeline.hwaits_of_owed_zero _ _ _ _ L lv 3 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec3 c (V27 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V27 m ρ c) (V28 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .host (hseg hostOps1_4 hostOps1_4_sub hostOps1_4_fresh (W12 m ρ)),
    .host (hseg hostOps1_5 hostOps1_5_sub hostOps1_5_fresh (W13 m ρ)),
    .host (hseg hostOps1_6 hostOps1_6_sub hostOps1_6_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .region (reg2 m ρ),
    .host (hseg hostOps3 hostOps3_sub hostOps3_fresh (W22 m ρ)),
    .host (hseg hostOps3_1 hostOps3_1_sub hostOps3_1_fresh (W23 m ρ)),
    .host (hseg hostOps3_2 hostOps3_2_sub hostOps3_2_fresh (W24 m ρ)),
    .host (hseg hostOps3_3 hostOps3_3_sub hostOps3_3_fresh (W25 m ρ)),
    .host (hseg hostOps3_4 hostOps3_4_sub hostOps3_4_fresh (W26 m ρ)),
    .region (reg3 m ρ),
    .host (hseg hostOps4 hostOps4_sub hostOps4_fresh (W28 m ρ)) ]

/-- @main IS the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c => h c)

/-- THE FRAME at any `F`: the run, read at the fourteen argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c)⟩)
    (run_all m ρ)

end Cert.Kernel.Hand

end
-- ==== Proof.KIRun0.lean ====
/-
  Pipeline 0 runs the streaming kernel on a grid of 16 × 10 points: for each block of 256 query rows the table is
  streamed in 10 tiles of 5000 rows.  The body keeps a column of running sums in a scratch buffer that lives across the
  points: at a block's first tile it clears the column, at every tile it adds the row sums of exp (scale · q · tᵀ) for
  the tile, and at the block's last tile it copies the column into the output block; at the other tiles the output
  block is not touched.  Which tile a point is, first / middle / last, is decided over the grid in closed form.  For
  each of the three cases the body's run is found by the symbolic executor from whole staging buffers, and what its
  stores leave in the accumulator (and, at a last tile, in the output block) is recorded as the list of pieces written.
-/
import proofs.«110517_j15659450761722_1_alg».proof.Proof.Gen.KernelIdeal.Launch
import proofs.«110517_j15659450761722_1_alg».proof.Proof.Gen.KernelIdeal.Skeleton
import proofs.«110517_j15659450761722_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- "This is the block's first table tile": the body's first conditional, from the grid coordinates. -/
abbrev first0 (i : grid0.Coords) : Prop :=
  (Scalar.cmpi .ne (Scalar.extui (Scalar.cmpi .eq (BitVec.ofNat 32 (i 1).val) 0#32)) 0#32) = 1#1
/-- It holds at the points ≡ 0 (mod 10). -/
theorem first0_iff : ∀ t : Fin cfg0.N, first0 (grid0.coords t) ↔ t.val % 10 = 0 :=
  (by decide +kernel : ∀ t : Fin grid0.N, first0 (grid0.coords t) ↔ t.val % 10 = 0)

/-- "This is the block's last table tile": the body's second conditional. -/
abbrev last0 (i : grid0.Coords) : Prop := k0_cond2 i = 1#1
/-- It holds at the points ≡ 9 (mod 10). -/
theorem last0_iff : ∀ t : Fin cfg0.N, last0 (grid0.coords t) ↔ t.val % 10 = 9 :=
  (by decide +kernel : ∀ t : Fin grid0.N, last0 (grid0.coords t) ↔ t.val % 10 = 9)

set_option maxHeartbeats 4000000 in
/-- A FIRST tile: the inputs at `x0`, `x1`; the output block at `xo`, not touched; the accumulator at anything (it is
    cleared before it is read).  The accumulator ends overwritten by the recorded pieces. -/
noncomputable def bodyRun0_A (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : first0 i) (hlast : ¬last0 i) (x0 : Vec F S256x64 .f32) (x1 : Vec F S5000x64 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨[], ?_, fun xo E K => ?run⟩
  case run =>
    simp only [cc0__dotexpsum_kernel_eq_skeleton]; unfold cc0__dotexpsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A MIDDLE tile: as a first tile, but the accumulator is read before it is written, so it comes at named contents `xs`. -/
noncomputable def bodyRun0_B (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first0 i) (hlast : ¬last0 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨[], ?_, fun xo E K => ?run⟩
  case run =>
    simp only [cc0__dotexpsum_kernel_eq_skeleton]; unfold cc0__dotexpsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A LAST tile: the accumulator at named contents `xs`; the output block at anything, and overwritten by its recorded
    pieces. -/
noncomputable def bodyRun0_C (c : Dev nD) (i : grid0.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first0 i) (hlast : last0 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__dotexpsum_kernel i arg2 harg2 arg3 harg3 arg4 harg4 arg5 harg5) K } := by
  refine ⟨?_, ?_, fun E K => ?run⟩
  case run =>
    simp only [cc0__dotexpsum_kernel_eq_skeleton]; unfold cc0__dotexpsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KIRegion0.lean ====
/-
  Pipeline 0 at the buffer contents `V` its region is entered with.  The accumulator column is carried from point to
  point: after point n it holds the value defined by recursion on n — at a block's first tile the body's result from
  the point's two input blocks alone, at a later tile its result from those blocks and what the point before left.
  The output block is written at a block's last tile only, with the accumulator's value; at the other points the
  window is idle (its buffer is handed back untouched and not written back), so what the proof data say it holds there
  is a placeholder nothing reads.  The region's invariant is the plain one before the first point and, after point n,
  the same with the accumulator at its named value.
-/
import proofs.«110517_j15659450761722_1_alg».proof.Proof.KIRun0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether fetched there or kept from the
    point before (the block index has not moved then). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The inputs are never idle; the output window is idle, and not written back, exactly away from the last tiles. -/
theorem live0_0 : ∀ t : Fin cfg0.N, cfg0.idle 0 (grid0.coords t) = false := by decide +kernel
theorem live0_1 : ∀ t : Fin cfg0.N, cfg0.idle 1 (grid0.coords t) = false := by decide +kernel
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-- Each window's current staging buffer at a point, as the pipeline passes it, and the accumulator. -/
abbrev ms0_0 (t : Fin cfg0.N) : Memref sig .tc .vmem S256x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)
abbrev scM0 : Memref sig .tc .vmem S256x1 .f32 := Memref.whole cc0_scratch0
/-- The views through which the output block's and the accumulator's contents are stated. -/
abbrev VO0 : View sig .tc .vmem S256x1 .f32 := (Memref.whole cc0_stg2_0 : Memref sig .tc .vmem S256x1 .f32).view
abbrev VS0 : View sig .tc .vmem S256x1 .f32 := scM0.view

/-- The core's scoped buffers outside this pipeline's staging, with the accumulator taken out and named. -/
theorem scopedRest0_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f)
          ∗ Pipeline.scopedRestBut (Ix := Ix) (Name := Name) (U := U) (Lvl := Lvl) (Val := Val) spec0 c [cc0_scratch0]) :=
  Pipeline.scopedRest_split_of_list spec0 c [cc0_scratch0] (by decide) (by decide)

/-- The plain invariant with the accumulator as a whole buffer owned at some contents. -/
theorem PhiA0_eq (c : Dev nD) :
    (Pipeline.ΦA spec0 c : sProp 𝕄)
      = iprop(iprop((∃ d, owns (c : Thread nD τ) scM0 fullShare d) ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-! ## What each case leaves -/

/-- A first tile's accumulator: its pieces read back; they tile the column, so they cover it. -/
def accA0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first0 i) (hlast : ¬last0 i) (x0 : Vec F S256x64 .f32) (x1 : Vec F S5000x64 .f32) : Vec F S256x1 .f32 :=
  VS0.read (Elt F) (VS0.writes (Elt F) VS0.junk (bodyRun0_A c i arg2 harg2 arg3 harg3 arg4 harg4 arg5 harg5 hfirst hlast x0 x1).2.1)
theorem accCoverA0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first0 i) (hlast : ¬last0 i) (x0 : Vec F S256x64 .f32) (x1 : Vec F S5000x64 .f32) (y : S256x1.Idx) :
    ∃ pc ∈ (bodyRun0_A c i arg2 harg2 arg3 harg3 arg4 harg4 arg5 harg5 hfirst hlast x0 x1).2.1, y ∈ pc.1.set :=
  View.cover_of_tiledL (bodyRun0_A c i arg2 harg2 arg3 harg3 arg4 harg4 arg5 harg5 hfirst hlast x0 x1).2.1 S256x1.size (by sl_kernel_rfl) y

/-- A middle tile's accumulator, over what the point before left (`xs`). -/
def accB0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : ¬last0 i) (x0 : Vec F S256x64 .f32) (x1 : Vec F S5000x64 .f32) (xs : Vec F S256x1 .f32) : Vec F S256x1 .f32 :=
  VS0.read (Elt F) (VS0.writes (Elt F) VS0.junk (bodyRun0_B c i arg2 harg2 arg3 harg3 arg4 harg4 arg5 harg5 hfirst hlast x0 x1 xs).2.1)
theorem accCoverB0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : ¬last0 i) (x0 : Vec F S256x64 .f32) (x1 : Vec F S5000x64 .f32) (xs : Vec F S256x1 .f32) (y : S256x1.Idx) :
    ∃ pc ∈ (bodyRun0_B c i arg2 harg2 arg3 harg3 arg4 harg4 arg5 harg5 hfirst hlast x0 x1 xs).2.1, y ∈ pc.1.set :=
  View.cover_of_tiledL (bodyRun0_B c i arg2 harg2 arg3 harg3 arg4 harg4 arg5 harg5 hfirst hlast x0 x1 xs).2.1 S256x1.size (by sl_kernel_rfl) y

/-- A last tile's accumulator and output block. -/
def accC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) : Vec F S256x1 .f32 :=
  VS0.read (Elt F) (VS0.writes (Elt F) VS0.junk (bodyRun0_C c i arg2 harg2 arg3 harg3 arg4 harg4 arg5 harg5 hfirst hlast x0 x1 xs).2.1)
theorem accCoverC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) (y : S256x1.Idx) :
    ∃ pc ∈ (bodyRun0_C c i arg2 harg2 arg3 harg3 arg4 harg4 arg5 harg5 hfirst hlast x0 x1 xs).2.1, y ∈ pc.1.set :=
  View.cover_of_tiledL (bodyRun0_C c i arg2 harg2 arg3 harg3 arg4 harg4 arg5 harg5 hfirst hlast x0 x1 xs).2.1 S256x1.size (by sl_kernel_rfl) y
def outC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) : Vec F S256x1 .f32 :=
  VO0.read (Elt F) (VO0.writes (Elt F) VO0.junk (bodyRun0_C c i arg2 harg2 arg3 harg3 arg4 harg4 arg5 harg5 hfirst hlast x0 x1 xs).1)
theorem outCoverC0 (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) (y : S256x1.Idx) :
    ∃ pc ∈ (bodyRun0_C c i arg2 harg2 arg3 harg3 arg4 harg4 arg5 harg5 hfirst hlast x0 x1 xs).1, y ∈ pc.1.set :=
  View.cover_of_tiledL (bodyRun0_C c i arg2 harg2 arg3 harg3 arg4 harg4 arg5 harg5 hfirst hlast x0 x1 xs).1 S256x1.size (by sl_kernel_rfl) y

/-! ## The accumulator point by point -/

/-- The case conditions from a point's position. -/
theorem isFirst0 (t : Fin cfg0.N) (h : t.val % 10 = 0) : first0 (grid0.coords t) := (first0_iff t).mpr h
theorem notFirst0 (t : Fin cfg0.N) (h : ¬t.val % 10 = 0) : ¬first0 (grid0.coords t) := fun hf => h ((first0_iff t).mp hf)
theorem isLast0 (t : Fin cfg0.N) (h : t.val % 10 = 9) : last0 (grid0.coords t) := (last0_iff t).mpr h
theorem notLast0 (t : Fin cfg0.N) (h : ¬t.val % 10 = 9) : ¬last0 (grid0.coords t) := fun hl => h ((last0_iff t).mp hl)

/-- THE ACCUMULATION: what the accumulator holds after the body at position `n`. -/
def accAt0 (c : Dev nD) : (n : ℕ) → n < cfg0.N → Vec F S256x1 .f32
  | 0, hn => accA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (isFirst0 ⟨0, hn⟩ (Nat.zero_mod _)) (notLast0 ⟨0, hn⟩ (by show ¬ (0 : ℕ) % 10 = 9; decide)) (iblk0 V c 0 ⟨0, hn⟩) (iblk0 V c 1 ⟨0, hn⟩)
  | n + 1, hn =>
    if h0 : (n + 1) % 10 = 0 then
      accA0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (isFirst0 ⟨n + 1, hn⟩ h0) (notLast0 ⟨n + 1, hn⟩ (by show ¬ (n + 1) % 10 = 9; omega)) (iblk0 V c 0 ⟨n + 1, hn⟩) (iblk0 V c 1 ⟨n + 1, hn⟩)
    else if h2 : (n + 1) % 10 = 9 then
      accC0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notFirst0 ⟨n + 1, hn⟩ h0) (isLast0 ⟨n + 1, hn⟩ h2) (iblk0 V c 0 ⟨n + 1, hn⟩) (iblk0 V c 1 ⟨n + 1, hn⟩) (accAt0 c n (Nat.lt_of_succ_lt hn))
    else
      accB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (notFirst0 ⟨n + 1, hn⟩ h0) (notLast0 ⟨n + 1, hn⟩ h2) (iblk0 V c 0 ⟨n + 1, hn⟩) (iblk0 V c 1 ⟨n + 1, hn⟩) (accAt0 c n (Nat.lt_of_succ_lt hn))

theorem accAt0_A (c : Dev nD) (t : Fin cfg0.N) (h0 : t.val % 10 = 0) (h2 : ¬t.val % 10 = 9) :
    accAt0 V c t.val t.isLt = accA0 c (grid0.coords t) (ms0_0 t) (hs0_0 t) (ms0_1 t) (hs0_1 t) (ms0_2 t) (hs0_2 t) scM0 (Memref.isWhole_whole _) (isFirst0 t h0) (notLast0 t h2) (iblk0 V c 0 t) (iblk0 V c 1 t) := by
  obtain ⟨n, hn⟩ := t
  cases n with
  | zero => exact rfl
  | succ n => exact (dif_pos h0).trans rfl

theorem accAt0_B (c : Dev nD) (t : Fin cfg0.N) (h0 : ¬t.val % 10 = 0) (h2 : ¬t.val % 10 = 9) :
    accAt0 V c t.val t.isLt = accB0 c (grid0.coords t) (ms0_0 t) (hs0_0 t) (ms0_1 t) (hs0_1 t) (ms0_2 t) (hs0_2 t) scM0 (Memref.isWhole_whole _) (notFirst0 t h0) (notLast0 t h2) (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem accAt0_C (c : Dev nD) (t : Fin cfg0.N) (h0 : ¬t.val % 10 = 0) (h2 : t.val % 10 = 9) :
    accAt0 V c t.val t.isLt = accC0 c (grid0.coords t) (ms0_0 t) (hs0_0 t) (ms0_1 t) (hs0_1 t) (ms0_2 t) (hs0_2 t) scM0 (Memref.isWhole_whole _) (notFirst0 t h0) (isLast0 t h2) (iblk0 V c 0 t) (iblk0 V c 1 t)
      (accAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- What the proof data say the output block holds after point `t`: at a last tile what the body stored there; elsewhere
    a placeholder (the window is idle there). -/
def outAt0 (c : Dev nD) (t : Fin cfg0.N) : Vec F S256x1 .f32 :=
  if h2 : t.val % 10 = 9 then
    outC0 c (grid0.coords t) (ms0_0 t) (hs0_0 t) (ms0_1 t) (hs0_1 t) (ms0_2 t) (hs0_2 t) scM0 (Memref.isWhole_whole _) (notFirst0 t (by omega)) (isLast0 t h2) (iblk0 V c 0 t) (iblk0 V c 1 t)
      (accAt0 V c (t.val - 1) (Nat.lt_of_le_of_lt (Nat.sub_le _ _) t.isLt))
  else VO0.read (Elt F) VO0.junk

theorem outAt0_C (c : Dev nD) (t : Fin cfg0.N) (h0 : ¬t.val % 10 = 0) (h2 : t.val % 10 = 9) :
    outAt0 V c t = outC0 c (grid0.coords t) (ms0_0 t) (hs0_0 t) (ms0_1 t) (hs0_1 t) (ms0_2 t) (hs0_2 t) scM0 (Memref.isWhole_whole _) (notFirst0 t h0) (isLast0 t h2) (iblk0 V c 0 t) (iblk0 V c 1 t)
      (accAt0 V c (t.val - 1) (Nat.lt_of_le_of_lt (Nat.sub_le _ _) t.isLt)) := by
  unfold outAt0; exact dif_pos h2

/-! ## The invariant and the proof data -/

/-- The region invariant before position `n`: the plain one before the first point; afterwards the same with the
    accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ Pipeline.scopedRestBut (Ix := Unit) (Name := ℕ) (U := UR sig nD τ) (Lvl := ℕ) (Val := Elt F) spec0 c [cc0_scratch0]) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-- The pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point, by the point's case: the inputs' buffers hold their blocks; the invariant lends the
    accumulator (at anything before the first point, at the point before's value afterwards) and takes it back at this
    point's value; the output block is handed back untouched away from a last tile and stored whole at one. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  by_cases h0 : t.val % 10 = 0
  · have h2 : ¬t.val % 10 = 9 := by omega
    rw [Dat.leavesExact_idle (dat0 V c) 2 t (idle0_2 t (notLast0 t h2)) (noFlush0_2 t (notLast0 t h2))]
    rw [accAt0_A V c t h0 h2]
    unfold accA0; (try dsimp only)
    by_cases hz : t.val = 0
    · rw [PhiS0_castSucc V c t, PhiS0_zero V c _ _ hz, PhiA0_eq]
      iintro ⟨⟨⟨HS, Hrest⟩, Hg⟩, Ho, ⟨%d0, H0⟩, ⟨%d1, H1⟩, ⟨%d2, H2⟩⟩
      iapply ((bodyRun0_A c (grid0.coords t) _ _ _ _ _ _ _ _ (isFirst0 t h0) (notLast0 t h2) (iblk0 V c 0 t) (iblk0 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA0 c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_A c (grid0.coords t) _ _ _ _ _ _ _ _ (isFirst0 t h0) (notLast0 t h2) (iblk0 V c 0 t) (iblk0 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA0 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h2 : t.val % 10 = 9
    · rw [show (dat0 V c).leavesExact 2 t = owns (c : Thread nD τ) (ms0_2 t) fullShare ((dat0 V c).after 2 t) from by
          unfold Dat.leavesExact; rw [live0_2 t (isLast0 t h2)], after0_2]
      rw [accAt0_C V c t h0 h2, outAt0_C V c t h0 h2]
      unfold accC0 outC0; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_C c (grid0.coords t) _ _ _ _ _ _ _ _ (notFirst0 t h0) (isLast0 t h2) (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverC0 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC0 c _ _ _ _ _ _ _ _ _ _ _ _ _ _)
    · rw [Dat.leavesExact_idle (dat0 V c) 2 t (idle0_2 t (notLast0 t h2)) (noFlush0_2 t (notLast0 t h2))]
      rw [accAt0_B V c t h0 h2]
      unfold accB0; (try dsimp only)
      rw [PhiS0_castSucc V c t, PhiS0_pos V c _ _ hz]
      iintro ⟨⟨⟨HS, Hrest⟩, Hg⟩, Ho, ⟨%d0, H0⟩, ⟨%d1, H1⟩, ⟨%d2, H2⟩⟩
      iapply ((bodyRun0_B c (grid0.coords t) _ _ _ _ _ _ _ _ (notFirst0 t h0) (notLast0 t h2) (iblk0 V c 0 t) (iblk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverB0 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- and after the last point the invariant gives the plain one back: the accumulator's value is forgotten. -/
theorem hout0 (c : Dev nD) : (dat0 V c).Φ (Fin.last cfg0.N) ⊢ Pipeline.ΦA spec0 c := by
  have hN : cfg0.N = 160 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hrest⟩, Hg⟩
  isplitl [HS Hrest]
  · isplitl [HS]
    · iexists _; iexact HS
    iexact Hrest
  iexact Hg

end Cert.KernelIdeal.Hand

end
-- ==== Proof.KIRun1.lean ====
/-
  Pipeline 1 runs the streaming kernel on a grid of 16 × 5 points: for each block of 256 query rows the table is
  streamed in 5 tiles of 5000 rows.  The body keeps a column of running sums in a scratch buffer that lives across the
  points: at a block's first tile it clears the column, at every tile it adds the row sums of exp (scale · q · tᵀ) for
  the tile, and at the block's last tile it copies the column into the output block; at the other tiles the output
  block is not touched.  Which tile a point is, first / middle / last, is decided over the grid in closed form.  For
  each of the three cases the body's run is found by the symbolic executor from whole staging buffers, and what its
  stores leave in the accumulator (and, at a last tile, in the output block) is recorded as the list of pieces written.
-/
import proofs.«110517_j15659450761722_1_alg».proof.Proof.Gen.KernelIdeal.Launch
import proofs.«110517_j15659450761722_1_alg».proof.Proof.Gen.KernelIdeal.Skeleton
import proofs.«110517_j15659450761722_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- "This is the block's first table tile": the body's first conditional, from the grid coordinates. -/
abbrev first1 (i : grid1.Coords) : Prop :=
  (Scalar.cmpi .ne (Scalar.extui (Scalar.cmpi .eq (BitVec.ofNat 32 (i 1).val) 0#32)) 0#32) = 1#1
/-- It holds at the points ≡ 0 (mod 5). -/
theorem first1_iff : ∀ t : Fin cfg1.N, first1 (grid1.coords t) ↔ t.val % 5 = 0 :=
  (by decide +kernel : ∀ t : Fin grid1.N, first1 (grid1.coords t) ↔ t.val % 5 = 0)

/-- "This is the block's last table tile": the body's second conditional. -/
abbrev last1 (i : grid1.Coords) : Prop := k1_cond2 i = 1#1
/-- It holds at the points ≡ 4 (mod 5). -/
theorem last1_iff : ∀ t : Fin cfg1.N, last1 (grid1.coords t) ↔ t.val % 5 = 4 :=
  (by decide +kernel : ∀ t : Fin grid1.N, last1 (grid1.coords t) ↔ t.val % 5 = 4)

set_option maxHeartbeats 4000000 in
/-- A FIRST tile: the inputs at `x0`, `x1`; the output block at `xo`, not touched; the accumulator at anything (it is
    cleared before it is read).  The accumulator ends overwritten by the recorded pieces. -/
noncomputable def bodyRun1_A (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : first1 i) (hlast : ¬last1 i) (x0 : Vec F S256x64 .f32) (x1 : Vec F S5000x64 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ (∃ d, owns (c : Thread nD τ) arg5 fullShare d)
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨[], ?_, fun xo E K => ?run⟩
  case run =>
    simp only [cc1__dotexpsum_kernel_eq_skeleton]; unfold cc1__dotexpsum_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A MIDDLE tile: as a first tile, but the accumulator is read before it is written, so it comes at named contents `xs`. -/
noncomputable def bodyRun1_B (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first1 i) (hlast : ¬last1 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (xo : Vec F S256x1 .f32) (E : Set ℕ) (K : PUnit → sProp 𝕄),
        iprop(owns (c : Thread nD τ) arg2 fullShare x0 ∗ owns (c : Thread nD τ) arg3 fullShare x1
            ∗ owns (c : Thread nD τ) arg4 fullShare xo ∗ owns (c : Thread nD τ) arg5 fullShare xs
            ∗ (iprop(owns (c : Thread nD τ) arg2 fullShare x0 ∗ owns (c : Thread nD τ) arg3 fullShare x1
                ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨[], ?_, fun xo E K => ?run⟩
  case run =>
    simp only [cc1__dotexpsum_kernel_eq_skeleton]; unfold cc1__dotexpsum_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A LAST tile: the accumulator at named contents `xs`; the output block at anything, and overwritten by its recorded
    pieces. -/
noncomputable def bodyRun1_C (c : Dev nD) (i : grid1.Coords)
    (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole)
    (hfirst : ¬first1 i) (hlast : last1 i) (x0 : Vec F S256x64 .f32) (x1 : Vec F S5000x64 .f32) (xs : Vec F S256x1 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__dotexpsum_kernel i arg2 harg2 arg3 harg3 arg4 harg4 arg5 harg5) K } := by
  refine ⟨?_, ?_, fun E K => ?run⟩
  case run =>
    simp only [cc1__dotexpsum_kernel_eq_skeleton]; unfold cc1__dotexpsum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KIRegion1.lean ====
/-
  Pipeline 1 at the buffer contents `V` its region is entered with.  The accumulator column is carried from point to
  point: after point n it holds the value defined by recursion on n — at a block's first tile the body's result from
  the point's two input blocks alone, at a later tile its result from those blocks and what the point before left.
  The output block is written at a block's last tile only, with the accumulator's value; at the other points the
  window is idle (its buffer is handed back untouched and not written back), so what the proof data say it holds there
  is a placeholder nothing reads.  The region's invariant is the plain one before the first point and, after point n,
  the same with the accumulator at its named value.
-/
import proofs.«110517_j15659450761722_1_alg».proof.Proof.KIRun1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether fetched there or kept from the
    point before (the block index has not moved then). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The inputs are never idle; the output window is idle, and not written back, exactly away from the last tiles. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-- Each window's current staging buffer at a point, as the pipeline passes it, and the accumulator. -/
abbrev ms1_0 (t : Fin cfg1.N) : Memref sig .tc .vmem S256x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1 .f32 := win1_2.stage (cfg1.slots t 2)
abbrev hs1_2 (t : Fin cfg1.N) : (ms1_2 t).IsWhole := hstage1_2 ((cfg1.slots t 2).cast nbuf1_2)
abbrev scM1 : Memref sig .tc .vmem S256x1 .f32 := Memref.whole cc1_scratch0
/-- The views through which the output block's and the accumulator's contents are stated. -/
abbrev VO1 : View sig .tc .vmem S256x1 .f32 := (Memref.whole cc1_stg2_0 : Memref sig .tc .vmem S256x1 .f32).view
abbrev VS1 : View sig .tc .vmem S256x1 .f32 := scM1.view

/-- The core's scoped buffers outside this pipeline's staging, with the accumulator taken out and named. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc1_scratch0), ((c : Thread nD τ).loc cc1_scratch0) ↦{fullShare} f)
          ∗ Pipeline.scopedRestBut (Ix := Ix) (Name := Name) (U := U) (Lvl := Lvl) (Val := Val) spec1 c [cc1_scratch0]) :=
  Pipeline.scopedRest_split_of_list spec1 c [cc1_scratch0] (by decide) (by decide)

/-- The plain invariant with the accumulator as a whole buffer owned at some contents. -/
theorem PhiA1_eq (c : Dev nD) :
    (Pipeline.ΦA spec1 c : sProp 𝕄)
      = iprop(iprop((∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves -/

/-- A first tile's accumulator: its pieces read back; they tile the column, so they cover it. -/
def accA1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first1 i) (hlast : ¬last1 i) (x0 : Vec F S256x64 .f32) (x1 : Vec F S5000x64 .f32) : Vec F S256x1 .f32 :=
  VS1.read (Elt F) (VS1.writes (Elt F) VS1.junk (bodyRun1_A c i arg2 harg2 arg3 harg3 arg4 harg4 arg5 harg5 hfirst hlast x0 x1).2.1)
theorem accCoverA1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first1 i) (hlast : ¬last1 i) (x0 : Vec F S256x64 .f32) (x1 : Vec F S5000x64 .f32) (y : S256x1.Idx) :
    ∃ pc ∈ (bodyRun1_A c i arg2 harg2 arg3 harg3 arg4 harg4 arg5 harg5 hfirst hlast x0 x1).2.1, y ∈ pc.1.set :=
  View.cover_of_tiledL (bodyRun1_A c i arg2 harg2 arg3 harg3 arg4 harg4 arg5 harg5 hfirst hlast x0 x1).2.1 S256x1.size (by sl_kernel_rfl) y

/-- A middle tile's accumulator, over what the point before left (`xs`). -/
def accB1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : ¬last1 i) (x0 : Vec F S256x64 .f32) (x1 : Vec F S5000x64 .f32) (xs : Vec F S256x1 .f32) : Vec F S256x1 .f32 :=
  VS1.read (Elt F) (VS1.writes (Elt F) VS1.junk (bodyRun1_B c i arg2 harg2 arg3 harg3 arg4 harg4 arg5 harg5 hfirst hlast x0 x1 xs).2.1)
theorem accCoverB1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : ¬last1 i) (x0 : Vec F S256x64 .f32) (x1 : Vec F S5000x64 .f32) (xs : Vec F S256x1 .f32) (y : S256x1.Idx) :
    ∃ pc ∈ (bodyRun1_B c i arg2 harg2 arg3 harg3 arg4 harg4 arg5 harg5 hfirst hlast x0 x1 xs).2.1, y ∈ pc.1.set :=
  View.cover_of_tiledL (bodyRun1_B c i arg2 harg2 arg3 harg3 arg4 harg4 arg5 harg5 hfirst hlast x0 x1 xs).2.1 S256x1.size (by sl_kernel_rfl) y

/-- A last tile's accumulator and output block. -/
def accC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) : Vec F S256x1 .f32 :=
  VS1.read (Elt F) (VS1.writes (Elt F) VS1.junk (bodyRun1_C c i arg2 harg2 arg3 harg3 arg4 harg4 arg5 harg5 hfirst hlast x0 x1 xs).2.1)
theorem accCoverC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) (y : S256x1.Idx) :
    ∃ pc ∈ (bodyRun1_C c i arg2 harg2 arg3 harg3 arg4 harg4 arg5 harg5 hfirst hlast x0 x1 xs).2.1, y ∈ pc.1.set :=
  View.cover_of_tiledL (bodyRun1_C c i arg2 harg2 arg3 harg3 arg4 harg4 arg5 harg5 hfirst hlast x0 x1 xs).2.1 S256x1.size (by sl_kernel_rfl) y
def outC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) : Vec F S256x1 .f32 :=
  VO1.read (Elt F) (VO1.writes (Elt F) VO1.junk (bodyRun1_C c i arg2 harg2 arg3 harg3 arg4 harg4 arg5 harg5 hfirst hlast x0 x1 xs).1)
theorem outCoverC1 (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) (y : S256x1.Idx) :
    ∃ pc ∈ (bodyRun1_C c i arg2 harg2 arg3 harg3 arg4 harg4 arg5 harg5 hfirst hlast x0 x1 xs).1, y ∈ pc.1.set :=
  View.cover_of_tiledL (bodyRun1_C c i arg2 harg2 arg3 harg3 arg4 harg4 arg5 harg5 hfirst hlast x0 x1 xs).1 S256x1.size (by sl_kernel_rfl) y

/-! ## The accumulator point by point -/

/-- The case conditions from a point's position. -/
theorem isFirst1 (t : Fin cfg1.N) (h : t.val % 5 = 0) : first1 (grid1.coords t) := (first1_iff t).mpr h
theorem notFirst1 (t : Fin cfg1.N) (h : ¬t.val % 5 = 0) : ¬first1 (grid1.coords t) := fun hf => h ((first1_iff t).mp hf)
theorem isLast1 (t : Fin cfg1.N) (h : t.val % 5 = 4) : last1 (grid1.coords t) := (last1_iff t).mpr h
theorem notLast1 (t : Fin cfg1.N) (h : ¬t.val % 5 = 4) : ¬last1 (grid1.coords t) := fun hl => h ((last1_iff t).mp hl)

/-- THE ACCUMULATION: what the accumulator holds after the body at position `n`. -/
def accAt1 (c : Dev nD) : (n : ℕ) → n < cfg1.N → Vec F S256x1 .f32
  | 0, hn => accA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) (isFirst1 ⟨0, hn⟩ (Nat.zero_mod _)) (notLast1 ⟨0, hn⟩ (by show ¬ (0 : ℕ) % 5 = 4; decide)) (iblk1 V c 0 ⟨0, hn⟩) (iblk1 V c 1 ⟨0, hn⟩)
  | n + 1, hn =>
    if h0 : (n + 1) % 5 = 0 then
      accA1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (isFirst1 ⟨n + 1, hn⟩ h0) (notLast1 ⟨n + 1, hn⟩ (by show ¬ (n + 1) % 5 = 4; omega)) (iblk1 V c 0 ⟨n + 1, hn⟩) (iblk1 V c 1 ⟨n + 1, hn⟩)
    else if h2 : (n + 1) % 5 = 4 then
      accC1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (isLast1 ⟨n + 1, hn⟩ h2) (iblk1 V c 0 ⟨n + 1, hn⟩) (iblk1 V c 1 ⟨n + 1, hn⟩) (accAt1 c n (Nat.lt_of_succ_lt hn))
    else
      accB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (notFirst1 ⟨n + 1, hn⟩ h0) (notLast1 ⟨n + 1, hn⟩ h2) (iblk1 V c 0 ⟨n + 1, hn⟩) (iblk1 V c 1 ⟨n + 1, hn⟩) (accAt1 c n (Nat.lt_of_succ_lt hn))

theorem accAt1_A (c : Dev nD) (t : Fin cfg1.N) (h0 : t.val % 5 = 0) (h2 : ¬t.val % 5 = 4) :
    accAt1 V c t.val t.isLt = accA1 c (grid1.coords t) (ms1_0 t) (hs1_0 t) (ms1_1 t) (hs1_1 t) (ms1_2 t) (hs1_2 t) scM1 (Memref.isWhole_whole _) (isFirst1 t h0) (notLast1 t h2) (iblk1 V c 0 t) (iblk1 V c 1 t) := by
  obtain ⟨n, hn⟩ := t
  cases n with
  | zero => exact rfl
  | succ n => exact (dif_pos h0).trans rfl

theorem accAt1_B (c : Dev nD) (t : Fin cfg1.N) (h0 : ¬t.val % 5 = 0) (h2 : ¬t.val % 5 = 4) :
    accAt1 V c t.val t.isLt = accB1 c (grid1.coords t) (ms1_0 t) (hs1_0 t) (ms1_1 t) (hs1_1 t) (ms1_2 t) (hs1_2 t) scM1 (Memref.isWhole_whole _) (notFirst1 t h0) (notLast1 t h2) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h2).trans rfl)

theorem accAt1_C (c : Dev nD) (t : Fin cfg1.N) (h0 : ¬t.val % 5 = 0) (h2 : t.val % 5 = 4) :
    accAt1 V c t.val t.isLt = accC1 c (grid1.coords t) (ms1_0 t) (hs1_0 t) (ms1_1 t) (hs1_1 t) (ms1_2 t) (hs1_2 t) scM1 (Memref.isWhole_whole _) (notFirst1 t h0) (isLast1 t h2) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h2).trans rfl)

/-- What the proof data say the output block holds after point `t`: at a last tile what the body stored there; elsewhere
    a placeholder (the window is idle there). -/
def outAt1 (c : Dev nD) (t : Fin cfg1.N) : Vec F S256x1 .f32 :=
  if h2 : t.val % 5 = 4 then
    outC1 c (grid1.coords t) (ms1_0 t) (hs1_0 t) (ms1_1 t) (hs1_1 t) (ms1_2 t) (hs1_2 t) scM1 (Memref.isWhole_whole _) (notFirst1 t (by omega)) (isLast1 t h2) (iblk1 V c 0 t) (iblk1 V c 1 t)
      (accAt1 V c (t.val - 1) (Nat.lt_of_le_of_lt (Nat.sub_le _ _) t.isLt))
  else VO1.read (Elt F) VO1.junk

theorem outAt1_C (c : Dev nD) (t : Fin cfg1.N) (h0 : ¬t.val % 5 = 0) (h2 : t.val % 5 = 4) :
    outAt1 V c t = outC1 c (grid1.coords t) (ms1_0 t) (hs1_0 t) (ms1_1 t) (hs1_1 t) (ms1_2 t) (hs1_2 t) scM1 (Memref.isWhole_whole _) (notFirst1 t h0) (isLast1 t h2) (iblk1 V c 0 t) (iblk1 V c 1 t)
      (accAt1 V c (t.val - 1) (Nat.lt_of_le_of_lt (Nat.sub_le _ _) t.isLt)) := by
  unfold outAt1; exact dif_pos h2

/-! ## The invariant and the proof data -/

/-- The region invariant before position `n`: the plain one before the first point; afterwards the same with the
    accumulator at what the point before left. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point, by the point's case: the inputs' buffers hold their blocks; the invariant lends the
    accumulator (at anything before the first point, at the point before's value afterwards) and takes it back at this
    point's value; the output block is handed back untouched away from a last tile and stored whole at one. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [live1_0 t], after1_0]
  rw [show (dat1 V c).leavesExact 1 t = owns (c : Thread nD τ) (ms1_1 t) fullShare ((dat1 V c).after 1 t) from by
      unfold Dat.leavesExact; rw [live1_1 t], after1_1]
  by_cases h0 : t.val % 5 = 0
  · have h2 : ¬t.val % 5 = 4 := by omega
    rw [Dat.leavesExact_idle (dat1 V c) 2 t (idle1_2 t (notLast1 t h2)) (noFlush1_2 t (notLast1 t h2))]
    rw [accAt1_A V c t h0 h2]
    unfold accA1; (try dsimp only)
    by_cases hz : t.val = 0
    · rw [PhiS1_castSucc V c t, PhiS1_zero V c _ _ hz, PhiA1_eq]
      iintro ⟨⟨⟨HS, Hrest⟩, Hg⟩, Ho, ⟨%d0, H0⟩, ⟨%d1, H1⟩, ⟨%d2, H2⟩⟩
      iapply ((bodyRun1_A c (grid1.coords t) _ _ _ _ _ _ _ _ (isFirst1 t h0) (notLast1 t h2) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA1 c _ _ _ _ _ _ _ _ _ _ _ _ _)
          iexact Hrest
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_A c (grid1.coords t) _ _ _ _ _ _ _ _ (isFirst1 t h0) (notLast1 t h2) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverA1 c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun h => h0 (by rw [h])
    by_cases h2 : t.val % 5 = 4
    · rw [show (dat1 V c).leavesExact 2 t = owns (c : Thread nD τ) (ms1_2 t) fullShare ((dat1 V c).after 2 t) from by
          unfold Dat.leavesExact; rw [live1_2 t (isLast1 t h2)], after1_2]
      rw [accAt1_C V c t h0 h2, outAt1_C V c t h0 h2]
      unfold accC1 outC1; (try dsimp only)
      rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_C c (grid1.coords t) _ _ _ _ _ _ _ _ (notFirst1 t h0) (isLast1 t h2) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (accCoverC1 c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (outCoverC1 c _ _ _ _ _ _ _ _ _ _ _ _ _ _)
    · rw [Dat.leavesExact_idle (dat1 V c) 2 t (idle1_2 t (notLast1 t h2)) (noFlush1_2 t (notLast1 t h2))]
      rw [accAt1_B V c t h0 h2]
      unfold accB1; (try dsimp only)
      rw [PhiS1_castSucc V c t, PhiS1_pos V c _ _ hz]
      iintro ⟨⟨⟨HS, Hrest⟩, Hg⟩, Ho, ⟨%d0, H0⟩, ⟨%d1, H1⟩, ⟨%d2, H2⟩⟩
      iapply ((bodyRun1_B c (grid1.coords t) _ _ _ _ _ _ _ _ (notFirst1 t h0) (notLast1 t h2) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (accCoverB1 c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last point the invariant gives the plain one back: the accumulator's value is forgotten. -/
theorem hout1 (c : Dev nD) : (dat1 V c).Φ (Fin.last cfg1.N) ⊢ Pipeline.ΦA spec1 c := by
  have hN : cfg1.N = 80 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, Hrest⟩, Hg⟩
  isplitl [HS Hrest]
  · isplitl [HS]
    · iexists _; iexact HS
    iexact Hrest
  iexact Hg

end Cert.KernelIdeal.Hand

end
-- ==== Proof.KIRun2.lean ====
/-
  Pipeline 2 runs the streaming kernel on a grid of 16 × 1 points: the table is a single tile, so at every point the
  body first clears its accumulator column, then adds to it the row sums of exp (scale · q · tᵀ) for the point's
  256 query rows against the whole 1000-row table, and then copies the accumulator into the output block.
  Both of the body's conditionals (first tile? last tile?) hold at every point of this grid, which is decided over the
  grid once.  The body's run is found by the symbolic executor from whole staging buffers: the two inputs at given
  contents, the output block and the accumulator at anything; what the stores leave in the output block and in the
  accumulator is recorded as the list of pieces written.
-/
import proofs.«110517_j15659450761722_1_alg».proof.Proof.Gen.KernelIdeal.Launch
import proofs.«110517_j15659450761722_1_alg».proof.Proof.Gen.KernelIdeal.Skeleton
import proofs.«110517_j15659450761722_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- "This is the first table tile": the body's first conditional, from the grid coordinates. -/
abbrev first2 (i : grid2.Coords) : Prop :=
  (Scalar.cmpi .ne (Scalar.extui (Scalar.cmpi .eq (BitVec.ofNat 32 (i 1).val) 0#32)) 0#32) = 1#1
/-- It holds at every point: the second grid axis has one position. -/
theorem first2_all : ∀ t : Fin cfg2.N, first2 (grid2.coords t) :=
  (by decide +kernel : ∀ t : Fin grid2.N, first2 (grid2.coords t))

/-- "This is the last table tile": the body's second conditional. -/
abbrev last2 (i : grid2.Coords) : Prop := k2_cond2 i = 1#1
/-- It too holds at every point. -/
theorem last2_all : ∀ t : Fin cfg2.N, last2 (grid2.coords t) :=
  (by decide +kernel : ∀ t : Fin grid2.N, last2 (grid2.coords t))

set_option maxHeartbeats 4000000 in
/-- The body at a point where both conditionals hold, on whole staging buffers: the query block at `x0`, the table tile
    at `x1`, the output block and the accumulator at anything.  It runs to the end, leaves the inputs as they were, and
    leaves the output block and the accumulator each overwritten by the recorded pieces. -/
noncomputable def bodyRun2 (c : Dev nD) (i : grid2.Coords)
    (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__dotexpsum_kernel i arg2 harg2 arg3 harg3 arg4 harg4 arg5 harg5) K } := by
  refine ⟨?_, ?_, fun E K => ?run⟩
  case run =>
    simp only [cc2__dotexpsum_kernel_eq_skeleton]; unfold cc2__dotexpsum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KIRegion2.lean ====
/-
  Pipeline 2 at the buffer contents `V` its region is entered with.  A window's block at a point is read off its
  array in `V`.  After the body at a point the two input blocks are in place and the output block holds what the body's
  stores leave there — a function of the point's two input blocks only, because the accumulator is cleared before it is
  read.  So nothing is carried from one point to the next: the region's invariant is the plain one (the core's other
  scoped buffers, the accumulator among them, at some contents, and the generator register at some state).
-/
import proofs.«110517_j15659450761722_1_alg».proof.Proof.KIRun2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether fetched there or kept from the
    point before (the block index has not moved then). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- No window is idle at any point of this grid. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-- Each window's current staging buffer at a point, as the pipeline passes it, and the accumulator. -/
abbrev ms2_0 (t : Fin cfg2.N) : Memref sig .tc .vmem S256x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev scM2 : Memref sig .tc .vmem S256x1 .f32 := Memref.whole cc2_scratch0
/-- One staging buffer of the output window, through which the block's contents are stated. -/
abbrev VO2 : View sig .tc .vmem S256x1 .f32 := (Memref.whole cc2_stg2_0 : Memref sig .tc .vmem S256x1 .f32).view

/-- The core's scoped buffers outside this pipeline's staging, with the accumulator taken out and named. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop((∃ f : Buf Val ((c : Thread nD τ).loc cc2_scratch0), ((c : Thread nD τ).loc cc2_scratch0) ↦{fullShare} f)
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The plain invariant with the accumulator as a whole buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- What the body leaves in the output block: its stores' pieces read back. -/
def out2 (c : Dev nD) (i : grid2.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) : Vec F S256x1 .f32 :=
  VO2.read (Elt F) (VO2.writes (Elt F) VO2.junk (bodyRun2 c i arg2 harg2 arg3 harg3 arg4 harg4 arg5 harg5 hfirst hlast x0 x1).1)

/-- Those pieces tile the block (one store of the whole block), so they cover it. -/
theorem cover2 (c : Dev nD) (i : grid2.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) (y : S256x1.Idx) :
    ∃ pc ∈ (bodyRun2 c i arg2 harg2 arg3 harg3 arg4 harg4 arg5 harg5 hfirst hlast x0 x1).1, y ∈ pc.1.set :=
  View.cover_of_tiledL (bodyRun2 c i arg2 harg2 arg3 harg3 arg4 harg4 arg5 harg5 hfirst hlast x0 x1).1 S256x1.size (by sl_kernel_rfl) y

/-- The output block after the body at point `t`, from that point's input blocks. -/
def outAt2 (c : Dev nD) (t : Fin cfg2.N) : Vec F S256x1 .f32 :=
  out2 c (grid2.coords t) (ms2_0 t) (hs2_0 t) (ms2_1 t) (hs2_1 t) (ms2_2 t) (hs2_2 t) scM2 (Memref.isWhole_whole _)
    (first2_all t) (last2_all t) (iblk2 V c 0 t) (iblk2 V c 1 t)

/-- The pipeline's proof data on core `c`: the arrays as the region finds them; after the body each input's buffer at
    its block and the output's at `outAt2`; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks, the invariant lends the accumulator at whatever it
    holds, the run applies, and the accumulator goes back into the invariant at whatever the body left in it. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl]
  rw [show (dat2 V c).leavesExact 0 t = owns (c : Thread nD τ) (ms2_0 t) fullShare ((dat2 V c).after 0 t) from by
      unfold Dat.leavesExact; rw [live2_0 t], after2_0]
  rw [show (dat2 V c).leavesExact 1 t = owns (c : Thread nD τ) (ms2_1 t) fullShare ((dat2 V c).after 1 t) from by
      unfold Dat.leavesExact; rw [live2_1 t], after2_1]
  rw [show (dat2 V c).leavesExact 2 t = owns (c : Thread nD τ) (ms2_2 t) fullShare ((dat2 V c).after 2 t) from by
      unfold Dat.leavesExact; rw [live2_2 t], after2_2]
  rw [show (dat2 V c).Φ t.castSucc = Pipeline.ΦA spec2 c from rfl, PhiA2_eq]
  unfold outAt2 out2
  iintro ⟨⟨⟨HS, Hrest⟩, Hg⟩, Ho, ⟨%d0, H0⟩, ⟨%d1, H1⟩, ⟨%d2, H2⟩⟩
  iapply ((bodyRun2 c (grid2.coords t) _ _ _ _ _ _ _ _ (first2_all t) (last2_all t) (iblk2 V c 0 t) (iblk2 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hrest Hg]
  · isplitl [HS Hrest]
    · isplitl [HS]
      · unfold owns; iexists _; iexists _; isplitr
        swap; · iexact HS
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover2 c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun3.lean ====
/-
  Pipeline 3 runs the streaming kernel on a grid of 16 × 1 points: the table is a single tile, so at every point the
  body first clears its accumulator column, then adds to it the row sums of exp (scale · q · tᵀ) for the point's
  256 query rows against the whole 1000-row table, and then copies the accumulator into the output block.
  Both of the body's conditionals (first tile? last tile?) hold at every point of this grid, which is decided over the
  grid once.  The body's run is found by the symbolic executor from whole staging buffers: the two inputs at given
  contents, the output block and the accumulator at anything; what the stores leave in the output block and in the
  accumulator is recorded as the list of pieces written.
-/
import proofs.«110517_j15659450761722_1_alg».proof.Proof.Gen.KernelIdeal.Launch
import proofs.«110517_j15659450761722_1_alg».proof.Proof.Gen.KernelIdeal.Skeleton
import proofs.«110517_j15659450761722_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

/-- "This is the first table tile": the body's first conditional, from the grid coordinates. -/
abbrev first3 (i : grid3.Coords) : Prop :=
  (Scalar.cmpi .ne (Scalar.extui (Scalar.cmpi .eq (BitVec.ofNat 32 (i 1).val) 0#32)) 0#32) = 1#1
/-- It holds at every point: the second grid axis has one position. -/
theorem first3_all : ∀ t : Fin cfg3.N, first3 (grid3.coords t) :=
  (by decide +kernel : ∀ t : Fin grid3.N, first3 (grid3.coords t))

/-- "This is the last table tile": the body's second conditional. -/
abbrev last3 (i : grid3.Coords) : Prop := k3_cond2 i = 1#1
/-- It too holds at every point. -/
theorem last3_all : ∀ t : Fin cfg3.N, last3 (grid3.coords t) :=
  (by decide +kernel : ∀ t : Fin grid3.N, last3 (grid3.coords t))

set_option maxHeartbeats 4000000 in
/-- The body at a point where both conditionals hold, on whole staging buffers: the query block at `x0`, the table tile
    at `x1`, the output block and the accumulator at anything.  It runs to the end, leaves the inputs as they were, and
    leaves the output block and the accumulator each overwritten by the recorded pieces. -/
noncomputable def bodyRun3 (c : Dev nD) (i : grid3.Coords)
    (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) :
    Σ' (LO : List (View.Piece (Elt F) S256x1 .f32)), { LS : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc3__dotexpsum_kernel i arg2 harg2 arg3 harg3 arg4 harg4 arg5 harg5) K } := by
  refine ⟨?_, ?_, fun E K => ?run⟩
  case run =>
    simp only [cc3__dotexpsum_kernel_eq_skeleton]; unfold cc3__dotexpsum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hfirst | exact hlast)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Hand

end
-- ==== Proof.KIRegion3.lean ====
/-
  Pipeline 3 at the buffer contents `V` its region is entered with.  A window's block at a point is read off its
  array in `V`.  After the body at a point the two input blocks are in place and the output block holds what the body's
  stores leave there — a function of the point's two input blocks only, because the accumulator is cleared before it is
  read.  So nothing is carried from one point to the next: the region's invariant is the plain one (the core's other
  scoped buffers, the accumulator among them, at some contents, and the generator register at some state).
-/
import proofs.«110517_j15659450761722_1_alg».proof.Proof.KIRun3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether fetched there or kept from the
    point before (the block index has not moved then). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- No window is idle at any point of this grid. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel

/-- Each window's current staging buffer at a point, as the pipeline passes it, and the accumulator. -/
abbrev ms3_0 (t : Fin cfg3.N) : Memref sig .tc .vmem S256x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1000x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev scM3 : Memref sig .tc .vmem S256x1 .f32 := Memref.whole cc3_scratch0
/-- One staging buffer of the output window, through which the block's contents are stated. -/
abbrev VO3 : View sig .tc .vmem S256x1 .f32 := (Memref.whole cc3_stg2_0 : Memref sig .tc .vmem S256x1 .f32).view

/-- The core's scoped buffers outside this pipeline's staging, with the accumulator taken out and named. -/
theorem scopedRest3_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec3 c : sProp (MT nD τ sig Ix Val Name U Lvl))
      = iprop((∃ f : Buf Val ((c : Thread nD τ).loc cc3_scratch0), ((c : Thread nD τ).loc cc3_scratch0) ↦{fullShare} f)
          ∗ Pipeline.scopedRestBut (Ix := Ix) (Name := Name) (U := U) (Lvl := Lvl) (Val := Val) spec3 c [cc3_scratch0]) :=
  Pipeline.scopedRest_split_of_list spec3 c [cc3_scratch0] (by decide) (by decide)

/-- The plain invariant with the accumulator as a whole buffer owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- What the body leaves in the output block: its stores' pieces read back. -/
def out3 (c : Dev nD) (i : grid3.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) : Vec F S256x1 .f32 :=
  VO3.read (Elt F) (VO3.writes (Elt F) VO3.junk (bodyRun3 c i arg2 harg2 arg3 harg3 arg4 harg4 arg5 harg5 hfirst hlast x0 x1).1)

/-- Those pieces tile the block (one store of the whole block), so they cover it. -/
theorem cover3 (c : Dev nD) (i : grid3.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) (y : S256x1.Idx) :
    ∃ pc ∈ (bodyRun3 c i arg2 harg2 arg3 harg3 arg4 harg4 arg5 harg5 hfirst hlast x0 x1).1, y ∈ pc.1.set :=
  View.cover_of_tiledL (bodyRun3 c i arg2 harg2 arg3 harg3 arg4 harg4 arg5 harg5 hfirst hlast x0 x1).1 S256x1.size (by sl_kernel_rfl) y

/-- The output block after the body at point `t`, from that point's input blocks. -/
def outAt3 (c : Dev nD) (t : Fin cfg3.N) : Vec F S256x1 .f32 :=
  out3 c (grid3.coords t) (ms3_0 t) (hs3_0 t) (ms3_1 t) (hs3_1 t) (ms3_2 t) (hs3_2 t) scM3 (Memref.isWhole_whole _)
    (first3_all t) (last3_all t) (iblk3 V c 0 t) (iblk3 V c 1 t)

/-- The pipeline's proof data on core `c`: the arrays as the region finds them; after the body each input's buffer at
    its block and the output's at `outAt3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' buffers hold their blocks, the invariant lends the accumulator at whatever it
    holds, the run applies, and the accumulator goes back into the invariant at whatever the body left in it. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl]
  rw [show (dat3 V c).leavesExact 0 t = owns (c : Thread nD τ) (ms3_0 t) fullShare ((dat3 V c).after 0 t) from by
      unfold Dat.leavesExact; rw [live3_0 t], after3_0]
  rw [show (dat3 V c).leavesExact 1 t = owns (c : Thread nD τ) (ms3_1 t) fullShare ((dat3 V c).after 1 t) from by
      unfold Dat.leavesExact; rw [live3_1 t], after3_1]
  rw [show (dat3 V c).leavesExact 2 t = owns (c : Thread nD τ) (ms3_2 t) fullShare ((dat3 V c).after 2 t) from by
      unfold Dat.leavesExact; rw [live3_2 t], after3_2]
  rw [show (dat3 V c).Φ t.castSucc = Pipeline.ΦA spec3 c from rfl, PhiA3_eq]
  unfold outAt3 out3
  iintro ⟨⟨⟨HS, Hrest⟩, Hg⟩, Ho, ⟨%d0, H0⟩, ⟨%d1, H1⟩, ⟨%d2, H2⟩⟩
  iapply ((bodyRun3 c (grid3.coords t) _ _ _ _ _ _ _ _ (first3_all t) (last3_all t) (iblk3 V c 0 t) (iblk3 V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hrest Hg]
  · isplitl [HS Hrest]
    · isplitl [HS]
      · unfold owns; iexists _; iexists _; isplitr
        swap; · iexact HS
        ipureintro; rfl
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (cover3 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIFrame.lean ====
/-
  The whole program's run.  @main is twenty-nine items in a row: twenty-five stretches of host operations and the four
  pipelines.  The TensorCore's buffer contents at each boundary are a fold from the launch memory: after a stretch, the
  stretch's operations applied; after a pipeline, its three arrays at what its write-backs leave and every other buffer
  as it was.  No stretch writes an argument buffer and no pipeline's array is one, so each argument reads back through
  the whole fold to its launch contents.  Every stretch and every pipeline is a segment over one thread state (every
  unscoped buffer at the boundary's contents, the generator register at some state, nothing owed), and the library's
  launch theorem over the segments gives: every weakly fair execution terminates, nothing faults, and every unscoped
  buffer ends at the last boundary's contents.
-/
import proofs.«110517_j15659450761722_1_alg».proof.Proof.KIRegion0
import proofs.«110517_j15659450761722_1_alg».proof.Proof.KIRegion1
import proofs.«110517_j15659450761722_1_alg».proof.Proof.KIRegion2
import proofs.«110517_j15659450761722_1_alg».proof.Proof.KIRegion3
import proofs.«110517_j15659450761722_1_alg».proof.Proof.LibWritesInOrder
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After `hostOps0`. -/
abbrev W1 : Dev nD → Valuation τ sig (Elt F) := fun c => StableHlo.after hostOps0 (W0 m ρ c)
/-- After `hostOps0_1`. -/
abbrev W2 : Dev nD → Valuation τ sig (Elt F) := fun c => StableHlo.after hostOps0_1 (W1 m ρ c)
/-- After `hostOps0_2`. -/
abbrev W3 : Dev nD → Valuation τ sig (Elt F) := fun c => StableHlo.after hostOps0_2 (W2 m ρ c)
/-- After `hostOps0_3`. -/
abbrev W4 : Dev nD → Valuation τ sig (Elt F) := fun c => StableHlo.after hostOps0_3 (W3 m ρ c)
/-- After `hostOps0_4`. -/
abbrev W5 : Dev nD → Valuation τ sig (Elt F) := fun c => StableHlo.after hostOps0_4 (W4 m ρ c)
/-- After `hostOps0_5`. -/
abbrev W6 : Dev nD → Valuation τ sig (Elt F) := fun c => StableHlo.after hostOps0_5 (W5 m ρ c)
/-- After `hostOps0_6`. -/
abbrev W7 : Dev nD → Valuation τ sig (Elt F) := fun c => StableHlo.after hostOps0_6 (W6 m ρ c)
/-- Pipeline 0's entry contents at the TensorCore's references. -/
abbrev V7 : (c : Dev nD) → (b : Ref sig .tc) → Buf (Elt F) ((c : Thread nD τ).loc b) := fun c b => W7 m ρ c b
/-- At pipeline 0's exit: its arrays at what the write-backs leave, every other buffer as entered. -/
def W8 (c : Dev nD) : Valuation τ sig (Elt F) :=
  Pipeline.withArrays spec0 c (W7 m ρ c) fun w => (dat0 (V7 m ρ) c).arrAt w cfg0.N
theorem W8_arr (c : Dev nD) (w : Fin cfg0.W) :
    W8 m ρ c (Proc.devRef .tc (Pipeline.arrRef spec0 w)) = (dat0 (V7 m ρ) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m ρ c (Proc.devRef .tc b) = W7 m ρ c (Proc.devRef .tc b) := by
  unfold W8; exact Pipeline.withArrays_of_ne spec0 c _ _ b hb
abbrev V8 : (c : Dev nD) → (b : Ref sig .tc) → Buf (Elt F) ((c : Thread nD τ).loc b) := fun c b => W8 m ρ c b
theorem hF0 (c : Dev nD) (w : Fin cfg0.W) : (dat0 (V7 m ρ) c).arrAt w cfg0.N = V8 m ρ c (Pipeline.arrRef spec0 w) :=
  (W8_arr m ρ c w).symm
theorem hrest0 (c : Dev nD) : ∀ b, b ∉ Finset.univ.image (Pipeline.arrRef spec0) → V8 m ρ c b = V7 m ρ c b :=
  fun b hb => W8_of_ne m ρ c b fun w e => hb (Finset.mem_image.mpr ⟨w, Finset.mem_univ _, e⟩)
/-- After `hostOps1`. -/
abbrev W9 : Dev nD → Valuation τ sig (Elt F) := fun c => StableHlo.after hostOps1 (W8 m ρ c)
/-- After `hostOps1_1`. -/
abbrev W10 : Dev nD → Valuation τ sig (Elt F) := fun c => StableHlo.after hostOps1_1 (W9 m ρ c)
/-- After `hostOps1_2`. -/
abbrev W11 : Dev nD → Valuation τ sig (Elt F) := fun c => StableHlo.after hostOps1_2 (W10 m ρ c)
/-- After `hostOps1_3`. -/
abbrev W12 : Dev nD → Valuation τ sig (Elt F) := fun c => StableHlo.after hostOps1_3 (W11 m ρ c)
/-- After `hostOps1_4`. -/
abbrev W13 : Dev nD → Valuation τ sig (Elt F) := fun c => StableHlo.after hostOps1_4 (W12 m ρ c)
/-- After `hostOps1_5`. -/
abbrev W14 : Dev nD → Valuation τ sig (Elt F) := fun c => StableHlo.after hostOps1_5 (W13 m ρ c)
/-- After `hostOps1_6`. -/
abbrev W15 : Dev nD → Valuation τ sig (Elt F) := fun c => StableHlo.after hostOps1_6 (W14 m ρ c)
/-- Pipeline 1's entry contents at the TensorCore's references. -/
abbrev V15 : (c : Dev nD) → (b : Ref sig .tc) → Buf (Elt F) ((c : Thread nD τ).loc b) := fun c b => W15 m ρ c b
/-- At pipeline 1's exit: its arrays at what the write-backs leave, every other buffer as entered. -/
def W16 (c : Dev nD) : Valuation τ sig (Elt F) :=
  Pipeline.withArrays spec1 c (W15 m ρ c) fun w => (dat1 (V15 m ρ) c).arrAt w cfg1.N
theorem W16_arr (c : Dev nD) (w : Fin cfg1.W) :
    W16 m ρ c (Proc.devRef .tc (Pipeline.arrRef spec1 w)) = (dat1 (V15 m ρ) c).arrAt w cfg1.N := by
  unfold W16; exact Pipeline.withArrays_arr spec1 launch1.win.arr_inj c _ _ w
theorem W16_of_ne (c : Dev nD) (b : Ref sig .tc) (hb : ∀ w, Pipeline.arrRef spec1 w ≠ b) :
    W16 m ρ c (Proc.devRef .tc b) = W15 m ρ c (Proc.devRef .tc b) := by
  unfold W16; exact Pipeline.withArrays_of_ne spec1 c _ _ b hb
abbrev V16 : (c : Dev nD) → (b : Ref sig .tc) → Buf (Elt F) ((c : Thread nD τ).loc b) := fun c b => W16 m ρ c b
theorem hF1 (c : Dev nD) (w : Fin cfg1.W) : (dat1 (V15 m ρ) c).arrAt w cfg1.N = V16 m ρ c (Pipeline.arrRef spec1 w) :=
  (W16_arr m ρ c w).symm
theorem hrest1 (c : Dev nD) : ∀ b, b ∉ Finset.univ.image (Pipeline.arrRef spec1) → V16 m ρ c b = V15 m ρ c b :=
  fun b hb => W16_of_ne m ρ c b fun w e => hb (Finset.mem_image.mpr ⟨w, Finset.mem_univ _, e⟩)
/-- After `hostOps2`. -/
abbrev W17 : Dev nD → Valuation τ sig (Elt F) := fun c => StableHlo.after hostOps2 (W16 m ρ c)
/-- After `hostOps2_1`. -/
abbrev W18 : Dev nD → Valuation τ sig (Elt F) := fun c => StableHlo.after hostOps2_1 (W17 m ρ c)
/-- After `hostOps2_2`. -/
abbrev W19 : Dev nD → Valuation τ sig (Elt F) := fun c => StableHlo.after hostOps2_2 (W18 m ρ c)
/-- After `hostOps2_3`. -/
abbrev W20 : Dev nD → Valuation τ sig (Elt F) := fun c => StableHlo.after hostOps2_3 (W19 m ρ c)
/-- After `hostOps2_4`. -/
abbrev W21 : Dev nD → Valuation τ sig (Elt F) := fun c => StableHlo.after hostOps2_4 (W20 m ρ c)
/-- Pipeline 2's entry contents at the TensorCore's references. -/
abbrev V21 : (c : Dev nD) → (b : Ref sig .tc) → Buf (Elt F) ((c : Thread nD τ).loc b) := fun c b => W21 m ρ c b
/-- At pipeline 2's exit: its arrays at what the write-backs leave, every other buffer as entered. -/
def W22 (c : Dev nD) : Valuation τ sig (Elt F) :=
  Pipeline.withArrays spec2 c (W21 m ρ c) fun w => (dat2 (V21 m ρ) c).arrAt w cfg2.N
theorem W22_arr (c : Dev nD) (w : Fin cfg2.W) :
    W22 m ρ c (Proc.devRef .tc (Pipeline.arrRef spec2 w)) = (dat2 (V21 m ρ) c).arrAt w cfg2.N := by
  unfold W22; exact Pipeline.withArrays_arr spec2 launch2.win.arr_inj c _ _ w
theorem W22_of_ne (c : Dev nD) (b : Ref sig .tc) (hb : ∀ w, Pipeline.arrRef spec2 w ≠ b) :
    W22 m ρ c (Proc.devRef .tc b) = W21 m ρ c (Proc.devRef .tc b) := by
  unfold W22; exact Pipeline.withArrays_of_ne spec2 c _ _ b hb
abbrev V22 : (c : Dev nD) → (b : Ref sig .tc) → Buf (Elt F) ((c : Thread nD τ).loc b) := fun c b => W22 m ρ c b
theorem hF2 (c : Dev nD) (w : Fin cfg2.W) : (dat2 (V21 m ρ) c).arrAt w cfg2.N = V22 m ρ c (Pipeline.arrRef spec2 w) :=
  (W22_arr m ρ c w).symm
theorem hrest2 (c : Dev nD) : ∀ b, b ∉ Finset.univ.image (Pipeline.arrRef spec2) → V22 m ρ c b = V21 m ρ c b :=
  fun b hb => W22_of_ne m ρ c b fun w e => hb (Finset.mem_image.mpr ⟨w, Finset.mem_univ _, e⟩)
/-- After `hostOps3`. -/
abbrev W23 : Dev nD → Valuation τ sig (Elt F) := fun c => StableHlo.after hostOps3 (W22 m ρ c)
/-- After `hostOps3_1`. -/
abbrev W24 : Dev nD → Valuation τ sig (Elt F) := fun c => StableHlo.after hostOps3_1 (W23 m ρ c)
/-- After `hostOps3_2`. -/
abbrev W25 : Dev nD → Valuation τ sig (Elt F) := fun c => StableHlo.after hostOps3_2 (W24 m ρ c)
/-- After `hostOps3_3`. -/
abbrev W26 : Dev nD → Valuation τ sig (Elt F) := fun c => StableHlo.after hostOps3_3 (W25 m ρ c)
/-- After `hostOps3_4`. -/
abbrev W27 : Dev nD → Valuation τ sig (Elt F) := fun c => StableHlo.after hostOps3_4 (W26 m ρ c)
/-- Pipeline 3's entry contents at the TensorCore's references. -/
abbrev V27 : (c : Dev nD) → (b : Ref sig .tc) → Buf (Elt F) ((c : Thread nD τ).loc b) := fun c b => W27 m ρ c b
/-- At pipeline 3's exit: its arrays at what the write-backs leave, every other buffer as entered. -/
def W28 (c : Dev nD) : Valuation τ sig (Elt F) :=
  Pipeline.withArrays spec3 c (W27 m ρ c) fun w => (dat3 (V27 m ρ) c).arrAt w cfg3.N
theorem W28_arr (c : Dev nD) (w : Fin cfg3.W) :
    W28 m ρ c (Proc.devRef .tc (Pipeline.arrRef spec3 w)) = (dat3 (V27 m ρ) c).arrAt w cfg3.N := by
  unfold W28; exact Pipeline.withArrays_arr spec3 launch3.win.arr_inj c _ _ w
theorem W28_of_ne (c : Dev nD) (b : Ref sig .tc) (hb : ∀ w, Pipeline.arrRef spec3 w ≠ b) :
    W28 m ρ c (Proc.devRef .tc b) = W27 m ρ c (Proc.devRef .tc b) := by
  unfold W28; exact Pipeline.withArrays_of_ne spec3 c _ _ b hb
abbrev V28 : (c : Dev nD) → (b : Ref sig .tc) → Buf (Elt F) ((c : Thread nD τ).loc b) := fun c b => W28 m ρ c b
theorem hF3 (c : Dev nD) (w : Fin cfg3.W) : (dat3 (V27 m ρ) c).arrAt w cfg3.N = V28 m ρ c (Pipeline.arrRef spec3 w) :=
  (W28_arr m ρ c w).symm
theorem hrest3 (c : Dev nD) : ∀ b, b ∉ Finset.univ.image (Pipeline.arrRef spec3) → V28 m ρ c b = V27 m ρ c b :=
  fun b hb => W28_of_ne m ρ c b fun w e => hb (Finset.mem_image.mpr ⟨w, Finset.mem_univ _, e⟩)
/-- After `hostOps4`. -/
abbrev W29 : Dev nD → Valuation τ sig (Elt F) := fun c => StableHlo.after hostOps4 (W28 m ρ c)

/-! ## What each stretch writes, and that it leaves everything else alone -/

abbrev hostOps0_W : List (Ref sig .tc) :=
  [
    main_cst, main_v0, main_cst_0, main_v1, main_v2, main_v3, main_cst_1, main_v4, main_v5, main_v6, main_cst_2, main_v7,
    main_v8, main_v9, main_cst_3, main_v10, main_v11, main_v12, main_cst_4, main_v13, main_v14, main_v15, main_cst_5, main_v16,
    main_v17, main_v18, main_c, main_v19, main_v20, main_c_6, main_v21, main_v22, main_v23, main_v24, main_v25, main_c_7,
    main_v26, main_v27, main_c_8, main_v28, main_v29, main_v30, main_v31, main_v32, main_v33, main_v34, main_c_9, main_v35,
    main_v36, main_c_10, main_v37, main_v38, main_v39, main_v40, main_v41, main_v42, main_v43, main_c_11, main_v44, main_v45,
    main_c_12, main_v46, main_v47, main_v48, main_v49, main_v50, main_cst_13, main_v51, main_v52, main_v53, main_v54, main_v55,
    main_cst_14, main_v56, main_v57, main_v58, main_v59, main_v60, main_v61, main_v62, main_v63, main_v64, main_c_15, main_v65,
    main_v66, main_c_16, main_v67, main_v68, main_v69, main_v70, main_v71, main_v72, main_v73, main_c_17, main_v74, main_v75,
    main_c_18, main_v76, main_v77, main_v78, main_v79, main_v80, main_cst_19, main_v81, main_v82, main_v83, main_v84, main_v85,
    main_cst_20, main_v86, main_v87, main_v88, main_v89, main_v90, main_v91, main_v92, main_v93, main_v94, main_c_21, main_v95,
    main_v96, main_c_22, main_v97, main_v98, main_v99, main_v100, main_v101, main_v102, main_v103, main_c_23, main_v104, main_v105,
    main_c_24, main_v106, main_v107, main_v108, main_v109, main_v110, main_cst_25, main_v111, main_v112, main_v113, main_v114, main_v115,
    main_cst_26, main_v116, main_v117, main_v118, main_v119, main_v120, main_v121, main_v122 ]
set_option maxHeartbeats 4000000 in
theorem hostOps0_inOrder : Cert.Lib.WritesInOrder.InOrder (hostOps0 : List (HloOp τ sig (Elt F))) hostOps0_W := by
  repeat' constructor
theorem W1_of (c : Dev nD) (r : Ref sig .tc) (h : r ∉ hostOps0_W) :
    W1 m ρ c (Proc.devRef .tc r) = W0 m ρ c (Proc.devRef .tc r) :=
  Cert.Lib.WritesInOrder.after_of_not_listed hostOps0_inOrder _ h
theorem hostOps0_fresh : (hostOps0 : List (HloOp τ sig (Elt F))).Forall fun op => op.fresh = ∅ := by
  simp only [List.Forall]; repeat' constructor
abbrev hostOps0_1_W : List (Ref sig .tc) :=
  [
    main_call0_v0, main_call0_cst, main_call0_v1, main_call0_v2, main_v123 ]
set_option maxHeartbeats 4000000 in
theorem hostOps0_1_inOrder : Cert.Lib.WritesInOrder.InOrder (hostOps0_1 : List (HloOp τ sig (Elt F))) hostOps0_1_W := by
  repeat' constructor
theorem W2_of (c : Dev nD) (r : Ref sig .tc) (h : r ∉ hostOps0_1_W) :
    W2 m ρ c (Proc.devRef .tc r) = W1 m ρ c (Proc.devRef .tc r) :=
  Cert.Lib.WritesInOrder.after_of_not_listed hostOps0_1_inOrder _ h
theorem hostOps0_1_fresh : (hostOps0_1 : List (HloOp τ sig (Elt F))).Forall fun op => op.fresh = ∅ := by
  simp only [List.Forall]; repeat' constructor
abbrev hostOps0_2_W : List (Ref sig .tc) :=
  [
    main_cst_27, main_v124, main_v125, main_v126, main_v127 ]
set_option maxHeartbeats 4000000 in
theorem hostOps0_2_inOrder : Cert.Lib.WritesInOrder.InOrder (hostOps0_2 : List (HloOp τ sig (Elt F))) hostOps0_2_W := by
  repeat' constructor
theorem W3_of (c : Dev nD) (r : Ref sig .tc) (h : r ∉ hostOps0_2_W) :
    W3 m ρ c (Proc.devRef .tc r) = W2 m ρ c (Proc.devRef .tc r) :=
  Cert.Lib.WritesInOrder.after_of_not_listed hostOps0_2_inOrder _ h
theorem hostOps0_2_fresh : (hostOps0_2 : List (HloOp τ sig (Elt F))).Forall fun op => op.fresh = ∅ := by
  simp only [List.Forall]; repeat' constructor
abbrev hostOps0_3_W : List (Ref sig .tc) :=
  [
    main_call1_v0, main_call1_cst, main_call1_v1, main_call1_v2, main_v128 ]
set_option maxHeartbeats 4000000 in
theorem hostOps0_3_inOrder : Cert.Lib.WritesInOrder.InOrder (hostOps0_3 : List (HloOp τ sig (Elt F))) hostOps0_3_W := by
  repeat' constructor
theorem W4_of (c : Dev nD) (r : Ref sig .tc) (h : r ∉ hostOps0_3_W) :
    W4 m ρ c (Proc.devRef .tc r) = W3 m ρ c (Proc.devRef .tc r) :=
  Cert.Lib.WritesInOrder.after_of_not_listed hostOps0_3_inOrder _ h
theorem hostOps0_3_fresh : (hostOps0_3 : List (HloOp τ sig (Elt F))).Forall fun op => op.fresh = ∅ := by
  simp only [List.Forall]; repeat' constructor
abbrev hostOps0_4_W : List (Ref sig .tc) :=
  [
    main_cst_28, main_v129, main_v130, main_v131, main_v132 ]
set_option maxHeartbeats 4000000 in
theorem hostOps0_4_inOrder : Cert.Lib.WritesInOrder.InOrder (hostOps0_4 : List (HloOp τ sig (Elt F))) hostOps0_4_W := by
  repeat' constructor
theorem W5_of (c : Dev nD) (r : Ref sig .tc) (h : r ∉ hostOps0_4_W) :
    W5 m ρ c (Proc.devRef .tc r) = W4 m ρ c (Proc.devRef .tc r) :=
  Cert.Lib.WritesInOrder.after_of_not_listed hostOps0_4_inOrder _ h
theorem hostOps0_4_fresh : (hostOps0_4 : List (HloOp τ sig (Elt F))).Forall fun op => op.fresh = ∅ := by
  simp only [List.Forall]; repeat' constructor
abbrev hostOps0_5_W : List (Ref sig .tc) :=
  [
    main_call2_v0, main_call2_cst, main_call2_v1, main_call2_v2, main_v133 ]
set_option maxHeartbeats 4000000 in
theorem hostOps0_5_inOrder : Cert.Lib.WritesInOrder.InOrder (hostOps0_5 : List (HloOp τ sig (Elt F))) hostOps0_5_W := by
  repeat' constructor
theorem W6_of (c : Dev nD) (r : Ref sig .tc) (h : r ∉ hostOps0_5_W) :
    W6 m ρ c (Proc.devRef .tc r) = W5 m ρ c (Proc.devRef .tc r) :=
  Cert.Lib.WritesInOrder.after_of_not_listed hostOps0_5_inOrder _ h
theorem hostOps0_5_fresh : (hostOps0_5 : List (HloOp τ sig (Elt F))).Forall fun op => op.fresh = ∅ := by
  simp only [List.Forall]; repeat' constructor
abbrev hostOps0_6_W : List (Ref sig .tc) :=
  [
    main_cst_29, main_v134, main_v135, main_v136, main_v137 ]
set_option maxHeartbeats 4000000 in
theorem hostOps0_6_inOrder : Cert.Lib.WritesInOrder.InOrder (hostOps0_6 : List (HloOp τ sig (Elt F))) hostOps0_6_W := by
  repeat' constructor
theorem W7_of (c : Dev nD) (r : Ref sig .tc) (h : r ∉ hostOps0_6_W) :
    W7 m ρ c (Proc.devRef .tc r) = W6 m ρ c (Proc.devRef .tc r) :=
  Cert.Lib.WritesInOrder.after_of_not_listed hostOps0_6_inOrder _ h
theorem hostOps0_6_fresh : (hostOps0_6 : List (HloOp τ sig (Elt F))).Forall fun op => op.fresh = ∅ := by
  simp only [List.Forall]; repeat' constructor
abbrev hostOps1_W : List (Ref sig .tc) :=
  [
    main_v139, main_v140, main_cst_30, main_v141, main_cst_31, main_v142, main_v143, main_v144, main_v145, main_v146, main_v147, main_cst_32,
    main_v148, main_v149 ]
set_option maxHeartbeats 4000000 in
theorem hostOps1_inOrder : Cert.Lib.WritesInOrder.InOrder (hostOps1 : List (HloOp τ sig (Elt F))) hostOps1_W := by
  repeat' constructor
theorem W9_of (c : Dev nD) (r : Ref sig .tc) (h : r ∉ hostOps1_W) :
    W9 m ρ c (Proc.devRef .tc r) = W8 m ρ c (Proc.devRef .tc r) :=
  Cert.Lib.WritesInOrder.after_of_not_listed hostOps1_inOrder _ h
theorem hostOps1_fresh : (hostOps1 : List (HloOp τ sig (Elt F))).Forall fun op => op.fresh = ∅ := by
  simp only [List.Forall]; repeat' constructor
abbrev hostOps1_1_W : List (Ref sig .tc) :=
  [
    main_call3_v0, main_call3_cst, main_call3_v1, main_call3_v2, main_v150 ]
set_option maxHeartbeats 4000000 in
theorem hostOps1_1_inOrder : Cert.Lib.WritesInOrder.InOrder (hostOps1_1 : List (HloOp τ sig (Elt F))) hostOps1_1_W := by
  repeat' constructor
theorem W10_of (c : Dev nD) (r : Ref sig .tc) (h : r ∉ hostOps1_1_W) :
    W10 m ρ c (Proc.devRef .tc r) = W9 m ρ c (Proc.devRef .tc r) :=
  Cert.Lib.WritesInOrder.after_of_not_listed hostOps1_1_inOrder _ h
theorem hostOps1_1_fresh : (hostOps1_1 : List (HloOp τ sig (Elt F))).Forall fun op => op.fresh = ∅ := by
  simp only [List.Forall]; repeat' constructor
abbrev hostOps1_2_W : List (Ref sig .tc) :=
  [
    main_cst_33, main_v151, main_v152, main_v153, main_v154 ]
set_option maxHeartbeats 4000000 in
theorem hostOps1_2_inOrder : Cert.Lib.WritesInOrder.InOrder (hostOps1_2 : List (HloOp τ sig (Elt F))) hostOps1_2_W := by
  repeat' constructor
theorem W11_of (c : Dev nD) (r : Ref sig .tc) (h : r ∉ hostOps1_2_W) :
    W11 m ρ c (Proc.devRef .tc r) = W10 m ρ c (Proc.devRef .tc r) :=
  Cert.Lib.WritesInOrder.after_of_not_listed hostOps1_2_inOrder _ h
theorem hostOps1_2_fresh : (hostOps1_2 : List (HloOp τ sig (Elt F))).Forall fun op => op.fresh = ∅ := by
  simp only [List.Forall]; repeat' constructor
abbrev hostOps1_3_W : List (Ref sig .tc) :=
  [
    main_call4_v0, main_call4_cst, main_call4_v1, main_call4_v2, main_v155 ]
set_option maxHeartbeats 4000000 in
theorem hostOps1_3_inOrder : Cert.Lib.WritesInOrder.InOrder (hostOps1_3 : List (HloOp τ sig (Elt F))) hostOps1_3_W := by
  repeat' constructor
theorem W12_of (c : Dev nD) (r : Ref sig .tc) (h : r ∉ hostOps1_3_W) :
    W12 m ρ c (Proc.devRef .tc r) = W11 m ρ c (Proc.devRef .tc r) :=
  Cert.Lib.WritesInOrder.after_of_not_listed hostOps1_3_inOrder _ h
theorem hostOps1_3_fresh : (hostOps1_3 : List (HloOp τ sig (Elt F))).Forall fun op => op.fresh = ∅ := by
  simp only [List.Forall]; repeat' constructor
abbrev hostOps1_4_W : List (Ref sig .tc) :=
  [
    main_cst_34, main_v156, main_v157, main_v158, main_v159 ]
set_option maxHeartbeats 4000000 in
theorem hostOps1_4_inOrder : Cert.Lib.WritesInOrder.InOrder (hostOps1_4 : List (HloOp τ sig (Elt F))) hostOps1_4_W := by
  repeat' constructor
theorem W13_of (c : Dev nD) (r : Ref sig .tc) (h : r ∉ hostOps1_4_W) :
    W13 m ρ c (Proc.devRef .tc r) = W12 m ρ c (Proc.devRef .tc r) :=
  Cert.Lib.WritesInOrder.after_of_not_listed hostOps1_4_inOrder _ h
theorem hostOps1_4_fresh : (hostOps1_4 : List (HloOp τ sig (Elt F))).Forall fun op => op.fresh = ∅ := by
  simp only [List.Forall]; repeat' constructor
abbrev hostOps1_5_W : List (Ref sig .tc) :=
  [
    main_call5_v0, main_call5_cst, main_call5_v1, main_call5_v2, main_v160 ]
set_option maxHeartbeats 4000000 in
theorem hostOps1_5_inOrder : Cert.Lib.WritesInOrder.InOrder (hostOps1_5 : List (HloOp τ sig (Elt F))) hostOps1_5_W := by
  repeat' constructor
theorem W14_of (c : Dev nD) (r : Ref sig .tc) (h : r ∉ hostOps1_5_W) :
    W14 m ρ c (Proc.devRef .tc r) = W13 m ρ c (Proc.devRef .tc r) :=
  Cert.Lib.WritesInOrder.after_of_not_listed hostOps1_5_inOrder _ h
theorem hostOps1_5_fresh : (hostOps1_5 : List (HloOp τ sig (Elt F))).Forall fun op => op.fresh = ∅ := by
  simp only [List.Forall]; repeat' constructor
abbrev hostOps1_6_W : List (Ref sig .tc) :=
  [
    main_cst_35, main_v161, main_v162, main_v163, main_v164 ]
set_option maxHeartbeats 4000000 in
theorem hostOps1_6_inOrder : Cert.Lib.WritesInOrder.InOrder (hostOps1_6 : List (HloOp τ sig (Elt F))) hostOps1_6_W := by
  repeat' constructor
theorem W15_of (c : Dev nD) (r : Ref sig .tc) (h : r ∉ hostOps1_6_W) :
    W15 m ρ c (Proc.devRef .tc r) = W14 m ρ c (Proc.devRef .tc r) :=
  Cert.Lib.WritesInOrder.after_of_not_listed hostOps1_6_inOrder _ h
theorem hostOps1_6_fresh : (hostOps1_6 : List (HloOp τ sig (Elt F))).Forall fun op => op.fresh = ∅ := by
  simp only [List.Forall]; repeat' constructor
abbrev hostOps2_W : List (Ref sig .tc) :=
  [
    main_v166, main_v167, main_cst_36, main_v168, main_cst_37, main_v169, main_v170, main_v171, main_v172, main_v173, main_v174, main_cst_38,
    main_v175, main_v176, main_cst_39, main_v177, main_v178, main_cst_40, main_v179, main_c_41, main_v180, main_v181, main_c_42, main_v182,
    main_v183, main_v184, main_v185, main_v186 ]
set_option maxHeartbeats 4000000 in
theorem hostOps2_inOrder : Cert.Lib.WritesInOrder.InOrder (hostOps2 : List (HloOp τ sig (Elt F))) hostOps2_W := by
  repeat' constructor
theorem W17_of (c : Dev nD) (r : Ref sig .tc) (h : r ∉ hostOps2_W) :
    W17 m ρ c (Proc.devRef .tc r) = W16 m ρ c (Proc.devRef .tc r) :=
  Cert.Lib.WritesInOrder.after_of_not_listed hostOps2_inOrder _ h
theorem hostOps2_fresh : (hostOps2 : List (HloOp τ sig (Elt F))).Forall fun op => op.fresh = ∅ := by
  simp only [List.Forall]; repeat' constructor
abbrev hostOps2_1_W : List (Ref sig .tc) :=
  [
    main_call6_v0, main_call6_cst, main_call6_v1, main_call6_v2, main_v187 ]
set_option maxHeartbeats 4000000 in
theorem hostOps2_1_inOrder : Cert.Lib.WritesInOrder.InOrder (hostOps2_1 : List (HloOp τ sig (Elt F))) hostOps2_1_W := by
  repeat' constructor
theorem W18_of (c : Dev nD) (r : Ref sig .tc) (h : r ∉ hostOps2_1_W) :
    W18 m ρ c (Proc.devRef .tc r) = W17 m ρ c (Proc.devRef .tc r) :=
  Cert.Lib.WritesInOrder.after_of_not_listed hostOps2_1_inOrder _ h
theorem hostOps2_1_fresh : (hostOps2_1 : List (HloOp τ sig (Elt F))).Forall fun op => op.fresh = ∅ := by
  simp only [List.Forall]; repeat' constructor
abbrev hostOps2_2_W : List (Ref sig .tc) :=
  [
    main_cst_43, main_v188, main_v189, main_v190, main_v191 ]
set_option maxHeartbeats 4000000 in
theorem hostOps2_2_inOrder : Cert.Lib.WritesInOrder.InOrder (hostOps2_2 : List (HloOp τ sig (Elt F))) hostOps2_2_W := by
  repeat' constructor
theorem W19_of (c : Dev nD) (r : Ref sig .tc) (h : r ∉ hostOps2_2_W) :
    W19 m ρ c (Proc.devRef .tc r) = W18 m ρ c (Proc.devRef .tc r) :=
  Cert.Lib.WritesInOrder.after_of_not_listed hostOps2_2_inOrder _ h
theorem hostOps2_2_fresh : (hostOps2_2 : List (HloOp τ sig (Elt F))).Forall fun op => op.fresh = ∅ := by
  simp only [List.Forall]; repeat' constructor
abbrev hostOps2_3_W : List (Ref sig .tc) :=
  [
    main_call7_v0, main_call7_cst, main_call7_v1, main_call7_v2, main_v192 ]
set_option maxHeartbeats 4000000 in
theorem hostOps2_3_inOrder : Cert.Lib.WritesInOrder.InOrder (hostOps2_3 : List (HloOp τ sig (Elt F))) hostOps2_3_W := by
  repeat' constructor
theorem W20_of (c : Dev nD) (r : Ref sig .tc) (h : r ∉ hostOps2_3_W) :
    W20 m ρ c (Proc.devRef .tc r) = W19 m ρ c (Proc.devRef .tc r) :=
  Cert.Lib.WritesInOrder.after_of_not_listed hostOps2_3_inOrder _ h
theorem hostOps2_3_fresh : (hostOps2_3 : List (HloOp τ sig (Elt F))).Forall fun op => op.fresh = ∅ := by
  simp only [List.Forall]; repeat' constructor
abbrev hostOps2_4_W : List (Ref sig .tc) :=
  [
    main_cst_44, main_v193, main_v194, main_v195, main_v196, main_c_45, main_v197, main_v198, main_c_46, main_v199, main_v200, main_v201,
    main_v202, main_v203, main_c_47, main_v204, main_v205, main_c_48, main_v206, main_v207, main_v208, main_v209, main_v210, main_v211,
    main_cst_49, main_v212, main_cst_50, main_v213, main_v214, main_v215 ]
set_option maxHeartbeats 4000000 in
theorem hostOps2_4_inOrder : Cert.Lib.WritesInOrder.InOrder (hostOps2_4 : List (HloOp τ sig (Elt F))) hostOps2_4_W := by
  repeat' constructor
theorem W21_of (c : Dev nD) (r : Ref sig .tc) (h : r ∉ hostOps2_4_W) :
    W21 m ρ c (Proc.devRef .tc r) = W20 m ρ c (Proc.devRef .tc r) :=
  Cert.Lib.WritesInOrder.after_of_not_listed hostOps2_4_inOrder _ h
theorem hostOps2_4_fresh : (hostOps2_4 : List (HloOp τ sig (Elt F))).Forall fun op => op.fresh = ∅ := by
  simp only [List.Forall]; repeat' constructor
abbrev hostOps3_W : List (Ref sig .tc) :=
  [
    main_v217, main_v218, main_v219, main_v220, main_cst_51, main_v221, main_v222, main_c_52, main_v223, main_v224, main_c_53, main_v225,
    main_v226, main_v227, main_v228, main_v229 ]
set_option maxHeartbeats 4000000 in
theorem hostOps3_inOrder : Cert.Lib.WritesInOrder.InOrder (hostOps3 : List (HloOp τ sig (Elt F))) hostOps3_W := by
  repeat' constructor
theorem W23_of (c : Dev nD) (r : Ref sig .tc) (h : r ∉ hostOps3_W) :
    W23 m ρ c (Proc.devRef .tc r) = W22 m ρ c (Proc.devRef .tc r) :=
  Cert.Lib.WritesInOrder.after_of_not_listed hostOps3_inOrder _ h
theorem hostOps3_fresh : (hostOps3 : List (HloOp τ sig (Elt F))).Forall fun op => op.fresh = ∅ := by
  simp only [List.Forall]; repeat' constructor
abbrev hostOps3_1_W : List (Ref sig .tc) :=
  [
    main_call8_v0, main_call8_cst, main_call8_v1, main_call8_v2, main_v230 ]
set_option maxHeartbeats 4000000 in
theorem hostOps3_1_inOrder : Cert.Lib.WritesInOrder.InOrder (hostOps3_1 : List (HloOp τ sig (Elt F))) hostOps3_1_W := by
  repeat' constructor
theorem W24_of (c : Dev nD) (r : Ref sig .tc) (h : r ∉ hostOps3_1_W) :
    W24 m ρ c (Proc.devRef .tc r) = W23 m ρ c (Proc.devRef .tc r) :=
  Cert.Lib.WritesInOrder.after_of_not_listed hostOps3_1_inOrder _ h
theorem hostOps3_1_fresh : (hostOps3_1 : List (HloOp τ sig (Elt F))).Forall fun op => op.fresh = ∅ := by
  simp only [List.Forall]; repeat' constructor
abbrev hostOps3_2_W : List (Ref sig .tc) :=
  [
    main_cst_54, main_v231, main_v232, main_v233, main_v234 ]
set_option maxHeartbeats 4000000 in
theorem hostOps3_2_inOrder : Cert.Lib.WritesInOrder.InOrder (hostOps3_2 : List (HloOp τ sig (Elt F))) hostOps3_2_W := by
  repeat' constructor
theorem W25_of (c : Dev nD) (r : Ref sig .tc) (h : r ∉ hostOps3_2_W) :
    W25 m ρ c (Proc.devRef .tc r) = W24 m ρ c (Proc.devRef .tc r) :=
  Cert.Lib.WritesInOrder.after_of_not_listed hostOps3_2_inOrder _ h
theorem hostOps3_2_fresh : (hostOps3_2 : List (HloOp τ sig (Elt F))).Forall fun op => op.fresh = ∅ := by
  simp only [List.Forall]; repeat' constructor
abbrev hostOps3_3_W : List (Ref sig .tc) :=
  [
    main_call9_v0, main_call9_cst, main_call9_v1, main_call9_v2, main_v235 ]
set_option maxHeartbeats 4000000 in
theorem hostOps3_3_inOrder : Cert.Lib.WritesInOrder.InOrder (hostOps3_3 : List (HloOp τ sig (Elt F))) hostOps3_3_W := by
  repeat' constructor
theorem W26_of (c : Dev nD) (r : Ref sig .tc) (h : r ∉ hostOps3_3_W) :
    W26 m ρ c (Proc.devRef .tc r) = W25 m ρ c (Proc.devRef .tc r) :=
  Cert.Lib.WritesInOrder.after_of_not_listed hostOps3_3_inOrder _ h
theorem hostOps3_3_fresh : (hostOps3_3 : List (HloOp τ sig (Elt F))).Forall fun op => op.fresh = ∅ := by
  simp only [List.Forall]; repeat' constructor
abbrev hostOps3_4_W : List (Ref sig .tc) :=
  [
    main_cst_55, main_v236, main_v237, main_v238, main_v239, main_c_56, main_v240, main_v241, main_c_57, main_v242, main_v243, main_v244,
    main_v245, main_v246, main_c_58, main_v247, main_v248, main_c_59, main_v249, main_v250, main_v251, main_v252, main_v253, main_v254,
    main_cst_60, main_v255, main_cst_61, main_v256, main_v257, main_v258 ]
set_option maxHeartbeats 4000000 in
theorem hostOps3_4_inOrder : Cert.Lib.WritesInOrder.InOrder (hostOps3_4 : List (HloOp τ sig (Elt F))) hostOps3_4_W := by
  repeat' constructor
theorem W27_of (c : Dev nD) (r : Ref sig .tc) (h : r ∉ hostOps3_4_W) :
    W27 m ρ c (Proc.devRef .tc r) = W26 m ρ c (Proc.devRef .tc r) :=
  Cert.Lib.WritesInOrder.after_of_not_listed hostOps3_4_inOrder _ h
theorem hostOps3_4_fresh : (hostOps3_4 : List (HloOp τ sig (Elt F))).Forall fun op => op.fresh = ∅ := by
  simp only [List.Forall]; repeat' constructor
abbrev hostOps4_W : List (Ref sig .tc) :=
  [
    main_v260, main_v261, main_v262, main_v263, main_cst_62, main_v264, main_v265, main_v266, main_cst_63, main_v267, main_cst_64, main_v268,
    main_v269, main_cst_65, main_v270, main_v271, main_c_66, main_v272, main_v273, main_c_67, main_v274, main_v275, main_v276, main_v277,
    main_v278, main_c_68, main_v279, main_v280, main_c_69, main_v281, main_v282, main_v283, main_v284, main_v285, main_v286, main_cst_70,
    main_v287, main_v288, main_c_71, main_v289, main_v290, main_c_72, main_v291, main_v292, main_v293, main_v294, main_v295, main_c_73,
    main_v296, main_v297, main_c_74, main_v298, main_v299, main_v300, main_v301, main_v302, main_v303, main_cst_75, main_v304, main_v305 ]
set_option maxHeartbeats 4000000 in
theorem hostOps4_inOrder : Cert.Lib.WritesInOrder.InOrder (hostOps4 : List (HloOp τ sig (Elt F))) hostOps4_W := by
  repeat' constructor
theorem W29_of (c : Dev nD) (r : Ref sig .tc) (h : r ∉ hostOps4_W) :
    W29 m ρ c (Proc.devRef .tc r) = W28 m ρ c (Proc.devRef .tc r) :=
  Cert.Lib.WritesInOrder.after_of_not_listed hostOps4_inOrder _ h
theorem hostOps4_fresh : (hostOps4 : List (HloOp τ sig (Elt F))).Forall fun op => op.fresh = ∅ := by
  simp only [List.Forall]; repeat' constructor

/-! ## The arguments end as launched -/

set_option maxRecDepth 65536 in
theorem W29_main_arg0 (c : Dev nD) : W29 m ρ c (Proc.devRef .tc main_arg0) = m ((c : Thread nD τ).loc main_arg0) :=
  (W29_of m ρ c main_arg0 (by decide)).trans
    ((W28_of_ne m ρ c main_arg0 (by decide)).trans
    ((W27_of m ρ c main_arg0 (by decide)).trans
    ((W26_of m ρ c main_arg0 (by decide)).trans
    ((W25_of m ρ c main_arg0 (by decide)).trans
    ((W24_of m ρ c main_arg0 (by decide)).trans
    ((W23_of m ρ c main_arg0 (by decide)).trans
    ((W22_of_ne m ρ c main_arg0 (by decide)).trans
    ((W21_of m ρ c main_arg0 (by decide)).trans
    ((W20_of m ρ c main_arg0 (by decide)).trans
    ((W19_of m ρ c main_arg0 (by decide)).trans
    ((W18_of m ρ c main_arg0 (by decide)).trans
    ((W17_of m ρ c main_arg0 (by decide)).trans
    ((W16_of_ne m ρ c main_arg0 (by decide)).trans
    ((W15_of m ρ c main_arg0 (by decide)).trans
    ((W14_of m ρ c main_arg0 (by decide)).trans
    ((W13_of m ρ c main_arg0 (by decide)).trans
    ((W12_of m ρ c main_arg0 (by decide)).trans
    ((W11_of m ρ c main_arg0 (by decide)).trans
    ((W10_of m ρ c main_arg0 (by decide)).trans
    ((W9_of m ρ c main_arg0 (by decide)).trans
    ((W8_of_ne m ρ c main_arg0 (by decide)).trans
    ((W7_of m ρ c main_arg0 (by decide)).trans
    ((W6_of m ρ c main_arg0 (by decide)).trans
    ((W5_of m ρ c main_arg0 (by decide)).trans
    ((W4_of m ρ c main_arg0 (by decide)).trans
    ((W3_of m ρ c main_arg0 (by decide)).trans
    ((W2_of m ρ c main_arg0 (by decide)).trans
    ((W1_of m ρ c main_arg0 (by decide)).trans
    ((rfl : W0 m ρ c (Proc.devRef .tc main_arg0) = m ((c : Thread nD τ).loc main_arg0)))))))))))))))))))))))))))))))
set_option maxRecDepth 65536 in
theorem W29_main_arg1 (c : Dev nD) : W29 m ρ c (Proc.devRef .tc main_arg1) = m ((c : Thread nD τ).loc main_arg1) :=
  (W29_of m ρ c main_arg1 (by decide)).trans
    ((W28_of_ne m ρ c main_arg1 (by decide)).trans
    ((W27_of m ρ c main_arg1 (by decide)).trans
    ((W26_of m ρ c main_arg1 (by decide)).trans
    ((W25_of m ρ c main_arg1 (by decide)).trans
    ((W24_of m ρ c main_arg1 (by decide)).trans
    ((W23_of m ρ c main_arg1 (by decide)).trans
    ((W22_of_ne m ρ c main_arg1 (by decide)).trans
    ((W21_of m ρ c main_arg1 (by decide)).trans
    ((W20_of m ρ c main_arg1 (by decide)).trans
    ((W19_of m ρ c main_arg1 (by decide)).trans
    ((W18_of m ρ c main_arg1 (by decide)).trans
    ((W17_of m ρ c main_arg1 (by decide)).trans
    ((W16_of_ne m ρ c main_arg1 (by decide)).trans
    ((W15_of m ρ c main_arg1 (by decide)).trans
    ((W14_of m ρ c main_arg1 (by decide)).trans
    ((W13_of m ρ c main_arg1 (by decide)).trans
    ((W12_of m ρ c main_arg1 (by decide)).trans
    ((W11_of m ρ c main_arg1 (by decide)).trans
    ((W10_of m ρ c main_arg1 (by decide)).trans
    ((W9_of m ρ c main_arg1 (by decide)).trans
    ((W8_of_ne m ρ c main_arg1 (by decide)).trans
    ((W7_of m ρ c main_arg1 (by decide)).trans
    ((W6_of m ρ c main_arg1 (by decide)).trans
    ((W5_of m ρ c main_arg1 (by decide)).trans
    ((W4_of m ρ c main_arg1 (by decide)).trans
    ((W3_of m ρ c main_arg1 (by decide)).trans
    ((W2_of m ρ c main_arg1 (by decide)).trans
    ((W1_of m ρ c main_arg1 (by decide)).trans
    ((rfl : W0 m ρ c (Proc.devRef .tc main_arg1) = m ((c : Thread nD τ).loc main_arg1)))))))))))))))))))))))))))))))
set_option maxRecDepth 65536 in
theorem W29_main_arg2 (c : Dev nD) : W29 m ρ c (Proc.devRef .tc main_arg2) = m ((c : Thread nD τ).loc main_arg2) :=
  (W29_of m ρ c main_arg2 (by decide)).trans
    ((W28_of_ne m ρ c main_arg2 (by decide)).trans
    ((W27_of m ρ c main_arg2 (by decide)).trans
    ((W26_of m ρ c main_arg2 (by decide)).trans
    ((W25_of m ρ c main_arg2 (by decide)).trans
    ((W24_of m ρ c main_arg2 (by decide)).trans
    ((W23_of m ρ c main_arg2 (by decide)).trans
    ((W22_of_ne m ρ c main_arg2 (by decide)).trans
    ((W21_of m ρ c main_arg2 (by decide)).trans
    ((W20_of m ρ c main_arg2 (by decide)).trans
    ((W19_of m ρ c main_arg2 (by decide)).trans
    ((W18_of m ρ c main_arg2 (by decide)).trans
    ((W17_of m ρ c main_arg2 (by decide)).trans
    ((W16_of_ne m ρ c main_arg2 (by decide)).trans
    ((W15_of m ρ c main_arg2 (by decide)).trans
    ((W14_of m ρ c main_arg2 (by decide)).trans
    ((W13_of m ρ c main_arg2 (by decide)).trans
    ((W12_of m ρ c main_arg2 (by decide)).trans
    ((W11_of m ρ c main_arg2 (by decide)).trans
    ((W10_of m ρ c main_arg2 (by decide)).trans
    ((W9_of m ρ c main_arg2 (by decide)).trans
    ((W8_of_ne m ρ c main_arg2 (by decide)).trans
    ((W7_of m ρ c main_arg2 (by decide)).trans
    ((W6_of m ρ c main_arg2 (by decide)).trans
    ((W5_of m ρ c main_arg2 (by decide)).trans
    ((W4_of m ρ c main_arg2 (by decide)).trans
    ((W3_of m ρ c main_arg2 (by decide)).trans
    ((W2_of m ρ c main_arg2 (by decide)).trans
    ((W1_of m ρ c main_arg2 (by decide)).trans
    ((rfl : W0 m ρ c (Proc.devRef .tc main_arg2) = m ((c : Thread nD τ).loc main_arg2)))))))))))))))))))))))))))))))
set_option maxRecDepth 65536 in
theorem W29_main_arg3 (c : Dev nD) : W29 m ρ c (Proc.devRef .tc main_arg3) = m ((c : Thread nD τ).loc main_arg3) :=
  (W29_of m ρ c main_arg3 (by decide)).trans
    ((W28_of_ne m ρ c main_arg3 (by decide)).trans
    ((W27_of m ρ c main_arg3 (by decide)).trans
    ((W26_of m ρ c main_arg3 (by decide)).trans
    ((W25_of m ρ c main_arg3 (by decide)).trans
    ((W24_of m ρ c main_arg3 (by decide)).trans
    ((W23_of m ρ c main_arg3 (by decide)).trans
    ((W22_of_ne m ρ c main_arg3 (by decide)).trans
    ((W21_of m ρ c main_arg3 (by decide)).trans
    ((W20_of m ρ c main_arg3 (by decide)).trans
    ((W19_of m ρ c main_arg3 (by decide)).trans
    ((W18_of m ρ c main_arg3 (by decide)).trans
    ((W17_of m ρ c main_arg3 (by decide)).trans
    ((W16_of_ne m ρ c main_arg3 (by decide)).trans
    ((W15_of m ρ c main_arg3 (by decide)).trans
    ((W14_of m ρ c main_arg3 (by decide)).trans
    ((W13_of m ρ c main_arg3 (by decide)).trans
    ((W12_of m ρ c main_arg3 (by decide)).trans
    ((W11_of m ρ c main_arg3 (by decide)).trans
    ((W10_of m ρ c main_arg3 (by decide)).trans
    ((W9_of m ρ c main_arg3 (by decide)).trans
    ((W8_of_ne m ρ c main_arg3 (by decide)).trans
    ((W7_of m ρ c main_arg3 (by decide)).trans
    ((W6_of m ρ c main_arg3 (by decide)).trans
    ((W5_of m ρ c main_arg3 (by decide)).trans
    ((W4_of m ρ c main_arg3 (by decide)).trans
    ((W3_of m ρ c main_arg3 (by decide)).trans
    ((W2_of m ρ c main_arg3 (by decide)).trans
    ((W1_of m ρ c main_arg3 (by decide)).trans
    ((rfl : W0 m ρ c (Proc.devRef .tc main_arg3) = m ((c : Thread nD τ).loc main_arg3)))))))))))))))))))))))))))))))
set_option maxRecDepth 65536 in
theorem W29_main_arg4 (c : Dev nD) : W29 m ρ c (Proc.devRef .tc main_arg4) = m ((c : Thread nD τ).loc main_arg4) :=
  (W29_of m ρ c main_arg4 (by decide)).trans
    ((W28_of_ne m ρ c main_arg4 (by decide)).trans
    ((W27_of m ρ c main_arg4 (by decide)).trans
    ((W26_of m ρ c main_arg4 (by decide)).trans
    ((W25_of m ρ c main_arg4 (by decide)).trans
    ((W24_of m ρ c main_arg4 (by decide)).trans
    ((W23_of m ρ c main_arg4 (by decide)).trans
    ((W22_of_ne m ρ c main_arg4 (by decide)).trans
    ((W21_of m ρ c main_arg4 (by decide)).trans
    ((W20_of m ρ c main_arg4 (by decide)).trans
    ((W19_of m ρ c main_arg4 (by decide)).trans
    ((W18_of m ρ c main_arg4 (by decide)).trans
    ((W17_of m ρ c main_arg4 (by decide)).trans
    ((W16_of_ne m ρ c main_arg4 (by decide)).trans
    ((W15_of m ρ c main_arg4 (by decide)).trans
    ((W14_of m ρ c main_arg4 (by decide)).trans
    ((W13_of m ρ c main_arg4 (by decide)).trans
    ((W12_of m ρ c main_arg4 (by decide)).trans
    ((W11_of m ρ c main_arg4 (by decide)).trans
    ((W10_of m ρ c main_arg4 (by decide)).trans
    ((W9_of m ρ c main_arg4 (by decide)).trans
    ((W8_of_ne m ρ c main_arg4 (by decide)).trans
    ((W7_of m ρ c main_arg4 (by decide)).trans
    ((W6_of m ρ c main_arg4 (by decide)).trans
    ((W5_of m ρ c main_arg4 (by decide)).trans
    ((W4_of m ρ c main_arg4 (by decide)).trans
    ((W3_of m ρ c main_arg4 (by decide)).trans
    ((W2_of m ρ c main_arg4 (by decide)).trans
    ((W1_of m ρ c main_arg4 (by decide)).trans
    ((rfl : W0 m ρ c (Proc.devRef .tc main_arg4) = m ((c : Thread nD τ).loc main_arg4)))))))))))))))))))))))))))))))
set_option maxRecDepth 65536 in
theorem W29_main_arg5 (c : Dev nD) : W29 m ρ c (Proc.devRef .tc main_arg5) = m ((c : Thread nD τ).loc main_arg5) :=
  (W29_of m ρ c main_arg5 (by decide)).trans
    ((W28_of_ne m ρ c main_arg5 (by decide)).trans
    ((W27_of m ρ c main_arg5 (by decide)).trans
    ((W26_of m ρ c main_arg5 (by decide)).trans
    ((W25_of m ρ c main_arg5 (by decide)).trans
    ((W24_of m ρ c main_arg5 (by decide)).trans
    ((W23_of m ρ c main_arg5 (by decide)).trans
    ((W22_of_ne m ρ c main_arg5 (by decide)).trans
    ((W21_of m ρ c main_arg5 (by decide)).trans
    ((W20_of m ρ c main_arg5 (by decide)).trans
    ((W19_of m ρ c main_arg5 (by decide)).trans
    ((W18_of m ρ c main_arg5 (by decide)).trans
    ((W17_of m ρ c main_arg5 (by decide)).trans
    ((W16_of_ne m ρ c main_arg5 (by decide)).trans
    ((W15_of m ρ c main_arg5 (by decide)).trans
    ((W14_of m ρ c main_arg5 (by decide)).trans
    ((W13_of m ρ c main_arg5 (by decide)).trans
    ((W12_of m ρ c main_arg5 (by decide)).trans
    ((W11_of m ρ c main_arg5 (by decide)).trans
    ((W10_of m ρ c main_arg5 (by decide)).trans
    ((W9_of m ρ c main_arg5 (by decide)).trans
    ((W8_of_ne m ρ c main_arg5 (by decide)).trans
    ((W7_of m ρ c main_arg5 (by decide)).trans
    ((W6_of m ρ c main_arg5 (by decide)).trans
    ((W5_of m ρ c main_arg5 (by decide)).trans
    ((W4_of m ρ c main_arg5 (by decide)).trans
    ((W3_of m ρ c main_arg5 (by decide)).trans
    ((W2_of m ρ c main_arg5 (by decide)).trans
    ((W1_of m ρ c main_arg5 (by decide)).trans
    ((rfl : W0 m ρ c (Proc.devRef .tc main_arg5) = m ((c : Thread nD τ).loc main_arg5)))))))))))))))))))))))))))))))
set_option maxRecDepth 65536 in
theorem W29_main_arg6 (c : Dev nD) : W29 m ρ c (Proc.devRef .tc main_arg6) = m ((c : Thread nD τ).loc main_arg6) :=
  (W29_of m ρ c main_arg6 (by decide)).trans
    ((W28_of_ne m ρ c main_arg6 (by decide)).trans
    ((W27_of m ρ c main_arg6 (by decide)).trans
    ((W26_of m ρ c main_arg6 (by decide)).trans
    ((W25_of m ρ c main_arg6 (by decide)).trans
    ((W24_of m ρ c main_arg6 (by decide)).trans
    ((W23_of m ρ c main_arg6 (by decide)).trans
    ((W22_of_ne m ρ c main_arg6 (by decide)).trans
    ((W21_of m ρ c main_arg6 (by decide)).trans
    ((W20_of m ρ c main_arg6 (by decide)).trans
    ((W19_of m ρ c main_arg6 (by decide)).trans
    ((W18_of m ρ c main_arg6 (by decide)).trans
    ((W17_of m ρ c main_arg6 (by decide)).trans
    ((W16_of_ne m ρ c main_arg6 (by decide)).trans
    ((W15_of m ρ c main_arg6 (by decide)).trans
    ((W14_of m ρ c main_arg6 (by decide)).trans
    ((W13_of m ρ c main_arg6 (by decide)).trans
    ((W12_of m ρ c main_arg6 (by decide)).trans
    ((W11_of m ρ c main_arg6 (by decide)).trans
    ((W10_of m ρ c main_arg6 (by decide)).trans
    ((W9_of m ρ c main_arg6 (by decide)).trans
    ((W8_of_ne m ρ c main_arg6 (by decide)).trans
    ((W7_of m ρ c main_arg6 (by decide)).trans
    ((W6_of m ρ c main_arg6 (by decide)).trans
    ((W5_of m ρ c main_arg6 (by decide)).trans
    ((W4_of m ρ c main_arg6 (by decide)).trans
    ((W3_of m ρ c main_arg6 (by decide)).trans
    ((W2_of m ρ c main_arg6 (by decide)).trans
    ((W1_of m ρ c main_arg6 (by decide)).trans
    ((rfl : W0 m ρ c (Proc.devRef .tc main_arg6) = m ((c : Thread nD τ).loc main_arg6)))))))))))))))))))))))))))))))
set_option maxRecDepth 65536 in
theorem W29_main_arg7 (c : Dev nD) : W29 m ρ c (Proc.devRef .tc main_arg7) = m ((c : Thread nD τ).loc main_arg7) :=
  (W29_of m ρ c main_arg7 (by decide)).trans
    ((W28_of_ne m ρ c main_arg7 (by decide)).trans
    ((W27_of m ρ c main_arg7 (by decide)).trans
    ((W26_of m ρ c main_arg7 (by decide)).trans
    ((W25_of m ρ c main_arg7 (by decide)).trans
    ((W24_of m ρ c main_arg7 (by decide)).trans
    ((W23_of m ρ c main_arg7 (by decide)).trans
    ((W22_of_ne m ρ c main_arg7 (by decide)).trans
    ((W21_of m ρ c main_arg7 (by decide)).trans
    ((W20_of m ρ c main_arg7 (by decide)).trans
    ((W19_of m ρ c main_arg7 (by decide)).trans
    ((W18_of m ρ c main_arg7 (by decide)).trans
    ((W17_of m ρ c main_arg7 (by decide)).trans
    ((W16_of_ne m ρ c main_arg7 (by decide)).trans
    ((W15_of m ρ c main_arg7 (by decide)).trans
    ((W14_of m ρ c main_arg7 (by decide)).trans
    ((W13_of m ρ c main_arg7 (by decide)).trans
    ((W12_of m ρ c main_arg7 (by decide)).trans
    ((W11_of m ρ c main_arg7 (by decide)).trans
    ((W10_of m ρ c main_arg7 (by decide)).trans
    ((W9_of m ρ c main_arg7 (by decide)).trans
    ((W8_of_ne m ρ c main_arg7 (by decide)).trans
    ((W7_of m ρ c main_arg7 (by decide)).trans
    ((W6_of m ρ c main_arg7 (by decide)).trans
    ((W5_of m ρ c main_arg7 (by decide)).trans
    ((W4_of m ρ c main_arg7 (by decide)).trans
    ((W3_of m ρ c main_arg7 (by decide)).trans
    ((W2_of m ρ c main_arg7 (by decide)).trans
    ((W1_of m ρ c main_arg7 (by decide)).trans
    ((rfl : W0 m ρ c (Proc.devRef .tc main_arg7) = m ((c : Thread nD τ).loc main_arg7)))))))))))))))))))))))))))))))
set_option maxRecDepth 65536 in
theorem W29_main_arg8 (c : Dev nD) : W29 m ρ c (Proc.devRef .tc main_arg8) = m ((c : Thread nD τ).loc main_arg8) :=
  (W29_of m ρ c main_arg8 (by decide)).trans
    ((W28_of_ne m ρ c main_arg8 (by decide)).trans
    ((W27_of m ρ c main_arg8 (by decide)).trans
    ((W26_of m ρ c main_arg8 (by decide)).trans
    ((W25_of m ρ c main_arg8 (by decide)).trans
    ((W24_of m ρ c main_arg8 (by decide)).trans
    ((W23_of m ρ c main_arg8 (by decide)).trans
    ((W22_of_ne m ρ c main_arg8 (by decide)).trans
    ((W21_of m ρ c main_arg8 (by decide)).trans
    ((W20_of m ρ c main_arg8 (by decide)).trans
    ((W19_of m ρ c main_arg8 (by decide)).trans
    ((W18_of m ρ c main_arg8 (by decide)).trans
    ((W17_of m ρ c main_arg8 (by decide)).trans
    ((W16_of_ne m ρ c main_arg8 (by decide)).trans
    ((W15_of m ρ c main_arg8 (by decide)).trans
    ((W14_of m ρ c main_arg8 (by decide)).trans
    ((W13_of m ρ c main_arg8 (by decide)).trans
    ((W12_of m ρ c main_arg8 (by decide)).trans
    ((W11_of m ρ c main_arg8 (by decide)).trans
    ((W10_of m ρ c main_arg8 (by decide)).trans
    ((W9_of m ρ c main_arg8 (by decide)).trans
    ((W8_of_ne m ρ c main_arg8 (by decide)).trans
    ((W7_of m ρ c main_arg8 (by decide)).trans
    ((W6_of m ρ c main_arg8 (by decide)).trans
    ((W5_of m ρ c main_arg8 (by decide)).trans
    ((W4_of m ρ c main_arg8 (by decide)).trans
    ((W3_of m ρ c main_arg8 (by decide)).trans
    ((W2_of m ρ c main_arg8 (by decide)).trans
    ((W1_of m ρ c main_arg8 (by decide)).trans
    ((rfl : W0 m ρ c (Proc.devRef .tc main_arg8) = m ((c : Thread nD τ).loc main_arg8)))))))))))))))))))))))))))))))
set_option maxRecDepth 65536 in
theorem W29_main_arg9 (c : Dev nD) : W29 m ρ c (Proc.devRef .tc main_arg9) = m ((c : Thread nD τ).loc main_arg9) :=
  (W29_of m ρ c main_arg9 (by decide)).trans
    ((W28_of_ne m ρ c main_arg9 (by decide)).trans
    ((W27_of m ρ c main_arg9 (by decide)).trans
    ((W26_of m ρ c main_arg9 (by decide)).trans
    ((W25_of m ρ c main_arg9 (by decide)).trans
    ((W24_of m ρ c main_arg9 (by decide)).trans
    ((W23_of m ρ c main_arg9 (by decide)).trans
    ((W22_of_ne m ρ c main_arg9 (by decide)).trans
    ((W21_of m ρ c main_arg9 (by decide)).trans
    ((W20_of m ρ c main_arg9 (by decide)).trans
    ((W19_of m ρ c main_arg9 (by decide)).trans
    ((W18_of m ρ c main_arg9 (by decide)).trans
    ((W17_of m ρ c main_arg9 (by decide)).trans
    ((W16_of_ne m ρ c main_arg9 (by decide)).trans
    ((W15_of m ρ c main_arg9 (by decide)).trans
    ((W14_of m ρ c main_arg9 (by decide)).trans
    ((W13_of m ρ c main_arg9 (by decide)).trans
    ((W12_of m ρ c main_arg9 (by decide)).trans
    ((W11_of m ρ c main_arg9 (by decide)).trans
    ((W10_of m ρ c main_arg9 (by decide)).trans
    ((W9_of m ρ c main_arg9 (by decide)).trans
    ((W8_of_ne m ρ c main_arg9 (by decide)).trans
    ((W7_of m ρ c main_arg9 (by decide)).trans
    ((W6_of m ρ c main_arg9 (by decide)).trans
    ((W5_of m ρ c main_arg9 (by decide)).trans
    ((W4_of m ρ c main_arg9 (by decide)).trans
    ((W3_of m ρ c main_arg9 (by decide)).trans
    ((W2_of m ρ c main_arg9 (by decide)).trans
    ((W1_of m ρ c main_arg9 (by decide)).trans
    ((rfl : W0 m ρ c (Proc.devRef .tc main_arg9) = m ((c : Thread nD τ).loc main_arg9)))))))))))))))))))))))))))))))
set_option maxRecDepth 65536 in
theorem W29_main_arg10 (c : Dev nD) : W29 m ρ c (Proc.devRef .tc main_arg10) = m ((c : Thread nD τ).loc main_arg10) :=
  (W29_of m ρ c main_arg10 (by decide)).trans
    ((W28_of_ne m ρ c main_arg10 (by decide)).trans
    ((W27_of m ρ c main_arg10 (by decide)).trans
    ((W26_of m ρ c main_arg10 (by decide)).trans
    ((W25_of m ρ c main_arg10 (by decide)).trans
    ((W24_of m ρ c main_arg10 (by decide)).trans
    ((W23_of m ρ c main_arg10 (by decide)).trans
    ((W22_of_ne m ρ c main_arg10 (by decide)).trans
    ((W21_of m ρ c main_arg10 (by decide)).trans
    ((W20_of m ρ c main_arg10 (by decide)).trans
    ((W19_of m ρ c main_arg10 (by decide)).trans
    ((W18_of m ρ c main_arg10 (by decide)).trans
    ((W17_of m ρ c main_arg10 (by decide)).trans
    ((W16_of_ne m ρ c main_arg10 (by decide)).trans
    ((W15_of m ρ c main_arg10 (by decide)).trans
    ((W14_of m ρ c main_arg10 (by decide)).trans
    ((W13_of m ρ c main_arg10 (by decide)).trans
    ((W12_of m ρ c main_arg10 (by decide)).trans
    ((W11_of m ρ c main_arg10 (by decide)).trans
    ((W10_of m ρ c main_arg10 (by decide)).trans
    ((W9_of m ρ c main_arg10 (by decide)).trans
    ((W8_of_ne m ρ c main_arg10 (by decide)).trans
    ((W7_of m ρ c main_arg10 (by decide)).trans
    ((W6_of m ρ c main_arg10 (by decide)).trans
    ((W5_of m ρ c main_arg10 (by decide)).trans
    ((W4_of m ρ c main_arg10 (by decide)).trans
    ((W3_of m ρ c main_arg10 (by decide)).trans
    ((W2_of m ρ c main_arg10 (by decide)).trans
    ((W1_of m ρ c main_arg10 (by decide)).trans
    ((rfl : W0 m ρ c (Proc.devRef .tc main_arg10) = m ((c : Thread nD τ).loc main_arg10)))))))))))))))))))))))))))))))
set_option maxRecDepth 65536 in
theorem W29_main_arg11 (c : Dev nD) : W29 m ρ c (Proc.devRef .tc main_arg11) = m ((c : Thread nD τ).loc main_arg11) :=
  (W29_of m ρ c main_arg11 (by decide)).trans
    ((W28_of_ne m ρ c main_arg11 (by decide)).trans
    ((W27_of m ρ c main_arg11 (by decide)).trans
    ((W26_of m ρ c main_arg11 (by decide)).trans
    ((W25_of m ρ c main_arg11 (by decide)).trans
    ((W24_of m ρ c main_arg11 (by decide)).trans
    ((W23_of m ρ c main_arg11 (by decide)).trans
    ((W22_of_ne m ρ c main_arg11 (by decide)).trans
    ((W21_of m ρ c main_arg11 (by decide)).trans
    ((W20_of m ρ c main_arg11 (by decide)).trans
    ((W19_of m ρ c main_arg11 (by decide)).trans
    ((W18_of m ρ c main_arg11 (by decide)).trans
    ((W17_of m ρ c main_arg11 (by decide)).trans
    ((W16_of_ne m ρ c main_arg11 (by decide)).trans
    ((W15_of m ρ c main_arg11 (by decide)).trans
    ((W14_of m ρ c main_arg11 (by decide)).trans
    ((W13_of m ρ c main_arg11 (by decide)).trans
    ((W12_of m ρ c main_arg11 (by decide)).trans
    ((W11_of m ρ c main_arg11 (by decide)).trans
    ((W10_of m ρ c main_arg11 (by decide)).trans
    ((W9_of m ρ c main_arg11 (by decide)).trans
    ((W8_of_ne m ρ c main_arg11 (by decide)).trans
    ((W7_of m ρ c main_arg11 (by decide)).trans
    ((W6_of m ρ c main_arg11 (by decide)).trans
    ((W5_of m ρ c main_arg11 (by decide)).trans
    ((W4_of m ρ c main_arg11 (by decide)).trans
    ((W3_of m ρ c main_arg11 (by decide)).trans
    ((W2_of m ρ c main_arg11 (by decide)).trans
    ((W1_of m ρ c main_arg11 (by decide)).trans
    ((rfl : W0 m ρ c (Proc.devRef .tc main_arg11) = m ((c : Thread nD τ).loc main_arg11)))))))))))))))))))))))))))))))
set_option maxRecDepth 65536 in
theorem W29_main_arg12 (c : Dev nD) : W29 m ρ c (Proc.devRef .tc main_arg12) = m ((c : Thread nD τ).loc main_arg12) :=
  (W29_of m ρ c main_arg12 (by decide)).trans
    ((W28_of_ne m ρ c main_arg12 (by decide)).trans
    ((W27_of m ρ c main_arg12 (by decide)).trans
    ((W26_of m ρ c main_arg12 (by decide)).trans
    ((W25_of m ρ c main_arg12 (by decide)).trans
    ((W24_of m ρ c main_arg12 (by decide)).trans
    ((W23_of m ρ c main_arg12 (by decide)).trans
    ((W22_of_ne m ρ c main_arg12 (by decide)).trans
    ((W21_of m ρ c main_arg12 (by decide)).trans
    ((W20_of m ρ c main_arg12 (by decide)).trans
    ((W19_of m ρ c main_arg12 (by decide)).trans
    ((W18_of m ρ c main_arg12 (by decide)).trans
    ((W17_of m ρ c main_arg12 (by decide)).trans
    ((W16_of_ne m ρ c main_arg12 (by decide)).trans
    ((W15_of m ρ c main_arg12 (by decide)).trans
    ((W14_of m ρ c main_arg12 (by decide)).trans
    ((W13_of m ρ c main_arg12 (by decide)).trans
    ((W12_of m ρ c main_arg12 (by decide)).trans
    ((W11_of m ρ c main_arg12 (by decide)).trans
    ((W10_of m ρ c main_arg12 (by decide)).trans
    ((W9_of m ρ c main_arg12 (by decide)).trans
    ((W8_of_ne m ρ c main_arg12 (by decide)).trans
    ((W7_of m ρ c main_arg12 (by decide)).trans
    ((W6_of m ρ c main_arg12 (by decide)).trans
    ((W5_of m ρ c main_arg12 (by decide)).trans
    ((W4_of m ρ c main_arg12 (by decide)).trans
    ((W3_of m ρ c main_arg12 (by decide)).trans
    ((W2_of m ρ c main_arg12 (by decide)).trans
    ((W1_of m ρ c main_arg12 (by decide)).trans
    ((rfl : W0 m ρ c (Proc.devRef .tc main_arg12) = m ((c : Thread nD τ).loc main_arg12)))))))))))))))))))))))))))))))
set_option maxRecDepth 65536 in
theorem W29_main_arg13 (c : Dev nD) : W29 m ρ c (Proc.devRef .tc main_arg13) = m ((c : Thread nD τ).loc main_arg13) :=
  (W29_of m ρ c main_arg13 (by decide)).trans
    ((W28_of_ne m ρ c main_arg13 (by decide)).trans
    ((W27_of m ρ c main_arg13 (by decide)).trans
    ((W26_of m ρ c main_arg13 (by decide)).trans
    ((W25_of m ρ c main_arg13 (by decide)).trans
    ((W24_of m ρ c main_arg13 (by decide)).trans
    ((W23_of m ρ c main_arg13 (by decide)).trans
    ((W22_of_ne m ρ c main_arg13 (by decide)).trans
    ((W21_of m ρ c main_arg13 (by decide)).trans
    ((W20_of m ρ c main_arg13 (by decide)).trans
    ((W19_of m ρ c main_arg13 (by decide)).trans
    ((W18_of m ρ c main_arg13 (by decide)).trans
    ((W17_of m ρ c main_arg13 (by decide)).trans
    ((W16_of_ne m ρ c main_arg13 (by decide)).trans
    ((W15_of m ρ c main_arg13 (by decide)).trans
    ((W14_of m ρ c main_arg13 (by decide)).trans
    ((W13_of m ρ c main_arg13 (by decide)).trans
    ((W12_of m ρ c main_arg13 (by decide)).trans
    ((W11_of m ρ c main_arg13 (by decide)).trans
    ((W10_of m ρ c main_arg13 (by decide)).trans
    ((W9_of m ρ c main_arg13 (by decide)).trans
    ((W8_of_ne m ρ c main_arg13 (by decide)).trans
    ((W7_of m ρ c main_arg13 (by decide)).trans
    ((W6_of m ρ c main_arg13 (by decide)).trans
    ((W5_of m ρ c main_arg13 (by decide)).trans
    ((W4_of m ρ c main_arg13 (by decide)).trans
    ((W3_of m ρ c main_arg13 (by decide)).trans
    ((W2_of m ρ c main_arg13 (by decide)).trans
    ((W1_of m ρ c main_arg13 (by decide)).trans
    ((rfl : W0 m ρ c (Proc.devRef .tc main_arg13) = m ((c : Thread nD τ).loc main_arg13)))))))))))))))))))))))))))))))

/-! ## The proof data family and the thread state -/

/-- No pipeline has a prefetched table. -/
abbrev adm : (p : Fin 4) → (pcfgs (F := F) p).Adm := fun p => (cfgs p).toPCfg_adm
/-- Every pipeline's proof data, each at its region's entry contents: a literal match on the pipeline's number. -/
def pdats : (p : Fin 4) → (c : Dev nD) → Dat τ (Elt F) Unit ℕ (UR sig nD τ) ℕ (Pipeline.pin (pcfgs (F := F)) adm p) c
  | ⟨0, _⟩ => fun c => dat0 (V7 m ρ) c
  | ⟨1, _⟩ => fun c => dat1 (V15 m ρ) c
  | ⟨2, _⟩ => fun c => dat2 (V21 m ρ) c
  | ⟨3, _⟩ => fun c => dat3 (V27 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W29 m ρ c) ∗ ∃ r, prngReg c r)

/-! ## The pipelines as segments -/

set_option backward.isDefEq.respectTransparency.types false in
/-- Pipeline 0 over the thread state: entered from every unscoped buffer at `W7`, left at `W8`.  Its arrays are
    split out of the unscoped buffers and put back at the exit contents; the generator register goes into the
    pipeline's invariant and comes out of it; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V7 m ρ) c).loose
  hwaits := Pipeline.hwaits_of_owed_zero _ _ _ _ L lv 0 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec0 c (V7 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V7 m ρ) c).Φ 0 from rfl]
    iintro ⟨Hp, -, Hr⟩
    iapply (hin0 (V7 m ρ) c)
    unfold Pipeline.ΦA
    isplitl [Hr]; · iexact Hr
    iexact Hp
  hout c := by
    rw [Pipeline.ownSems0_none, show (pdats m ρ 0 c).Φ (Fin.last _) = (dat0 (V7 m ρ) c).Φ (Fin.last cfg0.N) from rfl]
    iintro H
    ihave H2 := (hout0 (V7 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V7 m ρ c) (V8 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 over the thread state: entered from every unscoped buffer at `W15`, left at `W16`.  Its arrays are
    split out of the unscoped buffers and put back at the exit contents; the generator register goes into the
    pipeline's invariant and comes out of it; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V15 m ρ) c).loose
  hwaits := Pipeline.hwaits_of_owed_zero _ _ _ _ L lv 1 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec1 c (V15 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V15 m ρ) c).Φ 0 from rfl]
    iintro ⟨Hp, -, Hr⟩
    iapply (hin1 (V15 m ρ) c)
    unfold Pipeline.ΦA
    isplitl [Hr]; · iexact Hr
    iexact Hp
  hout c := by
    rw [Pipeline.ownSems0_none, show (pdats m ρ 1 c).Φ (Fin.last _) = (dat1 (V15 m ρ) c).Φ (Fin.last cfg1.N) from rfl]
    iintro H
    ihave H2 := (hout1 (V15 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V15 m ρ c) (V16 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 2 over the thread state: entered from every unscoped buffer at `W21`, left at `W22`.  Its arrays are
    split out of the unscoped buffers and put back at the exit contents; the generator register goes into the
    pipeline's invariant and comes out of it; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V21 m ρ) c).loose
  hwaits := Pipeline.hwaits_of_owed_zero _ _ _ _ L lv 2 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec2 c (V21 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V21 m ρ c) (V22 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 3 over the thread state: entered from every unscoped buffer at `W27`, left at `W28`.  Its arrays are
    split out of the unscoped buffers and put back at the exit contents; the generator register goes into the
    pipeline's invariant and comes out of it; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V27 m ρ) c).loose
  hwaits := Pipeline.hwaits_of_owed_zero _ _ _ _ L lv 3 fun _ _ => rfl
  pre c := iprop(StableHlo.held (c : Thread nD τ) (Pipeline.ucRefs τ sig) (W27 m ρ c) ∗ R c)
  post c := iprop(StableHlo.held (c : Thread nD τ) (Pipeline.ucRefs τ sig) (W28 m ρ c) ∗ R c)
  X c := iprop(∃ r, prngReg c r)
  Y c := iprop(∃ r, prngReg c r)
  Z c := Pipeline.unscopedRest (Ix := Unit) (Name := ℕ) (U := UR sig nD τ) (Lvl := ℕ) spec3 c (V27 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V27 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V27 m ρ c) (V28 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .region (reg0 m ρ),
    .host (hseg hostOps1 hostOps1_sub hostOps1_fresh (W8 m ρ)),
    .host (hseg hostOps1_1 hostOps1_1_sub hostOps1_1_fresh (W9 m ρ)),
    .host (hseg hostOps1_2 hostOps1_2_sub hostOps1_2_fresh (W10 m ρ)),
    .host (hseg hostOps1_3 hostOps1_3_sub hostOps1_3_fresh (W11 m ρ)),
    .host (hseg hostOps1_4 hostOps1_4_sub hostOps1_4_fresh (W12 m ρ)),
    .host (hseg hostOps1_5 hostOps1_5_sub hostOps1_5_fresh (W13 m ρ)),
    .host (hseg hostOps1_6 hostOps1_6_sub hostOps1_6_fresh (W14 m ρ)),
    .region (reg1 m ρ),
    .host (hseg hostOps2 hostOps2_sub hostOps2_fresh (W16 m ρ)),
    .host (hseg hostOps2_1 hostOps2_1_sub hostOps2_1_fresh (W17 m ρ)),
    .host (hseg hostOps2_2 hostOps2_2_sub hostOps2_2_fresh (W18 m ρ)),
    .host (hseg hostOps2_3 hostOps2_3_sub hostOps2_3_fresh (W19 m ρ)),
    .host (hseg hostOps2_4 hostOps2_4_sub hostOps2_4_fresh (W20 m ρ)),
    .region (reg2 m ρ),
    .host (hseg hostOps3 hostOps3_sub hostOps3_fresh (W22 m ρ)),
    .host (hseg hostOps3_1 hostOps3_1_sub hostOps3_1_fresh (W23 m ρ)),
    .host (hseg hostOps3_2 hostOps3_2_sub hostOps3_2_fresh (W24 m ρ)),
    .host (hseg hostOps3_3 hostOps3_3_sub hostOps3_3_fresh (W25 m ρ)),
    .host (hseg hostOps3_4 hostOps3_4_sub hostOps3_4_fresh (W26 m ρ)),
    .region (reg3 m ρ),
    .host (hseg hostOps4 hostOps4_sub hostOps4_fresh (W28 m ρ)) ]

/-- @main IS the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters every weakly fair execution of @main on the TensorCores terminates,
    nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W29 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c => h c)

/-- THE FRAME at any `F`: the run, read at the fourteen argument buffers. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W29_main_arg0 m ρ c),
     (h c _ (mem_uc main_arg1 (by decide))).trans (W29_main_arg1 m ρ c),
     (h c _ (mem_uc main_arg2 (by decide))).trans (W29_main_arg2 m ρ c),
     (h c _ (mem_uc main_arg3 (by decide))).trans (W29_main_arg3 m ρ c),
     (h c _ (mem_uc main_arg4 (by decide))).trans (W29_main_arg4 m ρ c),
     (h c _ (mem_uc main_arg5 (by decide))).trans (W29_main_arg5 m ρ c),
     (h c _ (mem_uc main_arg6 (by decide))).trans (W29_main_arg6 m ρ c),
     (h c _ (mem_uc main_arg7 (by decide))).trans (W29_main_arg7 m ρ c),
     (h c _ (mem_uc main_arg8 (by decide))).trans (W29_main_arg8 m ρ c),
     (h c _ (mem_uc main_arg9 (by decide))).trans (W29_main_arg9 m ρ c),
     (h c _ (mem_uc main_arg10 (by decide))).trans (W29_main_arg10 m ρ c),
     (h c _ (mem_uc main_arg11 (by decide))).trans (W29_main_arg11 m ρ c),
     (h c _ (mem_uc main_arg12 (by decide))).trans (W29_main_arg12 m ρ c),
     (h c _ (mem_uc main_arg13 (by decide))).trans (W29_main_arg13 m ρ c)⟩)
    (run_all m ρ)

end Cert.KernelIdeal.Hand

end
-- ==== Proof.KIKept.lean ====
/-
  A buffer that nothing writes after a given boundary of @main holds at the end what it held at that boundary.  The
  buffers written after boundary k are listed: each later stretch's written buffers in order and each later
  pipeline's output array (a pipeline leaves its two input arrays as it found them).
-/
import proofs.«110517_j15659450761722_1_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

/-- Pipeline 0's arrays: two inputs and the output. -/
abbrev arrs0 : List (Ref sig .tc) := [main_v127, main_v137, main_v138]
theorem arrs0_mem : ∀ w : Fin cfg0.W, Pipeline.arrRef spec0 w ∈ arrs0 := by decide
/-- Across pipeline 0 every buffer but its output array keeps its contents: an input array is read back as
    entered, any other buffer bypasses the pipeline. -/
theorem W8_keep (c : Dev nD) (r : Ref sig .tc) (h : r ∉ ([main_v138] : List (Ref sig .tc))) :
    W8 m ρ c (Proc.devRef .tc r) = W7 m ρ c (Proc.devRef .tc r) := by
  by_cases h0 : r = main_v127
  · subst h0
    exact (W8_arr m ρ c 0).trans (((dat0 (V7 m ρ) c).arrAt_in 0 rfl _).trans (A_eq0 (V7 m ρ) c 0))
  · by_cases h1 : r = main_v137
    · subst h1
      exact (W8_arr m ρ c 1).trans (((dat0 (V7 m ρ) c).arrAt_in 1 rfl _).trans (A_eq0 (V7 m ρ) c 1))
    · refine W8_of_ne m ρ c r (fun w e => ?_)
      have hm := arrs0_mem w
      rw [e] at hm
      simp only [List.mem_cons, List.mem_nil_iff, or_false] at hm
      rcases hm with hm | hm | hm
      · exact h0 hm
      · exact h1 hm
      · exact h (List.mem_singleton.mpr hm)
/-- Pipeline 1's arrays: two inputs and the output. -/
abbrev arrs1 : List (Ref sig .tc) := [main_v154, main_v164, main_v165]
theorem arrs1_mem : ∀ w : Fin cfg1.W, Pipeline.arrRef spec1 w ∈ arrs1 := by decide
/-- Across pipeline 1 every buffer but its output array keeps its contents: an input array is read back as
    entered, any other buffer bypasses the pipeline. -/
theorem W16_keep (c : Dev nD) (r : Ref sig .tc) (h : r ∉ ([main_v165] : List (Ref sig .tc))) :
    W16 m ρ c (Proc.devRef .tc r) = W15 m ρ c (Proc.devRef .tc r) := by
  by_cases h0 : r = main_v154
  · subst h0
    exact (W16_arr m ρ c 0).trans (((dat1 (V15 m ρ) c).arrAt_in 0 rfl _).trans (A_eq1 (V15 m ρ) c 0))
  · by_cases h1 : r = main_v164
    · subst h1
      exact (W16_arr m ρ c 1).trans (((dat1 (V15 m ρ) c).arrAt_in 1 rfl _).trans (A_eq1 (V15 m ρ) c 1))
    · refine W16_of_ne m ρ c r (fun w e => ?_)
      have hm := arrs1_mem w
      rw [e] at hm
      simp only [List.mem_cons, List.mem_nil_iff, or_false] at hm
      rcases hm with hm | hm | hm
      · exact h0 hm
      · exact h1 hm
      · exact h (List.mem_singleton.mpr hm)
/-- Pipeline 2's arrays: two inputs and the output. -/
abbrev arrs2 : List (Ref sig .tc) := [main_v191, main_v196, main_v216]
theorem arrs2_mem : ∀ w : Fin cfg2.W, Pipeline.arrRef spec2 w ∈ arrs2 := by decide
/-- Across pipeline 2 every buffer but its output array keeps its contents: an input array is read back as
    entered, any other buffer bypasses the pipeline. -/
theorem W22_keep (c : Dev nD) (r : Ref sig .tc) (h : r ∉ ([main_v216] : List (Ref sig .tc))) :
    W22 m ρ c (Proc.devRef .tc r) = W21 m ρ c (Proc.devRef .tc r) := by
  by_cases h0 : r = main_v191
  · subst h0
    exact (W22_arr m ρ c 0).trans (((dat2 (V21 m ρ) c).arrAt_in 0 rfl _).trans (A_eq2 (V21 m ρ) c 0))
  · by_cases h1 : r = main_v196
    · subst h1
      exact (W22_arr m ρ c 1).trans (((dat2 (V21 m ρ) c).arrAt_in 1 rfl _).trans (A_eq2 (V21 m ρ) c 1))
    · refine W22_of_ne m ρ c r (fun w e => ?_)
      have hm := arrs2_mem w
      rw [e] at hm
      simp only [List.mem_cons, List.mem_nil_iff, or_false] at hm
      rcases hm with hm | hm | hm
      · exact h0 hm
      · exact h1 hm
      · exact h (List.mem_singleton.mpr hm)
/-- Pipeline 3's arrays: two inputs and the output. -/
abbrev arrs3 : List (Ref sig .tc) := [main_v234, main_v239, main_v259]
theorem arrs3_mem : ∀ w : Fin cfg3.W, Pipeline.arrRef spec3 w ∈ arrs3 := by decide
/-- Across pipeline 3 every buffer but its output array keeps its contents: an input array is read back as
    entered, any other buffer bypasses the pipeline. -/
theorem W28_keep (c : Dev nD) (r : Ref sig .tc) (h : r ∉ ([main_v259] : List (Ref sig .tc))) :
    W28 m ρ c (Proc.devRef .tc r) = W27 m ρ c (Proc.devRef .tc r) := by
  by_cases h0 : r = main_v234
  · subst h0
    exact (W28_arr m ρ c 0).trans (((dat3 (V27 m ρ) c).arrAt_in 0 rfl _).trans (A_eq3 (V27 m ρ) c 0))
  · by_cases h1 : r = main_v239
    · subst h1
      exact (W28_arr m ρ c 1).trans (((dat3 (V27 m ρ) c).arrAt_in 1 rfl _).trans (A_eq3 (V27 m ρ) c 1))
    · refine W28_of_ne m ρ c r (fun w e => ?_)
      have hm := arrs3_mem w
      rw [e] at hm
      simp only [List.mem_cons, List.mem_nil_iff, or_false] at hm
      rcases hm with hm | hm | hm
      · exact h0 hm
      · exact h1 hm
      · exact h (List.mem_singleton.mpr hm)

/-- Written after the last boundary: nothing. -/
abbrev later28 : List (Ref sig .tc) := []
theorem kept28 (c : Dev nD) (r : Ref sig .tc) (h : r ∉ later28) :
    W29 m ρ c (Proc.devRef .tc r) = W29 m ρ c (Proc.devRef .tc r) := rfl
abbrev later27 : List (Ref sig .tc) := hostOps4_W ++ later28
theorem kept27 (c : Dev nD) (r : Ref sig .tc) (h : r ∉ later27) :
    W29 m ρ c (Proc.devRef .tc r) = W28 m ρ c (Proc.devRef .tc r) :=
  (kept28 m ρ c r (fun hm => h (List.mem_append_right _ hm))).trans (W29_of m ρ c r (fun hm => h (List.mem_append_left _ hm)))
abbrev later26 : List (Ref sig .tc) := [main_v259] ++ later27
theorem kept26 (c : Dev nD) (r : Ref sig .tc) (h : r ∉ later26) :
    W29 m ρ c (Proc.devRef .tc r) = W27 m ρ c (Proc.devRef .tc r) :=
  (kept27 m ρ c r (fun hm => h (List.mem_append_right _ hm))).trans (W28_keep m ρ c r (fun hm => h (List.mem_append_left _ hm)))
abbrev later25 : List (Ref sig .tc) := hostOps3_4_W ++ later26
theorem kept25 (c : Dev nD) (r : Ref sig .tc) (h : r ∉ later25) :
    W29 m ρ c (Proc.devRef .tc r) = W26 m ρ c (Proc.devRef .tc r) :=
  (kept26 m ρ c r (fun hm => h (List.mem_append_right _ hm))).trans (W27_of m ρ c r (fun hm => h (List.mem_append_left _ hm)))
abbrev later24 : List (Ref sig .tc) := hostOps3_3_W ++ later25
theorem kept24 (c : Dev nD) (r : Ref sig .tc) (h : r ∉ later24) :
    W29 m ρ c (Proc.devRef .tc r) = W25 m ρ c (Proc.devRef .tc r) :=
  (kept25 m ρ c r (fun hm => h (List.mem_append_right _ hm))).trans (W26_of m ρ c r (fun hm => h (List.mem_append_left _ hm)))
abbrev later23 : List (Ref sig .tc) := hostOps3_2_W ++ later24
theorem kept23 (c : Dev nD) (r : Ref sig .tc) (h : r ∉ later23) :
    W29 m ρ c (Proc.devRef .tc r) = W24 m ρ c (Proc.devRef .tc r) :=
  (kept24 m ρ c r (fun hm => h (List.mem_append_right _ hm))).trans (W25_of m ρ c r (fun hm => h (List.mem_append_left _ hm)))
abbrev later22 : List (Ref sig .tc) := hostOps3_1_W ++ later23
theorem kept22 (c : Dev nD) (r : Ref sig .tc) (h : r ∉ later22) :
    W29 m ρ c (Proc.devRef .tc r) = W23 m ρ c (Proc.devRef .tc r) :=
  (kept23 m ρ c r (fun hm => h (List.mem_append_right _ hm))).trans (W24_of m ρ c r (fun hm => h (List.mem_append_left _ hm)))
abbrev later21 : List (Ref sig .tc) := hostOps3_W ++ later22
theorem kept21 (c : Dev nD) (r : Ref sig .tc) (h : r ∉ later21) :
    W29 m ρ c (Proc.devRef .tc r) = W22 m ρ c (Proc.devRef .tc r) :=
  (kept22 m ρ c r (fun hm => h (List.mem_append_right _ hm))).trans (W23_of m ρ c r (fun hm => h (List.mem_append_left _ hm)))
abbrev later20 : List (Ref sig .tc) := [main_v216] ++ later21
theorem kept20 (c : Dev nD) (r : Ref sig .tc) (h : r ∉ later20) :
    W29 m ρ c (Proc.devRef .tc r) = W21 m ρ c (Proc.devRef .tc r) :=
  (kept21 m ρ c r (fun hm => h (List.mem_append_right _ hm))).trans (W22_keep m ρ c r (fun hm => h (List.mem_append_left _ hm)))
abbrev later19 : List (Ref sig .tc) := hostOps2_4_W ++ later20
theorem kept19 (c : Dev nD) (r : Ref sig .tc) (h : r ∉ later19) :
    W29 m ρ c (Proc.devRef .tc r) = W20 m ρ c (Proc.devRef .tc r) :=
  (kept20 m ρ c r (fun hm => h (List.mem_append_right _ hm))).trans (W21_of m ρ c r (fun hm => h (List.mem_append_left _ hm)))
abbrev later18 : List (Ref sig .tc) := hostOps2_3_W ++ later19
theorem kept18 (c : Dev nD) (r : Ref sig .tc) (h : r ∉ later18) :
    W29 m ρ c (Proc.devRef .tc r) = W19 m ρ c (Proc.devRef .tc r) :=
  (kept19 m ρ c r (fun hm => h (List.mem_append_right _ hm))).trans (W20_of m ρ c r (fun hm => h (List.mem_append_left _ hm)))
abbrev later17 : List (Ref sig .tc) := hostOps2_2_W ++ later18
theorem kept17 (c : Dev nD) (r : Ref sig .tc) (h : r ∉ later17) :
    W29 m ρ c (Proc.devRef .tc r) = W18 m ρ c (Proc.devRef .tc r) :=
  (kept18 m ρ c r (fun hm => h (List.mem_append_right _ hm))).trans (W19_of m ρ c r (fun hm => h (List.mem_append_left _ hm)))
abbrev later16 : List (Ref sig .tc) := hostOps2_1_W ++ later17
theorem kept16 (c : Dev nD) (r : Ref sig .tc) (h : r ∉ later16) :
    W29 m ρ c (Proc.devRef .tc r) = W17 m ρ c (Proc.devRef .tc r) :=
  (kept17 m ρ c r (fun hm => h (List.mem_append_right _ hm))).trans (W18_of m ρ c r (fun hm => h (List.mem_append_left _ hm)))
abbrev later15 : List (Ref sig .tc) := hostOps2_W ++ later16
theorem kept15 (c : Dev nD) (r : Ref sig .tc) (h : r ∉ later15) :
    W29 m ρ c (Proc.devRef .tc r) = W16 m ρ c (Proc.devRef .tc r) :=
  (kept16 m ρ c r (fun hm => h (List.mem_append_right _ hm))).trans (W17_of m ρ c r (fun hm => h (List.mem_append_left _ hm)))
abbrev later14 : List (Ref sig .tc) := [main_v165] ++ later15
theorem kept14 (c : Dev nD) (r : Ref sig .tc) (h : r ∉ later14) :
    W29 m ρ c (Proc.devRef .tc r) = W15 m ρ c (Proc.devRef .tc r) :=
  (kept15 m ρ c r (fun hm => h (List.mem_append_right _ hm))).trans (W16_keep m ρ c r (fun hm => h (List.mem_append_left _ hm)))
abbrev later13 : List (Ref sig .tc) := hostOps1_6_W ++ later14
theorem kept13 (c : Dev nD) (r : Ref sig .tc) (h : r ∉ later13) :
    W29 m ρ c (Proc.devRef .tc r) = W14 m ρ c (Proc.devRef .tc r) :=
  (kept14 m ρ c r (fun hm => h (List.mem_append_right _ hm))).trans (W15_of m ρ c r (fun hm => h (List.mem_append_left _ hm)))
abbrev later12 : List (Ref sig .tc) := hostOps1_5_W ++ later13
theorem kept12 (c : Dev nD) (r : Ref sig .tc) (h : r ∉ later12) :
    W29 m ρ c (Proc.devRef .tc r) = W13 m ρ c (Proc.devRef .tc r) :=
  (kept13 m ρ c r (fun hm => h (List.mem_append_right _ hm))).trans (W14_of m ρ c r (fun hm => h (List.mem_append_left _ hm)))
abbrev later11 : List (Ref sig .tc) := hostOps1_4_W ++ later12
theorem kept11 (c : Dev nD) (r : Ref sig .tc) (h : r ∉ later11) :
    W29 m ρ c (Proc.devRef .tc r) = W12 m ρ c (Proc.devRef .tc r) :=
  (kept12 m ρ c r (fun hm => h (List.mem_append_right _ hm))).trans (W13_of m ρ c r (fun hm => h (List.mem_append_left _ hm)))
abbrev later10 : List (Ref sig .tc) := hostOps1_3_W ++ later11
theorem kept10 (c : Dev nD) (r : Ref sig .tc) (h : r ∉ later10) :
    W29 m ρ c (Proc.devRef .tc r) = W11 m ρ c (Proc.devRef .tc r) :=
  (kept11 m ρ c r (fun hm => h (List.mem_append_right _ hm))).trans (W12_of m ρ c r (fun hm => h (List.mem_append_left _ hm)))
abbrev later9 : List (Ref sig .tc) := hostOps1_2_W ++ later10
theorem kept9 (c : Dev nD) (r : Ref sig .tc) (h : r ∉ later9) :
    W29 m ρ c (Proc.devRef .tc r) = W10 m ρ c (Proc.devRef .tc r) :=
  (kept10 m ρ c r (fun hm => h (List.mem_append_right _ hm))).trans (W11_of m ρ c r (fun hm => h (List.mem_append_left _ hm)))
abbrev later8 : List (Ref sig .tc) := hostOps1_1_W ++ later9
theorem kept8 (c : Dev nD) (r : Ref sig .tc) (h : r ∉ later8) :
    W29 m ρ c (Proc.devRef .tc r) = W9 m ρ c (Proc.devRef .tc r) :=
  (kept9 m ρ c r (fun hm => h (List.mem_append_right _ hm))).trans (W10_of m ρ c r (fun hm => h (List.mem_append_left _ hm)))
abbrev later7 : List (Ref sig .tc) := hostOps1_W ++ later8
theorem kept7 (c : Dev nD) (r : Ref sig .tc) (h : r ∉ later7) :
    W29 m ρ c (Proc.devRef .tc r) = W8 m ρ c (Proc.devRef .tc r) :=
  (kept8 m ρ c r (fun hm => h (List.mem_append_right _ hm))).trans (W9_of m ρ c r (fun hm => h (List.mem_append_left _ hm)))
abbrev later6 : List (Ref sig .tc) := [main_v138] ++ later7
theorem kept6 (c : Dev nD) (r : Ref sig .tc) (h : r ∉ later6) :
    W29 m ρ c (Proc.devRef .tc r) = W7 m ρ c (Proc.devRef .tc r) :=
  (kept7 m ρ c r (fun hm => h (List.mem_append_right _ hm))).trans (W8_keep m ρ c r (fun hm => h (List.mem_append_left _ hm)))
abbrev later5 : List (Ref sig .tc) := hostOps0_6_W ++ later6
theorem kept5 (c : Dev nD) (r : Ref sig .tc) (h : r ∉ later5) :
    W29 m ρ c (Proc.devRef .tc r) = W6 m ρ c (Proc.devRef .tc r) :=
  (kept6 m ρ c r (fun hm => h (List.mem_append_right _ hm))).trans (W7_of m ρ c r (fun hm => h (List.mem_append_left _ hm)))
abbrev later4 : List (Ref sig .tc) := hostOps0_5_W ++ later5
theorem kept4 (c : Dev nD) (r : Ref sig .tc) (h : r ∉ later4) :
    W29 m ρ c (Proc.devRef .tc r) = W5 m ρ c (Proc.devRef .tc r) :=
  (kept5 m ρ c r (fun hm => h (List.mem_append_right _ hm))).trans (W6_of m ρ c r (fun hm => h (List.mem_append_left _ hm)))
abbrev later3 : List (Ref sig .tc) := hostOps0_4_W ++ later4
theorem kept3 (c : Dev nD) (r : Ref sig .tc) (h : r ∉ later3) :
    W29 m ρ c (Proc.devRef .tc r) = W4 m ρ c (Proc.devRef .tc r) :=
  (kept4 m ρ c r (fun hm => h (List.mem_append_right _ hm))).trans (W5_of m ρ c r (fun hm => h (List.mem_append_left _ hm)))
abbrev later2 : List (Ref sig .tc) := hostOps0_3_W ++ later3
theorem kept2 (c : Dev nD) (r : Ref sig .tc) (h : r ∉ later2) :
    W29 m ρ c (Proc.devRef .tc r) = W3 m ρ c (Proc.devRef .tc r) :=
  (kept3 m ρ c r (fun hm => h (List.mem_append_right _ hm))).trans (W4_of m ρ c r (fun hm => h (List.mem_append_left _ hm)))
abbrev later1 : List (Ref sig .tc) := hostOps0_2_W ++ later2
theorem kept1 (c : Dev nD) (r : Ref sig .tc) (h : r ∉ later1) :
    W29 m ρ c (Proc.devRef .tc r) = W2 m ρ c (Proc.devRef .tc r) :=
  (kept2 m ρ c r (fun hm => h (List.mem_append_right _ hm))).trans (W3_of m ρ c r (fun hm => h (List.mem_append_left _ hm)))
abbrev later0 : List (Ref sig .tc) := hostOps0_1_W ++ later1
theorem kept0 (c : Dev nD) (r : Ref sig .tc) (h : r ∉ later0) :
    W29 m ρ c (Proc.devRef .tc r) = W1 m ρ c (Proc.devRef .tc r) :=
  (kept1 m ρ c r (fun hm => h (List.mem_append_right _ hm))).trans (W2_of m ρ c r (fun hm => h (List.mem_append_left _ hm)))

end Cert.KernelIdeal.Hand

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibReadFinal.lean ====
/-
  Reading a single-assignment line of host operations at its end, with nothing after it: the buffer the operation at
  position `n` wrote holds that operation's function of what its operands hold at the end.  These are the forms of the
  single-assignment reading lemmas for a line followed by nothing, stated directly over `after l U` so that a line
  named by a definition is matched by name and never unfolded.
-/
import proofs.«110517_j15659450761722_1_alg».proof.Proof.LibSingleAssignment

namespace Cert.Lib.ReadFinal

open Idealize.ShloMosaic Idealize.ShloMosaic.StableHlo Cert.Lib.SingleAssignment

variable {τ : Topo} {sig : RefSig} {Val : EltTy → Type}
variable {l : List (HloOp τ sig Val)} {Wl : List (Ref sig .tc)}

private theorem nm {a : Ref sig .tc} {L : List (Ref sig .tc)} (h : a ∉ L) : a ∉ L ++ ([] : List (Ref sig .tc)) := by
  rw [List.append_nil]; exact h

theorem nullary (hl : Writes l Wl) (n : Nat) {y : Ref sig .tc} {v : y.ty.Contents Val} {hy}
    (hop : l[n]? = some (StableHlo.nullary (τ := τ) y v hy)) (ny : y ∉ Wl.drop (n + 1)) (U : Valuation τ sig Val) :
    after l U (Proc.devRef .tc y) = v :=
  read_nullary (t := []) hl List.Forall₂.nil n hop (nm ny) U

theorem unary (hl : Writes l Wl) (n : Nat) {x y : Ref sig .tc} {f : x.ty.Contents Val → y.ty.Contents Val} {hx hy}
    (hop : l[n]? = some (StableHlo.unary (τ := τ) x y f hx hy)) (nx : x ∉ Wl.drop n) (ny : y ∉ Wl.drop (n + 1))
    (U : Valuation τ sig Val) :
    after l U (Proc.devRef .tc y) = f (after l U (Proc.devRef .tc x)) :=
  read_unary (t := []) hl List.Forall₂.nil n hop (nm nx) (nm ny) U

theorem binary (hl : Writes l Wl) (n : Nat) {a b y : Ref sig .tc}
    {f : a.ty.Contents Val → b.ty.Contents Val → y.ty.Contents Val} {ha hb hy}
    (hop : l[n]? = some (StableHlo.binary (τ := τ) a b y f ha hb hy)) (na : a ∉ Wl.drop n) (nb : b ∉ Wl.drop n)
    (ny : y ∉ Wl.drop (n + 1)) (U : Valuation τ sig Val) :
    after l U (Proc.devRef .tc y) = f (after l U (Proc.devRef .tc a)) (after l U (Proc.devRef .tc b)) :=
  read_binary (t := []) hl List.Forall₂.nil n hop (nm na) (nm nb) (nm ny) U

theorem ternary (hl : Writes l Wl) (n : Nat) {c a b y : Ref sig .tc}
    {f : c.ty.Contents Val → a.ty.Contents Val → b.ty.Contents Val → y.ty.Contents Val} {hc ha hb hy}
    (hop : l[n]? = some (StableHlo.ternary (τ := τ) c a b y f hc ha hb hy)) (nc : c ∉ Wl.drop n) (na : a ∉ Wl.drop n)
    (nb : b ∉ Wl.drop n) (ny : y ∉ Wl.drop (n + 1)) (U : Valuation τ sig Val) :
    after l U (Proc.devRef .tc y)
      = f (after l U (Proc.devRef .tc c)) (after l U (Proc.devRef .tc a)) (after l U (Proc.devRef .tc b)) :=
  read_ternary (t := []) hl List.Forall₂.nil n hop (nm nc) (nm na) (nm nb) (nm ny) U

theorem reshape (hl : Writes l Wl) (n : Nat) {x y : Ref sig .tc} {he hn hx hy}
    (hop : l[n]? = some (StableHlo.reshape (τ := τ) (Val := Val) x y he hn hx hy)) (nx : x ∉ Wl.drop n)
    (ny : y ∉ Wl.drop (n + 1)) (U : Valuation τ sig Val) :
    after l U (Proc.devRef .tc y) = fun i => he ▸ shapeCast y.ty.shape (after l U (Proc.devRef .tc x)) hn i :=
  read_reshape (t := []) hl List.Forall₂.nil n hop (nm nx) (nm ny) U

end Cert.Lib.ReadFinal
-- ==== Proof.KIStagesA.lean ====
/-
  Stage by stage: at the end of @main the buffer a host operation wrote holds that operation's function of what its
  operands hold at the end — every buffer is written once, and nothing an operation reads is written after it.
-/
import proofs.«110517_j15659450761722_1_alg».proof.Proof.KIKept
import proofs.«110517_j15659450761722_1_alg».proof.Proof.LibReadFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

theorem kst_main_cst (c : Dev nD) :
    W29 m ρ c (Proc.devRef .tc main_cst) = (constant (F := F) S_ .f32 0x3F800000#32) := by
  rw [kept0 m ρ c main_cst (by decide)]
  exact Cert.Lib.ReadFinal.nullary (l := hostOps0) (hostOps0_inOrder (F := F)) 0 rfl (by decide) (W0 m ρ c)
theorem kst_main_v0 (c : Dev nD) :
    W29 m ρ c (Proc.devRef .tc main_v0) = (broadcastInDim S262144 ![] bcast_S_S262144 : (⟨S_, .f32⟩ : BufTy).Contents (Elt F) → (⟨S262144, .f32⟩ : BufTy).Contents (Elt F)) (W29 m ρ c (Proc.devRef .tc main_cst)) := by
  rw [kept0 m ρ c main_v0 (by decide), kept0 m ρ c main_cst (by decide)]
  exact Cert.Lib.ReadFinal.unary (l := hostOps0) (hostOps0_inOrder (F := F)) 1 rfl (by decide) (by decide) (W0 m ρ c)
theorem kst_main_cst_0 (c : Dev nD) :
    W29 m ρ c (Proc.devRef .tc main_cst_0) = (constant (F := F) S_ .f32 0x00000000#32) := by
  rw [kept0 m ρ c main_cst_0 (by decide)]
  exact Cert.Lib.ReadFinal.nullary (l := hostOps0) (hostOps0_inOrder (F := F)) 2 rfl (by decide) (W0 m ρ c)
theorem kst_main_v1 (c : Dev nD) :
    W29 m ρ c (Proc.devRef .tc main_v1) = (broadcastInDim S4096 ![] bcast_S_S4096 : (⟨S_, .f32⟩ : BufTy).Contents (Elt F) → (⟨S4096, .f32⟩ : BufTy).Contents (Elt F)) (W29 m ρ c (Proc.devRef .tc main_cst_0)) := by
  rw [kept0 m ρ c main_v1 (by decide), kept0 m ρ c main_cst_0 (by decide)]
  exact Cert.Lib.ReadFinal.unary (l := hostOps0) (hostOps0_inOrder (F := F)) 3 rfl (by decide) (by decide) (W0 m ρ c)
theorem kst_main_v2 (c : Dev nD) :
    W29 m ρ c (Proc.devRef .tc main_v2) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg4)) := by
  rw [kept0 m ρ c main_v2 (by decide), kept0 m ρ c main_arg4 (by decide)]
  exact Cert.Lib.ReadFinal.unary (l := hostOps0) (hostOps0_inOrder (F := F)) 4 rfl (by decide) (by decide) (W0 m ρ c)
theorem kst_main_v3 (c : Dev nD) :
    W29 m ρ c (Proc.devRef .tc main_v3) = ((fun x i u => Host.scatterAdd scatter_S4096_S262144x1_S262144_n_0_0_1 x i u) : (⟨S4096, .f32⟩ : BufTy).Contents (Elt F) → (⟨S262144x1, .i32⟩ : BufTy).Contents (Elt F) → (⟨S262144, .f32⟩ : BufTy).Contents (Elt F) → (⟨S4096, .f32⟩ : BufTy).Contents (Elt F)) (W29 m ρ c (Proc.devRef .tc main_v1)) (W29 m ρ c (Proc.devRef .tc main_v2)) (W29 m ρ c (Proc.devRef .tc main_v0)) := by
  rw [kept0 m ρ c main_v3 (by decide), kept0 m ρ c main_v1 (by decide), kept0 m ρ c main_v2 (by decide), kept0 m ρ c main_v0 (by decide)]
  exact Cert.Lib.ReadFinal.ternary (l := hostOps0) (hostOps0_inOrder (F := F)) 5 rfl (by decide) (by decide) (by decide) (by decide) (W0 m ρ c)
theorem kst_main_cst_1 (c : Dev nD) :
    W29 m ρ c (Proc.devRef .tc main_cst_1) = (constant (F := F) S_ .f32 0x00000000#32) := by
  rw [kept0 m ρ c main_cst_1 (by decide)]
  exact Cert.Lib.ReadFinal.nullary (l := hostOps0) (hostOps0_inOrder (F := F)) 6 rfl (by decide) (W0 m ρ c)
theorem kst_main_v4 (c : Dev nD) :
    W29 m ρ c (Proc.devRef .tc main_v4) = (broadcastInDim S4096 ![] bcast_S_S4096 : (⟨S_, .f32⟩ : BufTy).Contents (Elt F) → (⟨S4096, .f32⟩ : BufTy).Contents (Elt F)) (W29 m ρ c (Proc.devRef .tc main_cst_1)) := by
  rw [kept0 m ρ c main_v4 (by decide), kept0 m ρ c main_cst_1 (by decide)]
  exact Cert.Lib.ReadFinal.unary (l := hostOps0) (hostOps0_inOrder (F := F)) 7 rfl (by decide) (by decide) (W0 m ρ c)
theorem kst_main_v5 (c : Dev nD) :
    W29 m ρ c (Proc.devRef .tc main_v5) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg5)) := by
  rw [kept0 m ρ c main_v5 (by decide), kept0 m ρ c main_arg5 (by decide)]
  exact Cert.Lib.ReadFinal.unary (l := hostOps0) (hostOps0_inOrder (F := F)) 8 rfl (by decide) (by decide) (W0 m ρ c)
theorem kst_main_v6 (c : Dev nD) :
    W29 m ρ c (Proc.devRef .tc main_v6) = ((fun x i u => Host.scatterAdd scatter_S4096_S262144x1_S262144_n_0_0_1 x i u) : (⟨S4096, .f32⟩ : BufTy).Contents (Elt F) → (⟨S262144x1, .i32⟩ : BufTy).Contents (Elt F) → (⟨S262144, .f32⟩ : BufTy).Contents (Elt F) → (⟨S4096, .f32⟩ : BufTy).Contents (Elt F)) (W29 m ρ c (Proc.devRef .tc main_v4)) (W29 m ρ c (Proc.devRef .tc main_v5)) (W29 m ρ c (Proc.devRef .tc main_v0)) := by
  rw [kept0 m ρ c main_v6 (by decide), kept0 m ρ c main_v4 (by decide), kept0 m ρ c main_v5 (by decide), kept0 m ρ c main_v0 (by decide)]
  exact Cert.Lib.ReadFinal.ternary (l := hostOps0) (hostOps0_inOrder (F := F)) 9 rfl (by decide) (by decide) (by decide) (by decide) (W0 m ρ c)
theorem kst_main_cst_2 (c : Dev nD) :
    W29 m ρ c (Proc.devRef .tc main_cst_2) = (constant (F := F) S_ .f32 0x3F800000#32) := by
  rw [kept0 m ρ c main_cst_2 (by decide)]
  exact Cert.Lib.ReadFinal.nullary (l := hostOps0) (hostOps0_inOrder (F := F)) 10 rfl (by decide) (W0 m ρ c)
theorem kst_main_v7 (c : Dev nD) :
    W29 m ρ c (Proc.devRef .tc main_v7) = (broadcastInDim S4096 ![] bcast_S_S4096 : (⟨S_, .f32⟩ : BufTy).Contents (Elt F) → (⟨S4096, .f32⟩ : BufTy).Contents (Elt F)) (W29 m ρ c (Proc.devRef .tc main_cst_2)) := by
  rw [kept0 m ρ c main_v7 (by decide), kept0 m ρ c main_cst_2 (by decide)]
  exact Cert.Lib.ReadFinal.unary (l := hostOps0) (hostOps0_inOrder (F := F)) 11 rfl (by decide) (by decide) (W0 m ρ c)
theorem kst_main_v8 (c : Dev nD) :
    W29 m ρ c (Proc.devRef .tc main_v8) = (maximumf : (⟨S4096, .f32⟩ : BufTy).Contents (Elt F) → (⟨S4096, .f32⟩ : BufTy).Contents (Elt F) → (⟨S4096, .f32⟩ : BufTy).Contents (Elt F)) (W29 m ρ c (Proc.devRef .tc main_v3)) (W29 m ρ c (Proc.devRef .tc main_v7)) := by
  rw [kept0 m ρ c main_v8 (by decide), kept0 m ρ c main_v3 (by decide), kept0 m ρ c main_v7 (by decide)]
  exact Cert.Lib.ReadFinal.binary (l := hostOps0) (hostOps0_inOrder (F := F)) 12 rfl (by decide) (by decide) (by decide) (W0 m ρ c)
theorem kst_main_v9 (c : Dev nD) :
    W29 m ρ c (Proc.devRef .tc main_v9) = (Host.sqrt : (⟨S4096, .f32⟩ : BufTy).Contents (Elt F) → (⟨S4096, .f32⟩ : BufTy).Contents (Elt F)) (W29 m ρ c (Proc.devRef .tc main_v8)) := by
  rw [kept0 m ρ c main_v9 (by decide), kept0 m ρ c main_v8 (by decide)]
  exact Cert.Lib.ReadFinal.unary (l := hostOps0) (hostOps0_inOrder (F := F)) 13 rfl (by decide) (by decide) (W0 m ρ c)
theorem kst_main_cst_3 (c : Dev nD) :
    W29 m ρ c (Proc.devRef .tc main_cst_3) = (constant (F := F) S_ .f32 0x3F800000#32) := by
  rw [kept0 m ρ c main_cst_3 (by decide)]
  exact Cert.Lib.ReadFinal.nullary (l := hostOps0) (hostOps0_inOrder (F := F)) 14 rfl (by decide) (W0 m ρ c)
theorem kst_main_v10 (c : Dev nD) :
    W29 m ρ c (Proc.devRef .tc main_v10) = (broadcastInDim S4096 ![] bcast_S_S4096 : (⟨S_, .f32⟩ : BufTy).Contents (Elt F) → (⟨S4096, .f32⟩ : BufTy).Contents (Elt F)) (W29 m ρ c (Proc.devRef .tc main_cst_3)) := by
  rw [kept0 m ρ c main_v10 (by decide), kept0 m ρ c main_cst_3 (by decide)]
  exact Cert.Lib.ReadFinal.unary (l := hostOps0) (hostOps0_inOrder (F := F)) 15 rfl (by decide) (by decide) (W0 m ρ c)
theorem kst_main_v11 (c : Dev nD) :
    W29 m ρ c (Proc.devRef .tc main_v11) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v10)) (W29 m ρ c (Proc.devRef .tc main_v9)) := by
  rw [kept0 m ρ c main_v11 (by decide), kept0 m ρ c main_v10 (by decide), kept0 m ρ c main_v9 (by decide)]
  exact Cert.Lib.ReadFinal.binary (l := hostOps0) (hostOps0_inOrder (F := F)) 16 rfl (by decide) (by decide) (by decide) (W0 m ρ c)
theorem kst_main_v12 (c : Dev nD) :
    W29 m ρ c (Proc.devRef .tc main_v12) = (broadcastInDim S4096x1 ![0] bcast_S4096_S4096x1_0 : (⟨S4096, .f32⟩ : BufTy).Contents (Elt F) → (⟨S4096x1, .f32⟩ : BufTy).Contents (Elt F)) (W29 m ρ c (Proc.devRef .tc main_v11)) := by
  rw [kept0 m ρ c main_v12 (by decide), kept0 m ρ c main_v11 (by decide)]
  exact Cert.Lib.ReadFinal.unary (l := hostOps0) (hostOps0_inOrder (F := F)) 17 rfl (by decide) (by decide) (W0 m ρ c)
theorem kst_main_cst_4 (c : Dev nD) :
    W29 m ρ c (Proc.devRef .tc main_cst_4) = (constant (F := F) S_ .f32 0x3F800000#32) := by
  rw [kept0 m ρ c main_cst_4 (by decide)]
  exact Cert.Lib.ReadFinal.nullary (l := hostOps0) (hostOps0_inOrder (F := F)) 18 rfl (by decide) (W0 m ρ c)
theorem kst_main_v13 (c : Dev nD) :
    W29 m ρ c (Proc.devRef .tc main_v13) = (broadcastInDim S4096 ![] bcast_S_S4096 : (⟨S_, .f32⟩ : BufTy).Contents (Elt F) → (⟨S4096, .f32⟩ : BufTy).Contents (Elt F)) (W29 m ρ c (Proc.devRef .tc main_cst_4)) := by
  rw [kept0 m ρ c main_v13 (by decide), kept0 m ρ c main_cst_4 (by decide)]
  exact Cert.Lib.ReadFinal.unary (l := hostOps0) (hostOps0_inOrder (F := F)) 19 rfl (by decide) (by decide) (W0 m ρ c)
theorem kst_main_v14 (c : Dev nD) :
    W29 m ρ c (Proc.devRef .tc main_v14) = (maximumf : (⟨S4096, .f32⟩ : BufTy).Contents (Elt F) → (⟨S4096, .f32⟩ : BufTy).Contents (Elt F) → (⟨S4096, .f32⟩ : BufTy).Contents (Elt F)) (W29 m ρ c (Proc.devRef .tc main_v6)) (W29 m ρ c (Proc.devRef .tc main_v13)) := by
  rw [kept0 m ρ c main_v14 (by decide), kept0 m ρ c main_v6 (by decide), kept0 m ρ c main_v13 (by decide)]
  exact Cert.Lib.ReadFinal.binary (l := hostOps0) (hostOps0_inOrder (F := F)) 20 rfl (by decide) (by decide) (by decide) (W0 m ρ c)
theorem kst_main_v15 (c : Dev nD) :
    W29 m ρ c (Proc.devRef .tc main_v15) = (Host.sqrt : (⟨S4096, .f32⟩ : BufTy).Contents (Elt F) → (⟨S4096, .f32⟩ : BufTy).Contents (Elt F)) (W29 m ρ c (Proc.devRef .tc main_v14)) := by
  rw [kept0 m ρ c main_v15 (by decide), kept0 m ρ c main_v14 (by decide)]
  exact Cert.Lib.ReadFinal.unary (l := hostOps0) (hostOps0_inOrder (F := F)) 21 rfl (by decide) (by decide) (W0 m ρ c)
theorem kst_main_cst_5 (c : Dev nD) :
    W29 m ρ c (Proc.devRef .tc main_cst_5) = (constant (F := F) S_ .f32 0x3F800000#32) := by
  rw [kept0 m ρ c main_cst_5 (by decide)]
  exact Cert.Lib.ReadFinal.nullary (l := hostOps0) (hostOps0_inOrder (F := F)) 22 rfl (by decide) (W0 m ρ c)
theorem kst_main_v16 (c : Dev nD) :
    W29 m ρ c (Proc.devRef .tc main_v16) = (broadcastInDim S4096 ![] bcast_S_S4096 : (⟨S_, .f32⟩ : BufTy).Contents (Elt F) → (⟨S4096, .f32⟩ : BufTy).Contents (Elt F)) (W29 m ρ c (Proc.devRef .tc main_cst_5)) := by
  rw [kept0 m ρ c main_v16 (by decide), kept0 m ρ c main_cst_5 (by decide)]
  exact Cert.Lib.ReadFinal.unary (l := hostOps0) (hostOps0_inOrder (F := F)) 23 rfl (by decide) (by decide) (W0 m ρ c)
theorem kst_main_v17 (c : Dev nD) :
    W29 m ρ c (Proc.devRef .tc main_v17) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v16)) (W29 m ρ c (Proc.devRef .tc main_v15)) := by
  rw [kept0 m ρ c main_v17 (by decide), kept0 m ρ c main_v16 (by decide), kept0 m ρ c main_v15 (by decide)]
  exact Cert.Lib.ReadFinal.binary (l := hostOps0) (hostOps0_inOrder (F := F)) 24 rfl (by decide) (by decide) (by decide) (W0 m ρ c)
theorem kst_main_v18 (c : Dev nD) :
    W29 m ρ c (Proc.devRef .tc main_v18) = (broadcastInDim S4096x1 ![0] bcast_S4096_S4096x1_0 : (⟨S4096, .f32⟩ : BufTy).Contents (Elt F) → (⟨S4096x1, .f32⟩ : BufTy).Contents (Elt F)) (W29 m ρ c (Proc.devRef .tc main_v17)) := by
  rw [kept0 m ρ c main_v18 (by decide), kept0 m ρ c main_v17 (by decide)]
  exact Cert.Lib.ReadFinal.unary (l := hostOps0) (hostOps0_inOrder (F := F)) 25 rfl (by decide) (by decide) (W0 m ρ c)
theorem kst_main_c (c : Dev nD) :
    W29 m ρ c (Proc.devRef .tc main_c) = (constantI S_ 32 0#32) := by
  rw [kept0 m ρ c main_c (by decide)]
  exact Cert.Lib.ReadFinal.nullary (l := hostOps0) (hostOps0_inOrder (F := F)) 26 rfl (by decide) (W0 m ρ c)
theorem kst_main_v19 (c : Dev nD) :
    W29 m ρ c (Proc.devRef .tc main_v19) = (broadcastInDim S4096 ![] bcast_S_S4096 : (⟨S_, .i32⟩ : BufTy).Contents (Elt F) → (⟨S4096, .i32⟩ : BufTy).Contents (Elt F)) (W29 m ρ c (Proc.devRef .tc main_c)) := by
  rw [kept0 m ρ c main_v19 (by decide), kept0 m ρ c main_c (by decide)]
  exact Cert.Lib.ReadFinal.unary (l := hostOps0) (hostOps0_inOrder (F := F)) 27 rfl (by decide) (by decide) (W0 m ρ c)
theorem kst_main_v20 (c : Dev nD) :
    W29 m ρ c (Proc.devRef .tc main_v20) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg10)) (W29 m ρ c (Proc.devRef .tc main_v19)) := by
  rw [kept0 m ρ c main_v20 (by decide), kept0 m ρ c main_arg10 (by decide), kept0 m ρ c main_v19 (by decide)]
  exact Cert.Lib.ReadFinal.binary (l := hostOps0) (hostOps0_inOrder (F := F)) 28 rfl (by decide) (by decide) (by decide) (W0 m ρ c)
theorem kst_main_c_6 (c : Dev nD) :
    W29 m ρ c (Proc.devRef .tc main_c_6) = (constantI S_ 32 50000#32) := by
  rw [kept0 m ρ c main_c_6 (by decide)]
  exact Cert.Lib.ReadFinal.nullary (l := hostOps0) (hostOps0_inOrder (F := F)) 29 rfl (by decide) (W0 m ρ c)
theorem kst_main_v21 (c : Dev nD) :
    W29 m ρ c (Proc.devRef .tc main_v21) = (broadcastInDim S4096 ![] bcast_S_S4096 : (⟨S_, .i32⟩ : BufTy).Contents (Elt F) → (⟨S4096, .i32⟩ : BufTy).Contents (Elt F)) (W29 m ρ c (Proc.devRef .tc main_c_6)) := by
  rw [kept0 m ρ c main_v21 (by decide), kept0 m ρ c main_c_6 (by decide)]
  exact Cert.Lib.ReadFinal.unary (l := hostOps0) (hostOps0_inOrder (F := F)) 30 rfl (by decide) (by decide) (W0 m ρ c)
theorem kst_main_v22 (c : Dev nD) :
    W29 m ρ c (Proc.devRef .tc main_v22) = (addi : (⟨S4096, .i32⟩ : BufTy).Contents (Elt F) → (⟨S4096, .i32⟩ : BufTy).Contents (Elt F) → (⟨S4096, .i32⟩ : BufTy).Contents (Elt F)) (W29 m ρ c (Proc.devRef .tc main_arg10)) (W29 m ρ c (Proc.devRef .tc main_v21)) := by
  rw [kept0 m ρ c main_v22 (by decide), kept0 m ρ c main_arg10 (by decide), kept0 m ρ c main_v21 (by decide)]
  exact Cert.Lib.ReadFinal.binary (l := hostOps0) (hostOps0_inOrder (F := F)) 31 rfl (by decide) (by decide) (by decide) (W0 m ρ c)
theorem kst_main_v23 (c : Dev nD) :
    W29 m ρ c (Proc.devRef .tc main_v23) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v20)) (W29 m ρ c (Proc.devRef .tc main_v22)) (W29 m ρ c (Proc.devRef .tc main_arg10)) := by
  rw [kept0 m ρ c main_v23 (by decide), kept0 m ρ c main_v20 (by decide), kept0 m ρ c main_v22 (by decide), kept0 m ρ c main_arg10 (by decide)]
  exact Cert.Lib.ReadFinal.ternary (l := hostOps0) (hostOps0_inOrder (F := F)) 32 rfl (by decide) (by decide) (by decide) (by decide) (W0 m ρ c)
theorem kst_main_v24 (c : Dev nD) :
    W29 m ρ c (Proc.devRef .tc main_v24) = (broadcastInDim S4096x1 ![0] bcast_S4096_S4096x1_0 : (⟨S4096, .i32⟩ : BufTy).Contents (Elt F) → (⟨S4096x1, .i32⟩ : BufTy).Contents (Elt F)) (W29 m ρ c (Proc.devRef .tc main_v23)) := by
  rw [kept0 m ρ c main_v24 (by decide), kept0 m ρ c main_v23 (by decide)]
  exact Cert.Lib.ReadFinal.unary (l := hostOps0) (hostOps0_inOrder (F := F)) 33 rfl (by decide) (by decide) (W0 m ρ c)
theorem kst_main_v25 (c : Dev nD) :
    W29 m ρ c (Proc.devRef .tc main_v25) = ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)) (W29 m ρ c (Proc.devRef .tc main_arg0)) (W29 m ρ c (Proc.devRef .tc main_v24)) := by
  rw [kept0 m ρ c main_v25 (by decide), kept0 m ρ c main_arg0 (by decide), kept0 m ρ c main_v24 (by decide)]
  exact Cert.Lib.ReadFinal.binary (l := hostOps0) (hostOps0_inOrder (F := F)) 34 rfl (by decide) (by decide) (by decide) (W0 m ρ c)
theorem kst_main_c_7 (c : Dev nD) :
    W29 m ρ c (Proc.devRef .tc main_c_7) = (constantI S_ 32 0#32) := by
  rw [kept0 m ρ c main_c_7 (by decide)]
  exact Cert.Lib.ReadFinal.nullary (l := hostOps0) (hostOps0_inOrder (F := F)) 35 rfl (by decide) (W0 m ρ c)
theorem kst_main_v26 (c : Dev nD) :
    W29 m ρ c (Proc.devRef .tc main_v26) = (broadcastInDim S4096 ![] bcast_S_S4096 : (⟨S_, .i32⟩ : BufTy).Contents (Elt F) → (⟨S4096, .i32⟩ : BufTy).Contents (Elt F)) (W29 m ρ c (Proc.devRef .tc main_c_7)) := by
  rw [kept0 m ρ c main_v26 (by decide), kept0 m ρ c main_c_7 (by decide)]
  exact Cert.Lib.ReadFinal.unary (l := hostOps0) (hostOps0_inOrder (F := F)) 36 rfl (by decide) (by decide) (W0 m ρ c)
theorem kst_main_v27 (c : Dev nD) :
    W29 m ρ c (Proc.devRef .tc main_v27) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg11)) (W29 m ρ c (Proc.devRef .tc main_v26)) := by
  rw [kept0 m ρ c main_v27 (by decide), kept0 m ρ c main_arg11 (by decide), kept0 m ρ c main_v26 (by decide)]
  exact Cert.Lib.ReadFinal.binary (l := hostOps0) (hostOps0_inOrder (F := F)) 37 rfl (by decide) (by decide) (by decide) (W0 m ρ c)
theorem kst_main_c_8 (c : Dev nD) :
    W29 m ρ c (Proc.devRef .tc main_c_8) = (constantI S_ 32 25000#32) := by
  rw [kept0 m ρ c main_c_8 (by decide)]
  exact Cert.Lib.ReadFinal.nullary (l := hostOps0) (hostOps0_inOrder (F := F)) 38 rfl (by decide) (W0 m ρ c)
theorem kst_main_v28 (c : Dev nD) :
    W29 m ρ c (Proc.devRef .tc main_v28) = (broadcastInDim S4096 ![] bcast_S_S4096 : (⟨S_, .i32⟩ : BufTy).Contents (Elt F) → (⟨S4096, .i32⟩ : BufTy).Contents (Elt F)) (W29 m ρ c (Proc.devRef .tc main_c_8)) := by
  rw [kept0 m ρ c main_v28 (by decide), kept0 m ρ c main_c_8 (by decide)]
  exact Cert.Lib.ReadFinal.unary (l := hostOps0) (hostOps0_inOrder (F := F)) 39 rfl (by decide) (by decide) (W0 m ρ c)
theorem kst_main_v29 (c : Dev nD) :
    W29 m ρ c (Proc.devRef .tc main_v29) = (addi : (⟨S4096, .i32⟩ : BufTy).Contents (Elt F) → (⟨S4096, .i32⟩ : BufTy).Contents (Elt F) → (⟨S4096, .i32⟩ : BufTy).Contents (Elt F)) (W29 m ρ c (Proc.devRef .tc main_arg11)) (W29 m ρ c (Proc.devRef .tc main_v28)) := by
  rw [kept0 m ρ c main_v29 (by decide), kept0 m ρ c main_arg11 (by decide), kept0 m ρ c main_v28 (by decide)]
  exact Cert.Lib.ReadFinal.binary (l := hostOps0) (hostOps0_inOrder (F := F)) 40 rfl (by decide) (by decide) (by decide) (W0 m ρ c)
theorem kst_main_v30 (c : Dev nD) :
    W29 m ρ c (Proc.devRef .tc main_v30) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v27)) (W29 m ρ c (Proc.devRef .tc main_v29)) (W29 m ρ c (Proc.devRef .tc main_arg11)) := by
  rw [kept0 m ρ c main_v30 (by decide), kept0 m ρ c main_v27 (by decide), kept0 m ρ c main_v29 (by decide), kept0 m ρ c main_arg11 (by decide)]
  exact Cert.Lib.ReadFinal.ternary (l := hostOps0) (hostOps0_inOrder (F := F)) 41 rfl (by decide) (by decide) (by decide) (by decide) (W0 m ρ c)
theorem kst_main_v31 (c : Dev nD) :
    W29 m ρ c (Proc.devRef .tc main_v31) = (broadcastInDim S4096x1 ![0] bcast_S4096_S4096x1_0 : (⟨S4096, .i32⟩ : BufTy).Contents (Elt F) → (⟨S4096x1, .i32⟩ : BufTy).Contents (Elt F)) (W29 m ρ c (Proc.devRef .tc main_v30)) := by
  rw [kept0 m ρ c main_v31 (by decide), kept0 m ρ c main_v30 (by decide)]
  exact Cert.Lib.ReadFinal.unary (l := hostOps0) (hostOps0_inOrder (F := F)) 42 rfl (by decide) (by decide) (W0 m ρ c)
theorem kst_main_v32 (c : Dev nD) :
    W29 m ρ c (Proc.devRef .tc main_v32) = ((fun x i => Host.gather gather_S25000x64_S4096x1_S4096x64_1_0_n_n_0_1_164 x i) : (⟨S25000x64, .f32⟩ : BufTy).Contents (Elt F) → (⟨S4096x1, .i32⟩ : BufTy).Contents (Elt F) → (⟨S4096x64, .f32⟩ : BufTy).Contents (Elt F)) (W29 m ρ c (Proc.devRef .tc main_arg1)) (W29 m ρ c (Proc.devRef .tc main_v31)) := by
  rw [kept0 m ρ c main_v32 (by decide), kept0 m ρ c main_arg1 (by decide), kept0 m ρ c main_v31 (by decide)]
  exact Cert.Lib.ReadFinal.binary (l := hostOps0) (hostOps0_inOrder (F := F)) 43 rfl (by decide) (by decide) (by decide) (W0 m ρ c)
theorem kst_main_v33 (c : Dev nD) :
    W29 m ρ c (Proc.devRef .tc main_v33) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v33 (by decide), kept0 m ρ c main_v12 (by decide)]
  exact Cert.Lib.ReadFinal.unary (l := hostOps0) (hostOps0_inOrder (F := F)) 44 rfl (by decide) (by decide) (W0 m ρ c)
theorem kst_main_v34 (c : Dev nD) :
    W29 m ρ c (Proc.devRef .tc main_v34) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v25)) (W29 m ρ c (Proc.devRef .tc main_v33)) := by
  rw [kept0 m ρ c main_v34 (by decide), kept0 m ρ c main_v25 (by decide), kept0 m ρ c main_v33 (by decide)]
  exact Cert.Lib.ReadFinal.binary (l := hostOps0) (hostOps0_inOrder (F := F)) 45 rfl (by decide) (by decide) (by decide) (W0 m ρ c)
theorem kst_main_c_9 (c : Dev nD) :
    W29 m ρ c (Proc.devRef .tc main_c_9) = (constantI S_ 32 0#32) := by
  rw [kept0 m ρ c main_c_9 (by decide)]
  exact Cert.Lib.ReadFinal.nullary (l := hostOps0) (hostOps0_inOrder (F := F)) 46 rfl (by decide) (W0 m ρ c)
theorem kst_main_v35 (c : Dev nD) :
    W29 m ρ c (Proc.devRef .tc main_v35) = (broadcastInDim S262144 ![] bcast_S_S262144 : (⟨S_, .i32⟩ : BufTy).Contents (Elt F) → (⟨S262144, .i32⟩ : BufTy).Contents (Elt F)) (W29 m ρ c (Proc.devRef .tc main_c_9)) := by
  rw [kept0 m ρ c main_v35 (by decide), kept0 m ρ c main_c_9 (by decide)]
  exact Cert.Lib.ReadFinal.unary (l := hostOps0) (hostOps0_inOrder (F := F)) 47 rfl (by decide) (by decide) (W0 m ρ c)
theorem kst_main_v36 (c : Dev nD) :
    W29 m ρ c (Proc.devRef .tc main_v36) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg4)) (W29 m ρ c (Proc.devRef .tc main_v35)) := by
  rw [kept0 m ρ c main_v36 (by decide), kept0 m ρ c main_arg4 (by decide), kept0 m ρ c main_v35 (by decide)]
  exact Cert.Lib.ReadFinal.binary (l := hostOps0) (hostOps0_inOrder (F := F)) 48 rfl (by decide) (by decide) (by decide) (W0 m ρ c)
theorem kst_main_c_10 (c : Dev nD) :
    W29 m ρ c (Proc.devRef .tc main_c_10) = (constantI S_ 32 4096#32) := by
  rw [kept0 m ρ c main_c_10 (by decide)]
  exact Cert.Lib.ReadFinal.nullary (l := hostOps0) (hostOps0_inOrder (F := F)) 49 rfl (by decide) (W0 m ρ c)
theorem kst_main_v37 (c : Dev nD) :
    W29 m ρ c (Proc.devRef .tc main_v37) = (broadcastInDim S262144 ![] bcast_S_S262144 : (⟨S_, .i32⟩ : BufTy).Contents (Elt F) → (⟨S262144, .i32⟩ : BufTy).Contents (Elt F)) (W29 m ρ c (Proc.devRef .tc main_c_10)) := by
  rw [kept0 m ρ c main_v37 (by decide), kept0 m ρ c main_c_10 (by decide)]
  exact Cert.Lib.ReadFinal.unary (l := hostOps0) (hostOps0_inOrder (F := F)) 50 rfl (by decide) (by decide) (W0 m ρ c)
theorem kst_main_v38 (c : Dev nD) :
    W29 m ρ c (Proc.devRef .tc main_v38) = (addi : (⟨S262144, .i32⟩ : BufTy).Contents (Elt F) → (⟨S262144, .i32⟩ : BufTy).Contents (Elt F) → (⟨S262144, .i32⟩ : BufTy).Contents (Elt F)) (W29 m ρ c (Proc.devRef .tc main_arg4)) (W29 m ρ c (Proc.devRef .tc main_v37)) := by
  rw [kept0 m ρ c main_v38 (by decide), kept0 m ρ c main_arg4 (by decide), kept0 m ρ c main_v37 (by decide)]
  exact Cert.Lib.ReadFinal.binary (l := hostOps0) (hostOps0_inOrder (F := F)) 51 rfl (by decide) (by decide) (by decide) (W0 m ρ c)
theorem kst_main_v39 (c : Dev nD) :
    W29 m ρ c (Proc.devRef .tc main_v39) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v36)) (W29 m ρ c (Proc.devRef .tc main_v38)) (W29 m ρ c (Proc.devRef .tc main_arg4)) := by
  rw [kept0 m ρ c main_v39 (by decide), kept0 m ρ c main_v36 (by decide), kept0 m ρ c main_v38 (by decide), kept0 m ρ c main_arg4 (by decide)]
  exact Cert.Lib.ReadFinal.ternary (l := hostOps0) (hostOps0_inOrder (F := F)) 52 rfl (by decide) (by decide) (by decide) (by decide) (W0 m ρ c)
theorem kst_main_v40 (c : Dev nD) :
    W29 m ρ c (Proc.devRef .tc main_v40) = (broadcastInDim S262144x1 ![0] bcast_S262144_S262144x1_0 : (⟨S262144, .i32⟩ : BufTy).Contents (Elt F) → (⟨S262144x1, .i32⟩ : BufTy).Contents (Elt F)) (W29 m ρ c (Proc.devRef .tc main_v39)) := by
  rw [kept0 m ρ c main_v40 (by decide), kept0 m ρ c main_v39 (by decide)]
  exact Cert.Lib.ReadFinal.unary (l := hostOps0) (hostOps0_inOrder (F := F)) 53 rfl (by decide) (by decide) (W0 m ρ c)
theorem kst_main_v41 (c : Dev nD) :
    W29 m ρ c (Proc.devRef .tc main_v41) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v34)) (W29 m ρ c (Proc.devRef .tc main_v40)) := by
  rw [kept0 m ρ c main_v41 (by decide), kept0 m ρ c main_v34 (by decide), kept0 m ρ c main_v40 (by decide)]
  exact Cert.Lib.ReadFinal.binary (l := hostOps0) (hostOps0_inOrder (F := F)) 54 rfl (by decide) (by decide) (by decide) (W0 m ρ c)
theorem kst_main_v42 (c : Dev nD) :
    W29 m ρ c (Proc.devRef .tc main_v42) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v42 (by decide), kept0 m ρ c main_v18 (by decide)]
  exact Cert.Lib.ReadFinal.unary (l := hostOps0) (hostOps0_inOrder (F := F)) 55 rfl (by decide) (by decide) (W0 m ρ c)
theorem kst_main_v43 (c : Dev nD) :
    W29 m ρ c (Proc.devRef .tc main_v43) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v32)) (W29 m ρ c (Proc.devRef .tc main_v42)) := by
  rw [kept0 m ρ c main_v43 (by decide), kept0 m ρ c main_v32 (by decide), kept0 m ρ c main_v42 (by decide)]
  exact Cert.Lib.ReadFinal.binary (l := hostOps0) (hostOps0_inOrder (F := F)) 56 rfl (by decide) (by decide) (by decide) (W0 m ρ c)
theorem kst_main_c_11 (c : Dev nD) :
    W29 m ρ c (Proc.devRef .tc main_c_11) = (constantI S_ 32 0#32) := by
  rw [kept0 m ρ c main_c_11 (by decide)]
  exact Cert.Lib.ReadFinal.nullary (l := hostOps0) (hostOps0_inOrder (F := F)) 57 rfl (by decide) (W0 m ρ c)
theorem kst_main_v44 (c : Dev nD) :
    W29 m ρ c (Proc.devRef .tc main_v44) = (broadcastInDim S262144 ![] bcast_S_S262144 : (⟨S_, .i32⟩ : BufTy).Contents (Elt F) → (⟨S262144, .i32⟩ : BufTy).Contents (Elt F)) (W29 m ρ c (Proc.devRef .tc main_c_11)) := by
  rw [kept0 m ρ c main_v44 (by decide), kept0 m ρ c main_c_11 (by decide)]
  exact Cert.Lib.ReadFinal.unary (l := hostOps0) (hostOps0_inOrder (F := F)) 58 rfl (by decide) (by decide) (W0 m ρ c)
theorem kst_main_v45 (c : Dev nD) :
    W29 m ρ c (Proc.devRef .tc main_v45) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg5)) (W29 m ρ c (Proc.devRef .tc main_v44)) := by
  rw [kept0 m ρ c main_v45 (by decide), kept0 m ρ c main_arg5 (by decide), kept0 m ρ c main_v44 (by decide)]
  exact Cert.Lib.ReadFinal.binary (l := hostOps0) (hostOps0_inOrder (F := F)) 59 rfl (by decide) (by decide) (by decide) (W0 m ρ c)
theorem kst_main_c_12 (c : Dev nD) :
    W29 m ρ c (Proc.devRef .tc main_c_12) = (constantI S_ 32 4096#32) := by
  rw [kept0 m ρ c main_c_12 (by decide)]
  exact Cert.Lib.ReadFinal.nullary (l := hostOps0) (hostOps0_inOrder (F := F)) 60 rfl (by decide) (W0 m ρ c)
theorem kst_main_v46 (c : Dev nD) :
    W29 m ρ c (Proc.devRef .tc main_v46) = (broadcastInDim S262144 ![] bcast_S_S262144 : (⟨S_, .i32⟩ : BufTy).Contents (Elt F) → (⟨S262144, .i32⟩ : BufTy).Contents (Elt F)) (W29 m ρ c (Proc.devRef .tc main_c_12)) := by
  rw [kept0 m ρ c main_v46 (by decide), kept0 m ρ c main_c_12 (by decide)]
  exact Cert.Lib.ReadFinal.unary (l := hostOps0) (hostOps0_inOrder (F := F)) 61 rfl (by decide) (by decide) (W0 m ρ c)
theorem kst_main_v47 (c : Dev nD) :
    W29 m ρ c (Proc.devRef .tc main_v47) = (addi : (⟨S262144, .i32⟩ : BufTy).Contents (Elt F) → (⟨S262144, .i32⟩ : BufTy).Contents (Elt F) → (⟨S262144, .i32⟩ : BufTy).Contents (Elt F)) (W29 m ρ c (Proc.devRef .tc main_arg5)) (W29 m ρ c (Proc.devRef .tc main_v46)) := by
  rw [kept0 m ρ c main_v47 (by decide), kept0 m ρ c main_arg5 (by decide), kept0 m ρ c main_v46 (by decide)]
  exact Cert.Lib.ReadFinal.binary (l := hostOps0) (hostOps0_inOrder (F := F)) 62 rfl (by decide) (by decide) (by decide) (W0 m ρ c)
theorem kst_main_v48 (c : Dev nD) :
    W29 m ρ c (Proc.devRef .tc main_v48) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v45)) (W29 m ρ c (Proc.devRef .tc main_v47)) (W29 m ρ c (Proc.devRef .tc main_arg5)) := by
  rw [kept0 m ρ c main_v48 (by decide), kept0 m ρ c main_v45 (by decide), kept0 m ρ c main_v47 (by decide), kept0 m ρ c main_arg5 (by decide)]
  exact Cert.Lib.ReadFinal.ternary (l := hostOps0) (hostOps0_inOrder (F := F)) 63 rfl (by decide) (by decide) (by decide) (by decide) (W0 m ρ c)
theorem kst_main_v49 (c : Dev nD) :
    W29 m ρ c (Proc.devRef .tc main_v49) = (broadcastInDim S262144x1 ![0] bcast_S262144_S262144x1_0 : (⟨S262144, .i32⟩ : BufTy).Contents (Elt F) → (⟨S262144x1, .i32⟩ : BufTy).Contents (Elt F)) (W29 m ρ c (Proc.devRef .tc main_v48)) := by
  rw [kept0 m ρ c main_v49 (by decide), kept0 m ρ c main_v48 (by decide)]
  exact Cert.Lib.ReadFinal.unary (l := hostOps0) (hostOps0_inOrder (F := F)) 64 rfl (by decide) (by decide) (W0 m ρ c)
theorem kst_main_v50 (c : Dev nD) :
    W29 m ρ c (Proc.devRef .tc main_v50) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v43)) (W29 m ρ c (Proc.devRef .tc main_v49)) := by
  rw [kept0 m ρ c main_v50 (by decide), kept0 m ρ c main_v43 (by decide), kept0 m ρ c main_v49 (by decide)]
  exact Cert.Lib.ReadFinal.binary (l := hostOps0) (hostOps0_inOrder (F := F)) 65 rfl (by decide) (by decide) (by decide) (W0 m ρ c)
theorem kst_main_cst_13 (c : Dev nD) :
    W29 m ρ c (Proc.devRef .tc main_cst_13) = (constant (F := F) S_ .f32 0x00000000#32) := by
  rw [kept0 m ρ c main_cst_13 (by decide)]
  exact Cert.Lib.ReadFinal.nullary (l := hostOps0) (hostOps0_inOrder (F := F)) 66 rfl (by decide) (W0 m ρ c)
theorem kst_main_v51 (c : Dev nD) :
    W29 m ρ c (Proc.devRef .tc main_v51) = (broadcastInDim S4096x64 ![] bcast_S_S4096x64 : (⟨S_, .f32⟩ : BufTy).Contents (Elt F) → (⟨S4096x64, .f32⟩ : BufTy).Contents (Elt F)) (W29 m ρ c (Proc.devRef .tc main_cst_13)) := by
  rw [kept0 m ρ c main_v51 (by decide), kept0 m ρ c main_cst_13 (by decide)]
  exact Cert.Lib.ReadFinal.unary (l := hostOps0) (hostOps0_inOrder (F := F)) 67 rfl (by decide) (by decide) (W0 m ρ c)
theorem kst_main_v52 (c : Dev nD) :
    W29 m ρ c (Proc.devRef .tc main_v52) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg5)) := by
  rw [kept0 m ρ c main_v52 (by decide), kept0 m ρ c main_arg5 (by decide)]
  exact Cert.Lib.ReadFinal.unary (l := hostOps0) (hostOps0_inOrder (F := F)) 68 rfl (by decide) (by decide) (W0 m ρ c)
theorem kst_main_v53 (c : Dev nD) :
    W29 m ρ c (Proc.devRef .tc main_v53) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v51)) (W29 m ρ c (Proc.devRef .tc main_v52)) (W29 m ρ c (Proc.devRef .tc main_v41)) := by
  rw [kept0 m ρ c main_v53 (by decide), kept0 m ρ c main_v51 (by decide), kept0 m ρ c main_v52 (by decide), kept0 m ρ c main_v41 (by decide)]
  exact Cert.Lib.ReadFinal.ternary (l := hostOps0) (hostOps0_inOrder (F := F)) 69 rfl (by decide) (by decide) (by decide) (by decide) (W0 m ρ c)
theorem kst_main_v54 (c : Dev nD) :
    W29 m ρ c (Proc.devRef .tc main_v54) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v54 (by decide), kept0 m ρ c main_v18 (by decide)]
  exact Cert.Lib.ReadFinal.unary (l := hostOps0) (hostOps0_inOrder (F := F)) 70 rfl (by decide) (by decide) (W0 m ρ c)
theorem kst_main_v55 (c : Dev nD) :
    W29 m ρ c (Proc.devRef .tc main_v55) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v53)) (W29 m ρ c (Proc.devRef .tc main_v54)) := by
  rw [kept0 m ρ c main_v55 (by decide), kept0 m ρ c main_v53 (by decide), kept0 m ρ c main_v54 (by decide)]
  exact Cert.Lib.ReadFinal.binary (l := hostOps0) (hostOps0_inOrder (F := F)) 71 rfl (by decide) (by decide) (by decide) (W0 m ρ c)
theorem kst_main_cst_14 (c : Dev nD) :
    W29 m ρ c (Proc.devRef .tc main_cst_14) = (constant (F := F) S_ .f32 0x00000000#32) := by
  rw [kept0 m ρ c main_cst_14 (by decide)]
  exact Cert.Lib.ReadFinal.nullary (l := hostOps0) (hostOps0_inOrder (F := F)) 72 rfl (by decide) (W0 m ρ c)
theorem kst_main_v56 (c : Dev nD) :
    W29 m ρ c (Proc.devRef .tc main_v56) = (broadcastInDim S4096x64 ![] bcast_S_S4096x64 : (⟨S_, .f32⟩ : BufTy).Contents (Elt F) → (⟨S4096x64, .f32⟩ : BufTy).Contents (Elt F)) (W29 m ρ c (Proc.devRef .tc main_cst_14)) := by
  rw [kept0 m ρ c main_v56 (by decide), kept0 m ρ c main_cst_14 (by decide)]
  exact Cert.Lib.ReadFinal.unary (l := hostOps0) (hostOps0_inOrder (F := F)) 73 rfl (by decide) (by decide) (W0 m ρ c)
theorem kst_main_v57 (c : Dev nD) :
    W29 m ρ c (Proc.devRef .tc main_v57) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg4)) := by
  rw [kept0 m ρ c main_v57 (by decide), kept0 m ρ c main_arg4 (by decide)]
  exact Cert.Lib.ReadFinal.unary (l := hostOps0) (hostOps0_inOrder (F := F)) 74 rfl (by decide) (by decide) (W0 m ρ c)
theorem kst_main_v58 (c : Dev nD) :
    W29 m ρ c (Proc.devRef .tc main_v58) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v56)) (W29 m ρ c (Proc.devRef .tc main_v57)) (W29 m ρ c (Proc.devRef .tc main_v50)) := by
  rw [kept0 m ρ c main_v58 (by decide), kept0 m ρ c main_v56 (by decide), kept0 m ρ c main_v57 (by decide), kept0 m ρ c main_v50 (by decide)]
  exact Cert.Lib.ReadFinal.ternary (l := hostOps0) (hostOps0_inOrder (F := F)) 75 rfl (by decide) (by decide) (by decide) (by decide) (W0 m ρ c)
theorem kst_main_v59 (c : Dev nD) :
    W29 m ρ c (Proc.devRef .tc main_v59) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v59 (by decide), kept0 m ρ c main_v12 (by decide)]
  exact Cert.Lib.ReadFinal.unary (l := hostOps0) (hostOps0_inOrder (F := F)) 76 rfl (by decide) (by decide) (W0 m ρ c)
theorem kst_main_v60 (c : Dev nD) :
    W29 m ρ c (Proc.devRef .tc main_v60) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v58)) (W29 m ρ c (Proc.devRef .tc main_v59)) := by
  rw [kept0 m ρ c main_v60 (by decide), kept0 m ρ c main_v58 (by decide), kept0 m ρ c main_v59 (by decide)]
  exact Cert.Lib.ReadFinal.binary (l := hostOps0) (hostOps0_inOrder (F := F)) 77 rfl (by decide) (by decide) (by decide) (W0 m ρ c)
theorem kst_main_v61 (c : Dev nD) :
    W29 m ρ c (Proc.devRef .tc main_v61) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v25)) (W29 m ρ c (Proc.devRef .tc main_v60)) := by
  rw [kept0 m ρ c main_v61 (by decide), kept0 m ρ c main_v25 (by decide), kept0 m ρ c main_v60 (by decide)]
  exact Cert.Lib.ReadFinal.binary (l := hostOps0) (hostOps0_inOrder (F := F)) 78 rfl (by decide) (by decide) (by decide) (W0 m ρ c)
theorem kst_main_v62 (c : Dev nD) :
    W29 m ρ c (Proc.devRef .tc main_v62) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v32)) (W29 m ρ c (Proc.devRef .tc main_v55)) := by
  rw [kept0 m ρ c main_v62 (by decide), kept0 m ρ c main_v32 (by decide), kept0 m ρ c main_v55 (by decide)]
  exact Cert.Lib.ReadFinal.binary (l := hostOps0) (hostOps0_inOrder (F := F)) 79 rfl (by decide) (by decide) (by decide) (W0 m ρ c)
theorem kst_main_v63 (c : Dev nD) :
    W29 m ρ c (Proc.devRef .tc main_v63) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v63 (by decide), kept0 m ρ c main_v12 (by decide)]
  exact Cert.Lib.ReadFinal.unary (l := hostOps0) (hostOps0_inOrder (F := F)) 80 rfl (by decide) (by decide) (W0 m ρ c)
theorem kst_main_v64 (c : Dev nD) :
    W29 m ρ c (Proc.devRef .tc main_v64) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v60)) (W29 m ρ c (Proc.devRef .tc main_v63)) := by
  rw [kept0 m ρ c main_v64 (by decide), kept0 m ρ c main_v60 (by decide), kept0 m ρ c main_v63 (by decide)]
  exact Cert.Lib.ReadFinal.binary (l := hostOps0) (hostOps0_inOrder (F := F)) 81 rfl (by decide) (by decide) (by decide) (W0 m ρ c)
theorem kst_main_c_15 (c : Dev nD) :
    W29 m ρ c (Proc.devRef .tc main_c_15) = (constantI S_ 32 0#32) := by
  rw [kept0 m ρ c main_c_15 (by decide)]
  exact Cert.Lib.ReadFinal.nullary (l := hostOps0) (hostOps0_inOrder (F := F)) 82 rfl (by decide) (W0 m ρ c)
theorem kst_main_v65 (c : Dev nD) :
    W29 m ρ c (Proc.devRef .tc main_v65) = (broadcastInDim S262144 ![] bcast_S_S262144 : (⟨S_, .i32⟩ : BufTy).Contents (Elt F) → (⟨S262144, .i32⟩ : BufTy).Contents (Elt F)) (W29 m ρ c (Proc.devRef .tc main_c_15)) := by
  rw [kept0 m ρ c main_v65 (by decide), kept0 m ρ c main_c_15 (by decide)]
  exact Cert.Lib.ReadFinal.unary (l := hostOps0) (hostOps0_inOrder (F := F)) 83 rfl (by decide) (by decide) (W0 m ρ c)
theorem kst_main_v66 (c : Dev nD) :
    W29 m ρ c (Proc.devRef .tc main_v66) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg4)) (W29 m ρ c (Proc.devRef .tc main_v65)) := by
  rw [kept0 m ρ c main_v66 (by decide), kept0 m ρ c main_arg4 (by decide), kept0 m ρ c main_v65 (by decide)]
  exact Cert.Lib.ReadFinal.binary (l := hostOps0) (hostOps0_inOrder (F := F)) 84 rfl (by decide) (by decide) (by decide) (W0 m ρ c)
theorem kst_main_c_16 (c : Dev nD) :
    W29 m ρ c (Proc.devRef .tc main_c_16) = (constantI S_ 32 4096#32) := by
  rw [kept0 m ρ c main_c_16 (by decide)]
  exact Cert.Lib.ReadFinal.nullary (l := hostOps0) (hostOps0_inOrder (F := F)) 85 rfl (by decide) (W0 m ρ c)
theorem kst_main_v67 (c : Dev nD) :
    W29 m ρ c (Proc.devRef .tc main_v67) = (broadcastInDim S262144 ![] bcast_S_S262144 : (⟨S_, .i32⟩ : BufTy).Contents (Elt F) → (⟨S262144, .i32⟩ : BufTy).Contents (Elt F)) (W29 m ρ c (Proc.devRef .tc main_c_16)) := by
  rw [kept0 m ρ c main_v67 (by decide), kept0 m ρ c main_c_16 (by decide)]
  exact Cert.Lib.ReadFinal.unary (l := hostOps0) (hostOps0_inOrder (F := F)) 86 rfl (by decide) (by decide) (W0 m ρ c)
theorem kst_main_v68 (c : Dev nD) :
    W29 m ρ c (Proc.devRef .tc main_v68) = (addi : (⟨S262144, .i32⟩ : BufTy).Contents (Elt F) → (⟨S262144, .i32⟩ : BufTy).Contents (Elt F) → (⟨S262144, .i32⟩ : BufTy).Contents (Elt F)) (W29 m ρ c (Proc.devRef .tc main_arg4)) (W29 m ρ c (Proc.devRef .tc main_v67)) := by
  rw [kept0 m ρ c main_v68 (by decide), kept0 m ρ c main_arg4 (by decide), kept0 m ρ c main_v67 (by decide)]
  exact Cert.Lib.ReadFinal.binary (l := hostOps0) (hostOps0_inOrder (F := F)) 87 rfl (by decide) (by decide) (by decide) (W0 m ρ c)
theorem kst_main_v69 (c : Dev nD) :
    W29 m ρ c (Proc.devRef .tc main_v69) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v66)) (W29 m ρ c (Proc.devRef .tc main_v68)) (W29 m ρ c (Proc.devRef .tc main_arg4)) := by
  rw [kept0 m ρ c main_v69 (by decide), kept0 m ρ c main_v66 (by decide), kept0 m ρ c main_v68 (by decide), kept0 m ρ c main_arg4 (by decide)]
  exact Cert.Lib.ReadFinal.ternary (l := hostOps0) (hostOps0_inOrder (F := F)) 88 rfl (by decide) (by decide) (by decide) (by decide) (W0 m ρ c)
theorem kst_main_v70 (c : Dev nD) :
    W29 m ρ c (Proc.devRef .tc main_v70) = (broadcastInDim S262144x1 ![0] bcast_S262144_S262144x1_0 : (⟨S262144, .i32⟩ : BufTy).Contents (Elt F) → (⟨S262144x1, .i32⟩ : BufTy).Contents (Elt F)) (W29 m ρ c (Proc.devRef .tc main_v69)) := by
  rw [kept0 m ρ c main_v70 (by decide), kept0 m ρ c main_v69 (by decide)]
  exact Cert.Lib.ReadFinal.unary (l := hostOps0) (hostOps0_inOrder (F := F)) 89 rfl (by decide) (by decide) (W0 m ρ c)
theorem kst_main_v71 (c : Dev nD) :
    W29 m ρ c (Proc.devRef .tc main_v71) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v64)) (W29 m ρ c (Proc.devRef .tc main_v70)) := by
  rw [kept0 m ρ c main_v71 (by decide), kept0 m ρ c main_v64 (by decide), kept0 m ρ c main_v70 (by decide)]
  exact Cert.Lib.ReadFinal.binary (l := hostOps0) (hostOps0_inOrder (F := F)) 90 rfl (by decide) (by decide) (by decide) (W0 m ρ c)
theorem kst_main_v72 (c : Dev nD) :
    W29 m ρ c (Proc.devRef .tc main_v72) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v72 (by decide), kept0 m ρ c main_v18 (by decide)]
  exact Cert.Lib.ReadFinal.unary (l := hostOps0) (hostOps0_inOrder (F := F)) 91 rfl (by decide) (by decide) (W0 m ρ c)
theorem kst_main_v73 (c : Dev nD) :
    W29 m ρ c (Proc.devRef .tc main_v73) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v55)) (W29 m ρ c (Proc.devRef .tc main_v72)) := by
  rw [kept0 m ρ c main_v73 (by decide), kept0 m ρ c main_v55 (by decide), kept0 m ρ c main_v72 (by decide)]
  exact Cert.Lib.ReadFinal.binary (l := hostOps0) (hostOps0_inOrder (F := F)) 92 rfl (by decide) (by decide) (by decide) (W0 m ρ c)
theorem kst_main_c_17 (c : Dev nD) :
    W29 m ρ c (Proc.devRef .tc main_c_17) = (constantI S_ 32 0#32) := by
  rw [kept0 m ρ c main_c_17 (by decide)]
  exact Cert.Lib.ReadFinal.nullary (l := hostOps0) (hostOps0_inOrder (F := F)) 93 rfl (by decide) (W0 m ρ c)
theorem kst_main_v74 (c : Dev nD) :
    W29 m ρ c (Proc.devRef .tc main_v74) = (broadcastInDim S262144 ![] bcast_S_S262144 : (⟨S_, .i32⟩ : BufTy).Contents (Elt F) → (⟨S262144, .i32⟩ : BufTy).Contents (Elt F)) (W29 m ρ c (Proc.devRef .tc main_c_17)) := by
  rw [kept0 m ρ c main_v74 (by decide), kept0 m ρ c main_c_17 (by decide)]
  exact Cert.Lib.ReadFinal.unary (l := hostOps0) (hostOps0_inOrder (F := F)) 94 rfl (by decide) (by decide) (W0 m ρ c)
theorem kst_main_v75 (c : Dev nD) :
    W29 m ρ c (Proc.devRef .tc main_v75) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg5)) (W29 m ρ c (Proc.devRef .tc main_v74)) := by
  rw [kept0 m ρ c main_v75 (by decide), kept0 m ρ c main_arg5 (by decide), kept0 m ρ c main_v74 (by decide)]
  exact Cert.Lib.ReadFinal.binary (l := hostOps0) (hostOps0_inOrder (F := F)) 95 rfl (by decide) (by decide) (by decide) (W0 m ρ c)
theorem kst_main_c_18 (c : Dev nD) :
    W29 m ρ c (Proc.devRef .tc main_c_18) = (constantI S_ 32 4096#32) := by
  rw [kept0 m ρ c main_c_18 (by decide)]
  exact Cert.Lib.ReadFinal.nullary (l := hostOps0) (hostOps0_inOrder (F := F)) 96 rfl (by decide) (W0 m ρ c)
theorem kst_main_v76 (c : Dev nD) :
    W29 m ρ c (Proc.devRef .tc main_v76) = (broadcastInDim S262144 ![] bcast_S_S262144 : (⟨S_, .i32⟩ : BufTy).Contents (Elt F) → (⟨S262144, .i32⟩ : BufTy).Contents (Elt F)) (W29 m ρ c (Proc.devRef .tc main_c_18)) := by
  rw [kept0 m ρ c main_v76 (by decide), kept0 m ρ c main_c_18 (by decide)]
  exact Cert.Lib.ReadFinal.unary (l := hostOps0) (hostOps0_inOrder (F := F)) 97 rfl (by decide) (by decide) (W0 m ρ c)
theorem kst_main_v77 (c : Dev nD) :
    W29 m ρ c (Proc.devRef .tc main_v77) = (addi : (⟨S262144, .i32⟩ : BufTy).Contents (Elt F) → (⟨S262144, .i32⟩ : BufTy).Contents (Elt F) → (⟨S262144, .i32⟩ : BufTy).Contents (Elt F)) (W29 m ρ c (Proc.devRef .tc main_arg5)) (W29 m ρ c (Proc.devRef .tc main_v76)) := by
  rw [kept0 m ρ c main_v77 (by decide), kept0 m ρ c main_arg5 (by decide), kept0 m ρ c main_v76 (by decide)]
  exact Cert.Lib.ReadFinal.binary (l := hostOps0) (hostOps0_inOrder (F := F)) 98 rfl (by decide) (by decide) (by decide) (W0 m ρ c)
theorem kst_main_v78 (c : Dev nD) :
    W29 m ρ c (Proc.devRef .tc main_v78) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v75)) (W29 m ρ c (Proc.devRef .tc main_v77)) (W29 m ρ c (Proc.devRef .tc main_arg5)) := by
  rw [kept0 m ρ c main_v78 (by decide), kept0 m ρ c main_v75 (by decide), kept0 m ρ c main_v77 (by decide), kept0 m ρ c main_arg5 (by decide)]
  exact Cert.Lib.ReadFinal.ternary (l := hostOps0) (hostOps0_inOrder (F := F)) 99 rfl (by decide) (by decide) (by decide) (by decide) (W0 m ρ c)
theorem kst_main_v79 (c : Dev nD) :
    W29 m ρ c (Proc.devRef .tc main_v79) = (broadcastInDim S262144x1 ![0] bcast_S262144_S262144x1_0 : (⟨S262144, .i32⟩ : BufTy).Contents (Elt F) → (⟨S262144x1, .i32⟩ : BufTy).Contents (Elt F)) (W29 m ρ c (Proc.devRef .tc main_v78)) := by
  rw [kept0 m ρ c main_v79 (by decide), kept0 m ρ c main_v78 (by decide)]
  exact Cert.Lib.ReadFinal.unary (l := hostOps0) (hostOps0_inOrder (F := F)) 100 rfl (by decide) (by decide) (W0 m ρ c)
theorem kst_main_v80 (c : Dev nD) :
    W29 m ρ c (Proc.devRef .tc main_v80) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v73)) (W29 m ρ c (Proc.devRef .tc main_v79)) := by
  rw [kept0 m ρ c main_v80 (by decide), kept0 m ρ c main_v73 (by decide), kept0 m ρ c main_v79 (by decide)]
  exact Cert.Lib.ReadFinal.binary (l := hostOps0) (hostOps0_inOrder (F := F)) 101 rfl (by decide) (by decide) (by decide) (W0 m ρ c)
theorem kst_main_cst_19 (c : Dev nD) :
    W29 m ρ c (Proc.devRef .tc main_cst_19) = (constant (F := F) S_ .f32 0x00000000#32) := by
  rw [kept0 m ρ c main_cst_19 (by decide)]
  exact Cert.Lib.ReadFinal.nullary (l := hostOps0) (hostOps0_inOrder (F := F)) 102 rfl (by decide) (W0 m ρ c)
theorem kst_main_v81 (c : Dev nD) :
    W29 m ρ c (Proc.devRef .tc main_v81) = (broadcastInDim S4096x64 ![] bcast_S_S4096x64 : (⟨S_, .f32⟩ : BufTy).Contents (Elt F) → (⟨S4096x64, .f32⟩ : BufTy).Contents (Elt F)) (W29 m ρ c (Proc.devRef .tc main_cst_19)) := by
  rw [kept0 m ρ c main_v81 (by decide), kept0 m ρ c main_cst_19 (by decide)]
  exact Cert.Lib.ReadFinal.unary (l := hostOps0) (hostOps0_inOrder (F := F)) 103 rfl (by decide) (by decide) (W0 m ρ c)
theorem kst_main_v82 (c : Dev nD) :
    W29 m ρ c (Proc.devRef .tc main_v82) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg5)) := by
  rw [kept0 m ρ c main_v82 (by decide), kept0 m ρ c main_arg5 (by decide)]
  exact Cert.Lib.ReadFinal.unary (l := hostOps0) (hostOps0_inOrder (F := F)) 104 rfl (by decide) (by decide) (W0 m ρ c)
theorem kst_main_v83 (c : Dev nD) :
    W29 m ρ c (Proc.devRef .tc main_v83) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v81)) (W29 m ρ c (Proc.devRef .tc main_v82)) (W29 m ρ c (Proc.devRef .tc main_v71)) := by
  rw [kept0 m ρ c main_v83 (by decide), kept0 m ρ c main_v81 (by decide), kept0 m ρ c main_v82 (by decide), kept0 m ρ c main_v71 (by decide)]
  exact Cert.Lib.ReadFinal.ternary (l := hostOps0) (hostOps0_inOrder (F := F)) 105 rfl (by decide) (by decide) (by decide) (by decide) (W0 m ρ c)
theorem kst_main_v84 (c : Dev nD) :
    W29 m ρ c (Proc.devRef .tc main_v84) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v84 (by decide), kept0 m ρ c main_v18 (by decide)]
  exact Cert.Lib.ReadFinal.unary (l := hostOps0) (hostOps0_inOrder (F := F)) 106 rfl (by decide) (by decide) (W0 m ρ c)
theorem kst_main_v85 (c : Dev nD) :
    W29 m ρ c (Proc.devRef .tc main_v85) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v83)) (W29 m ρ c (Proc.devRef .tc main_v84)) := by
  rw [kept0 m ρ c main_v85 (by decide), kept0 m ρ c main_v83 (by decide), kept0 m ρ c main_v84 (by decide)]
  exact Cert.Lib.ReadFinal.binary (l := hostOps0) (hostOps0_inOrder (F := F)) 107 rfl (by decide) (by decide) (by decide) (W0 m ρ c)
theorem kst_main_cst_20 (c : Dev nD) :
    W29 m ρ c (Proc.devRef .tc main_cst_20) = (constant (F := F) S_ .f32 0x00000000#32) := by
  rw [kept0 m ρ c main_cst_20 (by decide)]
  exact Cert.Lib.ReadFinal.nullary (l := hostOps0) (hostOps0_inOrder (F := F)) 108 rfl (by decide) (W0 m ρ c)
theorem kst_main_v86 (c : Dev nD) :
    W29 m ρ c (Proc.devRef .tc main_v86) = (broadcastInDim S4096x64 ![] bcast_S_S4096x64 : (⟨S_, .f32⟩ : BufTy).Contents (Elt F) → (⟨S4096x64, .f32⟩ : BufTy).Contents (Elt F)) (W29 m ρ c (Proc.devRef .tc main_cst_20)) := by
  rw [kept0 m ρ c main_v86 (by decide), kept0 m ρ c main_cst_20 (by decide)]
  exact Cert.Lib.ReadFinal.unary (l := hostOps0) (hostOps0_inOrder (F := F)) 109 rfl (by decide) (by decide) (W0 m ρ c)
theorem kst_main_v87 (c : Dev nD) :
    W29 m ρ c (Proc.devRef .tc main_v87) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg4)) := by
  rw [kept0 m ρ c main_v87 (by decide), kept0 m ρ c main_arg4 (by decide)]
  exact Cert.Lib.ReadFinal.unary (l := hostOps0) (hostOps0_inOrder (F := F)) 110 rfl (by decide) (by decide) (W0 m ρ c)
theorem kst_main_v88 (c : Dev nD) :
    W29 m ρ c (Proc.devRef .tc main_v88) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v86)) (W29 m ρ c (Proc.devRef .tc main_v87)) (W29 m ρ c (Proc.devRef .tc main_v80)) := by
  rw [kept0 m ρ c main_v88 (by decide), kept0 m ρ c main_v86 (by decide), kept0 m ρ c main_v87 (by decide), kept0 m ρ c main_v80 (by decide)]
  exact Cert.Lib.ReadFinal.ternary (l := hostOps0) (hostOps0_inOrder (F := F)) 111 rfl (by decide) (by decide) (by decide) (by decide) (W0 m ρ c)
theorem kst_main_v89 (c : Dev nD) :
    W29 m ρ c (Proc.devRef .tc main_v89) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v89 (by decide), kept0 m ρ c main_v12 (by decide)]
  exact Cert.Lib.ReadFinal.unary (l := hostOps0) (hostOps0_inOrder (F := F)) 112 rfl (by decide) (by decide) (W0 m ρ c)
theorem kst_main_v90 (c : Dev nD) :
    W29 m ρ c (Proc.devRef .tc main_v90) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v88)) (W29 m ρ c (Proc.devRef .tc main_v89)) := by
  rw [kept0 m ρ c main_v90 (by decide), kept0 m ρ c main_v88 (by decide), kept0 m ρ c main_v89 (by decide)]
  exact Cert.Lib.ReadFinal.binary (l := hostOps0) (hostOps0_inOrder (F := F)) 113 rfl (by decide) (by decide) (by decide) (W0 m ρ c)
theorem kst_main_v91 (c : Dev nD) :
    W29 m ρ c (Proc.devRef .tc main_v91) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v61)) (W29 m ρ c (Proc.devRef .tc main_v90)) := by
  rw [kept0 m ρ c main_v91 (by decide), kept0 m ρ c main_v61 (by decide), kept0 m ρ c main_v90 (by decide)]
  exact Cert.Lib.ReadFinal.binary (l := hostOps0) (hostOps0_inOrder (F := F)) 114 rfl (by decide) (by decide) (by decide) (W0 m ρ c)
theorem kst_main_v92 (c : Dev nD) :
    W29 m ρ c (Proc.devRef .tc main_v92) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v62)) (W29 m ρ c (Proc.devRef .tc main_v85)) := by
  rw [kept0 m ρ c main_v92 (by decide), kept0 m ρ c main_v62 (by decide), kept0 m ρ c main_v85 (by decide)]
  exact Cert.Lib.ReadFinal.binary (l := hostOps0) (hostOps0_inOrder (F := F)) 115 rfl (by decide) (by decide) (by decide) (W0 m ρ c)
theorem kst_main_v93 (c : Dev nD) :
    W29 m ρ c (Proc.devRef .tc main_v93) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v93 (by decide), kept0 m ρ c main_v12 (by decide)]
  exact Cert.Lib.ReadFinal.unary (l := hostOps0) (hostOps0_inOrder (F := F)) 116 rfl (by decide) (by decide) (W0 m ρ c)
theorem kst_main_v94 (c : Dev nD) :
    W29 m ρ c (Proc.devRef .tc main_v94) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v90)) (W29 m ρ c (Proc.devRef .tc main_v93)) := by
  rw [kept0 m ρ c main_v94 (by decide), kept0 m ρ c main_v90 (by decide), kept0 m ρ c main_v93 (by decide)]
  exact Cert.Lib.ReadFinal.binary (l := hostOps0) (hostOps0_inOrder (F := F)) 117 rfl (by decide) (by decide) (by decide) (W0 m ρ c)
theorem kst_main_c_21 (c : Dev nD) :
    W29 m ρ c (Proc.devRef .tc main_c_21) = (constantI S_ 32 0#32) := by
  rw [kept0 m ρ c main_c_21 (by decide)]
  exact Cert.Lib.ReadFinal.nullary (l := hostOps0) (hostOps0_inOrder (F := F)) 118 rfl (by decide) (W0 m ρ c)
theorem kst_main_v95 (c : Dev nD) :
    W29 m ρ c (Proc.devRef .tc main_v95) = (broadcastInDim S262144 ![] bcast_S_S262144 : (⟨S_, .i32⟩ : BufTy).Contents (Elt F) → (⟨S262144, .i32⟩ : BufTy).Contents (Elt F)) (W29 m ρ c (Proc.devRef .tc main_c_21)) := by
  rw [kept0 m ρ c main_v95 (by decide), kept0 m ρ c main_c_21 (by decide)]
  exact Cert.Lib.ReadFinal.unary (l := hostOps0) (hostOps0_inOrder (F := F)) 119 rfl (by decide) (by decide) (W0 m ρ c)
theorem kst_main_v96 (c : Dev nD) :
    W29 m ρ c (Proc.devRef .tc main_v96) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg4)) (W29 m ρ c (Proc.devRef .tc main_v95)) := by
  rw [kept0 m ρ c main_v96 (by decide), kept0 m ρ c main_arg4 (by decide), kept0 m ρ c main_v95 (by decide)]
  exact Cert.Lib.ReadFinal.binary (l := hostOps0) (hostOps0_inOrder (F := F)) 120 rfl (by decide) (by decide) (by decide) (W0 m ρ c)
theorem kst_main_c_22 (c : Dev nD) :
    W29 m ρ c (Proc.devRef .tc main_c_22) = (constantI S_ 32 4096#32) := by
  rw [kept0 m ρ c main_c_22 (by decide)]
  exact Cert.Lib.ReadFinal.nullary (l := hostOps0) (hostOps0_inOrder (F := F)) 121 rfl (by decide) (W0 m ρ c)
theorem kst_main_v97 (c : Dev nD) :
    W29 m ρ c (Proc.devRef .tc main_v97) = (broadcastInDim S262144 ![] bcast_S_S262144 : (⟨S_, .i32⟩ : BufTy).Contents (Elt F) → (⟨S262144, .i32⟩ : BufTy).Contents (Elt F)) (W29 m ρ c (Proc.devRef .tc main_c_22)) := by
  rw [kept0 m ρ c main_v97 (by decide), kept0 m ρ c main_c_22 (by decide)]
  exact Cert.Lib.ReadFinal.unary (l := hostOps0) (hostOps0_inOrder (F := F)) 122 rfl (by decide) (by decide) (W0 m ρ c)
theorem kst_main_v98 (c : Dev nD) :
    W29 m ρ c (Proc.devRef .tc main_v98) = (addi : (⟨S262144, .i32⟩ : BufTy).Contents (Elt F) → (⟨S262144, .i32⟩ : BufTy).Contents (Elt F) → (⟨S262144, .i32⟩ : BufTy).Contents (Elt F)) (W29 m ρ c (Proc.devRef .tc main_arg4)) (W29 m ρ c (Proc.devRef .tc main_v97)) := by
  rw [kept0 m ρ c main_v98 (by decide), kept0 m ρ c main_arg4 (by decide), kept0 m ρ c main_v97 (by decide)]
  exact Cert.Lib.ReadFinal.binary (l := hostOps0) (hostOps0_inOrder (F := F)) 123 rfl (by decide) (by decide) (by decide) (W0 m ρ c)
theorem kst_main_v99 (c : Dev nD) :
    W29 m ρ c (Proc.devRef .tc main_v99) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v96)) (W29 m ρ c (Proc.devRef .tc main_v98)) (W29 m ρ c (Proc.devRef .tc main_arg4)) := by
  rw [kept0 m ρ c main_v99 (by decide), kept0 m ρ c main_v96 (by decide), kept0 m ρ c main_v98 (by decide), kept0 m ρ c main_arg4 (by decide)]
  exact Cert.Lib.ReadFinal.ternary (l := hostOps0) (hostOps0_inOrder (F := F)) 124 rfl (by decide) (by decide) (by decide) (by decide) (W0 m ρ c)
theorem kst_main_v100 (c : Dev nD) :
    W29 m ρ c (Proc.devRef .tc main_v100) = (broadcastInDim S262144x1 ![0] bcast_S262144_S262144x1_0 : (⟨S262144, .i32⟩ : BufTy).Contents (Elt F) → (⟨S262144x1, .i32⟩ : BufTy).Contents (Elt F)) (W29 m ρ c (Proc.devRef .tc main_v99)) := by
  rw [kept0 m ρ c main_v100 (by decide), kept0 m ρ c main_v99 (by decide)]
  exact Cert.Lib.ReadFinal.unary (l := hostOps0) (hostOps0_inOrder (F := F)) 125 rfl (by decide) (by decide) (W0 m ρ c)
theorem kst_main_v101 (c : Dev nD) :
    W29 m ρ c (Proc.devRef .tc main_v101) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v94)) (W29 m ρ c (Proc.devRef .tc main_v100)) := by
  rw [kept0 m ρ c main_v101 (by decide), kept0 m ρ c main_v94 (by decide), kept0 m ρ c main_v100 (by decide)]
  exact Cert.Lib.ReadFinal.binary (l := hostOps0) (hostOps0_inOrder (F := F)) 126 rfl (by decide) (by decide) (by decide) (W0 m ρ c)
theorem kst_main_v102 (c : Dev nD) :
    W29 m ρ c (Proc.devRef .tc main_v102) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v102 (by decide), kept0 m ρ c main_v18 (by decide)]
  exact Cert.Lib.ReadFinal.unary (l := hostOps0) (hostOps0_inOrder (F := F)) 127 rfl (by decide) (by decide) (W0 m ρ c)
theorem kst_main_v103 (c : Dev nD) :
    W29 m ρ c (Proc.devRef .tc main_v103) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v85)) (W29 m ρ c (Proc.devRef .tc main_v102)) := by
  rw [kept0 m ρ c main_v103 (by decide), kept0 m ρ c main_v85 (by decide), kept0 m ρ c main_v102 (by decide)]
  exact Cert.Lib.ReadFinal.binary (l := hostOps0) (hostOps0_inOrder (F := F)) 128 rfl (by decide) (by decide) (by decide) (W0 m ρ c)
theorem kst_main_c_23 (c : Dev nD) :
    W29 m ρ c (Proc.devRef .tc main_c_23) = (constantI S_ 32 0#32) := by
  rw [kept0 m ρ c main_c_23 (by decide)]
  exact Cert.Lib.ReadFinal.nullary (l := hostOps0) (hostOps0_inOrder (F := F)) 129 rfl (by decide) (W0 m ρ c)
theorem kst_main_v104 (c : Dev nD) :
    W29 m ρ c (Proc.devRef .tc main_v104) = (broadcastInDim S262144 ![] bcast_S_S262144 : (⟨S_, .i32⟩ : BufTy).Contents (Elt F) → (⟨S262144, .i32⟩ : BufTy).Contents (Elt F)) (W29 m ρ c (Proc.devRef .tc main_c_23)) := by
  rw [kept0 m ρ c main_v104 (by decide), kept0 m ρ c main_c_23 (by decide)]
  exact Cert.Lib.ReadFinal.unary (l := hostOps0) (hostOps0_inOrder (F := F)) 130 rfl (by decide) (by decide) (W0 m ρ c)
theorem kst_main_v105 (c : Dev nD) :
    W29 m ρ c (Proc.devRef .tc main_v105) = (cmpi .slt : (⟨S262144, .i32⟩ : BufTy).Contents (Elt F) → (⟨S262144, .i32⟩ : BufTy).Contents (Elt F) → (⟨S262144, .i1⟩ : BufTy).Contents (Elt F)) (W29 m ρ c (Proc.devRef .tc main_arg5)) (W29 m ρ c (Proc.devRef .tc main_v104)) := by
  rw [kept0 m ρ c main_v105 (by decide), kept0 m ρ c main_arg5 (by decide), kept0 m ρ c main_v104 (by decide)]
  exact Cert.Lib.ReadFinal.binary (l := hostOps0) (hostOps0_inOrder (F := F)) 131 rfl (by decide) (by decide) (by decide) (W0 m ρ c)
theorem kst_main_c_24 (c : Dev nD) :
    W29 m ρ c (Proc.devRef .tc main_c_24) = (constantI S_ 32 4096#32) := by
  rw [kept0 m ρ c main_c_24 (by decide)]
  exact Cert.Lib.ReadFinal.nullary (l := hostOps0) (hostOps0_inOrder (F := F)) 132 rfl (by decide) (W0 m ρ c)
theorem kst_main_v106 (c : Dev nD) :
    W29 m ρ c (Proc.devRef .tc main_v106) = (broadcastInDim S262144 ![] bcast_S_S262144 : (⟨S_, .i32⟩ : BufTy).Contents (Elt F) → (⟨S262144, .i32⟩ : BufTy).Contents (Elt F)) (W29 m ρ c (Proc.devRef .tc main_c_24)) := by
  rw [kept0 m ρ c main_v106 (by decide), kept0 m ρ c main_c_24 (by decide)]
  exact Cert.Lib.ReadFinal.unary (l := hostOps0) (hostOps0_inOrder (F := F)) 133 rfl (by decide) (by decide) (W0 m ρ c)
theorem kst_main_v107 (c : Dev nD) :
    W29 m ρ c (Proc.devRef .tc main_v107) = (addi : (⟨S262144, .i32⟩ : BufTy).Contents (Elt F) → (⟨S262144, .i32⟩ : BufTy).Contents (Elt F) → (⟨S262144, .i32⟩ : BufTy).Contents (Elt F)) (W29 m ρ c (Proc.devRef .tc main_arg5)) (W29 m ρ c (Proc.devRef .tc main_v106)) := by
  rw [kept0 m ρ c main_v107 (by decide), kept0 m ρ c main_arg5 (by decide), kept0 m ρ c main_v106 (by decide)]
  exact Cert.Lib.ReadFinal.binary (l := hostOps0) (hostOps0_inOrder (F := F)) 134 rfl (by decide) (by decide) (by decide) (W0 m ρ c)
theorem kst_main_v108 (c : Dev nD) :
    W29 m ρ c (Proc.devRef .tc main_v108) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (W29 m ρ c (Proc.devRef .tc main_v105)) (W29 m ρ c (Proc.devRef .tc main_v107)) (W29 m ρ c (Proc.devRef .tc main_arg5)) := by
  rw [kept0 m ρ c main_v108 (by decide), kept0 m ρ c main_v105 (by decide), kept0 m ρ c main_v107 (by decide), kept0 m ρ c main_arg5 (by decide)]
  exact Cert.Lib.ReadFinal.ternary (l := hostOps0) (hostOps0_inOrder (F := F)) 135 rfl (by decide) (by decide) (by decide) (by decide) (W0 m ρ c)
theorem kst_main_v109 (c : Dev nD) :
    W29 m ρ c (Proc.devRef .tc main_v109) = (broadcastInDim S262144x1 ![0] bcast_S262144_S262144x1_0 : (⟨S262144, .i32⟩ : BufTy).Contents (Elt F) → (⟨S262144x1, .i32⟩ : BufTy).Contents (Elt F)) (W29 m ρ c (Proc.devRef .tc main_v108)) := by
  rw [kept0 m ρ c main_v109 (by decide), kept0 m ρ c main_v108 (by decide)]
  exact Cert.Lib.ReadFinal.unary (l := hostOps0) (hostOps0_inOrder (F := F)) 136 rfl (by decide) (by decide) (W0 m ρ c)
theorem kst_main_v110 (c : Dev nD) :
    W29 m ρ c (Proc.devRef .tc main_v110) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (W29 m ρ c (Proc.devRef .tc main_v103)) (W29 m ρ c (Proc.devRef .tc main_v109)) := by
  rw [kept0 m ρ c main_v110 (by decide), kept0 m ρ c main_v103 (by decide), kept0 m ρ c main_v109 (by decide)]
  exact Cert.Lib.ReadFinal.binary (l := hostOps0) (hostOps0_inOrder (F := F)) 137 rfl (by decide) (by decide) (by decide) (W0 m ρ c)
theorem kst_main_cst_25 (c : Dev nD) :
    W29 m ρ c (Proc.devRef .tc main_cst_25) = (constant (F := F) S_ .f32 0x00000000#32) := by
  rw [kept0 m ρ c main_cst_25 (by decide)]
  exact Cert.Lib.ReadFinal.nullary (l := hostOps0) (hostOps0_inOrder (F := F)) 138 rfl (by decide) (W0 m ρ c)
theorem kst_main_v111 (c : Dev nD) :
    W29 m ρ c (Proc.devRef .tc main_v111) = (broadcastInDim S4096x64 ![] bcast_S_S4096x64 : (⟨S_, .f32⟩ : BufTy).Contents (Elt F) → (⟨S4096x64, .f32⟩ : BufTy).Contents (Elt F)) (W29 m ρ c (Proc.devRef .tc main_cst_25)) := by
  rw [kept0 m ρ c main_v111 (by decide), kept0 m ρ c main_cst_25 (by decide)]
  exact Cert.Lib.ReadFinal.unary (l := hostOps0) (hostOps0_inOrder (F := F)) 139 rfl (by decide) (by decide) (W0 m ρ c)
theorem kst_main_v112 (c : Dev nD) :
    W29 m ρ c (Proc.devRef .tc main_v112) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg5)) := by
  rw [kept0 m ρ c main_v112 (by decide), kept0 m ρ c main_arg5 (by decide)]
  exact Cert.Lib.ReadFinal.unary (l := hostOps0) (hostOps0_inOrder (F := F)) 140 rfl (by decide) (by decide) (W0 m ρ c)
theorem kst_main_v113 (c : Dev nD) :
    W29 m ρ c (Proc.devRef .tc main_v113) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v111)) (W29 m ρ c (Proc.devRef .tc main_v112)) (W29 m ρ c (Proc.devRef .tc main_v101)) := by
  rw [kept0 m ρ c main_v113 (by decide), kept0 m ρ c main_v111 (by decide), kept0 m ρ c main_v112 (by decide), kept0 m ρ c main_v101 (by decide)]
  exact Cert.Lib.ReadFinal.ternary (l := hostOps0) (hostOps0_inOrder (F := F)) 141 rfl (by decide) (by decide) (by decide) (by decide) (W0 m ρ c)
theorem kst_main_v114 (c : Dev nD) :
    W29 m ρ c (Proc.devRef .tc main_v114) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v18)) := by
  rw [kept0 m ρ c main_v114 (by decide), kept0 m ρ c main_v18 (by decide)]
  exact Cert.Lib.ReadFinal.unary (l := hostOps0) (hostOps0_inOrder (F := F)) 142 rfl (by decide) (by decide) (W0 m ρ c)
theorem kst_main_v115 (c : Dev nD) :
    W29 m ρ c (Proc.devRef .tc main_v115) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v113)) (W29 m ρ c (Proc.devRef .tc main_v114)) := by
  rw [kept0 m ρ c main_v115 (by decide), kept0 m ρ c main_v113 (by decide), kept0 m ρ c main_v114 (by decide)]
  exact Cert.Lib.ReadFinal.binary (l := hostOps0) (hostOps0_inOrder (F := F)) 143 rfl (by decide) (by decide) (by decide) (W0 m ρ c)
theorem kst_main_cst_26 (c : Dev nD) :
    W29 m ρ c (Proc.devRef .tc main_cst_26) = (constant (F := F) S_ .f32 0x00000000#32) := by
  rw [kept0 m ρ c main_cst_26 (by decide)]
  exact Cert.Lib.ReadFinal.nullary (l := hostOps0) (hostOps0_inOrder (F := F)) 144 rfl (by decide) (W0 m ρ c)
theorem kst_main_v116 (c : Dev nD) :
    W29 m ρ c (Proc.devRef .tc main_v116) = (broadcastInDim S4096x64 ![] bcast_S_S4096x64 : (⟨S_, .f32⟩ : BufTy).Contents (Elt F) → (⟨S4096x64, .f32⟩ : BufTy).Contents (Elt F)) (W29 m ρ c (Proc.devRef .tc main_cst_26)) := by
  rw [kept0 m ρ c main_v116 (by decide), kept0 m ρ c main_cst_26 (by decide)]
  exact Cert.Lib.ReadFinal.unary (l := hostOps0) (hostOps0_inOrder (F := F)) 145 rfl (by decide) (by decide) (W0 m ρ c)
theorem kst_main_v117 (c : Dev nD) :
    W29 m ρ c (Proc.devRef .tc main_v117) = (broadcastInDim S262144x1 ![0] bcast_S262144_S262144x1_0 : (⟨S262144, .i32⟩ : BufTy).Contents (Elt F) → (⟨S262144x1, .i32⟩ : BufTy).Contents (Elt F)) (W29 m ρ c (Proc.devRef .tc main_arg4)) := by
  rw [kept0 m ρ c main_v117 (by decide), kept0 m ρ c main_arg4 (by decide)]
  exact Cert.Lib.ReadFinal.unary (l := hostOps0) (hostOps0_inOrder (F := F)) 146 rfl (by decide) (by decide) (W0 m ρ c)
theorem kst_main_v118 (c : Dev nD) :
    W29 m ρ c (Proc.devRef .tc main_v118) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (W29 m ρ c (Proc.devRef .tc main_v116)) (W29 m ρ c (Proc.devRef .tc main_v117)) (W29 m ρ c (Proc.devRef .tc main_v110)) := by
  rw [kept0 m ρ c main_v118 (by decide), kept0 m ρ c main_v116 (by decide), kept0 m ρ c main_v117 (by decide), kept0 m ρ c main_v110 (by decide)]
  exact Cert.Lib.ReadFinal.ternary (l := hostOps0) (hostOps0_inOrder (F := F)) 147 rfl (by decide) (by decide) (by decide) (by decide) (W0 m ρ c)
theorem kst_main_v119 (c : Dev nD) :
    W29 m ρ c (Proc.devRef .tc main_v119) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v12)) := by
  rw [kept0 m ρ c main_v119 (by decide), kept0 m ρ c main_v12 (by decide)]
  exact Cert.Lib.ReadFinal.unary (l := hostOps0) (hostOps0_inOrder (F := F)) 148 rfl (by decide) (by decide) (W0 m ρ c)
theorem kst_main_v120 (c : Dev nD) :
    W29 m ρ c (Proc.devRef .tc main_v120) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v118)) (W29 m ρ c (Proc.devRef .tc main_v119)) := by
  rw [kept0 m ρ c main_v120 (by decide), kept0 m ρ c main_v118 (by decide), kept0 m ρ c main_v119 (by decide)]
  exact Cert.Lib.ReadFinal.binary (l := hostOps0) (hostOps0_inOrder (F := F)) 149 rfl (by decide) (by decide) (by decide) (W0 m ρ c)
theorem kst_main_v121 (c : Dev nD) :
    W29 m ρ c (Proc.devRef .tc main_v121) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v91)) (W29 m ρ c (Proc.devRef .tc main_v120)) := by
  rw [kept0 m ρ c main_v121 (by decide), kept0 m ρ c main_v91 (by decide), kept0 m ρ c main_v120 (by decide)]
  exact Cert.Lib.ReadFinal.binary (l := hostOps0) (hostOps0_inOrder (F := F)) 150 rfl (by decide) (by decide) (by decide) (W0 m ρ c)
theorem kst_main_v122 (c : Dev nD) :
    W29 m ρ c (Proc.devRef .tc main_v122) = (addf : (⟨S4096x64, .f32⟩ : BufTy).Contents (Elt F) → (⟨S4096x64, .f32⟩ : BufTy).Contents (Elt F) → (⟨S4096x64, .f32⟩ : BufTy).Contents (Elt F)) (W29 m ρ c (Proc.devRef .tc main_v92)) (W29 m ρ c (Proc.devRef .tc main_v115)) := by
  rw [kept0 m ρ c main_v122 (by decide), kept0 m ρ c main_v92 (by decide), kept0 m ρ c main_v115 (by decide)]
  exact Cert.Lib.ReadFinal.binary (l := hostOps0) (hostOps0_inOrder (F := F)) 151 rfl (by decide) (by decide) (by decide) (W0 m ρ c)

end Cert.KernelIdeal.Hand

end
-- ==== Proof.KIStagesB.lean ====
/-
  Stage by stage: at the end of @main the buffer a host operation wrote holds that operation's function of what its
  operands hold at the end — every buffer is written once, and nothing an operation reads is written after it.
-/
import proofs.«110517_j15659450761722_1_alg».proof.Proof.KIKept
import proofs.«110517_j15659450761722_1_alg».proof.Proof.LibReadFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

theorem kst_main_call0_v0 (c : Dev nD) :
    W29 m ρ c (Proc.devRef .tc main_call0_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v120)) (W29 m ρ c (Proc.devRef .tc main_v120)) := by
  rw [kept1 m ρ c main_call0_v0 (by decide), kept1 m ρ c main_v120 (by decide)]
  exact Cert.Lib.ReadFinal.binary (l := hostOps0_1) (hostOps0_1_inOrder (F := F)) 0 rfl (by decide) (by decide) (by decide) (W1 m ρ c)
theorem kst_main_call0_cst (c : Dev nD) :
    W29 m ρ c (Proc.devRef .tc main_call0_cst) = ((constant (F := F) S_ .f32 0x00000000#32) : (⟨S_, .f32⟩ : BufTy).Contents (Elt F)) := by
  rw [kept1 m ρ c main_call0_cst (by decide)]
  exact Cert.Lib.ReadFinal.nullary (l := hostOps0_1) (hostOps0_1_inOrder (F := F)) 1 rfl (by decide) (W1 m ρ c)
theorem kst_main_call0_v1 (c : Dev nD) :
    W29 m ρ c (Proc.devRef .tc main_call0_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call0_v0)) (W29 m ρ c (Proc.devRef .tc main_call0_cst)) := by
  rw [kept1 m ρ c main_call0_v1 (by decide), kept1 m ρ c main_call0_v0 (by decide), kept1 m ρ c main_call0_cst (by decide)]
  exact Cert.Lib.ReadFinal.binary (l := hostOps0_1) (hostOps0_1_inOrder (F := F)) 2 rfl (by decide) (by decide) (by decide) (W1 m ρ c)
theorem kst_main_call0_v2 (c : Dev nD) :
    W29 m ρ c (Proc.devRef .tc main_call0_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call0_v1)) := by
  rw [kept1 m ρ c main_call0_v2 (by decide), kept1 m ρ c main_call0_v1 (by decide)]
  exact Cert.Lib.ReadFinal.unary (l := hostOps0_1) (hostOps0_1_inOrder (F := F)) 3 rfl (by decide) (by decide) (W1 m ρ c)
theorem kst_main_v123 (c : Dev nD) :
    W29 m ρ c (Proc.devRef .tc main_v123) = ((Host.sqrt) : (⟨S4096x1, .f32⟩ : BufTy).Contents (Elt F) → (⟨S4096x1, .f32⟩ : BufTy).Contents (Elt F)) (W29 m ρ c (Proc.devRef .tc main_call0_v2)) := by
  rw [kept1 m ρ c main_v123 (by decide), kept1 m ρ c main_call0_v2 (by decide)]
  exact Cert.Lib.ReadFinal.unary (l := hostOps0_1) (hostOps0_1_inOrder (F := F)) 4 rfl (by decide) (by decide) (W1 m ρ c)
theorem kst_main_cst_27 (c : Dev nD) :
    W29 m ρ c (Proc.devRef .tc main_cst_27) = (constant (F := F) S_ .f32 0x2B8CBCCC#32) := by
  rw [kept2 m ρ c main_cst_27 (by decide)]
  exact Cert.Lib.ReadFinal.nullary (l := hostOps0_2) (hostOps0_2_inOrder (F := F)) 0 rfl (by decide) (W2 m ρ c)
theorem kst_main_v124 (c : Dev nD) :
    W29 m ρ c (Proc.devRef .tc main_v124) = (broadcastInDim S4096x1 ![] bcast_S_S4096x1 : (⟨S_, .f32⟩ : BufTy).Contents (Elt F) → (⟨S4096x1, .f32⟩ : BufTy).Contents (Elt F)) (W29 m ρ c (Proc.devRef .tc main_cst_27)) := by
  rw [kept2 m ρ c main_v124 (by decide), kept2 m ρ c main_cst_27 (by decide)]
  exact Cert.Lib.ReadFinal.unary (l := hostOps0_2) (hostOps0_2_inOrder (F := F)) 1 rfl (by decide) (by decide) (W2 m ρ c)
theorem kst_main_v125 (c : Dev nD) :
    W29 m ρ c (Proc.devRef .tc main_v125) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v123)) (W29 m ρ c (Proc.devRef .tc main_v124)) := by
  rw [kept2 m ρ c main_v125 (by decide), kept2 m ρ c main_v123 (by decide), kept2 m ρ c main_v124 (by decide)]
  exact Cert.Lib.ReadFinal.binary (l := hostOps0_2) (hostOps0_2_inOrder (F := F)) 2 rfl (by decide) (by decide) (by decide) (W2 m ρ c)
theorem kst_main_v126 (c : Dev nD) :
    W29 m ρ c (Proc.devRef .tc main_v126) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v125)) := by
  rw [kept2 m ρ c main_v126 (by decide), kept2 m ρ c main_v125 (by decide)]
  exact Cert.Lib.ReadFinal.unary (l := hostOps0_2) (hostOps0_2_inOrder (F := F)) 3 rfl (by decide) (by decide) (W2 m ρ c)
theorem kst_main_v127 (c : Dev nD) :
    W29 m ρ c (Proc.devRef .tc main_v127) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v120)) (W29 m ρ c (Proc.devRef .tc main_v126)) := by
  rw [kept2 m ρ c main_v127 (by decide), kept2 m ρ c main_v120 (by decide), kept2 m ρ c main_v126 (by decide)]
  exact Cert.Lib.ReadFinal.binary (l := hostOps0_2) (hostOps0_2_inOrder (F := F)) 4 rfl (by decide) (by decide) (by decide) (W2 m ρ c)
theorem kst_main_call1_v0 (c : Dev nD) :
    W29 m ρ c (Proc.devRef .tc main_call1_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v25)) (W29 m ρ c (Proc.devRef .tc main_v25)) := by
  rw [kept3 m ρ c main_call1_v0 (by decide), kept3 m ρ c main_v25 (by decide)]
  exact Cert.Lib.ReadFinal.binary (l := hostOps0_3) (hostOps0_3_inOrder (F := F)) 0 rfl (by decide) (by decide) (by decide) (W3 m ρ c)
theorem kst_main_call1_cst (c : Dev nD) :
    W29 m ρ c (Proc.devRef .tc main_call1_cst) = ((constant (F := F) S_ .f32 0x00000000#32) : (⟨S_, .f32⟩ : BufTy).Contents (Elt F)) := by
  rw [kept3 m ρ c main_call1_cst (by decide)]
  exact Cert.Lib.ReadFinal.nullary (l := hostOps0_3) (hostOps0_3_inOrder (F := F)) 1 rfl (by decide) (W3 m ρ c)
theorem kst_main_call1_v1 (c : Dev nD) :
    W29 m ρ c (Proc.devRef .tc main_call1_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call1_v0)) (W29 m ρ c (Proc.devRef .tc main_call1_cst)) := by
  rw [kept3 m ρ c main_call1_v1 (by decide), kept3 m ρ c main_call1_v0 (by decide), kept3 m ρ c main_call1_cst (by decide)]
  exact Cert.Lib.ReadFinal.binary (l := hostOps0_3) (hostOps0_3_inOrder (F := F)) 2 rfl (by decide) (by decide) (by decide) (W3 m ρ c)
theorem kst_main_call1_v2 (c : Dev nD) :
    W29 m ρ c (Proc.devRef .tc main_call1_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call1_v1)) := by
  rw [kept3 m ρ c main_call1_v2 (by decide), kept3 m ρ c main_call1_v1 (by decide)]
  exact Cert.Lib.ReadFinal.unary (l := hostOps0_3) (hostOps0_3_inOrder (F := F)) 3 rfl (by decide) (by decide) (W3 m ρ c)
theorem kst_main_v128 (c : Dev nD) :
    W29 m ρ c (Proc.devRef .tc main_v128) = ((Host.sqrt) : (⟨S4096x1, .f32⟩ : BufTy).Contents (Elt F) → (⟨S4096x1, .f32⟩ : BufTy).Contents (Elt F)) (W29 m ρ c (Proc.devRef .tc main_call1_v2)) := by
  rw [kept3 m ρ c main_v128 (by decide), kept3 m ρ c main_call1_v2 (by decide)]
  exact Cert.Lib.ReadFinal.unary (l := hostOps0_3) (hostOps0_3_inOrder (F := F)) 4 rfl (by decide) (by decide) (W3 m ρ c)
theorem kst_main_cst_28 (c : Dev nD) :
    W29 m ρ c (Proc.devRef .tc main_cst_28) = (constant (F := F) S_ .f32 0x2B8CBCCC#32) := by
  rw [kept4 m ρ c main_cst_28 (by decide)]
  exact Cert.Lib.ReadFinal.nullary (l := hostOps0_4) (hostOps0_4_inOrder (F := F)) 0 rfl (by decide) (W4 m ρ c)
theorem kst_main_v129 (c : Dev nD) :
    W29 m ρ c (Proc.devRef .tc main_v129) = (broadcastInDim S4096x1 ![] bcast_S_S4096x1 : (⟨S_, .f32⟩ : BufTy).Contents (Elt F) → (⟨S4096x1, .f32⟩ : BufTy).Contents (Elt F)) (W29 m ρ c (Proc.devRef .tc main_cst_28)) := by
  rw [kept4 m ρ c main_v129 (by decide), kept4 m ρ c main_cst_28 (by decide)]
  exact Cert.Lib.ReadFinal.unary (l := hostOps0_4) (hostOps0_4_inOrder (F := F)) 1 rfl (by decide) (by decide) (W4 m ρ c)
theorem kst_main_v130 (c : Dev nD) :
    W29 m ρ c (Proc.devRef .tc main_v130) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v128)) (W29 m ρ c (Proc.devRef .tc main_v129)) := by
  rw [kept4 m ρ c main_v130 (by decide), kept4 m ρ c main_v128 (by decide), kept4 m ρ c main_v129 (by decide)]
  exact Cert.Lib.ReadFinal.binary (l := hostOps0_4) (hostOps0_4_inOrder (F := F)) 2 rfl (by decide) (by decide) (by decide) (W4 m ρ c)
theorem kst_main_v131 (c : Dev nD) :
    W29 m ρ c (Proc.devRef .tc main_v131) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v130)) := by
  rw [kept4 m ρ c main_v131 (by decide), kept4 m ρ c main_v130 (by decide)]
  exact Cert.Lib.ReadFinal.unary (l := hostOps0_4) (hostOps0_4_inOrder (F := F)) 3 rfl (by decide) (by decide) (W4 m ρ c)
theorem kst_main_v132 (c : Dev nD) :
    W29 m ρ c (Proc.devRef .tc main_v132) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v25)) (W29 m ρ c (Proc.devRef .tc main_v131)) := by
  rw [kept4 m ρ c main_v132 (by decide), kept4 m ρ c main_v25 (by decide), kept4 m ρ c main_v131 (by decide)]
  exact Cert.Lib.ReadFinal.binary (l := hostOps0_4) (hostOps0_4_inOrder (F := F)) 4 rfl (by decide) (by decide) (by decide) (W4 m ρ c)
theorem kst_main_call2_v0 (c : Dev nD) :
    W29 m ρ c (Proc.devRef .tc main_call2_v0) = ((mulf) : (⟨S50000x64, .f32⟩ : BufTy).Contents (Elt F) → (⟨S50000x64, .f32⟩ : BufTy).Contents (Elt F) → (⟨S50000x64, .f32⟩ : BufTy).Contents (Elt F)) (W29 m ρ c (Proc.devRef .tc main_arg0)) (W29 m ρ c (Proc.devRef .tc main_arg0)) := by
  rw [kept5 m ρ c main_call2_v0 (by decide), kept5 m ρ c main_arg0 (by decide)]
  exact Cert.Lib.ReadFinal.binary (l := hostOps0_5) (hostOps0_5_inOrder (F := F)) 0 rfl (by decide) (by decide) (by decide) (W5 m ρ c)
theorem kst_main_call2_cst (c : Dev nD) :
    W29 m ρ c (Proc.devRef .tc main_call2_cst) = ((constant (F := F) S_ .f32 0x00000000#32) : (⟨S_, .f32⟩ : BufTy).Contents (Elt F)) := by
  rw [kept5 m ρ c main_call2_cst (by decide)]
  exact Cert.Lib.ReadFinal.nullary (l := hostOps0_5) (hostOps0_5_inOrder (F := F)) 1 rfl (by decide) (W5 m ρ c)
theorem kst_main_call2_v1 (c : Dev nD) :
    W29 m ρ c (Proc.devRef .tc main_call2_v1) = ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (W29 m ρ c (Proc.devRef .tc main_call2_v0)) (W29 m ρ c (Proc.devRef .tc main_call2_cst)) := by
  rw [kept5 m ρ c main_call2_v1 (by decide), kept5 m ρ c main_call2_v0 (by decide), kept5 m ρ c main_call2_cst (by decide)]
  exact Cert.Lib.ReadFinal.binary (l := hostOps0_5) (hostOps0_5_inOrder (F := F)) 2 rfl (by decide) (by decide) (by decide) (W5 m ρ c)
theorem kst_main_call2_v2 (c : Dev nD) :
    W29 m ρ c (Proc.devRef .tc main_call2_v2) = ((broadcastInDim S50000x1 ![0] bcast_S50000_S50000x1_0) : (⟨S50000, .f32⟩ : BufTy).Contents (Elt F) → (⟨S50000x1, .f32⟩ : BufTy).Contents (Elt F)) (W29 m ρ c (Proc.devRef .tc main_call2_v1)) := by
  rw [kept5 m ρ c main_call2_v2 (by decide), kept5 m ρ c main_call2_v1 (by decide)]
  exact Cert.Lib.ReadFinal.unary (l := hostOps0_5) (hostOps0_5_inOrder (F := F)) 3 rfl (by decide) (by decide) (W5 m ρ c)
theorem kst_main_v133 (c : Dev nD) :
    W29 m ρ c (Proc.devRef .tc main_v133) = ((Host.sqrt) : (⟨S50000x1, .f32⟩ : BufTy).Contents (Elt F) → (⟨S50000x1, .f32⟩ : BufTy).Contents (Elt F)) (W29 m ρ c (Proc.devRef .tc main_call2_v2)) := by
  rw [kept5 m ρ c main_v133 (by decide), kept5 m ρ c main_call2_v2 (by decide)]
  exact Cert.Lib.ReadFinal.unary (l := hostOps0_5) (hostOps0_5_inOrder (F := F)) 4 rfl (by decide) (by decide) (W5 m ρ c)
theorem kst_main_cst_29 (c : Dev nD) :
    W29 m ρ c (Proc.devRef .tc main_cst_29) = (constant (F := F) S_ .f32 0x2B8CBCCC#32) := by
  rw [kept6 m ρ c main_cst_29 (by decide)]
  exact Cert.Lib.ReadFinal.nullary (l := hostOps0_6) (hostOps0_6_inOrder (F := F)) 0 rfl (by decide) (W6 m ρ c)
theorem kst_main_v134 (c : Dev nD) :
    W29 m ρ c (Proc.devRef .tc main_v134) = (broadcastInDim S50000x1 ![] bcast_S_S50000x1 : (⟨S_, .f32⟩ : BufTy).Contents (Elt F) → (⟨S50000x1, .f32⟩ : BufTy).Contents (Elt F)) (W29 m ρ c (Proc.devRef .tc main_cst_29)) := by
  rw [kept6 m ρ c main_v134 (by decide), kept6 m ρ c main_cst_29 (by decide)]
  exact Cert.Lib.ReadFinal.unary (l := hostOps0_6) (hostOps0_6_inOrder (F := F)) 1 rfl (by decide) (by decide) (W6 m ρ c)
theorem kst_main_v135 (c : Dev nD) :
    W29 m ρ c (Proc.devRef .tc main_v135) = (maximumf : (⟨S50000x1, .f32⟩ : BufTy).Contents (Elt F) → (⟨S50000x1, .f32⟩ : BufTy).Contents (Elt F) → (⟨S50000x1, .f32⟩ : BufTy).Contents (Elt F)) (W29 m ρ c (Proc.devRef .tc main_v133)) (W29 m ρ c (Proc.devRef .tc main_v134)) := by
  rw [kept6 m ρ c main_v135 (by decide), kept6 m ρ c main_v133 (by decide), kept6 m ρ c main_v134 (by decide)]
  exact Cert.Lib.ReadFinal.binary (l := hostOps0_6) (hostOps0_6_inOrder (F := F)) 2 rfl (by decide) (by decide) (by decide) (W6 m ρ c)
theorem kst_main_v136 (c : Dev nD) :
    W29 m ρ c (Proc.devRef .tc main_v136) = (broadcastInDim S50000x64 ![0, 1] bcast_S50000x1_S50000x64_0_1 : (⟨S50000x1, .f32⟩ : BufTy).Contents (Elt F) → (⟨S50000x64, .f32⟩ : BufTy).Contents (Elt F)) (W29 m ρ c (Proc.devRef .tc main_v135)) := by
  rw [kept6 m ρ c main_v136 (by decide), kept6 m ρ c main_v135 (by decide)]
  exact Cert.Lib.ReadFinal.unary (l := hostOps0_6) (hostOps0_6_inOrder (F := F)) 3 rfl (by decide) (by decide) (W6 m ρ c)
theorem kst_main_v137 (c : Dev nD) :
    W29 m ρ c (Proc.devRef .tc main_v137) = (Host.divf : (⟨S50000x64, .f32⟩ : BufTy).Contents (Elt F) → (⟨S50000x64, .f32⟩ : BufTy).Contents (Elt F) → (⟨S50000x64, .f32⟩ : BufTy).Contents (Elt F)) (W29 m ρ c (Proc.devRef .tc main_arg0)) (W29 m ρ c (Proc.devRef .tc main_v136)) := by
  rw [kept6 m ρ c main_v137 (by decide), kept6 m ρ c main_arg0 (by decide), kept6 m ρ c main_v136 (by decide)]
  exact Cert.Lib.ReadFinal.binary (l := hostOps0_6) (hostOps0_6_inOrder (F := F)) 4 rfl (by decide) (by decide) (by decide) (W6 m ρ c)
theorem kst_main_v140 (c : Dev nD) :
    W29 m ρ c (Proc.devRef .tc main_v140) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v127)) (W29 m ρ c (Proc.devRef .tc main_v132)) := by
  rw [kept8 m ρ c main_v140 (by decide), kept8 m ρ c main_v127 (by decide), kept8 m ρ c main_v132 (by decide)]
  exact Cert.Lib.ReadFinal.binary (l := hostOps1) (hostOps1_inOrder (F := F)) 1 rfl (by decide) (by decide) (by decide) (W8 m ρ c)
theorem kst_main_cst_30 (c : Dev nD) :
    W29 m ρ c (Proc.devRef .tc main_cst_30) = (constant (F := F) S_ .f32 0x00000000#32) := by
  rw [kept8 m ρ c main_cst_30 (by decide)]
  exact Cert.Lib.ReadFinal.nullary (l := hostOps1) (hostOps1_inOrder (F := F)) 2 rfl (by decide) (W8 m ρ c)
theorem kst_main_v141 (c : Dev nD) :
    W29 m ρ c (Proc.devRef .tc main_v141) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_v140)) (W29 m ρ c (Proc.devRef .tc main_cst_30)) := by
  rw [kept8 m ρ c main_v141 (by decide), kept8 m ρ c main_v140 (by decide), kept8 m ρ c main_cst_30 (by decide)]
  exact Cert.Lib.ReadFinal.binary (l := hostOps1) (hostOps1_inOrder (F := F)) 3 rfl (by decide) (by decide) (by decide) (W8 m ρ c)
theorem kst_main_cst_31 (c : Dev nD) :
    W29 m ρ c (Proc.devRef .tc main_cst_31) = (constant (F := F) S_ .f32 0x3DCCCCCD#32) := by
  rw [kept8 m ρ c main_cst_31 (by decide)]
  exact Cert.Lib.ReadFinal.nullary (l := hostOps1) (hostOps1_inOrder (F := F)) 4 rfl (by decide) (W8 m ρ c)
theorem kst_main_v142 (c : Dev nD) :
    W29 m ρ c (Proc.devRef .tc main_v142) = (broadcastInDim S4096 ![] bcast_S_S4096 : (⟨S_, .f32⟩ : BufTy).Contents (Elt F) → (⟨S4096, .f32⟩ : BufTy).Contents (Elt F)) (W29 m ρ c (Proc.devRef .tc main_cst_31)) := by
  rw [kept8 m ρ c main_v142 (by decide), kept8 m ρ c main_cst_31 (by decide)]
  exact Cert.Lib.ReadFinal.unary (l := hostOps1) (hostOps1_inOrder (F := F)) 5 rfl (by decide) (by decide) (W8 m ρ c)
theorem kst_main_v143 (c : Dev nD) :
    W29 m ρ c (Proc.devRef .tc main_v143) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v141)) (W29 m ρ c (Proc.devRef .tc main_v142)) := by
  rw [kept8 m ρ c main_v143 (by decide), kept8 m ρ c main_v141 (by decide), kept8 m ρ c main_v142 (by decide)]
  exact Cert.Lib.ReadFinal.binary (l := hostOps1) (hostOps1_inOrder (F := F)) 6 rfl (by decide) (by decide) (by decide) (W8 m ρ c)
theorem kst_main_v144 (c : Dev nD) :
    W29 m ρ c (Proc.devRef .tc main_v144) = (Host.exp : (⟨S4096, .f32⟩ : BufTy).Contents (Elt F) → (⟨S4096, .f32⟩ : BufTy).Contents (Elt F)) (W29 m ρ c (Proc.devRef .tc main_v143)) := by
  rw [kept8 m ρ c main_v144 (by decide), kept8 m ρ c main_v143 (by decide)]
  exact Cert.Lib.ReadFinal.unary (l := hostOps1) (hostOps1_inOrder (F := F)) 7 rfl (by decide) (by decide) (W8 m ρ c)
theorem kst_main_v145 (c : Dev nD) :
    W29 m ρ c (Proc.devRef .tc main_v145) = (Host.log : (⟨S4096, .f32⟩ : BufTy).Contents (Elt F) → (⟨S4096, .f32⟩ : BufTy).Contents (Elt F)) (W29 m ρ c (Proc.devRef .tc main_v144)) := by
  rw [kept8 m ρ c main_v145 (by decide), kept8 m ρ c main_v144 (by decide)]
  exact Cert.Lib.ReadFinal.unary (l := hostOps1) (hostOps1_inOrder (F := F)) 8 rfl (by decide) (by decide) (W8 m ρ c)
theorem kst_main_v146 (c : Dev nD) :
    W29 m ρ c (Proc.devRef .tc main_v146) = (Host.log : (⟨S4096, .f32⟩ : BufTy).Contents (Elt F) → (⟨S4096, .f32⟩ : BufTy).Contents (Elt F)) (W29 m ρ c (Proc.devRef .tc main_v139)) := by
  rw [kept8 m ρ c main_v146 (by decide), kept8 m ρ c main_v139 (by decide)]
  exact Cert.Lib.ReadFinal.unary (l := hostOps1) (hostOps1_inOrder (F := F)) 9 rfl (by decide) (by decide) (W8 m ρ c)
theorem kst_main_v147 (c : Dev nD) :
    W29 m ρ c (Proc.devRef .tc main_v147) = (subf : (⟨S4096, .f32⟩ : BufTy).Contents (Elt F) → (⟨S4096, .f32⟩ : BufTy).Contents (Elt F) → (⟨S4096, .f32⟩ : BufTy).Contents (Elt F)) (W29 m ρ c (Proc.devRef .tc main_v145)) (W29 m ρ c (Proc.devRef .tc main_v146)) := by
  rw [kept8 m ρ c main_v147 (by decide), kept8 m ρ c main_v145 (by decide), kept8 m ρ c main_v146 (by decide)]
  exact Cert.Lib.ReadFinal.binary (l := hostOps1) (hostOps1_inOrder (F := F)) 10 rfl (by decide) (by decide) (by decide) (W8 m ρ c)
theorem kst_main_cst_32 (c : Dev nD) :
    W29 m ρ c (Proc.devRef .tc main_cst_32) = (constant (F := F) S_ .f32 0x00000000#32) := by
  rw [kept8 m ρ c main_cst_32 (by decide)]
  exact Cert.Lib.ReadFinal.nullary (l := hostOps1) (hostOps1_inOrder (F := F)) 11 rfl (by decide) (W8 m ρ c)
theorem kst_main_v148 (c : Dev nD) :
    W29 m ρ c (Proc.devRef .tc main_v148) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (W29 m ρ c (Proc.devRef .tc main_v147)) (W29 m ρ c (Proc.devRef .tc main_cst_32)) := by
  rw [kept8 m ρ c main_v148 (by decide), kept8 m ρ c main_v147 (by decide), kept8 m ρ c main_cst_32 (by decide)]
  exact Cert.Lib.ReadFinal.binary (l := hostOps1) (hostOps1_inOrder (F := F)) 12 rfl (by decide) (by decide) (by decide) (W8 m ρ c)
theorem kst_main_v149 (c : Dev nD) :
    W29 m ρ c (Proc.devRef .tc main_v149) = (Host.negf : (⟨S_, .f32⟩ : BufTy).Contents (Elt F) → (⟨S_, .f32⟩ : BufTy).Contents (Elt F)) (W29 m ρ c (Proc.devRef .tc main_v148)) := by
  rw [kept8 m ρ c main_v149 (by decide), kept8 m ρ c main_v148 (by decide)]
  exact Cert.Lib.ReadFinal.unary (l := hostOps1) (hostOps1_inOrder (F := F)) 13 rfl (by decide) (by decide) (W8 m ρ c)
theorem kst_main_call3_v0 (c : Dev nD) :
    W29 m ρ c (Proc.devRef .tc main_call3_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v115)) (W29 m ρ c (Proc.devRef .tc main_v115)) := by
  rw [kept9 m ρ c main_call3_v0 (by decide), kept9 m ρ c main_v115 (by decide)]
  exact Cert.Lib.ReadFinal.binary (l := hostOps1_1) (hostOps1_1_inOrder (F := F)) 0 rfl (by decide) (by decide) (by decide) (W9 m ρ c)
theorem kst_main_call3_cst (c : Dev nD) :
    W29 m ρ c (Proc.devRef .tc main_call3_cst) = ((constant (F := F) S_ .f32 0x00000000#32) : (⟨S_, .f32⟩ : BufTy).Contents (Elt F)) := by
  rw [kept9 m ρ c main_call3_cst (by decide)]
  exact Cert.Lib.ReadFinal.nullary (l := hostOps1_1) (hostOps1_1_inOrder (F := F)) 1 rfl (by decide) (W9 m ρ c)
theorem kst_main_call3_v1 (c : Dev nD) :
    W29 m ρ c (Proc.devRef .tc main_call3_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call3_v0)) (W29 m ρ c (Proc.devRef .tc main_call3_cst)) := by
  rw [kept9 m ρ c main_call3_v1 (by decide), kept9 m ρ c main_call3_v0 (by decide), kept9 m ρ c main_call3_cst (by decide)]
  exact Cert.Lib.ReadFinal.binary (l := hostOps1_1) (hostOps1_1_inOrder (F := F)) 2 rfl (by decide) (by decide) (by decide) (W9 m ρ c)
theorem kst_main_call3_v2 (c : Dev nD) :
    W29 m ρ c (Proc.devRef .tc main_call3_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call3_v1)) := by
  rw [kept9 m ρ c main_call3_v2 (by decide), kept9 m ρ c main_call3_v1 (by decide)]
  exact Cert.Lib.ReadFinal.unary (l := hostOps1_1) (hostOps1_1_inOrder (F := F)) 3 rfl (by decide) (by decide) (W9 m ρ c)
theorem kst_main_v150 (c : Dev nD) :
    W29 m ρ c (Proc.devRef .tc main_v150) = ((Host.sqrt) : (⟨S4096x1, .f32⟩ : BufTy).Contents (Elt F) → (⟨S4096x1, .f32⟩ : BufTy).Contents (Elt F)) (W29 m ρ c (Proc.devRef .tc main_call3_v2)) := by
  rw [kept9 m ρ c main_v150 (by decide), kept9 m ρ c main_call3_v2 (by decide)]
  exact Cert.Lib.ReadFinal.unary (l := hostOps1_1) (hostOps1_1_inOrder (F := F)) 4 rfl (by decide) (by decide) (W9 m ρ c)
theorem kst_main_cst_33 (c : Dev nD) :
    W29 m ρ c (Proc.devRef .tc main_cst_33) = (constant (F := F) S_ .f32 0x2B8CBCCC#32) := by
  rw [kept10 m ρ c main_cst_33 (by decide)]
  exact Cert.Lib.ReadFinal.nullary (l := hostOps1_2) (hostOps1_2_inOrder (F := F)) 0 rfl (by decide) (W10 m ρ c)
theorem kst_main_v151 (c : Dev nD) :
    W29 m ρ c (Proc.devRef .tc main_v151) = (broadcastInDim S4096x1 ![] bcast_S_S4096x1 : (⟨S_, .f32⟩ : BufTy).Contents (Elt F) → (⟨S4096x1, .f32⟩ : BufTy).Contents (Elt F)) (W29 m ρ c (Proc.devRef .tc main_cst_33)) := by
  rw [kept10 m ρ c main_v151 (by decide), kept10 m ρ c main_cst_33 (by decide)]
  exact Cert.Lib.ReadFinal.unary (l := hostOps1_2) (hostOps1_2_inOrder (F := F)) 1 rfl (by decide) (by decide) (W10 m ρ c)
theorem kst_main_v152 (c : Dev nD) :
    W29 m ρ c (Proc.devRef .tc main_v152) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v150)) (W29 m ρ c (Proc.devRef .tc main_v151)) := by
  rw [kept10 m ρ c main_v152 (by decide), kept10 m ρ c main_v150 (by decide), kept10 m ρ c main_v151 (by decide)]
  exact Cert.Lib.ReadFinal.binary (l := hostOps1_2) (hostOps1_2_inOrder (F := F)) 2 rfl (by decide) (by decide) (by decide) (W10 m ρ c)
theorem kst_main_v153 (c : Dev nD) :
    W29 m ρ c (Proc.devRef .tc main_v153) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v152)) := by
  rw [kept10 m ρ c main_v153 (by decide), kept10 m ρ c main_v152 (by decide)]
  exact Cert.Lib.ReadFinal.unary (l := hostOps1_2) (hostOps1_2_inOrder (F := F)) 3 rfl (by decide) (by decide) (W10 m ρ c)
theorem kst_main_v154 (c : Dev nD) :
    W29 m ρ c (Proc.devRef .tc main_v154) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v115)) (W29 m ρ c (Proc.devRef .tc main_v153)) := by
  rw [kept10 m ρ c main_v154 (by decide), kept10 m ρ c main_v115 (by decide), kept10 m ρ c main_v153 (by decide)]
  exact Cert.Lib.ReadFinal.binary (l := hostOps1_2) (hostOps1_2_inOrder (F := F)) 4 rfl (by decide) (by decide) (by decide) (W10 m ρ c)
theorem kst_main_call4_v0 (c : Dev nD) :
    W29 m ρ c (Proc.devRef .tc main_call4_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v32)) (W29 m ρ c (Proc.devRef .tc main_v32)) := by
  rw [kept11 m ρ c main_call4_v0 (by decide), kept11 m ρ c main_v32 (by decide)]
  exact Cert.Lib.ReadFinal.binary (l := hostOps1_3) (hostOps1_3_inOrder (F := F)) 0 rfl (by decide) (by decide) (by decide) (W11 m ρ c)
theorem kst_main_call4_cst (c : Dev nD) :
    W29 m ρ c (Proc.devRef .tc main_call4_cst) = ((constant (F := F) S_ .f32 0x00000000#32) : (⟨S_, .f32⟩ : BufTy).Contents (Elt F)) := by
  rw [kept11 m ρ c main_call4_cst (by decide)]
  exact Cert.Lib.ReadFinal.nullary (l := hostOps1_3) (hostOps1_3_inOrder (F := F)) 1 rfl (by decide) (W11 m ρ c)
theorem kst_main_call4_v1 (c : Dev nD) :
    W29 m ρ c (Proc.devRef .tc main_call4_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call4_v0)) (W29 m ρ c (Proc.devRef .tc main_call4_cst)) := by
  rw [kept11 m ρ c main_call4_v1 (by decide), kept11 m ρ c main_call4_v0 (by decide), kept11 m ρ c main_call4_cst (by decide)]
  exact Cert.Lib.ReadFinal.binary (l := hostOps1_3) (hostOps1_3_inOrder (F := F)) 2 rfl (by decide) (by decide) (by decide) (W11 m ρ c)
theorem kst_main_call4_v2 (c : Dev nD) :
    W29 m ρ c (Proc.devRef .tc main_call4_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call4_v1)) := by
  rw [kept11 m ρ c main_call4_v2 (by decide), kept11 m ρ c main_call4_v1 (by decide)]
  exact Cert.Lib.ReadFinal.unary (l := hostOps1_3) (hostOps1_3_inOrder (F := F)) 3 rfl (by decide) (by decide) (W11 m ρ c)
theorem kst_main_v155 (c : Dev nD) :
    W29 m ρ c (Proc.devRef .tc main_v155) = ((Host.sqrt) : (⟨S4096x1, .f32⟩ : BufTy).Contents (Elt F) → (⟨S4096x1, .f32⟩ : BufTy).Contents (Elt F)) (W29 m ρ c (Proc.devRef .tc main_call4_v2)) := by
  rw [kept11 m ρ c main_v155 (by decide), kept11 m ρ c main_call4_v2 (by decide)]
  exact Cert.Lib.ReadFinal.unary (l := hostOps1_3) (hostOps1_3_inOrder (F := F)) 4 rfl (by decide) (by decide) (W11 m ρ c)
theorem kst_main_cst_34 (c : Dev nD) :
    W29 m ρ c (Proc.devRef .tc main_cst_34) = (constant (F := F) S_ .f32 0x2B8CBCCC#32) := by
  rw [kept12 m ρ c main_cst_34 (by decide)]
  exact Cert.Lib.ReadFinal.nullary (l := hostOps1_4) (hostOps1_4_inOrder (F := F)) 0 rfl (by decide) (W12 m ρ c)
theorem kst_main_v156 (c : Dev nD) :
    W29 m ρ c (Proc.devRef .tc main_v156) = (broadcastInDim S4096x1 ![] bcast_S_S4096x1 : (⟨S_, .f32⟩ : BufTy).Contents (Elt F) → (⟨S4096x1, .f32⟩ : BufTy).Contents (Elt F)) (W29 m ρ c (Proc.devRef .tc main_cst_34)) := by
  rw [kept12 m ρ c main_v156 (by decide), kept12 m ρ c main_cst_34 (by decide)]
  exact Cert.Lib.ReadFinal.unary (l := hostOps1_4) (hostOps1_4_inOrder (F := F)) 1 rfl (by decide) (by decide) (W12 m ρ c)
theorem kst_main_v157 (c : Dev nD) :
    W29 m ρ c (Proc.devRef .tc main_v157) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v155)) (W29 m ρ c (Proc.devRef .tc main_v156)) := by
  rw [kept12 m ρ c main_v157 (by decide), kept12 m ρ c main_v155 (by decide), kept12 m ρ c main_v156 (by decide)]
  exact Cert.Lib.ReadFinal.binary (l := hostOps1_4) (hostOps1_4_inOrder (F := F)) 2 rfl (by decide) (by decide) (by decide) (W12 m ρ c)
theorem kst_main_v158 (c : Dev nD) :
    W29 m ρ c (Proc.devRef .tc main_v158) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v157)) := by
  rw [kept12 m ρ c main_v158 (by decide), kept12 m ρ c main_v157 (by decide)]
  exact Cert.Lib.ReadFinal.unary (l := hostOps1_4) (hostOps1_4_inOrder (F := F)) 3 rfl (by decide) (by decide) (W12 m ρ c)
theorem kst_main_v159 (c : Dev nD) :
    W29 m ρ c (Proc.devRef .tc main_v159) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v32)) (W29 m ρ c (Proc.devRef .tc main_v158)) := by
  rw [kept12 m ρ c main_v159 (by decide), kept12 m ρ c main_v32 (by decide), kept12 m ρ c main_v158 (by decide)]
  exact Cert.Lib.ReadFinal.binary (l := hostOps1_4) (hostOps1_4_inOrder (F := F)) 4 rfl (by decide) (by decide) (by decide) (W12 m ρ c)
theorem kst_main_call5_v0 (c : Dev nD) :
    W29 m ρ c (Proc.devRef .tc main_call5_v0) = ((mulf) : (⟨S25000x64, .f32⟩ : BufTy).Contents (Elt F) → (⟨S25000x64, .f32⟩ : BufTy).Contents (Elt F) → (⟨S25000x64, .f32⟩ : BufTy).Contents (Elt F)) (W29 m ρ c (Proc.devRef .tc main_arg1)) (W29 m ρ c (Proc.devRef .tc main_arg1)) := by
  rw [kept13 m ρ c main_call5_v0 (by decide), kept13 m ρ c main_arg1 (by decide)]
  exact Cert.Lib.ReadFinal.binary (l := hostOps1_5) (hostOps1_5_inOrder (F := F)) 0 rfl (by decide) (by decide) (by decide) (W13 m ρ c)
theorem kst_main_call5_cst (c : Dev nD) :
    W29 m ρ c (Proc.devRef .tc main_call5_cst) = ((constant (F := F) S_ .f32 0x00000000#32) : (⟨S_, .f32⟩ : BufTy).Contents (Elt F)) := by
  rw [kept13 m ρ c main_call5_cst (by decide)]
  exact Cert.Lib.ReadFinal.nullary (l := hostOps1_5) (hostOps1_5_inOrder (F := F)) 1 rfl (by decide) (W13 m ρ c)
theorem kst_main_call5_v1 (c : Dev nD) :
    W29 m ρ c (Proc.devRef .tc main_call5_v1) = ((fun x v => Host.reduceAdd x v reducesTo_S25000x64_S25000_d1 h_S_) : (⟨S25000x64, .f32⟩ : BufTy).Contents (Elt F) → (⟨S_, .f32⟩ : BufTy).Contents (Elt F) → (⟨S25000, .f32⟩ : BufTy).Contents (Elt F)) (W29 m ρ c (Proc.devRef .tc main_call5_v0)) (W29 m ρ c (Proc.devRef .tc main_call5_cst)) := by
  rw [kept13 m ρ c main_call5_v1 (by decide), kept13 m ρ c main_call5_v0 (by decide), kept13 m ρ c main_call5_cst (by decide)]
  exact Cert.Lib.ReadFinal.binary (l := hostOps1_5) (hostOps1_5_inOrder (F := F)) 2 rfl (by decide) (by decide) (by decide) (W13 m ρ c)
theorem kst_main_call5_v2 (c : Dev nD) :
    W29 m ρ c (Proc.devRef .tc main_call5_v2) = ((broadcastInDim S25000x1 ![0] bcast_S25000_S25000x1_0) : (⟨S25000, .f32⟩ : BufTy).Contents (Elt F) → (⟨S25000x1, .f32⟩ : BufTy).Contents (Elt F)) (W29 m ρ c (Proc.devRef .tc main_call5_v1)) := by
  rw [kept13 m ρ c main_call5_v2 (by decide), kept13 m ρ c main_call5_v1 (by decide)]
  exact Cert.Lib.ReadFinal.unary (l := hostOps1_5) (hostOps1_5_inOrder (F := F)) 3 rfl (by decide) (by decide) (W13 m ρ c)
theorem kst_main_v160 (c : Dev nD) :
    W29 m ρ c (Proc.devRef .tc main_v160) = ((Host.sqrt) : (⟨S25000x1, .f32⟩ : BufTy).Contents (Elt F) → (⟨S25000x1, .f32⟩ : BufTy).Contents (Elt F)) (W29 m ρ c (Proc.devRef .tc main_call5_v2)) := by
  rw [kept13 m ρ c main_v160 (by decide), kept13 m ρ c main_call5_v2 (by decide)]
  exact Cert.Lib.ReadFinal.unary (l := hostOps1_5) (hostOps1_5_inOrder (F := F)) 4 rfl (by decide) (by decide) (W13 m ρ c)
theorem kst_main_cst_35 (c : Dev nD) :
    W29 m ρ c (Proc.devRef .tc main_cst_35) = (constant (F := F) S_ .f32 0x2B8CBCCC#32) := by
  rw [kept14 m ρ c main_cst_35 (by decide)]
  exact Cert.Lib.ReadFinal.nullary (l := hostOps1_6) (hostOps1_6_inOrder (F := F)) 0 rfl (by decide) (W14 m ρ c)
theorem kst_main_v161 (c : Dev nD) :
    W29 m ρ c (Proc.devRef .tc main_v161) = (broadcastInDim S25000x1 ![] bcast_S_S25000x1 : (⟨S_, .f32⟩ : BufTy).Contents (Elt F) → (⟨S25000x1, .f32⟩ : BufTy).Contents (Elt F)) (W29 m ρ c (Proc.devRef .tc main_cst_35)) := by
  rw [kept14 m ρ c main_v161 (by decide), kept14 m ρ c main_cst_35 (by decide)]
  exact Cert.Lib.ReadFinal.unary (l := hostOps1_6) (hostOps1_6_inOrder (F := F)) 1 rfl (by decide) (by decide) (W14 m ρ c)
theorem kst_main_v162 (c : Dev nD) :
    W29 m ρ c (Proc.devRef .tc main_v162) = (maximumf : (⟨S25000x1, .f32⟩ : BufTy).Contents (Elt F) → (⟨S25000x1, .f32⟩ : BufTy).Contents (Elt F) → (⟨S25000x1, .f32⟩ : BufTy).Contents (Elt F)) (W29 m ρ c (Proc.devRef .tc main_v160)) (W29 m ρ c (Proc.devRef .tc main_v161)) := by
  rw [kept14 m ρ c main_v162 (by decide), kept14 m ρ c main_v160 (by decide), kept14 m ρ c main_v161 (by decide)]
  exact Cert.Lib.ReadFinal.binary (l := hostOps1_6) (hostOps1_6_inOrder (F := F)) 2 rfl (by decide) (by decide) (by decide) (W14 m ρ c)
theorem kst_main_v163 (c : Dev nD) :
    W29 m ρ c (Proc.devRef .tc main_v163) = (broadcastInDim S25000x64 ![0, 1] bcast_S25000x1_S25000x64_0_1 : (⟨S25000x1, .f32⟩ : BufTy).Contents (Elt F) → (⟨S25000x64, .f32⟩ : BufTy).Contents (Elt F)) (W29 m ρ c (Proc.devRef .tc main_v162)) := by
  rw [kept14 m ρ c main_v163 (by decide), kept14 m ρ c main_v162 (by decide)]
  exact Cert.Lib.ReadFinal.unary (l := hostOps1_6) (hostOps1_6_inOrder (F := F)) 3 rfl (by decide) (by decide) (W14 m ρ c)
theorem kst_main_v164 (c : Dev nD) :
    W29 m ρ c (Proc.devRef .tc main_v164) = (Host.divf : (⟨S25000x64, .f32⟩ : BufTy).Contents (Elt F) → (⟨S25000x64, .f32⟩ : BufTy).Contents (Elt F) → (⟨S25000x64, .f32⟩ : BufTy).Contents (Elt F)) (W29 m ρ c (Proc.devRef .tc main_arg1)) (W29 m ρ c (Proc.devRef .tc main_v163)) := by
  rw [kept14 m ρ c main_v164 (by decide), kept14 m ρ c main_arg1 (by decide), kept14 m ρ c main_v163 (by decide)]
  exact Cert.Lib.ReadFinal.binary (l := hostOps1_6) (hostOps1_6_inOrder (F := F)) 4 rfl (by decide) (by decide) (by decide) (W14 m ρ c)

end Cert.KernelIdeal.Hand

end
-- ==== Proof.KIStagesC.lean ====
/-
  Stage by stage: at the end of @main the buffer a host operation wrote holds that operation's function of what its
  operands hold at the end — every buffer is written once, and nothing an operation reads is written after it.
-/
import proofs.«110517_j15659450761722_1_alg».proof.Proof.KIKept
import proofs.«110517_j15659450761722_1_alg».proof.Proof.LibReadFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

theorem kst_main_v167 (c : Dev nD) :
    W29 m ρ c (Proc.devRef .tc main_v167) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v154)) (W29 m ρ c (Proc.devRef .tc main_v159)) := by
  rw [kept16 m ρ c main_v167 (by decide), kept16 m ρ c main_v154 (by decide), kept16 m ρ c main_v159 (by decide)]
  exact Cert.Lib.ReadFinal.binary (l := hostOps2) (hostOps2_inOrder (F := F)) 1 rfl (by decide) (by decide) (by decide) (W16 m ρ c)
theorem kst_main_cst_36 (c : Dev nD) :
    W29 m ρ c (Proc.devRef .tc main_cst_36) = (constant (F := F) S_ .f32 0x00000000#32) := by
  rw [kept16 m ρ c main_cst_36 (by decide)]
  exact Cert.Lib.ReadFinal.nullary (l := hostOps2) (hostOps2_inOrder (F := F)) 2 rfl (by decide) (W16 m ρ c)
theorem kst_main_v168 (c : Dev nD) :
    W29 m ρ c (Proc.devRef .tc main_v168) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_v167)) (W29 m ρ c (Proc.devRef .tc main_cst_36)) := by
  rw [kept16 m ρ c main_v168 (by decide), kept16 m ρ c main_v167 (by decide), kept16 m ρ c main_cst_36 (by decide)]
  exact Cert.Lib.ReadFinal.binary (l := hostOps2) (hostOps2_inOrder (F := F)) 3 rfl (by decide) (by decide) (by decide) (W16 m ρ c)
theorem kst_main_cst_37 (c : Dev nD) :
    W29 m ρ c (Proc.devRef .tc main_cst_37) = (constant (F := F) S_ .f32 0x3DCCCCCD#32) := by
  rw [kept16 m ρ c main_cst_37 (by decide)]
  exact Cert.Lib.ReadFinal.nullary (l := hostOps2) (hostOps2_inOrder (F := F)) 4 rfl (by decide) (W16 m ρ c)
theorem kst_main_v169 (c : Dev nD) :
    W29 m ρ c (Proc.devRef .tc main_v169) = (broadcastInDim S4096 ![] bcast_S_S4096 : (⟨S_, .f32⟩ : BufTy).Contents (Elt F) → (⟨S4096, .f32⟩ : BufTy).Contents (Elt F)) (W29 m ρ c (Proc.devRef .tc main_cst_37)) := by
  rw [kept16 m ρ c main_v169 (by decide), kept16 m ρ c main_cst_37 (by decide)]
  exact Cert.Lib.ReadFinal.unary (l := hostOps2) (hostOps2_inOrder (F := F)) 5 rfl (by decide) (by decide) (W16 m ρ c)
theorem kst_main_v170 (c : Dev nD) :
    W29 m ρ c (Proc.devRef .tc main_v170) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v168)) (W29 m ρ c (Proc.devRef .tc main_v169)) := by
  rw [kept16 m ρ c main_v170 (by decide), kept16 m ρ c main_v168 (by decide), kept16 m ρ c main_v169 (by decide)]
  exact Cert.Lib.ReadFinal.binary (l := hostOps2) (hostOps2_inOrder (F := F)) 6 rfl (by decide) (by decide) (by decide) (W16 m ρ c)
theorem kst_main_v171 (c : Dev nD) :
    W29 m ρ c (Proc.devRef .tc main_v171) = (Host.exp : (⟨S4096, .f32⟩ : BufTy).Contents (Elt F) → (⟨S4096, .f32⟩ : BufTy).Contents (Elt F)) (W29 m ρ c (Proc.devRef .tc main_v170)) := by
  rw [kept16 m ρ c main_v171 (by decide), kept16 m ρ c main_v170 (by decide)]
  exact Cert.Lib.ReadFinal.unary (l := hostOps2) (hostOps2_inOrder (F := F)) 7 rfl (by decide) (by decide) (W16 m ρ c)
theorem kst_main_v172 (c : Dev nD) :
    W29 m ρ c (Proc.devRef .tc main_v172) = (Host.log : (⟨S4096, .f32⟩ : BufTy).Contents (Elt F) → (⟨S4096, .f32⟩ : BufTy).Contents (Elt F)) (W29 m ρ c (Proc.devRef .tc main_v171)) := by
  rw [kept16 m ρ c main_v172 (by decide), kept16 m ρ c main_v171 (by decide)]
  exact Cert.Lib.ReadFinal.unary (l := hostOps2) (hostOps2_inOrder (F := F)) 8 rfl (by decide) (by decide) (W16 m ρ c)
theorem kst_main_v173 (c : Dev nD) :
    W29 m ρ c (Proc.devRef .tc main_v173) = (Host.log : (⟨S4096, .f32⟩ : BufTy).Contents (Elt F) → (⟨S4096, .f32⟩ : BufTy).Contents (Elt F)) (W29 m ρ c (Proc.devRef .tc main_v166)) := by
  rw [kept16 m ρ c main_v173 (by decide), kept16 m ρ c main_v166 (by decide)]
  exact Cert.Lib.ReadFinal.unary (l := hostOps2) (hostOps2_inOrder (F := F)) 9 rfl (by decide) (by decide) (W16 m ρ c)
theorem kst_main_v174 (c : Dev nD) :
    W29 m ρ c (Proc.devRef .tc main_v174) = (subf : (⟨S4096, .f32⟩ : BufTy).Contents (Elt F) → (⟨S4096, .f32⟩ : BufTy).Contents (Elt F) → (⟨S4096, .f32⟩ : BufTy).Contents (Elt F)) (W29 m ρ c (Proc.devRef .tc main_v172)) (W29 m ρ c (Proc.devRef .tc main_v173)) := by
  rw [kept16 m ρ c main_v174 (by decide), kept16 m ρ c main_v172 (by decide), kept16 m ρ c main_v173 (by decide)]
  exact Cert.Lib.ReadFinal.binary (l := hostOps2) (hostOps2_inOrder (F := F)) 10 rfl (by decide) (by decide) (by decide) (W16 m ρ c)
theorem kst_main_cst_38 (c : Dev nD) :
    W29 m ρ c (Proc.devRef .tc main_cst_38) = (constant (F := F) S_ .f32 0x00000000#32) := by
  rw [kept16 m ρ c main_cst_38 (by decide)]
  exact Cert.Lib.ReadFinal.nullary (l := hostOps2) (hostOps2_inOrder (F := F)) 11 rfl (by decide) (W16 m ρ c)
theorem kst_main_v175 (c : Dev nD) :
    W29 m ρ c (Proc.devRef .tc main_v175) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (W29 m ρ c (Proc.devRef .tc main_v174)) (W29 m ρ c (Proc.devRef .tc main_cst_38)) := by
  rw [kept16 m ρ c main_v175 (by decide), kept16 m ρ c main_v174 (by decide), kept16 m ρ c main_cst_38 (by decide)]
  exact Cert.Lib.ReadFinal.binary (l := hostOps2) (hostOps2_inOrder (F := F)) 12 rfl (by decide) (by decide) (by decide) (W16 m ρ c)
theorem kst_main_v176 (c : Dev nD) :
    W29 m ρ c (Proc.devRef .tc main_v176) = (Host.negf : (⟨S_, .f32⟩ : BufTy).Contents (Elt F) → (⟨S_, .f32⟩ : BufTy).Contents (Elt F)) (W29 m ρ c (Proc.devRef .tc main_v175)) := by
  rw [kept16 m ρ c main_v176 (by decide), kept16 m ρ c main_v175 (by decide)]
  exact Cert.Lib.ReadFinal.unary (l := hostOps2) (hostOps2_inOrder (F := F)) 13 rfl (by decide) (by decide) (W16 m ρ c)
theorem kst_main_cst_39 (c : Dev nD) :
    W29 m ρ c (Proc.devRef .tc main_cst_39) = (constant (F := F) S_ .f32 0x3F800000#32) := by
  rw [kept16 m ρ c main_cst_39 (by decide)]
  exact Cert.Lib.ReadFinal.nullary (l := hostOps2) (hostOps2_inOrder (F := F)) 14 rfl (by decide) (W16 m ρ c)
theorem kst_main_v177 (c : Dev nD) :
    W29 m ρ c (Proc.devRef .tc main_v177) = (mulf : (⟨S_, .f32⟩ : BufTy).Contents (Elt F) → (⟨S_, .f32⟩ : BufTy).Contents (Elt F) → (⟨S_, .f32⟩ : BufTy).Contents (Elt F)) (W29 m ρ c (Proc.devRef .tc main_cst_39)) (W29 m ρ c (Proc.devRef .tc main_v176)) := by
  rw [kept16 m ρ c main_v177 (by decide), kept16 m ρ c main_cst_39 (by decide), kept16 m ρ c main_v176 (by decide)]
  exact Cert.Lib.ReadFinal.binary (l := hostOps2) (hostOps2_inOrder (F := F)) 15 rfl (by decide) (by decide) (by decide) (W16 m ρ c)
theorem kst_main_v178 (c : Dev nD) :
    W29 m ρ c (Proc.devRef .tc main_v178) = (addf : (⟨S_, .f32⟩ : BufTy).Contents (Elt F) → (⟨S_, .f32⟩ : BufTy).Contents (Elt F) → (⟨S_, .f32⟩ : BufTy).Contents (Elt F)) (W29 m ρ c (Proc.devRef .tc main_v149)) (W29 m ρ c (Proc.devRef .tc main_v177)) := by
  rw [kept16 m ρ c main_v178 (by decide), kept16 m ρ c main_v149 (by decide), kept16 m ρ c main_v177 (by decide)]
  exact Cert.Lib.ReadFinal.binary (l := hostOps2) (hostOps2_inOrder (F := F)) 16 rfl (by decide) (by decide) (by decide) (W16 m ρ c)
theorem kst_main_cst_40 (c : Dev nD) :
    W29 m ρ c (Proc.devRef .tc main_cst_40) = (constant (F := F) S_ .f32 0x358637BD#32) := by
  rw [kept16 m ρ c main_cst_40 (by decide)]
  exact Cert.Lib.ReadFinal.nullary (l := hostOps2) (hostOps2_inOrder (F := F)) 17 rfl (by decide) (W16 m ρ c)
theorem kst_main_v179 (c : Dev nD) :
    W29 m ρ c (Proc.devRef .tc main_v179) = (mulf : (⟨S_, .f32⟩ : BufTy).Contents (Elt F) → (⟨S_, .f32⟩ : BufTy).Contents (Elt F) → (⟨S_, .f32⟩ : BufTy).Contents (Elt F)) (W29 m ρ c (Proc.devRef .tc main_cst_40)) (W29 m ρ c (Proc.devRef .tc main_v178)) := by
  rw [kept16 m ρ c main_v179 (by decide), kept16 m ρ c main_cst_40 (by decide), kept16 m ρ c main_v178 (by decide)]
  exact Cert.Lib.ReadFinal.binary (l := hostOps2) (hostOps2_inOrder (F := F)) 18 rfl (by decide) (by decide) (by decide) (W16 m ρ c)
theorem kst_main_c_41 (c : Dev nD) :
    W29 m ρ c (Proc.devRef .tc main_c_41) = (constantI S_ 32 0#32) := by
  rw [kept16 m ρ c main_c_41 (by decide)]
  exact Cert.Lib.ReadFinal.nullary (l := hostOps2) (hostOps2_inOrder (F := F)) 19 rfl (by decide) (W16 m ρ c)
theorem kst_main_v180 (c : Dev nD) :
    W29 m ρ c (Proc.devRef .tc main_v180) = (broadcastInDim S4096 ![] bcast_S_S4096 : (⟨S_, .i32⟩ : BufTy).Contents (Elt F) → (⟨S4096, .i32⟩ : BufTy).Contents (Elt F)) (W29 m ρ c (Proc.devRef .tc main_c_41)) := by
  rw [kept16 m ρ c main_v180 (by decide), kept16 m ρ c main_c_41 (by decide)]
  exact Cert.Lib.ReadFinal.unary (l := hostOps2) (hostOps2_inOrder (F := F)) 20 rfl (by decide) (by decide) (W16 m ρ c)
theorem kst_main_v181 (c : Dev nD) :
    W29 m ρ c (Proc.devRef .tc main_v181) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg10)) (W29 m ρ c (Proc.devRef .tc main_v180)) := by
  rw [kept16 m ρ c main_v181 (by decide), kept16 m ρ c main_arg10 (by decide), kept16 m ρ c main_v180 (by decide)]
  exact Cert.Lib.ReadFinal.binary (l := hostOps2) (hostOps2_inOrder (F := F)) 21 rfl (by decide) (by decide) (by decide) (W16 m ρ c)
theorem kst_main_c_42 (c : Dev nD) :
    W29 m ρ c (Proc.devRef .tc main_c_42) = (constantI S_ 32 50000#32) := by
  rw [kept16 m ρ c main_c_42 (by decide)]
  exact Cert.Lib.ReadFinal.nullary (l := hostOps2) (hostOps2_inOrder (F := F)) 22 rfl (by decide) (W16 m ρ c)
theorem kst_main_v182 (c : Dev nD) :
    W29 m ρ c (Proc.devRef .tc main_v182) = (broadcastInDim S4096 ![] bcast_S_S4096 : (⟨S_, .i32⟩ : BufTy).Contents (Elt F) → (⟨S4096, .i32⟩ : BufTy).Contents (Elt F)) (W29 m ρ c (Proc.devRef .tc main_c_42)) := by
  rw [kept16 m ρ c main_v182 (by decide), kept16 m ρ c main_c_42 (by decide)]
  exact Cert.Lib.ReadFinal.unary (l := hostOps2) (hostOps2_inOrder (F := F)) 23 rfl (by decide) (by decide) (W16 m ρ c)
theorem kst_main_v183 (c : Dev nD) :
    W29 m ρ c (Proc.devRef .tc main_v183) = (addi : (⟨S4096, .i32⟩ : BufTy).Contents (Elt F) → (⟨S4096, .i32⟩ : BufTy).Contents (Elt F) → (⟨S4096, .i32⟩ : BufTy).Contents (Elt F)) (W29 m ρ c (Proc.devRef .tc main_arg10)) (W29 m ρ c (Proc.devRef .tc main_v182)) := by
  rw [kept16 m ρ c main_v183 (by decide), kept16 m ρ c main_arg10 (by decide), kept16 m ρ c main_v182 (by decide)]
  exact Cert.Lib.ReadFinal.binary (l := hostOps2) (hostOps2_inOrder (F := F)) 24 rfl (by decide) (by decide) (by decide) (W16 m ρ c)
theorem kst_main_v184 (c : Dev nD) :
    W29 m ρ c (Proc.devRef .tc main_v184) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v181)) (W29 m ρ c (Proc.devRef .tc main_v183)) (W29 m ρ c (Proc.devRef .tc main_arg10)) := by
  rw [kept16 m ρ c main_v184 (by decide), kept16 m ρ c main_v181 (by decide), kept16 m ρ c main_v183 (by decide), kept16 m ρ c main_arg10 (by decide)]
  exact Cert.Lib.ReadFinal.ternary (l := hostOps2) (hostOps2_inOrder (F := F)) 25 rfl (by decide) (by decide) (by decide) (by decide) (W16 m ρ c)
theorem kst_main_v185 (c : Dev nD) :
    W29 m ρ c (Proc.devRef .tc main_v185) = (broadcastInDim S4096x1 ![0] bcast_S4096_S4096x1_0 : (⟨S4096, .i32⟩ : BufTy).Contents (Elt F) → (⟨S4096x1, .i32⟩ : BufTy).Contents (Elt F)) (W29 m ρ c (Proc.devRef .tc main_v184)) := by
  rw [kept16 m ρ c main_v185 (by decide), kept16 m ρ c main_v184 (by decide)]
  exact Cert.Lib.ReadFinal.unary (l := hostOps2) (hostOps2_inOrder (F := F)) 26 rfl (by decide) (by decide) (W16 m ρ c)
theorem kst_main_v186 (c : Dev nD) :
    W29 m ρ c (Proc.devRef .tc main_v186) = ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)) (W29 m ρ c (Proc.devRef .tc main_arg0)) (W29 m ρ c (Proc.devRef .tc main_v185)) := by
  rw [kept16 m ρ c main_v186 (by decide), kept16 m ρ c main_arg0 (by decide), kept16 m ρ c main_v185 (by decide)]
  exact Cert.Lib.ReadFinal.binary (l := hostOps2) (hostOps2_inOrder (F := F)) 27 rfl (by decide) (by decide) (by decide) (W16 m ρ c)
theorem kst_main_call6_v0 (c : Dev nD) :
    W29 m ρ c (Proc.devRef .tc main_call6_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v186)) (W29 m ρ c (Proc.devRef .tc main_v186)) := by
  rw [kept17 m ρ c main_call6_v0 (by decide), kept17 m ρ c main_v186 (by decide)]
  exact Cert.Lib.ReadFinal.binary (l := hostOps2_1) (hostOps2_1_inOrder (F := F)) 0 rfl (by decide) (by decide) (by decide) (W17 m ρ c)
theorem kst_main_call6_cst (c : Dev nD) :
    W29 m ρ c (Proc.devRef .tc main_call6_cst) = ((constant (F := F) S_ .f32 0x00000000#32) : (⟨S_, .f32⟩ : BufTy).Contents (Elt F)) := by
  rw [kept17 m ρ c main_call6_cst (by decide)]
  exact Cert.Lib.ReadFinal.nullary (l := hostOps2_1) (hostOps2_1_inOrder (F := F)) 1 rfl (by decide) (W17 m ρ c)
theorem kst_main_call6_v1 (c : Dev nD) :
    W29 m ρ c (Proc.devRef .tc main_call6_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call6_v0)) (W29 m ρ c (Proc.devRef .tc main_call6_cst)) := by
  rw [kept17 m ρ c main_call6_v1 (by decide), kept17 m ρ c main_call6_v0 (by decide), kept17 m ρ c main_call6_cst (by decide)]
  exact Cert.Lib.ReadFinal.binary (l := hostOps2_1) (hostOps2_1_inOrder (F := F)) 2 rfl (by decide) (by decide) (by decide) (W17 m ρ c)
theorem kst_main_call6_v2 (c : Dev nD) :
    W29 m ρ c (Proc.devRef .tc main_call6_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call6_v1)) := by
  rw [kept17 m ρ c main_call6_v2 (by decide), kept17 m ρ c main_call6_v1 (by decide)]
  exact Cert.Lib.ReadFinal.unary (l := hostOps2_1) (hostOps2_1_inOrder (F := F)) 3 rfl (by decide) (by decide) (W17 m ρ c)
theorem kst_main_v187 (c : Dev nD) :
    W29 m ρ c (Proc.devRef .tc main_v187) = ((Host.sqrt) : (⟨S4096x1, .f32⟩ : BufTy).Contents (Elt F) → (⟨S4096x1, .f32⟩ : BufTy).Contents (Elt F)) (W29 m ρ c (Proc.devRef .tc main_call6_v2)) := by
  rw [kept17 m ρ c main_v187 (by decide), kept17 m ρ c main_call6_v2 (by decide)]
  exact Cert.Lib.ReadFinal.unary (l := hostOps2_1) (hostOps2_1_inOrder (F := F)) 4 rfl (by decide) (by decide) (W17 m ρ c)
theorem kst_main_cst_43 (c : Dev nD) :
    W29 m ρ c (Proc.devRef .tc main_cst_43) = (constant (F := F) S_ .f32 0x2B8CBCCC#32) := by
  rw [kept18 m ρ c main_cst_43 (by decide)]
  exact Cert.Lib.ReadFinal.nullary (l := hostOps2_2) (hostOps2_2_inOrder (F := F)) 0 rfl (by decide) (W18 m ρ c)
theorem kst_main_v188 (c : Dev nD) :
    W29 m ρ c (Proc.devRef .tc main_v188) = (broadcastInDim S4096x1 ![] bcast_S_S4096x1 : (⟨S_, .f32⟩ : BufTy).Contents (Elt F) → (⟨S4096x1, .f32⟩ : BufTy).Contents (Elt F)) (W29 m ρ c (Proc.devRef .tc main_cst_43)) := by
  rw [kept18 m ρ c main_v188 (by decide), kept18 m ρ c main_cst_43 (by decide)]
  exact Cert.Lib.ReadFinal.unary (l := hostOps2_2) (hostOps2_2_inOrder (F := F)) 1 rfl (by decide) (by decide) (W18 m ρ c)
theorem kst_main_v189 (c : Dev nD) :
    W29 m ρ c (Proc.devRef .tc main_v189) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v187)) (W29 m ρ c (Proc.devRef .tc main_v188)) := by
  rw [kept18 m ρ c main_v189 (by decide), kept18 m ρ c main_v187 (by decide), kept18 m ρ c main_v188 (by decide)]
  exact Cert.Lib.ReadFinal.binary (l := hostOps2_2) (hostOps2_2_inOrder (F := F)) 2 rfl (by decide) (by decide) (by decide) (W18 m ρ c)
theorem kst_main_v190 (c : Dev nD) :
    W29 m ρ c (Proc.devRef .tc main_v190) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v189)) := by
  rw [kept18 m ρ c main_v190 (by decide), kept18 m ρ c main_v189 (by decide)]
  exact Cert.Lib.ReadFinal.unary (l := hostOps2_2) (hostOps2_2_inOrder (F := F)) 3 rfl (by decide) (by decide) (W18 m ρ c)
theorem kst_main_v191 (c : Dev nD) :
    W29 m ρ c (Proc.devRef .tc main_v191) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v186)) (W29 m ρ c (Proc.devRef .tc main_v190)) := by
  rw [kept18 m ρ c main_v191 (by decide), kept18 m ρ c main_v186 (by decide), kept18 m ρ c main_v190 (by decide)]
  exact Cert.Lib.ReadFinal.binary (l := hostOps2_2) (hostOps2_2_inOrder (F := F)) 4 rfl (by decide) (by decide) (by decide) (W18 m ρ c)
theorem kst_main_call7_v0 (c : Dev nD) :
    W29 m ρ c (Proc.devRef .tc main_call7_v0) = ((mulf) : (⟨S1000x64, .f32⟩ : BufTy).Contents (Elt F) → (⟨S1000x64, .f32⟩ : BufTy).Contents (Elt F) → (⟨S1000x64, .f32⟩ : BufTy).Contents (Elt F)) (W29 m ρ c (Proc.devRef .tc main_arg2)) (W29 m ρ c (Proc.devRef .tc main_arg2)) := by
  rw [kept19 m ρ c main_call7_v0 (by decide), kept19 m ρ c main_arg2 (by decide)]
  exact Cert.Lib.ReadFinal.binary (l := hostOps2_3) (hostOps2_3_inOrder (F := F)) 0 rfl (by decide) (by decide) (by decide) (W19 m ρ c)
theorem kst_main_call7_cst (c : Dev nD) :
    W29 m ρ c (Proc.devRef .tc main_call7_cst) = ((constant (F := F) S_ .f32 0x00000000#32) : (⟨S_, .f32⟩ : BufTy).Contents (Elt F)) := by
  rw [kept19 m ρ c main_call7_cst (by decide)]
  exact Cert.Lib.ReadFinal.nullary (l := hostOps2_3) (hostOps2_3_inOrder (F := F)) 1 rfl (by decide) (W19 m ρ c)
theorem kst_main_call7_v1 (c : Dev nD) :
    W29 m ρ c (Proc.devRef .tc main_call7_v1) = ((fun x v => Host.reduceAdd x v reducesTo_S1000x64_S1000_d1 h_S_) : (⟨S1000x64, .f32⟩ : BufTy).Contents (Elt F) → (⟨S_, .f32⟩ : BufTy).Contents (Elt F) → (⟨S1000, .f32⟩ : BufTy).Contents (Elt F)) (W29 m ρ c (Proc.devRef .tc main_call7_v0)) (W29 m ρ c (Proc.devRef .tc main_call7_cst)) := by
  rw [kept19 m ρ c main_call7_v1 (by decide), kept19 m ρ c main_call7_v0 (by decide), kept19 m ρ c main_call7_cst (by decide)]
  exact Cert.Lib.ReadFinal.binary (l := hostOps2_3) (hostOps2_3_inOrder (F := F)) 2 rfl (by decide) (by decide) (by decide) (W19 m ρ c)
theorem kst_main_call7_v2 (c : Dev nD) :
    W29 m ρ c (Proc.devRef .tc main_call7_v2) = ((broadcastInDim S1000x1 ![0] bcast_S1000_S1000x1_0) : (⟨S1000, .f32⟩ : BufTy).Contents (Elt F) → (⟨S1000x1, .f32⟩ : BufTy).Contents (Elt F)) (W29 m ρ c (Proc.devRef .tc main_call7_v1)) := by
  rw [kept19 m ρ c main_call7_v2 (by decide), kept19 m ρ c main_call7_v1 (by decide)]
  exact Cert.Lib.ReadFinal.unary (l := hostOps2_3) (hostOps2_3_inOrder (F := F)) 3 rfl (by decide) (by decide) (W19 m ρ c)
theorem kst_main_v192 (c : Dev nD) :
    W29 m ρ c (Proc.devRef .tc main_v192) = ((Host.sqrt) : (⟨S1000x1, .f32⟩ : BufTy).Contents (Elt F) → (⟨S1000x1, .f32⟩ : BufTy).Contents (Elt F)) (W29 m ρ c (Proc.devRef .tc main_call7_v2)) := by
  rw [kept19 m ρ c main_v192 (by decide), kept19 m ρ c main_call7_v2 (by decide)]
  exact Cert.Lib.ReadFinal.unary (l := hostOps2_3) (hostOps2_3_inOrder (F := F)) 4 rfl (by decide) (by decide) (W19 m ρ c)
theorem kst_main_cst_44 (c : Dev nD) :
    W29 m ρ c (Proc.devRef .tc main_cst_44) = (constant (F := F) S_ .f32 0x2B8CBCCC#32) := by
  rw [kept20 m ρ c main_cst_44 (by decide)]
  exact Cert.Lib.ReadFinal.nullary (l := hostOps2_4) (hostOps2_4_inOrder (F := F)) 0 rfl (by decide) (W20 m ρ c)
theorem kst_main_v193 (c : Dev nD) :
    W29 m ρ c (Proc.devRef .tc main_v193) = (broadcastInDim S1000x1 ![] bcast_S_S1000x1 : (⟨S_, .f32⟩ : BufTy).Contents (Elt F) → (⟨S1000x1, .f32⟩ : BufTy).Contents (Elt F)) (W29 m ρ c (Proc.devRef .tc main_cst_44)) := by
  rw [kept20 m ρ c main_v193 (by decide), kept20 m ρ c main_cst_44 (by decide)]
  exact Cert.Lib.ReadFinal.unary (l := hostOps2_4) (hostOps2_4_inOrder (F := F)) 1 rfl (by decide) (by decide) (W20 m ρ c)
theorem kst_main_v194 (c : Dev nD) :
    W29 m ρ c (Proc.devRef .tc main_v194) = (maximumf : (⟨S1000x1, .f32⟩ : BufTy).Contents (Elt F) → (⟨S1000x1, .f32⟩ : BufTy).Contents (Elt F) → (⟨S1000x1, .f32⟩ : BufTy).Contents (Elt F)) (W29 m ρ c (Proc.devRef .tc main_v192)) (W29 m ρ c (Proc.devRef .tc main_v193)) := by
  rw [kept20 m ρ c main_v194 (by decide), kept20 m ρ c main_v192 (by decide), kept20 m ρ c main_v193 (by decide)]
  exact Cert.Lib.ReadFinal.binary (l := hostOps2_4) (hostOps2_4_inOrder (F := F)) 2 rfl (by decide) (by decide) (by decide) (W20 m ρ c)
theorem kst_main_v195 (c : Dev nD) :
    W29 m ρ c (Proc.devRef .tc main_v195) = (broadcastInDim S1000x64 ![0, 1] bcast_S1000x1_S1000x64_0_1 : (⟨S1000x1, .f32⟩ : BufTy).Contents (Elt F) → (⟨S1000x64, .f32⟩ : BufTy).Contents (Elt F)) (W29 m ρ c (Proc.devRef .tc main_v194)) := by
  rw [kept20 m ρ c main_v195 (by decide), kept20 m ρ c main_v194 (by decide)]
  exact Cert.Lib.ReadFinal.unary (l := hostOps2_4) (hostOps2_4_inOrder (F := F)) 3 rfl (by decide) (by decide) (W20 m ρ c)
theorem kst_main_v196 (c : Dev nD) :
    W29 m ρ c (Proc.devRef .tc main_v196) = (Host.divf : (⟨S1000x64, .f32⟩ : BufTy).Contents (Elt F) → (⟨S1000x64, .f32⟩ : BufTy).Contents (Elt F) → (⟨S1000x64, .f32⟩ : BufTy).Contents (Elt F)) (W29 m ρ c (Proc.devRef .tc main_arg2)) (W29 m ρ c (Proc.devRef .tc main_v195)) := by
  rw [kept20 m ρ c main_v196 (by decide), kept20 m ρ c main_arg2 (by decide), kept20 m ρ c main_v195 (by decide)]
  exact Cert.Lib.ReadFinal.binary (l := hostOps2_4) (hostOps2_4_inOrder (F := F)) 4 rfl (by decide) (by decide) (by decide) (W20 m ρ c)
theorem kst_main_c_45 (c : Dev nD) :
    W29 m ρ c (Proc.devRef .tc main_c_45) = (constantI S_ 32 0#32) := by
  rw [kept20 m ρ c main_c_45 (by decide)]
  exact Cert.Lib.ReadFinal.nullary (l := hostOps2_4) (hostOps2_4_inOrder (F := F)) 5 rfl (by decide) (W20 m ρ c)
theorem kst_main_v197 (c : Dev nD) :
    W29 m ρ c (Proc.devRef .tc main_v197) = (broadcastInDim S4096 ![] bcast_S_S4096 : (⟨S_, .i32⟩ : BufTy).Contents (Elt F) → (⟨S4096, .i32⟩ : BufTy).Contents (Elt F)) (W29 m ρ c (Proc.devRef .tc main_c_45)) := by
  rw [kept20 m ρ c main_v197 (by decide), kept20 m ρ c main_c_45 (by decide)]
  exact Cert.Lib.ReadFinal.unary (l := hostOps2_4) (hostOps2_4_inOrder (F := F)) 6 rfl (by decide) (by decide) (W20 m ρ c)
theorem kst_main_v198 (c : Dev nD) :
    W29 m ρ c (Proc.devRef .tc main_v198) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg10)) (W29 m ρ c (Proc.devRef .tc main_v197)) := by
  rw [kept20 m ρ c main_v198 (by decide), kept20 m ρ c main_arg10 (by decide), kept20 m ρ c main_v197 (by decide)]
  exact Cert.Lib.ReadFinal.binary (l := hostOps2_4) (hostOps2_4_inOrder (F := F)) 7 rfl (by decide) (by decide) (by decide) (W20 m ρ c)
theorem kst_main_c_46 (c : Dev nD) :
    W29 m ρ c (Proc.devRef .tc main_c_46) = (constantI S_ 32 50000#32) := by
  rw [kept20 m ρ c main_c_46 (by decide)]
  exact Cert.Lib.ReadFinal.nullary (l := hostOps2_4) (hostOps2_4_inOrder (F := F)) 8 rfl (by decide) (W20 m ρ c)
theorem kst_main_v199 (c : Dev nD) :
    W29 m ρ c (Proc.devRef .tc main_v199) = (broadcastInDim S4096 ![] bcast_S_S4096 : (⟨S_, .i32⟩ : BufTy).Contents (Elt F) → (⟨S4096, .i32⟩ : BufTy).Contents (Elt F)) (W29 m ρ c (Proc.devRef .tc main_c_46)) := by
  rw [kept20 m ρ c main_v199 (by decide), kept20 m ρ c main_c_46 (by decide)]
  exact Cert.Lib.ReadFinal.unary (l := hostOps2_4) (hostOps2_4_inOrder (F := F)) 9 rfl (by decide) (by decide) (W20 m ρ c)
theorem kst_main_v200 (c : Dev nD) :
    W29 m ρ c (Proc.devRef .tc main_v200) = (addi : (⟨S4096, .i32⟩ : BufTy).Contents (Elt F) → (⟨S4096, .i32⟩ : BufTy).Contents (Elt F) → (⟨S4096, .i32⟩ : BufTy).Contents (Elt F)) (W29 m ρ c (Proc.devRef .tc main_arg10)) (W29 m ρ c (Proc.devRef .tc main_v199)) := by
  rw [kept20 m ρ c main_v200 (by decide), kept20 m ρ c main_arg10 (by decide), kept20 m ρ c main_v199 (by decide)]
  exact Cert.Lib.ReadFinal.binary (l := hostOps2_4) (hostOps2_4_inOrder (F := F)) 10 rfl (by decide) (by decide) (by decide) (W20 m ρ c)
theorem kst_main_v201 (c : Dev nD) :
    W29 m ρ c (Proc.devRef .tc main_v201) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v198)) (W29 m ρ c (Proc.devRef .tc main_v200)) (W29 m ρ c (Proc.devRef .tc main_arg10)) := by
  rw [kept20 m ρ c main_v201 (by decide), kept20 m ρ c main_v198 (by decide), kept20 m ρ c main_v200 (by decide), kept20 m ρ c main_arg10 (by decide)]
  exact Cert.Lib.ReadFinal.ternary (l := hostOps2_4) (hostOps2_4_inOrder (F := F)) 11 rfl (by decide) (by decide) (by decide) (by decide) (W20 m ρ c)
theorem kst_main_v202 (c : Dev nD) :
    W29 m ρ c (Proc.devRef .tc main_v202) = (broadcastInDim S4096x1 ![0] bcast_S4096_S4096x1_0 : (⟨S4096, .i32⟩ : BufTy).Contents (Elt F) → (⟨S4096x1, .i32⟩ : BufTy).Contents (Elt F)) (W29 m ρ c (Proc.devRef .tc main_v201)) := by
  rw [kept20 m ρ c main_v202 (by decide), kept20 m ρ c main_v201 (by decide)]
  exact Cert.Lib.ReadFinal.unary (l := hostOps2_4) (hostOps2_4_inOrder (F := F)) 12 rfl (by decide) (by decide) (W20 m ρ c)
theorem kst_main_v203 (c : Dev nD) :
    W29 m ρ c (Proc.devRef .tc main_v203) = ((fun x i => Host.gather gather_S50000_S4096x1_S4096_n_0_n_n_0_1_1 x i) : (⟨S50000, .i32⟩ : BufTy).Contents (Elt F) → (⟨S4096x1, .i32⟩ : BufTy).Contents (Elt F) → (⟨S4096, .i32⟩ : BufTy).Contents (Elt F)) (W29 m ρ c (Proc.devRef .tc main_arg12)) (W29 m ρ c (Proc.devRef .tc main_v202)) := by
  rw [kept20 m ρ c main_v203 (by decide), kept20 m ρ c main_arg12 (by decide), kept20 m ρ c main_v202 (by decide)]
  exact Cert.Lib.ReadFinal.binary (l := hostOps2_4) (hostOps2_4_inOrder (F := F)) 13 rfl (by decide) (by decide) (by decide) (W20 m ρ c)
theorem kst_main_c_47 (c : Dev nD) :
    W29 m ρ c (Proc.devRef .tc main_c_47) = (constantI S_ 32 0#32) := by
  rw [kept20 m ρ c main_c_47 (by decide)]
  exact Cert.Lib.ReadFinal.nullary (l := hostOps2_4) (hostOps2_4_inOrder (F := F)) 14 rfl (by decide) (W20 m ρ c)
theorem kst_main_v204 (c : Dev nD) :
    W29 m ρ c (Proc.devRef .tc main_v204) = (broadcastInDim S4096 ![] bcast_S_S4096 : (⟨S_, .i32⟩ : BufTy).Contents (Elt F) → (⟨S4096, .i32⟩ : BufTy).Contents (Elt F)) (W29 m ρ c (Proc.devRef .tc main_c_47)) := by
  rw [kept20 m ρ c main_v204 (by decide), kept20 m ρ c main_c_47 (by decide)]
  exact Cert.Lib.ReadFinal.unary (l := hostOps2_4) (hostOps2_4_inOrder (F := F)) 15 rfl (by decide) (by decide) (W20 m ρ c)
theorem kst_main_v205 (c : Dev nD) :
    W29 m ρ c (Proc.devRef .tc main_v205) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_v203)) (W29 m ρ c (Proc.devRef .tc main_v204)) := by
  rw [kept20 m ρ c main_v205 (by decide), kept20 m ρ c main_v203 (by decide), kept20 m ρ c main_v204 (by decide)]
  exact Cert.Lib.ReadFinal.binary (l := hostOps2_4) (hostOps2_4_inOrder (F := F)) 16 rfl (by decide) (by decide) (by decide) (W20 m ρ c)
theorem kst_main_c_48 (c : Dev nD) :
    W29 m ρ c (Proc.devRef .tc main_c_48) = (constantI S_ 32 1000#32) := by
  rw [kept20 m ρ c main_c_48 (by decide)]
  exact Cert.Lib.ReadFinal.nullary (l := hostOps2_4) (hostOps2_4_inOrder (F := F)) 17 rfl (by decide) (W20 m ρ c)
theorem kst_main_v206 (c : Dev nD) :
    W29 m ρ c (Proc.devRef .tc main_v206) = (broadcastInDim S4096 ![] bcast_S_S4096 : (⟨S_, .i32⟩ : BufTy).Contents (Elt F) → (⟨S4096, .i32⟩ : BufTy).Contents (Elt F)) (W29 m ρ c (Proc.devRef .tc main_c_48)) := by
  rw [kept20 m ρ c main_v206 (by decide), kept20 m ρ c main_c_48 (by decide)]
  exact Cert.Lib.ReadFinal.unary (l := hostOps2_4) (hostOps2_4_inOrder (F := F)) 18 rfl (by decide) (by decide) (W20 m ρ c)
theorem kst_main_v207 (c : Dev nD) :
    W29 m ρ c (Proc.devRef .tc main_v207) = (addi : (⟨S4096, .i32⟩ : BufTy).Contents (Elt F) → (⟨S4096, .i32⟩ : BufTy).Contents (Elt F) → (⟨S4096, .i32⟩ : BufTy).Contents (Elt F)) (W29 m ρ c (Proc.devRef .tc main_v203)) (W29 m ρ c (Proc.devRef .tc main_v206)) := by
  rw [kept20 m ρ c main_v207 (by decide), kept20 m ρ c main_v203 (by decide), kept20 m ρ c main_v206 (by decide)]
  exact Cert.Lib.ReadFinal.binary (l := hostOps2_4) (hostOps2_4_inOrder (F := F)) 19 rfl (by decide) (by decide) (by decide) (W20 m ρ c)
theorem kst_main_v208 (c : Dev nD) :
    W29 m ρ c (Proc.devRef .tc main_v208) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v205)) (W29 m ρ c (Proc.devRef .tc main_v207)) (W29 m ρ c (Proc.devRef .tc main_v203)) := by
  rw [kept20 m ρ c main_v208 (by decide), kept20 m ρ c main_v205 (by decide), kept20 m ρ c main_v207 (by decide), kept20 m ρ c main_v203 (by decide)]
  exact Cert.Lib.ReadFinal.ternary (l := hostOps2_4) (hostOps2_4_inOrder (F := F)) 20 rfl (by decide) (by decide) (by decide) (by decide) (W20 m ρ c)
theorem kst_main_v209 (c : Dev nD) :
    W29 m ρ c (Proc.devRef .tc main_v209) = (broadcastInDim S4096x1 ![0] bcast_S4096_S4096x1_0 : (⟨S4096, .i32⟩ : BufTy).Contents (Elt F) → (⟨S4096x1, .i32⟩ : BufTy).Contents (Elt F)) (W29 m ρ c (Proc.devRef .tc main_v208)) := by
  rw [kept20 m ρ c main_v209 (by decide), kept20 m ρ c main_v208 (by decide)]
  exact Cert.Lib.ReadFinal.unary (l := hostOps2_4) (hostOps2_4_inOrder (F := F)) 21 rfl (by decide) (by decide) (W20 m ρ c)
theorem kst_main_v210 (c : Dev nD) :
    W29 m ρ c (Proc.devRef .tc main_v210) = ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)) (W29 m ρ c (Proc.devRef .tc main_v196)) (W29 m ρ c (Proc.devRef .tc main_v209)) := by
  rw [kept20 m ρ c main_v210 (by decide), kept20 m ρ c main_v196 (by decide), kept20 m ρ c main_v209 (by decide)]
  exact Cert.Lib.ReadFinal.binary (l := hostOps2_4) (hostOps2_4_inOrder (F := F)) 22 rfl (by decide) (by decide) (by decide) (W20 m ρ c)
theorem kst_main_v211 (c : Dev nD) :
    W29 m ρ c (Proc.devRef .tc main_v211) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v191)) (W29 m ρ c (Proc.devRef .tc main_v210)) := by
  rw [kept20 m ρ c main_v211 (by decide), kept20 m ρ c main_v191 (by decide), kept20 m ρ c main_v210 (by decide)]
  exact Cert.Lib.ReadFinal.binary (l := hostOps2_4) (hostOps2_4_inOrder (F := F)) 23 rfl (by decide) (by decide) (by decide) (W20 m ρ c)
theorem kst_main_cst_49 (c : Dev nD) :
    W29 m ρ c (Proc.devRef .tc main_cst_49) = (constant (F := F) S_ .f32 0x00000000#32) := by
  rw [kept20 m ρ c main_cst_49 (by decide)]
  exact Cert.Lib.ReadFinal.nullary (l := hostOps2_4) (hostOps2_4_inOrder (F := F)) 24 rfl (by decide) (W20 m ρ c)
theorem kst_main_v212 (c : Dev nD) :
    W29 m ρ c (Proc.devRef .tc main_v212) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_v211)) (W29 m ρ c (Proc.devRef .tc main_cst_49)) := by
  rw [kept20 m ρ c main_v212 (by decide), kept20 m ρ c main_v211 (by decide), kept20 m ρ c main_cst_49 (by decide)]
  exact Cert.Lib.ReadFinal.binary (l := hostOps2_4) (hostOps2_4_inOrder (F := F)) 25 rfl (by decide) (by decide) (by decide) (W20 m ρ c)
theorem kst_main_cst_50 (c : Dev nD) :
    W29 m ρ c (Proc.devRef .tc main_cst_50) = (constant (F := F) S_ .f32 0x3DCCCCCD#32) := by
  rw [kept20 m ρ c main_cst_50 (by decide)]
  exact Cert.Lib.ReadFinal.nullary (l := hostOps2_4) (hostOps2_4_inOrder (F := F)) 26 rfl (by decide) (W20 m ρ c)
theorem kst_main_v213 (c : Dev nD) :
    W29 m ρ c (Proc.devRef .tc main_v213) = (broadcastInDim S4096 ![] bcast_S_S4096 : (⟨S_, .f32⟩ : BufTy).Contents (Elt F) → (⟨S4096, .f32⟩ : BufTy).Contents (Elt F)) (W29 m ρ c (Proc.devRef .tc main_cst_50)) := by
  rw [kept20 m ρ c main_v213 (by decide), kept20 m ρ c main_cst_50 (by decide)]
  exact Cert.Lib.ReadFinal.unary (l := hostOps2_4) (hostOps2_4_inOrder (F := F)) 27 rfl (by decide) (by decide) (W20 m ρ c)
theorem kst_main_v214 (c : Dev nD) :
    W29 m ρ c (Proc.devRef .tc main_v214) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v212)) (W29 m ρ c (Proc.devRef .tc main_v213)) := by
  rw [kept20 m ρ c main_v214 (by decide), kept20 m ρ c main_v212 (by decide), kept20 m ρ c main_v213 (by decide)]
  exact Cert.Lib.ReadFinal.binary (l := hostOps2_4) (hostOps2_4_inOrder (F := F)) 28 rfl (by decide) (by decide) (by decide) (W20 m ρ c)
theorem kst_main_v215 (c : Dev nD) :
    W29 m ρ c (Proc.devRef .tc main_v215) = (Host.exp : (⟨S4096, .f32⟩ : BufTy).Contents (Elt F) → (⟨S4096, .f32⟩ : BufTy).Contents (Elt F)) (W29 m ρ c (Proc.devRef .tc main_v214)) := by
  rw [kept20 m ρ c main_v215 (by decide), kept20 m ρ c main_v214 (by decide)]
  exact Cert.Lib.ReadFinal.unary (l := hostOps2_4) (hostOps2_4_inOrder (F := F)) 29 rfl (by decide) (by decide) (W20 m ρ c)

end Cert.KernelIdeal.Hand

end
-- ==== Proof.KIStagesD.lean ====
/-
  Stage by stage: at the end of @main the buffer a host operation wrote holds that operation's function of what its
  operands hold at the end — every buffer is written once, and nothing an operation reads is written after it.
-/
import proofs.«110517_j15659450761722_1_alg».proof.Proof.KIKept
import proofs.«110517_j15659450761722_1_alg».proof.Proof.LibReadFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

theorem kst_main_v218 (c : Dev nD) :
    W29 m ρ c (Proc.devRef .tc main_v218) = (Host.log : (⟨S4096, .f32⟩ : BufTy).Contents (Elt F) → (⟨S4096, .f32⟩ : BufTy).Contents (Elt F)) (W29 m ρ c (Proc.devRef .tc main_v215)) := by
  rw [kept22 m ρ c main_v218 (by decide), kept22 m ρ c main_v215 (by decide)]
  exact Cert.Lib.ReadFinal.unary (l := hostOps3) (hostOps3_inOrder (F := F)) 1 rfl (by decide) (by decide) (W22 m ρ c)
theorem kst_main_v219 (c : Dev nD) :
    W29 m ρ c (Proc.devRef .tc main_v219) = (Host.log : (⟨S4096, .f32⟩ : BufTy).Contents (Elt F) → (⟨S4096, .f32⟩ : BufTy).Contents (Elt F)) (W29 m ρ c (Proc.devRef .tc main_v217)) := by
  rw [kept22 m ρ c main_v219 (by decide), kept22 m ρ c main_v217 (by decide)]
  exact Cert.Lib.ReadFinal.unary (l := hostOps3) (hostOps3_inOrder (F := F)) 2 rfl (by decide) (by decide) (W22 m ρ c)
theorem kst_main_v220 (c : Dev nD) :
    W29 m ρ c (Proc.devRef .tc main_v220) = (subf : (⟨S4096, .f32⟩ : BufTy).Contents (Elt F) → (⟨S4096, .f32⟩ : BufTy).Contents (Elt F) → (⟨S4096, .f32⟩ : BufTy).Contents (Elt F)) (W29 m ρ c (Proc.devRef .tc main_v218)) (W29 m ρ c (Proc.devRef .tc main_v219)) := by
  rw [kept22 m ρ c main_v220 (by decide), kept22 m ρ c main_v218 (by decide), kept22 m ρ c main_v219 (by decide)]
  exact Cert.Lib.ReadFinal.binary (l := hostOps3) (hostOps3_inOrder (F := F)) 3 rfl (by decide) (by decide) (by decide) (W22 m ρ c)
theorem kst_main_cst_51 (c : Dev nD) :
    W29 m ρ c (Proc.devRef .tc main_cst_51) = (constant (F := F) S_ .f32 0x00000000#32) := by
  rw [kept22 m ρ c main_cst_51 (by decide)]
  exact Cert.Lib.ReadFinal.nullary (l := hostOps3) (hostOps3_inOrder (F := F)) 4 rfl (by decide) (W22 m ρ c)
theorem kst_main_v221 (c : Dev nD) :
    W29 m ρ c (Proc.devRef .tc main_v221) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (W29 m ρ c (Proc.devRef .tc main_v220)) (W29 m ρ c (Proc.devRef .tc main_cst_51)) := by
  rw [kept22 m ρ c main_v221 (by decide), kept22 m ρ c main_v220 (by decide), kept22 m ρ c main_cst_51 (by decide)]
  exact Cert.Lib.ReadFinal.binary (l := hostOps3) (hostOps3_inOrder (F := F)) 5 rfl (by decide) (by decide) (by decide) (W22 m ρ c)
theorem kst_main_v222 (c : Dev nD) :
    W29 m ρ c (Proc.devRef .tc main_v222) = (Host.negf : (⟨S_, .f32⟩ : BufTy).Contents (Elt F) → (⟨S_, .f32⟩ : BufTy).Contents (Elt F)) (W29 m ρ c (Proc.devRef .tc main_v221)) := by
  rw [kept22 m ρ c main_v222 (by decide), kept22 m ρ c main_v221 (by decide)]
  exact Cert.Lib.ReadFinal.unary (l := hostOps3) (hostOps3_inOrder (F := F)) 6 rfl (by decide) (by decide) (W22 m ρ c)
theorem kst_main_c_52 (c : Dev nD) :
    W29 m ρ c (Proc.devRef .tc main_c_52) = (constantI S_ 32 0#32) := by
  rw [kept22 m ρ c main_c_52 (by decide)]
  exact Cert.Lib.ReadFinal.nullary (l := hostOps3) (hostOps3_inOrder (F := F)) 7 rfl (by decide) (W22 m ρ c)
theorem kst_main_v223 (c : Dev nD) :
    W29 m ρ c (Proc.devRef .tc main_v223) = (broadcastInDim S4096 ![] bcast_S_S4096 : (⟨S_, .i32⟩ : BufTy).Contents (Elt F) → (⟨S4096, .i32⟩ : BufTy).Contents (Elt F)) (W29 m ρ c (Proc.devRef .tc main_c_52)) := by
  rw [kept22 m ρ c main_v223 (by decide), kept22 m ρ c main_c_52 (by decide)]
  exact Cert.Lib.ReadFinal.unary (l := hostOps3) (hostOps3_inOrder (F := F)) 8 rfl (by decide) (by decide) (W22 m ρ c)
theorem kst_main_v224 (c : Dev nD) :
    W29 m ρ c (Proc.devRef .tc main_v224) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg11)) (W29 m ρ c (Proc.devRef .tc main_v223)) := by
  rw [kept22 m ρ c main_v224 (by decide), kept22 m ρ c main_arg11 (by decide), kept22 m ρ c main_v223 (by decide)]
  exact Cert.Lib.ReadFinal.binary (l := hostOps3) (hostOps3_inOrder (F := F)) 9 rfl (by decide) (by decide) (by decide) (W22 m ρ c)
theorem kst_main_c_53 (c : Dev nD) :
    W29 m ρ c (Proc.devRef .tc main_c_53) = (constantI S_ 32 25000#32) := by
  rw [kept22 m ρ c main_c_53 (by decide)]
  exact Cert.Lib.ReadFinal.nullary (l := hostOps3) (hostOps3_inOrder (F := F)) 10 rfl (by decide) (W22 m ρ c)
theorem kst_main_v225 (c : Dev nD) :
    W29 m ρ c (Proc.devRef .tc main_v225) = (broadcastInDim S4096 ![] bcast_S_S4096 : (⟨S_, .i32⟩ : BufTy).Contents (Elt F) → (⟨S4096, .i32⟩ : BufTy).Contents (Elt F)) (W29 m ρ c (Proc.devRef .tc main_c_53)) := by
  rw [kept22 m ρ c main_v225 (by decide), kept22 m ρ c main_c_53 (by decide)]
  exact Cert.Lib.ReadFinal.unary (l := hostOps3) (hostOps3_inOrder (F := F)) 11 rfl (by decide) (by decide) (W22 m ρ c)
theorem kst_main_v226 (c : Dev nD) :
    W29 m ρ c (Proc.devRef .tc main_v226) = (addi : (⟨S4096, .i32⟩ : BufTy).Contents (Elt F) → (⟨S4096, .i32⟩ : BufTy).Contents (Elt F) → (⟨S4096, .i32⟩ : BufTy).Contents (Elt F)) (W29 m ρ c (Proc.devRef .tc main_arg11)) (W29 m ρ c (Proc.devRef .tc main_v225)) := by
  rw [kept22 m ρ c main_v226 (by decide), kept22 m ρ c main_arg11 (by decide), kept22 m ρ c main_v225 (by decide)]
  exact Cert.Lib.ReadFinal.binary (l := hostOps3) (hostOps3_inOrder (F := F)) 12 rfl (by decide) (by decide) (by decide) (W22 m ρ c)
theorem kst_main_v227 (c : Dev nD) :
    W29 m ρ c (Proc.devRef .tc main_v227) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v224)) (W29 m ρ c (Proc.devRef .tc main_v226)) (W29 m ρ c (Proc.devRef .tc main_arg11)) := by
  rw [kept22 m ρ c main_v227 (by decide), kept22 m ρ c main_v224 (by decide), kept22 m ρ c main_v226 (by decide), kept22 m ρ c main_arg11 (by decide)]
  exact Cert.Lib.ReadFinal.ternary (l := hostOps3) (hostOps3_inOrder (F := F)) 13 rfl (by decide) (by decide) (by decide) (by decide) (W22 m ρ c)
theorem kst_main_v228 (c : Dev nD) :
    W29 m ρ c (Proc.devRef .tc main_v228) = (broadcastInDim S4096x1 ![0] bcast_S4096_S4096x1_0 : (⟨S4096, .i32⟩ : BufTy).Contents (Elt F) → (⟨S4096x1, .i32⟩ : BufTy).Contents (Elt F)) (W29 m ρ c (Proc.devRef .tc main_v227)) := by
  rw [kept22 m ρ c main_v228 (by decide), kept22 m ρ c main_v227 (by decide)]
  exact Cert.Lib.ReadFinal.unary (l := hostOps3) (hostOps3_inOrder (F := F)) 14 rfl (by decide) (by decide) (W22 m ρ c)
theorem kst_main_v229 (c : Dev nD) :
    W29 m ρ c (Proc.devRef .tc main_v229) = ((fun x i => Host.gather gather_S25000x64_S4096x1_S4096x64_1_0_n_n_0_1_164 x i) : (⟨S25000x64, .f32⟩ : BufTy).Contents (Elt F) → (⟨S4096x1, .i32⟩ : BufTy).Contents (Elt F) → (⟨S4096x64, .f32⟩ : BufTy).Contents (Elt F)) (W29 m ρ c (Proc.devRef .tc main_arg1)) (W29 m ρ c (Proc.devRef .tc main_v228)) := by
  rw [kept22 m ρ c main_v229 (by decide), kept22 m ρ c main_arg1 (by decide), kept22 m ρ c main_v228 (by decide)]
  exact Cert.Lib.ReadFinal.binary (l := hostOps3) (hostOps3_inOrder (F := F)) 15 rfl (by decide) (by decide) (by decide) (W22 m ρ c)
theorem kst_main_call8_v0 (c : Dev nD) :
    W29 m ρ c (Proc.devRef .tc main_call8_v0) = ((mulf) : (⟨S4096x64, .f32⟩ : BufTy).Contents (Elt F) → (⟨S4096x64, .f32⟩ : BufTy).Contents (Elt F) → (⟨S4096x64, .f32⟩ : BufTy).Contents (Elt F)) (W29 m ρ c (Proc.devRef .tc main_v229)) (W29 m ρ c (Proc.devRef .tc main_v229)) := by
  rw [kept23 m ρ c main_call8_v0 (by decide), kept23 m ρ c main_v229 (by decide)]
  exact Cert.Lib.ReadFinal.binary (l := hostOps3_1) (hostOps3_1_inOrder (F := F)) 0 rfl (by decide) (by decide) (by decide) (W23 m ρ c)
theorem kst_main_call8_cst (c : Dev nD) :
    W29 m ρ c (Proc.devRef .tc main_call8_cst) = ((constant (F := F) S_ .f32 0x00000000#32) : (⟨S_, .f32⟩ : BufTy).Contents (Elt F)) := by
  rw [kept23 m ρ c main_call8_cst (by decide)]
  exact Cert.Lib.ReadFinal.nullary (l := hostOps3_1) (hostOps3_1_inOrder (F := F)) 1 rfl (by decide) (W23 m ρ c)
theorem kst_main_call8_v1 (c : Dev nD) :
    W29 m ρ c (Proc.devRef .tc main_call8_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_call8_v0)) (W29 m ρ c (Proc.devRef .tc main_call8_cst)) := by
  rw [kept23 m ρ c main_call8_v1 (by decide), kept23 m ρ c main_call8_v0 (by decide), kept23 m ρ c main_call8_cst (by decide)]
  exact Cert.Lib.ReadFinal.binary (l := hostOps3_1) (hostOps3_1_inOrder (F := F)) 2 rfl (by decide) (by decide) (by decide) (W23 m ρ c)
theorem kst_main_call8_v2 (c : Dev nD) :
    W29 m ρ c (Proc.devRef .tc main_call8_v2) = ((broadcastInDim S4096x1 ![0] bcast_S4096_S4096x1_0) : (⟨S4096, .f32⟩ : BufTy).Contents (Elt F) → (⟨S4096x1, .f32⟩ : BufTy).Contents (Elt F)) (W29 m ρ c (Proc.devRef .tc main_call8_v1)) := by
  rw [kept23 m ρ c main_call8_v2 (by decide), kept23 m ρ c main_call8_v1 (by decide)]
  exact Cert.Lib.ReadFinal.unary (l := hostOps3_1) (hostOps3_1_inOrder (F := F)) 3 rfl (by decide) (by decide) (W23 m ρ c)
theorem kst_main_v230 (c : Dev nD) :
    W29 m ρ c (Proc.devRef .tc main_v230) = ((Host.sqrt) : (⟨S4096x1, .f32⟩ : BufTy).Contents (Elt F) → (⟨S4096x1, .f32⟩ : BufTy).Contents (Elt F)) (W29 m ρ c (Proc.devRef .tc main_call8_v2)) := by
  rw [kept23 m ρ c main_v230 (by decide), kept23 m ρ c main_call8_v2 (by decide)]
  exact Cert.Lib.ReadFinal.unary (l := hostOps3_1) (hostOps3_1_inOrder (F := F)) 4 rfl (by decide) (by decide) (W23 m ρ c)
theorem kst_main_cst_54 (c : Dev nD) :
    W29 m ρ c (Proc.devRef .tc main_cst_54) = (constant (F := F) S_ .f32 0x2B8CBCCC#32) := by
  rw [kept24 m ρ c main_cst_54 (by decide)]
  exact Cert.Lib.ReadFinal.nullary (l := hostOps3_2) (hostOps3_2_inOrder (F := F)) 0 rfl (by decide) (W24 m ρ c)
theorem kst_main_v231 (c : Dev nD) :
    W29 m ρ c (Proc.devRef .tc main_v231) = (broadcastInDim S4096x1 ![] bcast_S_S4096x1 : (⟨S_, .f32⟩ : BufTy).Contents (Elt F) → (⟨S4096x1, .f32⟩ : BufTy).Contents (Elt F)) (W29 m ρ c (Proc.devRef .tc main_cst_54)) := by
  rw [kept24 m ρ c main_v231 (by decide), kept24 m ρ c main_cst_54 (by decide)]
  exact Cert.Lib.ReadFinal.unary (l := hostOps3_2) (hostOps3_2_inOrder (F := F)) 1 rfl (by decide) (by decide) (W24 m ρ c)
theorem kst_main_v232 (c : Dev nD) :
    W29 m ρ c (Proc.devRef .tc main_v232) = (maximumf : (⟨S4096x1, .f32⟩ : BufTy).Contents (Elt F) → (⟨S4096x1, .f32⟩ : BufTy).Contents (Elt F) → (⟨S4096x1, .f32⟩ : BufTy).Contents (Elt F)) (W29 m ρ c (Proc.devRef .tc main_v230)) (W29 m ρ c (Proc.devRef .tc main_v231)) := by
  rw [kept24 m ρ c main_v232 (by decide), kept24 m ρ c main_v230 (by decide), kept24 m ρ c main_v231 (by decide)]
  exact Cert.Lib.ReadFinal.binary (l := hostOps3_2) (hostOps3_2_inOrder (F := F)) 2 rfl (by decide) (by decide) (by decide) (W24 m ρ c)
theorem kst_main_v233 (c : Dev nD) :
    W29 m ρ c (Proc.devRef .tc main_v233) = (broadcastInDim S4096x64 ![0, 1] bcast_S4096x1_S4096x64_0_1 : (⟨S4096x1, .f32⟩ : BufTy).Contents (Elt F) → (⟨S4096x64, .f32⟩ : BufTy).Contents (Elt F)) (W29 m ρ c (Proc.devRef .tc main_v232)) := by
  rw [kept24 m ρ c main_v233 (by decide), kept24 m ρ c main_v232 (by decide)]
  exact Cert.Lib.ReadFinal.unary (l := hostOps3_2) (hostOps3_2_inOrder (F := F)) 3 rfl (by decide) (by decide) (W24 m ρ c)
theorem kst_main_v234 (c : Dev nD) :
    W29 m ρ c (Proc.devRef .tc main_v234) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v229)) (W29 m ρ c (Proc.devRef .tc main_v233)) := by
  rw [kept24 m ρ c main_v234 (by decide), kept24 m ρ c main_v229 (by decide), kept24 m ρ c main_v233 (by decide)]
  exact Cert.Lib.ReadFinal.binary (l := hostOps3_2) (hostOps3_2_inOrder (F := F)) 4 rfl (by decide) (by decide) (by decide) (W24 m ρ c)
theorem kst_main_call9_v0 (c : Dev nD) :
    W29 m ρ c (Proc.devRef .tc main_call9_v0) = ((mulf) : (⟨S1000x64, .f32⟩ : BufTy).Contents (Elt F) → (⟨S1000x64, .f32⟩ : BufTy).Contents (Elt F) → (⟨S1000x64, .f32⟩ : BufTy).Contents (Elt F)) (W29 m ρ c (Proc.devRef .tc main_arg3)) (W29 m ρ c (Proc.devRef .tc main_arg3)) := by
  rw [kept25 m ρ c main_call9_v0 (by decide), kept25 m ρ c main_arg3 (by decide)]
  exact Cert.Lib.ReadFinal.binary (l := hostOps3_3) (hostOps3_3_inOrder (F := F)) 0 rfl (by decide) (by decide) (by decide) (W25 m ρ c)
theorem kst_main_call9_cst (c : Dev nD) :
    W29 m ρ c (Proc.devRef .tc main_call9_cst) = ((constant (F := F) S_ .f32 0x00000000#32) : (⟨S_, .f32⟩ : BufTy).Contents (Elt F)) := by
  rw [kept25 m ρ c main_call9_cst (by decide)]
  exact Cert.Lib.ReadFinal.nullary (l := hostOps3_3) (hostOps3_3_inOrder (F := F)) 1 rfl (by decide) (W25 m ρ c)
theorem kst_main_call9_v1 (c : Dev nD) :
    W29 m ρ c (Proc.devRef .tc main_call9_v1) = ((fun x v => Host.reduceAdd x v reducesTo_S1000x64_S1000_d1 h_S_) : (⟨S1000x64, .f32⟩ : BufTy).Contents (Elt F) → (⟨S_, .f32⟩ : BufTy).Contents (Elt F) → (⟨S1000, .f32⟩ : BufTy).Contents (Elt F)) (W29 m ρ c (Proc.devRef .tc main_call9_v0)) (W29 m ρ c (Proc.devRef .tc main_call9_cst)) := by
  rw [kept25 m ρ c main_call9_v1 (by decide), kept25 m ρ c main_call9_v0 (by decide), kept25 m ρ c main_call9_cst (by decide)]
  exact Cert.Lib.ReadFinal.binary (l := hostOps3_3) (hostOps3_3_inOrder (F := F)) 2 rfl (by decide) (by decide) (by decide) (W25 m ρ c)
theorem kst_main_call9_v2 (c : Dev nD) :
    W29 m ρ c (Proc.devRef .tc main_call9_v2) = ((broadcastInDim S1000x1 ![0] bcast_S1000_S1000x1_0) : (⟨S1000, .f32⟩ : BufTy).Contents (Elt F) → (⟨S1000x1, .f32⟩ : BufTy).Contents (Elt F)) (W29 m ρ c (Proc.devRef .tc main_call9_v1)) := by
  rw [kept25 m ρ c main_call9_v2 (by decide), kept25 m ρ c main_call9_v1 (by decide)]
  exact Cert.Lib.ReadFinal.unary (l := hostOps3_3) (hostOps3_3_inOrder (F := F)) 3 rfl (by decide) (by decide) (W25 m ρ c)
theorem kst_main_v235 (c : Dev nD) :
    W29 m ρ c (Proc.devRef .tc main_v235) = ((Host.sqrt) : (⟨S1000x1, .f32⟩ : BufTy).Contents (Elt F) → (⟨S1000x1, .f32⟩ : BufTy).Contents (Elt F)) (W29 m ρ c (Proc.devRef .tc main_call9_v2)) := by
  rw [kept25 m ρ c main_v235 (by decide), kept25 m ρ c main_call9_v2 (by decide)]
  exact Cert.Lib.ReadFinal.unary (l := hostOps3_3) (hostOps3_3_inOrder (F := F)) 4 rfl (by decide) (by decide) (W25 m ρ c)
theorem kst_main_cst_55 (c : Dev nD) :
    W29 m ρ c (Proc.devRef .tc main_cst_55) = (constant (F := F) S_ .f32 0x2B8CBCCC#32) := by
  rw [kept26 m ρ c main_cst_55 (by decide)]
  exact Cert.Lib.ReadFinal.nullary (l := hostOps3_4) (hostOps3_4_inOrder (F := F)) 0 rfl (by decide) (W26 m ρ c)
theorem kst_main_v236 (c : Dev nD) :
    W29 m ρ c (Proc.devRef .tc main_v236) = (broadcastInDim S1000x1 ![] bcast_S_S1000x1 : (⟨S_, .f32⟩ : BufTy).Contents (Elt F) → (⟨S1000x1, .f32⟩ : BufTy).Contents (Elt F)) (W29 m ρ c (Proc.devRef .tc main_cst_55)) := by
  rw [kept26 m ρ c main_v236 (by decide), kept26 m ρ c main_cst_55 (by decide)]
  exact Cert.Lib.ReadFinal.unary (l := hostOps3_4) (hostOps3_4_inOrder (F := F)) 1 rfl (by decide) (by decide) (W26 m ρ c)
theorem kst_main_v237 (c : Dev nD) :
    W29 m ρ c (Proc.devRef .tc main_v237) = (maximumf : (⟨S1000x1, .f32⟩ : BufTy).Contents (Elt F) → (⟨S1000x1, .f32⟩ : BufTy).Contents (Elt F) → (⟨S1000x1, .f32⟩ : BufTy).Contents (Elt F)) (W29 m ρ c (Proc.devRef .tc main_v235)) (W29 m ρ c (Proc.devRef .tc main_v236)) := by
  rw [kept26 m ρ c main_v237 (by decide), kept26 m ρ c main_v235 (by decide), kept26 m ρ c main_v236 (by decide)]
  exact Cert.Lib.ReadFinal.binary (l := hostOps3_4) (hostOps3_4_inOrder (F := F)) 2 rfl (by decide) (by decide) (by decide) (W26 m ρ c)
theorem kst_main_v238 (c : Dev nD) :
    W29 m ρ c (Proc.devRef .tc main_v238) = (broadcastInDim S1000x64 ![0, 1] bcast_S1000x1_S1000x64_0_1 : (⟨S1000x1, .f32⟩ : BufTy).Contents (Elt F) → (⟨S1000x64, .f32⟩ : BufTy).Contents (Elt F)) (W29 m ρ c (Proc.devRef .tc main_v237)) := by
  rw [kept26 m ρ c main_v238 (by decide), kept26 m ρ c main_v237 (by decide)]
  exact Cert.Lib.ReadFinal.unary (l := hostOps3_4) (hostOps3_4_inOrder (F := F)) 3 rfl (by decide) (by decide) (W26 m ρ c)
theorem kst_main_v239 (c : Dev nD) :
    W29 m ρ c (Proc.devRef .tc main_v239) = (Host.divf : (⟨S1000x64, .f32⟩ : BufTy).Contents (Elt F) → (⟨S1000x64, .f32⟩ : BufTy).Contents (Elt F) → (⟨S1000x64, .f32⟩ : BufTy).Contents (Elt F)) (W29 m ρ c (Proc.devRef .tc main_arg3)) (W29 m ρ c (Proc.devRef .tc main_v238)) := by
  rw [kept26 m ρ c main_v239 (by decide), kept26 m ρ c main_arg3 (by decide), kept26 m ρ c main_v238 (by decide)]
  exact Cert.Lib.ReadFinal.binary (l := hostOps3_4) (hostOps3_4_inOrder (F := F)) 4 rfl (by decide) (by decide) (by decide) (W26 m ρ c)
theorem kst_main_c_56 (c : Dev nD) :
    W29 m ρ c (Proc.devRef .tc main_c_56) = (constantI S_ 32 0#32) := by
  rw [kept26 m ρ c main_c_56 (by decide)]
  exact Cert.Lib.ReadFinal.nullary (l := hostOps3_4) (hostOps3_4_inOrder (F := F)) 5 rfl (by decide) (W26 m ρ c)
theorem kst_main_v240 (c : Dev nD) :
    W29 m ρ c (Proc.devRef .tc main_v240) = (broadcastInDim S4096 ![] bcast_S_S4096 : (⟨S_, .i32⟩ : BufTy).Contents (Elt F) → (⟨S4096, .i32⟩ : BufTy).Contents (Elt F)) (W29 m ρ c (Proc.devRef .tc main_c_56)) := by
  rw [kept26 m ρ c main_v240 (by decide), kept26 m ρ c main_c_56 (by decide)]
  exact Cert.Lib.ReadFinal.unary (l := hostOps3_4) (hostOps3_4_inOrder (F := F)) 6 rfl (by decide) (by decide) (W26 m ρ c)
theorem kst_main_v241 (c : Dev nD) :
    W29 m ρ c (Proc.devRef .tc main_v241) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_arg11)) (W29 m ρ c (Proc.devRef .tc main_v240)) := by
  rw [kept26 m ρ c main_v241 (by decide), kept26 m ρ c main_arg11 (by decide), kept26 m ρ c main_v240 (by decide)]
  exact Cert.Lib.ReadFinal.binary (l := hostOps3_4) (hostOps3_4_inOrder (F := F)) 7 rfl (by decide) (by decide) (by decide) (W26 m ρ c)
theorem kst_main_c_57 (c : Dev nD) :
    W29 m ρ c (Proc.devRef .tc main_c_57) = (constantI S_ 32 25000#32) := by
  rw [kept26 m ρ c main_c_57 (by decide)]
  exact Cert.Lib.ReadFinal.nullary (l := hostOps3_4) (hostOps3_4_inOrder (F := F)) 8 rfl (by decide) (W26 m ρ c)
theorem kst_main_v242 (c : Dev nD) :
    W29 m ρ c (Proc.devRef .tc main_v242) = (broadcastInDim S4096 ![] bcast_S_S4096 : (⟨S_, .i32⟩ : BufTy).Contents (Elt F) → (⟨S4096, .i32⟩ : BufTy).Contents (Elt F)) (W29 m ρ c (Proc.devRef .tc main_c_57)) := by
  rw [kept26 m ρ c main_v242 (by decide), kept26 m ρ c main_c_57 (by decide)]
  exact Cert.Lib.ReadFinal.unary (l := hostOps3_4) (hostOps3_4_inOrder (F := F)) 9 rfl (by decide) (by decide) (W26 m ρ c)
theorem kst_main_v243 (c : Dev nD) :
    W29 m ρ c (Proc.devRef .tc main_v243) = (addi : (⟨S4096, .i32⟩ : BufTy).Contents (Elt F) → (⟨S4096, .i32⟩ : BufTy).Contents (Elt F) → (⟨S4096, .i32⟩ : BufTy).Contents (Elt F)) (W29 m ρ c (Proc.devRef .tc main_arg11)) (W29 m ρ c (Proc.devRef .tc main_v242)) := by
  rw [kept26 m ρ c main_v243 (by decide), kept26 m ρ c main_arg11 (by decide), kept26 m ρ c main_v242 (by decide)]
  exact Cert.Lib.ReadFinal.binary (l := hostOps3_4) (hostOps3_4_inOrder (F := F)) 10 rfl (by decide) (by decide) (by decide) (W26 m ρ c)
theorem kst_main_v244 (c : Dev nD) :
    W29 m ρ c (Proc.devRef .tc main_v244) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v241)) (W29 m ρ c (Proc.devRef .tc main_v243)) (W29 m ρ c (Proc.devRef .tc main_arg11)) := by
  rw [kept26 m ρ c main_v244 (by decide), kept26 m ρ c main_v241 (by decide), kept26 m ρ c main_v243 (by decide), kept26 m ρ c main_arg11 (by decide)]
  exact Cert.Lib.ReadFinal.ternary (l := hostOps3_4) (hostOps3_4_inOrder (F := F)) 11 rfl (by decide) (by decide) (by decide) (by decide) (W26 m ρ c)
theorem kst_main_v245 (c : Dev nD) :
    W29 m ρ c (Proc.devRef .tc main_v245) = (broadcastInDim S4096x1 ![0] bcast_S4096_S4096x1_0 : (⟨S4096, .i32⟩ : BufTy).Contents (Elt F) → (⟨S4096x1, .i32⟩ : BufTy).Contents (Elt F)) (W29 m ρ c (Proc.devRef .tc main_v244)) := by
  rw [kept26 m ρ c main_v245 (by decide), kept26 m ρ c main_v244 (by decide)]
  exact Cert.Lib.ReadFinal.unary (l := hostOps3_4) (hostOps3_4_inOrder (F := F)) 12 rfl (by decide) (by decide) (W26 m ρ c)
theorem kst_main_v246 (c : Dev nD) :
    W29 m ρ c (Proc.devRef .tc main_v246) = ((fun x i => Host.gather gather_S25000_S4096x1_S4096_n_0_n_n_0_1_1 x i) : (⟨S25000, .i32⟩ : BufTy).Contents (Elt F) → (⟨S4096x1, .i32⟩ : BufTy).Contents (Elt F) → (⟨S4096, .i32⟩ : BufTy).Contents (Elt F)) (W29 m ρ c (Proc.devRef .tc main_arg13)) (W29 m ρ c (Proc.devRef .tc main_v245)) := by
  rw [kept26 m ρ c main_v246 (by decide), kept26 m ρ c main_arg13 (by decide), kept26 m ρ c main_v245 (by decide)]
  exact Cert.Lib.ReadFinal.binary (l := hostOps3_4) (hostOps3_4_inOrder (F := F)) 13 rfl (by decide) (by decide) (by decide) (W26 m ρ c)
theorem kst_main_c_58 (c : Dev nD) :
    W29 m ρ c (Proc.devRef .tc main_c_58) = (constantI S_ 32 0#32) := by
  rw [kept26 m ρ c main_c_58 (by decide)]
  exact Cert.Lib.ReadFinal.nullary (l := hostOps3_4) (hostOps3_4_inOrder (F := F)) 14 rfl (by decide) (W26 m ρ c)
theorem kst_main_v247 (c : Dev nD) :
    W29 m ρ c (Proc.devRef .tc main_v247) = (broadcastInDim S4096 ![] bcast_S_S4096 : (⟨S_, .i32⟩ : BufTy).Contents (Elt F) → (⟨S4096, .i32⟩ : BufTy).Contents (Elt F)) (W29 m ρ c (Proc.devRef .tc main_c_58)) := by
  rw [kept26 m ρ c main_v247 (by decide), kept26 m ρ c main_c_58 (by decide)]
  exact Cert.Lib.ReadFinal.unary (l := hostOps3_4) (hostOps3_4_inOrder (F := F)) 15 rfl (by decide) (by decide) (W26 m ρ c)
theorem kst_main_v248 (c : Dev nD) :
    W29 m ρ c (Proc.devRef .tc main_v248) = (cmpi .slt : (⟨S4096, .i32⟩ : BufTy).Contents (Elt F) → (⟨S4096, .i32⟩ : BufTy).Contents (Elt F) → (⟨S4096, .i1⟩ : BufTy).Contents (Elt F)) (W29 m ρ c (Proc.devRef .tc main_v246)) (W29 m ρ c (Proc.devRef .tc main_v247)) := by
  rw [kept26 m ρ c main_v248 (by decide), kept26 m ρ c main_v246 (by decide), kept26 m ρ c main_v247 (by decide)]
  exact Cert.Lib.ReadFinal.binary (l := hostOps3_4) (hostOps3_4_inOrder (F := F)) 16 rfl (by decide) (by decide) (by decide) (W26 m ρ c)
theorem kst_main_c_59 (c : Dev nD) :
    W29 m ρ c (Proc.devRef .tc main_c_59) = (constantI S_ 32 1000#32) := by
  rw [kept26 m ρ c main_c_59 (by decide)]
  exact Cert.Lib.ReadFinal.nullary (l := hostOps3_4) (hostOps3_4_inOrder (F := F)) 17 rfl (by decide) (W26 m ρ c)
theorem kst_main_v249 (c : Dev nD) :
    W29 m ρ c (Proc.devRef .tc main_v249) = (broadcastInDim S4096 ![] bcast_S_S4096 : (⟨S_, .i32⟩ : BufTy).Contents (Elt F) → (⟨S4096, .i32⟩ : BufTy).Contents (Elt F)) (W29 m ρ c (Proc.devRef .tc main_c_59)) := by
  rw [kept26 m ρ c main_v249 (by decide), kept26 m ρ c main_c_59 (by decide)]
  exact Cert.Lib.ReadFinal.unary (l := hostOps3_4) (hostOps3_4_inOrder (F := F)) 18 rfl (by decide) (by decide) (W26 m ρ c)
theorem kst_main_v250 (c : Dev nD) :
    W29 m ρ c (Proc.devRef .tc main_v250) = (addi : (⟨S4096, .i32⟩ : BufTy).Contents (Elt F) → (⟨S4096, .i32⟩ : BufTy).Contents (Elt F) → (⟨S4096, .i32⟩ : BufTy).Contents (Elt F)) (W29 m ρ c (Proc.devRef .tc main_v246)) (W29 m ρ c (Proc.devRef .tc main_v249)) := by
  rw [kept26 m ρ c main_v250 (by decide), kept26 m ρ c main_v246 (by decide), kept26 m ρ c main_v249 (by decide)]
  exact Cert.Lib.ReadFinal.binary (l := hostOps3_4) (hostOps3_4_inOrder (F := F)) 19 rfl (by decide) (by decide) (by decide) (W26 m ρ c)
theorem kst_main_v251 (c : Dev nD) :
    W29 m ρ c (Proc.devRef .tc main_v251) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (W29 m ρ c (Proc.devRef .tc main_v248)) (W29 m ρ c (Proc.devRef .tc main_v250)) (W29 m ρ c (Proc.devRef .tc main_v246)) := by
  rw [kept26 m ρ c main_v251 (by decide), kept26 m ρ c main_v248 (by decide), kept26 m ρ c main_v250 (by decide), kept26 m ρ c main_v246 (by decide)]
  exact Cert.Lib.ReadFinal.ternary (l := hostOps3_4) (hostOps3_4_inOrder (F := F)) 20 rfl (by decide) (by decide) (by decide) (by decide) (W26 m ρ c)
theorem kst_main_v252 (c : Dev nD) :
    W29 m ρ c (Proc.devRef .tc main_v252) = (broadcastInDim S4096x1 ![0] bcast_S4096_S4096x1_0 : (⟨S4096, .i32⟩ : BufTy).Contents (Elt F) → (⟨S4096x1, .i32⟩ : BufTy).Contents (Elt F)) (W29 m ρ c (Proc.devRef .tc main_v251)) := by
  rw [kept26 m ρ c main_v252 (by decide), kept26 m ρ c main_v251 (by decide)]
  exact Cert.Lib.ReadFinal.unary (l := hostOps3_4) (hostOps3_4_inOrder (F := F)) 21 rfl (by decide) (by decide) (W26 m ρ c)
theorem kst_main_v253 (c : Dev nD) :
    W29 m ρ c (Proc.devRef .tc main_v253) = ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)) (W29 m ρ c (Proc.devRef .tc main_v239)) (W29 m ρ c (Proc.devRef .tc main_v252)) := by
  rw [kept26 m ρ c main_v253 (by decide), kept26 m ρ c main_v239 (by decide), kept26 m ρ c main_v252 (by decide)]
  exact Cert.Lib.ReadFinal.binary (l := hostOps3_4) (hostOps3_4_inOrder (F := F)) 22 rfl (by decide) (by decide) (by decide) (W26 m ρ c)
theorem kst_main_v254 (c : Dev nD) :
    W29 m ρ c (Proc.devRef .tc main_v254) = (mulf : (⟨S4096x64, .f32⟩ : BufTy).Contents (Elt F) → (⟨S4096x64, .f32⟩ : BufTy).Contents (Elt F) → (⟨S4096x64, .f32⟩ : BufTy).Contents (Elt F)) (W29 m ρ c (Proc.devRef .tc main_v234)) (W29 m ρ c (Proc.devRef .tc main_v253)) := by
  rw [kept26 m ρ c main_v254 (by decide), kept26 m ρ c main_v234 (by decide), kept26 m ρ c main_v253 (by decide)]
  exact Cert.Lib.ReadFinal.binary (l := hostOps3_4) (hostOps3_4_inOrder (F := F)) 23 rfl (by decide) (by decide) (by decide) (W26 m ρ c)
theorem kst_main_cst_60 (c : Dev nD) :
    W29 m ρ c (Proc.devRef .tc main_cst_60) = (constant (F := F) S_ .f32 0x00000000#32) := by
  rw [kept26 m ρ c main_cst_60 (by decide)]
  exact Cert.Lib.ReadFinal.nullary (l := hostOps3_4) (hostOps3_4_inOrder (F := F)) 24 rfl (by decide) (W26 m ρ c)
theorem kst_main_v255 (c : Dev nD) :
    W29 m ρ c (Proc.devRef .tc main_v255) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (W29 m ρ c (Proc.devRef .tc main_v254)) (W29 m ρ c (Proc.devRef .tc main_cst_60)) := by
  rw [kept26 m ρ c main_v255 (by decide), kept26 m ρ c main_v254 (by decide), kept26 m ρ c main_cst_60 (by decide)]
  exact Cert.Lib.ReadFinal.binary (l := hostOps3_4) (hostOps3_4_inOrder (F := F)) 25 rfl (by decide) (by decide) (by decide) (W26 m ρ c)
theorem kst_main_cst_61 (c : Dev nD) :
    W29 m ρ c (Proc.devRef .tc main_cst_61) = (constant (F := F) S_ .f32 0x3DCCCCCD#32) := by
  rw [kept26 m ρ c main_cst_61 (by decide)]
  exact Cert.Lib.ReadFinal.nullary (l := hostOps3_4) (hostOps3_4_inOrder (F := F)) 26 rfl (by decide) (W26 m ρ c)
theorem kst_main_v256 (c : Dev nD) :
    W29 m ρ c (Proc.devRef .tc main_v256) = (broadcastInDim S4096 ![] bcast_S_S4096 : (⟨S_, .f32⟩ : BufTy).Contents (Elt F) → (⟨S4096, .f32⟩ : BufTy).Contents (Elt F)) (W29 m ρ c (Proc.devRef .tc main_cst_61)) := by
  rw [kept26 m ρ c main_v256 (by decide), kept26 m ρ c main_cst_61 (by decide)]
  exact Cert.Lib.ReadFinal.unary (l := hostOps3_4) (hostOps3_4_inOrder (F := F)) 27 rfl (by decide) (by decide) (W26 m ρ c)
theorem kst_main_v257 (c : Dev nD) :
    W29 m ρ c (Proc.devRef .tc main_v257) = (Host.divf : (⟨S4096, .f32⟩ : BufTy).Contents (Elt F) → (⟨S4096, .f32⟩ : BufTy).Contents (Elt F) → (⟨S4096, .f32⟩ : BufTy).Contents (Elt F)) (W29 m ρ c (Proc.devRef .tc main_v255)) (W29 m ρ c (Proc.devRef .tc main_v256)) := by
  rw [kept26 m ρ c main_v257 (by decide), kept26 m ρ c main_v255 (by decide), kept26 m ρ c main_v256 (by decide)]
  exact Cert.Lib.ReadFinal.binary (l := hostOps3_4) (hostOps3_4_inOrder (F := F)) 28 rfl (by decide) (by decide) (by decide) (W26 m ρ c)
theorem kst_main_v258 (c : Dev nD) :
    W29 m ρ c (Proc.devRef .tc main_v258) = (Host.exp : (⟨S4096, .f32⟩ : BufTy).Contents (Elt F) → (⟨S4096, .f32⟩ : BufTy).Contents (Elt F)) (W29 m ρ c (Proc.devRef .tc main_v257)) := by
  rw [kept26 m ρ c main_v258 (by decide), kept26 m ρ c main_v257 (by decide)]
  exact Cert.Lib.ReadFinal.unary (l := hostOps3_4) (hostOps3_4_inOrder (F := F)) 29 rfl (by decide) (by decide) (W26 m ρ c)

end Cert.KernelIdeal.Hand

end
-- ==== Proof.KIStagesE.lean ====
/-
  Stage by stage: at the end of @main the buffer a host operation wrote holds that operation's function of what its
  operands hold at the end — every buffer is written once, and nothing an operation reads is written after it.
-/
import proofs.«110517_j15659450761722_1_alg».proof.Proof.KIKept
import proofs.«110517_j15659450761722_1_alg».proof.Proof.LibReadFinal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F] [Named F]

variable (m : (ℓ : Loc nD τ sig) → Buf (Elt F) ℓ) (ρ : Dev nD → PrngReg)

theorem kst_main_v261 (c : Dev nD) :
    W29 m ρ c (Proc.devRef .tc main_v261) = (Host.log : (⟨S4096, .f32⟩ : BufTy).Contents (Elt F) → (⟨S4096, .f32⟩ : BufTy).Contents (Elt F)) (W29 m ρ c (Proc.devRef .tc main_v258)) := by
  rw [kept28 m ρ c main_v261 (by decide), kept28 m ρ c main_v258 (by decide)]
  exact Cert.Lib.ReadFinal.unary (l := hostOps4) (hostOps4_inOrder (F := F)) 1 rfl (by decide) (by decide) (W28 m ρ c)
theorem kst_main_v262 (c : Dev nD) :
    W29 m ρ c (Proc.devRef .tc main_v262) = (Host.log : (⟨S4096, .f32⟩ : BufTy).Contents (Elt F) → (⟨S4096, .f32⟩ : BufTy).Contents (Elt F)) (W29 m ρ c (Proc.devRef .tc main_v260)) := by
  rw [kept28 m ρ c main_v262 (by decide), kept28 m ρ c main_v260 (by decide)]
  exact Cert.Lib.ReadFinal.unary (l := hostOps4) (hostOps4_inOrder (F := F)) 2 rfl (by decide) (by decide) (W28 m ρ c)
theorem kst_main_v263 (c : Dev nD) :
    W29 m ρ c (Proc.devRef .tc main_v263) = (subf : (⟨S4096, .f32⟩ : BufTy).Contents (Elt F) → (⟨S4096, .f32⟩ : BufTy).Contents (Elt F) → (⟨S4096, .f32⟩ : BufTy).Contents (Elt F)) (W29 m ρ c (Proc.devRef .tc main_v261)) (W29 m ρ c (Proc.devRef .tc main_v262)) := by
  rw [kept28 m ρ c main_v263 (by decide), kept28 m ρ c main_v261 (by decide), kept28 m ρ c main_v262 (by decide)]
  exact Cert.Lib.ReadFinal.binary (l := hostOps4) (hostOps4_inOrder (F := F)) 3 rfl (by decide) (by decide) (by decide) (W28 m ρ c)
theorem kst_main_cst_62 (c : Dev nD) :
    W29 m ρ c (Proc.devRef .tc main_cst_62) = (constant (F := F) S_ .f32 0x00000000#32) := by
  rw [kept28 m ρ c main_cst_62 (by decide)]
  exact Cert.Lib.ReadFinal.nullary (l := hostOps4) (hostOps4_inOrder (F := F)) 4 rfl (by decide) (W28 m ρ c)
theorem kst_main_v264 (c : Dev nD) :
    W29 m ρ c (Proc.devRef .tc main_v264) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (W29 m ρ c (Proc.devRef .tc main_v263)) (W29 m ρ c (Proc.devRef .tc main_cst_62)) := by
  rw [kept28 m ρ c main_v264 (by decide), kept28 m ρ c main_v263 (by decide), kept28 m ρ c main_cst_62 (by decide)]
  exact Cert.Lib.ReadFinal.binary (l := hostOps4) (hostOps4_inOrder (F := F)) 5 rfl (by decide) (by decide) (by decide) (W28 m ρ c)
theorem kst_main_v265 (c : Dev nD) :
    W29 m ρ c (Proc.devRef .tc main_v265) = (Host.negf : (⟨S_, .f32⟩ : BufTy).Contents (Elt F) → (⟨S_, .f32⟩ : BufTy).Contents (Elt F)) (W29 m ρ c (Proc.devRef .tc main_v264)) := by
  rw [kept28 m ρ c main_v265 (by decide), kept28 m ρ c main_v264 (by decide)]
  exact Cert.Lib.ReadFinal.unary (l := hostOps4) (hostOps4_inOrder (F := F)) 6 rfl (by decide) (by decide) (W28 m ρ c)
theorem kst_main_v266 (c : Dev nD) :
    W29 m ρ c (Proc.devRef .tc main_v266) = (addf : (⟨S_, .f32⟩ : BufTy).Contents (Elt F) → (⟨S_, .f32⟩ : BufTy).Contents (Elt F) → (⟨S_, .f32⟩ : BufTy).Contents (Elt F)) (W29 m ρ c (Proc.devRef .tc main_v222)) (W29 m ρ c (Proc.devRef .tc main_v265)) := by
  rw [kept28 m ρ c main_v266 (by decide), kept28 m ρ c main_v222 (by decide), kept28 m ρ c main_v265 (by decide)]
  exact Cert.Lib.ReadFinal.binary (l := hostOps4) (hostOps4_inOrder (F := F)) 7 rfl (by decide) (by decide) (by decide) (W28 m ρ c)
theorem kst_main_cst_63 (c : Dev nD) :
    W29 m ρ c (Proc.devRef .tc main_cst_63) = (constant (F := F) S_ .f32 0x33ABCC77#32) := by
  rw [kept28 m ρ c main_cst_63 (by decide)]
  exact Cert.Lib.ReadFinal.nullary (l := hostOps4) (hostOps4_inOrder (F := F)) 8 rfl (by decide) (W28 m ρ c)
theorem kst_main_v267 (c : Dev nD) :
    W29 m ρ c (Proc.devRef .tc main_v267) = (mulf : (⟨S_, .f32⟩ : BufTy).Contents (Elt F) → (⟨S_, .f32⟩ : BufTy).Contents (Elt F) → (⟨S_, .f32⟩ : BufTy).Contents (Elt F)) (W29 m ρ c (Proc.devRef .tc main_cst_63)) (W29 m ρ c (Proc.devRef .tc main_v266)) := by
  rw [kept28 m ρ c main_v267 (by decide), kept28 m ρ c main_cst_63 (by decide), kept28 m ρ c main_v266 (by decide)]
  exact Cert.Lib.ReadFinal.binary (l := hostOps4) (hostOps4_inOrder (F := F)) 9 rfl (by decide) (by decide) (by decide) (W28 m ρ c)
theorem kst_main_cst_64 (c : Dev nD) :
    W29 m ρ c (Proc.devRef .tc main_cst_64) = (constant (F := F) S_ .f32 0x40800000#32) := by
  rw [kept28 m ρ c main_cst_64 (by decide)]
  exact Cert.Lib.ReadFinal.nullary (l := hostOps4) (hostOps4_inOrder (F := F)) 10 rfl (by decide) (W28 m ρ c)
theorem kst_main_v268 (c : Dev nD) :
    W29 m ρ c (Proc.devRef .tc main_v268) = (broadcastInDim S4096x64 ![] bcast_S_S4096x64 : (⟨S_, .f32⟩ : BufTy).Contents (Elt F) → (⟨S4096x64, .f32⟩ : BufTy).Contents (Elt F)) (W29 m ρ c (Proc.devRef .tc main_cst_64)) := by
  rw [kept28 m ρ c main_v268 (by decide), kept28 m ρ c main_cst_64 (by decide)]
  exact Cert.Lib.ReadFinal.unary (l := hostOps4) (hostOps4_inOrder (F := F)) 11 rfl (by decide) (by decide) (W28 m ρ c)
theorem kst_main_v269 (c : Dev nD) :
    W29 m ρ c (Proc.devRef .tc main_v269) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v121)) (W29 m ρ c (Proc.devRef .tc main_v268)) := by
  rw [kept28 m ρ c main_v269 (by decide), kept28 m ρ c main_v121 (by decide), kept28 m ρ c main_v268 (by decide)]
  exact Cert.Lib.ReadFinal.binary (l := hostOps4) (hostOps4_inOrder (F := F)) 12 rfl (by decide) (by decide) (by decide) (W28 m ρ c)
theorem kst_main_cst_65 (c : Dev nD) :
    W29 m ρ c (Proc.devRef .tc main_cst_65) = (constant (F := F) S_ .f32 0x40800000#32) := by
  rw [kept28 m ρ c main_cst_65 (by decide)]
  exact Cert.Lib.ReadFinal.nullary (l := hostOps4) (hostOps4_inOrder (F := F)) 13 rfl (by decide) (W28 m ρ c)
theorem kst_main_v270 (c : Dev nD) :
    W29 m ρ c (Proc.devRef .tc main_v270) = (broadcastInDim S4096x64 ![] bcast_S_S4096x64 : (⟨S_, .f32⟩ : BufTy).Contents (Elt F) → (⟨S4096x64, .f32⟩ : BufTy).Contents (Elt F)) (W29 m ρ c (Proc.devRef .tc main_cst_65)) := by
  rw [kept28 m ρ c main_v270 (by decide), kept28 m ρ c main_cst_65 (by decide)]
  exact Cert.Lib.ReadFinal.unary (l := hostOps4) (hostOps4_inOrder (F := F)) 14 rfl (by decide) (by decide) (W28 m ρ c)
theorem kst_main_v271 (c : Dev nD) :
    W29 m ρ c (Proc.devRef .tc main_v271) = (Host.divf : (⟨S4096x64, .f32⟩ : BufTy).Contents (Elt F) → (⟨S4096x64, .f32⟩ : BufTy).Contents (Elt F) → (⟨S4096x64, .f32⟩ : BufTy).Contents (Elt F)) (W29 m ρ c (Proc.devRef .tc main_v122)) (W29 m ρ c (Proc.devRef .tc main_v270)) := by
  rw [kept28 m ρ c main_v271 (by decide), kept28 m ρ c main_v122 (by decide), kept28 m ρ c main_v270 (by decide)]
  exact Cert.Lib.ReadFinal.binary (l := hostOps4) (hostOps4_inOrder (F := F)) 15 rfl (by decide) (by decide) (by decide) (W28 m ρ c)
theorem kst_main_c_66 (c : Dev nD) :
    W29 m ρ c (Proc.devRef .tc main_c_66) = (constantI S_ 32 0#32) := by
  rw [kept28 m ρ c main_c_66 (by decide)]
  exact Cert.Lib.ReadFinal.nullary (l := hostOps4) (hostOps4_inOrder (F := F)) 16 rfl (by decide) (W28 m ρ c)
theorem kst_main_v272 (c : Dev nD) :
    W29 m ρ c (Proc.devRef .tc main_v272) = (broadcastInDim S65536 ![] bcast_S_S65536 : (⟨S_, .i32⟩ : BufTy).Contents (Elt F) → (⟨S65536, .i32⟩ : BufTy).Contents (Elt F)) (W29 m ρ c (Proc.devRef .tc main_c_66)) := by
  rw [kept28 m ρ c main_v272 (by decide), kept28 m ρ c main_c_66 (by decide)]
  exact Cert.Lib.ReadFinal.unary (l := hostOps4) (hostOps4_inOrder (F := F)) 17 rfl (by decide) (by decide) (W28 m ρ c)
theorem kst_main_v273 (c : Dev nD) :
    W29 m ρ c (Proc.devRef .tc main_v273) = (cmpi .slt : (⟨S65536, .i32⟩ : BufTy).Contents (Elt F) → (⟨S65536, .i32⟩ : BufTy).Contents (Elt F) → (⟨S65536, .i1⟩ : BufTy).Contents (Elt F)) (W29 m ρ c (Proc.devRef .tc main_arg6)) (W29 m ρ c (Proc.devRef .tc main_v272)) := by
  rw [kept28 m ρ c main_v273 (by decide), kept28 m ρ c main_arg6 (by decide), kept28 m ρ c main_v272 (by decide)]
  exact Cert.Lib.ReadFinal.binary (l := hostOps4) (hostOps4_inOrder (F := F)) 18 rfl (by decide) (by decide) (by decide) (W28 m ρ c)
theorem kst_main_c_67 (c : Dev nD) :
    W29 m ρ c (Proc.devRef .tc main_c_67) = (constantI S_ 32 4096#32) := by
  rw [kept28 m ρ c main_c_67 (by decide)]
  exact Cert.Lib.ReadFinal.nullary (l := hostOps4) (hostOps4_inOrder (F := F)) 19 rfl (by decide) (W28 m ρ c)
theorem kst_main_v274 (c : Dev nD) :
    W29 m ρ c (Proc.devRef .tc main_v274) = (broadcastInDim S65536 ![] bcast_S_S65536 : (⟨S_, .i32⟩ : BufTy).Contents (Elt F) → (⟨S65536, .i32⟩ : BufTy).Contents (Elt F)) (W29 m ρ c (Proc.devRef .tc main_c_67)) := by
  rw [kept28 m ρ c main_v274 (by decide), kept28 m ρ c main_c_67 (by decide)]
  exact Cert.Lib.ReadFinal.unary (l := hostOps4) (hostOps4_inOrder (F := F)) 20 rfl (by decide) (by decide) (W28 m ρ c)
theorem kst_main_v275 (c : Dev nD) :
    W29 m ρ c (Proc.devRef .tc main_v275) = (addi : (⟨S65536, .i32⟩ : BufTy).Contents (Elt F) → (⟨S65536, .i32⟩ : BufTy).Contents (Elt F) → (⟨S65536, .i32⟩ : BufTy).Contents (Elt F)) (W29 m ρ c (Proc.devRef .tc main_arg6)) (W29 m ρ c (Proc.devRef .tc main_v274)) := by
  rw [kept28 m ρ c main_v275 (by decide), kept28 m ρ c main_arg6 (by decide), kept28 m ρ c main_v274 (by decide)]
  exact Cert.Lib.ReadFinal.binary (l := hostOps4) (hostOps4_inOrder (F := F)) 21 rfl (by decide) (by decide) (by decide) (W28 m ρ c)
theorem kst_main_v276 (c : Dev nD) :
    W29 m ρ c (Proc.devRef .tc main_v276) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (W29 m ρ c (Proc.devRef .tc main_v273)) (W29 m ρ c (Proc.devRef .tc main_v275)) (W29 m ρ c (Proc.devRef .tc main_arg6)) := by
  rw [kept28 m ρ c main_v276 (by decide), kept28 m ρ c main_v273 (by decide), kept28 m ρ c main_v275 (by decide), kept28 m ρ c main_arg6 (by decide)]
  exact Cert.Lib.ReadFinal.ternary (l := hostOps4) (hostOps4_inOrder (F := F)) 22 rfl (by decide) (by decide) (by decide) (by decide) (W28 m ρ c)
theorem kst_main_v277 (c : Dev nD) :
    W29 m ρ c (Proc.devRef .tc main_v277) = (broadcastInDim S65536x1 ![0] bcast_S65536_S65536x1_0 : (⟨S65536, .i32⟩ : BufTy).Contents (Elt F) → (⟨S65536x1, .i32⟩ : BufTy).Contents (Elt F)) (W29 m ρ c (Proc.devRef .tc main_v276)) := by
  rw [kept28 m ρ c main_v277 (by decide), kept28 m ρ c main_v276 (by decide)]
  exact Cert.Lib.ReadFinal.unary (l := hostOps4) (hostOps4_inOrder (F := F)) 23 rfl (by decide) (by decide) (W28 m ρ c)
theorem kst_main_v278 (c : Dev nD) :
    W29 m ρ c (Proc.devRef .tc main_v278) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (W29 m ρ c (Proc.devRef .tc main_v269)) (W29 m ρ c (Proc.devRef .tc main_v277)) := by
  rw [kept28 m ρ c main_v278 (by decide), kept28 m ρ c main_v269 (by decide), kept28 m ρ c main_v277 (by decide)]
  exact Cert.Lib.ReadFinal.binary (l := hostOps4) (hostOps4_inOrder (F := F)) 24 rfl (by decide) (by decide) (by decide) (W28 m ρ c)
theorem kst_main_c_68 (c : Dev nD) :
    W29 m ρ c (Proc.devRef .tc main_c_68) = (constantI S_ 32 0#32) := by
  rw [kept28 m ρ c main_c_68 (by decide)]
  exact Cert.Lib.ReadFinal.nullary (l := hostOps4) (hostOps4_inOrder (F := F)) 25 rfl (by decide) (W28 m ρ c)
theorem kst_main_v279 (c : Dev nD) :
    W29 m ρ c (Proc.devRef .tc main_v279) = (broadcastInDim S65536 ![] bcast_S_S65536 : (⟨S_, .i32⟩ : BufTy).Contents (Elt F) → (⟨S65536, .i32⟩ : BufTy).Contents (Elt F)) (W29 m ρ c (Proc.devRef .tc main_c_68)) := by
  rw [kept28 m ρ c main_v279 (by decide), kept28 m ρ c main_c_68 (by decide)]
  exact Cert.Lib.ReadFinal.unary (l := hostOps4) (hostOps4_inOrder (F := F)) 26 rfl (by decide) (by decide) (W28 m ρ c)
theorem kst_main_v280 (c : Dev nD) :
    W29 m ρ c (Proc.devRef .tc main_v280) = (cmpi .slt : (⟨S65536, .i32⟩ : BufTy).Contents (Elt F) → (⟨S65536, .i32⟩ : BufTy).Contents (Elt F) → (⟨S65536, .i1⟩ : BufTy).Contents (Elt F)) (W29 m ρ c (Proc.devRef .tc main_arg7)) (W29 m ρ c (Proc.devRef .tc main_v279)) := by
  rw [kept28 m ρ c main_v280 (by decide), kept28 m ρ c main_arg7 (by decide), kept28 m ρ c main_v279 (by decide)]
  exact Cert.Lib.ReadFinal.binary (l := hostOps4) (hostOps4_inOrder (F := F)) 27 rfl (by decide) (by decide) (by decide) (W28 m ρ c)
theorem kst_main_c_69 (c : Dev nD) :
    W29 m ρ c (Proc.devRef .tc main_c_69) = (constantI S_ 32 4096#32) := by
  rw [kept28 m ρ c main_c_69 (by decide)]
  exact Cert.Lib.ReadFinal.nullary (l := hostOps4) (hostOps4_inOrder (F := F)) 28 rfl (by decide) (W28 m ρ c)
theorem kst_main_v281 (c : Dev nD) :
    W29 m ρ c (Proc.devRef .tc main_v281) = (broadcastInDim S65536 ![] bcast_S_S65536 : (⟨S_, .i32⟩ : BufTy).Contents (Elt F) → (⟨S65536, .i32⟩ : BufTy).Contents (Elt F)) (W29 m ρ c (Proc.devRef .tc main_c_69)) := by
  rw [kept28 m ρ c main_v281 (by decide), kept28 m ρ c main_c_69 (by decide)]
  exact Cert.Lib.ReadFinal.unary (l := hostOps4) (hostOps4_inOrder (F := F)) 29 rfl (by decide) (by decide) (W28 m ρ c)
theorem kst_main_v282 (c : Dev nD) :
    W29 m ρ c (Proc.devRef .tc main_v282) = (addi : (⟨S65536, .i32⟩ : BufTy).Contents (Elt F) → (⟨S65536, .i32⟩ : BufTy).Contents (Elt F) → (⟨S65536, .i32⟩ : BufTy).Contents (Elt F)) (W29 m ρ c (Proc.devRef .tc main_arg7)) (W29 m ρ c (Proc.devRef .tc main_v281)) := by
  rw [kept28 m ρ c main_v282 (by decide), kept28 m ρ c main_arg7 (by decide), kept28 m ρ c main_v281 (by decide)]
  exact Cert.Lib.ReadFinal.binary (l := hostOps4) (hostOps4_inOrder (F := F)) 30 rfl (by decide) (by decide) (by decide) (W28 m ρ c)
theorem kst_main_v283 (c : Dev nD) :
    W29 m ρ c (Proc.devRef .tc main_v283) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (W29 m ρ c (Proc.devRef .tc main_v280)) (W29 m ρ c (Proc.devRef .tc main_v282)) (W29 m ρ c (Proc.devRef .tc main_arg7)) := by
  rw [kept28 m ρ c main_v283 (by decide), kept28 m ρ c main_v280 (by decide), kept28 m ρ c main_v282 (by decide), kept28 m ρ c main_arg7 (by decide)]
  exact Cert.Lib.ReadFinal.ternary (l := hostOps4) (hostOps4_inOrder (F := F)) 31 rfl (by decide) (by decide) (by decide) (by decide) (W28 m ρ c)
theorem kst_main_v284 (c : Dev nD) :
    W29 m ρ c (Proc.devRef .tc main_v284) = (broadcastInDim S65536x1 ![0] bcast_S65536_S65536x1_0 : (⟨S65536, .i32⟩ : BufTy).Contents (Elt F) → (⟨S65536x1, .i32⟩ : BufTy).Contents (Elt F)) (W29 m ρ c (Proc.devRef .tc main_v283)) := by
  rw [kept28 m ρ c main_v284 (by decide), kept28 m ρ c main_v283 (by decide)]
  exact Cert.Lib.ReadFinal.unary (l := hostOps4) (hostOps4_inOrder (F := F)) 32 rfl (by decide) (by decide) (W28 m ρ c)
theorem kst_main_v285 (c : Dev nD) :
    W29 m ρ c (Proc.devRef .tc main_v285) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (W29 m ρ c (Proc.devRef .tc main_v271)) (W29 m ρ c (Proc.devRef .tc main_v284)) := by
  rw [kept28 m ρ c main_v285 (by decide), kept28 m ρ c main_v271 (by decide), kept28 m ρ c main_v284 (by decide)]
  exact Cert.Lib.ReadFinal.binary (l := hostOps4) (hostOps4_inOrder (F := F)) 33 rfl (by decide) (by decide) (by decide) (W28 m ρ c)
theorem kst_main_v286 (c : Dev nD) :
    W29 m ρ c (Proc.devRef .tc main_v286) = (mulf : (⟨S65536x64, .f32⟩ : BufTy).Contents (Elt F) → (⟨S65536x64, .f32⟩ : BufTy).Contents (Elt F) → (⟨S65536x64, .f32⟩ : BufTy).Contents (Elt F)) (W29 m ρ c (Proc.devRef .tc main_v278)) (W29 m ρ c (Proc.devRef .tc main_v285)) := by
  rw [kept28 m ρ c main_v286 (by decide), kept28 m ρ c main_v278 (by decide), kept28 m ρ c main_v285 (by decide)]
  exact Cert.Lib.ReadFinal.binary (l := hostOps4) (hostOps4_inOrder (F := F)) 34 rfl (by decide) (by decide) (by decide) (W28 m ρ c)
theorem kst_main_cst_70 (c : Dev nD) :
    W29 m ρ c (Proc.devRef .tc main_cst_70) = (constant (F := F) S_ .f32 0x00000000#32) := by
  rw [kept28 m ρ c main_cst_70 (by decide)]
  exact Cert.Lib.ReadFinal.nullary (l := hostOps4) (hostOps4_inOrder (F := F)) 35 rfl (by decide) (W28 m ρ c)
theorem kst_main_v287 (c : Dev nD) :
    W29 m ρ c (Proc.devRef .tc main_v287) = ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (W29 m ρ c (Proc.devRef .tc main_v286)) (W29 m ρ c (Proc.devRef .tc main_cst_70)) := by
  rw [kept28 m ρ c main_v287 (by decide), kept28 m ρ c main_v286 (by decide), kept28 m ρ c main_cst_70 (by decide)]
  exact Cert.Lib.ReadFinal.binary (l := hostOps4) (hostOps4_inOrder (F := F)) 36 rfl (by decide) (by decide) (by decide) (W28 m ρ c)
theorem kst_main_v288 (c : Dev nD) :
    W29 m ρ c (Proc.devRef .tc main_v288) = (broadcastInDim S65536x1 ![0] bcast_S65536_S65536x1_0 : (⟨S65536, .f32⟩ : BufTy).Contents (Elt F) → (⟨S65536x1, .f32⟩ : BufTy).Contents (Elt F)) (W29 m ρ c (Proc.devRef .tc main_v287)) := by
  rw [kept28 m ρ c main_v288 (by decide), kept28 m ρ c main_v287 (by decide)]
  exact Cert.Lib.ReadFinal.unary (l := hostOps4) (hostOps4_inOrder (F := F)) 37 rfl (by decide) (by decide) (W28 m ρ c)
theorem kst_main_c_71 (c : Dev nD) :
    W29 m ρ c (Proc.devRef .tc main_c_71) = (constantI S_ 32 0#32) := by
  rw [kept28 m ρ c main_c_71 (by decide)]
  exact Cert.Lib.ReadFinal.nullary (l := hostOps4) (hostOps4_inOrder (F := F)) 38 rfl (by decide) (W28 m ρ c)
theorem kst_main_v289 (c : Dev nD) :
    W29 m ρ c (Proc.devRef .tc main_v289) = (broadcastInDim S65536 ![] bcast_S_S65536 : (⟨S_, .i32⟩ : BufTy).Contents (Elt F) → (⟨S65536, .i32⟩ : BufTy).Contents (Elt F)) (W29 m ρ c (Proc.devRef .tc main_c_71)) := by
  rw [kept28 m ρ c main_v289 (by decide), kept28 m ρ c main_c_71 (by decide)]
  exact Cert.Lib.ReadFinal.unary (l := hostOps4) (hostOps4_inOrder (F := F)) 39 rfl (by decide) (by decide) (W28 m ρ c)
theorem kst_main_v290 (c : Dev nD) :
    W29 m ρ c (Proc.devRef .tc main_v290) = (cmpi .slt : (⟨S65536, .i32⟩ : BufTy).Contents (Elt F) → (⟨S65536, .i32⟩ : BufTy).Contents (Elt F) → (⟨S65536, .i1⟩ : BufTy).Contents (Elt F)) (W29 m ρ c (Proc.devRef .tc main_arg8)) (W29 m ρ c (Proc.devRef .tc main_v289)) := by
  rw [kept28 m ρ c main_v290 (by decide), kept28 m ρ c main_arg8 (by decide), kept28 m ρ c main_v289 (by decide)]
  exact Cert.Lib.ReadFinal.binary (l := hostOps4) (hostOps4_inOrder (F := F)) 40 rfl (by decide) (by decide) (by decide) (W28 m ρ c)
theorem kst_main_c_72 (c : Dev nD) :
    W29 m ρ c (Proc.devRef .tc main_c_72) = (constantI S_ 32 4096#32) := by
  rw [kept28 m ρ c main_c_72 (by decide)]
  exact Cert.Lib.ReadFinal.nullary (l := hostOps4) (hostOps4_inOrder (F := F)) 41 rfl (by decide) (W28 m ρ c)
theorem kst_main_v291 (c : Dev nD) :
    W29 m ρ c (Proc.devRef .tc main_v291) = (broadcastInDim S65536 ![] bcast_S_S65536 : (⟨S_, .i32⟩ : BufTy).Contents (Elt F) → (⟨S65536, .i32⟩ : BufTy).Contents (Elt F)) (W29 m ρ c (Proc.devRef .tc main_c_72)) := by
  rw [kept28 m ρ c main_v291 (by decide), kept28 m ρ c main_c_72 (by decide)]
  exact Cert.Lib.ReadFinal.unary (l := hostOps4) (hostOps4_inOrder (F := F)) 42 rfl (by decide) (by decide) (W28 m ρ c)
theorem kst_main_v292 (c : Dev nD) :
    W29 m ρ c (Proc.devRef .tc main_v292) = (addi : (⟨S65536, .i32⟩ : BufTy).Contents (Elt F) → (⟨S65536, .i32⟩ : BufTy).Contents (Elt F) → (⟨S65536, .i32⟩ : BufTy).Contents (Elt F)) (W29 m ρ c (Proc.devRef .tc main_arg8)) (W29 m ρ c (Proc.devRef .tc main_v291)) := by
  rw [kept28 m ρ c main_v292 (by decide), kept28 m ρ c main_arg8 (by decide), kept28 m ρ c main_v291 (by decide)]
  exact Cert.Lib.ReadFinal.binary (l := hostOps4) (hostOps4_inOrder (F := F)) 43 rfl (by decide) (by decide) (by decide) (W28 m ρ c)
theorem kst_main_v293 (c : Dev nD) :
    W29 m ρ c (Proc.devRef .tc main_v293) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (W29 m ρ c (Proc.devRef .tc main_v290)) (W29 m ρ c (Proc.devRef .tc main_v292)) (W29 m ρ c (Proc.devRef .tc main_arg8)) := by
  rw [kept28 m ρ c main_v293 (by decide), kept28 m ρ c main_v290 (by decide), kept28 m ρ c main_v292 (by decide), kept28 m ρ c main_arg8 (by decide)]
  exact Cert.Lib.ReadFinal.ternary (l := hostOps4) (hostOps4_inOrder (F := F)) 44 rfl (by decide) (by decide) (by decide) (by decide) (W28 m ρ c)
theorem kst_main_v294 (c : Dev nD) :
    W29 m ρ c (Proc.devRef .tc main_v294) = (broadcastInDim S65536x1 ![0] bcast_S65536_S65536x1_0 : (⟨S65536, .i32⟩ : BufTy).Contents (Elt F) → (⟨S65536x1, .i32⟩ : BufTy).Contents (Elt F)) (W29 m ρ c (Proc.devRef .tc main_v293)) := by
  rw [kept28 m ρ c main_v294 (by decide), kept28 m ρ c main_v293 (by decide)]
  exact Cert.Lib.ReadFinal.unary (l := hostOps4) (hostOps4_inOrder (F := F)) 45 rfl (by decide) (by decide) (W28 m ρ c)
theorem kst_main_v295 (c : Dev nD) :
    W29 m ρ c (Proc.devRef .tc main_v295) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (W29 m ρ c (Proc.devRef .tc main_v269)) (W29 m ρ c (Proc.devRef .tc main_v294)) := by
  rw [kept28 m ρ c main_v295 (by decide), kept28 m ρ c main_v269 (by decide), kept28 m ρ c main_v294 (by decide)]
  exact Cert.Lib.ReadFinal.binary (l := hostOps4) (hostOps4_inOrder (F := F)) 46 rfl (by decide) (by decide) (by decide) (W28 m ρ c)
theorem kst_main_c_73 (c : Dev nD) :
    W29 m ρ c (Proc.devRef .tc main_c_73) = (constantI S_ 32 0#32) := by
  rw [kept28 m ρ c main_c_73 (by decide)]
  exact Cert.Lib.ReadFinal.nullary (l := hostOps4) (hostOps4_inOrder (F := F)) 47 rfl (by decide) (W28 m ρ c)
theorem kst_main_v296 (c : Dev nD) :
    W29 m ρ c (Proc.devRef .tc main_v296) = (broadcastInDim S65536 ![] bcast_S_S65536 : (⟨S_, .i32⟩ : BufTy).Contents (Elt F) → (⟨S65536, .i32⟩ : BufTy).Contents (Elt F)) (W29 m ρ c (Proc.devRef .tc main_c_73)) := by
  rw [kept28 m ρ c main_v296 (by decide), kept28 m ρ c main_c_73 (by decide)]
  exact Cert.Lib.ReadFinal.unary (l := hostOps4) (hostOps4_inOrder (F := F)) 48 rfl (by decide) (by decide) (W28 m ρ c)
theorem kst_main_v297 (c : Dev nD) :
    W29 m ρ c (Proc.devRef .tc main_v297) = (cmpi .slt : (⟨S65536, .i32⟩ : BufTy).Contents (Elt F) → (⟨S65536, .i32⟩ : BufTy).Contents (Elt F) → (⟨S65536, .i1⟩ : BufTy).Contents (Elt F)) (W29 m ρ c (Proc.devRef .tc main_arg9)) (W29 m ρ c (Proc.devRef .tc main_v296)) := by
  rw [kept28 m ρ c main_v297 (by decide), kept28 m ρ c main_arg9 (by decide), kept28 m ρ c main_v296 (by decide)]
  exact Cert.Lib.ReadFinal.binary (l := hostOps4) (hostOps4_inOrder (F := F)) 49 rfl (by decide) (by decide) (by decide) (W28 m ρ c)
theorem kst_main_c_74 (c : Dev nD) :
    W29 m ρ c (Proc.devRef .tc main_c_74) = (constantI S_ 32 4096#32) := by
  rw [kept28 m ρ c main_c_74 (by decide)]
  exact Cert.Lib.ReadFinal.nullary (l := hostOps4) (hostOps4_inOrder (F := F)) 50 rfl (by decide) (W28 m ρ c)
theorem kst_main_v298 (c : Dev nD) :
    W29 m ρ c (Proc.devRef .tc main_v298) = (broadcastInDim S65536 ![] bcast_S_S65536 : (⟨S_, .i32⟩ : BufTy).Contents (Elt F) → (⟨S65536, .i32⟩ : BufTy).Contents (Elt F)) (W29 m ρ c (Proc.devRef .tc main_c_74)) := by
  rw [kept28 m ρ c main_v298 (by decide), kept28 m ρ c main_c_74 (by decide)]
  exact Cert.Lib.ReadFinal.unary (l := hostOps4) (hostOps4_inOrder (F := F)) 51 rfl (by decide) (by decide) (W28 m ρ c)
theorem kst_main_v299 (c : Dev nD) :
    W29 m ρ c (Proc.devRef .tc main_v299) = (addi : (⟨S65536, .i32⟩ : BufTy).Contents (Elt F) → (⟨S65536, .i32⟩ : BufTy).Contents (Elt F) → (⟨S65536, .i32⟩ : BufTy).Contents (Elt F)) (W29 m ρ c (Proc.devRef .tc main_arg9)) (W29 m ρ c (Proc.devRef .tc main_v298)) := by
  rw [kept28 m ρ c main_v299 (by decide), kept28 m ρ c main_arg9 (by decide), kept28 m ρ c main_v298 (by decide)]
  exact Cert.Lib.ReadFinal.binary (l := hostOps4) (hostOps4_inOrder (F := F)) 52 rfl (by decide) (by decide) (by decide) (W28 m ρ c)
theorem kst_main_v300 (c : Dev nD) :
    W29 m ρ c (Proc.devRef .tc main_v300) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (W29 m ρ c (Proc.devRef .tc main_v297)) (W29 m ρ c (Proc.devRef .tc main_v299)) (W29 m ρ c (Proc.devRef .tc main_arg9)) := by
  rw [kept28 m ρ c main_v300 (by decide), kept28 m ρ c main_v297 (by decide), kept28 m ρ c main_v299 (by decide), kept28 m ρ c main_arg9 (by decide)]
  exact Cert.Lib.ReadFinal.ternary (l := hostOps4) (hostOps4_inOrder (F := F)) 53 rfl (by decide) (by decide) (by decide) (by decide) (W28 m ρ c)
theorem kst_main_v301 (c : Dev nD) :
    W29 m ρ c (Proc.devRef .tc main_v301) = (broadcastInDim S65536x1 ![0] bcast_S65536_S65536x1_0 : (⟨S65536, .i32⟩ : BufTy).Contents (Elt F) → (⟨S65536x1, .i32⟩ : BufTy).Contents (Elt F)) (W29 m ρ c (Proc.devRef .tc main_v300)) := by
  rw [kept28 m ρ c main_v301 (by decide), kept28 m ρ c main_v300 (by decide)]
  exact Cert.Lib.ReadFinal.unary (l := hostOps4) (hostOps4_inOrder (F := F)) 54 rfl (by decide) (by decide) (W28 m ρ c)
theorem kst_main_v302 (c : Dev nD) :
    W29 m ρ c (Proc.devRef .tc main_v302) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (W29 m ρ c (Proc.devRef .tc main_v271)) (W29 m ρ c (Proc.devRef .tc main_v301)) := by
  rw [kept28 m ρ c main_v302 (by decide), kept28 m ρ c main_v271 (by decide), kept28 m ρ c main_v301 (by decide)]
  exact Cert.Lib.ReadFinal.binary (l := hostOps4) (hostOps4_inOrder (F := F)) 55 rfl (by decide) (by decide) (by decide) (W28 m ρ c)
theorem kst_main_v303 (c : Dev nD) :
    W29 m ρ c (Proc.devRef .tc main_v303) = (mulf : (⟨S65536x64, .f32⟩ : BufTy).Contents (Elt F) → (⟨S65536x64, .f32⟩ : BufTy).Contents (Elt F) → (⟨S65536x64, .f32⟩ : BufTy).Contents (Elt F)) (W29 m ρ c (Proc.devRef .tc main_v295)) (W29 m ρ c (Proc.devRef .tc main_v302)) := by
  rw [kept28 m ρ c main_v303 (by decide), kept28 m ρ c main_v295 (by decide), kept28 m ρ c main_v302 (by decide)]
  exact Cert.Lib.ReadFinal.binary (l := hostOps4) (hostOps4_inOrder (F := F)) 56 rfl (by decide) (by decide) (by decide) (W28 m ρ c)
theorem kst_main_cst_75 (c : Dev nD) :
    W29 m ρ c (Proc.devRef .tc main_cst_75) = (constant (F := F) S_ .f32 0x00000000#32) := by
  rw [kept28 m ρ c main_cst_75 (by decide)]
  exact Cert.Lib.ReadFinal.nullary (l := hostOps4) (hostOps4_inOrder (F := F)) 57 rfl (by decide) (W28 m ρ c)
theorem kst_main_v304 (c : Dev nD) :
    W29 m ρ c (Proc.devRef .tc main_v304) = ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (W29 m ρ c (Proc.devRef .tc main_v303)) (W29 m ρ c (Proc.devRef .tc main_cst_75)) := by
  rw [kept28 m ρ c main_v304 (by decide), kept28 m ρ c main_v303 (by decide), kept28 m ρ c main_cst_75 (by decide)]
  exact Cert.Lib.ReadFinal.binary (l := hostOps4) (hostOps4_inOrder (F := F)) 58 rfl (by decide) (by decide) (by decide) (W28 m ρ c)
theorem kst_main_v305 (c : Dev nD) :
    W29 m ρ c (Proc.devRef .tc main_v305) = (broadcastInDim S65536x1 ![0] bcast_S65536_S65536x1_0 : (⟨S65536, .f32⟩ : BufTy).Contents (Elt F) → (⟨S65536x1, .f32⟩ : BufTy).Contents (Elt F)) (W29 m ρ c (Proc.devRef .tc main_v304)) := by
  rw [kept28 m ρ c main_v305 (by decide), kept28 m ρ c main_v304 (by decide)]
  exact Cert.Lib.ReadFinal.unary (l := hostOps4) (hostOps4_inOrder (F := F)) 59 rfl (by decide) (by decide) (W28 m ρ c)

end Cert.KernelIdeal.Hand

end
-- ==== Proof.RefBase.lean ====
/-
  The reference's final buffer contents: the fold of its operations over the launch contents.
-/
import proofs.«110517_j15659450761722_1_alg».proof.Proof.RefFrame
import proofs.«110517_j15659450761722_1_alg».proof.Proof.LibReadFinal

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

/-- What core `c`'s buffers hold when the reference has run. -/
def RW (m : (ℓ : Loc nD τ sig) → Buf (Elt F) ℓ) (c : Dev nD) : Valuation τ sig (Elt F) :=
  after (ops : List (HloOp τ sig (Elt F))) (launchContents m c)

end Cert.Proof.Parts

end
-- ==== Proof.RefStagesA.lean ====
/-
  The reference stage by stage: at the end, the buffer an operation wrote holds that operation's function of what its
  operands hold at the end.
-/
import proofs.«110517_j15659450761722_1_alg».proof.Proof.RefBase

set_option maxRecDepth 16384

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

variable (m : (ℓ : Loc nD τ sig) → Buf (Elt F) ℓ)

theorem rst_main_cst (c : Dev nD) :
    RW m c (Proc.devRef .tc main_cst) = (constant (F := F) S_ .f32 0x3F800000#32) :=
  Cert.Lib.ReadFinal.nullary (l := ops) (ref_inOrder (F := F)) 0 rfl (by decide) (launchContents m c)
theorem rst_main_v0 (c : Dev nD) :
    RW m c (Proc.devRef .tc main_v0) = (broadcastInDim S262144 ![] bcast_S_S262144 : (⟨S_, .f32⟩ : BufTy).Contents (Elt F) → (⟨S262144, .f32⟩ : BufTy).Contents (Elt F)) (RW m c (Proc.devRef .tc main_cst)) :=
  Cert.Lib.ReadFinal.unary (l := ops) (ref_inOrder (F := F)) 1 rfl (by decide) (by decide) (launchContents m c)
theorem rst_main_cst_0 (c : Dev nD) :
    RW m c (Proc.devRef .tc main_cst_0) = (constant (F := F) S_ .f32 0x00000000#32) :=
  Cert.Lib.ReadFinal.nullary (l := ops) (ref_inOrder (F := F)) 2 rfl (by decide) (launchContents m c)
theorem rst_main_v1 (c : Dev nD) :
    RW m c (Proc.devRef .tc main_v1) = (broadcastInDim S4096 ![] bcast_S_S4096 : (⟨S_, .f32⟩ : BufTy).Contents (Elt F) → (⟨S4096, .f32⟩ : BufTy).Contents (Elt F)) (RW m c (Proc.devRef .tc main_cst_0)) :=
  Cert.Lib.ReadFinal.unary (l := ops) (ref_inOrder (F := F)) 3 rfl (by decide) (by decide) (launchContents m c)
theorem rst_main_v2 (c : Dev nD) :
    RW m c (Proc.devRef .tc main_v2) = (broadcastInDim S262144x1 ![0] bcast_S262144_S262144x1_0 : (⟨S262144, .i32⟩ : BufTy).Contents (Elt F) → (⟨S262144x1, .i32⟩ : BufTy).Contents (Elt F)) (RW m c (Proc.devRef .tc main_arg4)) :=
  Cert.Lib.ReadFinal.unary (l := ops) (ref_inOrder (F := F)) 4 rfl (by decide) (by decide) (launchContents m c)
theorem rst_main_v3 (c : Dev nD) :
    RW m c (Proc.devRef .tc main_v3) = ((fun x i u => Host.scatterAdd scatter_S4096_S262144x1_S262144_n_0_0_1 x i u) : (⟨S4096, .f32⟩ : BufTy).Contents (Elt F) → (⟨S262144x1, .i32⟩ : BufTy).Contents (Elt F) → (⟨S262144, .f32⟩ : BufTy).Contents (Elt F) → (⟨S4096, .f32⟩ : BufTy).Contents (Elt F)) (RW m c (Proc.devRef .tc main_v1)) (RW m c (Proc.devRef .tc main_v2)) (RW m c (Proc.devRef .tc main_v0)) :=
  Cert.Lib.ReadFinal.ternary (l := ops) (ref_inOrder (F := F)) 5 rfl (by decide) (by decide) (by decide) (by decide) (launchContents m c)
theorem rst_main_cst_1 (c : Dev nD) :
    RW m c (Proc.devRef .tc main_cst_1) = (constant (F := F) S_ .f32 0x00000000#32) :=
  Cert.Lib.ReadFinal.nullary (l := ops) (ref_inOrder (F := F)) 6 rfl (by decide) (launchContents m c)
theorem rst_main_v4 (c : Dev nD) :
    RW m c (Proc.devRef .tc main_v4) = (broadcastInDim S4096 ![] bcast_S_S4096 : (⟨S_, .f32⟩ : BufTy).Contents (Elt F) → (⟨S4096, .f32⟩ : BufTy).Contents (Elt F)) (RW m c (Proc.devRef .tc main_cst_1)) :=
  Cert.Lib.ReadFinal.unary (l := ops) (ref_inOrder (F := F)) 7 rfl (by decide) (by decide) (launchContents m c)
theorem rst_main_v5 (c : Dev nD) :
    RW m c (Proc.devRef .tc main_v5) = (broadcastInDim S262144x1 ![0] bcast_S262144_S262144x1_0 : (⟨S262144, .i32⟩ : BufTy).Contents (Elt F) → (⟨S262144x1, .i32⟩ : BufTy).Contents (Elt F)) (RW m c (Proc.devRef .tc main_arg5)) :=
  Cert.Lib.ReadFinal.unary (l := ops) (ref_inOrder (F := F)) 8 rfl (by decide) (by decide) (launchContents m c)
theorem rst_main_v6 (c : Dev nD) :
    RW m c (Proc.devRef .tc main_v6) = ((fun x i u => Host.scatterAdd scatter_S4096_S262144x1_S262144_n_0_0_1 x i u) : (⟨S4096, .f32⟩ : BufTy).Contents (Elt F) → (⟨S262144x1, .i32⟩ : BufTy).Contents (Elt F) → (⟨S262144, .f32⟩ : BufTy).Contents (Elt F) → (⟨S4096, .f32⟩ : BufTy).Contents (Elt F)) (RW m c (Proc.devRef .tc main_v4)) (RW m c (Proc.devRef .tc main_v5)) (RW m c (Proc.devRef .tc main_v0)) :=
  Cert.Lib.ReadFinal.ternary (l := ops) (ref_inOrder (F := F)) 9 rfl (by decide) (by decide) (by decide) (by decide) (launchContents m c)
theorem rst_main_cst_2 (c : Dev nD) :
    RW m c (Proc.devRef .tc main_cst_2) = (constant (F := F) S_ .f32 0x3F800000#32) :=
  Cert.Lib.ReadFinal.nullary (l := ops) (ref_inOrder (F := F)) 10 rfl (by decide) (launchContents m c)
theorem rst_main_v7 (c : Dev nD) :
    RW m c (Proc.devRef .tc main_v7) = (broadcastInDim S4096 ![] bcast_S_S4096 : (⟨S_, .f32⟩ : BufTy).Contents (Elt F) → (⟨S4096, .f32⟩ : BufTy).Contents (Elt F)) (RW m c (Proc.devRef .tc main_cst_2)) :=
  Cert.Lib.ReadFinal.unary (l := ops) (ref_inOrder (F := F)) 11 rfl (by decide) (by decide) (launchContents m c)
theorem rst_main_v8 (c : Dev nD) :
    RW m c (Proc.devRef .tc main_v8) = (maximumf : (⟨S4096, .f32⟩ : BufTy).Contents (Elt F) → (⟨S4096, .f32⟩ : BufTy).Contents (Elt F) → (⟨S4096, .f32⟩ : BufTy).Contents (Elt F)) (RW m c (Proc.devRef .tc main_v3)) (RW m c (Proc.devRef .tc main_v7)) :=
  Cert.Lib.ReadFinal.binary (l := ops) (ref_inOrder (F := F)) 12 rfl (by decide) (by decide) (by decide) (launchContents m c)
theorem rst_main_v9 (c : Dev nD) :
    RW m c (Proc.devRef .tc main_v9) = (Host.sqrt : (⟨S4096, .f32⟩ : BufTy).Contents (Elt F) → (⟨S4096, .f32⟩ : BufTy).Contents (Elt F)) (RW m c (Proc.devRef .tc main_v8)) :=
  Cert.Lib.ReadFinal.unary (l := ops) (ref_inOrder (F := F)) 13 rfl (by decide) (by decide) (launchContents m c)
theorem rst_main_cst_3 (c : Dev nD) :
    RW m c (Proc.devRef .tc main_cst_3) = (constant (F := F) S_ .f32 0x3F800000#32) :=
  Cert.Lib.ReadFinal.nullary (l := ops) (ref_inOrder (F := F)) 14 rfl (by decide) (launchContents m c)
theorem rst_main_v10 (c : Dev nD) :
    RW m c (Proc.devRef .tc main_v10) = (broadcastInDim S4096 ![] bcast_S_S4096 : (⟨S_, .f32⟩ : BufTy).Contents (Elt F) → (⟨S4096, .f32⟩ : BufTy).Contents (Elt F)) (RW m c (Proc.devRef .tc main_cst_3)) :=
  Cert.Lib.ReadFinal.unary (l := ops) (ref_inOrder (F := F)) 15 rfl (by decide) (by decide) (launchContents m c)
theorem rst_main_v11 (c : Dev nD) :
    RW m c (Proc.devRef .tc main_v11) = (Host.divf : (⟨S4096, .f32⟩ : BufTy).Contents (Elt F) → (⟨S4096, .f32⟩ : BufTy).Contents (Elt F) → (⟨S4096, .f32⟩ : BufTy).Contents (Elt F)) (RW m c (Proc.devRef .tc main_v10)) (RW m c (Proc.devRef .tc main_v9)) :=
  Cert.Lib.ReadFinal.binary (l := ops) (ref_inOrder (F := F)) 16 rfl (by decide) (by decide) (by decide) (launchContents m c)
theorem rst_main_v12 (c : Dev nD) :
    RW m c (Proc.devRef .tc main_v12) = (broadcastInDim S4096x1 ![0] bcast_S4096_S4096x1_0 : (⟨S4096, .f32⟩ : BufTy).Contents (Elt F) → (⟨S4096x1, .f32⟩ : BufTy).Contents (Elt F)) (RW m c (Proc.devRef .tc main_v11)) :=
  Cert.Lib.ReadFinal.unary (l := ops) (ref_inOrder (F := F)) 17 rfl (by decide) (by decide) (launchContents m c)
theorem rst_main_cst_4 (c : Dev nD) :
    RW m c (Proc.devRef .tc main_cst_4) = (constant (F := F) S_ .f32 0x3F800000#32) :=
  Cert.Lib.ReadFinal.nullary (l := ops) (ref_inOrder (F := F)) 18 rfl (by decide) (launchContents m c)
theorem rst_main_v13 (c : Dev nD) :
    RW m c (Proc.devRef .tc main_v13) = (broadcastInDim S4096 ![] bcast_S_S4096 : (⟨S_, .f32⟩ : BufTy).Contents (Elt F) → (⟨S4096, .f32⟩ : BufTy).Contents (Elt F)) (RW m c (Proc.devRef .tc main_cst_4)) :=
  Cert.Lib.ReadFinal.unary (l := ops) (ref_inOrder (F := F)) 19 rfl (by decide) (by decide) (launchContents m c)
theorem rst_main_v14 (c : Dev nD) :
    RW m c (Proc.devRef .tc main_v14) = (maximumf : (⟨S4096, .f32⟩ : BufTy).Contents (Elt F) → (⟨S4096, .f32⟩ : BufTy).Contents (Elt F) → (⟨S4096, .f32⟩ : BufTy).Contents (Elt F)) (RW m c (Proc.devRef .tc main_v6)) (RW m c (Proc.devRef .tc main_v13)) :=
  Cert.Lib.ReadFinal.binary (l := ops) (ref_inOrder (F := F)) 20 rfl (by decide) (by decide) (by decide) (launchContents m c)
theorem rst_main_v15 (c : Dev nD) :
    RW m c (Proc.devRef .tc main_v15) = (Host.sqrt : (⟨S4096, .f32⟩ : BufTy).Contents (Elt F) → (⟨S4096, .f32⟩ : BufTy).Contents (Elt F)) (RW m c (Proc.devRef .tc main_v14)) :=
  Cert.Lib.ReadFinal.unary (l := ops) (ref_inOrder (F := F)) 21 rfl (by decide) (by decide) (launchContents m c)
theorem rst_main_cst_5 (c : Dev nD) :
    RW m c (Proc.devRef .tc main_cst_5) = (constant (F := F) S_ .f32 0x3F800000#32) :=
  Cert.Lib.ReadFinal.nullary (l := ops) (ref_inOrder (F := F)) 22 rfl (by decide) (launchContents m c)
theorem rst_main_v16 (c : Dev nD) :
    RW m c (Proc.devRef .tc main_v16) = (broadcastInDim S4096 ![] bcast_S_S4096 : (⟨S_, .f32⟩ : BufTy).Contents (Elt F) → (⟨S4096, .f32⟩ : BufTy).Contents (Elt F)) (RW m c (Proc.devRef .tc main_cst_5)) :=
  Cert.Lib.ReadFinal.unary (l := ops) (ref_inOrder (F := F)) 23 rfl (by decide) (by decide) (launchContents m c)
theorem rst_main_v17 (c : Dev nD) :
    RW m c (Proc.devRef .tc main_v17) = (Host.divf : (⟨S4096, .f32⟩ : BufTy).Contents (Elt F) → (⟨S4096, .f32⟩ : BufTy).Contents (Elt F) → (⟨S4096, .f32⟩ : BufTy).Contents (Elt F)) (RW m c (Proc.devRef .tc main_v16)) (RW m c (Proc.devRef .tc main_v15)) :=
  Cert.Lib.ReadFinal.binary (l := ops) (ref_inOrder (F := F)) 24 rfl (by decide) (by decide) (by decide) (launchContents m c)
theorem rst_main_v18 (c : Dev nD) :
    RW m c (Proc.devRef .tc main_v18) = (broadcastInDim S4096x1 ![0] bcast_S4096_S4096x1_0 : (⟨S4096, .f32⟩ : BufTy).Contents (Elt F) → (⟨S4096x1, .f32⟩ : BufTy).Contents (Elt F)) (RW m c (Proc.devRef .tc main_v17)) :=
  Cert.Lib.ReadFinal.unary (l := ops) (ref_inOrder (F := F)) 25 rfl (by decide) (by decide) (launchContents m c)
theorem rst_main_c (c : Dev nD) :
    RW m c (Proc.devRef .tc main_c) = (constantI S_ 32 0#32) :=
  Cert.Lib.ReadFinal.nullary (l := ops) (ref_inOrder (F := F)) 26 rfl (by decide) (launchContents m c)
theorem rst_main_v19 (c : Dev nD) :
    RW m c (Proc.devRef .tc main_v19) = (broadcastInDim S4096 ![] bcast_S_S4096 : (⟨S_, .i32⟩ : BufTy).Contents (Elt F) → (⟨S4096, .i32⟩ : BufTy).Contents (Elt F)) (RW m c (Proc.devRef .tc main_c)) :=
  Cert.Lib.ReadFinal.unary (l := ops) (ref_inOrder (F := F)) 27 rfl (by decide) (by decide) (launchContents m c)
theorem rst_main_v20 (c : Dev nD) :
    RW m c (Proc.devRef .tc main_v20) = (cmpi .slt : (⟨S4096, .i32⟩ : BufTy).Contents (Elt F) → (⟨S4096, .i32⟩ : BufTy).Contents (Elt F) → (⟨S4096, .i1⟩ : BufTy).Contents (Elt F)) (RW m c (Proc.devRef .tc main_arg10)) (RW m c (Proc.devRef .tc main_v19)) :=
  Cert.Lib.ReadFinal.binary (l := ops) (ref_inOrder (F := F)) 28 rfl (by decide) (by decide) (by decide) (launchContents m c)
theorem rst_main_c_6 (c : Dev nD) :
    RW m c (Proc.devRef .tc main_c_6) = (constantI S_ 32 50000#32) :=
  Cert.Lib.ReadFinal.nullary (l := ops) (ref_inOrder (F := F)) 29 rfl (by decide) (launchContents m c)
theorem rst_main_v21 (c : Dev nD) :
    RW m c (Proc.devRef .tc main_v21) = (broadcastInDim S4096 ![] bcast_S_S4096 : (⟨S_, .i32⟩ : BufTy).Contents (Elt F) → (⟨S4096, .i32⟩ : BufTy).Contents (Elt F)) (RW m c (Proc.devRef .tc main_c_6)) :=
  Cert.Lib.ReadFinal.unary (l := ops) (ref_inOrder (F := F)) 30 rfl (by decide) (by decide) (launchContents m c)
theorem rst_main_v22 (c : Dev nD) :
    RW m c (Proc.devRef .tc main_v22) = (addi : (⟨S4096, .i32⟩ : BufTy).Contents (Elt F) → (⟨S4096, .i32⟩ : BufTy).Contents (Elt F) → (⟨S4096, .i32⟩ : BufTy).Contents (Elt F)) (RW m c (Proc.devRef .tc main_arg10)) (RW m c (Proc.devRef .tc main_v21)) :=
  Cert.Lib.ReadFinal.binary (l := ops) (ref_inOrder (F := F)) 31 rfl (by decide) (by decide) (by decide) (launchContents m c)
theorem rst_main_v23 (c : Dev nD) :
    RW m c (Proc.devRef .tc main_v23) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v20)) (RW m c (Proc.devRef .tc main_v22)) (RW m c (Proc.devRef .tc main_arg10)) :=
  Cert.Lib.ReadFinal.ternary (l := ops) (ref_inOrder (F := F)) 32 rfl (by decide) (by decide) (by decide) (by decide) (launchContents m c)
theorem rst_main_v24 (c : Dev nD) :
    RW m c (Proc.devRef .tc main_v24) = (broadcastInDim S4096x1 ![0] bcast_S4096_S4096x1_0 : (⟨S4096, .i32⟩ : BufTy).Contents (Elt F) → (⟨S4096x1, .i32⟩ : BufTy).Contents (Elt F)) (RW m c (Proc.devRef .tc main_v23)) :=
  Cert.Lib.ReadFinal.unary (l := ops) (ref_inOrder (F := F)) 33 rfl (by decide) (by decide) (launchContents m c)
theorem rst_main_v25 (c : Dev nD) :
    RW m c (Proc.devRef .tc main_v25) = ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)) (RW m c (Proc.devRef .tc main_arg0)) (RW m c (Proc.devRef .tc main_v24)) :=
  Cert.Lib.ReadFinal.binary (l := ops) (ref_inOrder (F := F)) 34 rfl (by decide) (by decide) (by decide) (launchContents m c)
theorem rst_main_c_7 (c : Dev nD) :
    RW m c (Proc.devRef .tc main_c_7) = (constantI S_ 32 0#32) :=
  Cert.Lib.ReadFinal.nullary (l := ops) (ref_inOrder (F := F)) 35 rfl (by decide) (launchContents m c)
theorem rst_main_v26 (c : Dev nD) :
    RW m c (Proc.devRef .tc main_v26) = (broadcastInDim S4096 ![] bcast_S_S4096 : (⟨S_, .i32⟩ : BufTy).Contents (Elt F) → (⟨S4096, .i32⟩ : BufTy).Contents (Elt F)) (RW m c (Proc.devRef .tc main_c_7)) :=
  Cert.Lib.ReadFinal.unary (l := ops) (ref_inOrder (F := F)) 36 rfl (by decide) (by decide) (launchContents m c)
theorem rst_main_v27 (c : Dev nD) :
    RW m c (Proc.devRef .tc main_v27) = (cmpi .slt : (⟨S4096, .i32⟩ : BufTy).Contents (Elt F) → (⟨S4096, .i32⟩ : BufTy).Contents (Elt F) → (⟨S4096, .i1⟩ : BufTy).Contents (Elt F)) (RW m c (Proc.devRef .tc main_arg11)) (RW m c (Proc.devRef .tc main_v26)) :=
  Cert.Lib.ReadFinal.binary (l := ops) (ref_inOrder (F := F)) 37 rfl (by decide) (by decide) (by decide) (launchContents m c)
theorem rst_main_c_8 (c : Dev nD) :
    RW m c (Proc.devRef .tc main_c_8) = (constantI S_ 32 25000#32) :=
  Cert.Lib.ReadFinal.nullary (l := ops) (ref_inOrder (F := F)) 38 rfl (by decide) (launchContents m c)
theorem rst_main_v28 (c : Dev nD) :
    RW m c (Proc.devRef .tc main_v28) = (broadcastInDim S4096 ![] bcast_S_S4096 : (⟨S_, .i32⟩ : BufTy).Contents (Elt F) → (⟨S4096, .i32⟩ : BufTy).Contents (Elt F)) (RW m c (Proc.devRef .tc main_c_8)) :=
  Cert.Lib.ReadFinal.unary (l := ops) (ref_inOrder (F := F)) 39 rfl (by decide) (by decide) (launchContents m c)
theorem rst_main_v29 (c : Dev nD) :
    RW m c (Proc.devRef .tc main_v29) = (addi : (⟨S4096, .i32⟩ : BufTy).Contents (Elt F) → (⟨S4096, .i32⟩ : BufTy).Contents (Elt F) → (⟨S4096, .i32⟩ : BufTy).Contents (Elt F)) (RW m c (Proc.devRef .tc main_arg11)) (RW m c (Proc.devRef .tc main_v28)) :=
  Cert.Lib.ReadFinal.binary (l := ops) (ref_inOrder (F := F)) 40 rfl (by decide) (by decide) (by decide) (launchContents m c)
theorem rst_main_v30 (c : Dev nD) :
    RW m c (Proc.devRef .tc main_v30) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v27)) (RW m c (Proc.devRef .tc main_v29)) (RW m c (Proc.devRef .tc main_arg11)) :=
  Cert.Lib.ReadFinal.ternary (l := ops) (ref_inOrder (F := F)) 41 rfl (by decide) (by decide) (by decide) (by decide) (launchContents m c)
theorem rst_main_v31 (c : Dev nD) :
    RW m c (Proc.devRef .tc main_v31) = (broadcastInDim S4096x1 ![0] bcast_S4096_S4096x1_0 : (⟨S4096, .i32⟩ : BufTy).Contents (Elt F) → (⟨S4096x1, .i32⟩ : BufTy).Contents (Elt F)) (RW m c (Proc.devRef .tc main_v30)) :=
  Cert.Lib.ReadFinal.unary (l := ops) (ref_inOrder (F := F)) 42 rfl (by decide) (by decide) (launchContents m c)
theorem rst_main_v32 (c : Dev nD) :
    RW m c (Proc.devRef .tc main_v32) = ((fun x i => Host.gather gather_S25000x64_S4096x1_S4096x64_1_0_n_n_0_1_164 x i) : (⟨S25000x64, .f32⟩ : BufTy).Contents (Elt F) → (⟨S4096x1, .i32⟩ : BufTy).Contents (Elt F) → (⟨S4096x64, .f32⟩ : BufTy).Contents (Elt F)) (RW m c (Proc.devRef .tc main_arg1)) (RW m c (Proc.devRef .tc main_v31)) :=
  Cert.Lib.ReadFinal.binary (l := ops) (ref_inOrder (F := F)) 43 rfl (by decide) (by decide) (by decide) (launchContents m c)
theorem rst_main_v33 (c : Dev nD) :
    RW m c (Proc.devRef .tc main_v33) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 44 rfl (by decide) (by decide) (launchContents m c)
theorem rst_main_v34 (c : Dev nD) :
    RW m c (Proc.devRef .tc main_v34) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v25)) (RW m c (Proc.devRef .tc main_v33)) :=
  Cert.Lib.ReadFinal.binary (l := ops) (ref_inOrder (F := F)) 45 rfl (by decide) (by decide) (by decide) (launchContents m c)
theorem rst_main_c_9 (c : Dev nD) :
    RW m c (Proc.devRef .tc main_c_9) = (constantI S_ 32 0#32) :=
  Cert.Lib.ReadFinal.nullary (l := ops) (ref_inOrder (F := F)) 46 rfl (by decide) (launchContents m c)
theorem rst_main_v35 (c : Dev nD) :
    RW m c (Proc.devRef .tc main_v35) = (broadcastInDim S262144 ![] bcast_S_S262144 : (⟨S_, .i32⟩ : BufTy).Contents (Elt F) → (⟨S262144, .i32⟩ : BufTy).Contents (Elt F)) (RW m c (Proc.devRef .tc main_c_9)) :=
  Cert.Lib.ReadFinal.unary (l := ops) (ref_inOrder (F := F)) 47 rfl (by decide) (by decide) (launchContents m c)
theorem rst_main_v36 (c : Dev nD) :
    RW m c (Proc.devRef .tc main_v36) = (cmpi .slt : (⟨S262144, .i32⟩ : BufTy).Contents (Elt F) → (⟨S262144, .i32⟩ : BufTy).Contents (Elt F) → (⟨S262144, .i1⟩ : BufTy).Contents (Elt F)) (RW m c (Proc.devRef .tc main_arg4)) (RW m c (Proc.devRef .tc main_v35)) :=
  Cert.Lib.ReadFinal.binary (l := ops) (ref_inOrder (F := F)) 48 rfl (by decide) (by decide) (by decide) (launchContents m c)
theorem rst_main_c_10 (c : Dev nD) :
    RW m c (Proc.devRef .tc main_c_10) = (constantI S_ 32 4096#32) :=
  Cert.Lib.ReadFinal.nullary (l := ops) (ref_inOrder (F := F)) 49 rfl (by decide) (launchContents m c)
theorem rst_main_v37 (c : Dev nD) :
    RW m c (Proc.devRef .tc main_v37) = (broadcastInDim S262144 ![] bcast_S_S262144 : (⟨S_, .i32⟩ : BufTy).Contents (Elt F) → (⟨S262144, .i32⟩ : BufTy).Contents (Elt F)) (RW m c (Proc.devRef .tc main_c_10)) :=
  Cert.Lib.ReadFinal.unary (l := ops) (ref_inOrder (F := F)) 50 rfl (by decide) (by decide) (launchContents m c)
theorem rst_main_v38 (c : Dev nD) :
    RW m c (Proc.devRef .tc main_v38) = (addi : (⟨S262144, .i32⟩ : BufTy).Contents (Elt F) → (⟨S262144, .i32⟩ : BufTy).Contents (Elt F) → (⟨S262144, .i32⟩ : BufTy).Contents (Elt F)) (RW m c (Proc.devRef .tc main_arg4)) (RW m c (Proc.devRef .tc main_v37)) :=
  Cert.Lib.ReadFinal.binary (l := ops) (ref_inOrder (F := F)) 51 rfl (by decide) (by decide) (by decide) (launchContents m c)
theorem rst_main_v39 (c : Dev nD) :
    RW m c (Proc.devRef .tc main_v39) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v36)) (RW m c (Proc.devRef .tc main_v38)) (RW m c (Proc.devRef .tc main_arg4)) :=
  Cert.Lib.ReadFinal.ternary (l := ops) (ref_inOrder (F := F)) 52 rfl (by decide) (by decide) (by decide) (by decide) (launchContents m c)
theorem rst_main_v40 (c : Dev nD) :
    RW m c (Proc.devRef .tc main_v40) = (broadcastInDim S262144x1 ![0] bcast_S262144_S262144x1_0 : (⟨S262144, .i32⟩ : BufTy).Contents (Elt F) → (⟨S262144x1, .i32⟩ : BufTy).Contents (Elt F)) (RW m c (Proc.devRef .tc main_v39)) :=
  Cert.Lib.ReadFinal.unary (l := ops) (ref_inOrder (F := F)) 53 rfl (by decide) (by decide) (launchContents m c)
theorem rst_main_v41 (c : Dev nD) :
    RW m c (Proc.devRef .tc main_v41) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v34)) (RW m c (Proc.devRef .tc main_v40)) :=
  Cert.Lib.ReadFinal.binary (l := ops) (ref_inOrder (F := F)) 54 rfl (by decide) (by decide) (by decide) (launchContents m c)
theorem rst_main_v42 (c : Dev nD) :
    RW m c (Proc.devRef .tc main_v42) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 55 rfl (by decide) (by decide) (launchContents m c)
theorem rst_main_v43 (c : Dev nD) :
    RW m c (Proc.devRef .tc main_v43) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v32)) (RW m c (Proc.devRef .tc main_v42)) :=
  Cert.Lib.ReadFinal.binary (l := ops) (ref_inOrder (F := F)) 56 rfl (by decide) (by decide) (by decide) (launchContents m c)
theorem rst_main_c_11 (c : Dev nD) :
    RW m c (Proc.devRef .tc main_c_11) = (constantI S_ 32 0#32) :=
  Cert.Lib.ReadFinal.nullary (l := ops) (ref_inOrder (F := F)) 57 rfl (by decide) (launchContents m c)
theorem rst_main_v44 (c : Dev nD) :
    RW m c (Proc.devRef .tc main_v44) = (broadcastInDim S262144 ![] bcast_S_S262144 : (⟨S_, .i32⟩ : BufTy).Contents (Elt F) → (⟨S262144, .i32⟩ : BufTy).Contents (Elt F)) (RW m c (Proc.devRef .tc main_c_11)) :=
  Cert.Lib.ReadFinal.unary (l := ops) (ref_inOrder (F := F)) 58 rfl (by decide) (by decide) (launchContents m c)
theorem rst_main_v45 (c : Dev nD) :
    RW m c (Proc.devRef .tc main_v45) = (cmpi .slt : (⟨S262144, .i32⟩ : BufTy).Contents (Elt F) → (⟨S262144, .i32⟩ : BufTy).Contents (Elt F) → (⟨S262144, .i1⟩ : BufTy).Contents (Elt F)) (RW m c (Proc.devRef .tc main_arg5)) (RW m c (Proc.devRef .tc main_v44)) :=
  Cert.Lib.ReadFinal.binary (l := ops) (ref_inOrder (F := F)) 59 rfl (by decide) (by decide) (by decide) (launchContents m c)
theorem rst_main_c_12 (c : Dev nD) :
    RW m c (Proc.devRef .tc main_c_12) = (constantI S_ 32 4096#32) :=
  Cert.Lib.ReadFinal.nullary (l := ops) (ref_inOrder (F := F)) 60 rfl (by decide) (launchContents m c)
theorem rst_main_v46 (c : Dev nD) :
    RW m c (Proc.devRef .tc main_v46) = (broadcastInDim S262144 ![] bcast_S_S262144 : (⟨S_, .i32⟩ : BufTy).Contents (Elt F) → (⟨S262144, .i32⟩ : BufTy).Contents (Elt F)) (RW m c (Proc.devRef .tc main_c_12)) :=
  Cert.Lib.ReadFinal.unary (l := ops) (ref_inOrder (F := F)) 61 rfl (by decide) (by decide) (launchContents m c)
theorem rst_main_v47 (c : Dev nD) :
    RW m c (Proc.devRef .tc main_v47) = (addi : (⟨S262144, .i32⟩ : BufTy).Contents (Elt F) → (⟨S262144, .i32⟩ : BufTy).Contents (Elt F) → (⟨S262144, .i32⟩ : BufTy).Contents (Elt F)) (RW m c (Proc.devRef .tc main_arg5)) (RW m c (Proc.devRef .tc main_v46)) :=
  Cert.Lib.ReadFinal.binary (l := ops) (ref_inOrder (F := F)) 62 rfl (by decide) (by decide) (by decide) (launchContents m c)
theorem rst_main_v48 (c : Dev nD) :
    RW m c (Proc.devRef .tc main_v48) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v45)) (RW m c (Proc.devRef .tc main_v47)) (RW m c (Proc.devRef .tc main_arg5)) :=
  Cert.Lib.ReadFinal.ternary (l := ops) (ref_inOrder (F := F)) 63 rfl (by decide) (by decide) (by decide) (by decide) (launchContents m c)
theorem rst_main_v49 (c : Dev nD) :
    RW m c (Proc.devRef .tc main_v49) = (broadcastInDim S262144x1 ![0] bcast_S262144_S262144x1_0 : (⟨S262144, .i32⟩ : BufTy).Contents (Elt F) → (⟨S262144x1, .i32⟩ : BufTy).Contents (Elt F)) (RW m c (Proc.devRef .tc main_v48)) :=
  Cert.Lib.ReadFinal.unary (l := ops) (ref_inOrder (F := F)) 64 rfl (by decide) (by decide) (launchContents m c)
theorem rst_main_v50 (c : Dev nD) :
    RW m c (Proc.devRef .tc main_v50) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v43)) (RW m c (Proc.devRef .tc main_v49)) :=
  Cert.Lib.ReadFinal.binary (l := ops) (ref_inOrder (F := F)) 65 rfl (by decide) (by decide) (by decide) (launchContents m c)
theorem rst_main_cst_13 (c : Dev nD) :
    RW m c (Proc.devRef .tc main_cst_13) = (constant (F := F) S_ .f32 0x00000000#32) :=
  Cert.Lib.ReadFinal.nullary (l := ops) (ref_inOrder (F := F)) 66 rfl (by decide) (launchContents m c)
theorem rst_main_v51 (c : Dev nD) :
    RW m c (Proc.devRef .tc main_v51) = (broadcastInDim S4096x64 ![] bcast_S_S4096x64 : (⟨S_, .f32⟩ : BufTy).Contents (Elt F) → (⟨S4096x64, .f32⟩ : BufTy).Contents (Elt F)) (RW m c (Proc.devRef .tc main_cst_13)) :=
  Cert.Lib.ReadFinal.unary (l := ops) (ref_inOrder (F := F)) 67 rfl (by decide) (by decide) (launchContents m c)
theorem rst_main_v52 (c : Dev nD) :
    RW m c (Proc.devRef .tc main_v52) = (broadcastInDim S262144x1 ![0] bcast_S262144_S262144x1_0 : (⟨S262144, .i32⟩ : BufTy).Contents (Elt F) → (⟨S262144x1, .i32⟩ : BufTy).Contents (Elt F)) (RW m c (Proc.devRef .tc main_arg5)) :=
  Cert.Lib.ReadFinal.unary (l := ops) (ref_inOrder (F := F)) 68 rfl (by decide) (by decide) (launchContents m c)
theorem rst_main_v53 (c : Dev nD) :
    RW m c (Proc.devRef .tc main_v53) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v51)) (RW m c (Proc.devRef .tc main_v52)) (RW m c (Proc.devRef .tc main_v41)) :=
  Cert.Lib.ReadFinal.ternary (l := ops) (ref_inOrder (F := F)) 69 rfl (by decide) (by decide) (by decide) (by decide) (launchContents m c)
theorem rst_main_v54 (c : Dev nD) :
    RW m c (Proc.devRef .tc main_v54) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 70 rfl (by decide) (by decide) (launchContents m c)
theorem rst_main_v55 (c : Dev nD) :
    RW m c (Proc.devRef .tc main_v55) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v53)) (RW m c (Proc.devRef .tc main_v54)) :=
  Cert.Lib.ReadFinal.binary (l := ops) (ref_inOrder (F := F)) 71 rfl (by decide) (by decide) (by decide) (launchContents m c)
theorem rst_main_cst_14 (c : Dev nD) :
    RW m c (Proc.devRef .tc main_cst_14) = (constant (F := F) S_ .f32 0x00000000#32) :=
  Cert.Lib.ReadFinal.nullary (l := ops) (ref_inOrder (F := F)) 72 rfl (by decide) (launchContents m c)
theorem rst_main_v56 (c : Dev nD) :
    RW m c (Proc.devRef .tc main_v56) = (broadcastInDim S4096x64 ![] bcast_S_S4096x64 : (⟨S_, .f32⟩ : BufTy).Contents (Elt F) → (⟨S4096x64, .f32⟩ : BufTy).Contents (Elt F)) (RW m c (Proc.devRef .tc main_cst_14)) :=
  Cert.Lib.ReadFinal.unary (l := ops) (ref_inOrder (F := F)) 73 rfl (by decide) (by decide) (launchContents m c)
theorem rst_main_v57 (c : Dev nD) :
    RW m c (Proc.devRef .tc main_v57) = (broadcastInDim S262144x1 ![0] bcast_S262144_S262144x1_0 : (⟨S262144, .i32⟩ : BufTy).Contents (Elt F) → (⟨S262144x1, .i32⟩ : BufTy).Contents (Elt F)) (RW m c (Proc.devRef .tc main_arg4)) :=
  Cert.Lib.ReadFinal.unary (l := ops) (ref_inOrder (F := F)) 74 rfl (by decide) (by decide) (launchContents m c)
theorem rst_main_v58 (c : Dev nD) :
    RW m c (Proc.devRef .tc main_v58) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v56)) (RW m c (Proc.devRef .tc main_v57)) (RW m c (Proc.devRef .tc main_v50)) :=
  Cert.Lib.ReadFinal.ternary (l := ops) (ref_inOrder (F := F)) 75 rfl (by decide) (by decide) (by decide) (by decide) (launchContents m c)
theorem rst_main_v59 (c : Dev nD) :
    RW m c (Proc.devRef .tc main_v59) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 76 rfl (by decide) (by decide) (launchContents m c)
theorem rst_main_v60 (c : Dev nD) :
    RW m c (Proc.devRef .tc main_v60) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v58)) (RW m c (Proc.devRef .tc main_v59)) :=
  Cert.Lib.ReadFinal.binary (l := ops) (ref_inOrder (F := F)) 77 rfl (by decide) (by decide) (by decide) (launchContents m c)
theorem rst_main_v61 (c : Dev nD) :
    RW m c (Proc.devRef .tc main_v61) = (addf : (⟨S4096x64, .f32⟩ : BufTy).Contents (Elt F) → (⟨S4096x64, .f32⟩ : BufTy).Contents (Elt F) → (⟨S4096x64, .f32⟩ : BufTy).Contents (Elt F)) (RW m c (Proc.devRef .tc main_v25)) (RW m c (Proc.devRef .tc main_v60)) :=
  Cert.Lib.ReadFinal.binary (l := ops) (ref_inOrder (F := F)) 78 rfl (by decide) (by decide) (by decide) (launchContents m c)
theorem rst_main_v62 (c : Dev nD) :
    RW m c (Proc.devRef .tc main_v62) = (addf : (⟨S4096x64, .f32⟩ : BufTy).Contents (Elt F) → (⟨S4096x64, .f32⟩ : BufTy).Contents (Elt F) → (⟨S4096x64, .f32⟩ : BufTy).Contents (Elt F)) (RW m c (Proc.devRef .tc main_v32)) (RW m c (Proc.devRef .tc main_v55)) :=
  Cert.Lib.ReadFinal.binary (l := ops) (ref_inOrder (F := F)) 79 rfl (by decide) (by decide) (by decide) (launchContents m c)
theorem rst_main_v63 (c : Dev nD) :
    RW m c (Proc.devRef .tc main_v63) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 80 rfl (by decide) (by decide) (launchContents m c)
theorem rst_main_v64 (c : Dev nD) :
    RW m c (Proc.devRef .tc main_v64) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v60)) (RW m c (Proc.devRef .tc main_v63)) :=
  Cert.Lib.ReadFinal.binary (l := ops) (ref_inOrder (F := F)) 81 rfl (by decide) (by decide) (by decide) (launchContents m c)
theorem rst_main_c_15 (c : Dev nD) :
    RW m c (Proc.devRef .tc main_c_15) = (constantI S_ 32 0#32) :=
  Cert.Lib.ReadFinal.nullary (l := ops) (ref_inOrder (F := F)) 82 rfl (by decide) (launchContents m c)
theorem rst_main_v65 (c : Dev nD) :
    RW m c (Proc.devRef .tc main_v65) = (broadcastInDim S262144 ![] bcast_S_S262144 : (⟨S_, .i32⟩ : BufTy).Contents (Elt F) → (⟨S262144, .i32⟩ : BufTy).Contents (Elt F)) (RW m c (Proc.devRef .tc main_c_15)) :=
  Cert.Lib.ReadFinal.unary (l := ops) (ref_inOrder (F := F)) 83 rfl (by decide) (by decide) (launchContents m c)
theorem rst_main_v66 (c : Dev nD) :
    RW m c (Proc.devRef .tc main_v66) = (cmpi .slt : (⟨S262144, .i32⟩ : BufTy).Contents (Elt F) → (⟨S262144, .i32⟩ : BufTy).Contents (Elt F) → (⟨S262144, .i1⟩ : BufTy).Contents (Elt F)) (RW m c (Proc.devRef .tc main_arg4)) (RW m c (Proc.devRef .tc main_v65)) :=
  Cert.Lib.ReadFinal.binary (l := ops) (ref_inOrder (F := F)) 84 rfl (by decide) (by decide) (by decide) (launchContents m c)
theorem rst_main_c_16 (c : Dev nD) :
    RW m c (Proc.devRef .tc main_c_16) = (constantI S_ 32 4096#32) :=
  Cert.Lib.ReadFinal.nullary (l := ops) (ref_inOrder (F := F)) 85 rfl (by decide) (launchContents m c)
theorem rst_main_v67 (c : Dev nD) :
    RW m c (Proc.devRef .tc main_v67) = (broadcastInDim S262144 ![] bcast_S_S262144 : (⟨S_, .i32⟩ : BufTy).Contents (Elt F) → (⟨S262144, .i32⟩ : BufTy).Contents (Elt F)) (RW m c (Proc.devRef .tc main_c_16)) :=
  Cert.Lib.ReadFinal.unary (l := ops) (ref_inOrder (F := F)) 86 rfl (by decide) (by decide) (launchContents m c)
theorem rst_main_v68 (c : Dev nD) :
    RW m c (Proc.devRef .tc main_v68) = (addi : (⟨S262144, .i32⟩ : BufTy).Contents (Elt F) → (⟨S262144, .i32⟩ : BufTy).Contents (Elt F) → (⟨S262144, .i32⟩ : BufTy).Contents (Elt F)) (RW m c (Proc.devRef .tc main_arg4)) (RW m c (Proc.devRef .tc main_v67)) :=
  Cert.Lib.ReadFinal.binary (l := ops) (ref_inOrder (F := F)) 87 rfl (by decide) (by decide) (by decide) (launchContents m c)
theorem rst_main_v69 (c : Dev nD) :
    RW m c (Proc.devRef .tc main_v69) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v66)) (RW m c (Proc.devRef .tc main_v68)) (RW m c (Proc.devRef .tc main_arg4)) :=
  Cert.Lib.ReadFinal.ternary (l := ops) (ref_inOrder (F := F)) 88 rfl (by decide) (by decide) (by decide) (by decide) (launchContents m c)
theorem rst_main_v70 (c : Dev nD) :
    RW m c (Proc.devRef .tc main_v70) = (broadcastInDim S262144x1 ![0] bcast_S262144_S262144x1_0 : (⟨S262144, .i32⟩ : BufTy).Contents (Elt F) → (⟨S262144x1, .i32⟩ : BufTy).Contents (Elt F)) (RW m c (Proc.devRef .tc main_v69)) :=
  Cert.Lib.ReadFinal.unary (l := ops) (ref_inOrder (F := F)) 89 rfl (by decide) (by decide) (launchContents m c)
theorem rst_main_v71 (c : Dev nD) :
    RW m c (Proc.devRef .tc main_v71) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v64)) (RW m c (Proc.devRef .tc main_v70)) :=
  Cert.Lib.ReadFinal.binary (l := ops) (ref_inOrder (F := F)) 90 rfl (by decide) (by decide) (by decide) (launchContents m c)
theorem rst_main_v72 (c : Dev nD) :
    RW m c (Proc.devRef .tc main_v72) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 91 rfl (by decide) (by decide) (launchContents m c)
theorem rst_main_v73 (c : Dev nD) :
    RW m c (Proc.devRef .tc main_v73) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v55)) (RW m c (Proc.devRef .tc main_v72)) :=
  Cert.Lib.ReadFinal.binary (l := ops) (ref_inOrder (F := F)) 92 rfl (by decide) (by decide) (by decide) (launchContents m c)
theorem rst_main_c_17 (c : Dev nD) :
    RW m c (Proc.devRef .tc main_c_17) = (constantI S_ 32 0#32) :=
  Cert.Lib.ReadFinal.nullary (l := ops) (ref_inOrder (F := F)) 93 rfl (by decide) (launchContents m c)
theorem rst_main_v74 (c : Dev nD) :
    RW m c (Proc.devRef .tc main_v74) = (broadcastInDim S262144 ![] bcast_S_S262144 : (⟨S_, .i32⟩ : BufTy).Contents (Elt F) → (⟨S262144, .i32⟩ : BufTy).Contents (Elt F)) (RW m c (Proc.devRef .tc main_c_17)) :=
  Cert.Lib.ReadFinal.unary (l := ops) (ref_inOrder (F := F)) 94 rfl (by decide) (by decide) (launchContents m c)
theorem rst_main_v75 (c : Dev nD) :
    RW m c (Proc.devRef .tc main_v75) = (cmpi .slt : (⟨S262144, .i32⟩ : BufTy).Contents (Elt F) → (⟨S262144, .i32⟩ : BufTy).Contents (Elt F) → (⟨S262144, .i1⟩ : BufTy).Contents (Elt F)) (RW m c (Proc.devRef .tc main_arg5)) (RW m c (Proc.devRef .tc main_v74)) :=
  Cert.Lib.ReadFinal.binary (l := ops) (ref_inOrder (F := F)) 95 rfl (by decide) (by decide) (by decide) (launchContents m c)
theorem rst_main_c_18 (c : Dev nD) :
    RW m c (Proc.devRef .tc main_c_18) = (constantI S_ 32 4096#32) :=
  Cert.Lib.ReadFinal.nullary (l := ops) (ref_inOrder (F := F)) 96 rfl (by decide) (launchContents m c)
theorem rst_main_v76 (c : Dev nD) :
    RW m c (Proc.devRef .tc main_v76) = (broadcastInDim S262144 ![] bcast_S_S262144 : (⟨S_, .i32⟩ : BufTy).Contents (Elt F) → (⟨S262144, .i32⟩ : BufTy).Contents (Elt F)) (RW m c (Proc.devRef .tc main_c_18)) :=
  Cert.Lib.ReadFinal.unary (l := ops) (ref_inOrder (F := F)) 97 rfl (by decide) (by decide) (launchContents m c)
theorem rst_main_v77 (c : Dev nD) :
    RW m c (Proc.devRef .tc main_v77) = (addi : (⟨S262144, .i32⟩ : BufTy).Contents (Elt F) → (⟨S262144, .i32⟩ : BufTy).Contents (Elt F) → (⟨S262144, .i32⟩ : BufTy).Contents (Elt F)) (RW m c (Proc.devRef .tc main_arg5)) (RW m c (Proc.devRef .tc main_v76)) :=
  Cert.Lib.ReadFinal.binary (l := ops) (ref_inOrder (F := F)) 98 rfl (by decide) (by decide) (by decide) (launchContents m c)
theorem rst_main_v78 (c : Dev nD) :
    RW m c (Proc.devRef .tc main_v78) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v75)) (RW m c (Proc.devRef .tc main_v77)) (RW m c (Proc.devRef .tc main_arg5)) :=
  Cert.Lib.ReadFinal.ternary (l := ops) (ref_inOrder (F := F)) 99 rfl (by decide) (by decide) (by decide) (by decide) (launchContents m c)
theorem rst_main_v79 (c : Dev nD) :
    RW m c (Proc.devRef .tc main_v79) = (broadcastInDim S262144x1 ![0] bcast_S262144_S262144x1_0 : (⟨S262144, .i32⟩ : BufTy).Contents (Elt F) → (⟨S262144x1, .i32⟩ : BufTy).Contents (Elt F)) (RW m c (Proc.devRef .tc main_v78)) :=
  Cert.Lib.ReadFinal.unary (l := ops) (ref_inOrder (F := F)) 100 rfl (by decide) (by decide) (launchContents m c)
theorem rst_main_v80 (c : Dev nD) :
    RW m c (Proc.devRef .tc main_v80) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v73)) (RW m c (Proc.devRef .tc main_v79)) :=
  Cert.Lib.ReadFinal.binary (l := ops) (ref_inOrder (F := F)) 101 rfl (by decide) (by decide) (by decide) (launchContents m c)
theorem rst_main_cst_19 (c : Dev nD) :
    RW m c (Proc.devRef .tc main_cst_19) = (constant (F := F) S_ .f32 0x00000000#32) :=
  Cert.Lib.ReadFinal.nullary (l := ops) (ref_inOrder (F := F)) 102 rfl (by decide) (launchContents m c)
theorem rst_main_v81 (c : Dev nD) :
    RW m c (Proc.devRef .tc main_v81) = (broadcastInDim S4096x64 ![] bcast_S_S4096x64 : (⟨S_, .f32⟩ : BufTy).Contents (Elt F) → (⟨S4096x64, .f32⟩ : BufTy).Contents (Elt F)) (RW m c (Proc.devRef .tc main_cst_19)) :=
  Cert.Lib.ReadFinal.unary (l := ops) (ref_inOrder (F := F)) 103 rfl (by decide) (by decide) (launchContents m c)
theorem rst_main_v82 (c : Dev nD) :
    RW m c (Proc.devRef .tc main_v82) = (broadcastInDim S262144x1 ![0] bcast_S262144_S262144x1_0 : (⟨S262144, .i32⟩ : BufTy).Contents (Elt F) → (⟨S262144x1, .i32⟩ : BufTy).Contents (Elt F)) (RW m c (Proc.devRef .tc main_arg5)) :=
  Cert.Lib.ReadFinal.unary (l := ops) (ref_inOrder (F := F)) 104 rfl (by decide) (by decide) (launchContents m c)
theorem rst_main_v83 (c : Dev nD) :
    RW m c (Proc.devRef .tc main_v83) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v81)) (RW m c (Proc.devRef .tc main_v82)) (RW m c (Proc.devRef .tc main_v71)) :=
  Cert.Lib.ReadFinal.ternary (l := ops) (ref_inOrder (F := F)) 105 rfl (by decide) (by decide) (by decide) (by decide) (launchContents m c)
theorem rst_main_v84 (c : Dev nD) :
    RW m c (Proc.devRef .tc main_v84) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 106 rfl (by decide) (by decide) (launchContents m c)
theorem rst_main_v85 (c : Dev nD) :
    RW m c (Proc.devRef .tc main_v85) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v83)) (RW m c (Proc.devRef .tc main_v84)) :=
  Cert.Lib.ReadFinal.binary (l := ops) (ref_inOrder (F := F)) 107 rfl (by decide) (by decide) (by decide) (launchContents m c)
theorem rst_main_cst_20 (c : Dev nD) :
    RW m c (Proc.devRef .tc main_cst_20) = (constant (F := F) S_ .f32 0x00000000#32) :=
  Cert.Lib.ReadFinal.nullary (l := ops) (ref_inOrder (F := F)) 108 rfl (by decide) (launchContents m c)
theorem rst_main_v86 (c : Dev nD) :
    RW m c (Proc.devRef .tc main_v86) = (broadcastInDim S4096x64 ![] bcast_S_S4096x64 : (⟨S_, .f32⟩ : BufTy).Contents (Elt F) → (⟨S4096x64, .f32⟩ : BufTy).Contents (Elt F)) (RW m c (Proc.devRef .tc main_cst_20)) :=
  Cert.Lib.ReadFinal.unary (l := ops) (ref_inOrder (F := F)) 109 rfl (by decide) (by decide) (launchContents m c)
theorem rst_main_v87 (c : Dev nD) :
    RW m c (Proc.devRef .tc main_v87) = (broadcastInDim S262144x1 ![0] bcast_S262144_S262144x1_0 : (⟨S262144, .i32⟩ : BufTy).Contents (Elt F) → (⟨S262144x1, .i32⟩ : BufTy).Contents (Elt F)) (RW m c (Proc.devRef .tc main_arg4)) :=
  Cert.Lib.ReadFinal.unary (l := ops) (ref_inOrder (F := F)) 110 rfl (by decide) (by decide) (launchContents m c)

end Cert.Proof.Parts

end
-- ==== Proof.RefStagesB.lean ====
/-
  The reference stage by stage: at the end, the buffer an operation wrote holds that operation's function of what its
  operands hold at the end.
-/
import proofs.«110517_j15659450761722_1_alg».proof.Proof.RefBase

set_option maxRecDepth 16384

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

variable (m : (ℓ : Loc nD τ sig) → Buf (Elt F) ℓ)

theorem rst_main_v88 (c : Dev nD) :
    RW m c (Proc.devRef .tc main_v88) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v86)) (RW m c (Proc.devRef .tc main_v87)) (RW m c (Proc.devRef .tc main_v80)) :=
  Cert.Lib.ReadFinal.ternary (l := ops) (ref_inOrder (F := F)) 111 rfl (by decide) (by decide) (by decide) (by decide) (launchContents m c)
theorem rst_main_v89 (c : Dev nD) :
    RW m c (Proc.devRef .tc main_v89) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 112 rfl (by decide) (by decide) (launchContents m c)
theorem rst_main_v90 (c : Dev nD) :
    RW m c (Proc.devRef .tc main_v90) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v88)) (RW m c (Proc.devRef .tc main_v89)) :=
  Cert.Lib.ReadFinal.binary (l := ops) (ref_inOrder (F := F)) 113 rfl (by decide) (by decide) (by decide) (launchContents m c)
theorem rst_main_v91 (c : Dev nD) :
    RW m c (Proc.devRef .tc main_v91) = (addf : (⟨S4096x64, .f32⟩ : BufTy).Contents (Elt F) → (⟨S4096x64, .f32⟩ : BufTy).Contents (Elt F) → (⟨S4096x64, .f32⟩ : BufTy).Contents (Elt F)) (RW m c (Proc.devRef .tc main_v61)) (RW m c (Proc.devRef .tc main_v90)) :=
  Cert.Lib.ReadFinal.binary (l := ops) (ref_inOrder (F := F)) 114 rfl (by decide) (by decide) (by decide) (launchContents m c)
theorem rst_main_v92 (c : Dev nD) :
    RW m c (Proc.devRef .tc main_v92) = (addf : (⟨S4096x64, .f32⟩ : BufTy).Contents (Elt F) → (⟨S4096x64, .f32⟩ : BufTy).Contents (Elt F) → (⟨S4096x64, .f32⟩ : BufTy).Contents (Elt F)) (RW m c (Proc.devRef .tc main_v62)) (RW m c (Proc.devRef .tc main_v85)) :=
  Cert.Lib.ReadFinal.binary (l := ops) (ref_inOrder (F := F)) 115 rfl (by decide) (by decide) (by decide) (launchContents m c)
theorem rst_main_v93 (c : Dev nD) :
    RW m c (Proc.devRef .tc main_v93) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 116 rfl (by decide) (by decide) (launchContents m c)
theorem rst_main_v94 (c : Dev nD) :
    RW m c (Proc.devRef .tc main_v94) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v90)) (RW m c (Proc.devRef .tc main_v93)) :=
  Cert.Lib.ReadFinal.binary (l := ops) (ref_inOrder (F := F)) 117 rfl (by decide) (by decide) (by decide) (launchContents m c)
theorem rst_main_c_21 (c : Dev nD) :
    RW m c (Proc.devRef .tc main_c_21) = (constantI S_ 32 0#32) :=
  Cert.Lib.ReadFinal.nullary (l := ops) (ref_inOrder (F := F)) 118 rfl (by decide) (launchContents m c)
theorem rst_main_v95 (c : Dev nD) :
    RW m c (Proc.devRef .tc main_v95) = (broadcastInDim S262144 ![] bcast_S_S262144 : (⟨S_, .i32⟩ : BufTy).Contents (Elt F) → (⟨S262144, .i32⟩ : BufTy).Contents (Elt F)) (RW m c (Proc.devRef .tc main_c_21)) :=
  Cert.Lib.ReadFinal.unary (l := ops) (ref_inOrder (F := F)) 119 rfl (by decide) (by decide) (launchContents m c)
theorem rst_main_v96 (c : Dev nD) :
    RW m c (Proc.devRef .tc main_v96) = (cmpi .slt : (⟨S262144, .i32⟩ : BufTy).Contents (Elt F) → (⟨S262144, .i32⟩ : BufTy).Contents (Elt F) → (⟨S262144, .i1⟩ : BufTy).Contents (Elt F)) (RW m c (Proc.devRef .tc main_arg4)) (RW m c (Proc.devRef .tc main_v95)) :=
  Cert.Lib.ReadFinal.binary (l := ops) (ref_inOrder (F := F)) 120 rfl (by decide) (by decide) (by decide) (launchContents m c)
theorem rst_main_c_22 (c : Dev nD) :
    RW m c (Proc.devRef .tc main_c_22) = (constantI S_ 32 4096#32) :=
  Cert.Lib.ReadFinal.nullary (l := ops) (ref_inOrder (F := F)) 121 rfl (by decide) (launchContents m c)
theorem rst_main_v97 (c : Dev nD) :
    RW m c (Proc.devRef .tc main_v97) = (broadcastInDim S262144 ![] bcast_S_S262144 : (⟨S_, .i32⟩ : BufTy).Contents (Elt F) → (⟨S262144, .i32⟩ : BufTy).Contents (Elt F)) (RW m c (Proc.devRef .tc main_c_22)) :=
  Cert.Lib.ReadFinal.unary (l := ops) (ref_inOrder (F := F)) 122 rfl (by decide) (by decide) (launchContents m c)
theorem rst_main_v98 (c : Dev nD) :
    RW m c (Proc.devRef .tc main_v98) = (addi : (⟨S262144, .i32⟩ : BufTy).Contents (Elt F) → (⟨S262144, .i32⟩ : BufTy).Contents (Elt F) → (⟨S262144, .i32⟩ : BufTy).Contents (Elt F)) (RW m c (Proc.devRef .tc main_arg4)) (RW m c (Proc.devRef .tc main_v97)) :=
  Cert.Lib.ReadFinal.binary (l := ops) (ref_inOrder (F := F)) 123 rfl (by decide) (by decide) (by decide) (launchContents m c)
theorem rst_main_v99 (c : Dev nD) :
    RW m c (Proc.devRef .tc main_v99) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v96)) (RW m c (Proc.devRef .tc main_v98)) (RW m c (Proc.devRef .tc main_arg4)) :=
  Cert.Lib.ReadFinal.ternary (l := ops) (ref_inOrder (F := F)) 124 rfl (by decide) (by decide) (by decide) (by decide) (launchContents m c)
theorem rst_main_v100 (c : Dev nD) :
    RW m c (Proc.devRef .tc main_v100) = (broadcastInDim S262144x1 ![0] bcast_S262144_S262144x1_0 : (⟨S262144, .i32⟩ : BufTy).Contents (Elt F) → (⟨S262144x1, .i32⟩ : BufTy).Contents (Elt F)) (RW m c (Proc.devRef .tc main_v99)) :=
  Cert.Lib.ReadFinal.unary (l := ops) (ref_inOrder (F := F)) 125 rfl (by decide) (by decide) (launchContents m c)
theorem rst_main_v101 (c : Dev nD) :
    RW m c (Proc.devRef .tc main_v101) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v94)) (RW m c (Proc.devRef .tc main_v100)) :=
  Cert.Lib.ReadFinal.binary (l := ops) (ref_inOrder (F := F)) 126 rfl (by decide) (by decide) (by decide) (launchContents m c)
theorem rst_main_v102 (c : Dev nD) :
    RW m c (Proc.devRef .tc main_v102) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 127 rfl (by decide) (by decide) (launchContents m c)
theorem rst_main_v103 (c : Dev nD) :
    RW m c (Proc.devRef .tc main_v103) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v85)) (RW m c (Proc.devRef .tc main_v102)) :=
  Cert.Lib.ReadFinal.binary (l := ops) (ref_inOrder (F := F)) 128 rfl (by decide) (by decide) (by decide) (launchContents m c)
theorem rst_main_c_23 (c : Dev nD) :
    RW m c (Proc.devRef .tc main_c_23) = (constantI S_ 32 0#32) :=
  Cert.Lib.ReadFinal.nullary (l := ops) (ref_inOrder (F := F)) 129 rfl (by decide) (launchContents m c)
theorem rst_main_v104 (c : Dev nD) :
    RW m c (Proc.devRef .tc main_v104) = (broadcastInDim S262144 ![] bcast_S_S262144 : (⟨S_, .i32⟩ : BufTy).Contents (Elt F) → (⟨S262144, .i32⟩ : BufTy).Contents (Elt F)) (RW m c (Proc.devRef .tc main_c_23)) :=
  Cert.Lib.ReadFinal.unary (l := ops) (ref_inOrder (F := F)) 130 rfl (by decide) (by decide) (launchContents m c)
theorem rst_main_v105 (c : Dev nD) :
    RW m c (Proc.devRef .tc main_v105) = (cmpi .slt : (⟨S262144, .i32⟩ : BufTy).Contents (Elt F) → (⟨S262144, .i32⟩ : BufTy).Contents (Elt F) → (⟨S262144, .i1⟩ : BufTy).Contents (Elt F)) (RW m c (Proc.devRef .tc main_arg5)) (RW m c (Proc.devRef .tc main_v104)) :=
  Cert.Lib.ReadFinal.binary (l := ops) (ref_inOrder (F := F)) 131 rfl (by decide) (by decide) (by decide) (launchContents m c)
theorem rst_main_c_24 (c : Dev nD) :
    RW m c (Proc.devRef .tc main_c_24) = (constantI S_ 32 4096#32) :=
  Cert.Lib.ReadFinal.nullary (l := ops) (ref_inOrder (F := F)) 132 rfl (by decide) (launchContents m c)
theorem rst_main_v106 (c : Dev nD) :
    RW m c (Proc.devRef .tc main_v106) = (broadcastInDim S262144 ![] bcast_S_S262144 : (⟨S_, .i32⟩ : BufTy).Contents (Elt F) → (⟨S262144, .i32⟩ : BufTy).Contents (Elt F)) (RW m c (Proc.devRef .tc main_c_24)) :=
  Cert.Lib.ReadFinal.unary (l := ops) (ref_inOrder (F := F)) 133 rfl (by decide) (by decide) (launchContents m c)
theorem rst_main_v107 (c : Dev nD) :
    RW m c (Proc.devRef .tc main_v107) = (addi : (⟨S262144, .i32⟩ : BufTy).Contents (Elt F) → (⟨S262144, .i32⟩ : BufTy).Contents (Elt F) → (⟨S262144, .i32⟩ : BufTy).Contents (Elt F)) (RW m c (Proc.devRef .tc main_arg5)) (RW m c (Proc.devRef .tc main_v106)) :=
  Cert.Lib.ReadFinal.binary (l := ops) (ref_inOrder (F := F)) 134 rfl (by decide) (by decide) (by decide) (launchContents m c)
theorem rst_main_v108 (c : Dev nD) :
    RW m c (Proc.devRef .tc main_v108) = (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)) (RW m c (Proc.devRef .tc main_v105)) (RW m c (Proc.devRef .tc main_v107)) (RW m c (Proc.devRef .tc main_arg5)) :=
  Cert.Lib.ReadFinal.ternary (l := ops) (ref_inOrder (F := F)) 135 rfl (by decide) (by decide) (by decide) (by decide) (launchContents m c)
theorem rst_main_v109 (c : Dev nD) :
    RW m c (Proc.devRef .tc main_v109) = (broadcastInDim S262144x1 ![0] bcast_S262144_S262144x1_0 : (⟨S262144, .i32⟩ : BufTy).Contents (Elt F) → (⟨S262144x1, .i32⟩ : BufTy).Contents (Elt F)) (RW m c (Proc.devRef .tc main_v108)) :=
  Cert.Lib.ReadFinal.unary (l := ops) (ref_inOrder (F := F)) 136 rfl (by decide) (by decide) (launchContents m c)
theorem rst_main_v110 (c : Dev nD) :
    RW m c (Proc.devRef .tc main_v110) = ((fun x i => Host.gather gather_S4096x64_S262144x1_S262144x64_1_0_n_n_0_1_164 x i) : (⟨S4096x64, .f32⟩ : BufTy).Contents (Elt F) → (⟨S262144x1, .i32⟩ : BufTy).Contents (Elt F) → (⟨S262144x64, .f32⟩ : BufTy).Contents (Elt F)) (RW m c (Proc.devRef .tc main_v103)) (RW m c (Proc.devRef .tc main_v109)) :=
  Cert.Lib.ReadFinal.binary (l := ops) (ref_inOrder (F := F)) 137 rfl (by decide) (by decide) (by decide) (launchContents m c)
theorem rst_main_cst_25 (c : Dev nD) :
    RW m c (Proc.devRef .tc main_cst_25) = (constant (F := F) S_ .f32 0x00000000#32) :=
  Cert.Lib.ReadFinal.nullary (l := ops) (ref_inOrder (F := F)) 138 rfl (by decide) (launchContents m c)
theorem rst_main_v111 (c : Dev nD) :
    RW m c (Proc.devRef .tc main_v111) = (broadcastInDim S4096x64 ![] bcast_S_S4096x64 : (⟨S_, .f32⟩ : BufTy).Contents (Elt F) → (⟨S4096x64, .f32⟩ : BufTy).Contents (Elt F)) (RW m c (Proc.devRef .tc main_cst_25)) :=
  Cert.Lib.ReadFinal.unary (l := ops) (ref_inOrder (F := F)) 139 rfl (by decide) (by decide) (launchContents m c)
theorem rst_main_v112 (c : Dev nD) :
    RW m c (Proc.devRef .tc main_v112) = (broadcastInDim S262144x1 ![0] bcast_S262144_S262144x1_0 : (⟨S262144, .i32⟩ : BufTy).Contents (Elt F) → (⟨S262144x1, .i32⟩ : BufTy).Contents (Elt F)) (RW m c (Proc.devRef .tc main_arg5)) :=
  Cert.Lib.ReadFinal.unary (l := ops) (ref_inOrder (F := F)) 140 rfl (by decide) (by decide) (launchContents m c)
theorem rst_main_v113 (c : Dev nD) :
    RW m c (Proc.devRef .tc main_v113) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v111)) (RW m c (Proc.devRef .tc main_v112)) (RW m c (Proc.devRef .tc main_v101)) :=
  Cert.Lib.ReadFinal.ternary (l := ops) (ref_inOrder (F := F)) 141 rfl (by decide) (by decide) (by decide) (by decide) (launchContents m c)
theorem rst_main_v114 (c : Dev nD) :
    RW m c (Proc.devRef .tc main_v114) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v18)) :=
  Cert.Lib.ReadFinal.unary (l := ops) (ref_inOrder (F := F)) 142 rfl (by decide) (by decide) (launchContents m c)
theorem rst_main_v115 (c : Dev nD) :
    RW m c (Proc.devRef .tc main_v115) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v113)) (RW m c (Proc.devRef .tc main_v114)) :=
  Cert.Lib.ReadFinal.binary (l := ops) (ref_inOrder (F := F)) 143 rfl (by decide) (by decide) (by decide) (launchContents m c)
theorem rst_main_cst_26 (c : Dev nD) :
    RW m c (Proc.devRef .tc main_cst_26) = (constant (F := F) S_ .f32 0x00000000#32) :=
  Cert.Lib.ReadFinal.nullary (l := ops) (ref_inOrder (F := F)) 144 rfl (by decide) (launchContents m c)
theorem rst_main_v116 (c : Dev nD) :
    RW m c (Proc.devRef .tc main_v116) = (broadcastInDim S4096x64 ![] bcast_S_S4096x64 : (⟨S_, .f32⟩ : BufTy).Contents (Elt F) → (⟨S4096x64, .f32⟩ : BufTy).Contents (Elt F)) (RW m c (Proc.devRef .tc main_cst_26)) :=
  Cert.Lib.ReadFinal.unary (l := ops) (ref_inOrder (F := F)) 145 rfl (by decide) (by decide) (launchContents m c)
theorem rst_main_v117 (c : Dev nD) :
    RW m c (Proc.devRef .tc main_v117) = (broadcastInDim S262144x1 ![0] bcast_S262144_S262144x1_0 : (⟨S262144, .i32⟩ : BufTy).Contents (Elt F) → (⟨S262144x1, .i32⟩ : BufTy).Contents (Elt F)) (RW m c (Proc.devRef .tc main_arg4)) :=
  Cert.Lib.ReadFinal.unary (l := ops) (ref_inOrder (F := F)) 146 rfl (by decide) (by decide) (launchContents m c)
theorem rst_main_v118 (c : Dev nD) :
    RW m c (Proc.devRef .tc main_v118) = ((fun x i u => Host.scatterAdd scatter_S4096x64_S262144x1_S262144x64_1_0_0_1 x i u) : (⟨S4096x64, .f32⟩ : BufTy).Contents (Elt F) → (⟨S262144x1, .i32⟩ : BufTy).Contents (Elt F) → (⟨S262144x64, .f32⟩ : BufTy).Contents (Elt F) → (⟨S4096x64, .f32⟩ : BufTy).Contents (Elt F)) (RW m c (Proc.devRef .tc main_v116)) (RW m c (Proc.devRef .tc main_v117)) (RW m c (Proc.devRef .tc main_v110)) :=
  Cert.Lib.ReadFinal.ternary (l := ops) (ref_inOrder (F := F)) 147 rfl (by decide) (by decide) (by decide) (by decide) (launchContents m c)
theorem rst_main_v119 (c : Dev nD) :
    RW m c (Proc.devRef .tc main_v119) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v12)) :=
  Cert.Lib.ReadFinal.unary (l := ops) (ref_inOrder (F := F)) 148 rfl (by decide) (by decide) (launchContents m c)
theorem rst_main_v120 (c : Dev nD) :
    RW m c (Proc.devRef .tc main_v120) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v118)) (RW m c (Proc.devRef .tc main_v119)) :=
  Cert.Lib.ReadFinal.binary (l := ops) (ref_inOrder (F := F)) 149 rfl (by decide) (by decide) (by decide) (launchContents m c)
theorem rst_main_v121 (c : Dev nD) :
    RW m c (Proc.devRef .tc main_v121) = (addf : (⟨S4096x64, .f32⟩ : BufTy).Contents (Elt F) → (⟨S4096x64, .f32⟩ : BufTy).Contents (Elt F) → (⟨S4096x64, .f32⟩ : BufTy).Contents (Elt F)) (RW m c (Proc.devRef .tc main_v91)) (RW m c (Proc.devRef .tc main_v120)) :=
  Cert.Lib.ReadFinal.binary (l := ops) (ref_inOrder (F := F)) 150 rfl (by decide) (by decide) (by decide) (launchContents m c)
theorem rst_main_v122 (c : Dev nD) :
    RW m c (Proc.devRef .tc main_v122) = (addf : (⟨S4096x64, .f32⟩ : BufTy).Contents (Elt F) → (⟨S4096x64, .f32⟩ : BufTy).Contents (Elt F) → (⟨S4096x64, .f32⟩ : BufTy).Contents (Elt F)) (RW m c (Proc.devRef .tc main_v92)) (RW m c (Proc.devRef .tc main_v115)) :=
  Cert.Lib.ReadFinal.binary (l := ops) (ref_inOrder (F := F)) 151 rfl (by decide) (by decide) (by decide) (launchContents m c)
theorem rst_main_call0_v0 (c : Dev nD) :
    RW m c (Proc.devRef .tc main_call0_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v120)) (RW m c (Proc.devRef .tc main_v120)) :=
  Cert.Lib.ReadFinal.binary (l := ops) (ref_inOrder (F := F)) 152 rfl (by decide) (by decide) (by decide) (launchContents m c)
theorem rst_main_call0_cst (c : Dev nD) :
    RW m c (Proc.devRef .tc main_call0_cst) = ((constant (F := F) S_ .f32 0x00000000#32) : (⟨S_, .f32⟩ : BufTy).Contents (Elt F)) :=
  Cert.Lib.ReadFinal.nullary (l := ops) (ref_inOrder (F := F)) 153 rfl (by decide) (launchContents m c)
theorem rst_main_call0_v1 (c : Dev nD) :
    RW m c (Proc.devRef .tc main_call0_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call0_v0)) (RW m c (Proc.devRef .tc main_call0_cst)) :=
  Cert.Lib.ReadFinal.binary (l := ops) (ref_inOrder (F := F)) 154 rfl (by decide) (by decide) (by decide) (launchContents m c)
theorem rst_main_call0_v2 (c : Dev nD) :
    RW m c (Proc.devRef .tc main_call0_v2) = ((broadcastInDim S4096x1 ![0] bcast_S4096_S4096x1_0) : (⟨S4096, .f32⟩ : BufTy).Contents (Elt F) → (⟨S4096x1, .f32⟩ : BufTy).Contents (Elt F)) (RW m c (Proc.devRef .tc main_call0_v1)) :=
  Cert.Lib.ReadFinal.unary (l := ops) (ref_inOrder (F := F)) 155 rfl (by decide) (by decide) (launchContents m c)
theorem rst_main_v123 (c : Dev nD) :
    RW m c (Proc.devRef .tc main_v123) = ((Host.sqrt) : (⟨S4096x1, .f32⟩ : BufTy).Contents (Elt F) → (⟨S4096x1, .f32⟩ : BufTy).Contents (Elt F)) (RW m c (Proc.devRef .tc main_call0_v2)) :=
  Cert.Lib.ReadFinal.unary (l := ops) (ref_inOrder (F := F)) 156 rfl (by decide) (by decide) (launchContents m c)
theorem rst_main_cst_27 (c : Dev nD) :
    RW m c (Proc.devRef .tc main_cst_27) = (constant (F := F) S_ .f32 0x2B8CBCCC#32) :=
  Cert.Lib.ReadFinal.nullary (l := ops) (ref_inOrder (F := F)) 157 rfl (by decide) (launchContents m c)
theorem rst_main_v124 (c : Dev nD) :
    RW m c (Proc.devRef .tc main_v124) = (broadcastInDim S4096x1 ![] bcast_S_S4096x1 : (⟨S_, .f32⟩ : BufTy).Contents (Elt F) → (⟨S4096x1, .f32⟩ : BufTy).Contents (Elt F)) (RW m c (Proc.devRef .tc main_cst_27)) :=
  Cert.Lib.ReadFinal.unary (l := ops) (ref_inOrder (F := F)) 158 rfl (by decide) (by decide) (launchContents m c)
theorem rst_main_v125 (c : Dev nD) :
    RW m c (Proc.devRef .tc main_v125) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v123)) (RW m c (Proc.devRef .tc main_v124)) :=
  Cert.Lib.ReadFinal.binary (l := ops) (ref_inOrder (F := F)) 159 rfl (by decide) (by decide) (by decide) (launchContents m c)
theorem rst_main_v126 (c : Dev nD) :
    RW m c (Proc.devRef .tc main_v126) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v125)) :=
  Cert.Lib.ReadFinal.unary (l := ops) (ref_inOrder (F := F)) 160 rfl (by decide) (by decide) (launchContents m c)
theorem rst_main_v127 (c : Dev nD) :
    RW m c (Proc.devRef .tc main_v127) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v120)) (RW m c (Proc.devRef .tc main_v126)) :=
  Cert.Lib.ReadFinal.binary (l := ops) (ref_inOrder (F := F)) 161 rfl (by decide) (by decide) (by decide) (launchContents m c)
theorem rst_main_call1_v0 (c : Dev nD) :
    RW m c (Proc.devRef .tc main_call1_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v25)) (RW m c (Proc.devRef .tc main_v25)) :=
  Cert.Lib.ReadFinal.binary (l := ops) (ref_inOrder (F := F)) 162 rfl (by decide) (by decide) (by decide) (launchContents m c)
theorem rst_main_call1_cst (c : Dev nD) :
    RW m c (Proc.devRef .tc main_call1_cst) = ((constant (F := F) S_ .f32 0x00000000#32) : (⟨S_, .f32⟩ : BufTy).Contents (Elt F)) :=
  Cert.Lib.ReadFinal.nullary (l := ops) (ref_inOrder (F := F)) 163 rfl (by decide) (launchContents m c)
theorem rst_main_call1_v1 (c : Dev nD) :
    RW m c (Proc.devRef .tc main_call1_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call1_v0)) (RW m c (Proc.devRef .tc main_call1_cst)) :=
  Cert.Lib.ReadFinal.binary (l := ops) (ref_inOrder (F := F)) 164 rfl (by decide) (by decide) (by decide) (launchContents m c)
theorem rst_main_call1_v2 (c : Dev nD) :
    RW m c (Proc.devRef .tc main_call1_v2) = ((broadcastInDim S4096x1 ![0] bcast_S4096_S4096x1_0) : (⟨S4096, .f32⟩ : BufTy).Contents (Elt F) → (⟨S4096x1, .f32⟩ : BufTy).Contents (Elt F)) (RW m c (Proc.devRef .tc main_call1_v1)) :=
  Cert.Lib.ReadFinal.unary (l := ops) (ref_inOrder (F := F)) 165 rfl (by decide) (by decide) (launchContents m c)
theorem rst_main_v128 (c : Dev nD) :
    RW m c (Proc.devRef .tc main_v128) = ((Host.sqrt) : (⟨S4096x1, .f32⟩ : BufTy).Contents (Elt F) → (⟨S4096x1, .f32⟩ : BufTy).Contents (Elt F)) (RW m c (Proc.devRef .tc main_call1_v2)) :=
  Cert.Lib.ReadFinal.unary (l := ops) (ref_inOrder (F := F)) 166 rfl (by decide) (by decide) (launchContents m c)
theorem rst_main_cst_28 (c : Dev nD) :
    RW m c (Proc.devRef .tc main_cst_28) = (constant (F := F) S_ .f32 0x2B8CBCCC#32) :=
  Cert.Lib.ReadFinal.nullary (l := ops) (ref_inOrder (F := F)) 167 rfl (by decide) (launchContents m c)
theorem rst_main_v129 (c : Dev nD) :
    RW m c (Proc.devRef .tc main_v129) = (broadcastInDim S4096x1 ![] bcast_S_S4096x1 : (⟨S_, .f32⟩ : BufTy).Contents (Elt F) → (⟨S4096x1, .f32⟩ : BufTy).Contents (Elt F)) (RW m c (Proc.devRef .tc main_cst_28)) :=
  Cert.Lib.ReadFinal.unary (l := ops) (ref_inOrder (F := F)) 168 rfl (by decide) (by decide) (launchContents m c)
theorem rst_main_v130 (c : Dev nD) :
    RW m c (Proc.devRef .tc main_v130) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v128)) (RW m c (Proc.devRef .tc main_v129)) :=
  Cert.Lib.ReadFinal.binary (l := ops) (ref_inOrder (F := F)) 169 rfl (by decide) (by decide) (by decide) (launchContents m c)
theorem rst_main_v131 (c : Dev nD) :
    RW m c (Proc.devRef .tc main_v131) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v130)) :=
  Cert.Lib.ReadFinal.unary (l := ops) (ref_inOrder (F := F)) 170 rfl (by decide) (by decide) (launchContents m c)
theorem rst_main_v132 (c : Dev nD) :
    RW m c (Proc.devRef .tc main_v132) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v25)) (RW m c (Proc.devRef .tc main_v131)) :=
  Cert.Lib.ReadFinal.binary (l := ops) (ref_inOrder (F := F)) 171 rfl (by decide) (by decide) (by decide) (launchContents m c)
theorem rst_main_call2_v0 (c : Dev nD) :
    RW m c (Proc.devRef .tc main_call2_v0) = ((mulf) : (⟨S50000x64, .f32⟩ : BufTy).Contents (Elt F) → (⟨S50000x64, .f32⟩ : BufTy).Contents (Elt F) → (⟨S50000x64, .f32⟩ : BufTy).Contents (Elt F)) (RW m c (Proc.devRef .tc main_arg0)) (RW m c (Proc.devRef .tc main_arg0)) :=
  Cert.Lib.ReadFinal.binary (l := ops) (ref_inOrder (F := F)) 172 rfl (by decide) (by decide) (by decide) (launchContents m c)
theorem rst_main_call2_cst (c : Dev nD) :
    RW m c (Proc.devRef .tc main_call2_cst) = ((constant (F := F) S_ .f32 0x00000000#32) : (⟨S_, .f32⟩ : BufTy).Contents (Elt F)) :=
  Cert.Lib.ReadFinal.nullary (l := ops) (ref_inOrder (F := F)) 173 rfl (by decide) (launchContents m c)
theorem rst_main_call2_v1 (c : Dev nD) :
    RW m c (Proc.devRef .tc main_call2_v1) = ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)) (RW m c (Proc.devRef .tc main_call2_v0)) (RW m c (Proc.devRef .tc main_call2_cst)) :=
  Cert.Lib.ReadFinal.binary (l := ops) (ref_inOrder (F := F)) 174 rfl (by decide) (by decide) (by decide) (launchContents m c)
theorem rst_main_call2_v2 (c : Dev nD) :
    RW m c (Proc.devRef .tc main_call2_v2) = ((broadcastInDim S50000x1 ![0] bcast_S50000_S50000x1_0) : (⟨S50000, .f32⟩ : BufTy).Contents (Elt F) → (⟨S50000x1, .f32⟩ : BufTy).Contents (Elt F)) (RW m c (Proc.devRef .tc main_call2_v1)) :=
  Cert.Lib.ReadFinal.unary (l := ops) (ref_inOrder (F := F)) 175 rfl (by decide) (by decide) (launchContents m c)
theorem rst_main_v133 (c : Dev nD) :
    RW m c (Proc.devRef .tc main_v133) = ((Host.sqrt) : (⟨S50000x1, .f32⟩ : BufTy).Contents (Elt F) → (⟨S50000x1, .f32⟩ : BufTy).Contents (Elt F)) (RW m c (Proc.devRef .tc main_call2_v2)) :=
  Cert.Lib.ReadFinal.unary (l := ops) (ref_inOrder (F := F)) 176 rfl (by decide) (by decide) (launchContents m c)
theorem rst_main_cst_29 (c : Dev nD) :
    RW m c (Proc.devRef .tc main_cst_29) = (constant (F := F) S_ .f32 0x2B8CBCCC#32) :=
  Cert.Lib.ReadFinal.nullary (l := ops) (ref_inOrder (F := F)) 177 rfl (by decide) (launchContents m c)
theorem rst_main_v134 (c : Dev nD) :
    RW m c (Proc.devRef .tc main_v134) = (broadcastInDim S50000x1 ![] bcast_S_S50000x1 : (⟨S_, .f32⟩ : BufTy).Contents (Elt F) → (⟨S50000x1, .f32⟩ : BufTy).Contents (Elt F)) (RW m c (Proc.devRef .tc main_cst_29)) :=
  Cert.Lib.ReadFinal.unary (l := ops) (ref_inOrder (F := F)) 178 rfl (by decide) (by decide) (launchContents m c)
theorem rst_main_v135 (c : Dev nD) :
    RW m c (Proc.devRef .tc main_v135) = (maximumf : (⟨S50000x1, .f32⟩ : BufTy).Contents (Elt F) → (⟨S50000x1, .f32⟩ : BufTy).Contents (Elt F) → (⟨S50000x1, .f32⟩ : BufTy).Contents (Elt F)) (RW m c (Proc.devRef .tc main_v133)) (RW m c (Proc.devRef .tc main_v134)) :=
  Cert.Lib.ReadFinal.binary (l := ops) (ref_inOrder (F := F)) 179 rfl (by decide) (by decide) (by decide) (launchContents m c)
theorem rst_main_v136 (c : Dev nD) :
    RW m c (Proc.devRef .tc main_v136) = (broadcastInDim S50000x64 ![0, 1] bcast_S50000x1_S50000x64_0_1 : (⟨S50000x1, .f32⟩ : BufTy).Contents (Elt F) → (⟨S50000x64, .f32⟩ : BufTy).Contents (Elt F)) (RW m c (Proc.devRef .tc main_v135)) :=
  Cert.Lib.ReadFinal.unary (l := ops) (ref_inOrder (F := F)) 180 rfl (by decide) (by decide) (launchContents m c)
theorem rst_main_v137 (c : Dev nD) :
    RW m c (Proc.devRef .tc main_v137) = (Host.divf : (⟨S50000x64, .f32⟩ : BufTy).Contents (Elt F) → (⟨S50000x64, .f32⟩ : BufTy).Contents (Elt F) → (⟨S50000x64, .f32⟩ : BufTy).Contents (Elt F)) (RW m c (Proc.devRef .tc main_arg0)) (RW m c (Proc.devRef .tc main_v136)) :=
  Cert.Lib.ReadFinal.binary (l := ops) (ref_inOrder (F := F)) 181 rfl (by decide) (by decide) (by decide) (launchContents m c)
theorem rst_main_v138 (c : Dev nD) :
    RW m c (Proc.devRef .tc main_v138) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v127)) (RW m c (Proc.devRef .tc main_v132)) :=
  Cert.Lib.ReadFinal.binary (l := ops) (ref_inOrder (F := F)) 182 rfl (by decide) (by decide) (by decide) (launchContents m c)
theorem rst_main_cst_30 (c : Dev nD) :
    RW m c (Proc.devRef .tc main_cst_30) = (constant (F := F) S_ .f32 0x00000000#32) :=
  Cert.Lib.ReadFinal.nullary (l := ops) (ref_inOrder (F := F)) 183 rfl (by decide) (launchContents m c)
theorem rst_main_v139 (c : Dev nD) :
    RW m c (Proc.devRef .tc main_v139) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_v138)) (RW m c (Proc.devRef .tc main_cst_30)) :=
  Cert.Lib.ReadFinal.binary (l := ops) (ref_inOrder (F := F)) 184 rfl (by decide) (by decide) (by decide) (launchContents m c)
theorem rst_main_cst_31 (c : Dev nD) :
    RW m c (Proc.devRef .tc main_cst_31) = (constant (F := F) S_ .f32 0x3DCCCCCD#32) :=
  Cert.Lib.ReadFinal.nullary (l := ops) (ref_inOrder (F := F)) 185 rfl (by decide) (launchContents m c)
theorem rst_main_v140 (c : Dev nD) :
    RW m c (Proc.devRef .tc main_v140) = (broadcastInDim S4096 ![] bcast_S_S4096 : (⟨S_, .f32⟩ : BufTy).Contents (Elt F) → (⟨S4096, .f32⟩ : BufTy).Contents (Elt F)) (RW m c (Proc.devRef .tc main_cst_31)) :=
  Cert.Lib.ReadFinal.unary (l := ops) (ref_inOrder (F := F)) 186 rfl (by decide) (by decide) (launchContents m c)
theorem rst_main_v141 (c : Dev nD) :
    RW m c (Proc.devRef .tc main_v141) = (Host.divf : (⟨S4096, .f32⟩ : BufTy).Contents (Elt F) → (⟨S4096, .f32⟩ : BufTy).Contents (Elt F) → (⟨S4096, .f32⟩ : BufTy).Contents (Elt F)) (RW m c (Proc.devRef .tc main_v139)) (RW m c (Proc.devRef .tc main_v140)) :=
  Cert.Lib.ReadFinal.binary (l := ops) (ref_inOrder (F := F)) 187 rfl (by decide) (by decide) (by decide) (launchContents m c)
theorem rst_main_v142 (c : Dev nD) :
    RW m c (Proc.devRef .tc main_v142) = (Host.exp : (⟨S4096, .f32⟩ : BufTy).Contents (Elt F) → (⟨S4096, .f32⟩ : BufTy).Contents (Elt F)) (RW m c (Proc.devRef .tc main_v141)) :=
  Cert.Lib.ReadFinal.unary (l := ops) (ref_inOrder (F := F)) 188 rfl (by decide) (by decide) (launchContents m c)
theorem rst_main_v143 (c : Dev nD) :
    RW m c (Proc.devRef .tc main_v143) = ((transpose S64x50000 [1, 0] · transposes_S50000x64_S64x50000_1_0) : (⟨S50000x64, .f32⟩ : BufTy).Contents (Elt F) → (⟨S64x50000, .f32⟩ : BufTy).Contents (Elt F)) (RW m c (Proc.devRef .tc main_v137)) :=
  Cert.Lib.ReadFinal.unary (l := ops) (ref_inOrder (F := F)) 189 rfl (by decide) (by decide) (launchContents m c)
theorem rst_main_v144 (c : Dev nD) :
    RW m c (Proc.devRef .tc main_v144) = ((fun l r => Host.dotGeneral dot_S4096x64_S64x50000_S4096x50000_1_0_0_1_n_n none l r) : (⟨S4096x64, .f32⟩ : BufTy).Contents (Elt F) → (⟨S64x50000, .f32⟩ : BufTy).Contents (Elt F) → (⟨S4096x50000, .f32⟩ : BufTy).Contents (Elt F)) (RW m c (Proc.devRef .tc main_v127)) (RW m c (Proc.devRef .tc main_v143)) :=
  Cert.Lib.ReadFinal.binary (l := ops) (ref_inOrder (F := F)) 190 rfl (by decide) (by decide) (by decide) (launchContents m c)
theorem rst_main_cst_32 (c : Dev nD) :
    RW m c (Proc.devRef .tc main_cst_32) = (constant (F := F) S_ .f32 0x3DCCCCCD#32) :=
  Cert.Lib.ReadFinal.nullary (l := ops) (ref_inOrder (F := F)) 191 rfl (by decide) (launchContents m c)
theorem rst_main_v145 (c : Dev nD) :
    RW m c (Proc.devRef .tc main_v145) = (broadcastInDim S4096x50000 ![] bcast_S_S4096x50000 : (⟨S_, .f32⟩ : BufTy).Contents (Elt F) → (⟨S4096x50000, .f32⟩ : BufTy).Contents (Elt F)) (RW m c (Proc.devRef .tc main_cst_32)) :=
  Cert.Lib.ReadFinal.unary (l := ops) (ref_inOrder (F := F)) 192 rfl (by decide) (by decide) (launchContents m c)
theorem rst_main_v146 (c : Dev nD) :
    RW m c (Proc.devRef .tc main_v146) = (Host.divf : (⟨S4096x50000, .f32⟩ : BufTy).Contents (Elt F) → (⟨S4096x50000, .f32⟩ : BufTy).Contents (Elt F) → (⟨S4096x50000, .f32⟩ : BufTy).Contents (Elt F)) (RW m c (Proc.devRef .tc main_v144)) (RW m c (Proc.devRef .tc main_v145)) :=
  Cert.Lib.ReadFinal.binary (l := ops) (ref_inOrder (F := F)) 193 rfl (by decide) (by decide) (by decide) (launchContents m c)
theorem rst_main_v147 (c : Dev nD) :
    RW m c (Proc.devRef .tc main_v147) = (Host.exp : (⟨S4096x50000, .f32⟩ : BufTy).Contents (Elt F) → (⟨S4096x50000, .f32⟩ : BufTy).Contents (Elt F)) (RW m c (Proc.devRef .tc main_v146)) :=
  Cert.Lib.ReadFinal.unary (l := ops) (ref_inOrder (F := F)) 194 rfl (by decide) (by decide) (launchContents m c)
theorem rst_main_cst_33 (c : Dev nD) :
    RW m c (Proc.devRef .tc main_cst_33) = (constant (F := F) S_ .f32 0x00000000#32) :=
  Cert.Lib.ReadFinal.nullary (l := ops) (ref_inOrder (F := F)) 195 rfl (by decide) (launchContents m c)
theorem rst_main_v148 (c : Dev nD) :
    RW m c (Proc.devRef .tc main_v148) = ((fun x v => Host.reduceAdd x v reducesTo_S4096x50000_S4096_d1 h_S_) : (⟨S4096x50000, .f32⟩ : BufTy).Contents (Elt F) → (⟨S_, .f32⟩ : BufTy).Contents (Elt F) → (⟨S4096, .f32⟩ : BufTy).Contents (Elt F)) (RW m c (Proc.devRef .tc main_v147)) (RW m c (Proc.devRef .tc main_cst_33)) :=
  Cert.Lib.ReadFinal.binary (l := ops) (ref_inOrder (F := F)) 196 rfl (by decide) (by decide) (by decide) (launchContents m c)
theorem rst_main_v149 (c : Dev nD) :
    RW m c (Proc.devRef .tc main_v149) = (Host.divf : (⟨S4096, .f32⟩ : BufTy).Contents (Elt F) → (⟨S4096, .f32⟩ : BufTy).Contents (Elt F) → (⟨S4096, .f32⟩ : BufTy).Contents (Elt F)) (RW m c (Proc.devRef .tc main_v142)) (RW m c (Proc.devRef .tc main_v148)) :=
  Cert.Lib.ReadFinal.binary (l := ops) (ref_inOrder (F := F)) 197 rfl (by decide) (by decide) (by decide) (launchContents m c)
theorem rst_main_v150 (c : Dev nD) :
    RW m c (Proc.devRef .tc main_v150) = (Host.log : (⟨S4096, .f32⟩ : BufTy).Contents (Elt F) → (⟨S4096, .f32⟩ : BufTy).Contents (Elt F)) (RW m c (Proc.devRef .tc main_v149)) :=
  Cert.Lib.ReadFinal.unary (l := ops) (ref_inOrder (F := F)) 198 rfl (by decide) (by decide) (launchContents m c)
theorem rst_main_cst_34 (c : Dev nD) :
    RW m c (Proc.devRef .tc main_cst_34) = (constant (F := F) S_ .f32 0x00000000#32) :=
  Cert.Lib.ReadFinal.nullary (l := ops) (ref_inOrder (F := F)) 199 rfl (by decide) (launchContents m c)
theorem rst_main_v151 (c : Dev nD) :
    RW m c (Proc.devRef .tc main_v151) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (RW m c (Proc.devRef .tc main_v150)) (RW m c (Proc.devRef .tc main_cst_34)) :=
  Cert.Lib.ReadFinal.binary (l := ops) (ref_inOrder (F := F)) 200 rfl (by decide) (by decide) (by decide) (launchContents m c)
theorem rst_main_v152 (c : Dev nD) :
    RW m c (Proc.devRef .tc main_v152) = (Host.negf : (⟨S_, .f32⟩ : BufTy).Contents (Elt F) → (⟨S_, .f32⟩ : BufTy).Contents (Elt F)) (RW m c (Proc.devRef .tc main_v151)) :=
  Cert.Lib.ReadFinal.unary (l := ops) (ref_inOrder (F := F)) 201 rfl (by decide) (by decide) (launchContents m c)
theorem rst_main_call3_v0 (c : Dev nD) :
    RW m c (Proc.devRef .tc main_call3_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v115)) (RW m c (Proc.devRef .tc main_v115)) :=
  Cert.Lib.ReadFinal.binary (l := ops) (ref_inOrder (F := F)) 202 rfl (by decide) (by decide) (by decide) (launchContents m c)
theorem rst_main_call3_cst (c : Dev nD) :
    RW m c (Proc.devRef .tc main_call3_cst) = ((constant (F := F) S_ .f32 0x00000000#32) : (⟨S_, .f32⟩ : BufTy).Contents (Elt F)) :=
  Cert.Lib.ReadFinal.nullary (l := ops) (ref_inOrder (F := F)) 203 rfl (by decide) (launchContents m c)
theorem rst_main_call3_v1 (c : Dev nD) :
    RW m c (Proc.devRef .tc main_call3_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call3_v0)) (RW m c (Proc.devRef .tc main_call3_cst)) :=
  Cert.Lib.ReadFinal.binary (l := ops) (ref_inOrder (F := F)) 204 rfl (by decide) (by decide) (by decide) (launchContents m c)
theorem rst_main_call3_v2 (c : Dev nD) :
    RW m c (Proc.devRef .tc main_call3_v2) = ((broadcastInDim S4096x1 ![0] bcast_S4096_S4096x1_0) : (⟨S4096, .f32⟩ : BufTy).Contents (Elt F) → (⟨S4096x1, .f32⟩ : BufTy).Contents (Elt F)) (RW m c (Proc.devRef .tc main_call3_v1)) :=
  Cert.Lib.ReadFinal.unary (l := ops) (ref_inOrder (F := F)) 205 rfl (by decide) (by decide) (launchContents m c)
theorem rst_main_v153 (c : Dev nD) :
    RW m c (Proc.devRef .tc main_v153) = ((Host.sqrt) : (⟨S4096x1, .f32⟩ : BufTy).Contents (Elt F) → (⟨S4096x1, .f32⟩ : BufTy).Contents (Elt F)) (RW m c (Proc.devRef .tc main_call3_v2)) :=
  Cert.Lib.ReadFinal.unary (l := ops) (ref_inOrder (F := F)) 206 rfl (by decide) (by decide) (launchContents m c)
theorem rst_main_cst_35 (c : Dev nD) :
    RW m c (Proc.devRef .tc main_cst_35) = (constant (F := F) S_ .f32 0x2B8CBCCC#32) :=
  Cert.Lib.ReadFinal.nullary (l := ops) (ref_inOrder (F := F)) 207 rfl (by decide) (launchContents m c)
theorem rst_main_v154 (c : Dev nD) :
    RW m c (Proc.devRef .tc main_v154) = (broadcastInDim S4096x1 ![] bcast_S_S4096x1 : (⟨S_, .f32⟩ : BufTy).Contents (Elt F) → (⟨S4096x1, .f32⟩ : BufTy).Contents (Elt F)) (RW m c (Proc.devRef .tc main_cst_35)) :=
  Cert.Lib.ReadFinal.unary (l := ops) (ref_inOrder (F := F)) 208 rfl (by decide) (by decide) (launchContents m c)
theorem rst_main_v155 (c : Dev nD) :
    RW m c (Proc.devRef .tc main_v155) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v153)) (RW m c (Proc.devRef .tc main_v154)) :=
  Cert.Lib.ReadFinal.binary (l := ops) (ref_inOrder (F := F)) 209 rfl (by decide) (by decide) (by decide) (launchContents m c)
theorem rst_main_v156 (c : Dev nD) :
    RW m c (Proc.devRef .tc main_v156) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v155)) :=
  Cert.Lib.ReadFinal.unary (l := ops) (ref_inOrder (F := F)) 210 rfl (by decide) (by decide) (launchContents m c)
theorem rst_main_v157 (c : Dev nD) :
    RW m c (Proc.devRef .tc main_v157) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v115)) (RW m c (Proc.devRef .tc main_v156)) :=
  Cert.Lib.ReadFinal.binary (l := ops) (ref_inOrder (F := F)) 211 rfl (by decide) (by decide) (by decide) (launchContents m c)
theorem rst_main_call4_v0 (c : Dev nD) :
    RW m c (Proc.devRef .tc main_call4_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v32)) (RW m c (Proc.devRef .tc main_v32)) :=
  Cert.Lib.ReadFinal.binary (l := ops) (ref_inOrder (F := F)) 212 rfl (by decide) (by decide) (by decide) (launchContents m c)
theorem rst_main_call4_cst (c : Dev nD) :
    RW m c (Proc.devRef .tc main_call4_cst) = ((constant (F := F) S_ .f32 0x00000000#32) : (⟨S_, .f32⟩ : BufTy).Contents (Elt F)) :=
  Cert.Lib.ReadFinal.nullary (l := ops) (ref_inOrder (F := F)) 213 rfl (by decide) (launchContents m c)
theorem rst_main_call4_v1 (c : Dev nD) :
    RW m c (Proc.devRef .tc main_call4_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call4_v0)) (RW m c (Proc.devRef .tc main_call4_cst)) :=
  Cert.Lib.ReadFinal.binary (l := ops) (ref_inOrder (F := F)) 214 rfl (by decide) (by decide) (by decide) (launchContents m c)
theorem rst_main_call4_v2 (c : Dev nD) :
    RW m c (Proc.devRef .tc main_call4_v2) = ((broadcastInDim S4096x1 ![0] bcast_S4096_S4096x1_0) : (⟨S4096, .f32⟩ : BufTy).Contents (Elt F) → (⟨S4096x1, .f32⟩ : BufTy).Contents (Elt F)) (RW m c (Proc.devRef .tc main_call4_v1)) :=
  Cert.Lib.ReadFinal.unary (l := ops) (ref_inOrder (F := F)) 215 rfl (by decide) (by decide) (launchContents m c)
theorem rst_main_v158 (c : Dev nD) :
    RW m c (Proc.devRef .tc main_v158) = ((Host.sqrt) : (⟨S4096x1, .f32⟩ : BufTy).Contents (Elt F) → (⟨S4096x1, .f32⟩ : BufTy).Contents (Elt F)) (RW m c (Proc.devRef .tc main_call4_v2)) :=
  Cert.Lib.ReadFinal.unary (l := ops) (ref_inOrder (F := F)) 216 rfl (by decide) (by decide) (launchContents m c)
theorem rst_main_cst_36 (c : Dev nD) :
    RW m c (Proc.devRef .tc main_cst_36) = (constant (F := F) S_ .f32 0x2B8CBCCC#32) :=
  Cert.Lib.ReadFinal.nullary (l := ops) (ref_inOrder (F := F)) 217 rfl (by decide) (launchContents m c)
theorem rst_main_v159 (c : Dev nD) :
    RW m c (Proc.devRef .tc main_v159) = (broadcastInDim S4096x1 ![] bcast_S_S4096x1 : (⟨S_, .f32⟩ : BufTy).Contents (Elt F) → (⟨S4096x1, .f32⟩ : BufTy).Contents (Elt F)) (RW m c (Proc.devRef .tc main_cst_36)) :=
  Cert.Lib.ReadFinal.unary (l := ops) (ref_inOrder (F := F)) 218 rfl (by decide) (by decide) (launchContents m c)
theorem rst_main_v160 (c : Dev nD) :
    RW m c (Proc.devRef .tc main_v160) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v158)) (RW m c (Proc.devRef .tc main_v159)) :=
  Cert.Lib.ReadFinal.binary (l := ops) (ref_inOrder (F := F)) 219 rfl (by decide) (by decide) (by decide) (launchContents m c)
theorem rst_main_v161 (c : Dev nD) :
    RW m c (Proc.devRef .tc main_v161) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v160)) :=
  Cert.Lib.ReadFinal.unary (l := ops) (ref_inOrder (F := F)) 220 rfl (by decide) (by decide) (launchContents m c)
theorem rst_main_v162 (c : Dev nD) :
    RW m c (Proc.devRef .tc main_v162) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v32)) (RW m c (Proc.devRef .tc main_v161)) :=
  Cert.Lib.ReadFinal.binary (l := ops) (ref_inOrder (F := F)) 221 rfl (by decide) (by decide) (by decide) (launchContents m c)

end Cert.Proof.Parts

end
-- ==== Proof.RefStagesC.lean ====
/-
  The reference stage by stage: at the end, the buffer an operation wrote holds that operation's function of what its
  operands hold at the end.
-/
import proofs.«110517_j15659450761722_1_alg».proof.Proof.RefBase

set_option maxRecDepth 16384

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

variable (m : (ℓ : Loc nD τ sig) → Buf (Elt F) ℓ)

theorem rst_main_call5_v0 (c : Dev nD) :
    RW m c (Proc.devRef .tc main_call5_v0) = ((mulf) : (⟨S25000x64, .f32⟩ : BufTy).Contents (Elt F) → (⟨S25000x64, .f32⟩ : BufTy).Contents (Elt F) → (⟨S25000x64, .f32⟩ : BufTy).Contents (Elt F)) (RW m c (Proc.devRef .tc main_arg1)) (RW m c (Proc.devRef .tc main_arg1)) :=
  Cert.Lib.ReadFinal.binary (l := ops) (ref_inOrder (F := F)) 222 rfl (by decide) (by decide) (by decide) (launchContents m c)
theorem rst_main_call5_cst (c : Dev nD) :
    RW m c (Proc.devRef .tc main_call5_cst) = ((constant (F := F) S_ .f32 0x00000000#32) : (⟨S_, .f32⟩ : BufTy).Contents (Elt F)) :=
  Cert.Lib.ReadFinal.nullary (l := ops) (ref_inOrder (F := F)) 223 rfl (by decide) (launchContents m c)
theorem rst_main_call5_v1 (c : Dev nD) :
    RW m c (Proc.devRef .tc main_call5_v1) = ((fun x v => Host.reduceAdd x v reducesTo_S25000x64_S25000_d1 h_S_) : (⟨S25000x64, .f32⟩ : BufTy).Contents (Elt F) → (⟨S_, .f32⟩ : BufTy).Contents (Elt F) → (⟨S25000, .f32⟩ : BufTy).Contents (Elt F)) (RW m c (Proc.devRef .tc main_call5_v0)) (RW m c (Proc.devRef .tc main_call5_cst)) :=
  Cert.Lib.ReadFinal.binary (l := ops) (ref_inOrder (F := F)) 224 rfl (by decide) (by decide) (by decide) (launchContents m c)
theorem rst_main_call5_v2 (c : Dev nD) :
    RW m c (Proc.devRef .tc main_call5_v2) = ((broadcastInDim S25000x1 ![0] bcast_S25000_S25000x1_0) : (⟨S25000, .f32⟩ : BufTy).Contents (Elt F) → (⟨S25000x1, .f32⟩ : BufTy).Contents (Elt F)) (RW m c (Proc.devRef .tc main_call5_v1)) :=
  Cert.Lib.ReadFinal.unary (l := ops) (ref_inOrder (F := F)) 225 rfl (by decide) (by decide) (launchContents m c)
theorem rst_main_v163 (c : Dev nD) :
    RW m c (Proc.devRef .tc main_v163) = ((Host.sqrt) : (⟨S25000x1, .f32⟩ : BufTy).Contents (Elt F) → (⟨S25000x1, .f32⟩ : BufTy).Contents (Elt F)) (RW m c (Proc.devRef .tc main_call5_v2)) :=
  Cert.Lib.ReadFinal.unary (l := ops) (ref_inOrder (F := F)) 226 rfl (by decide) (by decide) (launchContents m c)
theorem rst_main_cst_37 (c : Dev nD) :
    RW m c (Proc.devRef .tc main_cst_37) = (constant (F := F) S_ .f32 0x2B8CBCCC#32) :=
  Cert.Lib.ReadFinal.nullary (l := ops) (ref_inOrder (F := F)) 227 rfl (by decide) (launchContents m c)
theorem rst_main_v164 (c : Dev nD) :
    RW m c (Proc.devRef .tc main_v164) = (broadcastInDim S25000x1 ![] bcast_S_S25000x1 : (⟨S_, .f32⟩ : BufTy).Contents (Elt F) → (⟨S25000x1, .f32⟩ : BufTy).Contents (Elt F)) (RW m c (Proc.devRef .tc main_cst_37)) :=
  Cert.Lib.ReadFinal.unary (l := ops) (ref_inOrder (F := F)) 228 rfl (by decide) (by decide) (launchContents m c)
theorem rst_main_v165 (c : Dev nD) :
    RW m c (Proc.devRef .tc main_v165) = (maximumf : (⟨S25000x1, .f32⟩ : BufTy).Contents (Elt F) → (⟨S25000x1, .f32⟩ : BufTy).Contents (Elt F) → (⟨S25000x1, .f32⟩ : BufTy).Contents (Elt F)) (RW m c (Proc.devRef .tc main_v163)) (RW m c (Proc.devRef .tc main_v164)) :=
  Cert.Lib.ReadFinal.binary (l := ops) (ref_inOrder (F := F)) 229 rfl (by decide) (by decide) (by decide) (launchContents m c)
theorem rst_main_v166 (c : Dev nD) :
    RW m c (Proc.devRef .tc main_v166) = (broadcastInDim S25000x64 ![0, 1] bcast_S25000x1_S25000x64_0_1 : (⟨S25000x1, .f32⟩ : BufTy).Contents (Elt F) → (⟨S25000x64, .f32⟩ : BufTy).Contents (Elt F)) (RW m c (Proc.devRef .tc main_v165)) :=
  Cert.Lib.ReadFinal.unary (l := ops) (ref_inOrder (F := F)) 230 rfl (by decide) (by decide) (launchContents m c)
theorem rst_main_v167 (c : Dev nD) :
    RW m c (Proc.devRef .tc main_v167) = (Host.divf : (⟨S25000x64, .f32⟩ : BufTy).Contents (Elt F) → (⟨S25000x64, .f32⟩ : BufTy).Contents (Elt F) → (⟨S25000x64, .f32⟩ : BufTy).Contents (Elt F)) (RW m c (Proc.devRef .tc main_arg1)) (RW m c (Proc.devRef .tc main_v166)) :=
  Cert.Lib.ReadFinal.binary (l := ops) (ref_inOrder (F := F)) 231 rfl (by decide) (by decide) (by decide) (launchContents m c)
theorem rst_main_v168 (c : Dev nD) :
    RW m c (Proc.devRef .tc main_v168) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v157)) (RW m c (Proc.devRef .tc main_v162)) :=
  Cert.Lib.ReadFinal.binary (l := ops) (ref_inOrder (F := F)) 232 rfl (by decide) (by decide) (by decide) (launchContents m c)
theorem rst_main_cst_38 (c : Dev nD) :
    RW m c (Proc.devRef .tc main_cst_38) = (constant (F := F) S_ .f32 0x00000000#32) :=
  Cert.Lib.ReadFinal.nullary (l := ops) (ref_inOrder (F := F)) 233 rfl (by decide) (launchContents m c)
theorem rst_main_v169 (c : Dev nD) :
    RW m c (Proc.devRef .tc main_v169) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_v168)) (RW m c (Proc.devRef .tc main_cst_38)) :=
  Cert.Lib.ReadFinal.binary (l := ops) (ref_inOrder (F := F)) 234 rfl (by decide) (by decide) (by decide) (launchContents m c)
theorem rst_main_cst_39 (c : Dev nD) :
    RW m c (Proc.devRef .tc main_cst_39) = (constant (F := F) S_ .f32 0x3DCCCCCD#32) :=
  Cert.Lib.ReadFinal.nullary (l := ops) (ref_inOrder (F := F)) 235 rfl (by decide) (launchContents m c)
theorem rst_main_v170 (c : Dev nD) :
    RW m c (Proc.devRef .tc main_v170) = (broadcastInDim S4096 ![] bcast_S_S4096 : (⟨S_, .f32⟩ : BufTy).Contents (Elt F) → (⟨S4096, .f32⟩ : BufTy).Contents (Elt F)) (RW m c (Proc.devRef .tc main_cst_39)) :=
  Cert.Lib.ReadFinal.unary (l := ops) (ref_inOrder (F := F)) 236 rfl (by decide) (by decide) (launchContents m c)
theorem rst_main_v171 (c : Dev nD) :
    RW m c (Proc.devRef .tc main_v171) = (Host.divf : (⟨S4096, .f32⟩ : BufTy).Contents (Elt F) → (⟨S4096, .f32⟩ : BufTy).Contents (Elt F) → (⟨S4096, .f32⟩ : BufTy).Contents (Elt F)) (RW m c (Proc.devRef .tc main_v169)) (RW m c (Proc.devRef .tc main_v170)) :=
  Cert.Lib.ReadFinal.binary (l := ops) (ref_inOrder (F := F)) 237 rfl (by decide) (by decide) (by decide) (launchContents m c)
theorem rst_main_v172 (c : Dev nD) :
    RW m c (Proc.devRef .tc main_v172) = (Host.exp : (⟨S4096, .f32⟩ : BufTy).Contents (Elt F) → (⟨S4096, .f32⟩ : BufTy).Contents (Elt F)) (RW m c (Proc.devRef .tc main_v171)) :=
  Cert.Lib.ReadFinal.unary (l := ops) (ref_inOrder (F := F)) 238 rfl (by decide) (by decide) (launchContents m c)
theorem rst_main_v173 (c : Dev nD) :
    RW m c (Proc.devRef .tc main_v173) = ((transpose S64x25000 [1, 0] · transposes_S25000x64_S64x25000_1_0) : (⟨S25000x64, .f32⟩ : BufTy).Contents (Elt F) → (⟨S64x25000, .f32⟩ : BufTy).Contents (Elt F)) (RW m c (Proc.devRef .tc main_v167)) :=
  Cert.Lib.ReadFinal.unary (l := ops) (ref_inOrder (F := F)) 239 rfl (by decide) (by decide) (launchContents m c)
theorem rst_main_v174 (c : Dev nD) :
    RW m c (Proc.devRef .tc main_v174) = ((fun l r => Host.dotGeneral dot_S4096x64_S64x25000_S4096x25000_1_0_0_1_n_n none l r) : (⟨S4096x64, .f32⟩ : BufTy).Contents (Elt F) → (⟨S64x25000, .f32⟩ : BufTy).Contents (Elt F) → (⟨S4096x25000, .f32⟩ : BufTy).Contents (Elt F)) (RW m c (Proc.devRef .tc main_v157)) (RW m c (Proc.devRef .tc main_v173)) :=
  Cert.Lib.ReadFinal.binary (l := ops) (ref_inOrder (F := F)) 240 rfl (by decide) (by decide) (by decide) (launchContents m c)
theorem rst_main_cst_40 (c : Dev nD) :
    RW m c (Proc.devRef .tc main_cst_40) = (constant (F := F) S_ .f32 0x3DCCCCCD#32) :=
  Cert.Lib.ReadFinal.nullary (l := ops) (ref_inOrder (F := F)) 241 rfl (by decide) (launchContents m c)
theorem rst_main_v175 (c : Dev nD) :
    RW m c (Proc.devRef .tc main_v175) = (broadcastInDim S4096x25000 ![] bcast_S_S4096x25000 : (⟨S_, .f32⟩ : BufTy).Contents (Elt F) → (⟨S4096x25000, .f32⟩ : BufTy).Contents (Elt F)) (RW m c (Proc.devRef .tc main_cst_40)) :=
  Cert.Lib.ReadFinal.unary (l := ops) (ref_inOrder (F := F)) 242 rfl (by decide) (by decide) (launchContents m c)
theorem rst_main_v176 (c : Dev nD) :
    RW m c (Proc.devRef .tc main_v176) = (Host.divf : (⟨S4096x25000, .f32⟩ : BufTy).Contents (Elt F) → (⟨S4096x25000, .f32⟩ : BufTy).Contents (Elt F) → (⟨S4096x25000, .f32⟩ : BufTy).Contents (Elt F)) (RW m c (Proc.devRef .tc main_v174)) (RW m c (Proc.devRef .tc main_v175)) :=
  Cert.Lib.ReadFinal.binary (l := ops) (ref_inOrder (F := F)) 243 rfl (by decide) (by decide) (by decide) (launchContents m c)
theorem rst_main_v177 (c : Dev nD) :
    RW m c (Proc.devRef .tc main_v177) = (Host.exp : (⟨S4096x25000, .f32⟩ : BufTy).Contents (Elt F) → (⟨S4096x25000, .f32⟩ : BufTy).Contents (Elt F)) (RW m c (Proc.devRef .tc main_v176)) :=
  Cert.Lib.ReadFinal.unary (l := ops) (ref_inOrder (F := F)) 244 rfl (by decide) (by decide) (launchContents m c)
theorem rst_main_cst_41 (c : Dev nD) :
    RW m c (Proc.devRef .tc main_cst_41) = (constant (F := F) S_ .f32 0x00000000#32) :=
  Cert.Lib.ReadFinal.nullary (l := ops) (ref_inOrder (F := F)) 245 rfl (by decide) (launchContents m c)
theorem rst_main_v178 (c : Dev nD) :
    RW m c (Proc.devRef .tc main_v178) = ((fun x v => Host.reduceAdd x v reducesTo_S4096x25000_S4096_d1 h_S_) : (⟨S4096x25000, .f32⟩ : BufTy).Contents (Elt F) → (⟨S_, .f32⟩ : BufTy).Contents (Elt F) → (⟨S4096, .f32⟩ : BufTy).Contents (Elt F)) (RW m c (Proc.devRef .tc main_v177)) (RW m c (Proc.devRef .tc main_cst_41)) :=
  Cert.Lib.ReadFinal.binary (l := ops) (ref_inOrder (F := F)) 246 rfl (by decide) (by decide) (by decide) (launchContents m c)
theorem rst_main_v179 (c : Dev nD) :
    RW m c (Proc.devRef .tc main_v179) = (Host.divf : (⟨S4096, .f32⟩ : BufTy).Contents (Elt F) → (⟨S4096, .f32⟩ : BufTy).Contents (Elt F) → (⟨S4096, .f32⟩ : BufTy).Contents (Elt F)) (RW m c (Proc.devRef .tc main_v172)) (RW m c (Proc.devRef .tc main_v178)) :=
  Cert.Lib.ReadFinal.binary (l := ops) (ref_inOrder (F := F)) 247 rfl (by decide) (by decide) (by decide) (launchContents m c)
theorem rst_main_v180 (c : Dev nD) :
    RW m c (Proc.devRef .tc main_v180) = (Host.log : (⟨S4096, .f32⟩ : BufTy).Contents (Elt F) → (⟨S4096, .f32⟩ : BufTy).Contents (Elt F)) (RW m c (Proc.devRef .tc main_v179)) :=
  Cert.Lib.ReadFinal.unary (l := ops) (ref_inOrder (F := F)) 248 rfl (by decide) (by decide) (launchContents m c)
theorem rst_main_cst_42 (c : Dev nD) :
    RW m c (Proc.devRef .tc main_cst_42) = (constant (F := F) S_ .f32 0x00000000#32) :=
  Cert.Lib.ReadFinal.nullary (l := ops) (ref_inOrder (F := F)) 249 rfl (by decide) (launchContents m c)
theorem rst_main_v181 (c : Dev nD) :
    RW m c (Proc.devRef .tc main_v181) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (RW m c (Proc.devRef .tc main_v180)) (RW m c (Proc.devRef .tc main_cst_42)) :=
  Cert.Lib.ReadFinal.binary (l := ops) (ref_inOrder (F := F)) 250 rfl (by decide) (by decide) (by decide) (launchContents m c)
theorem rst_main_v182 (c : Dev nD) :
    RW m c (Proc.devRef .tc main_v182) = (Host.negf : (⟨S_, .f32⟩ : BufTy).Contents (Elt F) → (⟨S_, .f32⟩ : BufTy).Contents (Elt F)) (RW m c (Proc.devRef .tc main_v181)) :=
  Cert.Lib.ReadFinal.unary (l := ops) (ref_inOrder (F := F)) 251 rfl (by decide) (by decide) (launchContents m c)
theorem rst_main_cst_43 (c : Dev nD) :
    RW m c (Proc.devRef .tc main_cst_43) = (constant (F := F) S_ .f32 0x3F800000#32) :=
  Cert.Lib.ReadFinal.nullary (l := ops) (ref_inOrder (F := F)) 252 rfl (by decide) (launchContents m c)
theorem rst_main_v183 (c : Dev nD) :
    RW m c (Proc.devRef .tc main_v183) = (mulf : (⟨S_, .f32⟩ : BufTy).Contents (Elt F) → (⟨S_, .f32⟩ : BufTy).Contents (Elt F) → (⟨S_, .f32⟩ : BufTy).Contents (Elt F)) (RW m c (Proc.devRef .tc main_cst_43)) (RW m c (Proc.devRef .tc main_v182)) :=
  Cert.Lib.ReadFinal.binary (l := ops) (ref_inOrder (F := F)) 253 rfl (by decide) (by decide) (by decide) (launchContents m c)
theorem rst_main_v184 (c : Dev nD) :
    RW m c (Proc.devRef .tc main_v184) = (addf : (⟨S_, .f32⟩ : BufTy).Contents (Elt F) → (⟨S_, .f32⟩ : BufTy).Contents (Elt F) → (⟨S_, .f32⟩ : BufTy).Contents (Elt F)) (RW m c (Proc.devRef .tc main_v152)) (RW m c (Proc.devRef .tc main_v183)) :=
  Cert.Lib.ReadFinal.binary (l := ops) (ref_inOrder (F := F)) 254 rfl (by decide) (by decide) (by decide) (launchContents m c)
theorem rst_main_cst_44 (c : Dev nD) :
    RW m c (Proc.devRef .tc main_cst_44) = (constant (F := F) S_ .f32 0x358637BD#32) :=
  Cert.Lib.ReadFinal.nullary (l := ops) (ref_inOrder (F := F)) 255 rfl (by decide) (launchContents m c)
theorem rst_main_v185 (c : Dev nD) :
    RW m c (Proc.devRef .tc main_v185) = (mulf : (⟨S_, .f32⟩ : BufTy).Contents (Elt F) → (⟨S_, .f32⟩ : BufTy).Contents (Elt F) → (⟨S_, .f32⟩ : BufTy).Contents (Elt F)) (RW m c (Proc.devRef .tc main_cst_44)) (RW m c (Proc.devRef .tc main_v184)) :=
  Cert.Lib.ReadFinal.binary (l := ops) (ref_inOrder (F := F)) 256 rfl (by decide) (by decide) (by decide) (launchContents m c)
theorem rst_main_c_45 (c : Dev nD) :
    RW m c (Proc.devRef .tc main_c_45) = (constantI S_ 32 0#32) :=
  Cert.Lib.ReadFinal.nullary (l := ops) (ref_inOrder (F := F)) 257 rfl (by decide) (launchContents m c)
theorem rst_main_v186 (c : Dev nD) :
    RW m c (Proc.devRef .tc main_v186) = (broadcastInDim S4096 ![] bcast_S_S4096 : (⟨S_, .i32⟩ : BufTy).Contents (Elt F) → (⟨S4096, .i32⟩ : BufTy).Contents (Elt F)) (RW m c (Proc.devRef .tc main_c_45)) :=
  Cert.Lib.ReadFinal.unary (l := ops) (ref_inOrder (F := F)) 258 rfl (by decide) (by decide) (launchContents m c)
theorem rst_main_v187 (c : Dev nD) :
    RW m c (Proc.devRef .tc main_v187) = (cmpi .slt : (⟨S4096, .i32⟩ : BufTy).Contents (Elt F) → (⟨S4096, .i32⟩ : BufTy).Contents (Elt F) → (⟨S4096, .i1⟩ : BufTy).Contents (Elt F)) (RW m c (Proc.devRef .tc main_arg10)) (RW m c (Proc.devRef .tc main_v186)) :=
  Cert.Lib.ReadFinal.binary (l := ops) (ref_inOrder (F := F)) 259 rfl (by decide) (by decide) (by decide) (launchContents m c)
theorem rst_main_c_46 (c : Dev nD) :
    RW m c (Proc.devRef .tc main_c_46) = (constantI S_ 32 50000#32) :=
  Cert.Lib.ReadFinal.nullary (l := ops) (ref_inOrder (F := F)) 260 rfl (by decide) (launchContents m c)
theorem rst_main_v188 (c : Dev nD) :
    RW m c (Proc.devRef .tc main_v188) = (broadcastInDim S4096 ![] bcast_S_S4096 : (⟨S_, .i32⟩ : BufTy).Contents (Elt F) → (⟨S4096, .i32⟩ : BufTy).Contents (Elt F)) (RW m c (Proc.devRef .tc main_c_46)) :=
  Cert.Lib.ReadFinal.unary (l := ops) (ref_inOrder (F := F)) 261 rfl (by decide) (by decide) (launchContents m c)
theorem rst_main_v189 (c : Dev nD) :
    RW m c (Proc.devRef .tc main_v189) = (addi : (⟨S4096, .i32⟩ : BufTy).Contents (Elt F) → (⟨S4096, .i32⟩ : BufTy).Contents (Elt F) → (⟨S4096, .i32⟩ : BufTy).Contents (Elt F)) (RW m c (Proc.devRef .tc main_arg10)) (RW m c (Proc.devRef .tc main_v188)) :=
  Cert.Lib.ReadFinal.binary (l := ops) (ref_inOrder (F := F)) 262 rfl (by decide) (by decide) (by decide) (launchContents m c)
theorem rst_main_v190 (c : Dev nD) :
    RW m c (Proc.devRef .tc main_v190) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v187)) (RW m c (Proc.devRef .tc main_v189)) (RW m c (Proc.devRef .tc main_arg10)) :=
  Cert.Lib.ReadFinal.ternary (l := ops) (ref_inOrder (F := F)) 263 rfl (by decide) (by decide) (by decide) (by decide) (launchContents m c)
theorem rst_main_v191 (c : Dev nD) :
    RW m c (Proc.devRef .tc main_v191) = (broadcastInDim S4096x1 ![0] bcast_S4096_S4096x1_0 : (⟨S4096, .i32⟩ : BufTy).Contents (Elt F) → (⟨S4096x1, .i32⟩ : BufTy).Contents (Elt F)) (RW m c (Proc.devRef .tc main_v190)) :=
  Cert.Lib.ReadFinal.unary (l := ops) (ref_inOrder (F := F)) 264 rfl (by decide) (by decide) (launchContents m c)
theorem rst_main_v192 (c : Dev nD) :
    RW m c (Proc.devRef .tc main_v192) = ((fun x i => Host.gather gather_S50000x64_S4096x1_S4096x64_1_0_n_n_0_1_164 x i) : (⟨S50000x64, .f32⟩ : BufTy).Contents (Elt F) → (⟨S4096x1, .i32⟩ : BufTy).Contents (Elt F) → (⟨S4096x64, .f32⟩ : BufTy).Contents (Elt F)) (RW m c (Proc.devRef .tc main_arg0)) (RW m c (Proc.devRef .tc main_v191)) :=
  Cert.Lib.ReadFinal.binary (l := ops) (ref_inOrder (F := F)) 265 rfl (by decide) (by decide) (by decide) (launchContents m c)
theorem rst_main_call6_v0 (c : Dev nD) :
    RW m c (Proc.devRef .tc main_call6_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v192)) (RW m c (Proc.devRef .tc main_v192)) :=
  Cert.Lib.ReadFinal.binary (l := ops) (ref_inOrder (F := F)) 266 rfl (by decide) (by decide) (by decide) (launchContents m c)
theorem rst_main_call6_cst (c : Dev nD) :
    RW m c (Proc.devRef .tc main_call6_cst) = ((constant (F := F) S_ .f32 0x00000000#32) : (⟨S_, .f32⟩ : BufTy).Contents (Elt F)) :=
  Cert.Lib.ReadFinal.nullary (l := ops) (ref_inOrder (F := F)) 267 rfl (by decide) (launchContents m c)
theorem rst_main_call6_v1 (c : Dev nD) :
    RW m c (Proc.devRef .tc main_call6_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call6_v0)) (RW m c (Proc.devRef .tc main_call6_cst)) :=
  Cert.Lib.ReadFinal.binary (l := ops) (ref_inOrder (F := F)) 268 rfl (by decide) (by decide) (by decide) (launchContents m c)
theorem rst_main_call6_v2 (c : Dev nD) :
    RW m c (Proc.devRef .tc main_call6_v2) = ((broadcastInDim S4096x1 ![0] bcast_S4096_S4096x1_0) : (⟨S4096, .f32⟩ : BufTy).Contents (Elt F) → (⟨S4096x1, .f32⟩ : BufTy).Contents (Elt F)) (RW m c (Proc.devRef .tc main_call6_v1)) :=
  Cert.Lib.ReadFinal.unary (l := ops) (ref_inOrder (F := F)) 269 rfl (by decide) (by decide) (launchContents m c)
theorem rst_main_v193 (c : Dev nD) :
    RW m c (Proc.devRef .tc main_v193) = ((Host.sqrt) : (⟨S4096x1, .f32⟩ : BufTy).Contents (Elt F) → (⟨S4096x1, .f32⟩ : BufTy).Contents (Elt F)) (RW m c (Proc.devRef .tc main_call6_v2)) :=
  Cert.Lib.ReadFinal.unary (l := ops) (ref_inOrder (F := F)) 270 rfl (by decide) (by decide) (launchContents m c)
theorem rst_main_cst_47 (c : Dev nD) :
    RW m c (Proc.devRef .tc main_cst_47) = (constant (F := F) S_ .f32 0x2B8CBCCC#32) :=
  Cert.Lib.ReadFinal.nullary (l := ops) (ref_inOrder (F := F)) 271 rfl (by decide) (launchContents m c)
theorem rst_main_v194 (c : Dev nD) :
    RW m c (Proc.devRef .tc main_v194) = (broadcastInDim S4096x1 ![] bcast_S_S4096x1 : (⟨S_, .f32⟩ : BufTy).Contents (Elt F) → (⟨S4096x1, .f32⟩ : BufTy).Contents (Elt F)) (RW m c (Proc.devRef .tc main_cst_47)) :=
  Cert.Lib.ReadFinal.unary (l := ops) (ref_inOrder (F := F)) 272 rfl (by decide) (by decide) (launchContents m c)
theorem rst_main_v195 (c : Dev nD) :
    RW m c (Proc.devRef .tc main_v195) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v193)) (RW m c (Proc.devRef .tc main_v194)) :=
  Cert.Lib.ReadFinal.binary (l := ops) (ref_inOrder (F := F)) 273 rfl (by decide) (by decide) (by decide) (launchContents m c)
theorem rst_main_v196 (c : Dev nD) :
    RW m c (Proc.devRef .tc main_v196) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v195)) :=
  Cert.Lib.ReadFinal.unary (l := ops) (ref_inOrder (F := F)) 274 rfl (by decide) (by decide) (launchContents m c)
theorem rst_main_v197 (c : Dev nD) :
    RW m c (Proc.devRef .tc main_v197) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v192)) (RW m c (Proc.devRef .tc main_v196)) :=
  Cert.Lib.ReadFinal.binary (l := ops) (ref_inOrder (F := F)) 275 rfl (by decide) (by decide) (by decide) (launchContents m c)
theorem rst_main_call7_v0 (c : Dev nD) :
    RW m c (Proc.devRef .tc main_call7_v0) = ((mulf) : (⟨S1000x64, .f32⟩ : BufTy).Contents (Elt F) → (⟨S1000x64, .f32⟩ : BufTy).Contents (Elt F) → (⟨S1000x64, .f32⟩ : BufTy).Contents (Elt F)) (RW m c (Proc.devRef .tc main_arg2)) (RW m c (Proc.devRef .tc main_arg2)) :=
  Cert.Lib.ReadFinal.binary (l := ops) (ref_inOrder (F := F)) 276 rfl (by decide) (by decide) (by decide) (launchContents m c)
theorem rst_main_call7_cst (c : Dev nD) :
    RW m c (Proc.devRef .tc main_call7_cst) = ((constant (F := F) S_ .f32 0x00000000#32) : (⟨S_, .f32⟩ : BufTy).Contents (Elt F)) :=
  Cert.Lib.ReadFinal.nullary (l := ops) (ref_inOrder (F := F)) 277 rfl (by decide) (launchContents m c)
theorem rst_main_call7_v1 (c : Dev nD) :
    RW m c (Proc.devRef .tc main_call7_v1) = ((fun x v => Host.reduceAdd x v reducesTo_S1000x64_S1000_d1 h_S_) : (⟨S1000x64, .f32⟩ : BufTy).Contents (Elt F) → (⟨S_, .f32⟩ : BufTy).Contents (Elt F) → (⟨S1000, .f32⟩ : BufTy).Contents (Elt F)) (RW m c (Proc.devRef .tc main_call7_v0)) (RW m c (Proc.devRef .tc main_call7_cst)) :=
  Cert.Lib.ReadFinal.binary (l := ops) (ref_inOrder (F := F)) 278 rfl (by decide) (by decide) (by decide) (launchContents m c)
theorem rst_main_call7_v2 (c : Dev nD) :
    RW m c (Proc.devRef .tc main_call7_v2) = ((broadcastInDim S1000x1 ![0] bcast_S1000_S1000x1_0) : (⟨S1000, .f32⟩ : BufTy).Contents (Elt F) → (⟨S1000x1, .f32⟩ : BufTy).Contents (Elt F)) (RW m c (Proc.devRef .tc main_call7_v1)) :=
  Cert.Lib.ReadFinal.unary (l := ops) (ref_inOrder (F := F)) 279 rfl (by decide) (by decide) (launchContents m c)
theorem rst_main_v198 (c : Dev nD) :
    RW m c (Proc.devRef .tc main_v198) = ((Host.sqrt) : (⟨S1000x1, .f32⟩ : BufTy).Contents (Elt F) → (⟨S1000x1, .f32⟩ : BufTy).Contents (Elt F)) (RW m c (Proc.devRef .tc main_call7_v2)) :=
  Cert.Lib.ReadFinal.unary (l := ops) (ref_inOrder (F := F)) 280 rfl (by decide) (by decide) (launchContents m c)
theorem rst_main_cst_48 (c : Dev nD) :
    RW m c (Proc.devRef .tc main_cst_48) = (constant (F := F) S_ .f32 0x2B8CBCCC#32) :=
  Cert.Lib.ReadFinal.nullary (l := ops) (ref_inOrder (F := F)) 281 rfl (by decide) (launchContents m c)
theorem rst_main_v199 (c : Dev nD) :
    RW m c (Proc.devRef .tc main_v199) = (broadcastInDim S1000x1 ![] bcast_S_S1000x1 : (⟨S_, .f32⟩ : BufTy).Contents (Elt F) → (⟨S1000x1, .f32⟩ : BufTy).Contents (Elt F)) (RW m c (Proc.devRef .tc main_cst_48)) :=
  Cert.Lib.ReadFinal.unary (l := ops) (ref_inOrder (F := F)) 282 rfl (by decide) (by decide) (launchContents m c)
theorem rst_main_v200 (c : Dev nD) :
    RW m c (Proc.devRef .tc main_v200) = (maximumf : (⟨S1000x1, .f32⟩ : BufTy).Contents (Elt F) → (⟨S1000x1, .f32⟩ : BufTy).Contents (Elt F) → (⟨S1000x1, .f32⟩ : BufTy).Contents (Elt F)) (RW m c (Proc.devRef .tc main_v198)) (RW m c (Proc.devRef .tc main_v199)) :=
  Cert.Lib.ReadFinal.binary (l := ops) (ref_inOrder (F := F)) 283 rfl (by decide) (by decide) (by decide) (launchContents m c)
theorem rst_main_v201 (c : Dev nD) :
    RW m c (Proc.devRef .tc main_v201) = (broadcastInDim S1000x64 ![0, 1] bcast_S1000x1_S1000x64_0_1 : (⟨S1000x1, .f32⟩ : BufTy).Contents (Elt F) → (⟨S1000x64, .f32⟩ : BufTy).Contents (Elt F)) (RW m c (Proc.devRef .tc main_v200)) :=
  Cert.Lib.ReadFinal.unary (l := ops) (ref_inOrder (F := F)) 284 rfl (by decide) (by decide) (launchContents m c)
theorem rst_main_v202 (c : Dev nD) :
    RW m c (Proc.devRef .tc main_v202) = (Host.divf : (⟨S1000x64, .f32⟩ : BufTy).Contents (Elt F) → (⟨S1000x64, .f32⟩ : BufTy).Contents (Elt F) → (⟨S1000x64, .f32⟩ : BufTy).Contents (Elt F)) (RW m c (Proc.devRef .tc main_arg2)) (RW m c (Proc.devRef .tc main_v201)) :=
  Cert.Lib.ReadFinal.binary (l := ops) (ref_inOrder (F := F)) 285 rfl (by decide) (by decide) (by decide) (launchContents m c)
theorem rst_main_c_49 (c : Dev nD) :
    RW m c (Proc.devRef .tc main_c_49) = (constantI S_ 32 0#32) :=
  Cert.Lib.ReadFinal.nullary (l := ops) (ref_inOrder (F := F)) 286 rfl (by decide) (launchContents m c)
theorem rst_main_v203 (c : Dev nD) :
    RW m c (Proc.devRef .tc main_v203) = (broadcastInDim S4096 ![] bcast_S_S4096 : (⟨S_, .i32⟩ : BufTy).Contents (Elt F) → (⟨S4096, .i32⟩ : BufTy).Contents (Elt F)) (RW m c (Proc.devRef .tc main_c_49)) :=
  Cert.Lib.ReadFinal.unary (l := ops) (ref_inOrder (F := F)) 287 rfl (by decide) (by decide) (launchContents m c)
theorem rst_main_v204 (c : Dev nD) :
    RW m c (Proc.devRef .tc main_v204) = (cmpi .slt : (⟨S4096, .i32⟩ : BufTy).Contents (Elt F) → (⟨S4096, .i32⟩ : BufTy).Contents (Elt F) → (⟨S4096, .i1⟩ : BufTy).Contents (Elt F)) (RW m c (Proc.devRef .tc main_arg10)) (RW m c (Proc.devRef .tc main_v203)) :=
  Cert.Lib.ReadFinal.binary (l := ops) (ref_inOrder (F := F)) 288 rfl (by decide) (by decide) (by decide) (launchContents m c)
theorem rst_main_c_50 (c : Dev nD) :
    RW m c (Proc.devRef .tc main_c_50) = (constantI S_ 32 50000#32) :=
  Cert.Lib.ReadFinal.nullary (l := ops) (ref_inOrder (F := F)) 289 rfl (by decide) (launchContents m c)
theorem rst_main_v205 (c : Dev nD) :
    RW m c (Proc.devRef .tc main_v205) = (broadcastInDim S4096 ![] bcast_S_S4096 : (⟨S_, .i32⟩ : BufTy).Contents (Elt F) → (⟨S4096, .i32⟩ : BufTy).Contents (Elt F)) (RW m c (Proc.devRef .tc main_c_50)) :=
  Cert.Lib.ReadFinal.unary (l := ops) (ref_inOrder (F := F)) 290 rfl (by decide) (by decide) (launchContents m c)
theorem rst_main_v206 (c : Dev nD) :
    RW m c (Proc.devRef .tc main_v206) = (addi : (⟨S4096, .i32⟩ : BufTy).Contents (Elt F) → (⟨S4096, .i32⟩ : BufTy).Contents (Elt F) → (⟨S4096, .i32⟩ : BufTy).Contents (Elt F)) (RW m c (Proc.devRef .tc main_arg10)) (RW m c (Proc.devRef .tc main_v205)) :=
  Cert.Lib.ReadFinal.binary (l := ops) (ref_inOrder (F := F)) 291 rfl (by decide) (by decide) (by decide) (launchContents m c)
theorem rst_main_v207 (c : Dev nD) :
    RW m c (Proc.devRef .tc main_v207) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v204)) (RW m c (Proc.devRef .tc main_v206)) (RW m c (Proc.devRef .tc main_arg10)) :=
  Cert.Lib.ReadFinal.ternary (l := ops) (ref_inOrder (F := F)) 292 rfl (by decide) (by decide) (by decide) (by decide) (launchContents m c)
theorem rst_main_v208 (c : Dev nD) :
    RW m c (Proc.devRef .tc main_v208) = (broadcastInDim S4096x1 ![0] bcast_S4096_S4096x1_0 : (⟨S4096, .i32⟩ : BufTy).Contents (Elt F) → (⟨S4096x1, .i32⟩ : BufTy).Contents (Elt F)) (RW m c (Proc.devRef .tc main_v207)) :=
  Cert.Lib.ReadFinal.unary (l := ops) (ref_inOrder (F := F)) 293 rfl (by decide) (by decide) (launchContents m c)
theorem rst_main_v209 (c : Dev nD) :
    RW m c (Proc.devRef .tc main_v209) = ((fun x i => Host.gather gather_S50000_S4096x1_S4096_n_0_n_n_0_1_1 x i) : (⟨S50000, .i32⟩ : BufTy).Contents (Elt F) → (⟨S4096x1, .i32⟩ : BufTy).Contents (Elt F) → (⟨S4096, .i32⟩ : BufTy).Contents (Elt F)) (RW m c (Proc.devRef .tc main_arg12)) (RW m c (Proc.devRef .tc main_v208)) :=
  Cert.Lib.ReadFinal.binary (l := ops) (ref_inOrder (F := F)) 294 rfl (by decide) (by decide) (by decide) (launchContents m c)
theorem rst_main_c_51 (c : Dev nD) :
    RW m c (Proc.devRef .tc main_c_51) = (constantI S_ 32 0#32) :=
  Cert.Lib.ReadFinal.nullary (l := ops) (ref_inOrder (F := F)) 295 rfl (by decide) (launchContents m c)
theorem rst_main_v210 (c : Dev nD) :
    RW m c (Proc.devRef .tc main_v210) = (broadcastInDim S4096 ![] bcast_S_S4096 : (⟨S_, .i32⟩ : BufTy).Contents (Elt F) → (⟨S4096, .i32⟩ : BufTy).Contents (Elt F)) (RW m c (Proc.devRef .tc main_c_51)) :=
  Cert.Lib.ReadFinal.unary (l := ops) (ref_inOrder (F := F)) 296 rfl (by decide) (by decide) (launchContents m c)
theorem rst_main_v211 (c : Dev nD) :
    RW m c (Proc.devRef .tc main_v211) = (cmpi .slt : (⟨S4096, .i32⟩ : BufTy).Contents (Elt F) → (⟨S4096, .i32⟩ : BufTy).Contents (Elt F) → (⟨S4096, .i1⟩ : BufTy).Contents (Elt F)) (RW m c (Proc.devRef .tc main_v209)) (RW m c (Proc.devRef .tc main_v210)) :=
  Cert.Lib.ReadFinal.binary (l := ops) (ref_inOrder (F := F)) 297 rfl (by decide) (by decide) (by decide) (launchContents m c)
theorem rst_main_c_52 (c : Dev nD) :
    RW m c (Proc.devRef .tc main_c_52) = (constantI S_ 32 1000#32) :=
  Cert.Lib.ReadFinal.nullary (l := ops) (ref_inOrder (F := F)) 298 rfl (by decide) (launchContents m c)
theorem rst_main_v212 (c : Dev nD) :
    RW m c (Proc.devRef .tc main_v212) = (broadcastInDim S4096 ![] bcast_S_S4096 : (⟨S_, .i32⟩ : BufTy).Contents (Elt F) → (⟨S4096, .i32⟩ : BufTy).Contents (Elt F)) (RW m c (Proc.devRef .tc main_c_52)) :=
  Cert.Lib.ReadFinal.unary (l := ops) (ref_inOrder (F := F)) 299 rfl (by decide) (by decide) (launchContents m c)
theorem rst_main_v213 (c : Dev nD) :
    RW m c (Proc.devRef .tc main_v213) = (addi : (⟨S4096, .i32⟩ : BufTy).Contents (Elt F) → (⟨S4096, .i32⟩ : BufTy).Contents (Elt F) → (⟨S4096, .i32⟩ : BufTy).Contents (Elt F)) (RW m c (Proc.devRef .tc main_v209)) (RW m c (Proc.devRef .tc main_v212)) :=
  Cert.Lib.ReadFinal.binary (l := ops) (ref_inOrder (F := F)) 300 rfl (by decide) (by decide) (by decide) (launchContents m c)
theorem rst_main_v214 (c : Dev nD) :
    RW m c (Proc.devRef .tc main_v214) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v211)) (RW m c (Proc.devRef .tc main_v213)) (RW m c (Proc.devRef .tc main_v209)) :=
  Cert.Lib.ReadFinal.ternary (l := ops) (ref_inOrder (F := F)) 301 rfl (by decide) (by decide) (by decide) (by decide) (launchContents m c)
theorem rst_main_v215 (c : Dev nD) :
    RW m c (Proc.devRef .tc main_v215) = (broadcastInDim S4096x1 ![0] bcast_S4096_S4096x1_0 : (⟨S4096, .i32⟩ : BufTy).Contents (Elt F) → (⟨S4096x1, .i32⟩ : BufTy).Contents (Elt F)) (RW m c (Proc.devRef .tc main_v214)) :=
  Cert.Lib.ReadFinal.unary (l := ops) (ref_inOrder (F := F)) 302 rfl (by decide) (by decide) (launchContents m c)
theorem rst_main_v216 (c : Dev nD) :
    RW m c (Proc.devRef .tc main_v216) = ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)) (RW m c (Proc.devRef .tc main_v202)) (RW m c (Proc.devRef .tc main_v215)) :=
  Cert.Lib.ReadFinal.binary (l := ops) (ref_inOrder (F := F)) 303 rfl (by decide) (by decide) (by decide) (launchContents m c)
theorem rst_main_v217 (c : Dev nD) :
    RW m c (Proc.devRef .tc main_v217) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v197)) (RW m c (Proc.devRef .tc main_v216)) :=
  Cert.Lib.ReadFinal.binary (l := ops) (ref_inOrder (F := F)) 304 rfl (by decide) (by decide) (by decide) (launchContents m c)
theorem rst_main_cst_53 (c : Dev nD) :
    RW m c (Proc.devRef .tc main_cst_53) = (constant (F := F) S_ .f32 0x00000000#32) :=
  Cert.Lib.ReadFinal.nullary (l := ops) (ref_inOrder (F := F)) 305 rfl (by decide) (launchContents m c)
theorem rst_main_v218 (c : Dev nD) :
    RW m c (Proc.devRef .tc main_v218) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_v217)) (RW m c (Proc.devRef .tc main_cst_53)) :=
  Cert.Lib.ReadFinal.binary (l := ops) (ref_inOrder (F := F)) 306 rfl (by decide) (by decide) (by decide) (launchContents m c)
theorem rst_main_cst_54 (c : Dev nD) :
    RW m c (Proc.devRef .tc main_cst_54) = (constant (F := F) S_ .f32 0x3DCCCCCD#32) :=
  Cert.Lib.ReadFinal.nullary (l := ops) (ref_inOrder (F := F)) 307 rfl (by decide) (launchContents m c)
theorem rst_main_v219 (c : Dev nD) :
    RW m c (Proc.devRef .tc main_v219) = (broadcastInDim S4096 ![] bcast_S_S4096 : (⟨S_, .f32⟩ : BufTy).Contents (Elt F) → (⟨S4096, .f32⟩ : BufTy).Contents (Elt F)) (RW m c (Proc.devRef .tc main_cst_54)) :=
  Cert.Lib.ReadFinal.unary (l := ops) (ref_inOrder (F := F)) 308 rfl (by decide) (by decide) (launchContents m c)
theorem rst_main_v220 (c : Dev nD) :
    RW m c (Proc.devRef .tc main_v220) = (Host.divf : (⟨S4096, .f32⟩ : BufTy).Contents (Elt F) → (⟨S4096, .f32⟩ : BufTy).Contents (Elt F) → (⟨S4096, .f32⟩ : BufTy).Contents (Elt F)) (RW m c (Proc.devRef .tc main_v218)) (RW m c (Proc.devRef .tc main_v219)) :=
  Cert.Lib.ReadFinal.binary (l := ops) (ref_inOrder (F := F)) 309 rfl (by decide) (by decide) (by decide) (launchContents m c)
theorem rst_main_v221 (c : Dev nD) :
    RW m c (Proc.devRef .tc main_v221) = (Host.exp : (⟨S4096, .f32⟩ : BufTy).Contents (Elt F) → (⟨S4096, .f32⟩ : BufTy).Contents (Elt F)) (RW m c (Proc.devRef .tc main_v220)) :=
  Cert.Lib.ReadFinal.unary (l := ops) (ref_inOrder (F := F)) 310 rfl (by decide) (by decide) (launchContents m c)
theorem rst_main_v222 (c : Dev nD) :
    RW m c (Proc.devRef .tc main_v222) = ((transpose S64x1000 [1, 0] · transposes_S1000x64_S64x1000_1_0) : (⟨S1000x64, .f32⟩ : BufTy).Contents (Elt F) → (⟨S64x1000, .f32⟩ : BufTy).Contents (Elt F)) (RW m c (Proc.devRef .tc main_v202)) :=
  Cert.Lib.ReadFinal.unary (l := ops) (ref_inOrder (F := F)) 311 rfl (by decide) (by decide) (launchContents m c)
theorem rst_main_v223 (c : Dev nD) :
    RW m c (Proc.devRef .tc main_v223) = ((fun l r => Host.dotGeneral dot_S4096x64_S64x1000_S4096x1000_1_0_0_1_n_n none l r) : (⟨S4096x64, .f32⟩ : BufTy).Contents (Elt F) → (⟨S64x1000, .f32⟩ : BufTy).Contents (Elt F) → (⟨S4096x1000, .f32⟩ : BufTy).Contents (Elt F)) (RW m c (Proc.devRef .tc main_v197)) (RW m c (Proc.devRef .tc main_v222)) :=
  Cert.Lib.ReadFinal.binary (l := ops) (ref_inOrder (F := F)) 312 rfl (by decide) (by decide) (by decide) (launchContents m c)
theorem rst_main_cst_55 (c : Dev nD) :
    RW m c (Proc.devRef .tc main_cst_55) = (constant (F := F) S_ .f32 0x3DCCCCCD#32) :=
  Cert.Lib.ReadFinal.nullary (l := ops) (ref_inOrder (F := F)) 313 rfl (by decide) (launchContents m c)
theorem rst_main_v224 (c : Dev nD) :
    RW m c (Proc.devRef .tc main_v224) = (broadcastInDim S4096x1000 ![] bcast_S_S4096x1000 : (⟨S_, .f32⟩ : BufTy).Contents (Elt F) → (⟨S4096x1000, .f32⟩ : BufTy).Contents (Elt F)) (RW m c (Proc.devRef .tc main_cst_55)) :=
  Cert.Lib.ReadFinal.unary (l := ops) (ref_inOrder (F := F)) 314 rfl (by decide) (by decide) (launchContents m c)
theorem rst_main_v225 (c : Dev nD) :
    RW m c (Proc.devRef .tc main_v225) = (Host.divf : (⟨S4096x1000, .f32⟩ : BufTy).Contents (Elt F) → (⟨S4096x1000, .f32⟩ : BufTy).Contents (Elt F) → (⟨S4096x1000, .f32⟩ : BufTy).Contents (Elt F)) (RW m c (Proc.devRef .tc main_v223)) (RW m c (Proc.devRef .tc main_v224)) :=
  Cert.Lib.ReadFinal.binary (l := ops) (ref_inOrder (F := F)) 315 rfl (by decide) (by decide) (by decide) (launchContents m c)
theorem rst_main_v226 (c : Dev nD) :
    RW m c (Proc.devRef .tc main_v226) = (Host.exp : (⟨S4096x1000, .f32⟩ : BufTy).Contents (Elt F) → (⟨S4096x1000, .f32⟩ : BufTy).Contents (Elt F)) (RW m c (Proc.devRef .tc main_v225)) :=
  Cert.Lib.ReadFinal.unary (l := ops) (ref_inOrder (F := F)) 316 rfl (by decide) (by decide) (launchContents m c)
theorem rst_main_cst_56 (c : Dev nD) :
    RW m c (Proc.devRef .tc main_cst_56) = (constant (F := F) S_ .f32 0x00000000#32) :=
  Cert.Lib.ReadFinal.nullary (l := ops) (ref_inOrder (F := F)) 317 rfl (by decide) (launchContents m c)
theorem rst_main_v227 (c : Dev nD) :
    RW m c (Proc.devRef .tc main_v227) = ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) (RW m c (Proc.devRef .tc main_v226)) (RW m c (Proc.devRef .tc main_cst_56)) :=
  Cert.Lib.ReadFinal.binary (l := ops) (ref_inOrder (F := F)) 318 rfl (by decide) (by decide) (by decide) (launchContents m c)
theorem rst_main_v228 (c : Dev nD) :
    RW m c (Proc.devRef .tc main_v228) = (Host.divf : (⟨S4096, .f32⟩ : BufTy).Contents (Elt F) → (⟨S4096, .f32⟩ : BufTy).Contents (Elt F) → (⟨S4096, .f32⟩ : BufTy).Contents (Elt F)) (RW m c (Proc.devRef .tc main_v221)) (RW m c (Proc.devRef .tc main_v227)) :=
  Cert.Lib.ReadFinal.binary (l := ops) (ref_inOrder (F := F)) 319 rfl (by decide) (by decide) (by decide) (launchContents m c)
theorem rst_main_v229 (c : Dev nD) :
    RW m c (Proc.devRef .tc main_v229) = (Host.log : (⟨S4096, .f32⟩ : BufTy).Contents (Elt F) → (⟨S4096, .f32⟩ : BufTy).Contents (Elt F)) (RW m c (Proc.devRef .tc main_v228)) :=
  Cert.Lib.ReadFinal.unary (l := ops) (ref_inOrder (F := F)) 320 rfl (by decide) (by decide) (launchContents m c)
theorem rst_main_cst_57 (c : Dev nD) :
    RW m c (Proc.devRef .tc main_cst_57) = (constant (F := F) S_ .f32 0x00000000#32) :=
  Cert.Lib.ReadFinal.nullary (l := ops) (ref_inOrder (F := F)) 321 rfl (by decide) (launchContents m c)
theorem rst_main_v230 (c : Dev nD) :
    RW m c (Proc.devRef .tc main_v230) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (RW m c (Proc.devRef .tc main_v229)) (RW m c (Proc.devRef .tc main_cst_57)) :=
  Cert.Lib.ReadFinal.binary (l := ops) (ref_inOrder (F := F)) 322 rfl (by decide) (by decide) (by decide) (launchContents m c)
theorem rst_main_v231 (c : Dev nD) :
    RW m c (Proc.devRef .tc main_v231) = (Host.negf : (⟨S_, .f32⟩ : BufTy).Contents (Elt F) → (⟨S_, .f32⟩ : BufTy).Contents (Elt F)) (RW m c (Proc.devRef .tc main_v230)) :=
  Cert.Lib.ReadFinal.unary (l := ops) (ref_inOrder (F := F)) 323 rfl (by decide) (by decide) (launchContents m c)
theorem rst_main_c_58 (c : Dev nD) :
    RW m c (Proc.devRef .tc main_c_58) = (constantI S_ 32 0#32) :=
  Cert.Lib.ReadFinal.nullary (l := ops) (ref_inOrder (F := F)) 324 rfl (by decide) (launchContents m c)
theorem rst_main_v232 (c : Dev nD) :
    RW m c (Proc.devRef .tc main_v232) = (broadcastInDim S4096 ![] bcast_S_S4096 : (⟨S_, .i32⟩ : BufTy).Contents (Elt F) → (⟨S4096, .i32⟩ : BufTy).Contents (Elt F)) (RW m c (Proc.devRef .tc main_c_58)) :=
  Cert.Lib.ReadFinal.unary (l := ops) (ref_inOrder (F := F)) 325 rfl (by decide) (by decide) (launchContents m c)
theorem rst_main_v233 (c : Dev nD) :
    RW m c (Proc.devRef .tc main_v233) = (cmpi .slt : (⟨S4096, .i32⟩ : BufTy).Contents (Elt F) → (⟨S4096, .i32⟩ : BufTy).Contents (Elt F) → (⟨S4096, .i1⟩ : BufTy).Contents (Elt F)) (RW m c (Proc.devRef .tc main_arg11)) (RW m c (Proc.devRef .tc main_v232)) :=
  Cert.Lib.ReadFinal.binary (l := ops) (ref_inOrder (F := F)) 326 rfl (by decide) (by decide) (by decide) (launchContents m c)
theorem rst_main_c_59 (c : Dev nD) :
    RW m c (Proc.devRef .tc main_c_59) = (constantI S_ 32 25000#32) :=
  Cert.Lib.ReadFinal.nullary (l := ops) (ref_inOrder (F := F)) 327 rfl (by decide) (launchContents m c)
theorem rst_main_v234 (c : Dev nD) :
    RW m c (Proc.devRef .tc main_v234) = (broadcastInDim S4096 ![] bcast_S_S4096 : (⟨S_, .i32⟩ : BufTy).Contents (Elt F) → (⟨S4096, .i32⟩ : BufTy).Contents (Elt F)) (RW m c (Proc.devRef .tc main_c_59)) :=
  Cert.Lib.ReadFinal.unary (l := ops) (ref_inOrder (F := F)) 328 rfl (by decide) (by decide) (launchContents m c)
theorem rst_main_v235 (c : Dev nD) :
    RW m c (Proc.devRef .tc main_v235) = (addi : (⟨S4096, .i32⟩ : BufTy).Contents (Elt F) → (⟨S4096, .i32⟩ : BufTy).Contents (Elt F) → (⟨S4096, .i32⟩ : BufTy).Contents (Elt F)) (RW m c (Proc.devRef .tc main_arg11)) (RW m c (Proc.devRef .tc main_v234)) :=
  Cert.Lib.ReadFinal.binary (l := ops) (ref_inOrder (F := F)) 329 rfl (by decide) (by decide) (by decide) (launchContents m c)
theorem rst_main_v236 (c : Dev nD) :
    RW m c (Proc.devRef .tc main_v236) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v233)) (RW m c (Proc.devRef .tc main_v235)) (RW m c (Proc.devRef .tc main_arg11)) :=
  Cert.Lib.ReadFinal.ternary (l := ops) (ref_inOrder (F := F)) 330 rfl (by decide) (by decide) (by decide) (by decide) (launchContents m c)
theorem rst_main_v237 (c : Dev nD) :
    RW m c (Proc.devRef .tc main_v237) = (broadcastInDim S4096x1 ![0] bcast_S4096_S4096x1_0 : (⟨S4096, .i32⟩ : BufTy).Contents (Elt F) → (⟨S4096x1, .i32⟩ : BufTy).Contents (Elt F)) (RW m c (Proc.devRef .tc main_v236)) :=
  Cert.Lib.ReadFinal.unary (l := ops) (ref_inOrder (F := F)) 331 rfl (by decide) (by decide) (launchContents m c)
theorem rst_main_v238 (c : Dev nD) :
    RW m c (Proc.devRef .tc main_v238) = ((fun x i => Host.gather gather_S25000x64_S4096x1_S4096x64_1_0_n_n_0_1_164 x i) : (⟨S25000x64, .f32⟩ : BufTy).Contents (Elt F) → (⟨S4096x1, .i32⟩ : BufTy).Contents (Elt F) → (⟨S4096x64, .f32⟩ : BufTy).Contents (Elt F)) (RW m c (Proc.devRef .tc main_arg1)) (RW m c (Proc.devRef .tc main_v237)) :=
  Cert.Lib.ReadFinal.binary (l := ops) (ref_inOrder (F := F)) 332 rfl (by decide) (by decide) (by decide) (launchContents m c)

end Cert.Proof.Parts

end
-- ==== Proof.RefStagesD.lean ====
/-
  The reference stage by stage: at the end, the buffer an operation wrote holds that operation's function of what its
  operands hold at the end.
-/
import proofs.«110517_j15659450761722_1_alg».proof.Proof.RefBase

set_option maxRecDepth 16384

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.RunP

variable {F : FTy → Type} [FloatOps F]

variable (m : (ℓ : Loc nD τ sig) → Buf (Elt F) ℓ)

theorem rst_main_call8_v0 (c : Dev nD) :
    RW m c (Proc.devRef .tc main_call8_v0) = ((mulf) : (⟨S4096x64, .f32⟩ : BufTy).Contents (Elt F) → (⟨S4096x64, .f32⟩ : BufTy).Contents (Elt F) → (⟨S4096x64, .f32⟩ : BufTy).Contents (Elt F)) (RW m c (Proc.devRef .tc main_v238)) (RW m c (Proc.devRef .tc main_v238)) :=
  Cert.Lib.ReadFinal.binary (l := ops) (ref_inOrder (F := F)) 333 rfl (by decide) (by decide) (by decide) (launchContents m c)
theorem rst_main_call8_cst (c : Dev nD) :
    RW m c (Proc.devRef .tc main_call8_cst) = ((constant (F := F) S_ .f32 0x00000000#32) : (⟨S_, .f32⟩ : BufTy).Contents (Elt F)) :=
  Cert.Lib.ReadFinal.nullary (l := ops) (ref_inOrder (F := F)) 334 rfl (by decide) (launchContents m c)
theorem rst_main_call8_v1 (c : Dev nD) :
    RW m c (Proc.devRef .tc main_call8_v1) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_call8_v0)) (RW m c (Proc.devRef .tc main_call8_cst)) :=
  Cert.Lib.ReadFinal.binary (l := ops) (ref_inOrder (F := F)) 335 rfl (by decide) (by decide) (by decide) (launchContents m c)
theorem rst_main_call8_v2 (c : Dev nD) :
    RW m c (Proc.devRef .tc main_call8_v2) = ((broadcastInDim S4096x1 ![0] bcast_S4096_S4096x1_0) : (⟨S4096, .f32⟩ : BufTy).Contents (Elt F) → (⟨S4096x1, .f32⟩ : BufTy).Contents (Elt F)) (RW m c (Proc.devRef .tc main_call8_v1)) :=
  Cert.Lib.ReadFinal.unary (l := ops) (ref_inOrder (F := F)) 336 rfl (by decide) (by decide) (launchContents m c)
theorem rst_main_v239 (c : Dev nD) :
    RW m c (Proc.devRef .tc main_v239) = ((Host.sqrt) : (⟨S4096x1, .f32⟩ : BufTy).Contents (Elt F) → (⟨S4096x1, .f32⟩ : BufTy).Contents (Elt F)) (RW m c (Proc.devRef .tc main_call8_v2)) :=
  Cert.Lib.ReadFinal.unary (l := ops) (ref_inOrder (F := F)) 337 rfl (by decide) (by decide) (launchContents m c)
theorem rst_main_cst_60 (c : Dev nD) :
    RW m c (Proc.devRef .tc main_cst_60) = (constant (F := F) S_ .f32 0x2B8CBCCC#32) :=
  Cert.Lib.ReadFinal.nullary (l := ops) (ref_inOrder (F := F)) 338 rfl (by decide) (launchContents m c)
theorem rst_main_v240 (c : Dev nD) :
    RW m c (Proc.devRef .tc main_v240) = (broadcastInDim S4096x1 ![] bcast_S_S4096x1 : (⟨S_, .f32⟩ : BufTy).Contents (Elt F) → (⟨S4096x1, .f32⟩ : BufTy).Contents (Elt F)) (RW m c (Proc.devRef .tc main_cst_60)) :=
  Cert.Lib.ReadFinal.unary (l := ops) (ref_inOrder (F := F)) 339 rfl (by decide) (by decide) (launchContents m c)
theorem rst_main_v241 (c : Dev nD) :
    RW m c (Proc.devRef .tc main_v241) = (maximumf : (⟨S4096x1, .f32⟩ : BufTy).Contents (Elt F) → (⟨S4096x1, .f32⟩ : BufTy).Contents (Elt F) → (⟨S4096x1, .f32⟩ : BufTy).Contents (Elt F)) (RW m c (Proc.devRef .tc main_v239)) (RW m c (Proc.devRef .tc main_v240)) :=
  Cert.Lib.ReadFinal.binary (l := ops) (ref_inOrder (F := F)) 340 rfl (by decide) (by decide) (by decide) (launchContents m c)
theorem rst_main_v242 (c : Dev nD) :
    RW m c (Proc.devRef .tc main_v242) = (broadcastInDim S4096x64 ![0, 1] bcast_S4096x1_S4096x64_0_1 : (⟨S4096x1, .f32⟩ : BufTy).Contents (Elt F) → (⟨S4096x64, .f32⟩ : BufTy).Contents (Elt F)) (RW m c (Proc.devRef .tc main_v241)) :=
  Cert.Lib.ReadFinal.unary (l := ops) (ref_inOrder (F := F)) 341 rfl (by decide) (by decide) (launchContents m c)
theorem rst_main_v243 (c : Dev nD) :
    RW m c (Proc.devRef .tc main_v243) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v238)) (RW m c (Proc.devRef .tc main_v242)) :=
  Cert.Lib.ReadFinal.binary (l := ops) (ref_inOrder (F := F)) 342 rfl (by decide) (by decide) (by decide) (launchContents m c)
theorem rst_main_call9_v0 (c : Dev nD) :
    RW m c (Proc.devRef .tc main_call9_v0) = ((mulf) : (⟨S1000x64, .f32⟩ : BufTy).Contents (Elt F) → (⟨S1000x64, .f32⟩ : BufTy).Contents (Elt F) → (⟨S1000x64, .f32⟩ : BufTy).Contents (Elt F)) (RW m c (Proc.devRef .tc main_arg3)) (RW m c (Proc.devRef .tc main_arg3)) :=
  Cert.Lib.ReadFinal.binary (l := ops) (ref_inOrder (F := F)) 343 rfl (by decide) (by decide) (by decide) (launchContents m c)
theorem rst_main_call9_cst (c : Dev nD) :
    RW m c (Proc.devRef .tc main_call9_cst) = ((constant (F := F) S_ .f32 0x00000000#32) : (⟨S_, .f32⟩ : BufTy).Contents (Elt F)) :=
  Cert.Lib.ReadFinal.nullary (l := ops) (ref_inOrder (F := F)) 344 rfl (by decide) (launchContents m c)
theorem rst_main_call9_v1 (c : Dev nD) :
    RW m c (Proc.devRef .tc main_call9_v1) = ((fun x v => Host.reduceAdd x v reducesTo_S1000x64_S1000_d1 h_S_) : (⟨S1000x64, .f32⟩ : BufTy).Contents (Elt F) → (⟨S_, .f32⟩ : BufTy).Contents (Elt F) → (⟨S1000, .f32⟩ : BufTy).Contents (Elt F)) (RW m c (Proc.devRef .tc main_call9_v0)) (RW m c (Proc.devRef .tc main_call9_cst)) :=
  Cert.Lib.ReadFinal.binary (l := ops) (ref_inOrder (F := F)) 345 rfl (by decide) (by decide) (by decide) (launchContents m c)
theorem rst_main_call9_v2 (c : Dev nD) :
    RW m c (Proc.devRef .tc main_call9_v2) = ((broadcastInDim S1000x1 ![0] bcast_S1000_S1000x1_0) : (⟨S1000, .f32⟩ : BufTy).Contents (Elt F) → (⟨S1000x1, .f32⟩ : BufTy).Contents (Elt F)) (RW m c (Proc.devRef .tc main_call9_v1)) :=
  Cert.Lib.ReadFinal.unary (l := ops) (ref_inOrder (F := F)) 346 rfl (by decide) (by decide) (launchContents m c)
theorem rst_main_v244 (c : Dev nD) :
    RW m c (Proc.devRef .tc main_v244) = ((Host.sqrt) : (⟨S1000x1, .f32⟩ : BufTy).Contents (Elt F) → (⟨S1000x1, .f32⟩ : BufTy).Contents (Elt F)) (RW m c (Proc.devRef .tc main_call9_v2)) :=
  Cert.Lib.ReadFinal.unary (l := ops) (ref_inOrder (F := F)) 347 rfl (by decide) (by decide) (launchContents m c)
theorem rst_main_cst_61 (c : Dev nD) :
    RW m c (Proc.devRef .tc main_cst_61) = (constant (F := F) S_ .f32 0x2B8CBCCC#32) :=
  Cert.Lib.ReadFinal.nullary (l := ops) (ref_inOrder (F := F)) 348 rfl (by decide) (launchContents m c)
theorem rst_main_v245 (c : Dev nD) :
    RW m c (Proc.devRef .tc main_v245) = (broadcastInDim S1000x1 ![] bcast_S_S1000x1 : (⟨S_, .f32⟩ : BufTy).Contents (Elt F) → (⟨S1000x1, .f32⟩ : BufTy).Contents (Elt F)) (RW m c (Proc.devRef .tc main_cst_61)) :=
  Cert.Lib.ReadFinal.unary (l := ops) (ref_inOrder (F := F)) 349 rfl (by decide) (by decide) (launchContents m c)
theorem rst_main_v246 (c : Dev nD) :
    RW m c (Proc.devRef .tc main_v246) = (maximumf : (⟨S1000x1, .f32⟩ : BufTy).Contents (Elt F) → (⟨S1000x1, .f32⟩ : BufTy).Contents (Elt F) → (⟨S1000x1, .f32⟩ : BufTy).Contents (Elt F)) (RW m c (Proc.devRef .tc main_v244)) (RW m c (Proc.devRef .tc main_v245)) :=
  Cert.Lib.ReadFinal.binary (l := ops) (ref_inOrder (F := F)) 350 rfl (by decide) (by decide) (by decide) (launchContents m c)
theorem rst_main_v247 (c : Dev nD) :
    RW m c (Proc.devRef .tc main_v247) = (broadcastInDim S1000x64 ![0, 1] bcast_S1000x1_S1000x64_0_1 : (⟨S1000x1, .f32⟩ : BufTy).Contents (Elt F) → (⟨S1000x64, .f32⟩ : BufTy).Contents (Elt F)) (RW m c (Proc.devRef .tc main_v246)) :=
  Cert.Lib.ReadFinal.unary (l := ops) (ref_inOrder (F := F)) 351 rfl (by decide) (by decide) (launchContents m c)
theorem rst_main_v248 (c : Dev nD) :
    RW m c (Proc.devRef .tc main_v248) = (Host.divf : (⟨S1000x64, .f32⟩ : BufTy).Contents (Elt F) → (⟨S1000x64, .f32⟩ : BufTy).Contents (Elt F) → (⟨S1000x64, .f32⟩ : BufTy).Contents (Elt F)) (RW m c (Proc.devRef .tc main_arg3)) (RW m c (Proc.devRef .tc main_v247)) :=
  Cert.Lib.ReadFinal.binary (l := ops) (ref_inOrder (F := F)) 352 rfl (by decide) (by decide) (by decide) (launchContents m c)
theorem rst_main_c_62 (c : Dev nD) :
    RW m c (Proc.devRef .tc main_c_62) = (constantI S_ 32 0#32) :=
  Cert.Lib.ReadFinal.nullary (l := ops) (ref_inOrder (F := F)) 353 rfl (by decide) (launchContents m c)
theorem rst_main_v249 (c : Dev nD) :
    RW m c (Proc.devRef .tc main_v249) = (broadcastInDim S4096 ![] bcast_S_S4096 : (⟨S_, .i32⟩ : BufTy).Contents (Elt F) → (⟨S4096, .i32⟩ : BufTy).Contents (Elt F)) (RW m c (Proc.devRef .tc main_c_62)) :=
  Cert.Lib.ReadFinal.unary (l := ops) (ref_inOrder (F := F)) 354 rfl (by decide) (by decide) (launchContents m c)
theorem rst_main_v250 (c : Dev nD) :
    RW m c (Proc.devRef .tc main_v250) = (cmpi .slt : (⟨S4096, .i32⟩ : BufTy).Contents (Elt F) → (⟨S4096, .i32⟩ : BufTy).Contents (Elt F) → (⟨S4096, .i1⟩ : BufTy).Contents (Elt F)) (RW m c (Proc.devRef .tc main_arg11)) (RW m c (Proc.devRef .tc main_v249)) :=
  Cert.Lib.ReadFinal.binary (l := ops) (ref_inOrder (F := F)) 355 rfl (by decide) (by decide) (by decide) (launchContents m c)
theorem rst_main_c_63 (c : Dev nD) :
    RW m c (Proc.devRef .tc main_c_63) = (constantI S_ 32 25000#32) :=
  Cert.Lib.ReadFinal.nullary (l := ops) (ref_inOrder (F := F)) 356 rfl (by decide) (launchContents m c)
theorem rst_main_v251 (c : Dev nD) :
    RW m c (Proc.devRef .tc main_v251) = (broadcastInDim S4096 ![] bcast_S_S4096 : (⟨S_, .i32⟩ : BufTy).Contents (Elt F) → (⟨S4096, .i32⟩ : BufTy).Contents (Elt F)) (RW m c (Proc.devRef .tc main_c_63)) :=
  Cert.Lib.ReadFinal.unary (l := ops) (ref_inOrder (F := F)) 357 rfl (by decide) (by decide) (launchContents m c)
theorem rst_main_v252 (c : Dev nD) :
    RW m c (Proc.devRef .tc main_v252) = (addi : (⟨S4096, .i32⟩ : BufTy).Contents (Elt F) → (⟨S4096, .i32⟩ : BufTy).Contents (Elt F) → (⟨S4096, .i32⟩ : BufTy).Contents (Elt F)) (RW m c (Proc.devRef .tc main_arg11)) (RW m c (Proc.devRef .tc main_v251)) :=
  Cert.Lib.ReadFinal.binary (l := ops) (ref_inOrder (F := F)) 358 rfl (by decide) (by decide) (by decide) (launchContents m c)
theorem rst_main_v253 (c : Dev nD) :
    RW m c (Proc.devRef .tc main_v253) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v250)) (RW m c (Proc.devRef .tc main_v252)) (RW m c (Proc.devRef .tc main_arg11)) :=
  Cert.Lib.ReadFinal.ternary (l := ops) (ref_inOrder (F := F)) 359 rfl (by decide) (by decide) (by decide) (by decide) (launchContents m c)
theorem rst_main_v254 (c : Dev nD) :
    RW m c (Proc.devRef .tc main_v254) = (broadcastInDim S4096x1 ![0] bcast_S4096_S4096x1_0 : (⟨S4096, .i32⟩ : BufTy).Contents (Elt F) → (⟨S4096x1, .i32⟩ : BufTy).Contents (Elt F)) (RW m c (Proc.devRef .tc main_v253)) :=
  Cert.Lib.ReadFinal.unary (l := ops) (ref_inOrder (F := F)) 360 rfl (by decide) (by decide) (launchContents m c)
theorem rst_main_v255 (c : Dev nD) :
    RW m c (Proc.devRef .tc main_v255) = ((fun x i => Host.gather gather_S25000_S4096x1_S4096_n_0_n_n_0_1_1 x i) : (⟨S25000, .i32⟩ : BufTy).Contents (Elt F) → (⟨S4096x1, .i32⟩ : BufTy).Contents (Elt F) → (⟨S4096, .i32⟩ : BufTy).Contents (Elt F)) (RW m c (Proc.devRef .tc main_arg13)) (RW m c (Proc.devRef .tc main_v254)) :=
  Cert.Lib.ReadFinal.binary (l := ops) (ref_inOrder (F := F)) 361 rfl (by decide) (by decide) (by decide) (launchContents m c)
theorem rst_main_c_64 (c : Dev nD) :
    RW m c (Proc.devRef .tc main_c_64) = (constantI S_ 32 0#32) :=
  Cert.Lib.ReadFinal.nullary (l := ops) (ref_inOrder (F := F)) 362 rfl (by decide) (launchContents m c)
theorem rst_main_v256 (c : Dev nD) :
    RW m c (Proc.devRef .tc main_v256) = (broadcastInDim S4096 ![] bcast_S_S4096 : (⟨S_, .i32⟩ : BufTy).Contents (Elt F) → (⟨S4096, .i32⟩ : BufTy).Contents (Elt F)) (RW m c (Proc.devRef .tc main_c_64)) :=
  Cert.Lib.ReadFinal.unary (l := ops) (ref_inOrder (F := F)) 363 rfl (by decide) (by decide) (launchContents m c)
theorem rst_main_v257 (c : Dev nD) :
    RW m c (Proc.devRef .tc main_v257) = (cmpi .slt : (⟨S4096, .i32⟩ : BufTy).Contents (Elt F) → (⟨S4096, .i32⟩ : BufTy).Contents (Elt F) → (⟨S4096, .i1⟩ : BufTy).Contents (Elt F)) (RW m c (Proc.devRef .tc main_v255)) (RW m c (Proc.devRef .tc main_v256)) :=
  Cert.Lib.ReadFinal.binary (l := ops) (ref_inOrder (F := F)) 364 rfl (by decide) (by decide) (by decide) (launchContents m c)
theorem rst_main_c_65 (c : Dev nD) :
    RW m c (Proc.devRef .tc main_c_65) = (constantI S_ 32 1000#32) :=
  Cert.Lib.ReadFinal.nullary (l := ops) (ref_inOrder (F := F)) 365 rfl (by decide) (launchContents m c)
theorem rst_main_v258 (c : Dev nD) :
    RW m c (Proc.devRef .tc main_v258) = (broadcastInDim S4096 ![] bcast_S_S4096 : (⟨S_, .i32⟩ : BufTy).Contents (Elt F) → (⟨S4096, .i32⟩ : BufTy).Contents (Elt F)) (RW m c (Proc.devRef .tc main_c_65)) :=
  Cert.Lib.ReadFinal.unary (l := ops) (ref_inOrder (F := F)) 366 rfl (by decide) (by decide) (launchContents m c)
theorem rst_main_v259 (c : Dev nD) :
    RW m c (Proc.devRef .tc main_v259) = (addi : (⟨S4096, .i32⟩ : BufTy).Contents (Elt F) → (⟨S4096, .i32⟩ : BufTy).Contents (Elt F) → (⟨S4096, .i32⟩ : BufTy).Contents (Elt F)) (RW m c (Proc.devRef .tc main_v255)) (RW m c (Proc.devRef .tc main_v258)) :=
  Cert.Lib.ReadFinal.binary (l := ops) (ref_inOrder (F := F)) 367 rfl (by decide) (by decide) (by decide) (launchContents m c)
theorem rst_main_v260 (c : Dev nD) :
    RW m c (Proc.devRef .tc main_v260) = (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) (RW m c (Proc.devRef .tc main_v257)) (RW m c (Proc.devRef .tc main_v259)) (RW m c (Proc.devRef .tc main_v255)) :=
  Cert.Lib.ReadFinal.ternary (l := ops) (ref_inOrder (F := F)) 368 rfl (by decide) (by decide) (by decide) (by decide) (launchContents m c)
theorem rst_main_v261 (c : Dev nD) :
    RW m c (Proc.devRef .tc main_v261) = (broadcastInDim S4096x1 ![0] bcast_S4096_S4096x1_0 : (⟨S4096, .i32⟩ : BufTy).Contents (Elt F) → (⟨S4096x1, .i32⟩ : BufTy).Contents (Elt F)) (RW m c (Proc.devRef .tc main_v260)) :=
  Cert.Lib.ReadFinal.unary (l := ops) (ref_inOrder (F := F)) 369 rfl (by decide) (by decide) (launchContents m c)
theorem rst_main_v262 (c : Dev nD) :
    RW m c (Proc.devRef .tc main_v262) = ((fun x i => Host.gather gather_S1000x64_S4096x1_S4096x64_1_0_n_n_0_1_164 x i) : (⟨S1000x64, .f32⟩ : BufTy).Contents (Elt F) → (⟨S4096x1, .i32⟩ : BufTy).Contents (Elt F) → (⟨S4096x64, .f32⟩ : BufTy).Contents (Elt F)) (RW m c (Proc.devRef .tc main_v248)) (RW m c (Proc.devRef .tc main_v261)) :=
  Cert.Lib.ReadFinal.binary (l := ops) (ref_inOrder (F := F)) 370 rfl (by decide) (by decide) (by decide) (launchContents m c)
theorem rst_main_v263 (c : Dev nD) :
    RW m c (Proc.devRef .tc main_v263) = (mulf : (⟨S4096x64, .f32⟩ : BufTy).Contents (Elt F) → (⟨S4096x64, .f32⟩ : BufTy).Contents (Elt F) → (⟨S4096x64, .f32⟩ : BufTy).Contents (Elt F)) (RW m c (Proc.devRef .tc main_v243)) (RW m c (Proc.devRef .tc main_v262)) :=
  Cert.Lib.ReadFinal.binary (l := ops) (ref_inOrder (F := F)) 371 rfl (by decide) (by decide) (by decide) (launchContents m c)
theorem rst_main_cst_66 (c : Dev nD) :
    RW m c (Proc.devRef .tc main_cst_66) = (constant (F := F) S_ .f32 0x00000000#32) :=
  Cert.Lib.ReadFinal.nullary (l := ops) (ref_inOrder (F := F)) 372 rfl (by decide) (launchContents m c)
theorem rst_main_v264 (c : Dev nD) :
    RW m c (Proc.devRef .tc main_v264) = ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)) (RW m c (Proc.devRef .tc main_v263)) (RW m c (Proc.devRef .tc main_cst_66)) :=
  Cert.Lib.ReadFinal.binary (l := ops) (ref_inOrder (F := F)) 373 rfl (by decide) (by decide) (by decide) (launchContents m c)
theorem rst_main_cst_67 (c : Dev nD) :
    RW m c (Proc.devRef .tc main_cst_67) = (constant (F := F) S_ .f32 0x3DCCCCCD#32) :=
  Cert.Lib.ReadFinal.nullary (l := ops) (ref_inOrder (F := F)) 374 rfl (by decide) (launchContents m c)
theorem rst_main_v265 (c : Dev nD) :
    RW m c (Proc.devRef .tc main_v265) = (broadcastInDim S4096 ![] bcast_S_S4096 : (⟨S_, .f32⟩ : BufTy).Contents (Elt F) → (⟨S4096, .f32⟩ : BufTy).Contents (Elt F)) (RW m c (Proc.devRef .tc main_cst_67)) :=
  Cert.Lib.ReadFinal.unary (l := ops) (ref_inOrder (F := F)) 375 rfl (by decide) (by decide) (launchContents m c)
theorem rst_main_v266 (c : Dev nD) :
    RW m c (Proc.devRef .tc main_v266) = (Host.divf : (⟨S4096, .f32⟩ : BufTy).Contents (Elt F) → (⟨S4096, .f32⟩ : BufTy).Contents (Elt F) → (⟨S4096, .f32⟩ : BufTy).Contents (Elt F)) (RW m c (Proc.devRef .tc main_v264)) (RW m c (Proc.devRef .tc main_v265)) :=
  Cert.Lib.ReadFinal.binary (l := ops) (ref_inOrder (F := F)) 376 rfl (by decide) (by decide) (by decide) (launchContents m c)
theorem rst_main_v267 (c : Dev nD) :
    RW m c (Proc.devRef .tc main_v267) = (Host.exp : (⟨S4096, .f32⟩ : BufTy).Contents (Elt F) → (⟨S4096, .f32⟩ : BufTy).Contents (Elt F)) (RW m c (Proc.devRef .tc main_v266)) :=
  Cert.Lib.ReadFinal.unary (l := ops) (ref_inOrder (F := F)) 377 rfl (by decide) (by decide) (launchContents m c)
theorem rst_main_v268 (c : Dev nD) :
    RW m c (Proc.devRef .tc main_v268) = ((transpose S64x1000 [1, 0] · transposes_S1000x64_S64x1000_1_0) : (⟨S1000x64, .f32⟩ : BufTy).Contents (Elt F) → (⟨S64x1000, .f32⟩ : BufTy).Contents (Elt F)) (RW m c (Proc.devRef .tc main_v248)) :=
  Cert.Lib.ReadFinal.unary (l := ops) (ref_inOrder (F := F)) 378 rfl (by decide) (by decide) (launchContents m c)
theorem rst_main_v269 (c : Dev nD) :
    RW m c (Proc.devRef .tc main_v269) = ((fun l r => Host.dotGeneral dot_S4096x64_S64x1000_S4096x1000_1_0_0_1_n_n none l r) : (⟨S4096x64, .f32⟩ : BufTy).Contents (Elt F) → (⟨S64x1000, .f32⟩ : BufTy).Contents (Elt F) → (⟨S4096x1000, .f32⟩ : BufTy).Contents (Elt F)) (RW m c (Proc.devRef .tc main_v243)) (RW m c (Proc.devRef .tc main_v268)) :=
  Cert.Lib.ReadFinal.binary (l := ops) (ref_inOrder (F := F)) 379 rfl (by decide) (by decide) (by decide) (launchContents m c)
theorem rst_main_cst_68 (c : Dev nD) :
    RW m c (Proc.devRef .tc main_cst_68) = (constant (F := F) S_ .f32 0x3DCCCCCD#32) :=
  Cert.Lib.ReadFinal.nullary (l := ops) (ref_inOrder (F := F)) 380 rfl (by decide) (launchContents m c)
theorem rst_main_v270 (c : Dev nD) :
    RW m c (Proc.devRef .tc main_v270) = (broadcastInDim S4096x1000 ![] bcast_S_S4096x1000 : (⟨S_, .f32⟩ : BufTy).Contents (Elt F) → (⟨S4096x1000, .f32⟩ : BufTy).Contents (Elt F)) (RW m c (Proc.devRef .tc main_cst_68)) :=
  Cert.Lib.ReadFinal.unary (l := ops) (ref_inOrder (F := F)) 381 rfl (by decide) (by decide) (launchContents m c)
theorem rst_main_v271 (c : Dev nD) :
    RW m c (Proc.devRef .tc main_v271) = (Host.divf : (⟨S4096x1000, .f32⟩ : BufTy).Contents (Elt F) → (⟨S4096x1000, .f32⟩ : BufTy).Contents (Elt F) → (⟨S4096x1000, .f32⟩ : BufTy).Contents (Elt F)) (RW m c (Proc.devRef .tc main_v269)) (RW m c (Proc.devRef .tc main_v270)) :=
  Cert.Lib.ReadFinal.binary (l := ops) (ref_inOrder (F := F)) 382 rfl (by decide) (by decide) (by decide) (launchContents m c)
theorem rst_main_v272 (c : Dev nD) :
    RW m c (Proc.devRef .tc main_v272) = (Host.exp : (⟨S4096x1000, .f32⟩ : BufTy).Contents (Elt F) → (⟨S4096x1000, .f32⟩ : BufTy).Contents (Elt F)) (RW m c (Proc.devRef .tc main_v271)) :=
  Cert.Lib.ReadFinal.unary (l := ops) (ref_inOrder (F := F)) 383 rfl (by decide) (by decide) (launchContents m c)
theorem rst_main_cst_69 (c : Dev nD) :
    RW m c (Proc.devRef .tc main_cst_69) = (constant (F := F) S_ .f32 0x00000000#32) :=
  Cert.Lib.ReadFinal.nullary (l := ops) (ref_inOrder (F := F)) 384 rfl (by decide) (launchContents m c)
theorem rst_main_v273 (c : Dev nD) :
    RW m c (Proc.devRef .tc main_v273) = ((fun x v => Host.reduceAdd x v reducesTo_S4096x1000_S4096_d1 h_S_) : (⟨S4096x1000, .f32⟩ : BufTy).Contents (Elt F) → (⟨S_, .f32⟩ : BufTy).Contents (Elt F) → (⟨S4096, .f32⟩ : BufTy).Contents (Elt F)) (RW m c (Proc.devRef .tc main_v272)) (RW m c (Proc.devRef .tc main_cst_69)) :=
  Cert.Lib.ReadFinal.binary (l := ops) (ref_inOrder (F := F)) 385 rfl (by decide) (by decide) (by decide) (launchContents m c)
theorem rst_main_v274 (c : Dev nD) :
    RW m c (Proc.devRef .tc main_v274) = (Host.divf : (⟨S4096, .f32⟩ : BufTy).Contents (Elt F) → (⟨S4096, .f32⟩ : BufTy).Contents (Elt F) → (⟨S4096, .f32⟩ : BufTy).Contents (Elt F)) (RW m c (Proc.devRef .tc main_v267)) (RW m c (Proc.devRef .tc main_v273)) :=
  Cert.Lib.ReadFinal.binary (l := ops) (ref_inOrder (F := F)) 386 rfl (by decide) (by decide) (by decide) (launchContents m c)
theorem rst_main_v275 (c : Dev nD) :
    RW m c (Proc.devRef .tc main_v275) = (Host.log : (⟨S4096, .f32⟩ : BufTy).Contents (Elt F) → (⟨S4096, .f32⟩ : BufTy).Contents (Elt F)) (RW m c (Proc.devRef .tc main_v274)) :=
  Cert.Lib.ReadFinal.unary (l := ops) (ref_inOrder (F := F)) 387 rfl (by decide) (by decide) (launchContents m c)
theorem rst_main_cst_70 (c : Dev nD) :
    RW m c (Proc.devRef .tc main_cst_70) = (constant (F := F) S_ .f32 0x00000000#32) :=
  Cert.Lib.ReadFinal.nullary (l := ops) (ref_inOrder (F := F)) 388 rfl (by decide) (launchContents m c)
theorem rst_main_v276 (c : Dev nD) :
    RW m c (Proc.devRef .tc main_v276) = ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) (RW m c (Proc.devRef .tc main_v275)) (RW m c (Proc.devRef .tc main_cst_70)) :=
  Cert.Lib.ReadFinal.binary (l := ops) (ref_inOrder (F := F)) 389 rfl (by decide) (by decide) (by decide) (launchContents m c)
theorem rst_main_v277 (c : Dev nD) :
    RW m c (Proc.devRef .tc main_v277) = (Host.negf : (⟨S_, .f32⟩ : BufTy).Contents (Elt F) → (⟨S_, .f32⟩ : BufTy).Contents (Elt F)) (RW m c (Proc.devRef .tc main_v276)) :=
  Cert.Lib.ReadFinal.unary (l := ops) (ref_inOrder (F := F)) 390 rfl (by decide) (by decide) (launchContents m c)
theorem rst_main_v278 (c : Dev nD) :
    RW m c (Proc.devRef .tc main_v278) = (addf : (⟨S_, .f32⟩ : BufTy).Contents (Elt F) → (⟨S_, .f32⟩ : BufTy).Contents (Elt F) → (⟨S_, .f32⟩ : BufTy).Contents (Elt F)) (RW m c (Proc.devRef .tc main_v231)) (RW m c (Proc.devRef .tc main_v277)) :=
  Cert.Lib.ReadFinal.binary (l := ops) (ref_inOrder (F := F)) 391 rfl (by decide) (by decide) (by decide) (launchContents m c)
theorem rst_main_cst_71 (c : Dev nD) :
    RW m c (Proc.devRef .tc main_cst_71) = (constant (F := F) S_ .f32 0x33ABCC77#32) :=
  Cert.Lib.ReadFinal.nullary (l := ops) (ref_inOrder (F := F)) 392 rfl (by decide) (launchContents m c)
theorem rst_main_v279 (c : Dev nD) :
    RW m c (Proc.devRef .tc main_v279) = (mulf : (⟨S_, .f32⟩ : BufTy).Contents (Elt F) → (⟨S_, .f32⟩ : BufTy).Contents (Elt F) → (⟨S_, .f32⟩ : BufTy).Contents (Elt F)) (RW m c (Proc.devRef .tc main_cst_71)) (RW m c (Proc.devRef .tc main_v278)) :=
  Cert.Lib.ReadFinal.binary (l := ops) (ref_inOrder (F := F)) 393 rfl (by decide) (by decide) (by decide) (launchContents m c)
theorem rst_main_cst_72 (c : Dev nD) :
    RW m c (Proc.devRef .tc main_cst_72) = (constant (F := F) S_ .f32 0x40800000#32) :=
  Cert.Lib.ReadFinal.nullary (l := ops) (ref_inOrder (F := F)) 394 rfl (by decide) (launchContents m c)
theorem rst_main_v280 (c : Dev nD) :
    RW m c (Proc.devRef .tc main_v280) = (broadcastInDim S4096x64 ![] bcast_S_S4096x64 : (⟨S_, .f32⟩ : BufTy).Contents (Elt F) → (⟨S4096x64, .f32⟩ : BufTy).Contents (Elt F)) (RW m c (Proc.devRef .tc main_cst_72)) :=
  Cert.Lib.ReadFinal.unary (l := ops) (ref_inOrder (F := F)) 395 rfl (by decide) (by decide) (launchContents m c)
theorem rst_main_v281 (c : Dev nD) :
    RW m c (Proc.devRef .tc main_v281) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v121)) (RW m c (Proc.devRef .tc main_v280)) :=
  Cert.Lib.ReadFinal.binary (l := ops) (ref_inOrder (F := F)) 396 rfl (by decide) (by decide) (by decide) (launchContents m c)
theorem rst_main_cst_73 (c : Dev nD) :
    RW m c (Proc.devRef .tc main_cst_73) = (constant (F := F) S_ .f32 0x40800000#32) :=
  Cert.Lib.ReadFinal.nullary (l := ops) (ref_inOrder (F := F)) 397 rfl (by decide) (launchContents m c)
theorem rst_main_v282 (c : Dev nD) :
    RW m c (Proc.devRef .tc main_v282) = (broadcastInDim S4096x64 ![] bcast_S_S4096x64 : (⟨S_, .f32⟩ : BufTy).Contents (Elt F) → (⟨S4096x64, .f32⟩ : BufTy).Contents (Elt F)) (RW m c (Proc.devRef .tc main_cst_73)) :=
  Cert.Lib.ReadFinal.unary (l := ops) (ref_inOrder (F := F)) 398 rfl (by decide) (by decide) (launchContents m c)
theorem rst_main_v283 (c : Dev nD) :
    RW m c (Proc.devRef .tc main_v283) = (Host.divf : (⟨S4096x64, .f32⟩ : BufTy).Contents (Elt F) → (⟨S4096x64, .f32⟩ : BufTy).Contents (Elt F) → (⟨S4096x64, .f32⟩ : BufTy).Contents (Elt F)) (RW m c (Proc.devRef .tc main_v122)) (RW m c (Proc.devRef .tc main_v282)) :=
  Cert.Lib.ReadFinal.binary (l := ops) (ref_inOrder (F := F)) 399 rfl (by decide) (by decide) (by decide) (launchContents m c)
theorem rst_main_c_74 (c : Dev nD) :
    RW m c (Proc.devRef .tc main_c_74) = (constantI S_ 32 0#32) :=
  Cert.Lib.ReadFinal.nullary (l := ops) (ref_inOrder (F := F)) 400 rfl (by decide) (launchContents m c)
theorem rst_main_v284 (c : Dev nD) :
    RW m c (Proc.devRef .tc main_v284) = (broadcastInDim S65536 ![] bcast_S_S65536 : (⟨S_, .i32⟩ : BufTy).Contents (Elt F) → (⟨S65536, .i32⟩ : BufTy).Contents (Elt F)) (RW m c (Proc.devRef .tc main_c_74)) :=
  Cert.Lib.ReadFinal.unary (l := ops) (ref_inOrder (F := F)) 401 rfl (by decide) (by decide) (launchContents m c)
theorem rst_main_v285 (c : Dev nD) :
    RW m c (Proc.devRef .tc main_v285) = (cmpi .slt : (⟨S65536, .i32⟩ : BufTy).Contents (Elt F) → (⟨S65536, .i32⟩ : BufTy).Contents (Elt F) → (⟨S65536, .i1⟩ : BufTy).Contents (Elt F)) (RW m c (Proc.devRef .tc main_arg6)) (RW m c (Proc.devRef .tc main_v284)) :=
  Cert.Lib.ReadFinal.binary (l := ops) (ref_inOrder (F := F)) 402 rfl (by decide) (by decide) (by decide) (launchContents m c)
theorem rst_main_c_75 (c : Dev nD) :
    RW m c (Proc.devRef .tc main_c_75) = (constantI S_ 32 4096#32) :=
  Cert.Lib.ReadFinal.nullary (l := ops) (ref_inOrder (F := F)) 403 rfl (by decide) (launchContents m c)
theorem rst_main_v286 (c : Dev nD) :
    RW m c (Proc.devRef .tc main_v286) = (broadcastInDim S65536 ![] bcast_S_S65536 : (⟨S_, .i32⟩ : BufTy).Contents (Elt F) → (⟨S65536, .i32⟩ : BufTy).Contents (Elt F)) (RW m c (Proc.devRef .tc main_c_75)) :=
  Cert.Lib.ReadFinal.unary (l := ops) (ref_inOrder (F := F)) 404 rfl (by decide) (by decide) (launchContents m c)
theorem rst_main_v287 (c : Dev nD) :
    RW m c (Proc.devRef .tc main_v287) = (addi : (⟨S65536, .i32⟩ : BufTy).Contents (Elt F) → (⟨S65536, .i32⟩ : BufTy).Contents (Elt F) → (⟨S65536, .i32⟩ : BufTy).Contents (Elt F)) (RW m c (Proc.devRef .tc main_arg6)) (RW m c (Proc.devRef .tc main_v286)) :=
  Cert.Lib.ReadFinal.binary (l := ops) (ref_inOrder (F := F)) 405 rfl (by decide) (by decide) (by decide) (launchContents m c)
theorem rst_main_v288 (c : Dev nD) :
    RW m c (Proc.devRef .tc main_v288) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (RW m c (Proc.devRef .tc main_v285)) (RW m c (Proc.devRef .tc main_v287)) (RW m c (Proc.devRef .tc main_arg6)) :=
  Cert.Lib.ReadFinal.ternary (l := ops) (ref_inOrder (F := F)) 406 rfl (by decide) (by decide) (by decide) (by decide) (launchContents m c)
theorem rst_main_v289 (c : Dev nD) :
    RW m c (Proc.devRef .tc main_v289) = (broadcastInDim S65536x1 ![0] bcast_S65536_S65536x1_0 : (⟨S65536, .i32⟩ : BufTy).Contents (Elt F) → (⟨S65536x1, .i32⟩ : BufTy).Contents (Elt F)) (RW m c (Proc.devRef .tc main_v288)) :=
  Cert.Lib.ReadFinal.unary (l := ops) (ref_inOrder (F := F)) 407 rfl (by decide) (by decide) (launchContents m c)
theorem rst_main_v290 (c : Dev nD) :
    RW m c (Proc.devRef .tc main_v290) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (RW m c (Proc.devRef .tc main_v281)) (RW m c (Proc.devRef .tc main_v289)) :=
  Cert.Lib.ReadFinal.binary (l := ops) (ref_inOrder (F := F)) 408 rfl (by decide) (by decide) (by decide) (launchContents m c)
theorem rst_main_c_76 (c : Dev nD) :
    RW m c (Proc.devRef .tc main_c_76) = (constantI S_ 32 0#32) :=
  Cert.Lib.ReadFinal.nullary (l := ops) (ref_inOrder (F := F)) 409 rfl (by decide) (launchContents m c)
theorem rst_main_v291 (c : Dev nD) :
    RW m c (Proc.devRef .tc main_v291) = (broadcastInDim S65536 ![] bcast_S_S65536 : (⟨S_, .i32⟩ : BufTy).Contents (Elt F) → (⟨S65536, .i32⟩ : BufTy).Contents (Elt F)) (RW m c (Proc.devRef .tc main_c_76)) :=
  Cert.Lib.ReadFinal.unary (l := ops) (ref_inOrder (F := F)) 410 rfl (by decide) (by decide) (launchContents m c)
theorem rst_main_v292 (c : Dev nD) :
    RW m c (Proc.devRef .tc main_v292) = (cmpi .slt : (⟨S65536, .i32⟩ : BufTy).Contents (Elt F) → (⟨S65536, .i32⟩ : BufTy).Contents (Elt F) → (⟨S65536, .i1⟩ : BufTy).Contents (Elt F)) (RW m c (Proc.devRef .tc main_arg7)) (RW m c (Proc.devRef .tc main_v291)) :=
  Cert.Lib.ReadFinal.binary (l := ops) (ref_inOrder (F := F)) 411 rfl (by decide) (by decide) (by decide) (launchContents m c)
theorem rst_main_c_77 (c : Dev nD) :
    RW m c (Proc.devRef .tc main_c_77) = (constantI S_ 32 4096#32) :=
  Cert.Lib.ReadFinal.nullary (l := ops) (ref_inOrder (F := F)) 412 rfl (by decide) (launchContents m c)
theorem rst_main_v293 (c : Dev nD) :
    RW m c (Proc.devRef .tc main_v293) = (broadcastInDim S65536 ![] bcast_S_S65536 : (⟨S_, .i32⟩ : BufTy).Contents (Elt F) → (⟨S65536, .i32⟩ : BufTy).Contents (Elt F)) (RW m c (Proc.devRef .tc main_c_77)) :=
  Cert.Lib.ReadFinal.unary (l := ops) (ref_inOrder (F := F)) 413 rfl (by decide) (by decide) (launchContents m c)
theorem rst_main_v294 (c : Dev nD) :
    RW m c (Proc.devRef .tc main_v294) = (addi : (⟨S65536, .i32⟩ : BufTy).Contents (Elt F) → (⟨S65536, .i32⟩ : BufTy).Contents (Elt F) → (⟨S65536, .i32⟩ : BufTy).Contents (Elt F)) (RW m c (Proc.devRef .tc main_arg7)) (RW m c (Proc.devRef .tc main_v293)) :=
  Cert.Lib.ReadFinal.binary (l := ops) (ref_inOrder (F := F)) 414 rfl (by decide) (by decide) (by decide) (launchContents m c)
theorem rst_main_v295 (c : Dev nD) :
    RW m c (Proc.devRef .tc main_v295) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (RW m c (Proc.devRef .tc main_v292)) (RW m c (Proc.devRef .tc main_v294)) (RW m c (Proc.devRef .tc main_arg7)) :=
  Cert.Lib.ReadFinal.ternary (l := ops) (ref_inOrder (F := F)) 415 rfl (by decide) (by decide) (by decide) (by decide) (launchContents m c)
theorem rst_main_v296 (c : Dev nD) :
    RW m c (Proc.devRef .tc main_v296) = (broadcastInDim S65536x1 ![0] bcast_S65536_S65536x1_0 : (⟨S65536, .i32⟩ : BufTy).Contents (Elt F) → (⟨S65536x1, .i32⟩ : BufTy).Contents (Elt F)) (RW m c (Proc.devRef .tc main_v295)) :=
  Cert.Lib.ReadFinal.unary (l := ops) (ref_inOrder (F := F)) 416 rfl (by decide) (by decide) (launchContents m c)
theorem rst_main_v297 (c : Dev nD) :
    RW m c (Proc.devRef .tc main_v297) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (RW m c (Proc.devRef .tc main_v283)) (RW m c (Proc.devRef .tc main_v296)) :=
  Cert.Lib.ReadFinal.binary (l := ops) (ref_inOrder (F := F)) 417 rfl (by decide) (by decide) (by decide) (launchContents m c)
theorem rst_main_v298 (c : Dev nD) :
    RW m c (Proc.devRef .tc main_v298) = (mulf : (⟨S65536x64, .f32⟩ : BufTy).Contents (Elt F) → (⟨S65536x64, .f32⟩ : BufTy).Contents (Elt F) → (⟨S65536x64, .f32⟩ : BufTy).Contents (Elt F)) (RW m c (Proc.devRef .tc main_v290)) (RW m c (Proc.devRef .tc main_v297)) :=
  Cert.Lib.ReadFinal.binary (l := ops) (ref_inOrder (F := F)) 418 rfl (by decide) (by decide) (by decide) (launchContents m c)
theorem rst_main_cst_78 (c : Dev nD) :
    RW m c (Proc.devRef .tc main_cst_78) = (constant (F := F) S_ .f32 0x00000000#32) :=
  Cert.Lib.ReadFinal.nullary (l := ops) (ref_inOrder (F := F)) 419 rfl (by decide) (launchContents m c)
theorem rst_main_v299 (c : Dev nD) :
    RW m c (Proc.devRef .tc main_v299) = ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (RW m c (Proc.devRef .tc main_v298)) (RW m c (Proc.devRef .tc main_cst_78)) :=
  Cert.Lib.ReadFinal.binary (l := ops) (ref_inOrder (F := F)) 420 rfl (by decide) (by decide) (by decide) (launchContents m c)
theorem rst_main_v300 (c : Dev nD) :
    RW m c (Proc.devRef .tc main_v300) = (broadcastInDim S65536x1 ![0] bcast_S65536_S65536x1_0 : (⟨S65536, .f32⟩ : BufTy).Contents (Elt F) → (⟨S65536x1, .f32⟩ : BufTy).Contents (Elt F)) (RW m c (Proc.devRef .tc main_v299)) :=
  Cert.Lib.ReadFinal.unary (l := ops) (ref_inOrder (F := F)) 421 rfl (by decide) (by decide) (launchContents m c)
theorem rst_main_c_79 (c : Dev nD) :
    RW m c (Proc.devRef .tc main_c_79) = (constantI S_ 32 0#32) :=
  Cert.Lib.ReadFinal.nullary (l := ops) (ref_inOrder (F := F)) 422 rfl (by decide) (launchContents m c)
theorem rst_main_v301 (c : Dev nD) :
    RW m c (Proc.devRef .tc main_v301) = (broadcastInDim S65536 ![] bcast_S_S65536 : (⟨S_, .i32⟩ : BufTy).Contents (Elt F) → (⟨S65536, .i32⟩ : BufTy).Contents (Elt F)) (RW m c (Proc.devRef .tc main_c_79)) :=
  Cert.Lib.ReadFinal.unary (l := ops) (ref_inOrder (F := F)) 423 rfl (by decide) (by decide) (launchContents m c)
theorem rst_main_v302 (c : Dev nD) :
    RW m c (Proc.devRef .tc main_v302) = (cmpi .slt : (⟨S65536, .i32⟩ : BufTy).Contents (Elt F) → (⟨S65536, .i32⟩ : BufTy).Contents (Elt F) → (⟨S65536, .i1⟩ : BufTy).Contents (Elt F)) (RW m c (Proc.devRef .tc main_arg8)) (RW m c (Proc.devRef .tc main_v301)) :=
  Cert.Lib.ReadFinal.binary (l := ops) (ref_inOrder (F := F)) 424 rfl (by decide) (by decide) (by decide) (launchContents m c)
theorem rst_main_c_80 (c : Dev nD) :
    RW m c (Proc.devRef .tc main_c_80) = (constantI S_ 32 4096#32) :=
  Cert.Lib.ReadFinal.nullary (l := ops) (ref_inOrder (F := F)) 425 rfl (by decide) (launchContents m c)
theorem rst_main_v303 (c : Dev nD) :
    RW m c (Proc.devRef .tc main_v303) = (broadcastInDim S65536 ![] bcast_S_S65536 : (⟨S_, .i32⟩ : BufTy).Contents (Elt F) → (⟨S65536, .i32⟩ : BufTy).Contents (Elt F)) (RW m c (Proc.devRef .tc main_c_80)) :=
  Cert.Lib.ReadFinal.unary (l := ops) (ref_inOrder (F := F)) 426 rfl (by decide) (by decide) (launchContents m c)
theorem rst_main_v304 (c : Dev nD) :
    RW m c (Proc.devRef .tc main_v304) = (addi : (⟨S65536, .i32⟩ : BufTy).Contents (Elt F) → (⟨S65536, .i32⟩ : BufTy).Contents (Elt F) → (⟨S65536, .i32⟩ : BufTy).Contents (Elt F)) (RW m c (Proc.devRef .tc main_arg8)) (RW m c (Proc.devRef .tc main_v303)) :=
  Cert.Lib.ReadFinal.binary (l := ops) (ref_inOrder (F := F)) 427 rfl (by decide) (by decide) (by decide) (launchContents m c)
theorem rst_main_v305 (c : Dev nD) :
    RW m c (Proc.devRef .tc main_v305) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (RW m c (Proc.devRef .tc main_v302)) (RW m c (Proc.devRef .tc main_v304)) (RW m c (Proc.devRef .tc main_arg8)) :=
  Cert.Lib.ReadFinal.ternary (l := ops) (ref_inOrder (F := F)) 428 rfl (by decide) (by decide) (by decide) (by decide) (launchContents m c)
theorem rst_main_v306 (c : Dev nD) :
    RW m c (Proc.devRef .tc main_v306) = (broadcastInDim S65536x1 ![0] bcast_S65536_S65536x1_0 : (⟨S65536, .i32⟩ : BufTy).Contents (Elt F) → (⟨S65536x1, .i32⟩ : BufTy).Contents (Elt F)) (RW m c (Proc.devRef .tc main_v305)) :=
  Cert.Lib.ReadFinal.unary (l := ops) (ref_inOrder (F := F)) 429 rfl (by decide) (by decide) (launchContents m c)
theorem rst_main_v307 (c : Dev nD) :
    RW m c (Proc.devRef .tc main_v307) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (RW m c (Proc.devRef .tc main_v281)) (RW m c (Proc.devRef .tc main_v306)) :=
  Cert.Lib.ReadFinal.binary (l := ops) (ref_inOrder (F := F)) 430 rfl (by decide) (by decide) (by decide) (launchContents m c)
theorem rst_main_c_81 (c : Dev nD) :
    RW m c (Proc.devRef .tc main_c_81) = (constantI S_ 32 0#32) :=
  Cert.Lib.ReadFinal.nullary (l := ops) (ref_inOrder (F := F)) 431 rfl (by decide) (launchContents m c)
theorem rst_main_v308 (c : Dev nD) :
    RW m c (Proc.devRef .tc main_v308) = (broadcastInDim S65536 ![] bcast_S_S65536 : (⟨S_, .i32⟩ : BufTy).Contents (Elt F) → (⟨S65536, .i32⟩ : BufTy).Contents (Elt F)) (RW m c (Proc.devRef .tc main_c_81)) :=
  Cert.Lib.ReadFinal.unary (l := ops) (ref_inOrder (F := F)) 432 rfl (by decide) (by decide) (launchContents m c)
theorem rst_main_v309 (c : Dev nD) :
    RW m c (Proc.devRef .tc main_v309) = (cmpi .slt : (⟨S65536, .i32⟩ : BufTy).Contents (Elt F) → (⟨S65536, .i32⟩ : BufTy).Contents (Elt F) → (⟨S65536, .i1⟩ : BufTy).Contents (Elt F)) (RW m c (Proc.devRef .tc main_arg9)) (RW m c (Proc.devRef .tc main_v308)) :=
  Cert.Lib.ReadFinal.binary (l := ops) (ref_inOrder (F := F)) 433 rfl (by decide) (by decide) (by decide) (launchContents m c)
theorem rst_main_c_82 (c : Dev nD) :
    RW m c (Proc.devRef .tc main_c_82) = (constantI S_ 32 4096#32) :=
  Cert.Lib.ReadFinal.nullary (l := ops) (ref_inOrder (F := F)) 434 rfl (by decide) (launchContents m c)
theorem rst_main_v310 (c : Dev nD) :
    RW m c (Proc.devRef .tc main_v310) = (broadcastInDim S65536 ![] bcast_S_S65536 : (⟨S_, .i32⟩ : BufTy).Contents (Elt F) → (⟨S65536, .i32⟩ : BufTy).Contents (Elt F)) (RW m c (Proc.devRef .tc main_c_82)) :=
  Cert.Lib.ReadFinal.unary (l := ops) (ref_inOrder (F := F)) 435 rfl (by decide) (by decide) (launchContents m c)
theorem rst_main_v311 (c : Dev nD) :
    RW m c (Proc.devRef .tc main_v311) = (addi : (⟨S65536, .i32⟩ : BufTy).Contents (Elt F) → (⟨S65536, .i32⟩ : BufTy).Contents (Elt F) → (⟨S65536, .i32⟩ : BufTy).Contents (Elt F)) (RW m c (Proc.devRef .tc main_arg9)) (RW m c (Proc.devRef .tc main_v310)) :=
  Cert.Lib.ReadFinal.binary (l := ops) (ref_inOrder (F := F)) 436 rfl (by decide) (by decide) (by decide) (launchContents m c)
theorem rst_main_v312 (c : Dev nD) :
    RW m c (Proc.devRef .tc main_v312) = (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)) (RW m c (Proc.devRef .tc main_v309)) (RW m c (Proc.devRef .tc main_v311)) (RW m c (Proc.devRef .tc main_arg9)) :=
  Cert.Lib.ReadFinal.ternary (l := ops) (ref_inOrder (F := F)) 437 rfl (by decide) (by decide) (by decide) (by decide) (launchContents m c)
theorem rst_main_v313 (c : Dev nD) :
    RW m c (Proc.devRef .tc main_v313) = (broadcastInDim S65536x1 ![0] bcast_S65536_S65536x1_0 : (⟨S65536, .i32⟩ : BufTy).Contents (Elt F) → (⟨S65536x1, .i32⟩ : BufTy).Contents (Elt F)) (RW m c (Proc.devRef .tc main_v312)) :=
  Cert.Lib.ReadFinal.unary (l := ops) (ref_inOrder (F := F)) 438 rfl (by decide) (by decide) (launchContents m c)
theorem rst_main_v314 (c : Dev nD) :
    RW m c (Proc.devRef .tc main_v314) = ((fun x i => Host.gather gather_S4096x64_S65536x1_S65536x64_1_0_n_n_0_1_164 x i) : (⟨S4096x64, .f32⟩ : BufTy).Contents (Elt F) → (⟨S65536x1, .i32⟩ : BufTy).Contents (Elt F) → (⟨S65536x64, .f32⟩ : BufTy).Contents (Elt F)) (RW m c (Proc.devRef .tc main_v283)) (RW m c (Proc.devRef .tc main_v313)) :=
  Cert.Lib.ReadFinal.binary (l := ops) (ref_inOrder (F := F)) 439 rfl (by decide) (by decide) (by decide) (launchContents m c)
theorem rst_main_v315 (c : Dev nD) :
    RW m c (Proc.devRef .tc main_v315) = (mulf : (⟨S65536x64, .f32⟩ : BufTy).Contents (Elt F) → (⟨S65536x64, .f32⟩ : BufTy).Contents (Elt F) → (⟨S65536x64, .f32⟩ : BufTy).Contents (Elt F)) (RW m c (Proc.devRef .tc main_v307)) (RW m c (Proc.devRef .tc main_v314)) :=
  Cert.Lib.ReadFinal.binary (l := ops) (ref_inOrder (F := F)) 440 rfl (by decide) (by decide) (by decide) (launchContents m c)
theorem rst_main_cst_83 (c : Dev nD) :
    RW m c (Proc.devRef .tc main_cst_83) = (constant (F := F) S_ .f32 0x00000000#32) :=
  Cert.Lib.ReadFinal.nullary (l := ops) (ref_inOrder (F := F)) 441 rfl (by decide) (launchContents m c)
theorem rst_main_v316 (c : Dev nD) :
    RW m c (Proc.devRef .tc main_v316) = ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)) (RW m c (Proc.devRef .tc main_v315)) (RW m c (Proc.devRef .tc main_cst_83)) :=
  Cert.Lib.ReadFinal.binary (l := ops) (ref_inOrder (F := F)) 442 rfl (by decide) (by decide) (by decide) (launchContents m c)
theorem rst_main_v317 (c : Dev nD) :
    RW m c (Proc.devRef .tc main_v317) = (broadcastInDim S65536x1 ![0] bcast_S65536_S65536x1_0 : (⟨S65536, .f32⟩ : BufTy).Contents (Elt F) → (⟨S65536x1, .f32⟩ : BufTy).Contents (Elt F)) (RW m c (Proc.devRef .tc main_v316)) :=
  Cert.Lib.ReadFinal.unary (l := ops) (ref_inOrder (F := F)) 443 rfl (by decide) (by decide) (launchContents m c)

end Cert.Proof.Parts

end
-- ==== Proof.LibLogQuotient.lean ====
/-
  On the extended reals, with the ideal instance's conventions at the corners (x / 0 is +∞ for x > 0 and −∞ otherwise;
  log 0 = −∞, log +∞ = +∞; +∞ − +∞ = −∞), the logarithm of a quotient of two NONNEGATIVE extended reals is the
  difference of their logarithms — at every pair, the infinite ones and zero included, so no finiteness is asked.
-/
import Idealize.ShloMosaic.PureOps.Ideal
import Idealize.ShloMosaic.Lib.IdealHost

namespace Cert.Lib.LogQuotient

open Idealize.ShloMosaic

/-- The logarithm of zero is −∞. -/
theorem log_zero : Ideal.log (0 : EReal) = ⊥ := by
  rw [← EReal.coe_zero, Ideal.log_coe]; simp

/-- The law for a real numerator and a real denominator, both nonnegative. -/
theorem log_div_coe (r s : ℝ) (hr : 0 ≤ r) (hs : 0 ≤ s) :
    Ideal.log (Ideal.div (r : EReal) (s : EReal)) = Ideal.log (r : EReal) - Ideal.log (s : EReal) := by
  rcases eq_or_lt_of_le hs with hs0 | hs0
  · -- the denominator is zero
    subst hs0
    rcases eq_or_lt_of_le hr with hr0 | hr0
    · subst hr0
      simp [Ideal.div, log_zero]
    · have : (0 : EReal) < (r : EReal) := by exact_mod_cast hr0
      simp [Ideal.div, this, not_le.mpr hr0, log_zero]
  · have hsne : (s : EReal) ≠ 0 := by exact_mod_cast hs0.ne'
    rcases eq_or_lt_of_le hr with hr0 | hr0
    · subst hr0
      simp [Ideal.div, hsne, not_le.mpr hs0, log_zero]
    · have hq : 0 < r * s⁻¹ := mul_pos hr0 (inv_pos.mpr hs0)
      have e : (r : EReal) * (s : EReal)⁻¹ = ((r * s⁻¹ : ℝ) : EReal) := by
        rw [← EReal.coe_inv, ← EReal.coe_mul]
      rw [Ideal.div, if_neg hsne, e, Ideal.log_coe, Ideal.log_coe, Ideal.log_coe, if_neg (not_le.mpr hq),
        if_neg (not_le.mpr hr0), if_neg (not_le.mpr hs0), ← EReal.coe_sub]
      congr 1
      rw [Real.log_mul hr0.ne' (inv_pos.mpr hs0).ne', Real.log_inv]; ring

/-- The law on all nonnegative extended reals. -/
theorem log_div (p t : EReal) (hp : 0 ≤ p) (ht : 0 ≤ t) :
    Ideal.log (Ideal.div p t) = Ideal.log p - Ideal.log t := by
  induction t using EReal.rec with
  | bot => exact absurd ht (by simp)
  | top =>
    have : Ideal.div p ⊤ = 0 := by simp [Ideal.div]
    rw [this, log_zero]
    simp
  | coe s =>
    have hs : 0 ≤ s := by exact_mod_cast ht
    induction p using EReal.rec with
    | bot => exact absurd hp (by simp)
    | coe r => exact log_div_coe r s (by exact_mod_cast hp) hs
    | top =>
      rcases eq_or_lt_of_le hs with hs0 | hs0
      · subst hs0
        simp [Ideal.div, log_zero]
      · have hsne : (s : EReal) ≠ 0 := by exact_mod_cast hs0.ne'
        have hinv : (0 : EReal) < (s : EReal)⁻¹ := by
          rw [← EReal.coe_inv]; exact_mod_cast inv_pos.mpr hs0
        rw [Ideal.div, if_neg hsne, EReal.top_mul_of_pos hinv]
        simp [not_le.mpr hs0]

/-- An exponential is nonnegative, at the infinities too (e^(−∞) = 0, e^(+∞) = +∞). -/
theorem exp_nonneg (x : EReal) : 0 ≤ Ideal.exp x := by
  induction x using EReal.rec with
  | bot => simp
  | top => simp
  | coe r => rw [Ideal.exp_coe]; exact_mod_cast (Real.exp_pos r).le

/-- The host's exponential of an array is nonnegative entry by entry. -/
theorem hostExp_nonneg {s : Shape} {φ : FTy} (x : FVec Ideal s φ) (i : s.Idx) : 0 ≤ Host.exp x i := by
  simp only [Host.exp, Ideal.hostUnary_exp_def]; exact exp_nonneg _

/-- The host's sum of nonnegative entries from a nonnegative initial value is nonnegative. -/
theorem hostReduceAdd_nonneg {s t u : Shape} {φ : FTy} {axes : List (Fin s.rank)} (x : FVec Ideal s φ)
    (init : u.Idx → Ideal φ) (h : s.ReducesTo axes t) (hu : 0 < u.numel) (hx : ∀ i, 0 ≤ x i)
    (hinit : 0 ≤ init (Shape.Idx.first hu)) (j : t.Idx) : 0 ≤ Host.reduceAdd x init h hu j := by
  show 0 ≤ Ideal.hostReduceAdd h x (init (Shape.Idx.first hu)) j
  unfold Ideal.hostReduceAdd
  exact add_nonneg hinit (Finset.sum_nonneg fun k _ => hx k)

/-- Entry by entry: the logarithm of the quotient of two arrays of nonnegative extended reals is the difference of
    their logarithms, in the host's spelling of quotient and logarithm. -/
theorem log_quot_vec {s : Shape} {φ : FTy} (P T : FVec Ideal s φ) (hP : ∀ i, 0 ≤ P i) (hT : ∀ i, 0 ≤ T i) :
    Host.log (Host.divf P T) = subf (Host.log P) (Host.log T) := by
  funext i
  simp only [Host.log, Host.divf, subf, Ideal.hostUnary_log_def, Ideal.hostDivf_def, Ideal.subf_def]
  exact log_div (P i) (T i) (hP i) (hT i)

end Cert.Lib.LogQuotient
-- ==== Proof.MatchA.lean ====
/-
  The two programs buffer by buffer.  Launched from memories that agree on the fourteen arguments, the idealized
  kernel program and the reference compute, in their host operations, the same values: a kernel-side buffer and the
  reference buffer it is paired with below are results of the same operation applied to operands already paired, so
  they hold equal contents at the end of the two runs.  The pairs are followed from the arguments upward.  Where the
  programs differ — the four sums of exponentials, which the kernel program takes from its pipelines' output arrays —
  the pairing is a separate statement (`tot_…`), and from there on the kernel's `log p - log t` meets the reference's
  `log (p / t)` by the law for nonnegative extended reals.
-/
import proofs.«110517_j15659450761722_1_alg».proof.Proof.KIStagesA
import proofs.«110517_j15659450761722_1_alg».proof.Proof.KIStagesB
import proofs.«110517_j15659450761722_1_alg».proof.Proof.KIStagesC
import proofs.«110517_j15659450761722_1_alg».proof.Proof.KIStagesD
import proofs.«110517_j15659450761722_1_alg».proof.Proof.KIStagesE
import proofs.«110517_j15659450761722_1_alg».proof.Proof.RefStagesA
import proofs.«110517_j15659450761722_1_alg».proof.Proof.RefStagesB
import proofs.«110517_j15659450761722_1_alg».proof.Proof.RefStagesC
import proofs.«110517_j15659450761722_1_alg».proof.Proof.RefStagesD
import proofs.«110517_j15659450761722_1_alg».proof.Proof.LibLogQuotient

set_option maxRecDepth 16384

noncomputable section

open Idealize.ShloMosaic Idealize.ShloMosaic.TcCoe Idealize.SL.Sem Idealize.ShloMosaic.StableHlo

namespace Cert.Proof.Match

/-- The two launch memories hold the same fourteen arguments. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag
theorem e_arg0__arg0 (c : Dev Cert.KernelIdeal.nD) : Cert.KernelIdeal.Hand.W29 (F := Ideal) m ρ c (Proc.devRef .tc Cert.KernelIdeal.main_arg0) = Cert.Proof.Parts.RW (F := Ideal) m' c (Proc.devRef .tc Cert.ReferenceIdeal.main_arg0) :=
  (Cert.KernelIdeal.Hand.W29_main_arg0 (F := Ideal) m ρ c).trans (((hag c).1).symm.trans (Cert.Proof.Parts.ref_kept (F := Ideal) m' c Cert.ReferenceIdeal.main_arg0 (by decide)).symm)
theorem e_arg10__arg10 (c : Dev Cert.KernelIdeal.nD) : Cert.KernelIdeal.Hand.W29 (F := Ideal) m ρ c (Proc.devRef .tc Cert.KernelIdeal.main_arg10) = Cert.Proof.Parts.RW (F := Ideal) m' c (Proc.devRef .tc Cert.ReferenceIdeal.main_arg10) :=
  (Cert.KernelIdeal.Hand.W29_main_arg10 (F := Ideal) m ρ c).trans (((hag c).2.2.2.2.2.2.2.2.2.2.1).symm.trans (Cert.Proof.Parts.ref_kept (F := Ideal) m' c Cert.ReferenceIdeal.main_arg10 (by decide)).symm)
theorem e_c__c (c : Dev Cert.KernelIdeal.nD) : Cert.KernelIdeal.Hand.W29 (F := Ideal) m ρ c (Proc.devRef .tc Cert.KernelIdeal.main_c) = Cert.Proof.Parts.RW (F := Ideal) m' c (Proc.devRef .tc Cert.ReferenceIdeal.main_c) := by
  rw [Cert.KernelIdeal.Hand.kst_main_c (F := Ideal) m ρ c]
  exact (Cert.Proof.Parts.rst_main_c (F := Ideal) m' c).symm
theorem e_v19__v19 (c : Dev Cert.KernelIdeal.nD) : Cert.KernelIdeal.Hand.W29 (F := Ideal) m ρ c (Proc.devRef .tc Cert.KernelIdeal.main_v19) = Cert.Proof.Parts.RW (F := Ideal) m' c (Proc.devRef .tc Cert.ReferenceIdeal.main_v19) := by
  rw [Cert.KernelIdeal.Hand.kst_main_v19 (F := Ideal) m ρ c, e_c__c m ρ m' hag c]
  exact (Cert.Proof.Parts.rst_main_v19 (F := Ideal) m' c).symm
theorem e_v20__v20 (c : Dev Cert.KernelIdeal.nD) : Cert.KernelIdeal.Hand.W29 (F := Ideal) m ρ c (Proc.devRef .tc Cert.KernelIdeal.main_v20) = Cert.Proof.Parts.RW (F := Ideal) m' c (Proc.devRef .tc Cert.ReferenceIdeal.main_v20) := by
  rw [Cert.KernelIdeal.Hand.kst_main_v20 (F := Ideal) m ρ c, e_arg10__arg10 m ρ m' hag c, e_v19__v19 m ρ m' hag c]
  exact (Cert.Proof.Parts.rst_main_v20 (F := Ideal) m' c).symm
theorem e_c_6__c_6 (c : Dev Cert.KernelIdeal.nD) : Cert.KernelIdeal.Hand.W29 (F := Ideal) m ρ c (Proc.devRef .tc Cert.KernelIdeal.main_c_6) = Cert.Proof.Parts.RW (F := Ideal) m' c (Proc.devRef .tc Cert.ReferenceIdeal.main_c_6) := by
  rw [Cert.KernelIdeal.Hand.kst_main_c_6 (F := Ideal) m ρ c]
  exact (Cert.Proof.Parts.rst_main_c_6 (F := Ideal) m' c).symm
theorem e_v21__v21 (c : Dev Cert.KernelIdeal.nD) : Cert.KernelIdeal.Hand.W29 (F := Ideal) m ρ c (Proc.devRef .tc Cert.KernelIdeal.main_v21) = Cert.Proof.Parts.RW (F := Ideal) m' c (Proc.devRef .tc Cert.ReferenceIdeal.main_v21) := by
  rw [Cert.KernelIdeal.Hand.kst_main_v21 (F := Ideal) m ρ c, e_c_6__c_6 m ρ m' hag c]
  exact (Cert.Proof.Parts.rst_main_v21 (F := Ideal) m' c).symm
theorem e_v22__v22 (c : Dev Cert.KernelIdeal.nD) : Cert.KernelIdeal.Hand.W29 (F := Ideal) m ρ c (Proc.devRef .tc Cert.KernelIdeal.main_v22) = Cert.Proof.Parts.RW (F := Ideal) m' c (Proc.devRef .tc Cert.ReferenceIdeal.main_v22) := by
  rw [Cert.KernelIdeal.Hand.kst_main_v22 (F := Ideal) m ρ c, e_arg10__arg10 m ρ m' hag c, e_v21__v21 m ρ m' hag c]
  exact (Cert.Proof.Parts.rst_main_v22 (F := Ideal) m' c).symm
theorem e_v23__v23 (c : Dev Cert.KernelIdeal.nD) : Cert.KernelIdeal.Hand.W29 (F := Ideal) m ρ c (Proc.devRef .tc Cert.KernelIdeal.main_v23) = Cert.Proof.Parts.RW (F := Ideal) m' c (Proc.devRef .tc Cert.ReferenceIdeal.main_v23) := by
  rw [Cert.KernelIdeal.Hand.kst_main_v23 (F := Ideal) m ρ c, e_v20__v20 m ρ m' hag c, e_v22__v22 m ρ m' hag c, e_arg10__arg10 m ρ m' hag c]
  exact (Cert.Proof.Parts.rst_main_v23 (F := Ideal) m' c).symm
theorem e_v24__v24 (c : Dev Cert.KernelIdeal.nD) : Cert.KernelIdeal.Hand.W29 (F := Ideal) m ρ c (Proc.devRef .tc Cert.KernelIdeal.main_v24) = Cert.Proof.Parts.RW (F := Ideal) m' c (Proc.devRef .tc Cert.ReferenceIdeal.main_v24) := by
  rw [Cert.KernelIdeal.Hand.kst_main_v24 (F := Ideal) m ρ c, e_v23__v23 m ρ m' hag c]
  exact (Cert.Proof.Parts.rst_main_v24 (F := Ideal) m' c).symm
theorem e_v25__v25 (c : Dev Cert.KernelIdeal.nD) : Cert.KernelIdeal.Hand.W29 (F := Ideal) m ρ c (Proc.devRef .tc Cert.KernelIdeal.main_v25) = Cert.Proof.Parts.RW (F := Ideal) m' c (Proc.devRef .tc Cert.ReferenceIdeal.main_v25) := by
  rw [Cert.KernelIdeal.Hand.kst_main_v25 (F := Ideal) m ρ c, e_arg0__arg0 m ρ m' hag c, e_v24__v24 m ρ m' hag c]
  exact (Cert.Proof.Parts.rst_main_v25 (F := Ideal) m' c).symm
theorem e_cst_14__cst_14 (c : Dev Cert.KernelIdeal.nD) : Cert.KernelIdeal.Hand.W29 (F := Ideal) m ρ c (Proc.devRef .tc Cert.KernelIdeal.main_cst_14) = Cert.Proof.Parts.RW (F := Ideal) m' c (Proc.devRef .tc Cert.ReferenceIdeal.main_cst_14) := by
  rw [Cert.KernelIdeal.Hand.kst_main_cst_14 (F := Ideal) m ρ c]
  exact (Cert.Proof.Parts.rst_main_cst_14 (F := Ideal) m' c).symm
theorem e_v56__v56 (c : Dev Cert.KernelIdeal.nD) : Cert.KernelIdeal.Hand.W29 (F := Ideal) m ρ c (Proc.devRef .tc Cert.KernelIdeal.main_v56) = Cert.Proof.Parts.RW (F := Ideal) m' c (Proc.devRef .tc Cert.ReferenceIdeal.main_v56) := by
  rw [Cert.KernelIdeal.Hand.kst_main_v56 (F := Ideal) m ρ c, e_cst_14__cst_14 m ρ m' hag c]
  exact (Cert.Proof.Parts.rst_main_v56 (F := Ideal) m' c).symm
theorem e_arg4__arg4 (c : Dev Cert.KernelIdeal.nD) : Cert.KernelIdeal.Hand.W29 (F := Ideal) m ρ c (Proc.devRef .tc Cert.KernelIdeal.main_arg4) = Cert.Proof.Parts.RW (F := Ideal) m' c (Proc.devRef .tc Cert.ReferenceIdeal.main_arg4) :=
  (Cert.KernelIdeal.Hand.W29_main_arg4 (F := Ideal) m ρ c).trans (((hag c).2.2.2.2.1).symm.trans (Cert.Proof.Parts.ref_kept (F := Ideal) m' c Cert.ReferenceIdeal.main_arg4 (by decide)).symm)
theorem e_v57__v57 (c : Dev Cert.KernelIdeal.nD) : Cert.KernelIdeal.Hand.W29 (F := Ideal) m ρ c (Proc.devRef .tc Cert.KernelIdeal.main_v57) = Cert.Proof.Parts.RW (F := Ideal) m' c (Proc.devRef .tc Cert.ReferenceIdeal.main_v57) := by
  rw [Cert.KernelIdeal.Hand.kst_main_v57 (F := Ideal) m ρ c, e_arg4__arg4 m ρ m' hag c]
  exact (Cert.Proof.Parts.rst_main_v57 (F := Ideal) m' c).symm
theorem e_arg1__arg1 (c : Dev Cert.KernelIdeal.nD) : Cert.KernelIdeal.Hand.W29 (F := Ideal) m ρ c (Proc.devRef .tc Cert.KernelIdeal.main_arg1) = Cert.Proof.Parts.RW (F := Ideal) m' c (Proc.devRef .tc Cert.ReferenceIdeal.main_arg1) :=
  (Cert.KernelIdeal.Hand.W29_main_arg1 (F := Ideal) m ρ c).trans (((hag c).2.1).symm.trans (Cert.Proof.Parts.ref_kept (F := Ideal) m' c Cert.ReferenceIdeal.main_arg1 (by decide)).symm)
theorem e_arg11__arg11 (c : Dev Cert.KernelIdeal.nD) : Cert.KernelIdeal.Hand.W29 (F := Ideal) m ρ c (Proc.devRef .tc Cert.KernelIdeal.main_arg11) = Cert.Proof.Parts.RW (F := Ideal) m' c (Proc.devRef .tc Cert.ReferenceIdeal.main_arg11) :=
  (Cert.KernelIdeal.Hand.W29_main_arg11 (F := Ideal) m ρ c).trans (((hag c).2.2.2.2.2.2.2.2.2.2.2.1).symm.trans (Cert.Proof.Parts.ref_kept (F := Ideal) m' c Cert.ReferenceIdeal.main_arg11 (by decide)).symm)
theorem e_c_7__c_7 (c : Dev Cert.KernelIdeal.nD) : Cert.KernelIdeal.Hand.W29 (F := Ideal) m ρ c (Proc.devRef .tc Cert.KernelIdeal.main_c_7) = Cert.Proof.Parts.RW (F := Ideal) m' c (Proc.devRef .tc Cert.ReferenceIdeal.main_c_7) := by
  rw [Cert.KernelIdeal.Hand.kst_main_c_7 (F := Ideal) m ρ c]
  exact (Cert.Proof.Parts.rst_main_c_7 (F := Ideal) m' c).symm
theorem e_v26__v26 (c : Dev Cert.KernelIdeal.nD) : Cert.KernelIdeal.Hand.W29 (F := Ideal) m ρ c (Proc.devRef .tc Cert.KernelIdeal.main_v26) = Cert.Proof.Parts.RW (F := Ideal) m' c (Proc.devRef .tc Cert.ReferenceIdeal.main_v26) := by
  rw [Cert.KernelIdeal.Hand.kst_main_v26 (F := Ideal) m ρ c, e_c_7__c_7 m ρ m' hag c]
  exact (Cert.Proof.Parts.rst_main_v26 (F := Ideal) m' c).symm
theorem e_v27__v27 (c : Dev Cert.KernelIdeal.nD) : Cert.KernelIdeal.Hand.W29 (F := Ideal) m ρ c (Proc.devRef .tc Cert.KernelIdeal.main_v27) = Cert.Proof.Parts.RW (F := Ideal) m' c (Proc.devRef .tc Cert.ReferenceIdeal.main_v27) := by
  rw [Cert.KernelIdeal.Hand.kst_main_v27 (F := Ideal) m ρ c, e_arg11__arg11 m ρ m' hag c, e_v26__v26 m ρ m' hag c]
  exact (Cert.Proof.Parts.rst_main_v27 (F := Ideal) m' c).symm
theorem e_c_8__c_8 (c : Dev Cert.KernelIdeal.nD) : Cert.KernelIdeal.Hand.W29 (F := Ideal) m ρ c (Proc.devRef .tc Cert.KernelIdeal.main_c_8) = Cert.Proof.Parts.RW (F := Ideal) m' c (Proc.devRef .tc Cert.ReferenceIdeal.main_c_8) := by
  rw [Cert.KernelIdeal.Hand.kst_main_c_8 (F := Ideal) m ρ c]
  exact (Cert.Proof.Parts.rst_main_c_8 (F := Ideal) m' c).symm
theorem e_v28__v28 (c : Dev Cert.KernelIdeal.nD) : Cert.KernelIdeal.Hand.W29 (F := Ideal) m ρ c (Proc.devRef .tc Cert.KernelIdeal.main_v28) = Cert.Proof.Parts.RW (F := Ideal) m' c (Proc.devRef .tc Cert.ReferenceIdeal.main_v28) := by
  rw [Cert.KernelIdeal.Hand.kst_main_v28 (F := Ideal) m ρ c, e_c_8__c_8 m ρ m' hag c]
  exact (Cert.Proof.Parts.rst_main_v28 (F := Ideal) m' c).symm
theorem e_v29__v29 (c : Dev Cert.KernelIdeal.nD) : Cert.KernelIdeal.Hand.W29 (F := Ideal) m ρ c (Proc.devRef .tc Cert.KernelIdeal.main_v29) = Cert.Proof.Parts.RW (F := Ideal) m' c (Proc.devRef .tc Cert.ReferenceIdeal.main_v29) := by
  rw [Cert.KernelIdeal.Hand.kst_main_v29 (F := Ideal) m ρ c, e_arg11__arg11 m ρ m' hag c, e_v28__v28 m ρ m' hag c]
  exact (Cert.Proof.Parts.rst_main_v29 (F := Ideal) m' c).symm
theorem e_v30__v30 (c : Dev Cert.KernelIdeal.nD) : Cert.KernelIdeal.Hand.W29 (F := Ideal) m ρ c (Proc.devRef .tc Cert.KernelIdeal.main_v30) = Cert.Proof.Parts.RW (F := Ideal) m' c (Proc.devRef .tc Cert.ReferenceIdeal.main_v30) := by
  rw [Cert.KernelIdeal.Hand.kst_main_v30 (F := Ideal) m ρ c, e_v27__v27 m ρ m' hag c, e_v29__v29 m ρ m' hag c, e_arg11__arg11 m ρ m' hag c]
  exact (Cert.Proof.Parts.rst_main_v30 (F := Ideal) m' c).symm
theorem e_v31__v31 (c : Dev Cert.KernelIdeal.nD) : Cert.KernelIdeal.Hand.W29 (F := Ideal) m ρ c (Proc.devRef .tc Cert.KernelIdeal.main_v31) = Cert.Proof.Parts.RW (F := Ideal) m' c (Proc.devRef .tc Cert.ReferenceIdeal.main_v31) := by
  rw [Cert.KernelIdeal.Hand.kst_main_v31 (F := Ideal) m ρ c, e_v30__v30 m ρ m' hag c]
  exact (Cert.Proof.Parts.rst_main_v31 (F := Ideal) m' c).symm
theorem e_v32__v32 (c : Dev Cert.KernelIdeal.nD) : Cert.KernelIdeal.Hand.W29 (F := Ideal) m ρ c (Proc.devRef .tc Cert.KernelIdeal.main_v32) = Cert.Proof.Parts.RW (F := Ideal) m' c (Proc.devRef .tc Cert.ReferenceIdeal.main_v32) := by
  rw [Cert.KernelIdeal.Hand.kst_main_v32 (F := Ideal) m ρ c, e_arg1__arg1 m ρ m' hag c, e_v31__v31 m ρ m' hag c]
  exact (Cert.Proof.Parts.rst_main_v32 (F := Ideal) m' c).symm
theorem e_cst_5__cst_5 (c : Dev Cert.KernelIdeal.nD) : Cert.KernelIdeal.Hand.W29 (F := Ideal) m ρ c (Proc.devRef .tc Cert.KernelIdeal.main_cst_5) = Cert.Proof.Parts.RW (F := Ideal) m' c (Proc.devRef .tc Cert.ReferenceIdeal.main_cst_5) := by
  rw [Cert.KernelIdeal.Hand.kst_main_cst_5 (F := Ideal) m ρ c]
  exact (Cert.Proof.Parts.rst_main_cst_5 (F := Ideal) m' c).symm
theorem e_v16__v16 (c : Dev Cert.KernelIdeal.nD) : Cert.KernelIdeal.Hand.W29 (F := Ideal) m ρ c (Proc.devRef .tc Cert.KernelIdeal.main_v16) = Cert.Proof.Parts.RW (F := Ideal) m' c (Proc.devRef .tc Cert.ReferenceIdeal.main_v16) := by
  rw [Cert.KernelIdeal.Hand.kst_main_v16 (F := Ideal) m ρ c, e_cst_5__cst_5 m ρ m' hag c]
  exact (Cert.Proof.Parts.rst_main_v16 (F := Ideal) m' c).symm
theorem e_cst_1__cst_1 (c : Dev Cert.KernelIdeal.nD) : Cert.KernelIdeal.Hand.W29 (F := Ideal) m ρ c (Proc.devRef .tc Cert.KernelIdeal.main_cst_1) = Cert.Proof.Parts.RW (F := Ideal) m' c (Proc.devRef .tc Cert.ReferenceIdeal.main_cst_1) := by
  rw [Cert.KernelIdeal.Hand.kst_main_cst_1 (F := Ideal) m ρ c]
  exact (Cert.Proof.Parts.rst_main_cst_1 (F := Ideal) m' c).symm
theorem e_v4__v4 (c : Dev Cert.KernelIdeal.nD) : Cert.KernelIdeal.Hand.W29 (F := Ideal) m ρ c (Proc.devRef .tc Cert.KernelIdeal.main_v4) = Cert.Proof.Parts.RW (F := Ideal) m' c (Proc.devRef .tc Cert.ReferenceIdeal.main_v4) := by
  rw [Cert.KernelIdeal.Hand.kst_main_v4 (F := Ideal) m ρ c, e_cst_1__cst_1 m ρ m' hag c]
  exact (Cert.Proof.Parts.rst_main_v4 (F := Ideal) m' c).symm
theorem e_arg5__arg5 (c : Dev Cert.KernelIdeal.nD) : Cert.KernelIdeal.Hand.W29 (F := Ideal) m ρ c (Proc.devRef .tc Cert.KernelIdeal.main_arg5) = Cert.Proof.Parts.RW (F := Ideal) m' c (Proc.devRef .tc Cert.ReferenceIdeal.main_arg5) :=
  (Cert.KernelIdeal.Hand.W29_main_arg5 (F := Ideal) m ρ c).trans (((hag c).2.2.2.2.2.1).symm.trans (Cert.Proof.Parts.ref_kept (F := Ideal) m' c Cert.ReferenceIdeal.main_arg5 (by decide)).symm)
theorem e_v5__v5 (c : Dev Cert.KernelIdeal.nD) : Cert.KernelIdeal.Hand.W29 (F := Ideal) m ρ c (Proc.devRef .tc Cert.KernelIdeal.main_v5) = Cert.Proof.Parts.RW (F := Ideal) m' c (Proc.devRef .tc Cert.ReferenceIdeal.main_v5) := by
  rw [Cert.KernelIdeal.Hand.kst_main_v5 (F := Ideal) m ρ c, e_arg5__arg5 m ρ m' hag c]
  exact (Cert.Proof.Parts.rst_main_v5 (F := Ideal) m' c).symm
theorem e_cst__cst (c : Dev Cert.KernelIdeal.nD) : Cert.KernelIdeal.Hand.W29 (F := Ideal) m ρ c (Proc.devRef .tc Cert.KernelIdeal.main_cst) = Cert.Proof.Parts.RW (F := Ideal) m' c (Proc.devRef .tc Cert.ReferenceIdeal.main_cst) := by
  rw [Cert.KernelIdeal.Hand.kst_main_cst (F := Ideal) m ρ c]
  exact (Cert.Proof.Parts.rst_main_cst (F := Ideal) m' c).symm
theorem e_v0__v0 (c : Dev Cert.KernelIdeal.nD) : Cert.KernelIdeal.Hand.W29 (F := Ideal) m ρ c (Proc.devRef .tc Cert.KernelIdeal.main_v0) = Cert.Proof.Parts.RW (F := Ideal) m' c (Proc.devRef .tc Cert.ReferenceIdeal.main_v0) := by
  rw [Cert.KernelIdeal.Hand.kst_main_v0 (F := Ideal) m ρ c, e_cst__cst m ρ m' hag c]
  exact (Cert.Proof.Parts.rst_main_v0 (F := Ideal) m' c).symm
theorem e_v6__v6 (c : Dev Cert.KernelIdeal.nD) : Cert.KernelIdeal.Hand.W29 (F := Ideal) m ρ c (Proc.devRef .tc Cert.KernelIdeal.main_v6) = Cert.Proof.Parts.RW (F := Ideal) m' c (Proc.devRef .tc Cert.ReferenceIdeal.main_v6) := by
  rw [Cert.KernelIdeal.Hand.kst_main_v6 (F := Ideal) m ρ c, e_v4__v4 m ρ m' hag c, e_v5__v5 m ρ m' hag c, e_v0__v0 m ρ m' hag c]
  exact (Cert.Proof.Parts.rst_main_v6 (F := Ideal) m' c).symm
theorem e_cst_4__cst_4 (c : Dev Cert.KernelIdeal.nD) : Cert.KernelIdeal.Hand.W29 (F := Ideal) m ρ c (Proc.devRef .tc Cert.KernelIdeal.main_cst_4) = Cert.Proof.Parts.RW (F := Ideal) m' c (Proc.devRef .tc Cert.ReferenceIdeal.main_cst_4) := by
  rw [Cert.KernelIdeal.Hand.kst_main_cst_4 (F := Ideal) m ρ c]
  exact (Cert.Proof.Parts.rst_main_cst_4 (F := Ideal) m' c).symm
theorem e_v13__v13 (c : Dev Cert.KernelIdeal.nD) : Cert.KernelIdeal.Hand.W29 (F := Ideal) m ρ c (Proc.devRef .tc Cert.KernelIdeal.main_v13) = Cert.Proof.Parts.RW (F := Ideal) m' c (Proc.devRef .tc Cert.ReferenceIdeal.main_v13) := by
  rw [Cert.KernelIdeal.Hand.kst_main_v13 (F := Ideal) m ρ c, e_cst_4__cst_4 m ρ m' hag c]
  exact (Cert.Proof.Parts.rst_main_v13 (F := Ideal) m' c).symm
theorem e_v14__v14 (c : Dev Cert.KernelIdeal.nD) : Cert.KernelIdeal.Hand.W29 (F := Ideal) m ρ c (Proc.devRef .tc Cert.KernelIdeal.main_v14) = Cert.Proof.Parts.RW (F := Ideal) m' c (Proc.devRef .tc Cert.ReferenceIdeal.main_v14) := by
  rw [Cert.KernelIdeal.Hand.kst_main_v14 (F := Ideal) m ρ c, e_v6__v6 m ρ m' hag c, e_v13__v13 m ρ m' hag c]
  exact (Cert.Proof.Parts.rst_main_v14 (F := Ideal) m' c).symm
theorem e_v15__v15 (c : Dev Cert.KernelIdeal.nD) : Cert.KernelIdeal.Hand.W29 (F := Ideal) m ρ c (Proc.devRef .tc Cert.KernelIdeal.main_v15) = Cert.Proof.Parts.RW (F := Ideal) m' c (Proc.devRef .tc Cert.ReferenceIdeal.main_v15) := by
  rw [Cert.KernelIdeal.Hand.kst_main_v15 (F := Ideal) m ρ c, e_v14__v14 m ρ m' hag c]
  exact (Cert.Proof.Parts.rst_main_v15 (F := Ideal) m' c).symm
theorem e_v17__v17 (c : Dev Cert.KernelIdeal.nD) : Cert.KernelIdeal.Hand.W29 (F := Ideal) m ρ c (Proc.devRef .tc Cert.KernelIdeal.main_v17) = Cert.Proof.Parts.RW (F := Ideal) m' c (Proc.devRef .tc Cert.ReferenceIdeal.main_v17) := by
  rw [Cert.KernelIdeal.Hand.kst_main_v17 (F := Ideal) m ρ c, e_v16__v16 m ρ m' hag c, e_v15__v15 m ρ m' hag c]
  exact (Cert.Proof.Parts.rst_main_v17 (F := Ideal) m' c).symm
theorem e_v18__v18 (c : Dev Cert.KernelIdeal.nD) : Cert.KernelIdeal.Hand.W29 (F := Ideal) m ρ c (Proc.devRef .tc Cert.KernelIdeal.main_v18) = Cert.Proof.Parts.RW (F := Ideal) m' c (Proc.devRef .tc Cert.ReferenceIdeal.main_v18) := by
  rw [Cert.KernelIdeal.Hand.kst_main_v18 (F := Ideal) m ρ c, e_v17__v17 m ρ m' hag c]
  exact (Cert.Proof.Parts.rst_main_v18 (F := Ideal) m' c).symm
theorem e_v42__v42 (c : Dev Cert.KernelIdeal.nD) : Cert.KernelIdeal.Hand.W29 (F := Ideal) m ρ c (Proc.devRef .tc Cert.KernelIdeal.main_v42) = Cert.Proof.Parts.RW (F := Ideal) m' c (Proc.devRef .tc Cert.ReferenceIdeal.main_v42) := by
  rw [Cert.KernelIdeal.Hand.kst_main_v42 (F := Ideal) m ρ c, e_v18__v18 m ρ m' hag c]
  exact (Cert.Proof.Parts.rst_main_v42 (F := Ideal) m' c).symm
theorem e_v43__v43 (c : Dev Cert.KernelIdeal.nD) : Cert.KernelIdeal.Hand.W29 (F := Ideal) m ρ c (Proc.devRef .tc Cert.KernelIdeal.main_v43) = Cert.Proof.Parts.RW (F := Ideal) m' c (Proc.devRef .tc Cert.ReferenceIdeal.main_v43) := by
  rw [Cert.KernelIdeal.Hand.kst_main_v43 (F := Ideal) m ρ c, e_v32__v32 m ρ m' hag c, e_v42__v42 m ρ m' hag c]
  exact (Cert.Proof.Parts.rst_main_v43 (F := Ideal) m' c).symm
theorem e_c_11__c_11 (c : Dev Cert.KernelIdeal.nD) : Cert.KernelIdeal.Hand.W29 (F := Ideal) m ρ c (Proc.devRef .tc Cert.KernelIdeal.main_c_11) = Cert.Proof.Parts.RW (F := Ideal) m' c (Proc.devRef .tc Cert.ReferenceIdeal.main_c_11) := by
  rw [Cert.KernelIdeal.Hand.kst_main_c_11 (F := Ideal) m ρ c]
  exact (Cert.Proof.Parts.rst_main_c_11 (F := Ideal) m' c).symm
theorem e_v44__v44 (c : Dev Cert.KernelIdeal.nD) : Cert.KernelIdeal.Hand.W29 (F := Ideal) m ρ c (Proc.devRef .tc Cert.KernelIdeal.main_v44) = Cert.Proof.Parts.RW (F := Ideal) m' c (Proc.devRef .tc Cert.ReferenceIdeal.main_v44) := by
  rw [Cert.KernelIdeal.Hand.kst_main_v44 (F := Ideal) m ρ c, e_c_11__c_11 m ρ m' hag c]
  exact (Cert.Proof.Parts.rst_main_v44 (F := Ideal) m' c).symm
theorem e_v45__v45 (c : Dev Cert.KernelIdeal.nD) : Cert.KernelIdeal.Hand.W29 (F := Ideal) m ρ c (Proc.devRef .tc Cert.KernelIdeal.main_v45) = Cert.Proof.Parts.RW (F := Ideal) m' c (Proc.devRef .tc Cert.ReferenceIdeal.main_v45) := by
  rw [Cert.KernelIdeal.Hand.kst_main_v45 (F := Ideal) m ρ c, e_arg5__arg5 m ρ m' hag c, e_v44__v44 m ρ m' hag c]
  exact (Cert.Proof.Parts.rst_main_v45 (F := Ideal) m' c).symm
theorem e_c_12__c_12 (c : Dev Cert.KernelIdeal.nD) : Cert.KernelIdeal.Hand.W29 (F := Ideal) m ρ c (Proc.devRef .tc Cert.KernelIdeal.main_c_12) = Cert.Proof.Parts.RW (F := Ideal) m' c (Proc.devRef .tc Cert.ReferenceIdeal.main_c_12) := by
  rw [Cert.KernelIdeal.Hand.kst_main_c_12 (F := Ideal) m ρ c]
  exact (Cert.Proof.Parts.rst_main_c_12 (F := Ideal) m' c).symm
theorem e_v46__v46 (c : Dev Cert.KernelIdeal.nD) : Cert.KernelIdeal.Hand.W29 (F := Ideal) m ρ c (Proc.devRef .tc Cert.KernelIdeal.main_v46) = Cert.Proof.Parts.RW (F := Ideal) m' c (Proc.devRef .tc Cert.ReferenceIdeal.main_v46) := by
  rw [Cert.KernelIdeal.Hand.kst_main_v46 (F := Ideal) m ρ c, e_c_12__c_12 m ρ m' hag c]
  exact (Cert.Proof.Parts.rst_main_v46 (F := Ideal) m' c).symm
theorem e_v47__v47 (c : Dev Cert.KernelIdeal.nD) : Cert.KernelIdeal.Hand.W29 (F := Ideal) m ρ c (Proc.devRef .tc Cert.KernelIdeal.main_v47) = Cert.Proof.Parts.RW (F := Ideal) m' c (Proc.devRef .tc Cert.ReferenceIdeal.main_v47) := by
  rw [Cert.KernelIdeal.Hand.kst_main_v47 (F := Ideal) m ρ c, e_arg5__arg5 m ρ m' hag c, e_v46__v46 m ρ m' hag c]
  exact (Cert.Proof.Parts.rst_main_v47 (F := Ideal) m' c).symm
theorem e_v48__v48 (c : Dev Cert.KernelIdeal.nD) : Cert.KernelIdeal.Hand.W29 (F := Ideal) m ρ c (Proc.devRef .tc Cert.KernelIdeal.main_v48) = Cert.Proof.Parts.RW (F := Ideal) m' c (Proc.devRef .tc Cert.ReferenceIdeal.main_v48) := by
  rw [Cert.KernelIdeal.Hand.kst_main_v48 (F := Ideal) m ρ c, e_v45__v45 m ρ m' hag c, e_v47__v47 m ρ m' hag c, e_arg5__arg5 m ρ m' hag c]
  exact (Cert.Proof.Parts.rst_main_v48 (F := Ideal) m' c).symm
theorem e_v49__v49 (c : Dev Cert.KernelIdeal.nD) : Cert.KernelIdeal.Hand.W29 (F := Ideal) m ρ c (Proc.devRef .tc Cert.KernelIdeal.main_v49) = Cert.Proof.Parts.RW (F := Ideal) m' c (Proc.devRef .tc Cert.ReferenceIdeal.main_v49) := by
  rw [Cert.KernelIdeal.Hand.kst_main_v49 (F := Ideal) m ρ c, e_v48__v48 m ρ m' hag c]
  exact (Cert.Proof.Parts.rst_main_v49 (F := Ideal) m' c).symm
theorem e_v50__v50 (c : Dev Cert.KernelIdeal.nD) : Cert.KernelIdeal.Hand.W29 (F := Ideal) m ρ c (Proc.devRef .tc Cert.KernelIdeal.main_v50) = Cert.Proof.Parts.RW (F := Ideal) m' c (Proc.devRef .tc Cert.ReferenceIdeal.main_v50) := by
  rw [Cert.KernelIdeal.Hand.kst_main_v50 (F := Ideal) m ρ c, e_v43__v43 m ρ m' hag c, e_v49__v49 m ρ m' hag c]
  exact (Cert.Proof.Parts.rst_main_v50 (F := Ideal) m' c).symm
theorem e_v58__v58 (c : Dev Cert.KernelIdeal.nD) : Cert.KernelIdeal.Hand.W29 (F := Ideal) m ρ c (Proc.devRef .tc Cert.KernelIdeal.main_v58) = Cert.Proof.Parts.RW (F := Ideal) m' c (Proc.devRef .tc Cert.ReferenceIdeal.main_v58) := by
  rw [Cert.KernelIdeal.Hand.kst_main_v58 (F := Ideal) m ρ c, e_v56__v56 m ρ m' hag c, e_v57__v57 m ρ m' hag c, e_v50__v50 m ρ m' hag c]
  exact (Cert.Proof.Parts.rst_main_v58 (F := Ideal) m' c).symm
theorem e_cst_3__cst_3 (c : Dev Cert.KernelIdeal.nD) : Cert.KernelIdeal.Hand.W29 (F := Ideal) m ρ c (Proc.devRef .tc Cert.KernelIdeal.main_cst_3) = Cert.Proof.Parts.RW (F := Ideal) m' c (Proc.devRef .tc Cert.ReferenceIdeal.main_cst_3) := by
  rw [Cert.KernelIdeal.Hand.kst_main_cst_3 (F := Ideal) m ρ c]
  exact (Cert.Proof.Parts.rst_main_cst_3 (F := Ideal) m' c).symm
theorem e_v10__v10 (c : Dev Cert.KernelIdeal.nD) : Cert.KernelIdeal.Hand.W29 (F := Ideal) m ρ c (Proc.devRef .tc Cert.KernelIdeal.main_v10) = Cert.Proof.Parts.RW (F := Ideal) m' c (Proc.devRef .tc Cert.ReferenceIdeal.main_v10) := by
  rw [Cert.KernelIdeal.Hand.kst_main_v10 (F := Ideal) m ρ c, e_cst_3__cst_3 m ρ m' hag c]
  exact (Cert.Proof.Parts.rst_main_v10 (F := Ideal) m' c).symm
theorem e_cst_0__cst_0 (c : Dev Cert.KernelIdeal.nD) : Cert.KernelIdeal.Hand.W29 (F := Ideal) m ρ c (Proc.devRef .tc Cert.KernelIdeal.main_cst_0) = Cert.Proof.Parts.RW (F := Ideal) m' c (Proc.devRef .tc Cert.ReferenceIdeal.main_cst_0) := by
  rw [Cert.KernelIdeal.Hand.kst_main_cst_0 (F := Ideal) m ρ c]
  exact (Cert.Proof.Parts.rst_main_cst_0 (F := Ideal) m' c).symm
theorem e_v1__v1 (c : Dev Cert.KernelIdeal.nD) : Cert.KernelIdeal.Hand.W29 (F := Ideal) m ρ c (Proc.devRef .tc Cert.KernelIdeal.main_v1) = Cert.Proof.Parts.RW (F := Ideal) m' c (Proc.devRef .tc Cert.ReferenceIdeal.main_v1) := by
  rw [Cert.KernelIdeal.Hand.kst_main_v1 (F := Ideal) m ρ c, e_cst_0__cst_0 m ρ m' hag c]
  exact (Cert.Proof.Parts.rst_main_v1 (F := Ideal) m' c).symm
theorem e_v2__v2 (c : Dev Cert.KernelIdeal.nD) : Cert.KernelIdeal.Hand.W29 (F := Ideal) m ρ c (Proc.devRef .tc Cert.KernelIdeal.main_v2) = Cert.Proof.Parts.RW (F := Ideal) m' c (Proc.devRef .tc Cert.ReferenceIdeal.main_v2) := by
  rw [Cert.KernelIdeal.Hand.kst_main_v2 (F := Ideal) m ρ c, e_arg4__arg4 m ρ m' hag c]
  exact (Cert.Proof.Parts.rst_main_v2 (F := Ideal) m' c).symm
theorem e_v3__v3 (c : Dev Cert.KernelIdeal.nD) : Cert.KernelIdeal.Hand.W29 (F := Ideal) m ρ c (Proc.devRef .tc Cert.KernelIdeal.main_v3) = Cert.Proof.Parts.RW (F := Ideal) m' c (Proc.devRef .tc Cert.ReferenceIdeal.main_v3) := by
  rw [Cert.KernelIdeal.Hand.kst_main_v3 (F := Ideal) m ρ c, e_v1__v1 m ρ m' hag c, e_v2__v2 m ρ m' hag c, e_v0__v0 m ρ m' hag c]
  exact (Cert.Proof.Parts.rst_main_v3 (F := Ideal) m' c).symm
theorem e_cst_2__cst_2 (c : Dev Cert.KernelIdeal.nD) : Cert.KernelIdeal.Hand.W29 (F := Ideal) m ρ c (Proc.devRef .tc Cert.KernelIdeal.main_cst_2) = Cert.Proof.Parts.RW (F := Ideal) m' c (Proc.devRef .tc Cert.ReferenceIdeal.main_cst_2) := by
  rw [Cert.KernelIdeal.Hand.kst_main_cst_2 (F := Ideal) m ρ c]
  exact (Cert.Proof.Parts.rst_main_cst_2 (F := Ideal) m' c).symm
theorem e_v7__v7 (c : Dev Cert.KernelIdeal.nD) : Cert.KernelIdeal.Hand.W29 (F := Ideal) m ρ c (Proc.devRef .tc Cert.KernelIdeal.main_v7) = Cert.Proof.Parts.RW (F := Ideal) m' c (Proc.devRef .tc Cert.ReferenceIdeal.main_v7) := by
  rw [Cert.KernelIdeal.Hand.kst_main_v7 (F := Ideal) m ρ c, e_cst_2__cst_2 m ρ m' hag c]
  exact (Cert.Proof.Parts.rst_main_v7 (F := Ideal) m' c).symm
theorem e_v8__v8 (c : Dev Cert.KernelIdeal.nD) : Cert.KernelIdeal.Hand.W29 (F := Ideal) m ρ c (Proc.devRef .tc Cert.KernelIdeal.main_v8) = Cert.Proof.Parts.RW (F := Ideal) m' c (Proc.devRef .tc Cert.ReferenceIdeal.main_v8) := by
  rw [Cert.KernelIdeal.Hand.kst_main_v8 (F := Ideal) m ρ c, e_v3__v3 m ρ m' hag c, e_v7__v7 m ρ m' hag c]
  exact (Cert.Proof.Parts.rst_main_v8 (F := Ideal) m' c).symm
theorem e_v9__v9 (c : Dev Cert.KernelIdeal.nD) : Cert.KernelIdeal.Hand.W29 (F := Ideal) m ρ c (Proc.devRef .tc Cert.KernelIdeal.main_v9) = Cert.Proof.Parts.RW (F := Ideal) m' c (Proc.devRef .tc Cert.ReferenceIdeal.main_v9) := by
  rw [Cert.KernelIdeal.Hand.kst_main_v9 (F := Ideal) m ρ c, e_v8__v8 m ρ m' hag c]
  exact (Cert.Proof.Parts.rst_main_v9 (F := Ideal) m' c).symm
theorem e_v11__v11 (c : Dev Cert.KernelIdeal.nD) : Cert.KernelIdeal.Hand.W29 (F := Ideal) m ρ c (Proc.devRef .tc Cert.KernelIdeal.main_v11) = Cert.Proof.Parts.RW (F := Ideal) m' c (Proc.devRef .tc Cert.ReferenceIdeal.main_v11) := by
  rw [Cert.KernelIdeal.Hand.kst_main_v11 (F := Ideal) m ρ c, e_v10__v10 m ρ m' hag c, e_v9__v9 m ρ m' hag c]
  exact (Cert.Proof.Parts.rst_main_v11 (F := Ideal) m' c).symm
theorem e_v12__v12 (c : Dev Cert.KernelIdeal.nD) : Cert.KernelIdeal.Hand.W29 (F := Ideal) m ρ c (Proc.devRef .tc Cert.KernelIdeal.main_v12) = Cert.Proof.Parts.RW (F := Ideal) m' c (Proc.devRef .tc Cert.ReferenceIdeal.main_v12) := by
  rw [Cert.KernelIdeal.Hand.kst_main_v12 (F := Ideal) m ρ c, e_v11__v11 m ρ m' hag c]
  exact (Cert.Proof.Parts.rst_main_v12 (F := Ideal) m' c).symm
theorem e_v59__v59 (c : Dev Cert.KernelIdeal.nD) : Cert.KernelIdeal.Hand.W29 (F := Ideal) m ρ c (Proc.devRef .tc Cert.KernelIdeal.main_v59) = Cert.Proof.Parts.RW (F := Ideal) m' c (Proc.devRef .tc Cert.ReferenceIdeal.main_v59) := by
  rw [Cert.KernelIdeal.Hand.kst_main_v59 (F := Ideal) m ρ c, e_v12__v12 m ρ m' hag c]
  exact (Cert.Proof.Parts.rst_main_v59 (F := Ideal) m' c).symm
theorem e_v60__v60 (c : Dev Cert.KernelIdeal.nD) : Cert.KernelIdeal.Hand.W29 (F := Ideal) m ρ c (Proc.devRef .tc Cert.KernelIdeal.main_v60) = Cert.Proof.Parts.RW (F := Ideal) m' c (Proc.devRef .tc Cert.ReferenceIdeal.main_v60) := by
  rw [Cert.KernelIdeal.Hand.kst_main_v60 (F := Ideal) m ρ c, e_v58__v58 m ρ m' hag c, e_v59__v59 m ρ m' hag c]
  exact (Cert.Proof.Parts.rst_main_v60 (F := Ideal) m' c).symm
theorem e_v61__v61 (c : Dev Cert.KernelIdeal.nD) : Cert.KernelIdeal.Hand.W29 (F := Ideal) m ρ c (Proc.devRef .tc Cert.KernelIdeal.main_v61) = Cert.Proof.Parts.RW (F := Ideal) m' c (Proc.devRef .tc Cert.ReferenceIdeal.main_v61) := by
  rw [Cert.KernelIdeal.Hand.kst_main_v61 (F := Ideal) m ρ c, e_v25__v25 m ρ m' hag c, e_v60__v60 m ρ m' hag c]
  exact (Cert.Proof.Parts.rst_main_v61 (F := Ideal) m' c).symm
theorem e_cst_20__cst_20 (c : Dev Cert.KernelIdeal.nD) : Cert.KernelIdeal.Hand.W29 (F := Ideal) m ρ c (Proc.devRef .tc Cert.KernelIdeal.main_cst_20) = Cert.Proof.Parts.RW (F := Ideal) m' c (Proc.devRef .tc Cert.ReferenceIdeal.main_cst_20) := by
  rw [Cert.KernelIdeal.Hand.kst_main_cst_20 (F := Ideal) m ρ c]
  exact (Cert.Proof.Parts.rst_main_cst_20 (F := Ideal) m' c).symm
theorem e_v86__v86 (c : Dev Cert.KernelIdeal.nD) : Cert.KernelIdeal.Hand.W29 (F := Ideal) m ρ c (Proc.devRef .tc Cert.KernelIdeal.main_v86) = Cert.Proof.Parts.RW (F := Ideal) m' c (Proc.devRef .tc Cert.ReferenceIdeal.main_v86) := by
  rw [Cert.KernelIdeal.Hand.kst_main_v86 (F := Ideal) m ρ c, e_cst_20__cst_20 m ρ m' hag c]
  exact (Cert.Proof.Parts.rst_main_v86 (F := Ideal) m' c).symm
theorem e_v87__v87 (c : Dev Cert.KernelIdeal.nD) : Cert.KernelIdeal.Hand.W29 (F := Ideal) m ρ c (Proc.devRef .tc Cert.KernelIdeal.main_v87) = Cert.Proof.Parts.RW (F := Ideal) m' c (Proc.devRef .tc Cert.ReferenceIdeal.main_v87) := by
  rw [Cert.KernelIdeal.Hand.kst_main_v87 (F := Ideal) m ρ c, e_arg4__arg4 m ρ m' hag c]
  exact (Cert.Proof.Parts.rst_main_v87 (F := Ideal) m' c).symm
theorem e_cst_13__cst_13 (c : Dev Cert.KernelIdeal.nD) : Cert.KernelIdeal.Hand.W29 (F := Ideal) m ρ c (Proc.devRef .tc Cert.KernelIdeal.main_cst_13) = Cert.Proof.Parts.RW (F := Ideal) m' c (Proc.devRef .tc Cert.ReferenceIdeal.main_cst_13) := by
  rw [Cert.KernelIdeal.Hand.kst_main_cst_13 (F := Ideal) m ρ c]
  exact (Cert.Proof.Parts.rst_main_cst_13 (F := Ideal) m' c).symm
theorem e_v51__v51 (c : Dev Cert.KernelIdeal.nD) : Cert.KernelIdeal.Hand.W29 (F := Ideal) m ρ c (Proc.devRef .tc Cert.KernelIdeal.main_v51) = Cert.Proof.Parts.RW (F := Ideal) m' c (Proc.devRef .tc Cert.ReferenceIdeal.main_v51) := by
  rw [Cert.KernelIdeal.Hand.kst_main_v51 (F := Ideal) m ρ c, e_cst_13__cst_13 m ρ m' hag c]
  exact (Cert.Proof.Parts.rst_main_v51 (F := Ideal) m' c).symm
theorem e_v52__v52 (c : Dev Cert.KernelIdeal.nD) : Cert.KernelIdeal.Hand.W29 (F := Ideal) m ρ c (Proc.devRef .tc Cert.KernelIdeal.main_v52) = Cert.Proof.Parts.RW (F := Ideal) m' c (Proc.devRef .tc Cert.ReferenceIdeal.main_v52) := by
  rw [Cert.KernelIdeal.Hand.kst_main_v52 (F := Ideal) m ρ c, e_arg5__arg5 m ρ m' hag c]
  exact (Cert.Proof.Parts.rst_main_v52 (F := Ideal) m' c).symm
theorem e_v33__v33 (c : Dev Cert.KernelIdeal.nD) : Cert.KernelIdeal.Hand.W29 (F := Ideal) m ρ c (Proc.devRef .tc Cert.KernelIdeal.main_v33) = Cert.Proof.Parts.RW (F := Ideal) m' c (Proc.devRef .tc Cert.ReferenceIdeal.main_v33) := by
  rw [Cert.KernelIdeal.Hand.kst_main_v33 (F := Ideal) m ρ c, e_v12__v12 m ρ m' hag c]
  exact (Cert.Proof.Parts.rst_main_v33 (F := Ideal) m' c).symm
theorem e_v34__v34 (c : Dev Cert.KernelIdeal.nD) : Cert.KernelIdeal.Hand.W29 (F := Ideal) m ρ c (Proc.devRef .tc Cert.KernelIdeal.main_v34) = Cert.Proof.Parts.RW (F := Ideal) m' c (Proc.devRef .tc Cert.ReferenceIdeal.main_v34) := by
  rw [Cert.KernelIdeal.Hand.kst_main_v34 (F := Ideal) m ρ c, e_v25__v25 m ρ m' hag c, e_v33__v33 m ρ m' hag c]
  exact (Cert.Proof.Parts.rst_main_v34 (F := Ideal) m' c).symm
theorem e_c_9__c_9 (c : Dev Cert.KernelIdeal.nD) : Cert.KernelIdeal.Hand.W29 (F := Ideal) m ρ c (Proc.devRef .tc Cert.KernelIdeal.main_c_9) = Cert.Proof.Parts.RW (F := Ideal) m' c (Proc.devRef .tc Cert.ReferenceIdeal.main_c_9) := by
  rw [Cert.KernelIdeal.Hand.kst_main_c_9 (F := Ideal) m ρ c]
  exact (Cert.Proof.Parts.rst_main_c_9 (F := Ideal) m' c).symm
theorem e_v35__v35 (c : Dev Cert.KernelIdeal.nD) : Cert.KernelIdeal.Hand.W29 (F := Ideal) m ρ c (Proc.devRef .tc Cert.KernelIdeal.main_v35) = Cert.Proof.Parts.RW (F := Ideal) m' c (Proc.devRef .tc Cert.ReferenceIdeal.main_v35) := by
  rw [Cert.KernelIdeal.Hand.kst_main_v35 (F := Ideal) m ρ c, e_c_9__c_9 m ρ m' hag c]
  exact (Cert.Proof.Parts.rst_main_v35 (F := Ideal) m' c).symm
theorem e_v36__v36 (c : Dev Cert.KernelIdeal.nD) : Cert.KernelIdeal.Hand.W29 (F := Ideal) m ρ c (Proc.devRef .tc Cert.KernelIdeal.main_v36) = Cert.Proof.Parts.RW (F := Ideal) m' c (Proc.devRef .tc Cert.ReferenceIdeal.main_v36) := by
  rw [Cert.KernelIdeal.Hand.kst_main_v36 (F := Ideal) m ρ c, e_arg4__arg4 m ρ m' hag c, e_v35__v35 m ρ m' hag c]
  exact (Cert.Proof.Parts.rst_main_v36 (F := Ideal) m' c).symm
theorem e_c_10__c_10 (c : Dev Cert.KernelIdeal.nD) : Cert.KernelIdeal.Hand.W29 (F := Ideal) m ρ c (Proc.devRef .tc Cert.KernelIdeal.main_c_10) = Cert.Proof.Parts.RW (F := Ideal) m' c (Proc.devRef .tc Cert.ReferenceIdeal.main_c_10) := by
  rw [Cert.KernelIdeal.Hand.kst_main_c_10 (F := Ideal) m ρ c]
  exact (Cert.Proof.Parts.rst_main_c_10 (F := Ideal) m' c).symm
theorem e_v37__v37 (c : Dev Cert.KernelIdeal.nD) : Cert.KernelIdeal.Hand.W29 (F := Ideal) m ρ c (Proc.devRef .tc Cert.KernelIdeal.main_v37) = Cert.Proof.Parts.RW (F := Ideal) m' c (Proc.devRef .tc Cert.ReferenceIdeal.main_v37) := by
  rw [Cert.KernelIdeal.Hand.kst_main_v37 (F := Ideal) m ρ c, e_c_10__c_10 m ρ m' hag c]
  exact (Cert.Proof.Parts.rst_main_v37 (F := Ideal) m' c).symm
theorem e_v38__v38 (c : Dev Cert.KernelIdeal.nD) : Cert.KernelIdeal.Hand.W29 (F := Ideal) m ρ c (Proc.devRef .tc Cert.KernelIdeal.main_v38) = Cert.Proof.Parts.RW (F := Ideal) m' c (Proc.devRef .tc Cert.ReferenceIdeal.main_v38) := by
  rw [Cert.KernelIdeal.Hand.kst_main_v38 (F := Ideal) m ρ c, e_arg4__arg4 m ρ m' hag c, e_v37__v37 m ρ m' hag c]
  exact (Cert.Proof.Parts.rst_main_v38 (F := Ideal) m' c).symm
theorem e_v39__v39 (c : Dev Cert.KernelIdeal.nD) : Cert.KernelIdeal.Hand.W29 (F := Ideal) m ρ c (Proc.devRef .tc Cert.KernelIdeal.main_v39) = Cert.Proof.Parts.RW (F := Ideal) m' c (Proc.devRef .tc Cert.ReferenceIdeal.main_v39) := by
  rw [Cert.KernelIdeal.Hand.kst_main_v39 (F := Ideal) m ρ c, e_v36__v36 m ρ m' hag c, e_v38__v38 m ρ m' hag c, e_arg4__arg4 m ρ m' hag c]
  exact (Cert.Proof.Parts.rst_main_v39 (F := Ideal) m' c).symm
theorem e_v40__v40 (c : Dev Cert.KernelIdeal.nD) : Cert.KernelIdeal.Hand.W29 (F := Ideal) m ρ c (Proc.devRef .tc Cert.KernelIdeal.main_v40) = Cert.Proof.Parts.RW (F := Ideal) m' c (Proc.devRef .tc Cert.ReferenceIdeal.main_v40) := by
  rw [Cert.KernelIdeal.Hand.kst_main_v40 (F := Ideal) m ρ c, e_v39__v39 m ρ m' hag c]
  exact (Cert.Proof.Parts.rst_main_v40 (F := Ideal) m' c).symm
theorem e_v41__v41 (c : Dev Cert.KernelIdeal.nD) : Cert.KernelIdeal.Hand.W29 (F := Ideal) m ρ c (Proc.devRef .tc Cert.KernelIdeal.main_v41) = Cert.Proof.Parts.RW (F := Ideal) m' c (Proc.devRef .tc Cert.ReferenceIdeal.main_v41) := by
  rw [Cert.KernelIdeal.Hand.kst_main_v41 (F := Ideal) m ρ c, e_v34__v34 m ρ m' hag c, e_v40__v40 m ρ m' hag c]
  exact (Cert.Proof.Parts.rst_main_v41 (F := Ideal) m' c).symm
theorem e_v53__v53 (c : Dev Cert.KernelIdeal.nD) : Cert.KernelIdeal.Hand.W29 (F := Ideal) m ρ c (Proc.devRef .tc Cert.KernelIdeal.main_v53) = Cert.Proof.Parts.RW (F := Ideal) m' c (Proc.devRef .tc Cert.ReferenceIdeal.main_v53) := by
  rw [Cert.KernelIdeal.Hand.kst_main_v53 (F := Ideal) m ρ c, e_v51__v51 m ρ m' hag c, e_v52__v52 m ρ m' hag c, e_v41__v41 m ρ m' hag c]
  exact (Cert.Proof.Parts.rst_main_v53 (F := Ideal) m' c).symm
theorem e_v54__v54 (c : Dev Cert.KernelIdeal.nD) : Cert.KernelIdeal.Hand.W29 (F := Ideal) m ρ c (Proc.devRef .tc Cert.KernelIdeal.main_v54) = Cert.Proof.Parts.RW (F := Ideal) m' c (Proc.devRef .tc Cert.ReferenceIdeal.main_v54) := by
  rw [Cert.KernelIdeal.Hand.kst_main_v54 (F := Ideal) m ρ c, e_v18__v18 m ρ m' hag c]
  exact (Cert.Proof.Parts.rst_main_v54 (F := Ideal) m' c).symm
theorem e_v55__v55 (c : Dev Cert.KernelIdeal.nD) : Cert.KernelIdeal.Hand.W29 (F := Ideal) m ρ c (Proc.devRef .tc Cert.KernelIdeal.main_v55) = Cert.Proof.Parts.RW (F := Ideal) m' c (Proc.devRef .tc Cert.ReferenceIdeal.main_v55) := by
  rw [Cert.KernelIdeal.Hand.kst_main_v55 (F := Ideal) m ρ c, e_v53__v53 m ρ m' hag c, e_v54__v54 m ρ m' hag c]
  exact (Cert.Proof.Parts.rst_main_v55 (F := Ideal) m' c).symm
theorem e_v72__v72 (c : Dev Cert.KernelIdeal.nD) : Cert.KernelIdeal.Hand.W29 (F := Ideal) m ρ c (Proc.devRef .tc Cert.KernelIdeal.main_v72) = Cert.Proof.Parts.RW (F := Ideal) m' c (Proc.devRef .tc Cert.ReferenceIdeal.main_v72) := by
  rw [Cert.KernelIdeal.Hand.kst_main_v72 (F := Ideal) m ρ c, e_v18__v18 m ρ m' hag c]
  exact (Cert.Proof.Parts.rst_main_v72 (F := Ideal) m' c).symm
theorem e_v73__v73 (c : Dev Cert.KernelIdeal.nD) : Cert.KernelIdeal.Hand.W29 (F := Ideal) m ρ c (Proc.devRef .tc Cert.KernelIdeal.main_v73) = Cert.Proof.Parts.RW (F := Ideal) m' c (Proc.devRef .tc Cert.ReferenceIdeal.main_v73) := by
  rw [Cert.KernelIdeal.Hand.kst_main_v73 (F := Ideal) m ρ c, e_v55__v55 m ρ m' hag c, e_v72__v72 m ρ m' hag c]
  exact (Cert.Proof.Parts.rst_main_v73 (F := Ideal) m' c).symm
theorem e_c_17__c_17 (c : Dev Cert.KernelIdeal.nD) : Cert.KernelIdeal.Hand.W29 (F := Ideal) m ρ c (Proc.devRef .tc Cert.KernelIdeal.main_c_17) = Cert.Proof.Parts.RW (F := Ideal) m' c (Proc.devRef .tc Cert.ReferenceIdeal.main_c_17) := by
  rw [Cert.KernelIdeal.Hand.kst_main_c_17 (F := Ideal) m ρ c]
  exact (Cert.Proof.Parts.rst_main_c_17 (F := Ideal) m' c).symm
theorem e_v74__v74 (c : Dev Cert.KernelIdeal.nD) : Cert.KernelIdeal.Hand.W29 (F := Ideal) m ρ c (Proc.devRef .tc Cert.KernelIdeal.main_v74) = Cert.Proof.Parts.RW (F := Ideal) m' c (Proc.devRef .tc Cert.ReferenceIdeal.main_v74) := by
  rw [Cert.KernelIdeal.Hand.kst_main_v74 (F := Ideal) m ρ c, e_c_17__c_17 m ρ m' hag c]
  exact (Cert.Proof.Parts.rst_main_v74 (F := Ideal) m' c).symm
theorem e_v75__v75 (c : Dev Cert.KernelIdeal.nD) : Cert.KernelIdeal.Hand.W29 (F := Ideal) m ρ c (Proc.devRef .tc Cert.KernelIdeal.main_v75) = Cert.Proof.Parts.RW (F := Ideal) m' c (Proc.devRef .tc Cert.ReferenceIdeal.main_v75) := by
  rw [Cert.KernelIdeal.Hand.kst_main_v75 (F := Ideal) m ρ c, e_arg5__arg5 m ρ m' hag c, e_v74__v74 m ρ m' hag c]
  exact (Cert.Proof.Parts.rst_main_v75 (F := Ideal) m' c).symm
theorem e_c_18__c_18 (c : Dev Cert.KernelIdeal.nD) : Cert.KernelIdeal.Hand.W29 (F := Ideal) m ρ c (Proc.devRef .tc Cert.KernelIdeal.main_c_18) = Cert.Proof.Parts.RW (F := Ideal) m' c (Proc.devRef .tc Cert.ReferenceIdeal.main_c_18) := by
  rw [Cert.KernelIdeal.Hand.kst_main_c_18 (F := Ideal) m ρ c]
  exact (Cert.Proof.Parts.rst_main_c_18 (F := Ideal) m' c).symm
theorem e_v76__v76 (c : Dev Cert.KernelIdeal.nD) : Cert.KernelIdeal.Hand.W29 (F := Ideal) m ρ c (Proc.devRef .tc Cert.KernelIdeal.main_v76) = Cert.Proof.Parts.RW (F := Ideal) m' c (Proc.devRef .tc Cert.ReferenceIdeal.main_v76) := by
  rw [Cert.KernelIdeal.Hand.kst_main_v76 (F := Ideal) m ρ c, e_c_18__c_18 m ρ m' hag c]
  exact (Cert.Proof.Parts.rst_main_v76 (F := Ideal) m' c).symm
theorem e_v77__v77 (c : Dev Cert.KernelIdeal.nD) : Cert.KernelIdeal.Hand.W29 (F := Ideal) m ρ c (Proc.devRef .tc Cert.KernelIdeal.main_v77) = Cert.Proof.Parts.RW (F := Ideal) m' c (Proc.devRef .tc Cert.ReferenceIdeal.main_v77) := by
  rw [Cert.KernelIdeal.Hand.kst_main_v77 (F := Ideal) m ρ c, e_arg5__arg5 m ρ m' hag c, e_v76__v76 m ρ m' hag c]
  exact (Cert.Proof.Parts.rst_main_v77 (F := Ideal) m' c).symm
theorem e_v78__v78 (c : Dev Cert.KernelIdeal.nD) : Cert.KernelIdeal.Hand.W29 (F := Ideal) m ρ c (Proc.devRef .tc Cert.KernelIdeal.main_v78) = Cert.Proof.Parts.RW (F := Ideal) m' c (Proc.devRef .tc Cert.ReferenceIdeal.main_v78) := by
  rw [Cert.KernelIdeal.Hand.kst_main_v78 (F := Ideal) m ρ c, e_v75__v75 m ρ m' hag c, e_v77__v77 m ρ m' hag c, e_arg5__arg5 m ρ m' hag c]
  exact (Cert.Proof.Parts.rst_main_v78 (F := Ideal) m' c).symm
theorem e_v79__v79 (c : Dev Cert.KernelIdeal.nD) : Cert.KernelIdeal.Hand.W29 (F := Ideal) m ρ c (Proc.devRef .tc Cert.KernelIdeal.main_v79) = Cert.Proof.Parts.RW (F := Ideal) m' c (Proc.devRef .tc Cert.ReferenceIdeal.main_v79) := by
  rw [Cert.KernelIdeal.Hand.kst_main_v79 (F := Ideal) m ρ c, e_v78__v78 m ρ m' hag c]
  exact (Cert.Proof.Parts.rst_main_v79 (F := Ideal) m' c).symm
theorem e_v80__v80 (c : Dev Cert.KernelIdeal.nD) : Cert.KernelIdeal.Hand.W29 (F := Ideal) m ρ c (Proc.devRef .tc Cert.KernelIdeal.main_v80) = Cert.Proof.Parts.RW (F := Ideal) m' c (Proc.devRef .tc Cert.ReferenceIdeal.main_v80) := by
  rw [Cert.KernelIdeal.Hand.kst_main_v80 (F := Ideal) m ρ c, e_v73__v73 m ρ m' hag c, e_v79__v79 m ρ m' hag c]
  exact (Cert.Proof.Parts.rst_main_v80 (F := Ideal) m' c).symm
theorem e_v88__v88 (c : Dev Cert.KernelIdeal.nD) : Cert.KernelIdeal.Hand.W29 (F := Ideal) m ρ c (Proc.devRef .tc Cert.KernelIdeal.main_v88) = Cert.Proof.Parts.RW (F := Ideal) m' c (Proc.devRef .tc Cert.ReferenceIdeal.main_v88) := by
  rw [Cert.KernelIdeal.Hand.kst_main_v88 (F := Ideal) m ρ c, e_v86__v86 m ρ m' hag c, e_v87__v87 m ρ m' hag c, e_v80__v80 m ρ m' hag c]
  exact (Cert.Proof.Parts.rst_main_v88 (F := Ideal) m' c).symm
theorem e_v89__v89 (c : Dev Cert.KernelIdeal.nD) : Cert.KernelIdeal.Hand.W29 (F := Ideal) m ρ c (Proc.devRef .tc Cert.KernelIdeal.main_v89) = Cert.Proof.Parts.RW (F := Ideal) m' c (Proc.devRef .tc Cert.ReferenceIdeal.main_v89) := by
  rw [Cert.KernelIdeal.Hand.kst_main_v89 (F := Ideal) m ρ c, e_v12__v12 m ρ m' hag c]
  exact (Cert.Proof.Parts.rst_main_v89 (F := Ideal) m' c).symm
theorem e_v90__v90 (c : Dev Cert.KernelIdeal.nD) : Cert.KernelIdeal.Hand.W29 (F := Ideal) m ρ c (Proc.devRef .tc Cert.KernelIdeal.main_v90) = Cert.Proof.Parts.RW (F := Ideal) m' c (Proc.devRef .tc Cert.ReferenceIdeal.main_v90) := by
  rw [Cert.KernelIdeal.Hand.kst_main_v90 (F := Ideal) m ρ c, e_v88__v88 m ρ m' hag c, e_v89__v89 m ρ m' hag c]
  exact (Cert.Proof.Parts.rst_main_v90 (F := Ideal) m' c).symm
theorem e_v91__v91 (c : Dev Cert.KernelIdeal.nD) : Cert.KernelIdeal.Hand.W29 (F := Ideal) m ρ c (Proc.devRef .tc Cert.KernelIdeal.main_v91) = Cert.Proof.Parts.RW (F := Ideal) m' c (Proc.devRef .tc Cert.ReferenceIdeal.main_v91) := by
  rw [Cert.KernelIdeal.Hand.kst_main_v91 (F := Ideal) m ρ c, e_v61__v61 m ρ m' hag c, e_v90__v90 m ρ m' hag c]
  exact (Cert.Proof.Parts.rst_main_v91 (F := Ideal) m' c).symm
theorem e_cst_26__cst_26 (c : Dev Cert.KernelIdeal.nD) : Cert.KernelIdeal.Hand.W29 (F := Ideal) m ρ c (Proc.devRef .tc Cert.KernelIdeal.main_cst_26) = Cert.Proof.Parts.RW (F := Ideal) m' c (Proc.devRef .tc Cert.ReferenceIdeal.main_cst_26) := by
  rw [Cert.KernelIdeal.Hand.kst_main_cst_26 (F := Ideal) m ρ c]
  exact (Cert.Proof.Parts.rst_main_cst_26 (F := Ideal) m' c).symm
theorem e_v116__v116 (c : Dev Cert.KernelIdeal.nD) : Cert.KernelIdeal.Hand.W29 (F := Ideal) m ρ c (Proc.devRef .tc Cert.KernelIdeal.main_v116) = Cert.Proof.Parts.RW (F := Ideal) m' c (Proc.devRef .tc Cert.ReferenceIdeal.main_v116) := by
  rw [Cert.KernelIdeal.Hand.kst_main_v116 (F := Ideal) m ρ c, e_cst_26__cst_26 m ρ m' hag c]
  exact (Cert.Proof.Parts.rst_main_v116 (F := Ideal) m' c).symm
theorem e_v117__v117 (c : Dev Cert.KernelIdeal.nD) : Cert.KernelIdeal.Hand.W29 (F := Ideal) m ρ c (Proc.devRef .tc Cert.KernelIdeal.main_v117) = Cert.Proof.Parts.RW (F := Ideal) m' c (Proc.devRef .tc Cert.ReferenceIdeal.main_v117) := by
  rw [Cert.KernelIdeal.Hand.kst_main_v117 (F := Ideal) m ρ c, e_arg4__arg4 m ρ m' hag c]
  exact (Cert.Proof.Parts.rst_main_v117 (F := Ideal) m' c).symm
theorem e_cst_19__cst_19 (c : Dev Cert.KernelIdeal.nD) : Cert.KernelIdeal.Hand.W29 (F := Ideal) m ρ c (Proc.devRef .tc Cert.KernelIdeal.main_cst_19) = Cert.Proof.Parts.RW (F := Ideal) m' c (Proc.devRef .tc Cert.ReferenceIdeal.main_cst_19) := by
  rw [Cert.KernelIdeal.Hand.kst_main_cst_19 (F := Ideal) m ρ c]
  exact (Cert.Proof.Parts.rst_main_cst_19 (F := Ideal) m' c).symm
theorem e_v81__v81 (c : Dev Cert.KernelIdeal.nD) : Cert.KernelIdeal.Hand.W29 (F := Ideal) m ρ c (Proc.devRef .tc Cert.KernelIdeal.main_v81) = Cert.Proof.Parts.RW (F := Ideal) m' c (Proc.devRef .tc Cert.ReferenceIdeal.main_v81) := by
  rw [Cert.KernelIdeal.Hand.kst_main_v81 (F := Ideal) m ρ c, e_cst_19__cst_19 m ρ m' hag c]
  exact (Cert.Proof.Parts.rst_main_v81 (F := Ideal) m' c).symm
theorem e_v82__v82 (c : Dev Cert.KernelIdeal.nD) : Cert.KernelIdeal.Hand.W29 (F := Ideal) m ρ c (Proc.devRef .tc Cert.KernelIdeal.main_v82) = Cert.Proof.Parts.RW (F := Ideal) m' c (Proc.devRef .tc Cert.ReferenceIdeal.main_v82) := by
  rw [Cert.KernelIdeal.Hand.kst_main_v82 (F := Ideal) m ρ c, e_arg5__arg5 m ρ m' hag c]
  exact (Cert.Proof.Parts.rst_main_v82 (F := Ideal) m' c).symm
theorem e_v63__v63 (c : Dev Cert.KernelIdeal.nD) : Cert.KernelIdeal.Hand.W29 (F := Ideal) m ρ c (Proc.devRef .tc Cert.KernelIdeal.main_v63) = Cert.Proof.Parts.RW (F := Ideal) m' c (Proc.devRef .tc Cert.ReferenceIdeal.main_v63) := by
  rw [Cert.KernelIdeal.Hand.kst_main_v63 (F := Ideal) m ρ c, e_v12__v12 m ρ m' hag c]
  exact (Cert.Proof.Parts.rst_main_v63 (F := Ideal) m' c).symm
theorem e_v64__v64 (c : Dev Cert.KernelIdeal.nD) : Cert.KernelIdeal.Hand.W29 (F := Ideal) m ρ c (Proc.devRef .tc Cert.KernelIdeal.main_v64) = Cert.Proof.Parts.RW (F := Ideal) m' c (Proc.devRef .tc Cert.ReferenceIdeal.main_v64) := by
  rw [Cert.KernelIdeal.Hand.kst_main_v64 (F := Ideal) m ρ c, e_v60__v60 m ρ m' hag c, e_v63__v63 m ρ m' hag c]
  exact (Cert.Proof.Parts.rst_main_v64 (F := Ideal) m' c).symm
theorem e_c_15__c_15 (c : Dev Cert.KernelIdeal.nD) : Cert.KernelIdeal.Hand.W29 (F := Ideal) m ρ c (Proc.devRef .tc Cert.KernelIdeal.main_c_15) = Cert.Proof.Parts.RW (F := Ideal) m' c (Proc.devRef .tc Cert.ReferenceIdeal.main_c_15) := by
  rw [Cert.KernelIdeal.Hand.kst_main_c_15 (F := Ideal) m ρ c]
  exact (Cert.Proof.Parts.rst_main_c_15 (F := Ideal) m' c).symm
theorem e_v65__v65 (c : Dev Cert.KernelIdeal.nD) : Cert.KernelIdeal.Hand.W29 (F := Ideal) m ρ c (Proc.devRef .tc Cert.KernelIdeal.main_v65) = Cert.Proof.Parts.RW (F := Ideal) m' c (Proc.devRef .tc Cert.ReferenceIdeal.main_v65) := by
  rw [Cert.KernelIdeal.Hand.kst_main_v65 (F := Ideal) m ρ c, e_c_15__c_15 m ρ m' hag c]
  exact (Cert.Proof.Parts.rst_main_v65 (F := Ideal) m' c).symm
theorem e_v66__v66 (c : Dev Cert.KernelIdeal.nD) : Cert.KernelIdeal.Hand.W29 (F := Ideal) m ρ c (Proc.devRef .tc Cert.KernelIdeal.main_v66) = Cert.Proof.Parts.RW (F := Ideal) m' c (Proc.devRef .tc Cert.ReferenceIdeal.main_v66) := by
  rw [Cert.KernelIdeal.Hand.kst_main_v66 (F := Ideal) m ρ c, e_arg4__arg4 m ρ m' hag c, e_v65__v65 m ρ m' hag c]
  exact (Cert.Proof.Parts.rst_main_v66 (F := Ideal) m' c).symm
theorem e_c_16__c_16 (c : Dev Cert.KernelIdeal.nD) : Cert.KernelIdeal.Hand.W29 (F := Ideal) m ρ c (Proc.devRef .tc Cert.KernelIdeal.main_c_16) = Cert.Proof.Parts.RW (F := Ideal) m' c (Proc.devRef .tc Cert.ReferenceIdeal.main_c_16) := by
  rw [Cert.KernelIdeal.Hand.kst_main_c_16 (F := Ideal) m ρ c]
  exact (Cert.Proof.Parts.rst_main_c_16 (F := Ideal) m' c).symm
theorem e_v67__v67 (c : Dev Cert.KernelIdeal.nD) : Cert.KernelIdeal.Hand.W29 (F := Ideal) m ρ c (Proc.devRef .tc Cert.KernelIdeal.main_v67) = Cert.Proof.Parts.RW (F := Ideal) m' c (Proc.devRef .tc Cert.ReferenceIdeal.main_v67) := by
  rw [Cert.KernelIdeal.Hand.kst_main_v67 (F := Ideal) m ρ c, e_c_16__c_16 m ρ m' hag c]
  exact (Cert.Proof.Parts.rst_main_v67 (F := Ideal) m' c).symm
theorem e_v68__v68 (c : Dev Cert.KernelIdeal.nD) : Cert.KernelIdeal.Hand.W29 (F := Ideal) m ρ c (Proc.devRef .tc Cert.KernelIdeal.main_v68) = Cert.Proof.Parts.RW (F := Ideal) m' c (Proc.devRef .tc Cert.ReferenceIdeal.main_v68) := by
  rw [Cert.KernelIdeal.Hand.kst_main_v68 (F := Ideal) m ρ c, e_arg4__arg4 m ρ m' hag c, e_v67__v67 m ρ m' hag c]
  exact (Cert.Proof.Parts.rst_main_v68 (F := Ideal) m' c).symm
theorem e_v69__v69 (c : Dev Cert.KernelIdeal.nD) : Cert.KernelIdeal.Hand.W29 (F := Ideal) m ρ c (Proc.devRef .tc Cert.KernelIdeal.main_v69) = Cert.Proof.Parts.RW (F := Ideal) m' c (Proc.devRef .tc Cert.ReferenceIdeal.main_v69) := by
  rw [Cert.KernelIdeal.Hand.kst_main_v69 (F := Ideal) m ρ c, e_v66__v66 m ρ m' hag c, e_v68__v68 m ρ m' hag c, e_arg4__arg4 m ρ m' hag c]
  exact (Cert.Proof.Parts.rst_main_v69 (F := Ideal) m' c).symm
theorem e_v70__v70 (c : Dev Cert.KernelIdeal.nD) : Cert.KernelIdeal.Hand.W29 (F := Ideal) m ρ c (Proc.devRef .tc Cert.KernelIdeal.main_v70) = Cert.Proof.Parts.RW (F := Ideal) m' c (Proc.devRef .tc Cert.ReferenceIdeal.main_v70) := by
  rw [Cert.KernelIdeal.Hand.kst_main_v70 (F := Ideal) m ρ c, e_v69__v69 m ρ m' hag c]
  exact (Cert.Proof.Parts.rst_main_v70 (F := Ideal) m' c).symm
theorem e_v71__v71 (c : Dev Cert.KernelIdeal.nD) : Cert.KernelIdeal.Hand.W29 (F := Ideal) m ρ c (Proc.devRef .tc Cert.KernelIdeal.main_v71) = Cert.Proof.Parts.RW (F := Ideal) m' c (Proc.devRef .tc Cert.ReferenceIdeal.main_v71) := by
  rw [Cert.KernelIdeal.Hand.kst_main_v71 (F := Ideal) m ρ c, e_v64__v64 m ρ m' hag c, e_v70__v70 m ρ m' hag c]
  exact (Cert.Proof.Parts.rst_main_v71 (F := Ideal) m' c).symm
theorem e_v83__v83 (c : Dev Cert.KernelIdeal.nD) : Cert.KernelIdeal.Hand.W29 (F := Ideal) m ρ c (Proc.devRef .tc Cert.KernelIdeal.main_v83) = Cert.Proof.Parts.RW (F := Ideal) m' c (Proc.devRef .tc Cert.ReferenceIdeal.main_v83) := by
  rw [Cert.KernelIdeal.Hand.kst_main_v83 (F := Ideal) m ρ c, e_v81__v81 m ρ m' hag c, e_v82__v82 m ρ m' hag c, e_v71__v71 m ρ m' hag c]
  exact (Cert.Proof.Parts.rst_main_v83 (F := Ideal) m' c).symm
theorem e_v84__v84 (c : Dev Cert.KernelIdeal.nD) : Cert.KernelIdeal.Hand.W29 (F := Ideal) m ρ c (Proc.devRef .tc Cert.KernelIdeal.main_v84) = Cert.Proof.Parts.RW (F := Ideal) m' c (Proc.devRef .tc Cert.ReferenceIdeal.main_v84) := by
  rw [Cert.KernelIdeal.Hand.kst_main_v84 (F := Ideal) m ρ c, e_v18__v18 m ρ m' hag c]
  exact (Cert.Proof.Parts.rst_main_v84 (F := Ideal) m' c).symm
theorem e_v85__v85 (c : Dev Cert.KernelIdeal.nD) : Cert.KernelIdeal.Hand.W29 (F := Ideal) m ρ c (Proc.devRef .tc Cert.KernelIdeal.main_v85) = Cert.Proof.Parts.RW (F := Ideal) m' c (Proc.devRef .tc Cert.ReferenceIdeal.main_v85) := by
  rw [Cert.KernelIdeal.Hand.kst_main_v85 (F := Ideal) m ρ c, e_v83__v83 m ρ m' hag c, e_v84__v84 m ρ m' hag c]
  exact (Cert.Proof.Parts.rst_main_v85 (F := Ideal) m' c).symm
theorem e_v102__v102 (c : Dev Cert.KernelIdeal.nD) : Cert.KernelIdeal.Hand.W29 (F := Ideal) m ρ c (Proc.devRef .tc Cert.KernelIdeal.main_v102) = Cert.Proof.Parts.RW (F := Ideal) m' c (Proc.devRef .tc Cert.ReferenceIdeal.main_v102) := by
  rw [Cert.KernelIdeal.Hand.kst_main_v102 (F := Ideal) m ρ c, e_v18__v18 m ρ m' hag c]
  exact (Cert.Proof.Parts.rst_main_v102 (F := Ideal) m' c).symm
theorem e_v103__v103 (c : Dev Cert.KernelIdeal.nD) : Cert.KernelIdeal.Hand.W29 (F := Ideal) m ρ c (Proc.devRef .tc Cert.KernelIdeal.main_v103) = Cert.Proof.Parts.RW (F := Ideal) m' c (Proc.devRef .tc Cert.ReferenceIdeal.main_v103) := by
  rw [Cert.KernelIdeal.Hand.kst_main_v103 (F := Ideal) m ρ c, e_v85__v85 m ρ m' hag c, e_v102__v102 m ρ m' hag c]
  exact (Cert.Proof.Parts.rst_main_v103 (F := Ideal) m' c).symm
theorem e_c_23__c_23 (c : Dev Cert.KernelIdeal.nD) : Cert.KernelIdeal.Hand.W29 (F := Ideal) m ρ c (Proc.devRef .tc Cert.KernelIdeal.main_c_23) = Cert.Proof.Parts.RW (F := Ideal) m' c (Proc.devRef .tc Cert.ReferenceIdeal.main_c_23) := by
  rw [Cert.KernelIdeal.Hand.kst_main_c_23 (F := Ideal) m ρ c]
  exact (Cert.Proof.Parts.rst_main_c_23 (F := Ideal) m' c).symm
theorem e_v104__v104 (c : Dev Cert.KernelIdeal.nD) : Cert.KernelIdeal.Hand.W29 (F := Ideal) m ρ c (Proc.devRef .tc Cert.KernelIdeal.main_v104) = Cert.Proof.Parts.RW (F := Ideal) m' c (Proc.devRef .tc Cert.ReferenceIdeal.main_v104) := by
  rw [Cert.KernelIdeal.Hand.kst_main_v104 (F := Ideal) m ρ c, e_c_23__c_23 m ρ m' hag c]
  exact (Cert.Proof.Parts.rst_main_v104 (F := Ideal) m' c).symm
theorem e_v105__v105 (c : Dev Cert.KernelIdeal.nD) : Cert.KernelIdeal.Hand.W29 (F := Ideal) m ρ c (Proc.devRef .tc Cert.KernelIdeal.main_v105) = Cert.Proof.Parts.RW (F := Ideal) m' c (Proc.devRef .tc Cert.ReferenceIdeal.main_v105) := by
  rw [Cert.KernelIdeal.Hand.kst_main_v105 (F := Ideal) m ρ c, e_arg5__arg5 m ρ m' hag c, e_v104__v104 m ρ m' hag c]
  exact (Cert.Proof.Parts.rst_main_v105 (F := Ideal) m' c).symm
theorem e_c_24__c_24 (c : Dev Cert.KernelIdeal.nD) : Cert.KernelIdeal.Hand.W29 (F := Ideal) m ρ c (Proc.devRef .tc Cert.KernelIdeal.main_c_24) = Cert.Proof.Parts.RW (F := Ideal) m' c (Proc.devRef .tc Cert.ReferenceIdeal.main_c_24) := by
  rw [Cert.KernelIdeal.Hand.kst_main_c_24 (F := Ideal) m ρ c]
  exact (Cert.Proof.Parts.rst_main_c_24 (F := Ideal) m' c).symm
theorem e_v106__v106 (c : Dev Cert.KernelIdeal.nD) : Cert.KernelIdeal.Hand.W29 (F := Ideal) m ρ c (Proc.devRef .tc Cert.KernelIdeal.main_v106) = Cert.Proof.Parts.RW (F := Ideal) m' c (Proc.devRef .tc Cert.ReferenceIdeal.main_v106) := by
  rw [Cert.KernelIdeal.Hand.kst_main_v106 (F := Ideal) m ρ c, e_c_24__c_24 m ρ m' hag c]
  exact (Cert.Proof.Parts.rst_main_v106 (F := Ideal) m' c).symm
theorem e_v107__v107 (c : Dev Cert.KernelIdeal.nD) : Cert.KernelIdeal.Hand.W29 (F := Ideal) m ρ c (Proc.devRef .tc Cert.KernelIdeal.main_v107) = Cert.Proof.Parts.RW (F := Ideal) m' c (Proc.devRef .tc Cert.ReferenceIdeal.main_v107) := by
  rw [Cert.KernelIdeal.Hand.kst_main_v107 (F := Ideal) m ρ c, e_arg5__arg5 m ρ m' hag c, e_v106__v106 m ρ m' hag c]
  exact (Cert.Proof.Parts.rst_main_v107 (F := Ideal) m' c).symm
theorem e_v108__v108 (c : Dev Cert.KernelIdeal.nD) : Cert.KernelIdeal.Hand.W29 (F := Ideal) m ρ c (Proc.devRef .tc Cert.KernelIdeal.main_v108) = Cert.Proof.Parts.RW (F := Ideal) m' c (Proc.devRef .tc Cert.ReferenceIdeal.main_v108) := by
  rw [Cert.KernelIdeal.Hand.kst_main_v108 (F := Ideal) m ρ c, e_v105__v105 m ρ m' hag c, e_v107__v107 m ρ m' hag c, e_arg5__arg5 m ρ m' hag c]
  exact (Cert.Proof.Parts.rst_main_v108 (F := Ideal) m' c).symm
theorem e_v109__v109 (c : Dev Cert.KernelIdeal.nD) : Cert.KernelIdeal.Hand.W29 (F := Ideal) m ρ c (Proc.devRef .tc Cert.KernelIdeal.main_v109) = Cert.Proof.Parts.RW (F := Ideal) m' c (Proc.devRef .tc Cert.ReferenceIdeal.main_v109) := by
  rw [Cert.KernelIdeal.Hand.kst_main_v109 (F := Ideal) m ρ c, e_v108__v108 m ρ m' hag c]
  exact (Cert.Proof.Parts.rst_main_v109 (F := Ideal) m' c).symm
theorem e_v110__v110 (c : Dev Cert.KernelIdeal.nD) : Cert.KernelIdeal.Hand.W29 (F := Ideal) m ρ c (Proc.devRef .tc Cert.KernelIdeal.main_v110) = Cert.Proof.Parts.RW (F := Ideal) m' c (Proc.devRef .tc Cert.ReferenceIdeal.main_v110) := by
  rw [Cert.KernelIdeal.Hand.kst_main_v110 (F := Ideal) m ρ c, e_v103__v103 m ρ m' hag c, e_v109__v109 m ρ m' hag c]
  exact (Cert.Proof.Parts.rst_main_v110 (F := Ideal) m' c).symm
theorem e_v118__v118 (c : Dev Cert.KernelIdeal.nD) : Cert.KernelIdeal.Hand.W29 (F := Ideal) m ρ c (Proc.devRef .tc Cert.KernelIdeal.main_v118) = Cert.Proof.Parts.RW (F := Ideal) m' c (Proc.devRef .tc Cert.ReferenceIdeal.main_v118) := by
  rw [Cert.KernelIdeal.Hand.kst_main_v118 (F := Ideal) m ρ c, e_v116__v116 m ρ m' hag c, e_v117__v117 m ρ m' hag c, e_v110__v110 m ρ m' hag c]
  exact (Cert.Proof.Parts.rst_main_v118 (F := Ideal) m' c).symm
theorem e_v119__v119 (c : Dev Cert.KernelIdeal.nD) : Cert.KernelIdeal.Hand.W29 (F := Ideal) m ρ c (Proc.devRef .tc Cert.KernelIdeal.main_v119) = Cert.Proof.Parts.RW (F := Ideal) m' c (Proc.devRef .tc Cert.ReferenceIdeal.main_v119) := by
  rw [Cert.KernelIdeal.Hand.kst_main_v119 (F := Ideal) m ρ c, e_v12__v12 m ρ m' hag c]
  exact (Cert.Proof.Parts.rst_main_v119 (F := Ideal) m' c).symm
theorem e_v120__v120 (c : Dev Cert.KernelIdeal.nD) : Cert.KernelIdeal.Hand.W29 (F := Ideal) m ρ c (Proc.devRef .tc Cert.KernelIdeal.main_v120) = Cert.Proof.Parts.RW (F := Ideal) m' c (Proc.devRef .tc Cert.ReferenceIdeal.main_v120) := by
  rw [Cert.KernelIdeal.Hand.kst_main_v120 (F := Ideal) m ρ c, e_v118__v118 m ρ m' hag c, e_v119__v119 m ρ m' hag c]
  exact (Cert.Proof.Parts.rst_main_v120 (F := Ideal) m' c).symm
theorem e_v121__v121 (c : Dev Cert.KernelIdeal.nD) : Cert.KernelIdeal.Hand.W29 (F := Ideal) m ρ c (Proc.devRef .tc Cert.KernelIdeal.main_v121) = Cert.Proof.Parts.RW (F := Ideal) m' c (Proc.devRef .tc Cert.ReferenceIdeal.main_v121) := by
  rw [Cert.KernelIdeal.Hand.kst_main_v121 (F := Ideal) m ρ c, e_v91__v91 m ρ m' hag c, e_v120__v120 m ρ m' hag c]
  exact (Cert.Proof.Parts.rst_main_v121 (F := Ideal) m' c).symm
theorem e_cst_64__cst_72 (c : Dev Cert.KernelIdeal.nD) : Cert.KernelIdeal.Hand.W29 (F := Ideal) m ρ c (Proc.devRef .tc Cert.KernelIdeal.main_cst_64) = Cert.Proof.Parts.RW (F := Ideal) m' c (Proc.devRef .tc Cert.ReferenceIdeal.main_cst_72) := by
  rw [Cert.KernelIdeal.Hand.kst_main_cst_64 (F := Ideal) m ρ c]
  exact (Cert.Proof.Parts.rst_main_cst_72 (F := Ideal) m' c).symm
theorem e_v268__v280 (c : Dev Cert.KernelIdeal.nD) : Cert.KernelIdeal.Hand.W29 (F := Ideal) m ρ c (Proc.devRef .tc Cert.KernelIdeal.main_v268) = Cert.Proof.Parts.RW (F := Ideal) m' c (Proc.devRef .tc Cert.ReferenceIdeal.main_v280) := by
  rw [Cert.KernelIdeal.Hand.kst_main_v268 (F := Ideal) m ρ c, e_cst_64__cst_72 m ρ m' hag c]
  exact (Cert.Proof.Parts.rst_main_v280 (F := Ideal) m' c).symm
theorem e_v269__v281 (c : Dev Cert.KernelIdeal.nD) : Cert.KernelIdeal.Hand.W29 (F := Ideal) m ρ c (Proc.devRef .tc Cert.KernelIdeal.main_v269) = Cert.Proof.Parts.RW (F := Ideal) m' c (Proc.devRef .tc Cert.ReferenceIdeal.main_v281) := by
  rw [Cert.KernelIdeal.Hand.kst_main_v269 (F := Ideal) m ρ c, e_v121__v121 m ρ m' hag c, e_v268__v280 m ρ m' hag c]
  exact (Cert.Proof.Parts.rst_main_v281 (F := Ideal) m' c).symm
theorem e_arg6__arg6 (c : Dev Cert.KernelIdeal.nD) : Cert.KernelIdeal.Hand.W29 (F := Ideal) m ρ c (Proc.devRef .tc Cert.KernelIdeal.main_arg6) = Cert.Proof.Parts.RW (F := Ideal) m' c (Proc.devRef .tc Cert.ReferenceIdeal.main_arg6) :=
  (Cert.KernelIdeal.Hand.W29_main_arg6 (F := Ideal) m ρ c).trans (((hag c).2.2.2.2.2.2.1).symm.trans (Cert.Proof.Parts.ref_kept (F := Ideal) m' c Cert.ReferenceIdeal.main_arg6 (by decide)).symm)
theorem e_c_66__c_74 (c : Dev Cert.KernelIdeal.nD) : Cert.KernelIdeal.Hand.W29 (F := Ideal) m ρ c (Proc.devRef .tc Cert.KernelIdeal.main_c_66) = Cert.Proof.Parts.RW (F := Ideal) m' c (Proc.devRef .tc Cert.ReferenceIdeal.main_c_74) := by
  rw [Cert.KernelIdeal.Hand.kst_main_c_66 (F := Ideal) m ρ c]
  exact (Cert.Proof.Parts.rst_main_c_74 (F := Ideal) m' c).symm
theorem e_v272__v284 (c : Dev Cert.KernelIdeal.nD) : Cert.KernelIdeal.Hand.W29 (F := Ideal) m ρ c (Proc.devRef .tc Cert.KernelIdeal.main_v272) = Cert.Proof.Parts.RW (F := Ideal) m' c (Proc.devRef .tc Cert.ReferenceIdeal.main_v284) := by
  rw [Cert.KernelIdeal.Hand.kst_main_v272 (F := Ideal) m ρ c, e_c_66__c_74 m ρ m' hag c]
  exact (Cert.Proof.Parts.rst_main_v284 (F := Ideal) m' c).symm
theorem e_v273__v285 (c : Dev Cert.KernelIdeal.nD) : Cert.KernelIdeal.Hand.W29 (F := Ideal) m ρ c (Proc.devRef .tc Cert.KernelIdeal.main_v273) = Cert.Proof.Parts.RW (F := Ideal) m' c (Proc.devRef .tc Cert.ReferenceIdeal.main_v285) := by
  rw [Cert.KernelIdeal.Hand.kst_main_v273 (F := Ideal) m ρ c, e_arg6__arg6 m ρ m' hag c, e_v272__v284 m ρ m' hag c]
  exact (Cert.Proof.Parts.rst_main_v285 (F := Ideal) m' c).symm
theorem e_c_67__c_75 (c : Dev Cert.KernelIdeal.nD) : Cert.KernelIdeal.Hand.W29 (F := Ideal) m ρ c (Proc.devRef .tc Cert.KernelIdeal.main_c_67) = Cert.Proof.Parts.RW (F := Ideal) m' c (Proc.devRef .tc Cert.ReferenceIdeal.main_c_75) := by
  rw [Cert.KernelIdeal.Hand.kst_main_c_67 (F := Ideal) m ρ c]
  exact (Cert.Proof.Parts.rst_main_c_75 (F := Ideal) m' c).symm
theorem e_v274__v286 (c : Dev Cert.KernelIdeal.nD) : Cert.KernelIdeal.Hand.W29 (F := Ideal) m ρ c (Proc.devRef .tc Cert.KernelIdeal.main_v274) = Cert.Proof.Parts.RW (F := Ideal) m' c (Proc.devRef .tc Cert.ReferenceIdeal.main_v286) := by
  rw [Cert.KernelIdeal.Hand.kst_main_v274 (F := Ideal) m ρ c, e_c_67__c_75 m ρ m' hag c]
  exact (Cert.Proof.Parts.rst_main_v286 (F := Ideal) m' c).symm
theorem e_v275__v287 (c : Dev Cert.KernelIdeal.nD) : Cert.KernelIdeal.Hand.W29 (F := Ideal) m ρ c (Proc.devRef .tc Cert.KernelIdeal.main_v275) = Cert.Proof.Parts.RW (F := Ideal) m' c (Proc.devRef .tc Cert.ReferenceIdeal.main_v287) := by
  rw [Cert.KernelIdeal.Hand.kst_main_v275 (F := Ideal) m ρ c, e_arg6__arg6 m ρ m' hag c, e_v274__v286 m ρ m' hag c]
  exact (Cert.Proof.Parts.rst_main_v287 (F := Ideal) m' c).symm
theorem e_v276__v288 (c : Dev Cert.KernelIdeal.nD) : Cert.KernelIdeal.Hand.W29 (F := Ideal) m ρ c (Proc.devRef .tc Cert.KernelIdeal.main_v276) = Cert.Proof.Parts.RW (F := Ideal) m' c (Proc.devRef .tc Cert.ReferenceIdeal.main_v288) := by
  rw [Cert.KernelIdeal.Hand.kst_main_v276 (F := Ideal) m ρ c, e_v273__v285 m ρ m' hag c, e_v275__v287 m ρ m' hag c, e_arg6__arg6 m ρ m' hag c]
  exact (Cert.Proof.Parts.rst_main_v288 (F := Ideal) m' c).symm
theorem e_v277__v289 (c : Dev Cert.KernelIdeal.nD) : Cert.KernelIdeal.Hand.W29 (F := Ideal) m ρ c (Proc.devRef .tc Cert.KernelIdeal.main_v277) = Cert.Proof.Parts.RW (F := Ideal) m' c (Proc.devRef .tc Cert.ReferenceIdeal.main_v289) := by
  rw [Cert.KernelIdeal.Hand.kst_main_v277 (F := Ideal) m ρ c, e_v276__v288 m ρ m' hag c]
  exact (Cert.Proof.Parts.rst_main_v289 (F := Ideal) m' c).symm
theorem e_v278__v290 (c : Dev Cert.KernelIdeal.nD) : Cert.KernelIdeal.Hand.W29 (F := Ideal) m ρ c (Proc.devRef .tc Cert.KernelIdeal.main_v278) = Cert.Proof.Parts.RW (F := Ideal) m' c (Proc.devRef .tc Cert.ReferenceIdeal.main_v290) := by
  rw [Cert.KernelIdeal.Hand.kst_main_v278 (F := Ideal) m ρ c, e_v269__v281 m ρ m' hag c, e_v277__v289 m ρ m' hag c]
  exact (Cert.Proof.Parts.rst_main_v290 (F := Ideal) m' c).symm
theorem e_v62__v62 (c : Dev Cert.KernelIdeal.nD) : Cert.KernelIdeal.Hand.W29 (F := Ideal) m ρ c (Proc.devRef .tc Cert.KernelIdeal.main_v62) = Cert.Proof.Parts.RW (F := Ideal) m' c (Proc.devRef .tc Cert.ReferenceIdeal.main_v62) := by
  rw [Cert.KernelIdeal.Hand.kst_main_v62 (F := Ideal) m ρ c, e_v32__v32 m ρ m' hag c, e_v55__v55 m ρ m' hag c]
  exact (Cert.Proof.Parts.rst_main_v62 (F := Ideal) m' c).symm
theorem e_v92__v92 (c : Dev Cert.KernelIdeal.nD) : Cert.KernelIdeal.Hand.W29 (F := Ideal) m ρ c (Proc.devRef .tc Cert.KernelIdeal.main_v92) = Cert.Proof.Parts.RW (F := Ideal) m' c (Proc.devRef .tc Cert.ReferenceIdeal.main_v92) := by
  rw [Cert.KernelIdeal.Hand.kst_main_v92 (F := Ideal) m ρ c, e_v62__v62 m ρ m' hag c, e_v85__v85 m ρ m' hag c]
  exact (Cert.Proof.Parts.rst_main_v92 (F := Ideal) m' c).symm
theorem e_cst_25__cst_25 (c : Dev Cert.KernelIdeal.nD) : Cert.KernelIdeal.Hand.W29 (F := Ideal) m ρ c (Proc.devRef .tc Cert.KernelIdeal.main_cst_25) = Cert.Proof.Parts.RW (F := Ideal) m' c (Proc.devRef .tc Cert.ReferenceIdeal.main_cst_25) := by
  rw [Cert.KernelIdeal.Hand.kst_main_cst_25 (F := Ideal) m ρ c]
  exact (Cert.Proof.Parts.rst_main_cst_25 (F := Ideal) m' c).symm
end Cert.Proof.Match

end
-- ==== Proof.TotFacts.lean ====
/-
  The four sums of exponentials, kernel side against reference side: the one place where the two programs compute the
  same numbers by different operations.  Stated here as one proposition so that the buffer-by-buffer pairing downstream
  of them can be checked independently of their proofs.
-/
import proofs.«110517_j15659450761722_1_alg».proof.Proof.KIFrame
import proofs.«110517_j15659450761722_1_alg».proof.Proof.RefBase

noncomputable section

open Idealize.ShloMosaic Idealize.ShloMosaic.TcCoe Idealize.SL.Sem Idealize.ShloMosaic.StableHlo

namespace Cert.Proof.Match

/-- Each pipeline's output array, reshaped to a vector, holds what the reference's sum of exponentials holds. -/
def TotFacts (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ) : Prop :=
  ∀ c : Dev Cert.KernelIdeal.nD,
    Cert.KernelIdeal.Hand.W29 (F := Ideal) m ρ c (Proc.devRef .tc Cert.KernelIdeal.main_v139) = Cert.Proof.Parts.RW (F := Ideal) m' c (Proc.devRef .tc Cert.ReferenceIdeal.main_v148)
    ∧ Cert.KernelIdeal.Hand.W29 (F := Ideal) m ρ c (Proc.devRef .tc Cert.KernelIdeal.main_v166) = Cert.Proof.Parts.RW (F := Ideal) m' c (Proc.devRef .tc Cert.ReferenceIdeal.main_v178)
    ∧ Cert.KernelIdeal.Hand.W29 (F := Ideal) m ρ c (Proc.devRef .tc Cert.KernelIdeal.main_v217) = Cert.Proof.Parts.RW (F := Ideal) m' c (Proc.devRef .tc Cert.ReferenceIdeal.main_v227)
    ∧ Cert.KernelIdeal.Hand.W29 (F := Ideal) m ρ c (Proc.devRef .tc Cert.KernelIdeal.main_v260) = Cert.Proof.Parts.RW (F := Ideal) m' c (Proc.devRef .tc Cert.ReferenceIdeal.main_v273)

end Cert.Proof.Match

end
-- ==== Proof.MatchB.lean ====
/-
  The two programs buffer by buffer.  Launched from memories that agree on the fourteen arguments, the idealized
  kernel program and the reference compute, in their host operations, the same values: a kernel-side buffer and the
  reference buffer it is paired with below are results of the same operation applied to operands already paired, so
  they hold equal contents at the end of the two runs.  The pairs are followed from the arguments upward.  Where the
  programs differ — the four sums of exponentials, which the kernel program takes from its pipelines' output arrays —
  the pairing is a separate statement (`tot_…`), and from there on the kernel's `log p - log t` meets the reference's
  `log (p / t)` by the law for nonnegative extended reals.
-/
import proofs.«110517_j15659450761722_1_alg».proof.Proof.MatchA
import proofs.«110517_j15659450761722_1_alg».proof.Proof.TotFacts

set_option maxRecDepth 16384

noncomputable section

open Idealize.ShloMosaic Idealize.ShloMosaic.TcCoe Idealize.SL.Sem Idealize.ShloMosaic.StableHlo

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m') (htot : TotFacts m ρ m')
include hag htot
theorem e_v111__v111 (c : Dev Cert.KernelIdeal.nD) : Cert.KernelIdeal.Hand.W29 (F := Ideal) m ρ c (Proc.devRef .tc Cert.KernelIdeal.main_v111) = Cert.Proof.Parts.RW (F := Ideal) m' c (Proc.devRef .tc Cert.ReferenceIdeal.main_v111) := by
  rw [Cert.KernelIdeal.Hand.kst_main_v111 (F := Ideal) m ρ c, e_cst_25__cst_25 m ρ m' hag c]
  exact (Cert.Proof.Parts.rst_main_v111 (F := Ideal) m' c).symm
theorem e_v112__v112 (c : Dev Cert.KernelIdeal.nD) : Cert.KernelIdeal.Hand.W29 (F := Ideal) m ρ c (Proc.devRef .tc Cert.KernelIdeal.main_v112) = Cert.Proof.Parts.RW (F := Ideal) m' c (Proc.devRef .tc Cert.ReferenceIdeal.main_v112) := by
  rw [Cert.KernelIdeal.Hand.kst_main_v112 (F := Ideal) m ρ c, e_arg5__arg5 m ρ m' hag c]
  exact (Cert.Proof.Parts.rst_main_v112 (F := Ideal) m' c).symm
theorem e_v93__v93 (c : Dev Cert.KernelIdeal.nD) : Cert.KernelIdeal.Hand.W29 (F := Ideal) m ρ c (Proc.devRef .tc Cert.KernelIdeal.main_v93) = Cert.Proof.Parts.RW (F := Ideal) m' c (Proc.devRef .tc Cert.ReferenceIdeal.main_v93) := by
  rw [Cert.KernelIdeal.Hand.kst_main_v93 (F := Ideal) m ρ c, e_v12__v12 m ρ m' hag c]
  exact (Cert.Proof.Parts.rst_main_v93 (F := Ideal) m' c).symm
theorem e_v94__v94 (c : Dev Cert.KernelIdeal.nD) : Cert.KernelIdeal.Hand.W29 (F := Ideal) m ρ c (Proc.devRef .tc Cert.KernelIdeal.main_v94) = Cert.Proof.Parts.RW (F := Ideal) m' c (Proc.devRef .tc Cert.ReferenceIdeal.main_v94) := by
  rw [Cert.KernelIdeal.Hand.kst_main_v94 (F := Ideal) m ρ c, e_v90__v90 m ρ m' hag c, e_v93__v93 m ρ m' hag htot c]
  exact (Cert.Proof.Parts.rst_main_v94 (F := Ideal) m' c).symm
theorem e_c_21__c_21 (c : Dev Cert.KernelIdeal.nD) : Cert.KernelIdeal.Hand.W29 (F := Ideal) m ρ c (Proc.devRef .tc Cert.KernelIdeal.main_c_21) = Cert.Proof.Parts.RW (F := Ideal) m' c (Proc.devRef .tc Cert.ReferenceIdeal.main_c_21) := by
  rw [Cert.KernelIdeal.Hand.kst_main_c_21 (F := Ideal) m ρ c]
  exact (Cert.Proof.Parts.rst_main_c_21 (F := Ideal) m' c).symm
theorem e_v95__v95 (c : Dev Cert.KernelIdeal.nD) : Cert.KernelIdeal.Hand.W29 (F := Ideal) m ρ c (Proc.devRef .tc Cert.KernelIdeal.main_v95) = Cert.Proof.Parts.RW (F := Ideal) m' c (Proc.devRef .tc Cert.ReferenceIdeal.main_v95) := by
  rw [Cert.KernelIdeal.Hand.kst_main_v95 (F := Ideal) m ρ c, e_c_21__c_21 m ρ m' hag htot c]
  exact (Cert.Proof.Parts.rst_main_v95 (F := Ideal) m' c).symm
theorem e_v96__v96 (c : Dev Cert.KernelIdeal.nD) : Cert.KernelIdeal.Hand.W29 (F := Ideal) m ρ c (Proc.devRef .tc Cert.KernelIdeal.main_v96) = Cert.Proof.Parts.RW (F := Ideal) m' c (Proc.devRef .tc Cert.ReferenceIdeal.main_v96) := by
  rw [Cert.KernelIdeal.Hand.kst_main_v96 (F := Ideal) m ρ c, e_arg4__arg4 m ρ m' hag c, e_v95__v95 m ρ m' hag htot c]
  exact (Cert.Proof.Parts.rst_main_v96 (F := Ideal) m' c).symm
theorem e_c_22__c_22 (c : Dev Cert.KernelIdeal.nD) : Cert.KernelIdeal.Hand.W29 (F := Ideal) m ρ c (Proc.devRef .tc Cert.KernelIdeal.main_c_22) = Cert.Proof.Parts.RW (F := Ideal) m' c (Proc.devRef .tc Cert.ReferenceIdeal.main_c_22) := by
  rw [Cert.KernelIdeal.Hand.kst_main_c_22 (F := Ideal) m ρ c]
  exact (Cert.Proof.Parts.rst_main_c_22 (F := Ideal) m' c).symm
theorem e_v97__v97 (c : Dev Cert.KernelIdeal.nD) : Cert.KernelIdeal.Hand.W29 (F := Ideal) m ρ c (Proc.devRef .tc Cert.KernelIdeal.main_v97) = Cert.Proof.Parts.RW (F := Ideal) m' c (Proc.devRef .tc Cert.ReferenceIdeal.main_v97) := by
  rw [Cert.KernelIdeal.Hand.kst_main_v97 (F := Ideal) m ρ c, e_c_22__c_22 m ρ m' hag htot c]
  exact (Cert.Proof.Parts.rst_main_v97 (F := Ideal) m' c).symm
theorem e_v98__v98 (c : Dev Cert.KernelIdeal.nD) : Cert.KernelIdeal.Hand.W29 (F := Ideal) m ρ c (Proc.devRef .tc Cert.KernelIdeal.main_v98) = Cert.Proof.Parts.RW (F := Ideal) m' c (Proc.devRef .tc Cert.ReferenceIdeal.main_v98) := by
  rw [Cert.KernelIdeal.Hand.kst_main_v98 (F := Ideal) m ρ c, e_arg4__arg4 m ρ m' hag c, e_v97__v97 m ρ m' hag htot c]
  exact (Cert.Proof.Parts.rst_main_v98 (F := Ideal) m' c).symm
theorem e_v99__v99 (c : Dev Cert.KernelIdeal.nD) : Cert.KernelIdeal.Hand.W29 (F := Ideal) m ρ c (Proc.devRef .tc Cert.KernelIdeal.main_v99) = Cert.Proof.Parts.RW (F := Ideal) m' c (Proc.devRef .tc Cert.ReferenceIdeal.main_v99) := by
  rw [Cert.KernelIdeal.Hand.kst_main_v99 (F := Ideal) m ρ c, e_v96__v96 m ρ m' hag htot c, e_v98__v98 m ρ m' hag htot c, e_arg4__arg4 m ρ m' hag c]
  exact (Cert.Proof.Parts.rst_main_v99 (F := Ideal) m' c).symm
theorem e_v100__v100 (c : Dev Cert.KernelIdeal.nD) : Cert.KernelIdeal.Hand.W29 (F := Ideal) m ρ c (Proc.devRef .tc Cert.KernelIdeal.main_v100) = Cert.Proof.Parts.RW (F := Ideal) m' c (Proc.devRef .tc Cert.ReferenceIdeal.main_v100) := by
  rw [Cert.KernelIdeal.Hand.kst_main_v100 (F := Ideal) m ρ c, e_v99__v99 m ρ m' hag htot c]
  exact (Cert.Proof.Parts.rst_main_v100 (F := Ideal) m' c).symm
theorem e_v101__v101 (c : Dev Cert.KernelIdeal.nD) : Cert.KernelIdeal.Hand.W29 (F := Ideal) m ρ c (Proc.devRef .tc Cert.KernelIdeal.main_v101) = Cert.Proof.Parts.RW (F := Ideal) m' c (Proc.devRef .tc Cert.ReferenceIdeal.main_v101) := by
  rw [Cert.KernelIdeal.Hand.kst_main_v101 (F := Ideal) m ρ c, e_v94__v94 m ρ m' hag htot c, e_v100__v100 m ρ m' hag htot c]
  exact (Cert.Proof.Parts.rst_main_v101 (F := Ideal) m' c).symm
theorem e_v113__v113 (c : Dev Cert.KernelIdeal.nD) : Cert.KernelIdeal.Hand.W29 (F := Ideal) m ρ c (Proc.devRef .tc Cert.KernelIdeal.main_v113) = Cert.Proof.Parts.RW (F := Ideal) m' c (Proc.devRef .tc Cert.ReferenceIdeal.main_v113) := by
  rw [Cert.KernelIdeal.Hand.kst_main_v113 (F := Ideal) m ρ c, e_v111__v111 m ρ m' hag htot c, e_v112__v112 m ρ m' hag htot c, e_v101__v101 m ρ m' hag htot c]
  exact (Cert.Proof.Parts.rst_main_v113 (F := Ideal) m' c).symm
theorem e_v114__v114 (c : Dev Cert.KernelIdeal.nD) : Cert.KernelIdeal.Hand.W29 (F := Ideal) m ρ c (Proc.devRef .tc Cert.KernelIdeal.main_v114) = Cert.Proof.Parts.RW (F := Ideal) m' c (Proc.devRef .tc Cert.ReferenceIdeal.main_v114) := by
  rw [Cert.KernelIdeal.Hand.kst_main_v114 (F := Ideal) m ρ c, e_v18__v18 m ρ m' hag c]
  exact (Cert.Proof.Parts.rst_main_v114 (F := Ideal) m' c).symm
theorem e_v115__v115 (c : Dev Cert.KernelIdeal.nD) : Cert.KernelIdeal.Hand.W29 (F := Ideal) m ρ c (Proc.devRef .tc Cert.KernelIdeal.main_v115) = Cert.Proof.Parts.RW (F := Ideal) m' c (Proc.devRef .tc Cert.ReferenceIdeal.main_v115) := by
  rw [Cert.KernelIdeal.Hand.kst_main_v115 (F := Ideal) m ρ c, e_v113__v113 m ρ m' hag htot c, e_v114__v114 m ρ m' hag htot c]
  exact (Cert.Proof.Parts.rst_main_v115 (F := Ideal) m' c).symm
theorem e_v122__v122 (c : Dev Cert.KernelIdeal.nD) : Cert.KernelIdeal.Hand.W29 (F := Ideal) m ρ c (Proc.devRef .tc Cert.KernelIdeal.main_v122) = Cert.Proof.Parts.RW (F := Ideal) m' c (Proc.devRef .tc Cert.ReferenceIdeal.main_v122) := by
  rw [Cert.KernelIdeal.Hand.kst_main_v122 (F := Ideal) m ρ c, e_v92__v92 m ρ m' hag c, e_v115__v115 m ρ m' hag htot c]
  exact (Cert.Proof.Parts.rst_main_v122 (F := Ideal) m' c).symm
theorem e_cst_65__cst_73 (c : Dev Cert.KernelIdeal.nD) : Cert.KernelIdeal.Hand.W29 (F := Ideal) m ρ c (Proc.devRef .tc Cert.KernelIdeal.main_cst_65) = Cert.Proof.Parts.RW (F := Ideal) m' c (Proc.devRef .tc Cert.ReferenceIdeal.main_cst_73) := by
  rw [Cert.KernelIdeal.Hand.kst_main_cst_65 (F := Ideal) m ρ c]
  exact (Cert.Proof.Parts.rst_main_cst_73 (F := Ideal) m' c).symm
theorem e_v270__v282 (c : Dev Cert.KernelIdeal.nD) : Cert.KernelIdeal.Hand.W29 (F := Ideal) m ρ c (Proc.devRef .tc Cert.KernelIdeal.main_v270) = Cert.Proof.Parts.RW (F := Ideal) m' c (Proc.devRef .tc Cert.ReferenceIdeal.main_v282) := by
  rw [Cert.KernelIdeal.Hand.kst_main_v270 (F := Ideal) m ρ c, e_cst_65__cst_73 m ρ m' hag htot c]
  exact (Cert.Proof.Parts.rst_main_v282 (F := Ideal) m' c).symm
theorem e_v271__v283 (c : Dev Cert.KernelIdeal.nD) : Cert.KernelIdeal.Hand.W29 (F := Ideal) m ρ c (Proc.devRef .tc Cert.KernelIdeal.main_v271) = Cert.Proof.Parts.RW (F := Ideal) m' c (Proc.devRef .tc Cert.ReferenceIdeal.main_v283) := by
  rw [Cert.KernelIdeal.Hand.kst_main_v271 (F := Ideal) m ρ c, e_v122__v122 m ρ m' hag htot c, e_v270__v282 m ρ m' hag htot c]
  exact (Cert.Proof.Parts.rst_main_v283 (F := Ideal) m' c).symm
theorem e_arg7__arg7 (c : Dev Cert.KernelIdeal.nD) : Cert.KernelIdeal.Hand.W29 (F := Ideal) m ρ c (Proc.devRef .tc Cert.KernelIdeal.main_arg7) = Cert.Proof.Parts.RW (F := Ideal) m' c (Proc.devRef .tc Cert.ReferenceIdeal.main_arg7) :=
  (Cert.KernelIdeal.Hand.W29_main_arg7 (F := Ideal) m ρ c).trans (((hag c).2.2.2.2.2.2.2.1).symm.trans (Cert.Proof.Parts.ref_kept (F := Ideal) m' c Cert.ReferenceIdeal.main_arg7 (by decide)).symm)
theorem e_c_68__c_76 (c : Dev Cert.KernelIdeal.nD) : Cert.KernelIdeal.Hand.W29 (F := Ideal) m ρ c (Proc.devRef .tc Cert.KernelIdeal.main_c_68) = Cert.Proof.Parts.RW (F := Ideal) m' c (Proc.devRef .tc Cert.ReferenceIdeal.main_c_76) := by
  rw [Cert.KernelIdeal.Hand.kst_main_c_68 (F := Ideal) m ρ c]
  exact (Cert.Proof.Parts.rst_main_c_76 (F := Ideal) m' c).symm
theorem e_v279__v291 (c : Dev Cert.KernelIdeal.nD) : Cert.KernelIdeal.Hand.W29 (F := Ideal) m ρ c (Proc.devRef .tc Cert.KernelIdeal.main_v279) = Cert.Proof.Parts.RW (F := Ideal) m' c (Proc.devRef .tc Cert.ReferenceIdeal.main_v291) := by
  rw [Cert.KernelIdeal.Hand.kst_main_v279 (F := Ideal) m ρ c, e_c_68__c_76 m ρ m' hag htot c]
  exact (Cert.Proof.Parts.rst_main_v291 (F := Ideal) m' c).symm
theorem e_v280__v292 (c : Dev Cert.KernelIdeal.nD) : Cert.KernelIdeal.Hand.W29 (F := Ideal) m ρ c (Proc.devRef .tc Cert.KernelIdeal.main_v280) = Cert.Proof.Parts.RW (F := Ideal) m' c (Proc.devRef .tc Cert.ReferenceIdeal.main_v292) := by
  rw [Cert.KernelIdeal.Hand.kst_main_v280 (F := Ideal) m ρ c, e_arg7__arg7 m ρ m' hag htot c, e_v279__v291 m ρ m' hag htot c]
  exact (Cert.Proof.Parts.rst_main_v292 (F := Ideal) m' c).symm
theorem e_c_69__c_77 (c : Dev Cert.KernelIdeal.nD) : Cert.KernelIdeal.Hand.W29 (F := Ideal) m ρ c (Proc.devRef .tc Cert.KernelIdeal.main_c_69) = Cert.Proof.Parts.RW (F := Ideal) m' c (Proc.devRef .tc Cert.ReferenceIdeal.main_c_77) := by
  rw [Cert.KernelIdeal.Hand.kst_main_c_69 (F := Ideal) m ρ c]
  exact (Cert.Proof.Parts.rst_main_c_77 (F := Ideal) m' c).symm
theorem e_v281__v293 (c : Dev Cert.KernelIdeal.nD) : Cert.KernelIdeal.Hand.W29 (F := Ideal) m ρ c (Proc.devRef .tc Cert.KernelIdeal.main_v281) = Cert.Proof.Parts.RW (F := Ideal) m' c (Proc.devRef .tc Cert.ReferenceIdeal.main_v293) := by
  rw [Cert.KernelIdeal.Hand.kst_main_v281 (F := Ideal) m ρ c, e_c_69__c_77 m ρ m' hag htot c]
  exact (Cert.Proof.Parts.rst_main_v293 (F := Ideal) m' c).symm
theorem e_v282__v294 (c : Dev Cert.KernelIdeal.nD) : Cert.KernelIdeal.Hand.W29 (F := Ideal) m ρ c (Proc.devRef .tc Cert.KernelIdeal.main_v282) = Cert.Proof.Parts.RW (F := Ideal) m' c (Proc.devRef .tc Cert.ReferenceIdeal.main_v294) := by
  rw [Cert.KernelIdeal.Hand.kst_main_v282 (F := Ideal) m ρ c, e_arg7__arg7 m ρ m' hag htot c, e_v281__v293 m ρ m' hag htot c]
  exact (Cert.Proof.Parts.rst_main_v294 (F := Ideal) m' c).symm
theorem e_v283__v295 (c : Dev Cert.KernelIdeal.nD) : Cert.KernelIdeal.Hand.W29 (F := Ideal) m ρ c (Proc.devRef .tc Cert.KernelIdeal.main_v283) = Cert.Proof.Parts.RW (F := Ideal) m' c (Proc.devRef .tc Cert.ReferenceIdeal.main_v295) := by
  rw [Cert.KernelIdeal.Hand.kst_main_v283 (F := Ideal) m ρ c, e_v280__v292 m ρ m' hag htot c, e_v282__v294 m ρ m' hag htot c, e_arg7__arg7 m ρ m' hag htot c]
  exact (Cert.Proof.Parts.rst_main_v295 (F := Ideal) m' c).symm
theorem e_v284__v296 (c : Dev Cert.KernelIdeal.nD) : Cert.KernelIdeal.Hand.W29 (F := Ideal) m ρ c (Proc.devRef .tc Cert.KernelIdeal.main_v284) = Cert.Proof.Parts.RW (F := Ideal) m' c (Proc.devRef .tc Cert.ReferenceIdeal.main_v296) := by
  rw [Cert.KernelIdeal.Hand.kst_main_v284 (F := Ideal) m ρ c, e_v283__v295 m ρ m' hag htot c]
  exact (Cert.Proof.Parts.rst_main_v296 (F := Ideal) m' c).symm
theorem e_v285__v297 (c : Dev Cert.KernelIdeal.nD) : Cert.KernelIdeal.Hand.W29 (F := Ideal) m ρ c (Proc.devRef .tc Cert.KernelIdeal.main_v285) = Cert.Proof.Parts.RW (F := Ideal) m' c (Proc.devRef .tc Cert.ReferenceIdeal.main_v297) := by
  rw [Cert.KernelIdeal.Hand.kst_main_v285 (F := Ideal) m ρ c, e_v271__v283 m ρ m' hag htot c, e_v284__v296 m ρ m' hag htot c]
  exact (Cert.Proof.Parts.rst_main_v297 (F := Ideal) m' c).symm
theorem e_v286__v298 (c : Dev Cert.KernelIdeal.nD) : Cert.KernelIdeal.Hand.W29 (F := Ideal) m ρ c (Proc.devRef .tc Cert.KernelIdeal.main_v286) = Cert.Proof.Parts.RW (F := Ideal) m' c (Proc.devRef .tc Cert.ReferenceIdeal.main_v298) := by
  rw [Cert.KernelIdeal.Hand.kst_main_v286 (F := Ideal) m ρ c, e_v278__v290 m ρ m' hag c, e_v285__v297 m ρ m' hag htot c]
  exact (Cert.Proof.Parts.rst_main_v298 (F := Ideal) m' c).symm
theorem e_cst_70__cst_78 (c : Dev Cert.KernelIdeal.nD) : Cert.KernelIdeal.Hand.W29 (F := Ideal) m ρ c (Proc.devRef .tc Cert.KernelIdeal.main_cst_70) = Cert.Proof.Parts.RW (F := Ideal) m' c (Proc.devRef .tc Cert.ReferenceIdeal.main_cst_78) := by
  rw [Cert.KernelIdeal.Hand.kst_main_cst_70 (F := Ideal) m ρ c]
  exact (Cert.Proof.Parts.rst_main_cst_78 (F := Ideal) m' c).symm
theorem e_v287__v299 (c : Dev Cert.KernelIdeal.nD) : Cert.KernelIdeal.Hand.W29 (F := Ideal) m ρ c (Proc.devRef .tc Cert.KernelIdeal.main_v287) = Cert.Proof.Parts.RW (F := Ideal) m' c (Proc.devRef .tc Cert.ReferenceIdeal.main_v299) := by
  rw [Cert.KernelIdeal.Hand.kst_main_v287 (F := Ideal) m ρ c, e_v286__v298 m ρ m' hag htot c, e_cst_70__cst_78 m ρ m' hag htot c]
  exact (Cert.Proof.Parts.rst_main_v299 (F := Ideal) m' c).symm
theorem e_v288__v300 (c : Dev Cert.KernelIdeal.nD) : Cert.KernelIdeal.Hand.W29 (F := Ideal) m ρ c (Proc.devRef .tc Cert.KernelIdeal.main_v288) = Cert.Proof.Parts.RW (F := Ideal) m' c (Proc.devRef .tc Cert.ReferenceIdeal.main_v300) := by
  rw [Cert.KernelIdeal.Hand.kst_main_v288 (F := Ideal) m ρ c, e_v287__v299 m ρ m' hag htot c]
  exact (Cert.Proof.Parts.rst_main_v300 (F := Ideal) m' c).symm
theorem e_arg8__arg8 (c : Dev Cert.KernelIdeal.nD) : Cert.KernelIdeal.Hand.W29 (F := Ideal) m ρ c (Proc.devRef .tc Cert.KernelIdeal.main_arg8) = Cert.Proof.Parts.RW (F := Ideal) m' c (Proc.devRef .tc Cert.ReferenceIdeal.main_arg8) :=
  (Cert.KernelIdeal.Hand.W29_main_arg8 (F := Ideal) m ρ c).trans (((hag c).2.2.2.2.2.2.2.2.1).symm.trans (Cert.Proof.Parts.ref_kept (F := Ideal) m' c Cert.ReferenceIdeal.main_arg8 (by decide)).symm)
theorem e_c_71__c_79 (c : Dev Cert.KernelIdeal.nD) : Cert.KernelIdeal.Hand.W29 (F := Ideal) m ρ c (Proc.devRef .tc Cert.KernelIdeal.main_c_71) = Cert.Proof.Parts.RW (F := Ideal) m' c (Proc.devRef .tc Cert.ReferenceIdeal.main_c_79) := by
  rw [Cert.KernelIdeal.Hand.kst_main_c_71 (F := Ideal) m ρ c]
  exact (Cert.Proof.Parts.rst_main_c_79 (F := Ideal) m' c).symm
theorem e_v289__v301 (c : Dev Cert.KernelIdeal.nD) : Cert.KernelIdeal.Hand.W29 (F := Ideal) m ρ c (Proc.devRef .tc Cert.KernelIdeal.main_v289) = Cert.Proof.Parts.RW (F := Ideal) m' c (Proc.devRef .tc Cert.ReferenceIdeal.main_v301) := by
  rw [Cert.KernelIdeal.Hand.kst_main_v289 (F := Ideal) m ρ c, e_c_71__c_79 m ρ m' hag htot c]
  exact (Cert.Proof.Parts.rst_main_v301 (F := Ideal) m' c).symm
theorem e_v290__v302 (c : Dev Cert.KernelIdeal.nD) : Cert.KernelIdeal.Hand.W29 (F := Ideal) m ρ c (Proc.devRef .tc Cert.KernelIdeal.main_v290) = Cert.Proof.Parts.RW (F := Ideal) m' c (Proc.devRef .tc Cert.ReferenceIdeal.main_v302) := by
  rw [Cert.KernelIdeal.Hand.kst_main_v290 (F := Ideal) m ρ c, e_arg8__arg8 m ρ m' hag htot c, e_v289__v301 m ρ m' hag htot c]
  exact (Cert.Proof.Parts.rst_main_v302 (F := Ideal) m' c).symm
theorem e_c_72__c_80 (c : Dev Cert.KernelIdeal.nD) : Cert.KernelIdeal.Hand.W29 (F := Ideal) m ρ c (Proc.devRef .tc Cert.KernelIdeal.main_c_72) = Cert.Proof.Parts.RW (F := Ideal) m' c (Proc.devRef .tc Cert.ReferenceIdeal.main_c_80) := by
  rw [Cert.KernelIdeal.Hand.kst_main_c_72 (F := Ideal) m ρ c]
  exact (Cert.Proof.Parts.rst_main_c_80 (F := Ideal) m' c).symm
theorem e_v291__v303 (c : Dev Cert.KernelIdeal.nD) : Cert.KernelIdeal.Hand.W29 (F := Ideal) m ρ c (Proc.devRef .tc Cert.KernelIdeal.main_v291) = Cert.Proof.Parts.RW (F := Ideal) m' c (Proc.devRef .tc Cert.ReferenceIdeal.main_v303) := by
  rw [Cert.KernelIdeal.Hand.kst_main_v291 (F := Ideal) m ρ c, e_c_72__c_80 m ρ m' hag htot c]
  exact (Cert.Proof.Parts.rst_main_v303 (F := Ideal) m' c).symm
theorem e_v292__v304 (c : Dev Cert.KernelIdeal.nD) : Cert.KernelIdeal.Hand.W29 (F := Ideal) m ρ c (Proc.devRef .tc Cert.KernelIdeal.main_v292) = Cert.Proof.Parts.RW (F := Ideal) m' c (Proc.devRef .tc Cert.ReferenceIdeal.main_v304) := by
  rw [Cert.KernelIdeal.Hand.kst_main_v292 (F := Ideal) m ρ c, e_arg8__arg8 m ρ m' hag htot c, e_v291__v303 m ρ m' hag htot c]
  exact (Cert.Proof.Parts.rst_main_v304 (F := Ideal) m' c).symm
theorem e_v293__v305 (c : Dev Cert.KernelIdeal.nD) : Cert.KernelIdeal.Hand.W29 (F := Ideal) m ρ c (Proc.devRef .tc Cert.KernelIdeal.main_v293) = Cert.Proof.Parts.RW (F := Ideal) m' c (Proc.devRef .tc Cert.ReferenceIdeal.main_v305) := by
  rw [Cert.KernelIdeal.Hand.kst_main_v293 (F := Ideal) m ρ c, e_v290__v302 m ρ m' hag htot c, e_v292__v304 m ρ m' hag htot c, e_arg8__arg8 m ρ m' hag htot c]
  exact (Cert.Proof.Parts.rst_main_v305 (F := Ideal) m' c).symm
theorem e_v294__v306 (c : Dev Cert.KernelIdeal.nD) : Cert.KernelIdeal.Hand.W29 (F := Ideal) m ρ c (Proc.devRef .tc Cert.KernelIdeal.main_v294) = Cert.Proof.Parts.RW (F := Ideal) m' c (Proc.devRef .tc Cert.ReferenceIdeal.main_v306) := by
  rw [Cert.KernelIdeal.Hand.kst_main_v294 (F := Ideal) m ρ c, e_v293__v305 m ρ m' hag htot c]
  exact (Cert.Proof.Parts.rst_main_v306 (F := Ideal) m' c).symm
theorem e_v295__v307 (c : Dev Cert.KernelIdeal.nD) : Cert.KernelIdeal.Hand.W29 (F := Ideal) m ρ c (Proc.devRef .tc Cert.KernelIdeal.main_v295) = Cert.Proof.Parts.RW (F := Ideal) m' c (Proc.devRef .tc Cert.ReferenceIdeal.main_v307) := by
  rw [Cert.KernelIdeal.Hand.kst_main_v295 (F := Ideal) m ρ c, e_v269__v281 m ρ m' hag c, e_v294__v306 m ρ m' hag htot c]
  exact (Cert.Proof.Parts.rst_main_v307 (F := Ideal) m' c).symm
theorem e_arg9__arg9 (c : Dev Cert.KernelIdeal.nD) : Cert.KernelIdeal.Hand.W29 (F := Ideal) m ρ c (Proc.devRef .tc Cert.KernelIdeal.main_arg9) = Cert.Proof.Parts.RW (F := Ideal) m' c (Proc.devRef .tc Cert.ReferenceIdeal.main_arg9) :=
  (Cert.KernelIdeal.Hand.W29_main_arg9 (F := Ideal) m ρ c).trans (((hag c).2.2.2.2.2.2.2.2.2.1).symm.trans (Cert.Proof.Parts.ref_kept (F := Ideal) m' c Cert.ReferenceIdeal.main_arg9 (by decide)).symm)
theorem e_c_73__c_81 (c : Dev Cert.KernelIdeal.nD) : Cert.KernelIdeal.Hand.W29 (F := Ideal) m ρ c (Proc.devRef .tc Cert.KernelIdeal.main_c_73) = Cert.Proof.Parts.RW (F := Ideal) m' c (Proc.devRef .tc Cert.ReferenceIdeal.main_c_81) := by
  rw [Cert.KernelIdeal.Hand.kst_main_c_73 (F := Ideal) m ρ c]
  exact (Cert.Proof.Parts.rst_main_c_81 (F := Ideal) m' c).symm
theorem e_v296__v308 (c : Dev Cert.KernelIdeal.nD) : Cert.KernelIdeal.Hand.W29 (F := Ideal) m ρ c (Proc.devRef .tc Cert.KernelIdeal.main_v296) = Cert.Proof.Parts.RW (F := Ideal) m' c (Proc.devRef .tc Cert.ReferenceIdeal.main_v308) := by
  rw [Cert.KernelIdeal.Hand.kst_main_v296 (F := Ideal) m ρ c, e_c_73__c_81 m ρ m' hag htot c]
  exact (Cert.Proof.Parts.rst_main_v308 (F := Ideal) m' c).symm
theorem e_v297__v309 (c : Dev Cert.KernelIdeal.nD) : Cert.KernelIdeal.Hand.W29 (F := Ideal) m ρ c (Proc.devRef .tc Cert.KernelIdeal.main_v297) = Cert.Proof.Parts.RW (F := Ideal) m' c (Proc.devRef .tc Cert.ReferenceIdeal.main_v309) := by
  rw [Cert.KernelIdeal.Hand.kst_main_v297 (F := Ideal) m ρ c, e_arg9__arg9 m ρ m' hag htot c, e_v296__v308 m ρ m' hag htot c]
  exact (Cert.Proof.Parts.rst_main_v309 (F := Ideal) m' c).symm
theorem e_c_74__c_82 (c : Dev Cert.KernelIdeal.nD) : Cert.KernelIdeal.Hand.W29 (F := Ideal) m ρ c (Proc.devRef .tc Cert.KernelIdeal.main_c_74) = Cert.Proof.Parts.RW (F := Ideal) m' c (Proc.devRef .tc Cert.ReferenceIdeal.main_c_82) := by
  rw [Cert.KernelIdeal.Hand.kst_main_c_74 (F := Ideal) m ρ c]
  exact (Cert.Proof.Parts.rst_main_c_82 (F := Ideal) m' c).symm
theorem e_v298__v310 (c : Dev Cert.KernelIdeal.nD) : Cert.KernelIdeal.Hand.W29 (F := Ideal) m ρ c (Proc.devRef .tc Cert.KernelIdeal.main_v298) = Cert.Proof.Parts.RW (F := Ideal) m' c (Proc.devRef .tc Cert.ReferenceIdeal.main_v310) := by
  rw [Cert.KernelIdeal.Hand.kst_main_v298 (F := Ideal) m ρ c, e_c_74__c_82 m ρ m' hag htot c]
  exact (Cert.Proof.Parts.rst_main_v310 (F := Ideal) m' c).symm
theorem e_v299__v311 (c : Dev Cert.KernelIdeal.nD) : Cert.KernelIdeal.Hand.W29 (F := Ideal) m ρ c (Proc.devRef .tc Cert.KernelIdeal.main_v299) = Cert.Proof.Parts.RW (F := Ideal) m' c (Proc.devRef .tc Cert.ReferenceIdeal.main_v311) := by
  rw [Cert.KernelIdeal.Hand.kst_main_v299 (F := Ideal) m ρ c, e_arg9__arg9 m ρ m' hag htot c, e_v298__v310 m ρ m' hag htot c]
  exact (Cert.Proof.Parts.rst_main_v311 (F := Ideal) m' c).symm
theorem e_v300__v312 (c : Dev Cert.KernelIdeal.nD) : Cert.KernelIdeal.Hand.W29 (F := Ideal) m ρ c (Proc.devRef .tc Cert.KernelIdeal.main_v300) = Cert.Proof.Parts.RW (F := Ideal) m' c (Proc.devRef .tc Cert.ReferenceIdeal.main_v312) := by
  rw [Cert.KernelIdeal.Hand.kst_main_v300 (F := Ideal) m ρ c, e_v297__v309 m ρ m' hag htot c, e_v299__v311 m ρ m' hag htot c, e_arg9__arg9 m ρ m' hag htot c]
  exact (Cert.Proof.Parts.rst_main_v312 (F := Ideal) m' c).symm
theorem e_v301__v313 (c : Dev Cert.KernelIdeal.nD) : Cert.KernelIdeal.Hand.W29 (F := Ideal) m ρ c (Proc.devRef .tc Cert.KernelIdeal.main_v301) = Cert.Proof.Parts.RW (F := Ideal) m' c (Proc.devRef .tc Cert.ReferenceIdeal.main_v313) := by
  rw [Cert.KernelIdeal.Hand.kst_main_v301 (F := Ideal) m ρ c, e_v300__v312 m ρ m' hag htot c]
  exact (Cert.Proof.Parts.rst_main_v313 (F := Ideal) m' c).symm
theorem e_v302__v314 (c : Dev Cert.KernelIdeal.nD) : Cert.KernelIdeal.Hand.W29 (F := Ideal) m ρ c (Proc.devRef .tc Cert.KernelIdeal.main_v302) = Cert.Proof.Parts.RW (F := Ideal) m' c (Proc.devRef .tc Cert.ReferenceIdeal.main_v314) := by
  rw [Cert.KernelIdeal.Hand.kst_main_v302 (F := Ideal) m ρ c, e_v271__v283 m ρ m' hag htot c, e_v301__v313 m ρ m' hag htot c]
  exact (Cert.Proof.Parts.rst_main_v314 (F := Ideal) m' c).symm
theorem e_v303__v315 (c : Dev Cert.KernelIdeal.nD) : Cert.KernelIdeal.Hand.W29 (F := Ideal) m ρ c (Proc.devRef .tc Cert.KernelIdeal.main_v303) = Cert.Proof.Parts.RW (F := Ideal) m' c (Proc.devRef .tc Cert.ReferenceIdeal.main_v315) := by
  rw [Cert.KernelIdeal.Hand.kst_main_v303 (F := Ideal) m ρ c, e_v295__v307 m ρ m' hag htot c, e_v302__v314 m ρ m' hag htot c]
  exact (Cert.Proof.Parts.rst_main_v315 (F := Ideal) m' c).symm
theorem e_cst_75__cst_83 (c : Dev Cert.KernelIdeal.nD) : Cert.KernelIdeal.Hand.W29 (F := Ideal) m ρ c (Proc.devRef .tc Cert.KernelIdeal.main_cst_75) = Cert.Proof.Parts.RW (F := Ideal) m' c (Proc.devRef .tc Cert.ReferenceIdeal.main_cst_83) := by
  rw [Cert.KernelIdeal.Hand.kst_main_cst_75 (F := Ideal) m ρ c]
  exact (Cert.Proof.Parts.rst_main_cst_83 (F := Ideal) m' c).symm
theorem e_v304__v316 (c : Dev Cert.KernelIdeal.nD) : Cert.KernelIdeal.Hand.W29 (F := Ideal) m ρ c (Proc.devRef .tc Cert.KernelIdeal.main_v304) = Cert.Proof.Parts.RW (F := Ideal) m' c (Proc.devRef .tc Cert.ReferenceIdeal.main_v316) := by
  rw [Cert.KernelIdeal.Hand.kst_main_v304 (F := Ideal) m ρ c, e_v303__v315 m ρ m' hag htot c, e_cst_75__cst_83 m ρ m' hag htot c]
  exact (Cert.Proof.Parts.rst_main_v316 (F := Ideal) m' c).symm
theorem e_v305__v317 (c : Dev Cert.KernelIdeal.nD) : Cert.KernelIdeal.Hand.W29 (F := Ideal) m ρ c (Proc.devRef .tc Cert.KernelIdeal.main_v305) = Cert.Proof.Parts.RW (F := Ideal) m' c (Proc.devRef .tc Cert.ReferenceIdeal.main_v317) := by
  rw [Cert.KernelIdeal.Hand.kst_main_v305 (F := Ideal) m ρ c, e_v304__v316 m ρ m' hag htot c]
  exact (Cert.Proof.Parts.rst_main_v317 (F := Ideal) m' c).symm
theorem e_cst_40__cst_44 (c : Dev Cert.KernelIdeal.nD) : Cert.KernelIdeal.Hand.W29 (F := Ideal) m ρ c (Proc.devRef .tc Cert.KernelIdeal.main_cst_40) = Cert.Proof.Parts.RW (F := Ideal) m' c (Proc.devRef .tc Cert.ReferenceIdeal.main_cst_44) := by
  rw [Cert.KernelIdeal.Hand.kst_main_cst_40 (F := Ideal) m ρ c]
  exact (Cert.Proof.Parts.rst_main_cst_44 (F := Ideal) m' c).symm
theorem e_call0_v0__call0_v0 (c : Dev Cert.KernelIdeal.nD) : Cert.KernelIdeal.Hand.W29 (F := Ideal) m ρ c (Proc.devRef .tc Cert.KernelIdeal.main_call0_v0) = Cert.Proof.Parts.RW (F := Ideal) m' c (Proc.devRef .tc Cert.ReferenceIdeal.main_call0_v0) := by
  rw [Cert.KernelIdeal.Hand.kst_main_call0_v0 (F := Ideal) m ρ c, e_v120__v120 m ρ m' hag c]
  exact (Cert.Proof.Parts.rst_main_call0_v0 (F := Ideal) m' c).symm
theorem e_call0_cst__call0_cst (c : Dev Cert.KernelIdeal.nD) : Cert.KernelIdeal.Hand.W29 (F := Ideal) m ρ c (Proc.devRef .tc Cert.KernelIdeal.main_call0_cst) = Cert.Proof.Parts.RW (F := Ideal) m' c (Proc.devRef .tc Cert.ReferenceIdeal.main_call0_cst) := by
  rw [Cert.KernelIdeal.Hand.kst_main_call0_cst (F := Ideal) m ρ c]
  exact (Cert.Proof.Parts.rst_main_call0_cst (F := Ideal) m' c).symm
theorem e_call0_v1__call0_v1 (c : Dev Cert.KernelIdeal.nD) : Cert.KernelIdeal.Hand.W29 (F := Ideal) m ρ c (Proc.devRef .tc Cert.KernelIdeal.main_call0_v1) = Cert.Proof.Parts.RW (F := Ideal) m' c (Proc.devRef .tc Cert.ReferenceIdeal.main_call0_v1) := by
  rw [Cert.KernelIdeal.Hand.kst_main_call0_v1 (F := Ideal) m ρ c, e_call0_v0__call0_v0 m ρ m' hag htot c, e_call0_cst__call0_cst m ρ m' hag htot c]
  exact (Cert.Proof.Parts.rst_main_call0_v1 (F := Ideal) m' c).symm
theorem e_call0_v2__call0_v2 (c : Dev Cert.KernelIdeal.nD) : Cert.KernelIdeal.Hand.W29 (F := Ideal) m ρ c (Proc.devRef .tc Cert.KernelIdeal.main_call0_v2) = Cert.Proof.Parts.RW (F := Ideal) m' c (Proc.devRef .tc Cert.ReferenceIdeal.main_call0_v2) := by
  rw [Cert.KernelIdeal.Hand.kst_main_call0_v2 (F := Ideal) m ρ c, e_call0_v1__call0_v1 m ρ m' hag htot c]
  exact (Cert.Proof.Parts.rst_main_call0_v2 (F := Ideal) m' c).symm
theorem e_v123__v123 (c : Dev Cert.KernelIdeal.nD) : Cert.KernelIdeal.Hand.W29 (F := Ideal) m ρ c (Proc.devRef .tc Cert.KernelIdeal.main_v123) = Cert.Proof.Parts.RW (F := Ideal) m' c (Proc.devRef .tc Cert.ReferenceIdeal.main_v123) := by
  rw [Cert.KernelIdeal.Hand.kst_main_v123 (F := Ideal) m ρ c, e_call0_v2__call0_v2 m ρ m' hag htot c]
  exact (Cert.Proof.Parts.rst_main_v123 (F := Ideal) m' c).symm
theorem e_cst_27__cst_27 (c : Dev Cert.KernelIdeal.nD) : Cert.KernelIdeal.Hand.W29 (F := Ideal) m ρ c (Proc.devRef .tc Cert.KernelIdeal.main_cst_27) = Cert.Proof.Parts.RW (F := Ideal) m' c (Proc.devRef .tc Cert.ReferenceIdeal.main_cst_27) := by
  rw [Cert.KernelIdeal.Hand.kst_main_cst_27 (F := Ideal) m ρ c]
  exact (Cert.Proof.Parts.rst_main_cst_27 (F := Ideal) m' c).symm
theorem e_v124__v124 (c : Dev Cert.KernelIdeal.nD) : Cert.KernelIdeal.Hand.W29 (F := Ideal) m ρ c (Proc.devRef .tc Cert.KernelIdeal.main_v124) = Cert.Proof.Parts.RW (F := Ideal) m' c (Proc.devRef .tc Cert.ReferenceIdeal.main_v124) := by
  rw [Cert.KernelIdeal.Hand.kst_main_v124 (F := Ideal) m ρ c, e_cst_27__cst_27 m ρ m' hag htot c]
  exact (Cert.Proof.Parts.rst_main_v124 (F := Ideal) m' c).symm
theorem e_v125__v125 (c : Dev Cert.KernelIdeal.nD) : Cert.KernelIdeal.Hand.W29 (F := Ideal) m ρ c (Proc.devRef .tc Cert.KernelIdeal.main_v125) = Cert.Proof.Parts.RW (F := Ideal) m' c (Proc.devRef .tc Cert.ReferenceIdeal.main_v125) := by
  rw [Cert.KernelIdeal.Hand.kst_main_v125 (F := Ideal) m ρ c, e_v123__v123 m ρ m' hag htot c, e_v124__v124 m ρ m' hag htot c]
  exact (Cert.Proof.Parts.rst_main_v125 (F := Ideal) m' c).symm
theorem e_v126__v126 (c : Dev Cert.KernelIdeal.nD) : Cert.KernelIdeal.Hand.W29 (F := Ideal) m ρ c (Proc.devRef .tc Cert.KernelIdeal.main_v126) = Cert.Proof.Parts.RW (F := Ideal) m' c (Proc.devRef .tc Cert.ReferenceIdeal.main_v126) := by
  rw [Cert.KernelIdeal.Hand.kst_main_v126 (F := Ideal) m ρ c, e_v125__v125 m ρ m' hag htot c]
  exact (Cert.Proof.Parts.rst_main_v126 (F := Ideal) m' c).symm
theorem e_v127__v127 (c : Dev Cert.KernelIdeal.nD) : Cert.KernelIdeal.Hand.W29 (F := Ideal) m ρ c (Proc.devRef .tc Cert.KernelIdeal.main_v127) = Cert.Proof.Parts.RW (F := Ideal) m' c (Proc.devRef .tc Cert.ReferenceIdeal.main_v127) := by
  rw [Cert.KernelIdeal.Hand.kst_main_v127 (F := Ideal) m ρ c, e_v120__v120 m ρ m' hag c, e_v126__v126 m ρ m' hag htot c]
  exact (Cert.Proof.Parts.rst_main_v127 (F := Ideal) m' c).symm
theorem e_call1_v0__call1_v0 (c : Dev Cert.KernelIdeal.nD) : Cert.KernelIdeal.Hand.W29 (F := Ideal) m ρ c (Proc.devRef .tc Cert.KernelIdeal.main_call1_v0) = Cert.Proof.Parts.RW (F := Ideal) m' c (Proc.devRef .tc Cert.ReferenceIdeal.main_call1_v0) := by
  rw [Cert.KernelIdeal.Hand.kst_main_call1_v0 (F := Ideal) m ρ c, e_v25__v25 m ρ m' hag c]
  exact (Cert.Proof.Parts.rst_main_call1_v0 (F := Ideal) m' c).symm
theorem e_call1_cst__call1_cst (c : Dev Cert.KernelIdeal.nD) : Cert.KernelIdeal.Hand.W29 (F := Ideal) m ρ c (Proc.devRef .tc Cert.KernelIdeal.main_call1_cst) = Cert.Proof.Parts.RW (F := Ideal) m' c (Proc.devRef .tc Cert.ReferenceIdeal.main_call1_cst) := by
  rw [Cert.KernelIdeal.Hand.kst_main_call1_cst (F := Ideal) m ρ c]
  exact (Cert.Proof.Parts.rst_main_call1_cst (F := Ideal) m' c).symm
theorem e_call1_v1__call1_v1 (c : Dev Cert.KernelIdeal.nD) : Cert.KernelIdeal.Hand.W29 (F := Ideal) m ρ c (Proc.devRef .tc Cert.KernelIdeal.main_call1_v1) = Cert.Proof.Parts.RW (F := Ideal) m' c (Proc.devRef .tc Cert.ReferenceIdeal.main_call1_v1) := by
  rw [Cert.KernelIdeal.Hand.kst_main_call1_v1 (F := Ideal) m ρ c, e_call1_v0__call1_v0 m ρ m' hag htot c, e_call1_cst__call1_cst m ρ m' hag htot c]
  exact (Cert.Proof.Parts.rst_main_call1_v1 (F := Ideal) m' c).symm
theorem e_call1_v2__call1_v2 (c : Dev Cert.KernelIdeal.nD) : Cert.KernelIdeal.Hand.W29 (F := Ideal) m ρ c (Proc.devRef .tc Cert.KernelIdeal.main_call1_v2) = Cert.Proof.Parts.RW (F := Ideal) m' c (Proc.devRef .tc Cert.ReferenceIdeal.main_call1_v2) := by
  rw [Cert.KernelIdeal.Hand.kst_main_call1_v2 (F := Ideal) m ρ c, e_call1_v1__call1_v1 m ρ m' hag htot c]
  exact (Cert.Proof.Parts.rst_main_call1_v2 (F := Ideal) m' c).symm
theorem e_v128__v128 (c : Dev Cert.KernelIdeal.nD) : Cert.KernelIdeal.Hand.W29 (F := Ideal) m ρ c (Proc.devRef .tc Cert.KernelIdeal.main_v128) = Cert.Proof.Parts.RW (F := Ideal) m' c (Proc.devRef .tc Cert.ReferenceIdeal.main_v128) := by
  rw [Cert.KernelIdeal.Hand.kst_main_v128 (F := Ideal) m ρ c, e_call1_v2__call1_v2 m ρ m' hag htot c]
  exact (Cert.Proof.Parts.rst_main_v128 (F := Ideal) m' c).symm
theorem e_cst_28__cst_28 (c : Dev Cert.KernelIdeal.nD) : Cert.KernelIdeal.Hand.W29 (F := Ideal) m ρ c (Proc.devRef .tc Cert.KernelIdeal.main_cst_28) = Cert.Proof.Parts.RW (F := Ideal) m' c (Proc.devRef .tc Cert.ReferenceIdeal.main_cst_28) := by
  rw [Cert.KernelIdeal.Hand.kst_main_cst_28 (F := Ideal) m ρ c]
  exact (Cert.Proof.Parts.rst_main_cst_28 (F := Ideal) m' c).symm
theorem e_v129__v129 (c : Dev Cert.KernelIdeal.nD) : Cert.KernelIdeal.Hand.W29 (F := Ideal) m ρ c (Proc.devRef .tc Cert.KernelIdeal.main_v129) = Cert.Proof.Parts.RW (F := Ideal) m' c (Proc.devRef .tc Cert.ReferenceIdeal.main_v129) := by
  rw [Cert.KernelIdeal.Hand.kst_main_v129 (F := Ideal) m ρ c, e_cst_28__cst_28 m ρ m' hag htot c]
  exact (Cert.Proof.Parts.rst_main_v129 (F := Ideal) m' c).symm
theorem e_v130__v130 (c : Dev Cert.KernelIdeal.nD) : Cert.KernelIdeal.Hand.W29 (F := Ideal) m ρ c (Proc.devRef .tc Cert.KernelIdeal.main_v130) = Cert.Proof.Parts.RW (F := Ideal) m' c (Proc.devRef .tc Cert.ReferenceIdeal.main_v130) := by
  rw [Cert.KernelIdeal.Hand.kst_main_v130 (F := Ideal) m ρ c, e_v128__v128 m ρ m' hag htot c, e_v129__v129 m ρ m' hag htot c]
  exact (Cert.Proof.Parts.rst_main_v130 (F := Ideal) m' c).symm
theorem e_v131__v131 (c : Dev Cert.KernelIdeal.nD) : Cert.KernelIdeal.Hand.W29 (F := Ideal) m ρ c (Proc.devRef .tc Cert.KernelIdeal.main_v131) = Cert.Proof.Parts.RW (F := Ideal) m' c (Proc.devRef .tc Cert.ReferenceIdeal.main_v131) := by
  rw [Cert.KernelIdeal.Hand.kst_main_v131 (F := Ideal) m ρ c, e_v130__v130 m ρ m' hag htot c]
  exact (Cert.Proof.Parts.rst_main_v131 (F := Ideal) m' c).symm
theorem e_v132__v132 (c : Dev Cert.KernelIdeal.nD) : Cert.KernelIdeal.Hand.W29 (F := Ideal) m ρ c (Proc.devRef .tc Cert.KernelIdeal.main_v132) = Cert.Proof.Parts.RW (F := Ideal) m' c (Proc.devRef .tc Cert.ReferenceIdeal.main_v132) := by
  rw [Cert.KernelIdeal.Hand.kst_main_v132 (F := Ideal) m ρ c, e_v25__v25 m ρ m' hag c, e_v131__v131 m ρ m' hag htot c]
  exact (Cert.Proof.Parts.rst_main_v132 (F := Ideal) m' c).symm
theorem e_v140__v138 (c : Dev Cert.KernelIdeal.nD) : Cert.KernelIdeal.Hand.W29 (F := Ideal) m ρ c (Proc.devRef .tc Cert.KernelIdeal.main_v140) = Cert.Proof.Parts.RW (F := Ideal) m' c (Proc.devRef .tc Cert.ReferenceIdeal.main_v138) := by
  rw [Cert.KernelIdeal.Hand.kst_main_v140 (F := Ideal) m ρ c, e_v127__v127 m ρ m' hag htot c, e_v132__v132 m ρ m' hag htot c]
  exact (Cert.Proof.Parts.rst_main_v138 (F := Ideal) m' c).symm
theorem e_cst_30__cst_30 (c : Dev Cert.KernelIdeal.nD) : Cert.KernelIdeal.Hand.W29 (F := Ideal) m ρ c (Proc.devRef .tc Cert.KernelIdeal.main_cst_30) = Cert.Proof.Parts.RW (F := Ideal) m' c (Proc.devRef .tc Cert.ReferenceIdeal.main_cst_30) := by
  rw [Cert.KernelIdeal.Hand.kst_main_cst_30 (F := Ideal) m ρ c]
  exact (Cert.Proof.Parts.rst_main_cst_30 (F := Ideal) m' c).symm
theorem e_v141__v139 (c : Dev Cert.KernelIdeal.nD) : Cert.KernelIdeal.Hand.W29 (F := Ideal) m ρ c (Proc.devRef .tc Cert.KernelIdeal.main_v141) = Cert.Proof.Parts.RW (F := Ideal) m' c (Proc.devRef .tc Cert.ReferenceIdeal.main_v139) := by
  rw [Cert.KernelIdeal.Hand.kst_main_v141 (F := Ideal) m ρ c, e_v140__v138 m ρ m' hag htot c, e_cst_30__cst_30 m ρ m' hag htot c]
  exact (Cert.Proof.Parts.rst_main_v139 (F := Ideal) m' c).symm
theorem e_cst_31__cst_31 (c : Dev Cert.KernelIdeal.nD) : Cert.KernelIdeal.Hand.W29 (F := Ideal) m ρ c (Proc.devRef .tc Cert.KernelIdeal.main_cst_31) = Cert.Proof.Parts.RW (F := Ideal) m' c (Proc.devRef .tc Cert.ReferenceIdeal.main_cst_31) := by
  rw [Cert.KernelIdeal.Hand.kst_main_cst_31 (F := Ideal) m ρ c]
  exact (Cert.Proof.Parts.rst_main_cst_31 (F := Ideal) m' c).symm
theorem e_v142__v140 (c : Dev Cert.KernelIdeal.nD) : Cert.KernelIdeal.Hand.W29 (F := Ideal) m ρ c (Proc.devRef .tc Cert.KernelIdeal.main_v142) = Cert.Proof.Parts.RW (F := Ideal) m' c (Proc.devRef .tc Cert.ReferenceIdeal.main_v140) := by
  rw [Cert.KernelIdeal.Hand.kst_main_v142 (F := Ideal) m ρ c, e_cst_31__cst_31 m ρ m' hag htot c]
  exact (Cert.Proof.Parts.rst_main_v140 (F := Ideal) m' c).symm
theorem e_v143__v141 (c : Dev Cert.KernelIdeal.nD) : Cert.KernelIdeal.Hand.W29 (F := Ideal) m ρ c (Proc.devRef .tc Cert.KernelIdeal.main_v143) = Cert.Proof.Parts.RW (F := Ideal) m' c (Proc.devRef .tc Cert.ReferenceIdeal.main_v141) := by
  rw [Cert.KernelIdeal.Hand.kst_main_v143 (F := Ideal) m ρ c, e_v141__v139 m ρ m' hag htot c, e_v142__v140 m ρ m' hag htot c]
  exact (Cert.Proof.Parts.rst_main_v141 (F := Ideal) m' c).symm
theorem e_v144__v142 (c : Dev Cert.KernelIdeal.nD) : Cert.KernelIdeal.Hand.W29 (F := Ideal) m ρ c (Proc.devRef .tc Cert.KernelIdeal.main_v144) = Cert.Proof.Parts.RW (F := Ideal) m' c (Proc.devRef .tc Cert.ReferenceIdeal.main_v142) := by
  rw [Cert.KernelIdeal.Hand.kst_main_v144 (F := Ideal) m ρ c, e_v143__v141 m ρ m' hag htot c]
  exact (Cert.Proof.Parts.rst_main_v142 (F := Ideal) m' c).symm
/-- From the hypothesis on the four sums. -/
theorem tot_v139__v148 (c : Dev Cert.KernelIdeal.nD) : Cert.KernelIdeal.Hand.W29 (F := Ideal) m ρ c (Proc.devRef .tc Cert.KernelIdeal.main_v139) = Cert.Proof.Parts.RW (F := Ideal) m' c (Proc.devRef .tc Cert.ReferenceIdeal.main_v148) := (htot c).1
/-- From the hypothesis on the four sums. -/
theorem tot_v166__v178 (c : Dev Cert.KernelIdeal.nD) : Cert.KernelIdeal.Hand.W29 (F := Ideal) m ρ c (Proc.devRef .tc Cert.KernelIdeal.main_v166) = Cert.Proof.Parts.RW (F := Ideal) m' c (Proc.devRef .tc Cert.ReferenceIdeal.main_v178) := (htot c).2.1
/-- From the hypothesis on the four sums. -/
theorem tot_v217__v227 (c : Dev Cert.KernelIdeal.nD) : Cert.KernelIdeal.Hand.W29 (F := Ideal) m ρ c (Proc.devRef .tc Cert.KernelIdeal.main_v217) = Cert.Proof.Parts.RW (F := Ideal) m' c (Proc.devRef .tc Cert.ReferenceIdeal.main_v227) := (htot c).2.2.1
/-- From the hypothesis on the four sums. -/
theorem tot_v260__v273 (c : Dev Cert.KernelIdeal.nD) : Cert.KernelIdeal.Hand.W29 (F := Ideal) m ρ c (Proc.devRef .tc Cert.KernelIdeal.main_v260) = Cert.Proof.Parts.RW (F := Ideal) m' c (Proc.devRef .tc Cert.ReferenceIdeal.main_v273) := (htot c).2.2.2
/-- One loss term: `log p - log t` against `log (p / t)`, with `p` an exponential and `t` a sum of exponentials, so both
    are nonnegative and the law applies at every entry. -/
theorem e_v147__v150 (c : Dev Cert.KernelIdeal.nD) : Cert.KernelIdeal.Hand.W29 (F := Ideal) m ρ c (Proc.devRef .tc Cert.KernelIdeal.main_v147) = Cert.Proof.Parts.RW (F := Ideal) m' c (Proc.devRef .tc Cert.ReferenceIdeal.main_v150) := by
  have hp : ∀ i : Cert.ReferenceIdeal.S4096.Idx, (0 : EReal) ≤ (Cert.Proof.Parts.RW (F := Ideal) m' c (Proc.devRef .tc Cert.ReferenceIdeal.main_v142) : Cert.ReferenceIdeal.S4096.Idx → EReal) i := by
    rw [Cert.Proof.Parts.rst_main_v142 (F := Ideal) m' c]; exact Cert.Lib.LogQuotient.hostExp_nonneg _
  have ht : ∀ i : Cert.ReferenceIdeal.S4096.Idx, (0 : EReal) ≤ (Cert.Proof.Parts.RW (F := Ideal) m' c (Proc.devRef .tc Cert.ReferenceIdeal.main_v148) : Cert.ReferenceIdeal.S4096.Idx → EReal) i := by
    rw [Cert.Proof.Parts.rst_main_v148 (F := Ideal) m' c]
    refine Cert.Lib.LogQuotient.hostReduceAdd_nonneg _ _ _ _ (fun i => ?_) ?_
    · rw [Cert.Proof.Parts.rst_main_v147 (F := Ideal) m' c]; exact Cert.Lib.LogQuotient.hostExp_nonneg _ i
    · rw [Cert.Proof.Parts.rst_main_cst_33 (F := Ideal) m' c]
      show (0 : EReal) ≤ Ideal.ofBits .f32 0x00000000#32
      rw [Ideal.ofBits_zero_f32]
  rw [Cert.KernelIdeal.Hand.kst_main_v147 (F := Ideal) m ρ c, Cert.KernelIdeal.Hand.kst_main_v145 (F := Ideal) m ρ c,
    Cert.KernelIdeal.Hand.kst_main_v146 (F := Ideal) m ρ c, e_v144__v142 m ρ m' hag htot c, tot_v139__v148 m ρ m' hag htot c,
    Cert.Proof.Parts.rst_main_v150 (F := Ideal) m' c, Cert.Proof.Parts.rst_main_v149 (F := Ideal) m' c]
  exact (Cert.Lib.LogQuotient.log_quot_vec _ _ hp ht).symm
theorem e_cst_32__cst_34 (c : Dev Cert.KernelIdeal.nD) : Cert.KernelIdeal.Hand.W29 (F := Ideal) m ρ c (Proc.devRef .tc Cert.KernelIdeal.main_cst_32) = Cert.Proof.Parts.RW (F := Ideal) m' c (Proc.devRef .tc Cert.ReferenceIdeal.main_cst_34) := by
  rw [Cert.KernelIdeal.Hand.kst_main_cst_32 (F := Ideal) m ρ c]
  exact (Cert.Proof.Parts.rst_main_cst_34 (F := Ideal) m' c).symm
theorem e_v148__v151 (c : Dev Cert.KernelIdeal.nD) : Cert.KernelIdeal.Hand.W29 (F := Ideal) m ρ c (Proc.devRef .tc Cert.KernelIdeal.main_v148) = Cert.Proof.Parts.RW (F := Ideal) m' c (Proc.devRef .tc Cert.ReferenceIdeal.main_v151) := by
  rw [Cert.KernelIdeal.Hand.kst_main_v148 (F := Ideal) m ρ c, e_v147__v150 m ρ m' hag htot c, e_cst_32__cst_34 m ρ m' hag htot c]
  exact (Cert.Proof.Parts.rst_main_v151 (F := Ideal) m' c).symm
theorem e_v149__v152 (c : Dev Cert.KernelIdeal.nD) : Cert.KernelIdeal.Hand.W29 (F := Ideal) m ρ c (Proc.devRef .tc Cert.KernelIdeal.main_v149) = Cert.Proof.Parts.RW (F := Ideal) m' c (Proc.devRef .tc Cert.ReferenceIdeal.main_v152) := by
  rw [Cert.KernelIdeal.Hand.kst_main_v149 (F := Ideal) m ρ c, e_v148__v151 m ρ m' hag htot c]
  exact (Cert.Proof.Parts.rst_main_v152 (F := Ideal) m' c).symm
theorem e_cst_39__cst_43 (c : Dev Cert.KernelIdeal.nD) : Cert.KernelIdeal.Hand.W29 (F := Ideal) m ρ c (Proc.devRef .tc Cert.KernelIdeal.main_cst_39) = Cert.Proof.Parts.RW (F := Ideal) m' c (Proc.devRef .tc Cert.ReferenceIdeal.main_cst_43) := by
  rw [Cert.KernelIdeal.Hand.kst_main_cst_39 (F := Ideal) m ρ c]
  exact (Cert.Proof.Parts.rst_main_cst_43 (F := Ideal) m' c).symm
theorem e_call3_v0__call3_v0 (c : Dev Cert.KernelIdeal.nD) : Cert.KernelIdeal.Hand.W29 (F := Ideal) m ρ c (Proc.devRef .tc Cert.KernelIdeal.main_call3_v0) = Cert.Proof.Parts.RW (F := Ideal) m' c (Proc.devRef .tc Cert.ReferenceIdeal.main_call3_v0) := by
  rw [Cert.KernelIdeal.Hand.kst_main_call3_v0 (F := Ideal) m ρ c, e_v115__v115 m ρ m' hag htot c]
  exact (Cert.Proof.Parts.rst_main_call3_v0 (F := Ideal) m' c).symm
theorem e_call3_cst__call3_cst (c : Dev Cert.KernelIdeal.nD) : Cert.KernelIdeal.Hand.W29 (F := Ideal) m ρ c (Proc.devRef .tc Cert.KernelIdeal.main_call3_cst) = Cert.Proof.Parts.RW (F := Ideal) m' c (Proc.devRef .tc Cert.ReferenceIdeal.main_call3_cst) := by
  rw [Cert.KernelIdeal.Hand.kst_main_call3_cst (F := Ideal) m ρ c]
  exact (Cert.Proof.Parts.rst_main_call3_cst (F := Ideal) m' c).symm
theorem e_call3_v1__call3_v1 (c : Dev Cert.KernelIdeal.nD) : Cert.KernelIdeal.Hand.W29 (F := Ideal) m ρ c (Proc.devRef .tc Cert.KernelIdeal.main_call3_v1) = Cert.Proof.Parts.RW (F := Ideal) m' c (Proc.devRef .tc Cert.ReferenceIdeal.main_call3_v1) := by
  rw [Cert.KernelIdeal.Hand.kst_main_call3_v1 (F := Ideal) m ρ c, e_call3_v0__call3_v0 m ρ m' hag htot c, e_call3_cst__call3_cst m ρ m' hag htot c]
  exact (Cert.Proof.Parts.rst_main_call3_v1 (F := Ideal) m' c).symm
theorem e_call3_v2__call3_v2 (c : Dev Cert.KernelIdeal.nD) : Cert.KernelIdeal.Hand.W29 (F := Ideal) m ρ c (Proc.devRef .tc Cert.KernelIdeal.main_call3_v2) = Cert.Proof.Parts.RW (F := Ideal) m' c (Proc.devRef .tc Cert.ReferenceIdeal.main_call3_v2) := by
  rw [Cert.KernelIdeal.Hand.kst_main_call3_v2 (F := Ideal) m ρ c, e_call3_v1__call3_v1 m ρ m' hag htot c]
  exact (Cert.Proof.Parts.rst_main_call3_v2 (F := Ideal) m' c).symm
theorem e_v150__v153 (c : Dev Cert.KernelIdeal.nD) : Cert.KernelIdeal.Hand.W29 (F := Ideal) m ρ c (Proc.devRef .tc Cert.KernelIdeal.main_v150) = Cert.Proof.Parts.RW (F := Ideal) m' c (Proc.devRef .tc Cert.ReferenceIdeal.main_v153) := by
  rw [Cert.KernelIdeal.Hand.kst_main_v150 (F := Ideal) m ρ c, e_call3_v2__call3_v2 m ρ m' hag htot c]
  exact (Cert.Proof.Parts.rst_main_v153 (F := Ideal) m' c).symm
theorem e_cst_33__cst_35 (c : Dev Cert.KernelIdeal.nD) : Cert.KernelIdeal.Hand.W29 (F := Ideal) m ρ c (Proc.devRef .tc Cert.KernelIdeal.main_cst_33) = Cert.Proof.Parts.RW (F := Ideal) m' c (Proc.devRef .tc Cert.ReferenceIdeal.main_cst_35) := by
  rw [Cert.KernelIdeal.Hand.kst_main_cst_33 (F := Ideal) m ρ c]
  exact (Cert.Proof.Parts.rst_main_cst_35 (F := Ideal) m' c).symm
theorem e_v151__v154 (c : Dev Cert.KernelIdeal.nD) : Cert.KernelIdeal.Hand.W29 (F := Ideal) m ρ c (Proc.devRef .tc Cert.KernelIdeal.main_v151) = Cert.Proof.Parts.RW (F := Ideal) m' c (Proc.devRef .tc Cert.ReferenceIdeal.main_v154) := by
  rw [Cert.KernelIdeal.Hand.kst_main_v151 (F := Ideal) m ρ c, e_cst_33__cst_35 m ρ m' hag htot c]
  exact (Cert.Proof.Parts.rst_main_v154 (F := Ideal) m' c).symm
theorem e_v152__v155 (c : Dev Cert.KernelIdeal.nD) : Cert.KernelIdeal.Hand.W29 (F := Ideal) m ρ c (Proc.devRef .tc Cert.KernelIdeal.main_v152) = Cert.Proof.Parts.RW (F := Ideal) m' c (Proc.devRef .tc Cert.ReferenceIdeal.main_v155) := by
  rw [Cert.KernelIdeal.Hand.kst_main_v152 (F := Ideal) m ρ c, e_v150__v153 m ρ m' hag htot c, e_v151__v154 m ρ m' hag htot c]
  exact (Cert.Proof.Parts.rst_main_v155 (F := Ideal) m' c).symm
theorem e_v153__v156 (c : Dev Cert.KernelIdeal.nD) : Cert.KernelIdeal.Hand.W29 (F := Ideal) m ρ c (Proc.devRef .tc Cert.KernelIdeal.main_v153) = Cert.Proof.Parts.RW (F := Ideal) m' c (Proc.devRef .tc Cert.ReferenceIdeal.main_v156) := by
  rw [Cert.KernelIdeal.Hand.kst_main_v153 (F := Ideal) m ρ c, e_v152__v155 m ρ m' hag htot c]
  exact (Cert.Proof.Parts.rst_main_v156 (F := Ideal) m' c).symm
theorem e_v154__v157 (c : Dev Cert.KernelIdeal.nD) : Cert.KernelIdeal.Hand.W29 (F := Ideal) m ρ c (Proc.devRef .tc Cert.KernelIdeal.main_v154) = Cert.Proof.Parts.RW (F := Ideal) m' c (Proc.devRef .tc Cert.ReferenceIdeal.main_v157) := by
  rw [Cert.KernelIdeal.Hand.kst_main_v154 (F := Ideal) m ρ c, e_v115__v115 m ρ m' hag htot c, e_v153__v156 m ρ m' hag htot c]
  exact (Cert.Proof.Parts.rst_main_v157 (F := Ideal) m' c).symm
theorem e_call4_v0__call4_v0 (c : Dev Cert.KernelIdeal.nD) : Cert.KernelIdeal.Hand.W29 (F := Ideal) m ρ c (Proc.devRef .tc Cert.KernelIdeal.main_call4_v0) = Cert.Proof.Parts.RW (F := Ideal) m' c (Proc.devRef .tc Cert.ReferenceIdeal.main_call4_v0) := by
  rw [Cert.KernelIdeal.Hand.kst_main_call4_v0 (F := Ideal) m ρ c, e_v32__v32 m ρ m' hag c]
  exact (Cert.Proof.Parts.rst_main_call4_v0 (F := Ideal) m' c).symm
theorem e_call4_cst__call4_cst (c : Dev Cert.KernelIdeal.nD) : Cert.KernelIdeal.Hand.W29 (F := Ideal) m ρ c (Proc.devRef .tc Cert.KernelIdeal.main_call4_cst) = Cert.Proof.Parts.RW (F := Ideal) m' c (Proc.devRef .tc Cert.ReferenceIdeal.main_call4_cst) := by
  rw [Cert.KernelIdeal.Hand.kst_main_call4_cst (F := Ideal) m ρ c]
  exact (Cert.Proof.Parts.rst_main_call4_cst (F := Ideal) m' c).symm
theorem e_call4_v1__call4_v1 (c : Dev Cert.KernelIdeal.nD) : Cert.KernelIdeal.Hand.W29 (F := Ideal) m ρ c (Proc.devRef .tc Cert.KernelIdeal.main_call4_v1) = Cert.Proof.Parts.RW (F := Ideal) m' c (Proc.devRef .tc Cert.ReferenceIdeal.main_call4_v1) := by
  rw [Cert.KernelIdeal.Hand.kst_main_call4_v1 (F := Ideal) m ρ c, e_call4_v0__call4_v0 m ρ m' hag htot c, e_call4_cst__call4_cst m ρ m' hag htot c]
  exact (Cert.Proof.Parts.rst_main_call4_v1 (F := Ideal) m' c).symm
theorem e_call4_v2__call4_v2 (c : Dev Cert.KernelIdeal.nD) : Cert.KernelIdeal.Hand.W29 (F := Ideal) m ρ c (Proc.devRef .tc Cert.KernelIdeal.main_call4_v2) = Cert.Proof.Parts.RW (F := Ideal) m' c (Proc.devRef .tc Cert.ReferenceIdeal.main_call4_v2) := by
  rw [Cert.KernelIdeal.Hand.kst_main_call4_v2 (F := Ideal) m ρ c, e_call4_v1__call4_v1 m ρ m' hag htot c]
  exact (Cert.Proof.Parts.rst_main_call4_v2 (F := Ideal) m' c).symm
theorem e_v155__v158 (c : Dev Cert.KernelIdeal.nD) : Cert.KernelIdeal.Hand.W29 (F := Ideal) m ρ c (Proc.devRef .tc Cert.KernelIdeal.main_v155) = Cert.Proof.Parts.RW (F := Ideal) m' c (Proc.devRef .tc Cert.ReferenceIdeal.main_v158) := by
  rw [Cert.KernelIdeal.Hand.kst_main_v155 (F := Ideal) m ρ c, e_call4_v2__call4_v2 m ρ m' hag htot c]
  exact (Cert.Proof.Parts.rst_main_v158 (F := Ideal) m' c).symm
theorem e_cst_34__cst_36 (c : Dev Cert.KernelIdeal.nD) : Cert.KernelIdeal.Hand.W29 (F := Ideal) m ρ c (Proc.devRef .tc Cert.KernelIdeal.main_cst_34) = Cert.Proof.Parts.RW (F := Ideal) m' c (Proc.devRef .tc Cert.ReferenceIdeal.main_cst_36) := by
  rw [Cert.KernelIdeal.Hand.kst_main_cst_34 (F := Ideal) m ρ c]
  exact (Cert.Proof.Parts.rst_main_cst_36 (F := Ideal) m' c).symm
theorem e_v156__v159 (c : Dev Cert.KernelIdeal.nD) : Cert.KernelIdeal.Hand.W29 (F := Ideal) m ρ c (Proc.devRef .tc Cert.KernelIdeal.main_v156) = Cert.Proof.Parts.RW (F := Ideal) m' c (Proc.devRef .tc Cert.ReferenceIdeal.main_v159) := by
  rw [Cert.KernelIdeal.Hand.kst_main_v156 (F := Ideal) m ρ c, e_cst_34__cst_36 m ρ m' hag htot c]
  exact (Cert.Proof.Parts.rst_main_v159 (F := Ideal) m' c).symm
theorem e_v157__v160 (c : Dev Cert.KernelIdeal.nD) : Cert.KernelIdeal.Hand.W29 (F := Ideal) m ρ c (Proc.devRef .tc Cert.KernelIdeal.main_v157) = Cert.Proof.Parts.RW (F := Ideal) m' c (Proc.devRef .tc Cert.ReferenceIdeal.main_v160) := by
  rw [Cert.KernelIdeal.Hand.kst_main_v157 (F := Ideal) m ρ c, e_v155__v158 m ρ m' hag htot c, e_v156__v159 m ρ m' hag htot c]
  exact (Cert.Proof.Parts.rst_main_v160 (F := Ideal) m' c).symm
theorem e_v158__v161 (c : Dev Cert.KernelIdeal.nD) : Cert.KernelIdeal.Hand.W29 (F := Ideal) m ρ c (Proc.devRef .tc Cert.KernelIdeal.main_v158) = Cert.Proof.Parts.RW (F := Ideal) m' c (Proc.devRef .tc Cert.ReferenceIdeal.main_v161) := by
  rw [Cert.KernelIdeal.Hand.kst_main_v158 (F := Ideal) m ρ c, e_v157__v160 m ρ m' hag htot c]
  exact (Cert.Proof.Parts.rst_main_v161 (F := Ideal) m' c).symm
theorem e_v159__v162 (c : Dev Cert.KernelIdeal.nD) : Cert.KernelIdeal.Hand.W29 (F := Ideal) m ρ c (Proc.devRef .tc Cert.KernelIdeal.main_v159) = Cert.Proof.Parts.RW (F := Ideal) m' c (Proc.devRef .tc Cert.ReferenceIdeal.main_v162) := by
  rw [Cert.KernelIdeal.Hand.kst_main_v159 (F := Ideal) m ρ c, e_v32__v32 m ρ m' hag c, e_v158__v161 m ρ m' hag htot c]
  exact (Cert.Proof.Parts.rst_main_v162 (F := Ideal) m' c).symm
theorem e_v167__v168 (c : Dev Cert.KernelIdeal.nD) : Cert.KernelIdeal.Hand.W29 (F := Ideal) m ρ c (Proc.devRef .tc Cert.KernelIdeal.main_v167) = Cert.Proof.Parts.RW (F := Ideal) m' c (Proc.devRef .tc Cert.ReferenceIdeal.main_v168) := by
  rw [Cert.KernelIdeal.Hand.kst_main_v167 (F := Ideal) m ρ c, e_v154__v157 m ρ m' hag htot c, e_v159__v162 m ρ m' hag htot c]
  exact (Cert.Proof.Parts.rst_main_v168 (F := Ideal) m' c).symm
theorem e_cst_36__cst_38 (c : Dev Cert.KernelIdeal.nD) : Cert.KernelIdeal.Hand.W29 (F := Ideal) m ρ c (Proc.devRef .tc Cert.KernelIdeal.main_cst_36) = Cert.Proof.Parts.RW (F := Ideal) m' c (Proc.devRef .tc Cert.ReferenceIdeal.main_cst_38) := by
  rw [Cert.KernelIdeal.Hand.kst_main_cst_36 (F := Ideal) m ρ c]
  exact (Cert.Proof.Parts.rst_main_cst_38 (F := Ideal) m' c).symm
theorem e_v168__v169 (c : Dev Cert.KernelIdeal.nD) : Cert.KernelIdeal.Hand.W29 (F := Ideal) m ρ c (Proc.devRef .tc Cert.KernelIdeal.main_v168) = Cert.Proof.Parts.RW (F := Ideal) m' c (Proc.devRef .tc Cert.ReferenceIdeal.main_v169) := by
  rw [Cert.KernelIdeal.Hand.kst_main_v168 (F := Ideal) m ρ c, e_v167__v168 m ρ m' hag htot c, e_cst_36__cst_38 m ρ m' hag htot c]
  exact (Cert.Proof.Parts.rst_main_v169 (F := Ideal) m' c).symm
theorem e_cst_37__cst_39 (c : Dev Cert.KernelIdeal.nD) : Cert.KernelIdeal.Hand.W29 (F := Ideal) m ρ c (Proc.devRef .tc Cert.KernelIdeal.main_cst_37) = Cert.Proof.Parts.RW (F := Ideal) m' c (Proc.devRef .tc Cert.ReferenceIdeal.main_cst_39) := by
  rw [Cert.KernelIdeal.Hand.kst_main_cst_37 (F := Ideal) m ρ c]
  exact (Cert.Proof.Parts.rst_main_cst_39 (F := Ideal) m' c).symm
theorem e_v169__v170 (c : Dev Cert.KernelIdeal.nD) : Cert.KernelIdeal.Hand.W29 (F := Ideal) m ρ c (Proc.devRef .tc Cert.KernelIdeal.main_v169) = Cert.Proof.Parts.RW (F := Ideal) m' c (Proc.devRef .tc Cert.ReferenceIdeal.main_v170) := by
  rw [Cert.KernelIdeal.Hand.kst_main_v169 (F := Ideal) m ρ c, e_cst_37__cst_39 m ρ m' hag htot c]
  exact (Cert.Proof.Parts.rst_main_v170 (F := Ideal) m' c).symm
theorem e_v170__v171 (c : Dev Cert.KernelIdeal.nD) : Cert.KernelIdeal.Hand.W29 (F := Ideal) m ρ c (Proc.devRef .tc Cert.KernelIdeal.main_v170) = Cert.Proof.Parts.RW (F := Ideal) m' c (Proc.devRef .tc Cert.ReferenceIdeal.main_v171) := by
  rw [Cert.KernelIdeal.Hand.kst_main_v170 (F := Ideal) m ρ c, e_v168__v169 m ρ m' hag htot c, e_v169__v170 m ρ m' hag htot c]
  exact (Cert.Proof.Parts.rst_main_v171 (F := Ideal) m' c).symm
theorem e_v171__v172 (c : Dev Cert.KernelIdeal.nD) : Cert.KernelIdeal.Hand.W29 (F := Ideal) m ρ c (Proc.devRef .tc Cert.KernelIdeal.main_v171) = Cert.Proof.Parts.RW (F := Ideal) m' c (Proc.devRef .tc Cert.ReferenceIdeal.main_v172) := by
  rw [Cert.KernelIdeal.Hand.kst_main_v171 (F := Ideal) m ρ c, e_v170__v171 m ρ m' hag htot c]
  exact (Cert.Proof.Parts.rst_main_v172 (F := Ideal) m' c).symm
/-- One loss term: `log p - log t` against `log (p / t)`, with `p` an exponential and `t` a sum of exponentials, so both
    are nonnegative and the law applies at every entry. -/
theorem e_v174__v180 (c : Dev Cert.KernelIdeal.nD) : Cert.KernelIdeal.Hand.W29 (F := Ideal) m ρ c (Proc.devRef .tc Cert.KernelIdeal.main_v174) = Cert.Proof.Parts.RW (F := Ideal) m' c (Proc.devRef .tc Cert.ReferenceIdeal.main_v180) := by
  have hp : ∀ i : Cert.ReferenceIdeal.S4096.Idx, (0 : EReal) ≤ (Cert.Proof.Parts.RW (F := Ideal) m' c (Proc.devRef .tc Cert.ReferenceIdeal.main_v172) : Cert.ReferenceIdeal.S4096.Idx → EReal) i := by
    rw [Cert.Proof.Parts.rst_main_v172 (F := Ideal) m' c]; exact Cert.Lib.LogQuotient.hostExp_nonneg _
  have ht : ∀ i : Cert.ReferenceIdeal.S4096.Idx, (0 : EReal) ≤ (Cert.Proof.Parts.RW (F := Ideal) m' c (Proc.devRef .tc Cert.ReferenceIdeal.main_v178) : Cert.ReferenceIdeal.S4096.Idx → EReal) i := by
    rw [Cert.Proof.Parts.rst_main_v178 (F := Ideal) m' c]
    refine Cert.Lib.LogQuotient.hostReduceAdd_nonneg _ _ _ _ (fun i => ?_) ?_
    · rw [Cert.Proof.Parts.rst_main_v177 (F := Ideal) m' c]; exact Cert.Lib.LogQuotient.hostExp_nonneg _ i
    · rw [Cert.Proof.Parts.rst_main_cst_41 (F := Ideal) m' c]
      show (0 : EReal) ≤ Ideal.ofBits .f32 0x00000000#32
      rw [Ideal.ofBits_zero_f32]
  rw [Cert.KernelIdeal.Hand.kst_main_v174 (F := Ideal) m ρ c, Cert.KernelIdeal.Hand.kst_main_v172 (F := Ideal) m ρ c,
    Cert.KernelIdeal.Hand.kst_main_v173 (F := Ideal) m ρ c, e_v171__v172 m ρ m' hag htot c, tot_v166__v178 m ρ m' hag htot c,
    Cert.Proof.Parts.rst_main_v180 (F := Ideal) m' c, Cert.Proof.Parts.rst_main_v179 (F := Ideal) m' c]
  exact (Cert.Lib.LogQuotient.log_quot_vec _ _ hp ht).symm
theorem e_cst_38__cst_42 (c : Dev Cert.KernelIdeal.nD) : Cert.KernelIdeal.Hand.W29 (F := Ideal) m ρ c (Proc.devRef .tc Cert.KernelIdeal.main_cst_38) = Cert.Proof.Parts.RW (F := Ideal) m' c (Proc.devRef .tc Cert.ReferenceIdeal.main_cst_42) := by
  rw [Cert.KernelIdeal.Hand.kst_main_cst_38 (F := Ideal) m ρ c]
  exact (Cert.Proof.Parts.rst_main_cst_42 (F := Ideal) m' c).symm
theorem e_v175__v181 (c : Dev Cert.KernelIdeal.nD) : Cert.KernelIdeal.Hand.W29 (F := Ideal) m ρ c (Proc.devRef .tc Cert.KernelIdeal.main_v175) = Cert.Proof.Parts.RW (F := Ideal) m' c (Proc.devRef .tc Cert.ReferenceIdeal.main_v181) := by
  rw [Cert.KernelIdeal.Hand.kst_main_v175 (F := Ideal) m ρ c, e_v174__v180 m ρ m' hag htot c, e_cst_38__cst_42 m ρ m' hag htot c]
  exact (Cert.Proof.Parts.rst_main_v181 (F := Ideal) m' c).symm
theorem e_v176__v182 (c : Dev Cert.KernelIdeal.nD) : Cert.KernelIdeal.Hand.W29 (F := Ideal) m ρ c (Proc.devRef .tc Cert.KernelIdeal.main_v176) = Cert.Proof.Parts.RW (F := Ideal) m' c (Proc.devRef .tc Cert.ReferenceIdeal.main_v182) := by
  rw [Cert.KernelIdeal.Hand.kst_main_v176 (F := Ideal) m ρ c, e_v175__v181 m ρ m' hag htot c]
  exact (Cert.Proof.Parts.rst_main_v182 (F := Ideal) m' c).symm
theorem e_v177__v183 (c : Dev Cert.KernelIdeal.nD) : Cert.KernelIdeal.Hand.W29 (F := Ideal) m ρ c (Proc.devRef .tc Cert.KernelIdeal.main_v177) = Cert.Proof.Parts.RW (F := Ideal) m' c (Proc.devRef .tc Cert.ReferenceIdeal.main_v183) := by
  rw [Cert.KernelIdeal.Hand.kst_main_v177 (F := Ideal) m ρ c, e_cst_39__cst_43 m ρ m' hag htot c, e_v176__v182 m ρ m' hag htot c]
  exact (Cert.Proof.Parts.rst_main_v183 (F := Ideal) m' c).symm
theorem e_v178__v184 (c : Dev Cert.KernelIdeal.nD) : Cert.KernelIdeal.Hand.W29 (F := Ideal) m ρ c (Proc.devRef .tc Cert.KernelIdeal.main_v178) = Cert.Proof.Parts.RW (F := Ideal) m' c (Proc.devRef .tc Cert.ReferenceIdeal.main_v184) := by
  rw [Cert.KernelIdeal.Hand.kst_main_v178 (F := Ideal) m ρ c, e_v149__v152 m ρ m' hag htot c, e_v177__v183 m ρ m' hag htot c]
  exact (Cert.Proof.Parts.rst_main_v184 (F := Ideal) m' c).symm
theorem e_v179__v185 (c : Dev Cert.KernelIdeal.nD) : Cert.KernelIdeal.Hand.W29 (F := Ideal) m ρ c (Proc.devRef .tc Cert.KernelIdeal.main_v179) = Cert.Proof.Parts.RW (F := Ideal) m' c (Proc.devRef .tc Cert.ReferenceIdeal.main_v185) := by
  rw [Cert.KernelIdeal.Hand.kst_main_v179 (F := Ideal) m ρ c, e_cst_40__cst_44 m ρ m' hag htot c, e_v178__v184 m ρ m' hag htot c]
  exact (Cert.Proof.Parts.rst_main_v185 (F := Ideal) m' c).symm
theorem e_cst_63__cst_71 (c : Dev Cert.KernelIdeal.nD) : Cert.KernelIdeal.Hand.W29 (F := Ideal) m ρ c (Proc.devRef .tc Cert.KernelIdeal.main_cst_63) = Cert.Proof.Parts.RW (F := Ideal) m' c (Proc.devRef .tc Cert.ReferenceIdeal.main_cst_71) := by
  rw [Cert.KernelIdeal.Hand.kst_main_cst_63 (F := Ideal) m ρ c]
  exact (Cert.Proof.Parts.rst_main_cst_71 (F := Ideal) m' c).symm
theorem e_c_41__c_45 (c : Dev Cert.KernelIdeal.nD) : Cert.KernelIdeal.Hand.W29 (F := Ideal) m ρ c (Proc.devRef .tc Cert.KernelIdeal.main_c_41) = Cert.Proof.Parts.RW (F := Ideal) m' c (Proc.devRef .tc Cert.ReferenceIdeal.main_c_45) := by
  rw [Cert.KernelIdeal.Hand.kst_main_c_41 (F := Ideal) m ρ c]
  exact (Cert.Proof.Parts.rst_main_c_45 (F := Ideal) m' c).symm
theorem e_v180__v186 (c : Dev Cert.KernelIdeal.nD) : Cert.KernelIdeal.Hand.W29 (F := Ideal) m ρ c (Proc.devRef .tc Cert.KernelIdeal.main_v180) = Cert.Proof.Parts.RW (F := Ideal) m' c (Proc.devRef .tc Cert.ReferenceIdeal.main_v186) := by
  rw [Cert.KernelIdeal.Hand.kst_main_v180 (F := Ideal) m ρ c, e_c_41__c_45 m ρ m' hag htot c]
  exact (Cert.Proof.Parts.rst_main_v186 (F := Ideal) m' c).symm
theorem e_v181__v187 (c : Dev Cert.KernelIdeal.nD) : Cert.KernelIdeal.Hand.W29 (F := Ideal) m ρ c (Proc.devRef .tc Cert.KernelIdeal.main_v181) = Cert.Proof.Parts.RW (F := Ideal) m' c (Proc.devRef .tc Cert.ReferenceIdeal.main_v187) := by
  rw [Cert.KernelIdeal.Hand.kst_main_v181 (F := Ideal) m ρ c, e_arg10__arg10 m ρ m' hag c, e_v180__v186 m ρ m' hag htot c]
  exact (Cert.Proof.Parts.rst_main_v187 (F := Ideal) m' c).symm
theorem e_c_42__c_46 (c : Dev Cert.KernelIdeal.nD) : Cert.KernelIdeal.Hand.W29 (F := Ideal) m ρ c (Proc.devRef .tc Cert.KernelIdeal.main_c_42) = Cert.Proof.Parts.RW (F := Ideal) m' c (Proc.devRef .tc Cert.ReferenceIdeal.main_c_46) := by
  rw [Cert.KernelIdeal.Hand.kst_main_c_42 (F := Ideal) m ρ c]
  exact (Cert.Proof.Parts.rst_main_c_46 (F := Ideal) m' c).symm
theorem e_v182__v188 (c : Dev Cert.KernelIdeal.nD) : Cert.KernelIdeal.Hand.W29 (F := Ideal) m ρ c (Proc.devRef .tc Cert.KernelIdeal.main_v182) = Cert.Proof.Parts.RW (F := Ideal) m' c (Proc.devRef .tc Cert.ReferenceIdeal.main_v188) := by
  rw [Cert.KernelIdeal.Hand.kst_main_v182 (F := Ideal) m ρ c, e_c_42__c_46 m ρ m' hag htot c]
  exact (Cert.Proof.Parts.rst_main_v188 (F := Ideal) m' c).symm
theorem e_v183__v189 (c : Dev Cert.KernelIdeal.nD) : Cert.KernelIdeal.Hand.W29 (F := Ideal) m ρ c (Proc.devRef .tc Cert.KernelIdeal.main_v183) = Cert.Proof.Parts.RW (F := Ideal) m' c (Proc.devRef .tc Cert.ReferenceIdeal.main_v189) := by
  rw [Cert.KernelIdeal.Hand.kst_main_v183 (F := Ideal) m ρ c, e_arg10__arg10 m ρ m' hag c, e_v182__v188 m ρ m' hag htot c]
  exact (Cert.Proof.Parts.rst_main_v189 (F := Ideal) m' c).symm
theorem e_v184__v190 (c : Dev Cert.KernelIdeal.nD) : Cert.KernelIdeal.Hand.W29 (F := Ideal) m ρ c (Proc.devRef .tc Cert.KernelIdeal.main_v184) = Cert.Proof.Parts.RW (F := Ideal) m' c (Proc.devRef .tc Cert.ReferenceIdeal.main_v190) := by
  rw [Cert.KernelIdeal.Hand.kst_main_v184 (F := Ideal) m ρ c, e_v181__v187 m ρ m' hag htot c, e_v183__v189 m ρ m' hag htot c, e_arg10__arg10 m ρ m' hag c]
  exact (Cert.Proof.Parts.rst_main_v190 (F := Ideal) m' c).symm
theorem e_v185__v191 (c : Dev Cert.KernelIdeal.nD) : Cert.KernelIdeal.Hand.W29 (F := Ideal) m ρ c (Proc.devRef .tc Cert.KernelIdeal.main_v185) = Cert.Proof.Parts.RW (F := Ideal) m' c (Proc.devRef .tc Cert.ReferenceIdeal.main_v191) := by
  rw [Cert.KernelIdeal.Hand.kst_main_v185 (F := Ideal) m ρ c, e_v184__v190 m ρ m' hag htot c]
  exact (Cert.Proof.Parts.rst_main_v191 (F := Ideal) m' c).symm
theorem e_v186__v192 (c : Dev Cert.KernelIdeal.nD) : Cert.KernelIdeal.Hand.W29 (F := Ideal) m ρ c (Proc.devRef .tc Cert.KernelIdeal.main_v186) = Cert.Proof.Parts.RW (F := Ideal) m' c (Proc.devRef .tc Cert.ReferenceIdeal.main_v192) := by
  rw [Cert.KernelIdeal.Hand.kst_main_v186 (F := Ideal) m ρ c, e_arg0__arg0 m ρ m' hag c, e_v185__v191 m ρ m' hag htot c]
  exact (Cert.Proof.Parts.rst_main_v192 (F := Ideal) m' c).symm
theorem e_call6_v0__call6_v0 (c : Dev Cert.KernelIdeal.nD) : Cert.KernelIdeal.Hand.W29 (F := Ideal) m ρ c (Proc.devRef .tc Cert.KernelIdeal.main_call6_v0) = Cert.Proof.Parts.RW (F := Ideal) m' c (Proc.devRef .tc Cert.ReferenceIdeal.main_call6_v0) := by
  rw [Cert.KernelIdeal.Hand.kst_main_call6_v0 (F := Ideal) m ρ c, e_v186__v192 m ρ m' hag htot c]
  exact (Cert.Proof.Parts.rst_main_call6_v0 (F := Ideal) m' c).symm
theorem e_call6_cst__call6_cst (c : Dev Cert.KernelIdeal.nD) : Cert.KernelIdeal.Hand.W29 (F := Ideal) m ρ c (Proc.devRef .tc Cert.KernelIdeal.main_call6_cst) = Cert.Proof.Parts.RW (F := Ideal) m' c (Proc.devRef .tc Cert.ReferenceIdeal.main_call6_cst) := by
  rw [Cert.KernelIdeal.Hand.kst_main_call6_cst (F := Ideal) m ρ c]
  exact (Cert.Proof.Parts.rst_main_call6_cst (F := Ideal) m' c).symm
theorem e_call6_v1__call6_v1 (c : Dev Cert.KernelIdeal.nD) : Cert.KernelIdeal.Hand.W29 (F := Ideal) m ρ c (Proc.devRef .tc Cert.KernelIdeal.main_call6_v1) = Cert.Proof.Parts.RW (F := Ideal) m' c (Proc.devRef .tc Cert.ReferenceIdeal.main_call6_v1) := by
  rw [Cert.KernelIdeal.Hand.kst_main_call6_v1 (F := Ideal) m ρ c, e_call6_v0__call6_v0 m ρ m' hag htot c, e_call6_cst__call6_cst m ρ m' hag htot c]
  exact (Cert.Proof.Parts.rst_main_call6_v1 (F := Ideal) m' c).symm
theorem e_call6_v2__call6_v2 (c : Dev Cert.KernelIdeal.nD) : Cert.KernelIdeal.Hand.W29 (F := Ideal) m ρ c (Proc.devRef .tc Cert.KernelIdeal.main_call6_v2) = Cert.Proof.Parts.RW (F := Ideal) m' c (Proc.devRef .tc Cert.ReferenceIdeal.main_call6_v2) := by
  rw [Cert.KernelIdeal.Hand.kst_main_call6_v2 (F := Ideal) m ρ c, e_call6_v1__call6_v1 m ρ m' hag htot c]
  exact (Cert.Proof.Parts.rst_main_call6_v2 (F := Ideal) m' c).symm
theorem e_v187__v193 (c : Dev Cert.KernelIdeal.nD) : Cert.KernelIdeal.Hand.W29 (F := Ideal) m ρ c (Proc.devRef .tc Cert.KernelIdeal.main_v187) = Cert.Proof.Parts.RW (F := Ideal) m' c (Proc.devRef .tc Cert.ReferenceIdeal.main_v193) := by
  rw [Cert.KernelIdeal.Hand.kst_main_v187 (F := Ideal) m ρ c, e_call6_v2__call6_v2 m ρ m' hag htot c]
  exact (Cert.Proof.Parts.rst_main_v193 (F := Ideal) m' c).symm
theorem e_cst_43__cst_47 (c : Dev Cert.KernelIdeal.nD) : Cert.KernelIdeal.Hand.W29 (F := Ideal) m ρ c (Proc.devRef .tc Cert.KernelIdeal.main_cst_43) = Cert.Proof.Parts.RW (F := Ideal) m' c (Proc.devRef .tc Cert.ReferenceIdeal.main_cst_47) := by
  rw [Cert.KernelIdeal.Hand.kst_main_cst_43 (F := Ideal) m ρ c]
  exact (Cert.Proof.Parts.rst_main_cst_47 (F := Ideal) m' c).symm
theorem e_v188__v194 (c : Dev Cert.KernelIdeal.nD) : Cert.KernelIdeal.Hand.W29 (F := Ideal) m ρ c (Proc.devRef .tc Cert.KernelIdeal.main_v188) = Cert.Proof.Parts.RW (F := Ideal) m' c (Proc.devRef .tc Cert.ReferenceIdeal.main_v194) := by
  rw [Cert.KernelIdeal.Hand.kst_main_v188 (F := Ideal) m ρ c, e_cst_43__cst_47 m ρ m' hag htot c]
  exact (Cert.Proof.Parts.rst_main_v194 (F := Ideal) m' c).symm
theorem e_v189__v195 (c : Dev Cert.KernelIdeal.nD) : Cert.KernelIdeal.Hand.W29 (F := Ideal) m ρ c (Proc.devRef .tc Cert.KernelIdeal.main_v189) = Cert.Proof.Parts.RW (F := Ideal) m' c (Proc.devRef .tc Cert.ReferenceIdeal.main_v195) := by
  rw [Cert.KernelIdeal.Hand.kst_main_v189 (F := Ideal) m ρ c, e_v187__v193 m ρ m' hag htot c, e_v188__v194 m ρ m' hag htot c]
  exact (Cert.Proof.Parts.rst_main_v195 (F := Ideal) m' c).symm
theorem e_v190__v196 (c : Dev Cert.KernelIdeal.nD) : Cert.KernelIdeal.Hand.W29 (F := Ideal) m ρ c (Proc.devRef .tc Cert.KernelIdeal.main_v190) = Cert.Proof.Parts.RW (F := Ideal) m' c (Proc.devRef .tc Cert.ReferenceIdeal.main_v196) := by
  rw [Cert.KernelIdeal.Hand.kst_main_v190 (F := Ideal) m ρ c, e_v189__v195 m ρ m' hag htot c]
  exact (Cert.Proof.Parts.rst_main_v196 (F := Ideal) m' c).symm
theorem e_v191__v197 (c : Dev Cert.KernelIdeal.nD) : Cert.KernelIdeal.Hand.W29 (F := Ideal) m ρ c (Proc.devRef .tc Cert.KernelIdeal.main_v191) = Cert.Proof.Parts.RW (F := Ideal) m' c (Proc.devRef .tc Cert.ReferenceIdeal.main_v197) := by
  rw [Cert.KernelIdeal.Hand.kst_main_v191 (F := Ideal) m ρ c, e_v186__v192 m ρ m' hag htot c, e_v190__v196 m ρ m' hag htot c]
  exact (Cert.Proof.Parts.rst_main_v197 (F := Ideal) m' c).symm
theorem e_arg2__arg2 (c : Dev Cert.KernelIdeal.nD) : Cert.KernelIdeal.Hand.W29 (F := Ideal) m ρ c (Proc.devRef .tc Cert.KernelIdeal.main_arg2) = Cert.Proof.Parts.RW (F := Ideal) m' c (Proc.devRef .tc Cert.ReferenceIdeal.main_arg2) :=
  (Cert.KernelIdeal.Hand.W29_main_arg2 (F := Ideal) m ρ c).trans (((hag c).2.2.1).symm.trans (Cert.Proof.Parts.ref_kept (F := Ideal) m' c Cert.ReferenceIdeal.main_arg2 (by decide)).symm)
theorem e_call7_v0__call7_v0 (c : Dev Cert.KernelIdeal.nD) : Cert.KernelIdeal.Hand.W29 (F := Ideal) m ρ c (Proc.devRef .tc Cert.KernelIdeal.main_call7_v0) = Cert.Proof.Parts.RW (F := Ideal) m' c (Proc.devRef .tc Cert.ReferenceIdeal.main_call7_v0) := by
  rw [Cert.KernelIdeal.Hand.kst_main_call7_v0 (F := Ideal) m ρ c, e_arg2__arg2 m ρ m' hag htot c]
  exact (Cert.Proof.Parts.rst_main_call7_v0 (F := Ideal) m' c).symm
theorem e_call7_cst__call7_cst (c : Dev Cert.KernelIdeal.nD) : Cert.KernelIdeal.Hand.W29 (F := Ideal) m ρ c (Proc.devRef .tc Cert.KernelIdeal.main_call7_cst) = Cert.Proof.Parts.RW (F := Ideal) m' c (Proc.devRef .tc Cert.ReferenceIdeal.main_call7_cst) := by
  rw [Cert.KernelIdeal.Hand.kst_main_call7_cst (F := Ideal) m ρ c]
  exact (Cert.Proof.Parts.rst_main_call7_cst (F := Ideal) m' c).symm
theorem e_call7_v1__call7_v1 (c : Dev Cert.KernelIdeal.nD) : Cert.KernelIdeal.Hand.W29 (F := Ideal) m ρ c (Proc.devRef .tc Cert.KernelIdeal.main_call7_v1) = Cert.Proof.Parts.RW (F := Ideal) m' c (Proc.devRef .tc Cert.ReferenceIdeal.main_call7_v1) := by
  rw [Cert.KernelIdeal.Hand.kst_main_call7_v1 (F := Ideal) m ρ c, e_call7_v0__call7_v0 m ρ m' hag htot c, e_call7_cst__call7_cst m ρ m' hag htot c]
  exact (Cert.Proof.Parts.rst_main_call7_v1 (F := Ideal) m' c).symm
theorem e_call7_v2__call7_v2 (c : Dev Cert.KernelIdeal.nD) : Cert.KernelIdeal.Hand.W29 (F := Ideal) m ρ c (Proc.devRef .tc Cert.KernelIdeal.main_call7_v2) = Cert.Proof.Parts.RW (F := Ideal) m' c (Proc.devRef .tc Cert.ReferenceIdeal.main_call7_v2) := by
  rw [Cert.KernelIdeal.Hand.kst_main_call7_v2 (F := Ideal) m ρ c, e_call7_v1__call7_v1 m ρ m' hag htot c]
  exact (Cert.Proof.Parts.rst_main_call7_v2 (F := Ideal) m' c).symm
theorem e_v192__v198 (c : Dev Cert.KernelIdeal.nD) : Cert.KernelIdeal.Hand.W29 (F := Ideal) m ρ c (Proc.devRef .tc Cert.KernelIdeal.main_v192) = Cert.Proof.Parts.RW (F := Ideal) m' c (Proc.devRef .tc Cert.ReferenceIdeal.main_v198) := by
  rw [Cert.KernelIdeal.Hand.kst_main_v192 (F := Ideal) m ρ c, e_call7_v2__call7_v2 m ρ m' hag htot c]
  exact (Cert.Proof.Parts.rst_main_v198 (F := Ideal) m' c).symm
theorem e_cst_44__cst_48 (c : Dev Cert.KernelIdeal.nD) : Cert.KernelIdeal.Hand.W29 (F := Ideal) m ρ c (Proc.devRef .tc Cert.KernelIdeal.main_cst_44) = Cert.Proof.Parts.RW (F := Ideal) m' c (Proc.devRef .tc Cert.ReferenceIdeal.main_cst_48) := by
  rw [Cert.KernelIdeal.Hand.kst_main_cst_44 (F := Ideal) m ρ c]
  exact (Cert.Proof.Parts.rst_main_cst_48 (F := Ideal) m' c).symm
theorem e_v193__v199 (c : Dev Cert.KernelIdeal.nD) : Cert.KernelIdeal.Hand.W29 (F := Ideal) m ρ c (Proc.devRef .tc Cert.KernelIdeal.main_v193) = Cert.Proof.Parts.RW (F := Ideal) m' c (Proc.devRef .tc Cert.ReferenceIdeal.main_v199) := by
  rw [Cert.KernelIdeal.Hand.kst_main_v193 (F := Ideal) m ρ c, e_cst_44__cst_48 m ρ m' hag htot c]
  exact (Cert.Proof.Parts.rst_main_v199 (F := Ideal) m' c).symm
theorem e_v194__v200 (c : Dev Cert.KernelIdeal.nD) : Cert.KernelIdeal.Hand.W29 (F := Ideal) m ρ c (Proc.devRef .tc Cert.KernelIdeal.main_v194) = Cert.Proof.Parts.RW (F := Ideal) m' c (Proc.devRef .tc Cert.ReferenceIdeal.main_v200) := by
  rw [Cert.KernelIdeal.Hand.kst_main_v194 (F := Ideal) m ρ c, e_v192__v198 m ρ m' hag htot c, e_v193__v199 m ρ m' hag htot c]
  exact (Cert.Proof.Parts.rst_main_v200 (F := Ideal) m' c).symm
end Cert.Proof.Match

end
-- ==== Proof.MatchC.lean ====
/-
  The two programs buffer by buffer.  Launched from memories that agree on the fourteen arguments, the idealized
  kernel program and the reference compute, in their host operations, the same values: a kernel-side buffer and the
  reference buffer it is paired with below are results of the same operation applied to operands already paired, so
  they hold equal contents at the end of the two runs.  The pairs are followed from the arguments upward.  Where the
  programs differ — the four sums of exponentials, which the kernel program takes from its pipelines' output arrays —
  the pairing is a separate statement (`tot_…`), and from there on the kernel's `log p - log t` meets the reference's
  `log (p / t)` by the law for nonnegative extended reals.
-/
import proofs.«110517_j15659450761722_1_alg».proof.Proof.MatchB

set_option maxRecDepth 16384

noncomputable section

open Idealize.ShloMosaic Idealize.ShloMosaic.TcCoe Idealize.SL.Sem Idealize.ShloMosaic.StableHlo

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m') (htot : TotFacts m ρ m')
include hag htot
theorem e_v195__v201 (c : Dev Cert.KernelIdeal.nD) : Cert.KernelIdeal.Hand.W29 (F := Ideal) m ρ c (Proc.devRef .tc Cert.KernelIdeal.main_v195) = Cert.Proof.Parts.RW (F := Ideal) m' c (Proc.devRef .tc Cert.ReferenceIdeal.main_v201) := by
  rw [Cert.KernelIdeal.Hand.kst_main_v195 (F := Ideal) m ρ c, e_v194__v200 m ρ m' hag htot c]
  exact (Cert.Proof.Parts.rst_main_v201 (F := Ideal) m' c).symm
theorem e_v196__v202 (c : Dev Cert.KernelIdeal.nD) : Cert.KernelIdeal.Hand.W29 (F := Ideal) m ρ c (Proc.devRef .tc Cert.KernelIdeal.main_v196) = Cert.Proof.Parts.RW (F := Ideal) m' c (Proc.devRef .tc Cert.ReferenceIdeal.main_v202) := by
  rw [Cert.KernelIdeal.Hand.kst_main_v196 (F := Ideal) m ρ c, e_arg2__arg2 m ρ m' hag htot c, e_v195__v201 m ρ m' hag htot c]
  exact (Cert.Proof.Parts.rst_main_v202 (F := Ideal) m' c).symm
theorem e_arg12__arg12 (c : Dev Cert.KernelIdeal.nD) : Cert.KernelIdeal.Hand.W29 (F := Ideal) m ρ c (Proc.devRef .tc Cert.KernelIdeal.main_arg12) = Cert.Proof.Parts.RW (F := Ideal) m' c (Proc.devRef .tc Cert.ReferenceIdeal.main_arg12) :=
  (Cert.KernelIdeal.Hand.W29_main_arg12 (F := Ideal) m ρ c).trans (((hag c).2.2.2.2.2.2.2.2.2.2.2.2.1).symm.trans (Cert.Proof.Parts.ref_kept (F := Ideal) m' c Cert.ReferenceIdeal.main_arg12 (by decide)).symm)
theorem e_c_45__c_49 (c : Dev Cert.KernelIdeal.nD) : Cert.KernelIdeal.Hand.W29 (F := Ideal) m ρ c (Proc.devRef .tc Cert.KernelIdeal.main_c_45) = Cert.Proof.Parts.RW (F := Ideal) m' c (Proc.devRef .tc Cert.ReferenceIdeal.main_c_49) := by
  rw [Cert.KernelIdeal.Hand.kst_main_c_45 (F := Ideal) m ρ c]
  exact (Cert.Proof.Parts.rst_main_c_49 (F := Ideal) m' c).symm
theorem e_v197__v203 (c : Dev Cert.KernelIdeal.nD) : Cert.KernelIdeal.Hand.W29 (F := Ideal) m ρ c (Proc.devRef .tc Cert.KernelIdeal.main_v197) = Cert.Proof.Parts.RW (F := Ideal) m' c (Proc.devRef .tc Cert.ReferenceIdeal.main_v203) := by
  rw [Cert.KernelIdeal.Hand.kst_main_v197 (F := Ideal) m ρ c, e_c_45__c_49 m ρ m' hag htot c]
  exact (Cert.Proof.Parts.rst_main_v203 (F := Ideal) m' c).symm
theorem e_v198__v204 (c : Dev Cert.KernelIdeal.nD) : Cert.KernelIdeal.Hand.W29 (F := Ideal) m ρ c (Proc.devRef .tc Cert.KernelIdeal.main_v198) = Cert.Proof.Parts.RW (F := Ideal) m' c (Proc.devRef .tc Cert.ReferenceIdeal.main_v204) := by
  rw [Cert.KernelIdeal.Hand.kst_main_v198 (F := Ideal) m ρ c, e_arg10__arg10 m ρ m' hag c, e_v197__v203 m ρ m' hag htot c]
  exact (Cert.Proof.Parts.rst_main_v204 (F := Ideal) m' c).symm
theorem e_c_46__c_50 (c : Dev Cert.KernelIdeal.nD) : Cert.KernelIdeal.Hand.W29 (F := Ideal) m ρ c (Proc.devRef .tc Cert.KernelIdeal.main_c_46) = Cert.Proof.Parts.RW (F := Ideal) m' c (Proc.devRef .tc Cert.ReferenceIdeal.main_c_50) := by
  rw [Cert.KernelIdeal.Hand.kst_main_c_46 (F := Ideal) m ρ c]
  exact (Cert.Proof.Parts.rst_main_c_50 (F := Ideal) m' c).symm
theorem e_v199__v205 (c : Dev Cert.KernelIdeal.nD) : Cert.KernelIdeal.Hand.W29 (F := Ideal) m ρ c (Proc.devRef .tc Cert.KernelIdeal.main_v199) = Cert.Proof.Parts.RW (F := Ideal) m' c (Proc.devRef .tc Cert.ReferenceIdeal.main_v205) := by
  rw [Cert.KernelIdeal.Hand.kst_main_v199 (F := Ideal) m ρ c, e_c_46__c_50 m ρ m' hag htot c]
  exact (Cert.Proof.Parts.rst_main_v205 (F := Ideal) m' c).symm
theorem e_v200__v206 (c : Dev Cert.KernelIdeal.nD) : Cert.KernelIdeal.Hand.W29 (F := Ideal) m ρ c (Proc.devRef .tc Cert.KernelIdeal.main_v200) = Cert.Proof.Parts.RW (F := Ideal) m' c (Proc.devRef .tc Cert.ReferenceIdeal.main_v206) := by
  rw [Cert.KernelIdeal.Hand.kst_main_v200 (F := Ideal) m ρ c, e_arg10__arg10 m ρ m' hag c, e_v199__v205 m ρ m' hag htot c]
  exact (Cert.Proof.Parts.rst_main_v206 (F := Ideal) m' c).symm
theorem e_v201__v207 (c : Dev Cert.KernelIdeal.nD) : Cert.KernelIdeal.Hand.W29 (F := Ideal) m ρ c (Proc.devRef .tc Cert.KernelIdeal.main_v201) = Cert.Proof.Parts.RW (F := Ideal) m' c (Proc.devRef .tc Cert.ReferenceIdeal.main_v207) := by
  rw [Cert.KernelIdeal.Hand.kst_main_v201 (F := Ideal) m ρ c, e_v198__v204 m ρ m' hag htot c, e_v200__v206 m ρ m' hag htot c, e_arg10__arg10 m ρ m' hag c]
  exact (Cert.Proof.Parts.rst_main_v207 (F := Ideal) m' c).symm
theorem e_v202__v208 (c : Dev Cert.KernelIdeal.nD) : Cert.KernelIdeal.Hand.W29 (F := Ideal) m ρ c (Proc.devRef .tc Cert.KernelIdeal.main_v202) = Cert.Proof.Parts.RW (F := Ideal) m' c (Proc.devRef .tc Cert.ReferenceIdeal.main_v208) := by
  rw [Cert.KernelIdeal.Hand.kst_main_v202 (F := Ideal) m ρ c, e_v201__v207 m ρ m' hag htot c]
  exact (Cert.Proof.Parts.rst_main_v208 (F := Ideal) m' c).symm
theorem e_v203__v209 (c : Dev Cert.KernelIdeal.nD) : Cert.KernelIdeal.Hand.W29 (F := Ideal) m ρ c (Proc.devRef .tc Cert.KernelIdeal.main_v203) = Cert.Proof.Parts.RW (F := Ideal) m' c (Proc.devRef .tc Cert.ReferenceIdeal.main_v209) := by
  rw [Cert.KernelIdeal.Hand.kst_main_v203 (F := Ideal) m ρ c, e_arg12__arg12 m ρ m' hag htot c, e_v202__v208 m ρ m' hag htot c]
  exact (Cert.Proof.Parts.rst_main_v209 (F := Ideal) m' c).symm
theorem e_c_47__c_51 (c : Dev Cert.KernelIdeal.nD) : Cert.KernelIdeal.Hand.W29 (F := Ideal) m ρ c (Proc.devRef .tc Cert.KernelIdeal.main_c_47) = Cert.Proof.Parts.RW (F := Ideal) m' c (Proc.devRef .tc Cert.ReferenceIdeal.main_c_51) := by
  rw [Cert.KernelIdeal.Hand.kst_main_c_47 (F := Ideal) m ρ c]
  exact (Cert.Proof.Parts.rst_main_c_51 (F := Ideal) m' c).symm
theorem e_v204__v210 (c : Dev Cert.KernelIdeal.nD) : Cert.KernelIdeal.Hand.W29 (F := Ideal) m ρ c (Proc.devRef .tc Cert.KernelIdeal.main_v204) = Cert.Proof.Parts.RW (F := Ideal) m' c (Proc.devRef .tc Cert.ReferenceIdeal.main_v210) := by
  rw [Cert.KernelIdeal.Hand.kst_main_v204 (F := Ideal) m ρ c, e_c_47__c_51 m ρ m' hag htot c]
  exact (Cert.Proof.Parts.rst_main_v210 (F := Ideal) m' c).symm
theorem e_v205__v211 (c : Dev Cert.KernelIdeal.nD) : Cert.KernelIdeal.Hand.W29 (F := Ideal) m ρ c (Proc.devRef .tc Cert.KernelIdeal.main_v205) = Cert.Proof.Parts.RW (F := Ideal) m' c (Proc.devRef .tc Cert.ReferenceIdeal.main_v211) := by
  rw [Cert.KernelIdeal.Hand.kst_main_v205 (F := Ideal) m ρ c, e_v203__v209 m ρ m' hag htot c, e_v204__v210 m ρ m' hag htot c]
  exact (Cert.Proof.Parts.rst_main_v211 (F := Ideal) m' c).symm
theorem e_c_48__c_52 (c : Dev Cert.KernelIdeal.nD) : Cert.KernelIdeal.Hand.W29 (F := Ideal) m ρ c (Proc.devRef .tc Cert.KernelIdeal.main_c_48) = Cert.Proof.Parts.RW (F := Ideal) m' c (Proc.devRef .tc Cert.ReferenceIdeal.main_c_52) := by
  rw [Cert.KernelIdeal.Hand.kst_main_c_48 (F := Ideal) m ρ c]
  exact (Cert.Proof.Parts.rst_main_c_52 (F := Ideal) m' c).symm
theorem e_v206__v212 (c : Dev Cert.KernelIdeal.nD) : Cert.KernelIdeal.Hand.W29 (F := Ideal) m ρ c (Proc.devRef .tc Cert.KernelIdeal.main_v206) = Cert.Proof.Parts.RW (F := Ideal) m' c (Proc.devRef .tc Cert.ReferenceIdeal.main_v212) := by
  rw [Cert.KernelIdeal.Hand.kst_main_v206 (F := Ideal) m ρ c, e_c_48__c_52 m ρ m' hag htot c]
  exact (Cert.Proof.Parts.rst_main_v212 (F := Ideal) m' c).symm
theorem e_v207__v213 (c : Dev Cert.KernelIdeal.nD) : Cert.KernelIdeal.Hand.W29 (F := Ideal) m ρ c (Proc.devRef .tc Cert.KernelIdeal.main_v207) = Cert.Proof.Parts.RW (F := Ideal) m' c (Proc.devRef .tc Cert.ReferenceIdeal.main_v213) := by
  rw [Cert.KernelIdeal.Hand.kst_main_v207 (F := Ideal) m ρ c, e_v203__v209 m ρ m' hag htot c, e_v206__v212 m ρ m' hag htot c]
  exact (Cert.Proof.Parts.rst_main_v213 (F := Ideal) m' c).symm
theorem e_v208__v214 (c : Dev Cert.KernelIdeal.nD) : Cert.KernelIdeal.Hand.W29 (F := Ideal) m ρ c (Proc.devRef .tc Cert.KernelIdeal.main_v208) = Cert.Proof.Parts.RW (F := Ideal) m' c (Proc.devRef .tc Cert.ReferenceIdeal.main_v214) := by
  rw [Cert.KernelIdeal.Hand.kst_main_v208 (F := Ideal) m ρ c, e_v205__v211 m ρ m' hag htot c, e_v207__v213 m ρ m' hag htot c, e_v203__v209 m ρ m' hag htot c]
  exact (Cert.Proof.Parts.rst_main_v214 (F := Ideal) m' c).symm
theorem e_v209__v215 (c : Dev Cert.KernelIdeal.nD) : Cert.KernelIdeal.Hand.W29 (F := Ideal) m ρ c (Proc.devRef .tc Cert.KernelIdeal.main_v209) = Cert.Proof.Parts.RW (F := Ideal) m' c (Proc.devRef .tc Cert.ReferenceIdeal.main_v215) := by
  rw [Cert.KernelIdeal.Hand.kst_main_v209 (F := Ideal) m ρ c, e_v208__v214 m ρ m' hag htot c]
  exact (Cert.Proof.Parts.rst_main_v215 (F := Ideal) m' c).symm
theorem e_v210__v216 (c : Dev Cert.KernelIdeal.nD) : Cert.KernelIdeal.Hand.W29 (F := Ideal) m ρ c (Proc.devRef .tc Cert.KernelIdeal.main_v210) = Cert.Proof.Parts.RW (F := Ideal) m' c (Proc.devRef .tc Cert.ReferenceIdeal.main_v216) := by
  rw [Cert.KernelIdeal.Hand.kst_main_v210 (F := Ideal) m ρ c, e_v196__v202 m ρ m' hag htot c, e_v209__v215 m ρ m' hag htot c]
  exact (Cert.Proof.Parts.rst_main_v216 (F := Ideal) m' c).symm
theorem e_v211__v217 (c : Dev Cert.KernelIdeal.nD) : Cert.KernelIdeal.Hand.W29 (F := Ideal) m ρ c (Proc.devRef .tc Cert.KernelIdeal.main_v211) = Cert.Proof.Parts.RW (F := Ideal) m' c (Proc.devRef .tc Cert.ReferenceIdeal.main_v217) := by
  rw [Cert.KernelIdeal.Hand.kst_main_v211 (F := Ideal) m ρ c, e_v191__v197 m ρ m' hag htot c, e_v210__v216 m ρ m' hag htot c]
  exact (Cert.Proof.Parts.rst_main_v217 (F := Ideal) m' c).symm
theorem e_cst_49__cst_53 (c : Dev Cert.KernelIdeal.nD) : Cert.KernelIdeal.Hand.W29 (F := Ideal) m ρ c (Proc.devRef .tc Cert.KernelIdeal.main_cst_49) = Cert.Proof.Parts.RW (F := Ideal) m' c (Proc.devRef .tc Cert.ReferenceIdeal.main_cst_53) := by
  rw [Cert.KernelIdeal.Hand.kst_main_cst_49 (F := Ideal) m ρ c]
  exact (Cert.Proof.Parts.rst_main_cst_53 (F := Ideal) m' c).symm
theorem e_v212__v218 (c : Dev Cert.KernelIdeal.nD) : Cert.KernelIdeal.Hand.W29 (F := Ideal) m ρ c (Proc.devRef .tc Cert.KernelIdeal.main_v212) = Cert.Proof.Parts.RW (F := Ideal) m' c (Proc.devRef .tc Cert.ReferenceIdeal.main_v218) := by
  rw [Cert.KernelIdeal.Hand.kst_main_v212 (F := Ideal) m ρ c, e_v211__v217 m ρ m' hag htot c, e_cst_49__cst_53 m ρ m' hag htot c]
  exact (Cert.Proof.Parts.rst_main_v218 (F := Ideal) m' c).symm
theorem e_cst_50__cst_54 (c : Dev Cert.KernelIdeal.nD) : Cert.KernelIdeal.Hand.W29 (F := Ideal) m ρ c (Proc.devRef .tc Cert.KernelIdeal.main_cst_50) = Cert.Proof.Parts.RW (F := Ideal) m' c (Proc.devRef .tc Cert.ReferenceIdeal.main_cst_54) := by
  rw [Cert.KernelIdeal.Hand.kst_main_cst_50 (F := Ideal) m ρ c]
  exact (Cert.Proof.Parts.rst_main_cst_54 (F := Ideal) m' c).symm
theorem e_v213__v219 (c : Dev Cert.KernelIdeal.nD) : Cert.KernelIdeal.Hand.W29 (F := Ideal) m ρ c (Proc.devRef .tc Cert.KernelIdeal.main_v213) = Cert.Proof.Parts.RW (F := Ideal) m' c (Proc.devRef .tc Cert.ReferenceIdeal.main_v219) := by
  rw [Cert.KernelIdeal.Hand.kst_main_v213 (F := Ideal) m ρ c, e_cst_50__cst_54 m ρ m' hag htot c]
  exact (Cert.Proof.Parts.rst_main_v219 (F := Ideal) m' c).symm
theorem e_v214__v220 (c : Dev Cert.KernelIdeal.nD) : Cert.KernelIdeal.Hand.W29 (F := Ideal) m ρ c (Proc.devRef .tc Cert.KernelIdeal.main_v214) = Cert.Proof.Parts.RW (F := Ideal) m' c (Proc.devRef .tc Cert.ReferenceIdeal.main_v220) := by
  rw [Cert.KernelIdeal.Hand.kst_main_v214 (F := Ideal) m ρ c, e_v212__v218 m ρ m' hag htot c, e_v213__v219 m ρ m' hag htot c]
  exact (Cert.Proof.Parts.rst_main_v220 (F := Ideal) m' c).symm
theorem e_v215__v221 (c : Dev Cert.KernelIdeal.nD) : Cert.KernelIdeal.Hand.W29 (F := Ideal) m ρ c (Proc.devRef .tc Cert.KernelIdeal.main_v215) = Cert.Proof.Parts.RW (F := Ideal) m' c (Proc.devRef .tc Cert.ReferenceIdeal.main_v221) := by
  rw [Cert.KernelIdeal.Hand.kst_main_v215 (F := Ideal) m ρ c, e_v214__v220 m ρ m' hag htot c]
  exact (Cert.Proof.Parts.rst_main_v221 (F := Ideal) m' c).symm
/-- One loss term: `log p - log t` against `log (p / t)`, with `p` an exponential and `t` a sum of exponentials, so both
    are nonnegative and the law applies at every entry. -/
theorem e_v220__v229 (c : Dev Cert.KernelIdeal.nD) : Cert.KernelIdeal.Hand.W29 (F := Ideal) m ρ c (Proc.devRef .tc Cert.KernelIdeal.main_v220) = Cert.Proof.Parts.RW (F := Ideal) m' c (Proc.devRef .tc Cert.ReferenceIdeal.main_v229) := by
  have hp : ∀ i : Cert.ReferenceIdeal.S4096.Idx, (0 : EReal) ≤ (Cert.Proof.Parts.RW (F := Ideal) m' c (Proc.devRef .tc Cert.ReferenceIdeal.main_v221) : Cert.ReferenceIdeal.S4096.Idx → EReal) i := by
    rw [Cert.Proof.Parts.rst_main_v221 (F := Ideal) m' c]; exact Cert.Lib.LogQuotient.hostExp_nonneg _
  have ht : ∀ i : Cert.ReferenceIdeal.S4096.Idx, (0 : EReal) ≤ (Cert.Proof.Parts.RW (F := Ideal) m' c (Proc.devRef .tc Cert.ReferenceIdeal.main_v227) : Cert.ReferenceIdeal.S4096.Idx → EReal) i := by
    rw [Cert.Proof.Parts.rst_main_v227 (F := Ideal) m' c]
    refine Cert.Lib.LogQuotient.hostReduceAdd_nonneg _ _ _ _ (fun i => ?_) ?_
    · rw [Cert.Proof.Parts.rst_main_v226 (F := Ideal) m' c]; exact Cert.Lib.LogQuotient.hostExp_nonneg _ i
    · rw [Cert.Proof.Parts.rst_main_cst_56 (F := Ideal) m' c]
      show (0 : EReal) ≤ Ideal.ofBits .f32 0x00000000#32
      rw [Ideal.ofBits_zero_f32]
  rw [Cert.KernelIdeal.Hand.kst_main_v220 (F := Ideal) m ρ c, Cert.KernelIdeal.Hand.kst_main_v218 (F := Ideal) m ρ c,
    Cert.KernelIdeal.Hand.kst_main_v219 (F := Ideal) m ρ c, e_v215__v221 m ρ m' hag htot c, tot_v217__v227 m ρ m' hag htot c,
    Cert.Proof.Parts.rst_main_v229 (F := Ideal) m' c, Cert.Proof.Parts.rst_main_v228 (F := Ideal) m' c]
  exact (Cert.Lib.LogQuotient.log_quot_vec _ _ hp ht).symm
theorem e_cst_51__cst_57 (c : Dev Cert.KernelIdeal.nD) : Cert.KernelIdeal.Hand.W29 (F := Ideal) m ρ c (Proc.devRef .tc Cert.KernelIdeal.main_cst_51) = Cert.Proof.Parts.RW (F := Ideal) m' c (Proc.devRef .tc Cert.ReferenceIdeal.main_cst_57) := by
  rw [Cert.KernelIdeal.Hand.kst_main_cst_51 (F := Ideal) m ρ c]
  exact (Cert.Proof.Parts.rst_main_cst_57 (F := Ideal) m' c).symm
theorem e_v221__v230 (c : Dev Cert.KernelIdeal.nD) : Cert.KernelIdeal.Hand.W29 (F := Ideal) m ρ c (Proc.devRef .tc Cert.KernelIdeal.main_v221) = Cert.Proof.Parts.RW (F := Ideal) m' c (Proc.devRef .tc Cert.ReferenceIdeal.main_v230) := by
  rw [Cert.KernelIdeal.Hand.kst_main_v221 (F := Ideal) m ρ c, e_v220__v229 m ρ m' hag htot c, e_cst_51__cst_57 m ρ m' hag htot c]
  exact (Cert.Proof.Parts.rst_main_v230 (F := Ideal) m' c).symm
theorem e_v222__v231 (c : Dev Cert.KernelIdeal.nD) : Cert.KernelIdeal.Hand.W29 (F := Ideal) m ρ c (Proc.devRef .tc Cert.KernelIdeal.main_v222) = Cert.Proof.Parts.RW (F := Ideal) m' c (Proc.devRef .tc Cert.ReferenceIdeal.main_v231) := by
  rw [Cert.KernelIdeal.Hand.kst_main_v222 (F := Ideal) m ρ c, e_v221__v230 m ρ m' hag htot c]
  exact (Cert.Proof.Parts.rst_main_v231 (F := Ideal) m' c).symm
theorem e_c_52__c_58 (c : Dev Cert.KernelIdeal.nD) : Cert.KernelIdeal.Hand.W29 (F := Ideal) m ρ c (Proc.devRef .tc Cert.KernelIdeal.main_c_52) = Cert.Proof.Parts.RW (F := Ideal) m' c (Proc.devRef .tc Cert.ReferenceIdeal.main_c_58) := by
  rw [Cert.KernelIdeal.Hand.kst_main_c_52 (F := Ideal) m ρ c]
  exact (Cert.Proof.Parts.rst_main_c_58 (F := Ideal) m' c).symm
theorem e_v223__v232 (c : Dev Cert.KernelIdeal.nD) : Cert.KernelIdeal.Hand.W29 (F := Ideal) m ρ c (Proc.devRef .tc Cert.KernelIdeal.main_v223) = Cert.Proof.Parts.RW (F := Ideal) m' c (Proc.devRef .tc Cert.ReferenceIdeal.main_v232) := by
  rw [Cert.KernelIdeal.Hand.kst_main_v223 (F := Ideal) m ρ c, e_c_52__c_58 m ρ m' hag htot c]
  exact (Cert.Proof.Parts.rst_main_v232 (F := Ideal) m' c).symm
theorem e_v224__v233 (c : Dev Cert.KernelIdeal.nD) : Cert.KernelIdeal.Hand.W29 (F := Ideal) m ρ c (Proc.devRef .tc Cert.KernelIdeal.main_v224) = Cert.Proof.Parts.RW (F := Ideal) m' c (Proc.devRef .tc Cert.ReferenceIdeal.main_v233) := by
  rw [Cert.KernelIdeal.Hand.kst_main_v224 (F := Ideal) m ρ c, e_arg11__arg11 m ρ m' hag c, e_v223__v232 m ρ m' hag htot c]
  exact (Cert.Proof.Parts.rst_main_v233 (F := Ideal) m' c).symm
theorem e_c_53__c_59 (c : Dev Cert.KernelIdeal.nD) : Cert.KernelIdeal.Hand.W29 (F := Ideal) m ρ c (Proc.devRef .tc Cert.KernelIdeal.main_c_53) = Cert.Proof.Parts.RW (F := Ideal) m' c (Proc.devRef .tc Cert.ReferenceIdeal.main_c_59) := by
  rw [Cert.KernelIdeal.Hand.kst_main_c_53 (F := Ideal) m ρ c]
  exact (Cert.Proof.Parts.rst_main_c_59 (F := Ideal) m' c).symm
theorem e_v225__v234 (c : Dev Cert.KernelIdeal.nD) : Cert.KernelIdeal.Hand.W29 (F := Ideal) m ρ c (Proc.devRef .tc Cert.KernelIdeal.main_v225) = Cert.Proof.Parts.RW (F := Ideal) m' c (Proc.devRef .tc Cert.ReferenceIdeal.main_v234) := by
  rw [Cert.KernelIdeal.Hand.kst_main_v225 (F := Ideal) m ρ c, e_c_53__c_59 m ρ m' hag htot c]
  exact (Cert.Proof.Parts.rst_main_v234 (F := Ideal) m' c).symm
theorem e_v226__v235 (c : Dev Cert.KernelIdeal.nD) : Cert.KernelIdeal.Hand.W29 (F := Ideal) m ρ c (Proc.devRef .tc Cert.KernelIdeal.main_v226) = Cert.Proof.Parts.RW (F := Ideal) m' c (Proc.devRef .tc Cert.ReferenceIdeal.main_v235) := by
  rw [Cert.KernelIdeal.Hand.kst_main_v226 (F := Ideal) m ρ c, e_arg11__arg11 m ρ m' hag c, e_v225__v234 m ρ m' hag htot c]
  exact (Cert.Proof.Parts.rst_main_v235 (F := Ideal) m' c).symm
theorem e_v227__v236 (c : Dev Cert.KernelIdeal.nD) : Cert.KernelIdeal.Hand.W29 (F := Ideal) m ρ c (Proc.devRef .tc Cert.KernelIdeal.main_v227) = Cert.Proof.Parts.RW (F := Ideal) m' c (Proc.devRef .tc Cert.ReferenceIdeal.main_v236) := by
  rw [Cert.KernelIdeal.Hand.kst_main_v227 (F := Ideal) m ρ c, e_v224__v233 m ρ m' hag htot c, e_v226__v235 m ρ m' hag htot c, e_arg11__arg11 m ρ m' hag c]
  exact (Cert.Proof.Parts.rst_main_v236 (F := Ideal) m' c).symm
theorem e_v228__v237 (c : Dev Cert.KernelIdeal.nD) : Cert.KernelIdeal.Hand.W29 (F := Ideal) m ρ c (Proc.devRef .tc Cert.KernelIdeal.main_v228) = Cert.Proof.Parts.RW (F := Ideal) m' c (Proc.devRef .tc Cert.ReferenceIdeal.main_v237) := by
  rw [Cert.KernelIdeal.Hand.kst_main_v228 (F := Ideal) m ρ c, e_v227__v236 m ρ m' hag htot c]
  exact (Cert.Proof.Parts.rst_main_v237 (F := Ideal) m' c).symm
theorem e_v229__v238 (c : Dev Cert.KernelIdeal.nD) : Cert.KernelIdeal.Hand.W29 (F := Ideal) m ρ c (Proc.devRef .tc Cert.KernelIdeal.main_v229) = Cert.Proof.Parts.RW (F := Ideal) m' c (Proc.devRef .tc Cert.ReferenceIdeal.main_v238) := by
  rw [Cert.KernelIdeal.Hand.kst_main_v229 (F := Ideal) m ρ c, e_arg1__arg1 m ρ m' hag c, e_v228__v237 m ρ m' hag htot c]
  exact (Cert.Proof.Parts.rst_main_v238 (F := Ideal) m' c).symm
theorem e_call8_v0__call8_v0 (c : Dev Cert.KernelIdeal.nD) : Cert.KernelIdeal.Hand.W29 (F := Ideal) m ρ c (Proc.devRef .tc Cert.KernelIdeal.main_call8_v0) = Cert.Proof.Parts.RW (F := Ideal) m' c (Proc.devRef .tc Cert.ReferenceIdeal.main_call8_v0) := by
  rw [Cert.KernelIdeal.Hand.kst_main_call8_v0 (F := Ideal) m ρ c, e_v229__v238 m ρ m' hag htot c]
  exact (Cert.Proof.Parts.rst_main_call8_v0 (F := Ideal) m' c).symm
theorem e_call8_cst__call8_cst (c : Dev Cert.KernelIdeal.nD) : Cert.KernelIdeal.Hand.W29 (F := Ideal) m ρ c (Proc.devRef .tc Cert.KernelIdeal.main_call8_cst) = Cert.Proof.Parts.RW (F := Ideal) m' c (Proc.devRef .tc Cert.ReferenceIdeal.main_call8_cst) := by
  rw [Cert.KernelIdeal.Hand.kst_main_call8_cst (F := Ideal) m ρ c]
  exact (Cert.Proof.Parts.rst_main_call8_cst (F := Ideal) m' c).symm
theorem e_call8_v1__call8_v1 (c : Dev Cert.KernelIdeal.nD) : Cert.KernelIdeal.Hand.W29 (F := Ideal) m ρ c (Proc.devRef .tc Cert.KernelIdeal.main_call8_v1) = Cert.Proof.Parts.RW (F := Ideal) m' c (Proc.devRef .tc Cert.ReferenceIdeal.main_call8_v1) := by
  rw [Cert.KernelIdeal.Hand.kst_main_call8_v1 (F := Ideal) m ρ c, e_call8_v0__call8_v0 m ρ m' hag htot c, e_call8_cst__call8_cst m ρ m' hag htot c]
  exact (Cert.Proof.Parts.rst_main_call8_v1 (F := Ideal) m' c).symm
theorem e_call8_v2__call8_v2 (c : Dev Cert.KernelIdeal.nD) : Cert.KernelIdeal.Hand.W29 (F := Ideal) m ρ c (Proc.devRef .tc Cert.KernelIdeal.main_call8_v2) = Cert.Proof.Parts.RW (F := Ideal) m' c (Proc.devRef .tc Cert.ReferenceIdeal.main_call8_v2) := by
  rw [Cert.KernelIdeal.Hand.kst_main_call8_v2 (F := Ideal) m ρ c, e_call8_v1__call8_v1 m ρ m' hag htot c]
  exact (Cert.Proof.Parts.rst_main_call8_v2 (F := Ideal) m' c).symm
theorem e_v230__v239 (c : Dev Cert.KernelIdeal.nD) : Cert.KernelIdeal.Hand.W29 (F := Ideal) m ρ c (Proc.devRef .tc Cert.KernelIdeal.main_v230) = Cert.Proof.Parts.RW (F := Ideal) m' c (Proc.devRef .tc Cert.ReferenceIdeal.main_v239) := by
  rw [Cert.KernelIdeal.Hand.kst_main_v230 (F := Ideal) m ρ c, e_call8_v2__call8_v2 m ρ m' hag htot c]
  exact (Cert.Proof.Parts.rst_main_v239 (F := Ideal) m' c).symm
theorem e_cst_54__cst_60 (c : Dev Cert.KernelIdeal.nD) : Cert.KernelIdeal.Hand.W29 (F := Ideal) m ρ c (Proc.devRef .tc Cert.KernelIdeal.main_cst_54) = Cert.Proof.Parts.RW (F := Ideal) m' c (Proc.devRef .tc Cert.ReferenceIdeal.main_cst_60) := by
  rw [Cert.KernelIdeal.Hand.kst_main_cst_54 (F := Ideal) m ρ c]
  exact (Cert.Proof.Parts.rst_main_cst_60 (F := Ideal) m' c).symm
theorem e_v231__v240 (c : Dev Cert.KernelIdeal.nD) : Cert.KernelIdeal.Hand.W29 (F := Ideal) m ρ c (Proc.devRef .tc Cert.KernelIdeal.main_v231) = Cert.Proof.Parts.RW (F := Ideal) m' c (Proc.devRef .tc Cert.ReferenceIdeal.main_v240) := by
  rw [Cert.KernelIdeal.Hand.kst_main_v231 (F := Ideal) m ρ c, e_cst_54__cst_60 m ρ m' hag htot c]
  exact (Cert.Proof.Parts.rst_main_v240 (F := Ideal) m' c).symm
theorem e_v232__v241 (c : Dev Cert.KernelIdeal.nD) : Cert.KernelIdeal.Hand.W29 (F := Ideal) m ρ c (Proc.devRef .tc Cert.KernelIdeal.main_v232) = Cert.Proof.Parts.RW (F := Ideal) m' c (Proc.devRef .tc Cert.ReferenceIdeal.main_v241) := by
  rw [Cert.KernelIdeal.Hand.kst_main_v232 (F := Ideal) m ρ c, e_v230__v239 m ρ m' hag htot c, e_v231__v240 m ρ m' hag htot c]
  exact (Cert.Proof.Parts.rst_main_v241 (F := Ideal) m' c).symm
theorem e_v233__v242 (c : Dev Cert.KernelIdeal.nD) : Cert.KernelIdeal.Hand.W29 (F := Ideal) m ρ c (Proc.devRef .tc Cert.KernelIdeal.main_v233) = Cert.Proof.Parts.RW (F := Ideal) m' c (Proc.devRef .tc Cert.ReferenceIdeal.main_v242) := by
  rw [Cert.KernelIdeal.Hand.kst_main_v233 (F := Ideal) m ρ c, e_v232__v241 m ρ m' hag htot c]
  exact (Cert.Proof.Parts.rst_main_v242 (F := Ideal) m' c).symm
theorem e_v234__v243 (c : Dev Cert.KernelIdeal.nD) : Cert.KernelIdeal.Hand.W29 (F := Ideal) m ρ c (Proc.devRef .tc Cert.KernelIdeal.main_v234) = Cert.Proof.Parts.RW (F := Ideal) m' c (Proc.devRef .tc Cert.ReferenceIdeal.main_v243) := by
  rw [Cert.KernelIdeal.Hand.kst_main_v234 (F := Ideal) m ρ c, e_v229__v238 m ρ m' hag htot c, e_v233__v242 m ρ m' hag htot c]
  exact (Cert.Proof.Parts.rst_main_v243 (F := Ideal) m' c).symm
theorem e_arg3__arg3 (c : Dev Cert.KernelIdeal.nD) : Cert.KernelIdeal.Hand.W29 (F := Ideal) m ρ c (Proc.devRef .tc Cert.KernelIdeal.main_arg3) = Cert.Proof.Parts.RW (F := Ideal) m' c (Proc.devRef .tc Cert.ReferenceIdeal.main_arg3) :=
  (Cert.KernelIdeal.Hand.W29_main_arg3 (F := Ideal) m ρ c).trans (((hag c).2.2.2.1).symm.trans (Cert.Proof.Parts.ref_kept (F := Ideal) m' c Cert.ReferenceIdeal.main_arg3 (by decide)).symm)
theorem e_call9_v0__call9_v0 (c : Dev Cert.KernelIdeal.nD) : Cert.KernelIdeal.Hand.W29 (F := Ideal) m ρ c (Proc.devRef .tc Cert.KernelIdeal.main_call9_v0) = Cert.Proof.Parts.RW (F := Ideal) m' c (Proc.devRef .tc Cert.ReferenceIdeal.main_call9_v0) := by
  rw [Cert.KernelIdeal.Hand.kst_main_call9_v0 (F := Ideal) m ρ c, e_arg3__arg3 m ρ m' hag htot c]
  exact (Cert.Proof.Parts.rst_main_call9_v0 (F := Ideal) m' c).symm
theorem e_call9_cst__call9_cst (c : Dev Cert.KernelIdeal.nD) : Cert.KernelIdeal.Hand.W29 (F := Ideal) m ρ c (Proc.devRef .tc Cert.KernelIdeal.main_call9_cst) = Cert.Proof.Parts.RW (F := Ideal) m' c (Proc.devRef .tc Cert.ReferenceIdeal.main_call9_cst) := by
  rw [Cert.KernelIdeal.Hand.kst_main_call9_cst (F := Ideal) m ρ c]
  exact (Cert.Proof.Parts.rst_main_call9_cst (F := Ideal) m' c).symm
theorem e_call9_v1__call9_v1 (c : Dev Cert.KernelIdeal.nD) : Cert.KernelIdeal.Hand.W29 (F := Ideal) m ρ c (Proc.devRef .tc Cert.KernelIdeal.main_call9_v1) = Cert.Proof.Parts.RW (F := Ideal) m' c (Proc.devRef .tc Cert.ReferenceIdeal.main_call9_v1) := by
  rw [Cert.KernelIdeal.Hand.kst_main_call9_v1 (F := Ideal) m ρ c, e_call9_v0__call9_v0 m ρ m' hag htot c, e_call9_cst__call9_cst m ρ m' hag htot c]
  exact (Cert.Proof.Parts.rst_main_call9_v1 (F := Ideal) m' c).symm
theorem e_call9_v2__call9_v2 (c : Dev Cert.KernelIdeal.nD) : Cert.KernelIdeal.Hand.W29 (F := Ideal) m ρ c (Proc.devRef .tc Cert.KernelIdeal.main_call9_v2) = Cert.Proof.Parts.RW (F := Ideal) m' c (Proc.devRef .tc Cert.ReferenceIdeal.main_call9_v2) := by
  rw [Cert.KernelIdeal.Hand.kst_main_call9_v2 (F := Ideal) m ρ c, e_call9_v1__call9_v1 m ρ m' hag htot c]
  exact (Cert.Proof.Parts.rst_main_call9_v2 (F := Ideal) m' c).symm
theorem e_v235__v244 (c : Dev Cert.KernelIdeal.nD) : Cert.KernelIdeal.Hand.W29 (F := Ideal) m ρ c (Proc.devRef .tc Cert.KernelIdeal.main_v235) = Cert.Proof.Parts.RW (F := Ideal) m' c (Proc.devRef .tc Cert.ReferenceIdeal.main_v244) := by
  rw [Cert.KernelIdeal.Hand.kst_main_v235 (F := Ideal) m ρ c, e_call9_v2__call9_v2 m ρ m' hag htot c]
  exact (Cert.Proof.Parts.rst_main_v244 (F := Ideal) m' c).symm
theorem e_cst_55__cst_61 (c : Dev Cert.KernelIdeal.nD) : Cert.KernelIdeal.Hand.W29 (F := Ideal) m ρ c (Proc.devRef .tc Cert.KernelIdeal.main_cst_55) = Cert.Proof.Parts.RW (F := Ideal) m' c (Proc.devRef .tc Cert.ReferenceIdeal.main_cst_61) := by
  rw [Cert.KernelIdeal.Hand.kst_main_cst_55 (F := Ideal) m ρ c]
  exact (Cert.Proof.Parts.rst_main_cst_61 (F := Ideal) m' c).symm
theorem e_v236__v245 (c : Dev Cert.KernelIdeal.nD) : Cert.KernelIdeal.Hand.W29 (F := Ideal) m ρ c (Proc.devRef .tc Cert.KernelIdeal.main_v236) = Cert.Proof.Parts.RW (F := Ideal) m' c (Proc.devRef .tc Cert.ReferenceIdeal.main_v245) := by
  rw [Cert.KernelIdeal.Hand.kst_main_v236 (F := Ideal) m ρ c, e_cst_55__cst_61 m ρ m' hag htot c]
  exact (Cert.Proof.Parts.rst_main_v245 (F := Ideal) m' c).symm
theorem e_v237__v246 (c : Dev Cert.KernelIdeal.nD) : Cert.KernelIdeal.Hand.W29 (F := Ideal) m ρ c (Proc.devRef .tc Cert.KernelIdeal.main_v237) = Cert.Proof.Parts.RW (F := Ideal) m' c (Proc.devRef .tc Cert.ReferenceIdeal.main_v246) := by
  rw [Cert.KernelIdeal.Hand.kst_main_v237 (F := Ideal) m ρ c, e_v235__v244 m ρ m' hag htot c, e_v236__v245 m ρ m' hag htot c]
  exact (Cert.Proof.Parts.rst_main_v246 (F := Ideal) m' c).symm
theorem e_v238__v247 (c : Dev Cert.KernelIdeal.nD) : Cert.KernelIdeal.Hand.W29 (F := Ideal) m ρ c (Proc.devRef .tc Cert.KernelIdeal.main_v238) = Cert.Proof.Parts.RW (F := Ideal) m' c (Proc.devRef .tc Cert.ReferenceIdeal.main_v247) := by
  rw [Cert.KernelIdeal.Hand.kst_main_v238 (F := Ideal) m ρ c, e_v237__v246 m ρ m' hag htot c]
  exact (Cert.Proof.Parts.rst_main_v247 (F := Ideal) m' c).symm
theorem e_v239__v248 (c : Dev Cert.KernelIdeal.nD) : Cert.KernelIdeal.Hand.W29 (F := Ideal) m ρ c (Proc.devRef .tc Cert.KernelIdeal.main_v239) = Cert.Proof.Parts.RW (F := Ideal) m' c (Proc.devRef .tc Cert.ReferenceIdeal.main_v248) := by
  rw [Cert.KernelIdeal.Hand.kst_main_v239 (F := Ideal) m ρ c, e_arg3__arg3 m ρ m' hag htot c, e_v238__v247 m ρ m' hag htot c]
  exact (Cert.Proof.Parts.rst_main_v248 (F := Ideal) m' c).symm
theorem e_arg13__arg13 (c : Dev Cert.KernelIdeal.nD) : Cert.KernelIdeal.Hand.W29 (F := Ideal) m ρ c (Proc.devRef .tc Cert.KernelIdeal.main_arg13) = Cert.Proof.Parts.RW (F := Ideal) m' c (Proc.devRef .tc Cert.ReferenceIdeal.main_arg13) :=
  (Cert.KernelIdeal.Hand.W29_main_arg13 (F := Ideal) m ρ c).trans (((hag c).2.2.2.2.2.2.2.2.2.2.2.2.2).symm.trans (Cert.Proof.Parts.ref_kept (F := Ideal) m' c Cert.ReferenceIdeal.main_arg13 (by decide)).symm)
theorem e_c_56__c_62 (c : Dev Cert.KernelIdeal.nD) : Cert.KernelIdeal.Hand.W29 (F := Ideal) m ρ c (Proc.devRef .tc Cert.KernelIdeal.main_c_56) = Cert.Proof.Parts.RW (F := Ideal) m' c (Proc.devRef .tc Cert.ReferenceIdeal.main_c_62) := by
  rw [Cert.KernelIdeal.Hand.kst_main_c_56 (F := Ideal) m ρ c]
  exact (Cert.Proof.Parts.rst_main_c_62 (F := Ideal) m' c).symm
theorem e_v240__v249 (c : Dev Cert.KernelIdeal.nD) : Cert.KernelIdeal.Hand.W29 (F := Ideal) m ρ c (Proc.devRef .tc Cert.KernelIdeal.main_v240) = Cert.Proof.Parts.RW (F := Ideal) m' c (Proc.devRef .tc Cert.ReferenceIdeal.main_v249) := by
  rw [Cert.KernelIdeal.Hand.kst_main_v240 (F := Ideal) m ρ c, e_c_56__c_62 m ρ m' hag htot c]
  exact (Cert.Proof.Parts.rst_main_v249 (F := Ideal) m' c).symm
theorem e_v241__v250 (c : Dev Cert.KernelIdeal.nD) : Cert.KernelIdeal.Hand.W29 (F := Ideal) m ρ c (Proc.devRef .tc Cert.KernelIdeal.main_v241) = Cert.Proof.Parts.RW (F := Ideal) m' c (Proc.devRef .tc Cert.ReferenceIdeal.main_v250) := by
  rw [Cert.KernelIdeal.Hand.kst_main_v241 (F := Ideal) m ρ c, e_arg11__arg11 m ρ m' hag c, e_v240__v249 m ρ m' hag htot c]
  exact (Cert.Proof.Parts.rst_main_v250 (F := Ideal) m' c).symm
theorem e_c_57__c_63 (c : Dev Cert.KernelIdeal.nD) : Cert.KernelIdeal.Hand.W29 (F := Ideal) m ρ c (Proc.devRef .tc Cert.KernelIdeal.main_c_57) = Cert.Proof.Parts.RW (F := Ideal) m' c (Proc.devRef .tc Cert.ReferenceIdeal.main_c_63) := by
  rw [Cert.KernelIdeal.Hand.kst_main_c_57 (F := Ideal) m ρ c]
  exact (Cert.Proof.Parts.rst_main_c_63 (F := Ideal) m' c).symm
theorem e_v242__v251 (c : Dev Cert.KernelIdeal.nD) : Cert.KernelIdeal.Hand.W29 (F := Ideal) m ρ c (Proc.devRef .tc Cert.KernelIdeal.main_v242) = Cert.Proof.Parts.RW (F := Ideal) m' c (Proc.devRef .tc Cert.ReferenceIdeal.main_v251) := by
  rw [Cert.KernelIdeal.Hand.kst_main_v242 (F := Ideal) m ρ c, e_c_57__c_63 m ρ m' hag htot c]
  exact (Cert.Proof.Parts.rst_main_v251 (F := Ideal) m' c).symm
theorem e_v243__v252 (c : Dev Cert.KernelIdeal.nD) : Cert.KernelIdeal.Hand.W29 (F := Ideal) m ρ c (Proc.devRef .tc Cert.KernelIdeal.main_v243) = Cert.Proof.Parts.RW (F := Ideal) m' c (Proc.devRef .tc Cert.ReferenceIdeal.main_v252) := by
  rw [Cert.KernelIdeal.Hand.kst_main_v243 (F := Ideal) m ρ c, e_arg11__arg11 m ρ m' hag c, e_v242__v251 m ρ m' hag htot c]
  exact (Cert.Proof.Parts.rst_main_v252 (F := Ideal) m' c).symm
theorem e_v244__v253 (c : Dev Cert.KernelIdeal.nD) : Cert.KernelIdeal.Hand.W29 (F := Ideal) m ρ c (Proc.devRef .tc Cert.KernelIdeal.main_v244) = Cert.Proof.Parts.RW (F := Ideal) m' c (Proc.devRef .tc Cert.ReferenceIdeal.main_v253) := by
  rw [Cert.KernelIdeal.Hand.kst_main_v244 (F := Ideal) m ρ c, e_v241__v250 m ρ m' hag htot c, e_v243__v252 m ρ m' hag htot c, e_arg11__arg11 m ρ m' hag c]
  exact (Cert.Proof.Parts.rst_main_v253 (F := Ideal) m' c).symm
theorem e_v245__v254 (c : Dev Cert.KernelIdeal.nD) : Cert.KernelIdeal.Hand.W29 (F := Ideal) m ρ c (Proc.devRef .tc Cert.KernelIdeal.main_v245) = Cert.Proof.Parts.RW (F := Ideal) m' c (Proc.devRef .tc Cert.ReferenceIdeal.main_v254) := by
  rw [Cert.KernelIdeal.Hand.kst_main_v245 (F := Ideal) m ρ c, e_v244__v253 m ρ m' hag htot c]
  exact (Cert.Proof.Parts.rst_main_v254 (F := Ideal) m' c).symm
theorem e_v246__v255 (c : Dev Cert.KernelIdeal.nD) : Cert.KernelIdeal.Hand.W29 (F := Ideal) m ρ c (Proc.devRef .tc Cert.KernelIdeal.main_v246) = Cert.Proof.Parts.RW (F := Ideal) m' c (Proc.devRef .tc Cert.ReferenceIdeal.main_v255) := by
  rw [Cert.KernelIdeal.Hand.kst_main_v246 (F := Ideal) m ρ c, e_arg13__arg13 m ρ m' hag htot c, e_v245__v254 m ρ m' hag htot c]
  exact (Cert.Proof.Parts.rst_main_v255 (F := Ideal) m' c).symm
theorem e_c_58__c_64 (c : Dev Cert.KernelIdeal.nD) : Cert.KernelIdeal.Hand.W29 (F := Ideal) m ρ c (Proc.devRef .tc Cert.KernelIdeal.main_c_58) = Cert.Proof.Parts.RW (F := Ideal) m' c (Proc.devRef .tc Cert.ReferenceIdeal.main_c_64) := by
  rw [Cert.KernelIdeal.Hand.kst_main_c_58 (F := Ideal) m ρ c]
  exact (Cert.Proof.Parts.rst_main_c_64 (F := Ideal) m' c).symm
theorem e_v247__v256 (c : Dev Cert.KernelIdeal.nD) : Cert.KernelIdeal.Hand.W29 (F := Ideal) m ρ c (Proc.devRef .tc Cert.KernelIdeal.main_v247) = Cert.Proof.Parts.RW (F := Ideal) m' c (Proc.devRef .tc Cert.ReferenceIdeal.main_v256) := by
  rw [Cert.KernelIdeal.Hand.kst_main_v247 (F := Ideal) m ρ c, e_c_58__c_64 m ρ m' hag htot c]
  exact (Cert.Proof.Parts.rst_main_v256 (F := Ideal) m' c).symm
theorem e_v248__v257 (c : Dev Cert.KernelIdeal.nD) : Cert.KernelIdeal.Hand.W29 (F := Ideal) m ρ c (Proc.devRef .tc Cert.KernelIdeal.main_v248) = Cert.Proof.Parts.RW (F := Ideal) m' c (Proc.devRef .tc Cert.ReferenceIdeal.main_v257) := by
  rw [Cert.KernelIdeal.Hand.kst_main_v248 (F := Ideal) m ρ c, e_v246__v255 m ρ m' hag htot c, e_v247__v256 m ρ m' hag htot c]
  exact (Cert.Proof.Parts.rst_main_v257 (F := Ideal) m' c).symm
theorem e_c_59__c_65 (c : Dev Cert.KernelIdeal.nD) : Cert.KernelIdeal.Hand.W29 (F := Ideal) m ρ c (Proc.devRef .tc Cert.KernelIdeal.main_c_59) = Cert.Proof.Parts.RW (F := Ideal) m' c (Proc.devRef .tc Cert.ReferenceIdeal.main_c_65) := by
  rw [Cert.KernelIdeal.Hand.kst_main_c_59 (F := Ideal) m ρ c]
  exact (Cert.Proof.Parts.rst_main_c_65 (F := Ideal) m' c).symm
theorem e_v249__v258 (c : Dev Cert.KernelIdeal.nD) : Cert.KernelIdeal.Hand.W29 (F := Ideal) m ρ c (Proc.devRef .tc Cert.KernelIdeal.main_v249) = Cert.Proof.Parts.RW (F := Ideal) m' c (Proc.devRef .tc Cert.ReferenceIdeal.main_v258) := by
  rw [Cert.KernelIdeal.Hand.kst_main_v249 (F := Ideal) m ρ c, e_c_59__c_65 m ρ m' hag htot c]
  exact (Cert.Proof.Parts.rst_main_v258 (F := Ideal) m' c).symm
theorem e_v250__v259 (c : Dev Cert.KernelIdeal.nD) : Cert.KernelIdeal.Hand.W29 (F := Ideal) m ρ c (Proc.devRef .tc Cert.KernelIdeal.main_v250) = Cert.Proof.Parts.RW (F := Ideal) m' c (Proc.devRef .tc Cert.ReferenceIdeal.main_v259) := by
  rw [Cert.KernelIdeal.Hand.kst_main_v250 (F := Ideal) m ρ c, e_v246__v255 m ρ m' hag htot c, e_v249__v258 m ρ m' hag htot c]
  exact (Cert.Proof.Parts.rst_main_v259 (F := Ideal) m' c).symm
theorem e_v251__v260 (c : Dev Cert.KernelIdeal.nD) : Cert.KernelIdeal.Hand.W29 (F := Ideal) m ρ c (Proc.devRef .tc Cert.KernelIdeal.main_v251) = Cert.Proof.Parts.RW (F := Ideal) m' c (Proc.devRef .tc Cert.ReferenceIdeal.main_v260) := by
  rw [Cert.KernelIdeal.Hand.kst_main_v251 (F := Ideal) m ρ c, e_v248__v257 m ρ m' hag htot c, e_v250__v259 m ρ m' hag htot c, e_v246__v255 m ρ m' hag htot c]
  exact (Cert.Proof.Parts.rst_main_v260 (F := Ideal) m' c).symm
theorem e_v252__v261 (c : Dev Cert.KernelIdeal.nD) : Cert.KernelIdeal.Hand.W29 (F := Ideal) m ρ c (Proc.devRef .tc Cert.KernelIdeal.main_v252) = Cert.Proof.Parts.RW (F := Ideal) m' c (Proc.devRef .tc Cert.ReferenceIdeal.main_v261) := by
  rw [Cert.KernelIdeal.Hand.kst_main_v252 (F := Ideal) m ρ c, e_v251__v260 m ρ m' hag htot c]
  exact (Cert.Proof.Parts.rst_main_v261 (F := Ideal) m' c).symm
theorem e_v253__v262 (c : Dev Cert.KernelIdeal.nD) : Cert.KernelIdeal.Hand.W29 (F := Ideal) m ρ c (Proc.devRef .tc Cert.KernelIdeal.main_v253) = Cert.Proof.Parts.RW (F := Ideal) m' c (Proc.devRef .tc Cert.ReferenceIdeal.main_v262) := by
  rw [Cert.KernelIdeal.Hand.kst_main_v253 (F := Ideal) m ρ c, e_v239__v248 m ρ m' hag htot c, e_v252__v261 m ρ m' hag htot c]
  exact (Cert.Proof.Parts.rst_main_v262 (F := Ideal) m' c).symm
theorem e_v254__v263 (c : Dev Cert.KernelIdeal.nD) : Cert.KernelIdeal.Hand.W29 (F := Ideal) m ρ c (Proc.devRef .tc Cert.KernelIdeal.main_v254) = Cert.Proof.Parts.RW (F := Ideal) m' c (Proc.devRef .tc Cert.ReferenceIdeal.main_v263) := by
  rw [Cert.KernelIdeal.Hand.kst_main_v254 (F := Ideal) m ρ c, e_v234__v243 m ρ m' hag htot c, e_v253__v262 m ρ m' hag htot c]
  exact (Cert.Proof.Parts.rst_main_v263 (F := Ideal) m' c).symm
theorem e_cst_60__cst_66 (c : Dev Cert.KernelIdeal.nD) : Cert.KernelIdeal.Hand.W29 (F := Ideal) m ρ c (Proc.devRef .tc Cert.KernelIdeal.main_cst_60) = Cert.Proof.Parts.RW (F := Ideal) m' c (Proc.devRef .tc Cert.ReferenceIdeal.main_cst_66) := by
  rw [Cert.KernelIdeal.Hand.kst_main_cst_60 (F := Ideal) m ρ c]
  exact (Cert.Proof.Parts.rst_main_cst_66 (F := Ideal) m' c).symm
theorem e_v255__v264 (c : Dev Cert.KernelIdeal.nD) : Cert.KernelIdeal.Hand.W29 (F := Ideal) m ρ c (Proc.devRef .tc Cert.KernelIdeal.main_v255) = Cert.Proof.Parts.RW (F := Ideal) m' c (Proc.devRef .tc Cert.ReferenceIdeal.main_v264) := by
  rw [Cert.KernelIdeal.Hand.kst_main_v255 (F := Ideal) m ρ c, e_v254__v263 m ρ m' hag htot c, e_cst_60__cst_66 m ρ m' hag htot c]
  exact (Cert.Proof.Parts.rst_main_v264 (F := Ideal) m' c).symm
theorem e_cst_61__cst_67 (c : Dev Cert.KernelIdeal.nD) : Cert.KernelIdeal.Hand.W29 (F := Ideal) m ρ c (Proc.devRef .tc Cert.KernelIdeal.main_cst_61) = Cert.Proof.Parts.RW (F := Ideal) m' c (Proc.devRef .tc Cert.ReferenceIdeal.main_cst_67) := by
  rw [Cert.KernelIdeal.Hand.kst_main_cst_61 (F := Ideal) m ρ c]
  exact (Cert.Proof.Parts.rst_main_cst_67 (F := Ideal) m' c).symm
theorem e_v256__v265 (c : Dev Cert.KernelIdeal.nD) : Cert.KernelIdeal.Hand.W29 (F := Ideal) m ρ c (Proc.devRef .tc Cert.KernelIdeal.main_v256) = Cert.Proof.Parts.RW (F := Ideal) m' c (Proc.devRef .tc Cert.ReferenceIdeal.main_v265) := by
  rw [Cert.KernelIdeal.Hand.kst_main_v256 (F := Ideal) m ρ c, e_cst_61__cst_67 m ρ m' hag htot c]
  exact (Cert.Proof.Parts.rst_main_v265 (F := Ideal) m' c).symm
theorem e_v257__v266 (c : Dev Cert.KernelIdeal.nD) : Cert.KernelIdeal.Hand.W29 (F := Ideal) m ρ c (Proc.devRef .tc Cert.KernelIdeal.main_v257) = Cert.Proof.Parts.RW (F := Ideal) m' c (Proc.devRef .tc Cert.ReferenceIdeal.main_v266) := by
  rw [Cert.KernelIdeal.Hand.kst_main_v257 (F := Ideal) m ρ c, e_v255__v264 m ρ m' hag htot c, e_v256__v265 m ρ m' hag htot c]
  exact (Cert.Proof.Parts.rst_main_v266 (F := Ideal) m' c).symm
theorem e_v258__v267 (c : Dev Cert.KernelIdeal.nD) : Cert.KernelIdeal.Hand.W29 (F := Ideal) m ρ c (Proc.devRef .tc Cert.KernelIdeal.main_v258) = Cert.Proof.Parts.RW (F := Ideal) m' c (Proc.devRef .tc Cert.ReferenceIdeal.main_v267) := by
  rw [Cert.KernelIdeal.Hand.kst_main_v258 (F := Ideal) m ρ c, e_v257__v266 m ρ m' hag htot c]
  exact (Cert.Proof.Parts.rst_main_v267 (F := Ideal) m' c).symm
/-- One loss term: `log p - log t` against `log (p / t)`, with `p` an exponential and `t` a sum of exponentials, so both
    are nonnegative and the law applies at every entry. -/
theorem e_v263__v275 (c : Dev Cert.KernelIdeal.nD) : Cert.KernelIdeal.Hand.W29 (F := Ideal) m ρ c (Proc.devRef .tc Cert.KernelIdeal.main_v263) = Cert.Proof.Parts.RW (F := Ideal) m' c (Proc.devRef .tc Cert.ReferenceIdeal.main_v275) := by
  have hp : ∀ i : Cert.ReferenceIdeal.S4096.Idx, (0 : EReal) ≤ (Cert.Proof.Parts.RW (F := Ideal) m' c (Proc.devRef .tc Cert.ReferenceIdeal.main_v267) : Cert.ReferenceIdeal.S4096.Idx → EReal) i := by
    rw [Cert.Proof.Parts.rst_main_v267 (F := Ideal) m' c]; exact Cert.Lib.LogQuotient.hostExp_nonneg _
  have ht : ∀ i : Cert.ReferenceIdeal.S4096.Idx, (0 : EReal) ≤ (Cert.Proof.Parts.RW (F := Ideal) m' c (Proc.devRef .tc Cert.ReferenceIdeal.main_v273) : Cert.ReferenceIdeal.S4096.Idx → EReal) i := by
    rw [Cert.Proof.Parts.rst_main_v273 (F := Ideal) m' c]
    refine Cert.Lib.LogQuotient.hostReduceAdd_nonneg _ _ _ _ (fun i => ?_) ?_
    · rw [Cert.Proof.Parts.rst_main_v272 (F := Ideal) m' c]; exact Cert.Lib.LogQuotient.hostExp_nonneg _ i
    · rw [Cert.Proof.Parts.rst_main_cst_69 (F := Ideal) m' c]
      show (0 : EReal) ≤ Ideal.ofBits .f32 0x00000000#32
      rw [Ideal.ofBits_zero_f32]
  rw [Cert.KernelIdeal.Hand.kst_main_v263 (F := Ideal) m ρ c, Cert.KernelIdeal.Hand.kst_main_v261 (F := Ideal) m ρ c,
    Cert.KernelIdeal.Hand.kst_main_v262 (F := Ideal) m ρ c, e_v258__v267 m ρ m' hag htot c, tot_v260__v273 m ρ m' hag htot c,
    Cert.Proof.Parts.rst_main_v275 (F := Ideal) m' c, Cert.Proof.Parts.rst_main_v274 (F := Ideal) m' c]
  exact (Cert.Lib.LogQuotient.log_quot_vec _ _ hp ht).symm
theorem e_cst_62__cst_70 (c : Dev Cert.KernelIdeal.nD) : Cert.KernelIdeal.Hand.W29 (F := Ideal) m ρ c (Proc.devRef .tc Cert.KernelIdeal.main_cst_62) = Cert.Proof.Parts.RW (F := Ideal) m' c (Proc.devRef .tc Cert.ReferenceIdeal.main_cst_70) := by
  rw [Cert.KernelIdeal.Hand.kst_main_cst_62 (F := Ideal) m ρ c]
  exact (Cert.Proof.Parts.rst_main_cst_70 (F := Ideal) m' c).symm
theorem e_v264__v276 (c : Dev Cert.KernelIdeal.nD) : Cert.KernelIdeal.Hand.W29 (F := Ideal) m ρ c (Proc.devRef .tc Cert.KernelIdeal.main_v264) = Cert.Proof.Parts.RW (F := Ideal) m' c (Proc.devRef .tc Cert.ReferenceIdeal.main_v276) := by
  rw [Cert.KernelIdeal.Hand.kst_main_v264 (F := Ideal) m ρ c, e_v263__v275 m ρ m' hag htot c, e_cst_62__cst_70 m ρ m' hag htot c]
  exact (Cert.Proof.Parts.rst_main_v276 (F := Ideal) m' c).symm
theorem e_v265__v277 (c : Dev Cert.KernelIdeal.nD) : Cert.KernelIdeal.Hand.W29 (F := Ideal) m ρ c (Proc.devRef .tc Cert.KernelIdeal.main_v265) = Cert.Proof.Parts.RW (F := Ideal) m' c (Proc.devRef .tc Cert.ReferenceIdeal.main_v277) := by
  rw [Cert.KernelIdeal.Hand.kst_main_v265 (F := Ideal) m ρ c, e_v264__v276 m ρ m' hag htot c]
  exact (Cert.Proof.Parts.rst_main_v277 (F := Ideal) m' c).symm
theorem e_v266__v278 (c : Dev Cert.KernelIdeal.nD) : Cert.KernelIdeal.Hand.W29 (F := Ideal) m ρ c (Proc.devRef .tc Cert.KernelIdeal.main_v266) = Cert.Proof.Parts.RW (F := Ideal) m' c (Proc.devRef .tc Cert.ReferenceIdeal.main_v278) := by
  rw [Cert.KernelIdeal.Hand.kst_main_v266 (F := Ideal) m ρ c, e_v222__v231 m ρ m' hag htot c, e_v265__v277 m ρ m' hag htot c]
  exact (Cert.Proof.Parts.rst_main_v278 (F := Ideal) m' c).symm
theorem e_v267__v279 (c : Dev Cert.KernelIdeal.nD) : Cert.KernelIdeal.Hand.W29 (F := Ideal) m ρ c (Proc.devRef .tc Cert.KernelIdeal.main_v267) = Cert.Proof.Parts.RW (F := Ideal) m' c (Proc.devRef .tc Cert.ReferenceIdeal.main_v279) := by
  rw [Cert.KernelIdeal.Hand.kst_main_v267 (F := Ideal) m ρ c, e_cst_63__cst_71 m ρ m' hag htot c, e_v266__v278 m ρ m' hag htot c]
  exact (Cert.Proof.Parts.rst_main_v279 (F := Ideal) m' c).symm
theorem e_call2_v0__call2_v0 (c : Dev Cert.KernelIdeal.nD) : Cert.KernelIdeal.Hand.W29 (F := Ideal) m ρ c (Proc.devRef .tc Cert.KernelIdeal.main_call2_v0) = Cert.Proof.Parts.RW (F := Ideal) m' c (Proc.devRef .tc Cert.ReferenceIdeal.main_call2_v0) := by
  rw [Cert.KernelIdeal.Hand.kst_main_call2_v0 (F := Ideal) m ρ c, e_arg0__arg0 m ρ m' hag c]
  exact (Cert.Proof.Parts.rst_main_call2_v0 (F := Ideal) m' c).symm
theorem e_call2_cst__call2_cst (c : Dev Cert.KernelIdeal.nD) : Cert.KernelIdeal.Hand.W29 (F := Ideal) m ρ c (Proc.devRef .tc Cert.KernelIdeal.main_call2_cst) = Cert.Proof.Parts.RW (F := Ideal) m' c (Proc.devRef .tc Cert.ReferenceIdeal.main_call2_cst) := by
  rw [Cert.KernelIdeal.Hand.kst_main_call2_cst (F := Ideal) m ρ c]
  exact (Cert.Proof.Parts.rst_main_call2_cst (F := Ideal) m' c).symm
theorem e_call2_v1__call2_v1 (c : Dev Cert.KernelIdeal.nD) : Cert.KernelIdeal.Hand.W29 (F := Ideal) m ρ c (Proc.devRef .tc Cert.KernelIdeal.main_call2_v1) = Cert.Proof.Parts.RW (F := Ideal) m' c (Proc.devRef .tc Cert.ReferenceIdeal.main_call2_v1) := by
  rw [Cert.KernelIdeal.Hand.kst_main_call2_v1 (F := Ideal) m ρ c, e_call2_v0__call2_v0 m ρ m' hag htot c, e_call2_cst__call2_cst m ρ m' hag htot c]
  exact (Cert.Proof.Parts.rst_main_call2_v1 (F := Ideal) m' c).symm
theorem e_call2_v2__call2_v2 (c : Dev Cert.KernelIdeal.nD) : Cert.KernelIdeal.Hand.W29 (F := Ideal) m ρ c (Proc.devRef .tc Cert.KernelIdeal.main_call2_v2) = Cert.Proof.Parts.RW (F := Ideal) m' c (Proc.devRef .tc Cert.ReferenceIdeal.main_call2_v2) := by
  rw [Cert.KernelIdeal.Hand.kst_main_call2_v2 (F := Ideal) m ρ c, e_call2_v1__call2_v1 m ρ m' hag htot c]
  exact (Cert.Proof.Parts.rst_main_call2_v2 (F := Ideal) m' c).symm
theorem e_v133__v133 (c : Dev Cert.KernelIdeal.nD) : Cert.KernelIdeal.Hand.W29 (F := Ideal) m ρ c (Proc.devRef .tc Cert.KernelIdeal.main_v133) = Cert.Proof.Parts.RW (F := Ideal) m' c (Proc.devRef .tc Cert.ReferenceIdeal.main_v133) := by
  rw [Cert.KernelIdeal.Hand.kst_main_v133 (F := Ideal) m ρ c, e_call2_v2__call2_v2 m ρ m' hag htot c]
  exact (Cert.Proof.Parts.rst_main_v133 (F := Ideal) m' c).symm
theorem e_cst_29__cst_29 (c : Dev Cert.KernelIdeal.nD) : Cert.KernelIdeal.Hand.W29 (F := Ideal) m ρ c (Proc.devRef .tc Cert.KernelIdeal.main_cst_29) = Cert.Proof.Parts.RW (F := Ideal) m' c (Proc.devRef .tc Cert.ReferenceIdeal.main_cst_29) := by
  rw [Cert.KernelIdeal.Hand.kst_main_cst_29 (F := Ideal) m ρ c]
  exact (Cert.Proof.Parts.rst_main_cst_29 (F := Ideal) m' c).symm
theorem e_v134__v134 (c : Dev Cert.KernelIdeal.nD) : Cert.KernelIdeal.Hand.W29 (F := Ideal) m ρ c (Proc.devRef .tc Cert.KernelIdeal.main_v134) = Cert.Proof.Parts.RW (F := Ideal) m' c (Proc.devRef .tc Cert.ReferenceIdeal.main_v134) := by
  rw [Cert.KernelIdeal.Hand.kst_main_v134 (F := Ideal) m ρ c, e_cst_29__cst_29 m ρ m' hag htot c]
  exact (Cert.Proof.Parts.rst_main_v134 (F := Ideal) m' c).symm
theorem e_v135__v135 (c : Dev Cert.KernelIdeal.nD) : Cert.KernelIdeal.Hand.W29 (F := Ideal) m ρ c (Proc.devRef .tc Cert.KernelIdeal.main_v135) = Cert.Proof.Parts.RW (F := Ideal) m' c (Proc.devRef .tc Cert.ReferenceIdeal.main_v135) := by
  rw [Cert.KernelIdeal.Hand.kst_main_v135 (F := Ideal) m ρ c, e_v133__v133 m ρ m' hag htot c, e_v134__v134 m ρ m' hag htot c]
  exact (Cert.Proof.Parts.rst_main_v135 (F := Ideal) m' c).symm
theorem e_v136__v136 (c : Dev Cert.KernelIdeal.nD) : Cert.KernelIdeal.Hand.W29 (F := Ideal) m ρ c (Proc.devRef .tc Cert.KernelIdeal.main_v136) = Cert.Proof.Parts.RW (F := Ideal) m' c (Proc.devRef .tc Cert.ReferenceIdeal.main_v136) := by
  rw [Cert.KernelIdeal.Hand.kst_main_v136 (F := Ideal) m ρ c, e_v135__v135 m ρ m' hag htot c]
  exact (Cert.Proof.Parts.rst_main_v136 (F := Ideal) m' c).symm
theorem e_v137__v137 (c : Dev Cert.KernelIdeal.nD) : Cert.KernelIdeal.Hand.W29 (F := Ideal) m ρ c (Proc.devRef .tc Cert.KernelIdeal.main_v137) = Cert.Proof.Parts.RW (F := Ideal) m' c (Proc.devRef .tc Cert.ReferenceIdeal.main_v137) := by
  rw [Cert.KernelIdeal.Hand.kst_main_v137 (F := Ideal) m ρ c, e_arg0__arg0 m ρ m' hag c, e_v136__v136 m ρ m' hag htot c]
  exact (Cert.Proof.Parts.rst_main_v137 (F := Ideal) m' c).symm
theorem e_call5_v0__call5_v0 (c : Dev Cert.KernelIdeal.nD) : Cert.KernelIdeal.Hand.W29 (F := Ideal) m ρ c (Proc.devRef .tc Cert.KernelIdeal.main_call5_v0) = Cert.Proof.Parts.RW (F := Ideal) m' c (Proc.devRef .tc Cert.ReferenceIdeal.main_call5_v0) := by
  rw [Cert.KernelIdeal.Hand.kst_main_call5_v0 (F := Ideal) m ρ c, e_arg1__arg1 m ρ m' hag c]
  exact (Cert.Proof.Parts.rst_main_call5_v0 (F := Ideal) m' c).symm
theorem e_call5_cst__call5_cst (c : Dev Cert.KernelIdeal.nD) : Cert.KernelIdeal.Hand.W29 (F := Ideal) m ρ c (Proc.devRef .tc Cert.KernelIdeal.main_call5_cst) = Cert.Proof.Parts.RW (F := Ideal) m' c (Proc.devRef .tc Cert.ReferenceIdeal.main_call5_cst) := by
  rw [Cert.KernelIdeal.Hand.kst_main_call5_cst (F := Ideal) m ρ c]
  exact (Cert.Proof.Parts.rst_main_call5_cst (F := Ideal) m' c).symm
theorem e_call5_v1__call5_v1 (c : Dev Cert.KernelIdeal.nD) : Cert.KernelIdeal.Hand.W29 (F := Ideal) m ρ c (Proc.devRef .tc Cert.KernelIdeal.main_call5_v1) = Cert.Proof.Parts.RW (F := Ideal) m' c (Proc.devRef .tc Cert.ReferenceIdeal.main_call5_v1) := by
  rw [Cert.KernelIdeal.Hand.kst_main_call5_v1 (F := Ideal) m ρ c, e_call5_v0__call5_v0 m ρ m' hag htot c, e_call5_cst__call5_cst m ρ m' hag htot c]
  exact (Cert.Proof.Parts.rst_main_call5_v1 (F := Ideal) m' c).symm
theorem e_call5_v2__call5_v2 (c : Dev Cert.KernelIdeal.nD) : Cert.KernelIdeal.Hand.W29 (F := Ideal) m ρ c (Proc.devRef .tc Cert.KernelIdeal.main_call5_v2) = Cert.Proof.Parts.RW (F := Ideal) m' c (Proc.devRef .tc Cert.ReferenceIdeal.main_call5_v2) := by
  rw [Cert.KernelIdeal.Hand.kst_main_call5_v2 (F := Ideal) m ρ c, e_call5_v1__call5_v1 m ρ m' hag htot c]
  exact (Cert.Proof.Parts.rst_main_call5_v2 (F := Ideal) m' c).symm
theorem e_v160__v163 (c : Dev Cert.KernelIdeal.nD) : Cert.KernelIdeal.Hand.W29 (F := Ideal) m ρ c (Proc.devRef .tc Cert.KernelIdeal.main_v160) = Cert.Proof.Parts.RW (F := Ideal) m' c (Proc.devRef .tc Cert.ReferenceIdeal.main_v163) := by
  rw [Cert.KernelIdeal.Hand.kst_main_v160 (F := Ideal) m ρ c, e_call5_v2__call5_v2 m ρ m' hag htot c]
  exact (Cert.Proof.Parts.rst_main_v163 (F := Ideal) m' c).symm
theorem e_cst_35__cst_37 (c : Dev Cert.KernelIdeal.nD) : Cert.KernelIdeal.Hand.W29 (F := Ideal) m ρ c (Proc.devRef .tc Cert.KernelIdeal.main_cst_35) = Cert.Proof.Parts.RW (F := Ideal) m' c (Proc.devRef .tc Cert.ReferenceIdeal.main_cst_37) := by
  rw [Cert.KernelIdeal.Hand.kst_main_cst_35 (F := Ideal) m ρ c]
  exact (Cert.Proof.Parts.rst_main_cst_37 (F := Ideal) m' c).symm
theorem e_v161__v164 (c : Dev Cert.KernelIdeal.nD) : Cert.KernelIdeal.Hand.W29 (F := Ideal) m ρ c (Proc.devRef .tc Cert.KernelIdeal.main_v161) = Cert.Proof.Parts.RW (F := Ideal) m' c (Proc.devRef .tc Cert.ReferenceIdeal.main_v164) := by
  rw [Cert.KernelIdeal.Hand.kst_main_v161 (F := Ideal) m ρ c, e_cst_35__cst_37 m ρ m' hag htot c]
  exact (Cert.Proof.Parts.rst_main_v164 (F := Ideal) m' c).symm
theorem e_v162__v165 (c : Dev Cert.KernelIdeal.nD) : Cert.KernelIdeal.Hand.W29 (F := Ideal) m ρ c (Proc.devRef .tc Cert.KernelIdeal.main_v162) = Cert.Proof.Parts.RW (F := Ideal) m' c (Proc.devRef .tc Cert.ReferenceIdeal.main_v165) := by
  rw [Cert.KernelIdeal.Hand.kst_main_v162 (F := Ideal) m ρ c, e_v160__v163 m ρ m' hag htot c, e_v161__v164 m ρ m' hag htot c]
  exact (Cert.Proof.Parts.rst_main_v165 (F := Ideal) m' c).symm
theorem e_v163__v166 (c : Dev Cert.KernelIdeal.nD) : Cert.KernelIdeal.Hand.W29 (F := Ideal) m ρ c (Proc.devRef .tc Cert.KernelIdeal.main_v163) = Cert.Proof.Parts.RW (F := Ideal) m' c (Proc.devRef .tc Cert.ReferenceIdeal.main_v166) := by
  rw [Cert.KernelIdeal.Hand.kst_main_v163 (F := Ideal) m ρ c, e_v162__v165 m ρ m' hag htot c]
  exact (Cert.Proof.Parts.rst_main_v166 (F := Ideal) m' c).symm
theorem e_v164__v167 (c : Dev Cert.KernelIdeal.nD) : Cert.KernelIdeal.Hand.W29 (F := Ideal) m ρ c (Proc.devRef .tc Cert.KernelIdeal.main_v164) = Cert.Proof.Parts.RW (F := Ideal) m' c (Proc.devRef .tc Cert.ReferenceIdeal.main_v167) := by
  rw [Cert.KernelIdeal.Hand.kst_main_v164 (F := Ideal) m ρ c, e_arg1__arg1 m ρ m' hag c, e_v163__v166 m ρ m' hag htot c]
  exact (Cert.Proof.Parts.rst_main_v167 (F := Ideal) m' c).symm
theorem e_c_41__c (c : Dev Cert.KernelIdeal.nD) : Cert.KernelIdeal.Hand.W29 (F := Ideal) m ρ c (Proc.devRef .tc Cert.KernelIdeal.main_c_41) = Cert.Proof.Parts.RW (F := Ideal) m' c (Proc.devRef .tc Cert.ReferenceIdeal.main_c) := by
  rw [Cert.KernelIdeal.Hand.kst_main_c_41 (F := Ideal) m ρ c]
  exact (Cert.Proof.Parts.rst_main_c (F := Ideal) m' c).symm
theorem e_v180__v19 (c : Dev Cert.KernelIdeal.nD) : Cert.KernelIdeal.Hand.W29 (F := Ideal) m ρ c (Proc.devRef .tc Cert.KernelIdeal.main_v180) = Cert.Proof.Parts.RW (F := Ideal) m' c (Proc.devRef .tc Cert.ReferenceIdeal.main_v19) := by
  rw [Cert.KernelIdeal.Hand.kst_main_v180 (F := Ideal) m ρ c, e_c_41__c m ρ m' hag htot c]
  exact (Cert.Proof.Parts.rst_main_v19 (F := Ideal) m' c).symm
theorem e_v181__v20 (c : Dev Cert.KernelIdeal.nD) : Cert.KernelIdeal.Hand.W29 (F := Ideal) m ρ c (Proc.devRef .tc Cert.KernelIdeal.main_v181) = Cert.Proof.Parts.RW (F := Ideal) m' c (Proc.devRef .tc Cert.ReferenceIdeal.main_v20) := by
  rw [Cert.KernelIdeal.Hand.kst_main_v181 (F := Ideal) m ρ c, e_arg10__arg10 m ρ m' hag c, e_v180__v19 m ρ m' hag htot c]
  exact (Cert.Proof.Parts.rst_main_v20 (F := Ideal) m' c).symm
theorem e_c_42__c_6 (c : Dev Cert.KernelIdeal.nD) : Cert.KernelIdeal.Hand.W29 (F := Ideal) m ρ c (Proc.devRef .tc Cert.KernelIdeal.main_c_42) = Cert.Proof.Parts.RW (F := Ideal) m' c (Proc.devRef .tc Cert.ReferenceIdeal.main_c_6) := by
  rw [Cert.KernelIdeal.Hand.kst_main_c_42 (F := Ideal) m ρ c]
  exact (Cert.Proof.Parts.rst_main_c_6 (F := Ideal) m' c).symm
theorem e_v182__v21 (c : Dev Cert.KernelIdeal.nD) : Cert.KernelIdeal.Hand.W29 (F := Ideal) m ρ c (Proc.devRef .tc Cert.KernelIdeal.main_v182) = Cert.Proof.Parts.RW (F := Ideal) m' c (Proc.devRef .tc Cert.ReferenceIdeal.main_v21) := by
  rw [Cert.KernelIdeal.Hand.kst_main_v182 (F := Ideal) m ρ c, e_c_42__c_6 m ρ m' hag htot c]
  exact (Cert.Proof.Parts.rst_main_v21 (F := Ideal) m' c).symm
theorem e_v183__v22 (c : Dev Cert.KernelIdeal.nD) : Cert.KernelIdeal.Hand.W29 (F := Ideal) m ρ c (Proc.devRef .tc Cert.KernelIdeal.main_v183) = Cert.Proof.Parts.RW (F := Ideal) m' c (Proc.devRef .tc Cert.ReferenceIdeal.main_v22) := by
  rw [Cert.KernelIdeal.Hand.kst_main_v183 (F := Ideal) m ρ c, e_arg10__arg10 m ρ m' hag c, e_v182__v21 m ρ m' hag htot c]
  exact (Cert.Proof.Parts.rst_main_v22 (F := Ideal) m' c).symm
theorem e_v184__v23 (c : Dev Cert.KernelIdeal.nD) : Cert.KernelIdeal.Hand.W29 (F := Ideal) m ρ c (Proc.devRef .tc Cert.KernelIdeal.main_v184) = Cert.Proof.Parts.RW (F := Ideal) m' c (Proc.devRef .tc Cert.ReferenceIdeal.main_v23) := by
  rw [Cert.KernelIdeal.Hand.kst_main_v184 (F := Ideal) m ρ c, e_v181__v20 m ρ m' hag htot c, e_v183__v22 m ρ m' hag htot c, e_arg10__arg10 m ρ m' hag c]
  exact (Cert.Proof.Parts.rst_main_v23 (F := Ideal) m' c).symm
theorem e_v185__v24 (c : Dev Cert.KernelIdeal.nD) : Cert.KernelIdeal.Hand.W29 (F := Ideal) m ρ c (Proc.devRef .tc Cert.KernelIdeal.main_v185) = Cert.Proof.Parts.RW (F := Ideal) m' c (Proc.devRef .tc Cert.ReferenceIdeal.main_v24) := by
  rw [Cert.KernelIdeal.Hand.kst_main_v185 (F := Ideal) m ρ c, e_v184__v23 m ρ m' hag htot c]
  exact (Cert.Proof.Parts.rst_main_v24 (F := Ideal) m' c).symm
theorem e_v186__v25 (c : Dev Cert.KernelIdeal.nD) : Cert.KernelIdeal.Hand.W29 (F := Ideal) m ρ c (Proc.devRef .tc Cert.KernelIdeal.main_v186) = Cert.Proof.Parts.RW (F := Ideal) m' c (Proc.devRef .tc Cert.ReferenceIdeal.main_v25) := by
  rw [Cert.KernelIdeal.Hand.kst_main_v186 (F := Ideal) m ρ c, e_arg0__arg0 m ρ m' hag c, e_v185__v24 m ρ m' hag htot c]
  exact (Cert.Proof.Parts.rst_main_v25 (F := Ideal) m' c).symm
theorem e_call6_v0__call1_v0 (c : Dev Cert.KernelIdeal.nD) : Cert.KernelIdeal.Hand.W29 (F := Ideal) m ρ c (Proc.devRef .tc Cert.KernelIdeal.main_call6_v0) = Cert.Proof.Parts.RW (F := Ideal) m' c (Proc.devRef .tc Cert.ReferenceIdeal.main_call1_v0) := by
  rw [Cert.KernelIdeal.Hand.kst_main_call6_v0 (F := Ideal) m ρ c, e_v186__v25 m ρ m' hag htot c]
  exact (Cert.Proof.Parts.rst_main_call1_v0 (F := Ideal) m' c).symm
theorem e_call6_cst__call1_cst (c : Dev Cert.KernelIdeal.nD) : Cert.KernelIdeal.Hand.W29 (F := Ideal) m ρ c (Proc.devRef .tc Cert.KernelIdeal.main_call6_cst) = Cert.Proof.Parts.RW (F := Ideal) m' c (Proc.devRef .tc Cert.ReferenceIdeal.main_call1_cst) := by
  rw [Cert.KernelIdeal.Hand.kst_main_call6_cst (F := Ideal) m ρ c]
  exact (Cert.Proof.Parts.rst_main_call1_cst (F := Ideal) m' c).symm
theorem e_call6_v1__call1_v1 (c : Dev Cert.KernelIdeal.nD) : Cert.KernelIdeal.Hand.W29 (F := Ideal) m ρ c (Proc.devRef .tc Cert.KernelIdeal.main_call6_v1) = Cert.Proof.Parts.RW (F := Ideal) m' c (Proc.devRef .tc Cert.ReferenceIdeal.main_call1_v1) := by
  rw [Cert.KernelIdeal.Hand.kst_main_call6_v1 (F := Ideal) m ρ c, e_call6_v0__call1_v0 m ρ m' hag htot c, e_call6_cst__call1_cst m ρ m' hag htot c]
  exact (Cert.Proof.Parts.rst_main_call1_v1 (F := Ideal) m' c).symm
theorem e_call6_v2__call1_v2 (c : Dev Cert.KernelIdeal.nD) : Cert.KernelIdeal.Hand.W29 (F := Ideal) m ρ c (Proc.devRef .tc Cert.KernelIdeal.main_call6_v2) = Cert.Proof.Parts.RW (F := Ideal) m' c (Proc.devRef .tc Cert.ReferenceIdeal.main_call1_v2) := by
  rw [Cert.KernelIdeal.Hand.kst_main_call6_v2 (F := Ideal) m ρ c, e_call6_v1__call1_v1 m ρ m' hag htot c]
  exact (Cert.Proof.Parts.rst_main_call1_v2 (F := Ideal) m' c).symm
theorem e_v187__v128 (c : Dev Cert.KernelIdeal.nD) : Cert.KernelIdeal.Hand.W29 (F := Ideal) m ρ c (Proc.devRef .tc Cert.KernelIdeal.main_v187) = Cert.Proof.Parts.RW (F := Ideal) m' c (Proc.devRef .tc Cert.ReferenceIdeal.main_v128) := by
  rw [Cert.KernelIdeal.Hand.kst_main_v187 (F := Ideal) m ρ c, e_call6_v2__call1_v2 m ρ m' hag htot c]
  exact (Cert.Proof.Parts.rst_main_v128 (F := Ideal) m' c).symm
theorem e_cst_43__cst_28 (c : Dev Cert.KernelIdeal.nD) : Cert.KernelIdeal.Hand.W29 (F := Ideal) m ρ c (Proc.devRef .tc Cert.KernelIdeal.main_cst_43) = Cert.Proof.Parts.RW (F := Ideal) m' c (Proc.devRef .tc Cert.ReferenceIdeal.main_cst_28) := by
  rw [Cert.KernelIdeal.Hand.kst_main_cst_43 (F := Ideal) m ρ c]
  exact (Cert.Proof.Parts.rst_main_cst_28 (F := Ideal) m' c).symm
theorem e_v188__v129 (c : Dev Cert.KernelIdeal.nD) : Cert.KernelIdeal.Hand.W29 (F := Ideal) m ρ c (Proc.devRef .tc Cert.KernelIdeal.main_v188) = Cert.Proof.Parts.RW (F := Ideal) m' c (Proc.devRef .tc Cert.ReferenceIdeal.main_v129) := by
  rw [Cert.KernelIdeal.Hand.kst_main_v188 (F := Ideal) m ρ c, e_cst_43__cst_28 m ρ m' hag htot c]
  exact (Cert.Proof.Parts.rst_main_v129 (F := Ideal) m' c).symm
theorem e_v189__v130 (c : Dev Cert.KernelIdeal.nD) : Cert.KernelIdeal.Hand.W29 (F := Ideal) m ρ c (Proc.devRef .tc Cert.KernelIdeal.main_v189) = Cert.Proof.Parts.RW (F := Ideal) m' c (Proc.devRef .tc Cert.ReferenceIdeal.main_v130) := by
  rw [Cert.KernelIdeal.Hand.kst_main_v189 (F := Ideal) m ρ c, e_v187__v128 m ρ m' hag htot c, e_v188__v129 m ρ m' hag htot c]
  exact (Cert.Proof.Parts.rst_main_v130 (F := Ideal) m' c).symm
theorem e_v190__v131 (c : Dev Cert.KernelIdeal.nD) : Cert.KernelIdeal.Hand.W29 (F := Ideal) m ρ c (Proc.devRef .tc Cert.KernelIdeal.main_v190) = Cert.Proof.Parts.RW (F := Ideal) m' c (Proc.devRef .tc Cert.ReferenceIdeal.main_v131) := by
  rw [Cert.KernelIdeal.Hand.kst_main_v190 (F := Ideal) m ρ c, e_v189__v130 m ρ m' hag htot c]
  exact (Cert.Proof.Parts.rst_main_v131 (F := Ideal) m' c).symm
theorem e_v191__v132 (c : Dev Cert.KernelIdeal.nD) : Cert.KernelIdeal.Hand.W29 (F := Ideal) m ρ c (Proc.devRef .tc Cert.KernelIdeal.main_v191) = Cert.Proof.Parts.RW (F := Ideal) m' c (Proc.devRef .tc Cert.ReferenceIdeal.main_v132) := by
  rw [Cert.KernelIdeal.Hand.kst_main_v191 (F := Ideal) m ρ c, e_v186__v25 m ρ m' hag htot c, e_v190__v131 m ρ m' hag htot c]
  exact (Cert.Proof.Parts.rst_main_v132 (F := Ideal) m' c).symm
theorem e_c_52__c_7 (c : Dev Cert.KernelIdeal.nD) : Cert.KernelIdeal.Hand.W29 (F := Ideal) m ρ c (Proc.devRef .tc Cert.KernelIdeal.main_c_52) = Cert.Proof.Parts.RW (F := Ideal) m' c (Proc.devRef .tc Cert.ReferenceIdeal.main_c_7) := by
  rw [Cert.KernelIdeal.Hand.kst_main_c_52 (F := Ideal) m ρ c]
  exact (Cert.Proof.Parts.rst_main_c_7 (F := Ideal) m' c).symm
theorem e_v223__v26 (c : Dev Cert.KernelIdeal.nD) : Cert.KernelIdeal.Hand.W29 (F := Ideal) m ρ c (Proc.devRef .tc Cert.KernelIdeal.main_v223) = Cert.Proof.Parts.RW (F := Ideal) m' c (Proc.devRef .tc Cert.ReferenceIdeal.main_v26) := by
  rw [Cert.KernelIdeal.Hand.kst_main_v223 (F := Ideal) m ρ c, e_c_52__c_7 m ρ m' hag htot c]
  exact (Cert.Proof.Parts.rst_main_v26 (F := Ideal) m' c).symm
theorem e_v224__v27 (c : Dev Cert.KernelIdeal.nD) : Cert.KernelIdeal.Hand.W29 (F := Ideal) m ρ c (Proc.devRef .tc Cert.KernelIdeal.main_v224) = Cert.Proof.Parts.RW (F := Ideal) m' c (Proc.devRef .tc Cert.ReferenceIdeal.main_v27) := by
  rw [Cert.KernelIdeal.Hand.kst_main_v224 (F := Ideal) m ρ c, e_arg11__arg11 m ρ m' hag c, e_v223__v26 m ρ m' hag htot c]
  exact (Cert.Proof.Parts.rst_main_v27 (F := Ideal) m' c).symm
theorem e_c_53__c_8 (c : Dev Cert.KernelIdeal.nD) : Cert.KernelIdeal.Hand.W29 (F := Ideal) m ρ c (Proc.devRef .tc Cert.KernelIdeal.main_c_53) = Cert.Proof.Parts.RW (F := Ideal) m' c (Proc.devRef .tc Cert.ReferenceIdeal.main_c_8) := by
  rw [Cert.KernelIdeal.Hand.kst_main_c_53 (F := Ideal) m ρ c]
  exact (Cert.Proof.Parts.rst_main_c_8 (F := Ideal) m' c).symm
theorem e_v225__v28 (c : Dev Cert.KernelIdeal.nD) : Cert.KernelIdeal.Hand.W29 (F := Ideal) m ρ c (Proc.devRef .tc Cert.KernelIdeal.main_v225) = Cert.Proof.Parts.RW (F := Ideal) m' c (Proc.devRef .tc Cert.ReferenceIdeal.main_v28) := by
  rw [Cert.KernelIdeal.Hand.kst_main_v225 (F := Ideal) m ρ c, e_c_53__c_8 m ρ m' hag htot c]
  exact (Cert.Proof.Parts.rst_main_v28 (F := Ideal) m' c).symm
theorem e_v226__v29 (c : Dev Cert.KernelIdeal.nD) : Cert.KernelIdeal.Hand.W29 (F := Ideal) m ρ c (Proc.devRef .tc Cert.KernelIdeal.main_v226) = Cert.Proof.Parts.RW (F := Ideal) m' c (Proc.devRef .tc Cert.ReferenceIdeal.main_v29) := by
  rw [Cert.KernelIdeal.Hand.kst_main_v226 (F := Ideal) m ρ c, e_arg11__arg11 m ρ m' hag c, e_v225__v28 m ρ m' hag htot c]
  exact (Cert.Proof.Parts.rst_main_v29 (F := Ideal) m' c).symm
theorem e_v227__v30 (c : Dev Cert.KernelIdeal.nD) : Cert.KernelIdeal.Hand.W29 (F := Ideal) m ρ c (Proc.devRef .tc Cert.KernelIdeal.main_v227) = Cert.Proof.Parts.RW (F := Ideal) m' c (Proc.devRef .tc Cert.ReferenceIdeal.main_v30) := by
  rw [Cert.KernelIdeal.Hand.kst_main_v227 (F := Ideal) m ρ c, e_v224__v27 m ρ m' hag htot c, e_v226__v29 m ρ m' hag htot c, e_arg11__arg11 m ρ m' hag c]
  exact (Cert.Proof.Parts.rst_main_v30 (F := Ideal) m' c).symm
theorem e_v228__v31 (c : Dev Cert.KernelIdeal.nD) : Cert.KernelIdeal.Hand.W29 (F := Ideal) m ρ c (Proc.devRef .tc Cert.KernelIdeal.main_v228) = Cert.Proof.Parts.RW (F := Ideal) m' c (Proc.devRef .tc Cert.ReferenceIdeal.main_v31) := by
  rw [Cert.KernelIdeal.Hand.kst_main_v228 (F := Ideal) m ρ c, e_v227__v30 m ρ m' hag htot c]
  exact (Cert.Proof.Parts.rst_main_v31 (F := Ideal) m' c).symm
theorem e_v229__v32 (c : Dev Cert.KernelIdeal.nD) : Cert.KernelIdeal.Hand.W29 (F := Ideal) m ρ c (Proc.devRef .tc Cert.KernelIdeal.main_v229) = Cert.Proof.Parts.RW (F := Ideal) m' c (Proc.devRef .tc Cert.ReferenceIdeal.main_v32) := by
  rw [Cert.KernelIdeal.Hand.kst_main_v229 (F := Ideal) m ρ c, e_arg1__arg1 m ρ m' hag c, e_v228__v31 m ρ m' hag htot c]
  exact (Cert.Proof.Parts.rst_main_v32 (F := Ideal) m' c).symm
theorem e_call8_v0__call4_v0 (c : Dev Cert.KernelIdeal.nD) : Cert.KernelIdeal.Hand.W29 (F := Ideal) m ρ c (Proc.devRef .tc Cert.KernelIdeal.main_call8_v0) = Cert.Proof.Parts.RW (F := Ideal) m' c (Proc.devRef .tc Cert.ReferenceIdeal.main_call4_v0) := by
  rw [Cert.KernelIdeal.Hand.kst_main_call8_v0 (F := Ideal) m ρ c, e_v229__v32 m ρ m' hag htot c]
  exact (Cert.Proof.Parts.rst_main_call4_v0 (F := Ideal) m' c).symm
theorem e_call8_cst__call4_cst (c : Dev Cert.KernelIdeal.nD) : Cert.KernelIdeal.Hand.W29 (F := Ideal) m ρ c (Proc.devRef .tc Cert.KernelIdeal.main_call8_cst) = Cert.Proof.Parts.RW (F := Ideal) m' c (Proc.devRef .tc Cert.ReferenceIdeal.main_call4_cst) := by
  rw [Cert.KernelIdeal.Hand.kst_main_call8_cst (F := Ideal) m ρ c]
  exact (Cert.Proof.Parts.rst_main_call4_cst (F := Ideal) m' c).symm
theorem e_call8_v1__call4_v1 (c : Dev Cert.KernelIdeal.nD) : Cert.KernelIdeal.Hand.W29 (F := Ideal) m ρ c (Proc.devRef .tc Cert.KernelIdeal.main_call8_v1) = Cert.Proof.Parts.RW (F := Ideal) m' c (Proc.devRef .tc Cert.ReferenceIdeal.main_call4_v1) := by
  rw [Cert.KernelIdeal.Hand.kst_main_call8_v1 (F := Ideal) m ρ c, e_call8_v0__call4_v0 m ρ m' hag htot c, e_call8_cst__call4_cst m ρ m' hag htot c]
  exact (Cert.Proof.Parts.rst_main_call4_v1 (F := Ideal) m' c).symm
theorem e_call8_v2__call4_v2 (c : Dev Cert.KernelIdeal.nD) : Cert.KernelIdeal.Hand.W29 (F := Ideal) m ρ c (Proc.devRef .tc Cert.KernelIdeal.main_call8_v2) = Cert.Proof.Parts.RW (F := Ideal) m' c (Proc.devRef .tc Cert.ReferenceIdeal.main_call4_v2) := by
  rw [Cert.KernelIdeal.Hand.kst_main_call8_v2 (F := Ideal) m ρ c, e_call8_v1__call4_v1 m ρ m' hag htot c]
  exact (Cert.Proof.Parts.rst_main_call4_v2 (F := Ideal) m' c).symm
theorem e_v230__v158 (c : Dev Cert.KernelIdeal.nD) : Cert.KernelIdeal.Hand.W29 (F := Ideal) m ρ c (Proc.devRef .tc Cert.KernelIdeal.main_v230) = Cert.Proof.Parts.RW (F := Ideal) m' c (Proc.devRef .tc Cert.ReferenceIdeal.main_v158) := by
  rw [Cert.KernelIdeal.Hand.kst_main_v230 (F := Ideal) m ρ c, e_call8_v2__call4_v2 m ρ m' hag htot c]
  exact (Cert.Proof.Parts.rst_main_v158 (F := Ideal) m' c).symm
theorem e_cst_54__cst_36 (c : Dev Cert.KernelIdeal.nD) : Cert.KernelIdeal.Hand.W29 (F := Ideal) m ρ c (Proc.devRef .tc Cert.KernelIdeal.main_cst_54) = Cert.Proof.Parts.RW (F := Ideal) m' c (Proc.devRef .tc Cert.ReferenceIdeal.main_cst_36) := by
  rw [Cert.KernelIdeal.Hand.kst_main_cst_54 (F := Ideal) m ρ c]
  exact (Cert.Proof.Parts.rst_main_cst_36 (F := Ideal) m' c).symm
theorem e_v231__v159 (c : Dev Cert.KernelIdeal.nD) : Cert.KernelIdeal.Hand.W29 (F := Ideal) m ρ c (Proc.devRef .tc Cert.KernelIdeal.main_v231) = Cert.Proof.Parts.RW (F := Ideal) m' c (Proc.devRef .tc Cert.ReferenceIdeal.main_v159) := by
  rw [Cert.KernelIdeal.Hand.kst_main_v231 (F := Ideal) m ρ c, e_cst_54__cst_36 m ρ m' hag htot c]
  exact (Cert.Proof.Parts.rst_main_v159 (F := Ideal) m' c).symm
theorem e_v232__v160 (c : Dev Cert.KernelIdeal.nD) : Cert.KernelIdeal.Hand.W29 (F := Ideal) m ρ c (Proc.devRef .tc Cert.KernelIdeal.main_v232) = Cert.Proof.Parts.RW (F := Ideal) m' c (Proc.devRef .tc Cert.ReferenceIdeal.main_v160) := by
  rw [Cert.KernelIdeal.Hand.kst_main_v232 (F := Ideal) m ρ c, e_v230__v158 m ρ m' hag htot c, e_v231__v159 m ρ m' hag htot c]
  exact (Cert.Proof.Parts.rst_main_v160 (F := Ideal) m' c).symm
theorem e_v233__v161 (c : Dev Cert.KernelIdeal.nD) : Cert.KernelIdeal.Hand.W29 (F := Ideal) m ρ c (Proc.devRef .tc Cert.KernelIdeal.main_v233) = Cert.Proof.Parts.RW (F := Ideal) m' c (Proc.devRef .tc Cert.ReferenceIdeal.main_v161) := by
  rw [Cert.KernelIdeal.Hand.kst_main_v233 (F := Ideal) m ρ c, e_v232__v160 m ρ m' hag htot c]
  exact (Cert.Proof.Parts.rst_main_v161 (F := Ideal) m' c).symm
theorem e_v234__v162 (c : Dev Cert.KernelIdeal.nD) : Cert.KernelIdeal.Hand.W29 (F := Ideal) m ρ c (Proc.devRef .tc Cert.KernelIdeal.main_v234) = Cert.Proof.Parts.RW (F := Ideal) m' c (Proc.devRef .tc Cert.ReferenceIdeal.main_v162) := by
  rw [Cert.KernelIdeal.Hand.kst_main_v234 (F := Ideal) m ρ c, e_v229__v32 m ρ m' hag htot c, e_v233__v161 m ρ m' hag htot c]
  exact (Cert.Proof.Parts.rst_main_v162 (F := Ideal) m' c).symm
end Cert.Proof.Match

end
-- ==== Proof.MatchIn.lean ====
/-
  The two programs buffer by buffer.  Launched from memories that agree on the fourteen arguments, the idealized
  kernel program and the reference compute, in their host operations, the same values: a kernel-side buffer and the
  reference buffer it is paired with below are results of the same operation applied to operands already paired, so
  they hold equal contents at the end of the two runs.  The pairs are followed from the arguments upward.  Where the
  programs differ — the four sums of exponentials, which the kernel program takes from its pipelines' output arrays —
  the pairing is a separate statement (`tot_…`), and from there on the kernel's `log p - log t` meets the reference's
  `log (p / t)` by the law for nonnegative extended reals.
-/
import proofs.«110517_j15659450761722_1_alg».proof.Proof.MatchA

set_option maxRecDepth 16384

noncomputable section

open Idealize.ShloMosaic Idealize.ShloMosaic.TcCoe Idealize.SL.Sem Idealize.ShloMosaic.StableHlo

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag
theorem i_call0_v0__call0_v0 (c : Dev Cert.KernelIdeal.nD) : Cert.KernelIdeal.Hand.W29 (F := Ideal) m ρ c (Proc.devRef .tc Cert.KernelIdeal.main_call0_v0) = Cert.Proof.Parts.RW (F := Ideal) m' c (Proc.devRef .tc Cert.ReferenceIdeal.main_call0_v0) := by
  rw [Cert.KernelIdeal.Hand.kst_main_call0_v0 (F := Ideal) m ρ c, e_v120__v120 m ρ m' hag c]
  exact (Cert.Proof.Parts.rst_main_call0_v0 (F := Ideal) m' c).symm
theorem i_call0_cst__call0_cst (c : Dev Cert.KernelIdeal.nD) : Cert.KernelIdeal.Hand.W29 (F := Ideal) m ρ c (Proc.devRef .tc Cert.KernelIdeal.main_call0_cst) = Cert.Proof.Parts.RW (F := Ideal) m' c (Proc.devRef .tc Cert.ReferenceIdeal.main_call0_cst) := by
  rw [Cert.KernelIdeal.Hand.kst_main_call0_cst (F := Ideal) m ρ c]
  exact (Cert.Proof.Parts.rst_main_call0_cst (F := Ideal) m' c).symm
theorem i_call0_v1__call0_v1 (c : Dev Cert.KernelIdeal.nD) : Cert.KernelIdeal.Hand.W29 (F := Ideal) m ρ c (Proc.devRef .tc Cert.KernelIdeal.main_call0_v1) = Cert.Proof.Parts.RW (F := Ideal) m' c (Proc.devRef .tc Cert.ReferenceIdeal.main_call0_v1) := by
  rw [Cert.KernelIdeal.Hand.kst_main_call0_v1 (F := Ideal) m ρ c, i_call0_v0__call0_v0 m ρ m' hag c, i_call0_cst__call0_cst m ρ m' hag c]
  exact (Cert.Proof.Parts.rst_main_call0_v1 (F := Ideal) m' c).symm
theorem i_call0_v2__call0_v2 (c : Dev Cert.KernelIdeal.nD) : Cert.KernelIdeal.Hand.W29 (F := Ideal) m ρ c (Proc.devRef .tc Cert.KernelIdeal.main_call0_v2) = Cert.Proof.Parts.RW (F := Ideal) m' c (Proc.devRef .tc Cert.ReferenceIdeal.main_call0_v2) := by
  rw [Cert.KernelIdeal.Hand.kst_main_call0_v2 (F := Ideal) m ρ c, i_call0_v1__call0_v1 m ρ m' hag c]
  exact (Cert.Proof.Parts.rst_main_call0_v2 (F := Ideal) m' c).symm
theorem i_v123__v123 (c : Dev Cert.KernelIdeal.nD) : Cert.KernelIdeal.Hand.W29 (F := Ideal) m ρ c (Proc.devRef .tc Cert.KernelIdeal.main_v123) = Cert.Proof.Parts.RW (F := Ideal) m' c (Proc.devRef .tc Cert.ReferenceIdeal.main_v123) := by
  rw [Cert.KernelIdeal.Hand.kst_main_v123 (F := Ideal) m ρ c, i_call0_v2__call0_v2 m ρ m' hag c]
  exact (Cert.Proof.Parts.rst_main_v123 (F := Ideal) m' c).symm
theorem i_cst_27__cst_27 (c : Dev Cert.KernelIdeal.nD) : Cert.KernelIdeal.Hand.W29 (F := Ideal) m ρ c (Proc.devRef .tc Cert.KernelIdeal.main_cst_27) = Cert.Proof.Parts.RW (F := Ideal) m' c (Proc.devRef .tc Cert.ReferenceIdeal.main_cst_27) := by
  rw [Cert.KernelIdeal.Hand.kst_main_cst_27 (F := Ideal) m ρ c]
  exact (Cert.Proof.Parts.rst_main_cst_27 (F := Ideal) m' c).symm
theorem i_v124__v124 (c : Dev Cert.KernelIdeal.nD) : Cert.KernelIdeal.Hand.W29 (F := Ideal) m ρ c (Proc.devRef .tc Cert.KernelIdeal.main_v124) = Cert.Proof.Parts.RW (F := Ideal) m' c (Proc.devRef .tc Cert.ReferenceIdeal.main_v124) := by
  rw [Cert.KernelIdeal.Hand.kst_main_v124 (F := Ideal) m ρ c, i_cst_27__cst_27 m ρ m' hag c]
  exact (Cert.Proof.Parts.rst_main_v124 (F := Ideal) m' c).symm
theorem i_v125__v125 (c : Dev Cert.KernelIdeal.nD) : Cert.KernelIdeal.Hand.W29 (F := Ideal) m ρ c (Proc.devRef .tc Cert.KernelIdeal.main_v125) = Cert.Proof.Parts.RW (F := Ideal) m' c (Proc.devRef .tc Cert.ReferenceIdeal.main_v125) := by
  rw [Cert.KernelIdeal.Hand.kst_main_v125 (F := Ideal) m ρ c, i_v123__v123 m ρ m' hag c, i_v124__v124 m ρ m' hag c]
  exact (Cert.Proof.Parts.rst_main_v125 (F := Ideal) m' c).symm
theorem i_v126__v126 (c : Dev Cert.KernelIdeal.nD) : Cert.KernelIdeal.Hand.W29 (F := Ideal) m ρ c (Proc.devRef .tc Cert.KernelIdeal.main_v126) = Cert.Proof.Parts.RW (F := Ideal) m' c (Proc.devRef .tc Cert.ReferenceIdeal.main_v126) := by
  rw [Cert.KernelIdeal.Hand.kst_main_v126 (F := Ideal) m ρ c, i_v125__v125 m ρ m' hag c]
  exact (Cert.Proof.Parts.rst_main_v126 (F := Ideal) m' c).symm
theorem i_v127__v127 (c : Dev Cert.KernelIdeal.nD) : Cert.KernelIdeal.Hand.W29 (F := Ideal) m ρ c (Proc.devRef .tc Cert.KernelIdeal.main_v127) = Cert.Proof.Parts.RW (F := Ideal) m' c (Proc.devRef .tc Cert.ReferenceIdeal.main_v127) := by
  rw [Cert.KernelIdeal.Hand.kst_main_v127 (F := Ideal) m ρ c, e_v120__v120 m ρ m' hag c, i_v126__v126 m ρ m' hag c]
  exact (Cert.Proof.Parts.rst_main_v127 (F := Ideal) m' c).symm
theorem i_call2_v0__call2_v0 (c : Dev Cert.KernelIdeal.nD) : Cert.KernelIdeal.Hand.W29 (F := Ideal) m ρ c (Proc.devRef .tc Cert.KernelIdeal.main_call2_v0) = Cert.Proof.Parts.RW (F := Ideal) m' c (Proc.devRef .tc Cert.ReferenceIdeal.main_call2_v0) := by
  rw [Cert.KernelIdeal.Hand.kst_main_call2_v0 (F := Ideal) m ρ c, e_arg0__arg0 m ρ m' hag c]
  exact (Cert.Proof.Parts.rst_main_call2_v0 (F := Ideal) m' c).symm
theorem i_call2_cst__call2_cst (c : Dev Cert.KernelIdeal.nD) : Cert.KernelIdeal.Hand.W29 (F := Ideal) m ρ c (Proc.devRef .tc Cert.KernelIdeal.main_call2_cst) = Cert.Proof.Parts.RW (F := Ideal) m' c (Proc.devRef .tc Cert.ReferenceIdeal.main_call2_cst) := by
  rw [Cert.KernelIdeal.Hand.kst_main_call2_cst (F := Ideal) m ρ c]
  exact (Cert.Proof.Parts.rst_main_call2_cst (F := Ideal) m' c).symm
theorem i_call2_v1__call2_v1 (c : Dev Cert.KernelIdeal.nD) : Cert.KernelIdeal.Hand.W29 (F := Ideal) m ρ c (Proc.devRef .tc Cert.KernelIdeal.main_call2_v1) = Cert.Proof.Parts.RW (F := Ideal) m' c (Proc.devRef .tc Cert.ReferenceIdeal.main_call2_v1) := by
  rw [Cert.KernelIdeal.Hand.kst_main_call2_v1 (F := Ideal) m ρ c, i_call2_v0__call2_v0 m ρ m' hag c, i_call2_cst__call2_cst m ρ m' hag c]
  exact (Cert.Proof.Parts.rst_main_call2_v1 (F := Ideal) m' c).symm
theorem i_call2_v2__call2_v2 (c : Dev Cert.KernelIdeal.nD) : Cert.KernelIdeal.Hand.W29 (F := Ideal) m ρ c (Proc.devRef .tc Cert.KernelIdeal.main_call2_v2) = Cert.Proof.Parts.RW (F := Ideal) m' c (Proc.devRef .tc Cert.ReferenceIdeal.main_call2_v2) := by
  rw [Cert.KernelIdeal.Hand.kst_main_call2_v2 (F := Ideal) m ρ c, i_call2_v1__call2_v1 m ρ m' hag c]
  exact (Cert.Proof.Parts.rst_main_call2_v2 (F := Ideal) m' c).symm
theorem i_v133__v133 (c : Dev Cert.KernelIdeal.nD) : Cert.KernelIdeal.Hand.W29 (F := Ideal) m ρ c (Proc.devRef .tc Cert.KernelIdeal.main_v133) = Cert.Proof.Parts.RW (F := Ideal) m' c (Proc.devRef .tc Cert.ReferenceIdeal.main_v133) := by
  rw [Cert.KernelIdeal.Hand.kst_main_v133 (F := Ideal) m ρ c, i_call2_v2__call2_v2 m ρ m' hag c]
  exact (Cert.Proof.Parts.rst_main_v133 (F := Ideal) m' c).symm
theorem i_cst_29__cst_29 (c : Dev Cert.KernelIdeal.nD) : Cert.KernelIdeal.Hand.W29 (F := Ideal) m ρ c (Proc.devRef .tc Cert.KernelIdeal.main_cst_29) = Cert.Proof.Parts.RW (F := Ideal) m' c (Proc.devRef .tc Cert.ReferenceIdeal.main_cst_29) := by
  rw [Cert.KernelIdeal.Hand.kst_main_cst_29 (F := Ideal) m ρ c]
  exact (Cert.Proof.Parts.rst_main_cst_29 (F := Ideal) m' c).symm
theorem i_v134__v134 (c : Dev Cert.KernelIdeal.nD) : Cert.KernelIdeal.Hand.W29 (F := Ideal) m ρ c (Proc.devRef .tc Cert.KernelIdeal.main_v134) = Cert.Proof.Parts.RW (F := Ideal) m' c (Proc.devRef .tc Cert.ReferenceIdeal.main_v134) := by
  rw [Cert.KernelIdeal.Hand.kst_main_v134 (F := Ideal) m ρ c, i_cst_29__cst_29 m ρ m' hag c]
  exact (Cert.Proof.Parts.rst_main_v134 (F := Ideal) m' c).symm
theorem i_v135__v135 (c : Dev Cert.KernelIdeal.nD) : Cert.KernelIdeal.Hand.W29 (F := Ideal) m ρ c (Proc.devRef .tc Cert.KernelIdeal.main_v135) = Cert.Proof.Parts.RW (F := Ideal) m' c (Proc.devRef .tc Cert.ReferenceIdeal.main_v135) := by
  rw [Cert.KernelIdeal.Hand.kst_main_v135 (F := Ideal) m ρ c, i_v133__v133 m ρ m' hag c, i_v134__v134 m ρ m' hag c]
  exact (Cert.Proof.Parts.rst_main_v135 (F := Ideal) m' c).symm
theorem i_v136__v136 (c : Dev Cert.KernelIdeal.nD) : Cert.KernelIdeal.Hand.W29 (F := Ideal) m ρ c (Proc.devRef .tc Cert.KernelIdeal.main_v136) = Cert.Proof.Parts.RW (F := Ideal) m' c (Proc.devRef .tc Cert.ReferenceIdeal.main_v136) := by
  rw [Cert.KernelIdeal.Hand.kst_main_v136 (F := Ideal) m ρ c, i_v135__v135 m ρ m' hag c]
  exact (Cert.Proof.Parts.rst_main_v136 (F := Ideal) m' c).symm
theorem i_v137__v137 (c : Dev Cert.KernelIdeal.nD) : Cert.KernelIdeal.Hand.W29 (F := Ideal) m ρ c (Proc.devRef .tc Cert.KernelIdeal.main_v137) = Cert.Proof.Parts.RW (F := Ideal) m' c (Proc.devRef .tc Cert.ReferenceIdeal.main_v137) := by
  rw [Cert.KernelIdeal.Hand.kst_main_v137 (F := Ideal) m ρ c, e_arg0__arg0 m ρ m' hag c, i_v136__v136 m ρ m' hag c]
  exact (Cert.Proof.Parts.rst_main_v137 (F := Ideal) m' c).symm
theorem i_v111__v111 (c : Dev Cert.KernelIdeal.nD) : Cert.KernelIdeal.Hand.W29 (F := Ideal) m ρ c (Proc.devRef .tc Cert.KernelIdeal.main_v111) = Cert.Proof.Parts.RW (F := Ideal) m' c (Proc.devRef .tc Cert.ReferenceIdeal.main_v111) := by
  rw [Cert.KernelIdeal.Hand.kst_main_v111 (F := Ideal) m ρ c, e_cst_25__cst_25 m ρ m' hag c]
  exact (Cert.Proof.Parts.rst_main_v111 (F := Ideal) m' c).symm
theorem i_v112__v112 (c : Dev Cert.KernelIdeal.nD) : Cert.KernelIdeal.Hand.W29 (F := Ideal) m ρ c (Proc.devRef .tc Cert.KernelIdeal.main_v112) = Cert.Proof.Parts.RW (F := Ideal) m' c (Proc.devRef .tc Cert.ReferenceIdeal.main_v112) := by
  rw [Cert.KernelIdeal.Hand.kst_main_v112 (F := Ideal) m ρ c, e_arg5__arg5 m ρ m' hag c]
  exact (Cert.Proof.Parts.rst_main_v112 (F := Ideal) m' c).symm
theorem i_v93__v93 (c : Dev Cert.KernelIdeal.nD) : Cert.KernelIdeal.Hand.W29 (F := Ideal) m ρ c (Proc.devRef .tc Cert.KernelIdeal.main_v93) = Cert.Proof.Parts.RW (F := Ideal) m' c (Proc.devRef .tc Cert.ReferenceIdeal.main_v93) := by
  rw [Cert.KernelIdeal.Hand.kst_main_v93 (F := Ideal) m ρ c, e_v12__v12 m ρ m' hag c]
  exact (Cert.Proof.Parts.rst_main_v93 (F := Ideal) m' c).symm
theorem i_v94__v94 (c : Dev Cert.KernelIdeal.nD) : Cert.KernelIdeal.Hand.W29 (F := Ideal) m ρ c (Proc.devRef .tc Cert.KernelIdeal.main_v94) = Cert.Proof.Parts.RW (F := Ideal) m' c (Proc.devRef .tc Cert.ReferenceIdeal.main_v94) := by
  rw [Cert.KernelIdeal.Hand.kst_main_v94 (F := Ideal) m ρ c, e_v90__v90 m ρ m' hag c, i_v93__v93 m ρ m' hag c]
  exact (Cert.Proof.Parts.rst_main_v94 (F := Ideal) m' c).symm
theorem i_c_21__c_21 (c : Dev Cert.KernelIdeal.nD) : Cert.KernelIdeal.Hand.W29 (F := Ideal) m ρ c (Proc.devRef .tc Cert.KernelIdeal.main_c_21) = Cert.Proof.Parts.RW (F := Ideal) m' c (Proc.devRef .tc Cert.ReferenceIdeal.main_c_21) := by
  rw [Cert.KernelIdeal.Hand.kst_main_c_21 (F := Ideal) m ρ c]
  exact (Cert.Proof.Parts.rst_main_c_21 (F := Ideal) m' c).symm
theorem i_v95__v95 (c : Dev Cert.KernelIdeal.nD) : Cert.KernelIdeal.Hand.W29 (F := Ideal) m ρ c (Proc.devRef .tc Cert.KernelIdeal.main_v95) = Cert.Proof.Parts.RW (F := Ideal) m' c (Proc.devRef .tc Cert.ReferenceIdeal.main_v95) := by
  rw [Cert.KernelIdeal.Hand.kst_main_v95 (F := Ideal) m ρ c, i_c_21__c_21 m ρ m' hag c]
  exact (Cert.Proof.Parts.rst_main_v95 (F := Ideal) m' c).symm
theorem i_v96__v96 (c : Dev Cert.KernelIdeal.nD) : Cert.KernelIdeal.Hand.W29 (F := Ideal) m ρ c (Proc.devRef .tc Cert.KernelIdeal.main_v96) = Cert.Proof.Parts.RW (F := Ideal) m' c (Proc.devRef .tc Cert.ReferenceIdeal.main_v96) := by
  rw [Cert.KernelIdeal.Hand.kst_main_v96 (F := Ideal) m ρ c, e_arg4__arg4 m ρ m' hag c, i_v95__v95 m ρ m' hag c]
  exact (Cert.Proof.Parts.rst_main_v96 (F := Ideal) m' c).symm
theorem i_c_22__c_22 (c : Dev Cert.KernelIdeal.nD) : Cert.KernelIdeal.Hand.W29 (F := Ideal) m ρ c (Proc.devRef .tc Cert.KernelIdeal.main_c_22) = Cert.Proof.Parts.RW (F := Ideal) m' c (Proc.devRef .tc Cert.ReferenceIdeal.main_c_22) := by
  rw [Cert.KernelIdeal.Hand.kst_main_c_22 (F := Ideal) m ρ c]
  exact (Cert.Proof.Parts.rst_main_c_22 (F := Ideal) m' c).symm
theorem i_v97__v97 (c : Dev Cert.KernelIdeal.nD) : Cert.KernelIdeal.Hand.W29 (F := Ideal) m ρ c (Proc.devRef .tc Cert.KernelIdeal.main_v97) = Cert.Proof.Parts.RW (F := Ideal) m' c (Proc.devRef .tc Cert.ReferenceIdeal.main_v97) := by
  rw [Cert.KernelIdeal.Hand.kst_main_v97 (F := Ideal) m ρ c, i_c_22__c_22 m ρ m' hag c]
  exact (Cert.Proof.Parts.rst_main_v97 (F := Ideal) m' c).symm
theorem i_v98__v98 (c : Dev Cert.KernelIdeal.nD) : Cert.KernelIdeal.Hand.W29 (F := Ideal) m ρ c (Proc.devRef .tc Cert.KernelIdeal.main_v98) = Cert.Proof.Parts.RW (F := Ideal) m' c (Proc.devRef .tc Cert.ReferenceIdeal.main_v98) := by
  rw [Cert.KernelIdeal.Hand.kst_main_v98 (F := Ideal) m ρ c, e_arg4__arg4 m ρ m' hag c, i_v97__v97 m ρ m' hag c]
  exact (Cert.Proof.Parts.rst_main_v98 (F := Ideal) m' c).symm
theorem i_v99__v99 (c : Dev Cert.KernelIdeal.nD) : Cert.KernelIdeal.Hand.W29 (F := Ideal) m ρ c (Proc.devRef .tc Cert.KernelIdeal.main_v99) = Cert.Proof.Parts.RW (F := Ideal) m' c (Proc.devRef .tc Cert.ReferenceIdeal.main_v99) := by
  rw [Cert.KernelIdeal.Hand.kst_main_v99 (F := Ideal) m ρ c, i_v96__v96 m ρ m' hag c, i_v98__v98 m ρ m' hag c, e_arg4__arg4 m ρ m' hag c]
  exact (Cert.Proof.Parts.rst_main_v99 (F := Ideal) m' c).symm
theorem i_v100__v100 (c : Dev Cert.KernelIdeal.nD) : Cert.KernelIdeal.Hand.W29 (F := Ideal) m ρ c (Proc.devRef .tc Cert.KernelIdeal.main_v100) = Cert.Proof.Parts.RW (F := Ideal) m' c (Proc.devRef .tc Cert.ReferenceIdeal.main_v100) := by
  rw [Cert.KernelIdeal.Hand.kst_main_v100 (F := Ideal) m ρ c, i_v99__v99 m ρ m' hag c]
  exact (Cert.Proof.Parts.rst_main_v100 (F := Ideal) m' c).symm
theorem i_v101__v101 (c : Dev Cert.KernelIdeal.nD) : Cert.KernelIdeal.Hand.W29 (F := Ideal) m ρ c (Proc.devRef .tc Cert.KernelIdeal.main_v101) = Cert.Proof.Parts.RW (F := Ideal) m' c (Proc.devRef .tc Cert.ReferenceIdeal.main_v101) := by
  rw [Cert.KernelIdeal.Hand.kst_main_v101 (F := Ideal) m ρ c, i_v94__v94 m ρ m' hag c, i_v100__v100 m ρ m' hag c]
  exact (Cert.Proof.Parts.rst_main_v101 (F := Ideal) m' c).symm
theorem i_v113__v113 (c : Dev Cert.KernelIdeal.nD) : Cert.KernelIdeal.Hand.W29 (F := Ideal) m ρ c (Proc.devRef .tc Cert.KernelIdeal.main_v113) = Cert.Proof.Parts.RW (F := Ideal) m' c (Proc.devRef .tc Cert.ReferenceIdeal.main_v113) := by
  rw [Cert.KernelIdeal.Hand.kst_main_v113 (F := Ideal) m ρ c, i_v111__v111 m ρ m' hag c, i_v112__v112 m ρ m' hag c, i_v101__v101 m ρ m' hag c]
  exact (Cert.Proof.Parts.rst_main_v113 (F := Ideal) m' c).symm
theorem i_v114__v114 (c : Dev Cert.KernelIdeal.nD) : Cert.KernelIdeal.Hand.W29 (F := Ideal) m ρ c (Proc.devRef .tc Cert.KernelIdeal.main_v114) = Cert.Proof.Parts.RW (F := Ideal) m' c (Proc.devRef .tc Cert.ReferenceIdeal.main_v114) := by
  rw [Cert.KernelIdeal.Hand.kst_main_v114 (F := Ideal) m ρ c, e_v18__v18 m ρ m' hag c]
  exact (Cert.Proof.Parts.rst_main_v114 (F := Ideal) m' c).symm
theorem i_v115__v115 (c : Dev Cert.KernelIdeal.nD) : Cert.KernelIdeal.Hand.W29 (F := Ideal) m ρ c (Proc.devRef .tc Cert.KernelIdeal.main_v115) = Cert.Proof.Parts.RW (F := Ideal) m' c (Proc.devRef .tc Cert.ReferenceIdeal.main_v115) := by
  rw [Cert.KernelIdeal.Hand.kst_main_v115 (F := Ideal) m ρ c, i_v113__v113 m ρ m' hag c, i_v114__v114 m ρ m' hag c]
  exact (Cert.Proof.Parts.rst_main_v115 (F := Ideal) m' c).symm
theorem i_call3_v0__call3_v0 (c : Dev Cert.KernelIdeal.nD) : Cert.KernelIdeal.Hand.W29 (F := Ideal) m ρ c (Proc.devRef .tc Cert.KernelIdeal.main_call3_v0) = Cert.Proof.Parts.RW (F := Ideal) m' c (Proc.devRef .tc Cert.ReferenceIdeal.main_call3_v0) := by
  rw [Cert.KernelIdeal.Hand.kst_main_call3_v0 (F := Ideal) m ρ c, i_v115__v115 m ρ m' hag c]
  exact (Cert.Proof.Parts.rst_main_call3_v0 (F := Ideal) m' c).symm
theorem i_call3_cst__call3_cst (c : Dev Cert.KernelIdeal.nD) : Cert.KernelIdeal.Hand.W29 (F := Ideal) m ρ c (Proc.devRef .tc Cert.KernelIdeal.main_call3_cst) = Cert.Proof.Parts.RW (F := Ideal) m' c (Proc.devRef .tc Cert.ReferenceIdeal.main_call3_cst) := by
  rw [Cert.KernelIdeal.Hand.kst_main_call3_cst (F := Ideal) m ρ c]
  exact (Cert.Proof.Parts.rst_main_call3_cst (F := Ideal) m' c).symm
theorem i_call3_v1__call3_v1 (c : Dev Cert.KernelIdeal.nD) : Cert.KernelIdeal.Hand.W29 (F := Ideal) m ρ c (Proc.devRef .tc Cert.KernelIdeal.main_call3_v1) = Cert.Proof.Parts.RW (F := Ideal) m' c (Proc.devRef .tc Cert.ReferenceIdeal.main_call3_v1) := by
  rw [Cert.KernelIdeal.Hand.kst_main_call3_v1 (F := Ideal) m ρ c, i_call3_v0__call3_v0 m ρ m' hag c, i_call3_cst__call3_cst m ρ m' hag c]
  exact (Cert.Proof.Parts.rst_main_call3_v1 (F := Ideal) m' c).symm
theorem i_call3_v2__call3_v2 (c : Dev Cert.KernelIdeal.nD) : Cert.KernelIdeal.Hand.W29 (F := Ideal) m ρ c (Proc.devRef .tc Cert.KernelIdeal.main_call3_v2) = Cert.Proof.Parts.RW (F := Ideal) m' c (Proc.devRef .tc Cert.ReferenceIdeal.main_call3_v2) := by
  rw [Cert.KernelIdeal.Hand.kst_main_call3_v2 (F := Ideal) m ρ c, i_call3_v1__call3_v1 m ρ m' hag c]
  exact (Cert.Proof.Parts.rst_main_call3_v2 (F := Ideal) m' c).symm
theorem i_v150__v153 (c : Dev Cert.KernelIdeal.nD) : Cert.KernelIdeal.Hand.W29 (F := Ideal) m ρ c (Proc.devRef .tc Cert.KernelIdeal.main_v150) = Cert.Proof.Parts.RW (F := Ideal) m' c (Proc.devRef .tc Cert.ReferenceIdeal.main_v153) := by
  rw [Cert.KernelIdeal.Hand.kst_main_v150 (F := Ideal) m ρ c, i_call3_v2__call3_v2 m ρ m' hag c]
  exact (Cert.Proof.Parts.rst_main_v153 (F := Ideal) m' c).symm
theorem i_cst_33__cst_35 (c : Dev Cert.KernelIdeal.nD) : Cert.KernelIdeal.Hand.W29 (F := Ideal) m ρ c (Proc.devRef .tc Cert.KernelIdeal.main_cst_33) = Cert.Proof.Parts.RW (F := Ideal) m' c (Proc.devRef .tc Cert.ReferenceIdeal.main_cst_35) := by
  rw [Cert.KernelIdeal.Hand.kst_main_cst_33 (F := Ideal) m ρ c]
  exact (Cert.Proof.Parts.rst_main_cst_35 (F := Ideal) m' c).symm
theorem i_v151__v154 (c : Dev Cert.KernelIdeal.nD) : Cert.KernelIdeal.Hand.W29 (F := Ideal) m ρ c (Proc.devRef .tc Cert.KernelIdeal.main_v151) = Cert.Proof.Parts.RW (F := Ideal) m' c (Proc.devRef .tc Cert.ReferenceIdeal.main_v154) := by
  rw [Cert.KernelIdeal.Hand.kst_main_v151 (F := Ideal) m ρ c, i_cst_33__cst_35 m ρ m' hag c]
  exact (Cert.Proof.Parts.rst_main_v154 (F := Ideal) m' c).symm
theorem i_v152__v155 (c : Dev Cert.KernelIdeal.nD) : Cert.KernelIdeal.Hand.W29 (F := Ideal) m ρ c (Proc.devRef .tc Cert.KernelIdeal.main_v152) = Cert.Proof.Parts.RW (F := Ideal) m' c (Proc.devRef .tc Cert.ReferenceIdeal.main_v155) := by
  rw [Cert.KernelIdeal.Hand.kst_main_v152 (F := Ideal) m ρ c, i_v150__v153 m ρ m' hag c, i_v151__v154 m ρ m' hag c]
  exact (Cert.Proof.Parts.rst_main_v155 (F := Ideal) m' c).symm
theorem i_v153__v156 (c : Dev Cert.KernelIdeal.nD) : Cert.KernelIdeal.Hand.W29 (F := Ideal) m ρ c (Proc.devRef .tc Cert.KernelIdeal.main_v153) = Cert.Proof.Parts.RW (F := Ideal) m' c (Proc.devRef .tc Cert.ReferenceIdeal.main_v156) := by
  rw [Cert.KernelIdeal.Hand.kst_main_v153 (F := Ideal) m ρ c, i_v152__v155 m ρ m' hag c]
  exact (Cert.Proof.Parts.rst_main_v156 (F := Ideal) m' c).symm
theorem i_v154__v157 (c : Dev Cert.KernelIdeal.nD) : Cert.KernelIdeal.Hand.W29 (F := Ideal) m ρ c (Proc.devRef .tc Cert.KernelIdeal.main_v154) = Cert.Proof.Parts.RW (F := Ideal) m' c (Proc.devRef .tc Cert.ReferenceIdeal.main_v157) := by
  rw [Cert.KernelIdeal.Hand.kst_main_v154 (F := Ideal) m ρ c, i_v115__v115 m ρ m' hag c, i_v153__v156 m ρ m' hag c]
  exact (Cert.Proof.Parts.rst_main_v157 (F := Ideal) m' c).symm
theorem i_call5_v0__call5_v0 (c : Dev Cert.KernelIdeal.nD) : Cert.KernelIdeal.Hand.W29 (F := Ideal) m ρ c (Proc.devRef .tc Cert.KernelIdeal.main_call5_v0) = Cert.Proof.Parts.RW (F := Ideal) m' c (Proc.devRef .tc Cert.ReferenceIdeal.main_call5_v0) := by
  rw [Cert.KernelIdeal.Hand.kst_main_call5_v0 (F := Ideal) m ρ c, e_arg1__arg1 m ρ m' hag c]
  exact (Cert.Proof.Parts.rst_main_call5_v0 (F := Ideal) m' c).symm
theorem i_call5_cst__call5_cst (c : Dev Cert.KernelIdeal.nD) : Cert.KernelIdeal.Hand.W29 (F := Ideal) m ρ c (Proc.devRef .tc Cert.KernelIdeal.main_call5_cst) = Cert.Proof.Parts.RW (F := Ideal) m' c (Proc.devRef .tc Cert.ReferenceIdeal.main_call5_cst) := by
  rw [Cert.KernelIdeal.Hand.kst_main_call5_cst (F := Ideal) m ρ c]
  exact (Cert.Proof.Parts.rst_main_call5_cst (F := Ideal) m' c).symm
theorem i_call5_v1__call5_v1 (c : Dev Cert.KernelIdeal.nD) : Cert.KernelIdeal.Hand.W29 (F := Ideal) m ρ c (Proc.devRef .tc Cert.KernelIdeal.main_call5_v1) = Cert.Proof.Parts.RW (F := Ideal) m' c (Proc.devRef .tc Cert.ReferenceIdeal.main_call5_v1) := by
  rw [Cert.KernelIdeal.Hand.kst_main_call5_v1 (F := Ideal) m ρ c, i_call5_v0__call5_v0 m ρ m' hag c, i_call5_cst__call5_cst m ρ m' hag c]
  exact (Cert.Proof.Parts.rst_main_call5_v1 (F := Ideal) m' c).symm
theorem i_call5_v2__call5_v2 (c : Dev Cert.KernelIdeal.nD) : Cert.KernelIdeal.Hand.W29 (F := Ideal) m ρ c (Proc.devRef .tc Cert.KernelIdeal.main_call5_v2) = Cert.Proof.Parts.RW (F := Ideal) m' c (Proc.devRef .tc Cert.ReferenceIdeal.main_call5_v2) := by
  rw [Cert.KernelIdeal.Hand.kst_main_call5_v2 (F := Ideal) m ρ c, i_call5_v1__call5_v1 m ρ m' hag c]
  exact (Cert.Proof.Parts.rst_main_call5_v2 (F := Ideal) m' c).symm
theorem i_v160__v163 (c : Dev Cert.KernelIdeal.nD) : Cert.KernelIdeal.Hand.W29 (F := Ideal) m ρ c (Proc.devRef .tc Cert.KernelIdeal.main_v160) = Cert.Proof.Parts.RW (F := Ideal) m' c (Proc.devRef .tc Cert.ReferenceIdeal.main_v163) := by
  rw [Cert.KernelIdeal.Hand.kst_main_v160 (F := Ideal) m ρ c, i_call5_v2__call5_v2 m ρ m' hag c]
  exact (Cert.Proof.Parts.rst_main_v163 (F := Ideal) m' c).symm
theorem i_cst_35__cst_37 (c : Dev Cert.KernelIdeal.nD) : Cert.KernelIdeal.Hand.W29 (F := Ideal) m ρ c (Proc.devRef .tc Cert.KernelIdeal.main_cst_35) = Cert.Proof.Parts.RW (F := Ideal) m' c (Proc.devRef .tc Cert.ReferenceIdeal.main_cst_37) := by
  rw [Cert.KernelIdeal.Hand.kst_main_cst_35 (F := Ideal) m ρ c]
  exact (Cert.Proof.Parts.rst_main_cst_37 (F := Ideal) m' c).symm
theorem i_v161__v164 (c : Dev Cert.KernelIdeal.nD) : Cert.KernelIdeal.Hand.W29 (F := Ideal) m ρ c (Proc.devRef .tc Cert.KernelIdeal.main_v161) = Cert.Proof.Parts.RW (F := Ideal) m' c (Proc.devRef .tc Cert.ReferenceIdeal.main_v164) := by
  rw [Cert.KernelIdeal.Hand.kst_main_v161 (F := Ideal) m ρ c, i_cst_35__cst_37 m ρ m' hag c]
  exact (Cert.Proof.Parts.rst_main_v164 (F := Ideal) m' c).symm
theorem i_v162__v165 (c : Dev Cert.KernelIdeal.nD) : Cert.KernelIdeal.Hand.W29 (F := Ideal) m ρ c (Proc.devRef .tc Cert.KernelIdeal.main_v162) = Cert.Proof.Parts.RW (F := Ideal) m' c (Proc.devRef .tc Cert.ReferenceIdeal.main_v165) := by
  rw [Cert.KernelIdeal.Hand.kst_main_v162 (F := Ideal) m ρ c, i_v160__v163 m ρ m' hag c, i_v161__v164 m ρ m' hag c]
  exact (Cert.Proof.Parts.rst_main_v165 (F := Ideal) m' c).symm
theorem i_v163__v166 (c : Dev Cert.KernelIdeal.nD) : Cert.KernelIdeal.Hand.W29 (F := Ideal) m ρ c (Proc.devRef .tc Cert.KernelIdeal.main_v163) = Cert.Proof.Parts.RW (F := Ideal) m' c (Proc.devRef .tc Cert.ReferenceIdeal.main_v166) := by
  rw [Cert.KernelIdeal.Hand.kst_main_v163 (F := Ideal) m ρ c, i_v162__v165 m ρ m' hag c]
  exact (Cert.Proof.Parts.rst_main_v166 (F := Ideal) m' c).symm
theorem i_v164__v167 (c : Dev Cert.KernelIdeal.nD) : Cert.KernelIdeal.Hand.W29 (F := Ideal) m ρ c (Proc.devRef .tc Cert.KernelIdeal.main_v164) = Cert.Proof.Parts.RW (F := Ideal) m' c (Proc.devRef .tc Cert.ReferenceIdeal.main_v167) := by
  rw [Cert.KernelIdeal.Hand.kst_main_v164 (F := Ideal) m ρ c, e_arg1__arg1 m ρ m' hag c, i_v163__v166 m ρ m' hag c]
  exact (Cert.Proof.Parts.rst_main_v167 (F := Ideal) m' c).symm
theorem i_c_41__c_45 (c : Dev Cert.KernelIdeal.nD) : Cert.KernelIdeal.Hand.W29 (F := Ideal) m ρ c (Proc.devRef .tc Cert.KernelIdeal.main_c_41) = Cert.Proof.Parts.RW (F := Ideal) m' c (Proc.devRef .tc Cert.ReferenceIdeal.main_c_45) := by
  rw [Cert.KernelIdeal.Hand.kst_main_c_41 (F := Ideal) m ρ c]
  exact (Cert.Proof.Parts.rst_main_c_45 (F := Ideal) m' c).symm
theorem i_v180__v186 (c : Dev Cert.KernelIdeal.nD) : Cert.KernelIdeal.Hand.W29 (F := Ideal) m ρ c (Proc.devRef .tc Cert.KernelIdeal.main_v180) = Cert.Proof.Parts.RW (F := Ideal) m' c (Proc.devRef .tc Cert.ReferenceIdeal.main_v186) := by
  rw [Cert.KernelIdeal.Hand.kst_main_v180 (F := Ideal) m ρ c, i_c_41__c_45 m ρ m' hag c]
  exact (Cert.Proof.Parts.rst_main_v186 (F := Ideal) m' c).symm
theorem i_v181__v187 (c : Dev Cert.KernelIdeal.nD) : Cert.KernelIdeal.Hand.W29 (F := Ideal) m ρ c (Proc.devRef .tc Cert.KernelIdeal.main_v181) = Cert.Proof.Parts.RW (F := Ideal) m' c (Proc.devRef .tc Cert.ReferenceIdeal.main_v187) := by
  rw [Cert.KernelIdeal.Hand.kst_main_v181 (F := Ideal) m ρ c, e_arg10__arg10 m ρ m' hag c, i_v180__v186 m ρ m' hag c]
  exact (Cert.Proof.Parts.rst_main_v187 (F := Ideal) m' c).symm
theorem i_c_42__c_46 (c : Dev Cert.KernelIdeal.nD) : Cert.KernelIdeal.Hand.W29 (F := Ideal) m ρ c (Proc.devRef .tc Cert.KernelIdeal.main_c_42) = Cert.Proof.Parts.RW (F := Ideal) m' c (Proc.devRef .tc Cert.ReferenceIdeal.main_c_46) := by
  rw [Cert.KernelIdeal.Hand.kst_main_c_42 (F := Ideal) m ρ c]
  exact (Cert.Proof.Parts.rst_main_c_46 (F := Ideal) m' c).symm
theorem i_v182__v188 (c : Dev Cert.KernelIdeal.nD) : Cert.KernelIdeal.Hand.W29 (F := Ideal) m ρ c (Proc.devRef .tc Cert.KernelIdeal.main_v182) = Cert.Proof.Parts.RW (F := Ideal) m' c (Proc.devRef .tc Cert.ReferenceIdeal.main_v188) := by
  rw [Cert.KernelIdeal.Hand.kst_main_v182 (F := Ideal) m ρ c, i_c_42__c_46 m ρ m' hag c]
  exact (Cert.Proof.Parts.rst_main_v188 (F := Ideal) m' c).symm
theorem i_v183__v189 (c : Dev Cert.KernelIdeal.nD) : Cert.KernelIdeal.Hand.W29 (F := Ideal) m ρ c (Proc.devRef .tc Cert.KernelIdeal.main_v183) = Cert.Proof.Parts.RW (F := Ideal) m' c (Proc.devRef .tc Cert.ReferenceIdeal.main_v189) := by
  rw [Cert.KernelIdeal.Hand.kst_main_v183 (F := Ideal) m ρ c, e_arg10__arg10 m ρ m' hag c, i_v182__v188 m ρ m' hag c]
  exact (Cert.Proof.Parts.rst_main_v189 (F := Ideal) m' c).symm
theorem i_v184__v190 (c : Dev Cert.KernelIdeal.nD) : Cert.KernelIdeal.Hand.W29 (F := Ideal) m ρ c (Proc.devRef .tc Cert.KernelIdeal.main_v184) = Cert.Proof.Parts.RW (F := Ideal) m' c (Proc.devRef .tc Cert.ReferenceIdeal.main_v190) := by
  rw [Cert.KernelIdeal.Hand.kst_main_v184 (F := Ideal) m ρ c, i_v181__v187 m ρ m' hag c, i_v183__v189 m ρ m' hag c, e_arg10__arg10 m ρ m' hag c]
  exact (Cert.Proof.Parts.rst_main_v190 (F := Ideal) m' c).symm
theorem i_v185__v191 (c : Dev Cert.KernelIdeal.nD) : Cert.KernelIdeal.Hand.W29 (F := Ideal) m ρ c (Proc.devRef .tc Cert.KernelIdeal.main_v185) = Cert.Proof.Parts.RW (F := Ideal) m' c (Proc.devRef .tc Cert.ReferenceIdeal.main_v191) := by
  rw [Cert.KernelIdeal.Hand.kst_main_v185 (F := Ideal) m ρ c, i_v184__v190 m ρ m' hag c]
  exact (Cert.Proof.Parts.rst_main_v191 (F := Ideal) m' c).symm
theorem i_v186__v192 (c : Dev Cert.KernelIdeal.nD) : Cert.KernelIdeal.Hand.W29 (F := Ideal) m ρ c (Proc.devRef .tc Cert.KernelIdeal.main_v186) = Cert.Proof.Parts.RW (F := Ideal) m' c (Proc.devRef .tc Cert.ReferenceIdeal.main_v192) := by
  rw [Cert.KernelIdeal.Hand.kst_main_v186 (F := Ideal) m ρ c, e_arg0__arg0 m ρ m' hag c, i_v185__v191 m ρ m' hag c]
  exact (Cert.Proof.Parts.rst_main_v192 (F := Ideal) m' c).symm
theorem i_call6_v0__call6_v0 (c : Dev Cert.KernelIdeal.nD) : Cert.KernelIdeal.Hand.W29 (F := Ideal) m ρ c (Proc.devRef .tc Cert.KernelIdeal.main_call6_v0) = Cert.Proof.Parts.RW (F := Ideal) m' c (Proc.devRef .tc Cert.ReferenceIdeal.main_call6_v0) := by
  rw [Cert.KernelIdeal.Hand.kst_main_call6_v0 (F := Ideal) m ρ c, i_v186__v192 m ρ m' hag c]
  exact (Cert.Proof.Parts.rst_main_call6_v0 (F := Ideal) m' c).symm
theorem i_call6_cst__call6_cst (c : Dev Cert.KernelIdeal.nD) : Cert.KernelIdeal.Hand.W29 (F := Ideal) m ρ c (Proc.devRef .tc Cert.KernelIdeal.main_call6_cst) = Cert.Proof.Parts.RW (F := Ideal) m' c (Proc.devRef .tc Cert.ReferenceIdeal.main_call6_cst) := by
  rw [Cert.KernelIdeal.Hand.kst_main_call6_cst (F := Ideal) m ρ c]
  exact (Cert.Proof.Parts.rst_main_call6_cst (F := Ideal) m' c).symm
theorem i_call6_v1__call6_v1 (c : Dev Cert.KernelIdeal.nD) : Cert.KernelIdeal.Hand.W29 (F := Ideal) m ρ c (Proc.devRef .tc Cert.KernelIdeal.main_call6_v1) = Cert.Proof.Parts.RW (F := Ideal) m' c (Proc.devRef .tc Cert.ReferenceIdeal.main_call6_v1) := by
  rw [Cert.KernelIdeal.Hand.kst_main_call6_v1 (F := Ideal) m ρ c, i_call6_v0__call6_v0 m ρ m' hag c, i_call6_cst__call6_cst m ρ m' hag c]
  exact (Cert.Proof.Parts.rst_main_call6_v1 (F := Ideal) m' c).symm
theorem i_call6_v2__call6_v2 (c : Dev Cert.KernelIdeal.nD) : Cert.KernelIdeal.Hand.W29 (F := Ideal) m ρ c (Proc.devRef .tc Cert.KernelIdeal.main_call6_v2) = Cert.Proof.Parts.RW (F := Ideal) m' c (Proc.devRef .tc Cert.ReferenceIdeal.main_call6_v2) := by
  rw [Cert.KernelIdeal.Hand.kst_main_call6_v2 (F := Ideal) m ρ c, i_call6_v1__call6_v1 m ρ m' hag c]
  exact (Cert.Proof.Parts.rst_main_call6_v2 (F := Ideal) m' c).symm
theorem i_v187__v193 (c : Dev Cert.KernelIdeal.nD) : Cert.KernelIdeal.Hand.W29 (F := Ideal) m ρ c (Proc.devRef .tc Cert.KernelIdeal.main_v187) = Cert.Proof.Parts.RW (F := Ideal) m' c (Proc.devRef .tc Cert.ReferenceIdeal.main_v193) := by
  rw [Cert.KernelIdeal.Hand.kst_main_v187 (F := Ideal) m ρ c, i_call6_v2__call6_v2 m ρ m' hag c]
  exact (Cert.Proof.Parts.rst_main_v193 (F := Ideal) m' c).symm
theorem i_cst_43__cst_47 (c : Dev Cert.KernelIdeal.nD) : Cert.KernelIdeal.Hand.W29 (F := Ideal) m ρ c (Proc.devRef .tc Cert.KernelIdeal.main_cst_43) = Cert.Proof.Parts.RW (F := Ideal) m' c (Proc.devRef .tc Cert.ReferenceIdeal.main_cst_47) := by
  rw [Cert.KernelIdeal.Hand.kst_main_cst_43 (F := Ideal) m ρ c]
  exact (Cert.Proof.Parts.rst_main_cst_47 (F := Ideal) m' c).symm
theorem i_v188__v194 (c : Dev Cert.KernelIdeal.nD) : Cert.KernelIdeal.Hand.W29 (F := Ideal) m ρ c (Proc.devRef .tc Cert.KernelIdeal.main_v188) = Cert.Proof.Parts.RW (F := Ideal) m' c (Proc.devRef .tc Cert.ReferenceIdeal.main_v194) := by
  rw [Cert.KernelIdeal.Hand.kst_main_v188 (F := Ideal) m ρ c, i_cst_43__cst_47 m ρ m' hag c]
  exact (Cert.Proof.Parts.rst_main_v194 (F := Ideal) m' c).symm
theorem i_v189__v195 (c : Dev Cert.KernelIdeal.nD) : Cert.KernelIdeal.Hand.W29 (F := Ideal) m ρ c (Proc.devRef .tc Cert.KernelIdeal.main_v189) = Cert.Proof.Parts.RW (F := Ideal) m' c (Proc.devRef .tc Cert.ReferenceIdeal.main_v195) := by
  rw [Cert.KernelIdeal.Hand.kst_main_v189 (F := Ideal) m ρ c, i_v187__v193 m ρ m' hag c, i_v188__v194 m ρ m' hag c]
  exact (Cert.Proof.Parts.rst_main_v195 (F := Ideal) m' c).symm
theorem i_v190__v196 (c : Dev Cert.KernelIdeal.nD) : Cert.KernelIdeal.Hand.W29 (F := Ideal) m ρ c (Proc.devRef .tc Cert.KernelIdeal.main_v190) = Cert.Proof.Parts.RW (F := Ideal) m' c (Proc.devRef .tc Cert.ReferenceIdeal.main_v196) := by
  rw [Cert.KernelIdeal.Hand.kst_main_v190 (F := Ideal) m ρ c, i_v189__v195 m ρ m' hag c]
  exact (Cert.Proof.Parts.rst_main_v196 (F := Ideal) m' c).symm
theorem i_v191__v197 (c : Dev Cert.KernelIdeal.nD) : Cert.KernelIdeal.Hand.W29 (F := Ideal) m ρ c (Proc.devRef .tc Cert.KernelIdeal.main_v191) = Cert.Proof.Parts.RW (F := Ideal) m' c (Proc.devRef .tc Cert.ReferenceIdeal.main_v197) := by
  rw [Cert.KernelIdeal.Hand.kst_main_v191 (F := Ideal) m ρ c, i_v186__v192 m ρ m' hag c, i_v190__v196 m ρ m' hag c]
  exact (Cert.Proof.Parts.rst_main_v197 (F := Ideal) m' c).symm
theorem i_arg2__arg2 (c : Dev Cert.KernelIdeal.nD) : Cert.KernelIdeal.Hand.W29 (F := Ideal) m ρ c (Proc.devRef .tc Cert.KernelIdeal.main_arg2) = Cert.Proof.Parts.RW (F := Ideal) m' c (Proc.devRef .tc Cert.ReferenceIdeal.main_arg2) :=
  (Cert.KernelIdeal.Hand.W29_main_arg2 (F := Ideal) m ρ c).trans (((hag c).2.2.1).symm.trans (Cert.Proof.Parts.ref_kept (F := Ideal) m' c Cert.ReferenceIdeal.main_arg2 (by decide)).symm)
theorem i_call7_v0__call7_v0 (c : Dev Cert.KernelIdeal.nD) : Cert.KernelIdeal.Hand.W29 (F := Ideal) m ρ c (Proc.devRef .tc Cert.KernelIdeal.main_call7_v0) = Cert.Proof.Parts.RW (F := Ideal) m' c (Proc.devRef .tc Cert.ReferenceIdeal.main_call7_v0) := by
  rw [Cert.KernelIdeal.Hand.kst_main_call7_v0 (F := Ideal) m ρ c, i_arg2__arg2 m ρ m' hag c]
  exact (Cert.Proof.Parts.rst_main_call7_v0 (F := Ideal) m' c).symm
theorem i_call7_cst__call7_cst (c : Dev Cert.KernelIdeal.nD) : Cert.KernelIdeal.Hand.W29 (F := Ideal) m ρ c (Proc.devRef .tc Cert.KernelIdeal.main_call7_cst) = Cert.Proof.Parts.RW (F := Ideal) m' c (Proc.devRef .tc Cert.ReferenceIdeal.main_call7_cst) := by
  rw [Cert.KernelIdeal.Hand.kst_main_call7_cst (F := Ideal) m ρ c]
  exact (Cert.Proof.Parts.rst_main_call7_cst (F := Ideal) m' c).symm
theorem i_call7_v1__call7_v1 (c : Dev Cert.KernelIdeal.nD) : Cert.KernelIdeal.Hand.W29 (F := Ideal) m ρ c (Proc.devRef .tc Cert.KernelIdeal.main_call7_v1) = Cert.Proof.Parts.RW (F := Ideal) m' c (Proc.devRef .tc Cert.ReferenceIdeal.main_call7_v1) := by
  rw [Cert.KernelIdeal.Hand.kst_main_call7_v1 (F := Ideal) m ρ c, i_call7_v0__call7_v0 m ρ m' hag c, i_call7_cst__call7_cst m ρ m' hag c]
  exact (Cert.Proof.Parts.rst_main_call7_v1 (F := Ideal) m' c).symm
theorem i_call7_v2__call7_v2 (c : Dev Cert.KernelIdeal.nD) : Cert.KernelIdeal.Hand.W29 (F := Ideal) m ρ c (Proc.devRef .tc Cert.KernelIdeal.main_call7_v2) = Cert.Proof.Parts.RW (F := Ideal) m' c (Proc.devRef .tc Cert.ReferenceIdeal.main_call7_v2) := by
  rw [Cert.KernelIdeal.Hand.kst_main_call7_v2 (F := Ideal) m ρ c, i_call7_v1__call7_v1 m ρ m' hag c]
  exact (Cert.Proof.Parts.rst_main_call7_v2 (F := Ideal) m' c).symm
theorem i_v192__v198 (c : Dev Cert.KernelIdeal.nD) : Cert.KernelIdeal.Hand.W29 (F := Ideal) m ρ c (Proc.devRef .tc Cert.KernelIdeal.main_v192) = Cert.Proof.Parts.RW (F := Ideal) m' c (Proc.devRef .tc Cert.ReferenceIdeal.main_v198) := by
  rw [Cert.KernelIdeal.Hand.kst_main_v192 (F := Ideal) m ρ c, i_call7_v2__call7_v2 m ρ m' hag c]
  exact (Cert.Proof.Parts.rst_main_v198 (F := Ideal) m' c).symm
theorem i_cst_44__cst_48 (c : Dev Cert.KernelIdeal.nD) : Cert.KernelIdeal.Hand.W29 (F := Ideal) m ρ c (Proc.devRef .tc Cert.KernelIdeal.main_cst_44) = Cert.Proof.Parts.RW (F := Ideal) m' c (Proc.devRef .tc Cert.ReferenceIdeal.main_cst_48) := by
  rw [Cert.KernelIdeal.Hand.kst_main_cst_44 (F := Ideal) m ρ c]
  exact (Cert.Proof.Parts.rst_main_cst_48 (F := Ideal) m' c).symm
theorem i_v193__v199 (c : Dev Cert.KernelIdeal.nD) : Cert.KernelIdeal.Hand.W29 (F := Ideal) m ρ c (Proc.devRef .tc Cert.KernelIdeal.main_v193) = Cert.Proof.Parts.RW (F := Ideal) m' c (Proc.devRef .tc Cert.ReferenceIdeal.main_v199) := by
  rw [Cert.KernelIdeal.Hand.kst_main_v193 (F := Ideal) m ρ c, i_cst_44__cst_48 m ρ m' hag c]
  exact (Cert.Proof.Parts.rst_main_v199 (F := Ideal) m' c).symm
theorem i_v194__v200 (c : Dev Cert.KernelIdeal.nD) : Cert.KernelIdeal.Hand.W29 (F := Ideal) m ρ c (Proc.devRef .tc Cert.KernelIdeal.main_v194) = Cert.Proof.Parts.RW (F := Ideal) m' c (Proc.devRef .tc Cert.ReferenceIdeal.main_v200) := by
  rw [Cert.KernelIdeal.Hand.kst_main_v194 (F := Ideal) m ρ c, i_v192__v198 m ρ m' hag c, i_v193__v199 m ρ m' hag c]
  exact (Cert.Proof.Parts.rst_main_v200 (F := Ideal) m' c).symm
theorem i_v195__v201 (c : Dev Cert.KernelIdeal.nD) : Cert.KernelIdeal.Hand.W29 (F := Ideal) m ρ c (Proc.devRef .tc Cert.KernelIdeal.main_v195) = Cert.Proof.Parts.RW (F := Ideal) m' c (Proc.devRef .tc Cert.ReferenceIdeal.main_v201) := by
  rw [Cert.KernelIdeal.Hand.kst_main_v195 (F := Ideal) m ρ c, i_v194__v200 m ρ m' hag c]
  exact (Cert.Proof.Parts.rst_main_v201 (F := Ideal) m' c).symm
theorem i_v196__v202 (c : Dev Cert.KernelIdeal.nD) : Cert.KernelIdeal.Hand.W29 (F := Ideal) m ρ c (Proc.devRef .tc Cert.KernelIdeal.main_v196) = Cert.Proof.Parts.RW (F := Ideal) m' c (Proc.devRef .tc Cert.ReferenceIdeal.main_v202) := by
  rw [Cert.KernelIdeal.Hand.kst_main_v196 (F := Ideal) m ρ c, i_arg2__arg2 m ρ m' hag c, i_v195__v201 m ρ m' hag c]
  exact (Cert.Proof.Parts.rst_main_v202 (F := Ideal) m' c).symm
theorem i_c_52__c_58 (c : Dev Cert.KernelIdeal.nD) : Cert.KernelIdeal.Hand.W29 (F := Ideal) m ρ c (Proc.devRef .tc Cert.KernelIdeal.main_c_52) = Cert.Proof.Parts.RW (F := Ideal) m' c (Proc.devRef .tc Cert.ReferenceIdeal.main_c_58) := by
  rw [Cert.KernelIdeal.Hand.kst_main_c_52 (F := Ideal) m ρ c]
  exact (Cert.Proof.Parts.rst_main_c_58 (F := Ideal) m' c).symm
theorem i_v223__v232 (c : Dev Cert.KernelIdeal.nD) : Cert.KernelIdeal.Hand.W29 (F := Ideal) m ρ c (Proc.devRef .tc Cert.KernelIdeal.main_v223) = Cert.Proof.Parts.RW (F := Ideal) m' c (Proc.devRef .tc Cert.ReferenceIdeal.main_v232) := by
  rw [Cert.KernelIdeal.Hand.kst_main_v223 (F := Ideal) m ρ c, i_c_52__c_58 m ρ m' hag c]
  exact (Cert.Proof.Parts.rst_main_v232 (F := Ideal) m' c).symm
theorem i_v224__v233 (c : Dev Cert.KernelIdeal.nD) : Cert.KernelIdeal.Hand.W29 (F := Ideal) m ρ c (Proc.devRef .tc Cert.KernelIdeal.main_v224) = Cert.Proof.Parts.RW (F := Ideal) m' c (Proc.devRef .tc Cert.ReferenceIdeal.main_v233) := by
  rw [Cert.KernelIdeal.Hand.kst_main_v224 (F := Ideal) m ρ c, e_arg11__arg11 m ρ m' hag c, i_v223__v232 m ρ m' hag c]
  exact (Cert.Proof.Parts.rst_main_v233 (F := Ideal) m' c).symm
theorem i_c_53__c_59 (c : Dev Cert.KernelIdeal.nD) : Cert.KernelIdeal.Hand.W29 (F := Ideal) m ρ c (Proc.devRef .tc Cert.KernelIdeal.main_c_53) = Cert.Proof.Parts.RW (F := Ideal) m' c (Proc.devRef .tc Cert.ReferenceIdeal.main_c_59) := by
  rw [Cert.KernelIdeal.Hand.kst_main_c_53 (F := Ideal) m ρ c]
  exact (Cert.Proof.Parts.rst_main_c_59 (F := Ideal) m' c).symm
theorem i_v225__v234 (c : Dev Cert.KernelIdeal.nD) : Cert.KernelIdeal.Hand.W29 (F := Ideal) m ρ c (Proc.devRef .tc Cert.KernelIdeal.main_v225) = Cert.Proof.Parts.RW (F := Ideal) m' c (Proc.devRef .tc Cert.ReferenceIdeal.main_v234) := by
  rw [Cert.KernelIdeal.Hand.kst_main_v225 (F := Ideal) m ρ c, i_c_53__c_59 m ρ m' hag c]
  exact (Cert.Proof.Parts.rst_main_v234 (F := Ideal) m' c).symm
theorem i_v226__v235 (c : Dev Cert.KernelIdeal.nD) : Cert.KernelIdeal.Hand.W29 (F := Ideal) m ρ c (Proc.devRef .tc Cert.KernelIdeal.main_v226) = Cert.Proof.Parts.RW (F := Ideal) m' c (Proc.devRef .tc Cert.ReferenceIdeal.main_v235) := by
  rw [Cert.KernelIdeal.Hand.kst_main_v226 (F := Ideal) m ρ c, e_arg11__arg11 m ρ m' hag c, i_v225__v234 m ρ m' hag c]
  exact (Cert.Proof.Parts.rst_main_v235 (F := Ideal) m' c).symm
theorem i_v227__v236 (c : Dev Cert.KernelIdeal.nD) : Cert.KernelIdeal.Hand.W29 (F := Ideal) m ρ c (Proc.devRef .tc Cert.KernelIdeal.main_v227) = Cert.Proof.Parts.RW (F := Ideal) m' c (Proc.devRef .tc Cert.ReferenceIdeal.main_v236) := by
  rw [Cert.KernelIdeal.Hand.kst_main_v227 (F := Ideal) m ρ c, i_v224__v233 m ρ m' hag c, i_v226__v235 m ρ m' hag c, e_arg11__arg11 m ρ m' hag c]
  exact (Cert.Proof.Parts.rst_main_v236 (F := Ideal) m' c).symm
theorem i_v228__v237 (c : Dev Cert.KernelIdeal.nD) : Cert.KernelIdeal.Hand.W29 (F := Ideal) m ρ c (Proc.devRef .tc Cert.KernelIdeal.main_v228) = Cert.Proof.Parts.RW (F := Ideal) m' c (Proc.devRef .tc Cert.ReferenceIdeal.main_v237) := by
  rw [Cert.KernelIdeal.Hand.kst_main_v228 (F := Ideal) m ρ c, i_v227__v236 m ρ m' hag c]
  exact (Cert.Proof.Parts.rst_main_v237 (F := Ideal) m' c).symm
theorem i_v229__v238 (c : Dev Cert.KernelIdeal.nD) : Cert.KernelIdeal.Hand.W29 (F := Ideal) m ρ c (Proc.devRef .tc Cert.KernelIdeal.main_v229) = Cert.Proof.Parts.RW (F := Ideal) m' c (Proc.devRef .tc Cert.ReferenceIdeal.main_v238) := by
  rw [Cert.KernelIdeal.Hand.kst_main_v229 (F := Ideal) m ρ c, e_arg1__arg1 m ρ m' hag c, i_v228__v237 m ρ m' hag c]
  exact (Cert.Proof.Parts.rst_main_v238 (F := Ideal) m' c).symm
theorem i_call8_v0__call8_v0 (c : Dev Cert.KernelIdeal.nD) : Cert.KernelIdeal.Hand.W29 (F := Ideal) m ρ c (Proc.devRef .tc Cert.KernelIdeal.main_call8_v0) = Cert.Proof.Parts.RW (F := Ideal) m' c (Proc.devRef .tc Cert.ReferenceIdeal.main_call8_v0) := by
  rw [Cert.KernelIdeal.Hand.kst_main_call8_v0 (F := Ideal) m ρ c, i_v229__v238 m ρ m' hag c]
  exact (Cert.Proof.Parts.rst_main_call8_v0 (F := Ideal) m' c).symm
theorem i_call8_cst__call8_cst (c : Dev Cert.KernelIdeal.nD) : Cert.KernelIdeal.Hand.W29 (F := Ideal) m ρ c (Proc.devRef .tc Cert.KernelIdeal.main_call8_cst) = Cert.Proof.Parts.RW (F := Ideal) m' c (Proc.devRef .tc Cert.ReferenceIdeal.main_call8_cst) := by
  rw [Cert.KernelIdeal.Hand.kst_main_call8_cst (F := Ideal) m ρ c]
  exact (Cert.Proof.Parts.rst_main_call8_cst (F := Ideal) m' c).symm
theorem i_call8_v1__call8_v1 (c : Dev Cert.KernelIdeal.nD) : Cert.KernelIdeal.Hand.W29 (F := Ideal) m ρ c (Proc.devRef .tc Cert.KernelIdeal.main_call8_v1) = Cert.Proof.Parts.RW (F := Ideal) m' c (Proc.devRef .tc Cert.ReferenceIdeal.main_call8_v1) := by
  rw [Cert.KernelIdeal.Hand.kst_main_call8_v1 (F := Ideal) m ρ c, i_call8_v0__call8_v0 m ρ m' hag c, i_call8_cst__call8_cst m ρ m' hag c]
  exact (Cert.Proof.Parts.rst_main_call8_v1 (F := Ideal) m' c).symm
theorem i_call8_v2__call8_v2 (c : Dev Cert.KernelIdeal.nD) : Cert.KernelIdeal.Hand.W29 (F := Ideal) m ρ c (Proc.devRef .tc Cert.KernelIdeal.main_call8_v2) = Cert.Proof.Parts.RW (F := Ideal) m' c (Proc.devRef .tc Cert.ReferenceIdeal.main_call8_v2) := by
  rw [Cert.KernelIdeal.Hand.kst_main_call8_v2 (F := Ideal) m ρ c, i_call8_v1__call8_v1 m ρ m' hag c]
  exact (Cert.Proof.Parts.rst_main_call8_v2 (F := Ideal) m' c).symm
theorem i_v230__v239 (c : Dev Cert.KernelIdeal.nD) : Cert.KernelIdeal.Hand.W29 (F := Ideal) m ρ c (Proc.devRef .tc Cert.KernelIdeal.main_v230) = Cert.Proof.Parts.RW (F := Ideal) m' c (Proc.devRef .tc Cert.ReferenceIdeal.main_v239) := by
  rw [Cert.KernelIdeal.Hand.kst_main_v230 (F := Ideal) m ρ c, i_call8_v2__call8_v2 m ρ m' hag c]
  exact (Cert.Proof.Parts.rst_main_v239 (F := Ideal) m' c).symm
theorem i_cst_54__cst_60 (c : Dev Cert.KernelIdeal.nD) : Cert.KernelIdeal.Hand.W29 (F := Ideal) m ρ c (Proc.devRef .tc Cert.KernelIdeal.main_cst_54) = Cert.Proof.Parts.RW (F := Ideal) m' c (Proc.devRef .tc Cert.ReferenceIdeal.main_cst_60) := by
  rw [Cert.KernelIdeal.Hand.kst_main_cst_54 (F := Ideal) m ρ c]
  exact (Cert.Proof.Parts.rst_main_cst_60 (F := Ideal) m' c).symm
theorem i_v231__v240 (c : Dev Cert.KernelIdeal.nD) : Cert.KernelIdeal.Hand.W29 (F := Ideal) m ρ c (Proc.devRef .tc Cert.KernelIdeal.main_v231) = Cert.Proof.Parts.RW (F := Ideal) m' c (Proc.devRef .tc Cert.ReferenceIdeal.main_v240) := by
  rw [Cert.KernelIdeal.Hand.kst_main_v231 (F := Ideal) m ρ c, i_cst_54__cst_60 m ρ m' hag c]
  exact (Cert.Proof.Parts.rst_main_v240 (F := Ideal) m' c).symm
theorem i_v232__v241 (c : Dev Cert.KernelIdeal.nD) : Cert.KernelIdeal.Hand.W29 (F := Ideal) m ρ c (Proc.devRef .tc Cert.KernelIdeal.main_v232) = Cert.Proof.Parts.RW (F := Ideal) m' c (Proc.devRef .tc Cert.ReferenceIdeal.main_v241) := by
  rw [Cert.KernelIdeal.Hand.kst_main_v232 (F := Ideal) m ρ c, i_v230__v239 m ρ m' hag c, i_v231__v240 m ρ m' hag c]
  exact (Cert.Proof.Parts.rst_main_v241 (F := Ideal) m' c).symm
theorem i_v233__v242 (c : Dev Cert.KernelIdeal.nD) : Cert.KernelIdeal.Hand.W29 (F := Ideal) m ρ c (Proc.devRef .tc Cert.KernelIdeal.main_v233) = Cert.Proof.Parts.RW (F := Ideal) m' c (Proc.devRef .tc Cert.ReferenceIdeal.main_v242) := by
  rw [Cert.KernelIdeal.Hand.kst_main_v233 (F := Ideal) m ρ c, i_v232__v241 m ρ m' hag c]
  exact (Cert.Proof.Parts.rst_main_v242 (F := Ideal) m' c).symm
theorem i_v234__v243 (c : Dev Cert.KernelIdeal.nD) : Cert.KernelIdeal.Hand.W29 (F := Ideal) m ρ c (Proc.devRef .tc Cert.KernelIdeal.main_v234) = Cert.Proof.Parts.RW (F := Ideal) m' c (Proc.devRef .tc Cert.ReferenceIdeal.main_v243) := by
  rw [Cert.KernelIdeal.Hand.kst_main_v234 (F := Ideal) m ρ c, i_v229__v238 m ρ m' hag c, i_v233__v242 m ρ m' hag c]
  exact (Cert.Proof.Parts.rst_main_v243 (F := Ideal) m' c).symm
theorem i_arg3__arg3 (c : Dev Cert.KernelIdeal.nD) : Cert.KernelIdeal.Hand.W29 (F := Ideal) m ρ c (Proc.devRef .tc Cert.KernelIdeal.main_arg3) = Cert.Proof.Parts.RW (F := Ideal) m' c (Proc.devRef .tc Cert.ReferenceIdeal.main_arg3) :=
  (Cert.KernelIdeal.Hand.W29_main_arg3 (F := Ideal) m ρ c).trans (((hag c).2.2.2.1).symm.trans (Cert.Proof.Parts.ref_kept (F := Ideal) m' c Cert.ReferenceIdeal.main_arg3 (by decide)).symm)
theorem i_call9_v0__call9_v0 (c : Dev Cert.KernelIdeal.nD) : Cert.KernelIdeal.Hand.W29 (F := Ideal) m ρ c (Proc.devRef .tc Cert.KernelIdeal.main_call9_v0) = Cert.Proof.Parts.RW (F := Ideal) m' c (Proc.devRef .tc Cert.ReferenceIdeal.main_call9_v0) := by
  rw [Cert.KernelIdeal.Hand.kst_main_call9_v0 (F := Ideal) m ρ c, i_arg3__arg3 m ρ m' hag c]
  exact (Cert.Proof.Parts.rst_main_call9_v0 (F := Ideal) m' c).symm
theorem i_call9_cst__call9_cst (c : Dev Cert.KernelIdeal.nD) : Cert.KernelIdeal.Hand.W29 (F := Ideal) m ρ c (Proc.devRef .tc Cert.KernelIdeal.main_call9_cst) = Cert.Proof.Parts.RW (F := Ideal) m' c (Proc.devRef .tc Cert.ReferenceIdeal.main_call9_cst) := by
  rw [Cert.KernelIdeal.Hand.kst_main_call9_cst (F := Ideal) m ρ c]
  exact (Cert.Proof.Parts.rst_main_call9_cst (F := Ideal) m' c).symm
theorem i_call9_v1__call9_v1 (c : Dev Cert.KernelIdeal.nD) : Cert.KernelIdeal.Hand.W29 (F := Ideal) m ρ c (Proc.devRef .tc Cert.KernelIdeal.main_call9_v1) = Cert.Proof.Parts.RW (F := Ideal) m' c (Proc.devRef .tc Cert.ReferenceIdeal.main_call9_v1) := by
  rw [Cert.KernelIdeal.Hand.kst_main_call9_v1 (F := Ideal) m ρ c, i_call9_v0__call9_v0 m ρ m' hag c, i_call9_cst__call9_cst m ρ m' hag c]
  exact (Cert.Proof.Parts.rst_main_call9_v1 (F := Ideal) m' c).symm
theorem i_call9_v2__call9_v2 (c : Dev Cert.KernelIdeal.nD) : Cert.KernelIdeal.Hand.W29 (F := Ideal) m ρ c (Proc.devRef .tc Cert.KernelIdeal.main_call9_v2) = Cert.Proof.Parts.RW (F := Ideal) m' c (Proc.devRef .tc Cert.ReferenceIdeal.main_call9_v2) := by
  rw [Cert.KernelIdeal.Hand.kst_main_call9_v2 (F := Ideal) m ρ c, i_call9_v1__call9_v1 m ρ m' hag c]
  exact (Cert.Proof.Parts.rst_main_call9_v2 (F := Ideal) m' c).symm
theorem i_v235__v244 (c : Dev Cert.KernelIdeal.nD) : Cert.KernelIdeal.Hand.W29 (F := Ideal) m ρ c (Proc.devRef .tc Cert.KernelIdeal.main_v235) = Cert.Proof.Parts.RW (F := Ideal) m' c (Proc.devRef .tc Cert.ReferenceIdeal.main_v244) := by
  rw [Cert.KernelIdeal.Hand.kst_main_v235 (F := Ideal) m ρ c, i_call9_v2__call9_v2 m ρ m' hag c]
  exact (Cert.Proof.Parts.rst_main_v244 (F := Ideal) m' c).symm
theorem i_cst_55__cst_61 (c : Dev Cert.KernelIdeal.nD) : Cert.KernelIdeal.Hand.W29 (F := Ideal) m ρ c (Proc.devRef .tc Cert.KernelIdeal.main_cst_55) = Cert.Proof.Parts.RW (F := Ideal) m' c (Proc.devRef .tc Cert.ReferenceIdeal.main_cst_61) := by
  rw [Cert.KernelIdeal.Hand.kst_main_cst_55 (F := Ideal) m ρ c]
  exact (Cert.Proof.Parts.rst_main_cst_61 (F := Ideal) m' c).symm
theorem i_v236__v245 (c : Dev Cert.KernelIdeal.nD) : Cert.KernelIdeal.Hand.W29 (F := Ideal) m ρ c (Proc.devRef .tc Cert.KernelIdeal.main_v236) = Cert.Proof.Parts.RW (F := Ideal) m' c (Proc.devRef .tc Cert.ReferenceIdeal.main_v245) := by
  rw [Cert.KernelIdeal.Hand.kst_main_v236 (F := Ideal) m ρ c, i_cst_55__cst_61 m ρ m' hag c]
  exact (Cert.Proof.Parts.rst_main_v245 (F := Ideal) m' c).symm
theorem i_v237__v246 (c : Dev Cert.KernelIdeal.nD) : Cert.KernelIdeal.Hand.W29 (F := Ideal) m ρ c (Proc.devRef .tc Cert.KernelIdeal.main_v237) = Cert.Proof.Parts.RW (F := Ideal) m' c (Proc.devRef .tc Cert.ReferenceIdeal.main_v246) := by
  rw [Cert.KernelIdeal.Hand.kst_main_v237 (F := Ideal) m ρ c, i_v235__v244 m ρ m' hag c, i_v236__v245 m ρ m' hag c]
  exact (Cert.Proof.Parts.rst_main_v246 (F := Ideal) m' c).symm
theorem i_v238__v247 (c : Dev Cert.KernelIdeal.nD) : Cert.KernelIdeal.Hand.W29 (F := Ideal) m ρ c (Proc.devRef .tc Cert.KernelIdeal.main_v238) = Cert.Proof.Parts.RW (F := Ideal) m' c (Proc.devRef .tc Cert.ReferenceIdeal.main_v247) := by
  rw [Cert.KernelIdeal.Hand.kst_main_v238 (F := Ideal) m ρ c, i_v237__v246 m ρ m' hag c]
  exact (Cert.Proof.Parts.rst_main_v247 (F := Ideal) m' c).symm
theorem i_v239__v248 (c : Dev Cert.KernelIdeal.nD) : Cert.KernelIdeal.Hand.W29 (F := Ideal) m ρ c (Proc.devRef .tc Cert.KernelIdeal.main_v239) = Cert.Proof.Parts.RW (F := Ideal) m' c (Proc.devRef .tc Cert.ReferenceIdeal.main_v248) := by
  rw [Cert.KernelIdeal.Hand.kst_main_v239 (F := Ideal) m ρ c, i_arg3__arg3 m ρ m' hag c, i_v238__v247 m ρ m' hag c]
  exact (Cert.Proof.Parts.rst_main_v248 (F := Ideal) m' c).symm
end Cert.Proof.Match

end
-- ==== Proof.LibCoveredLoad.lean ====
/-
  A load of a whole buffer after several stores, the LAST of which stored the whole buffer, reads what that last
  store wrote, whatever the earlier stores were.
-/
import Idealize.ShloMosaic.Lib.Pipeline.Value

namespace Cert.Lib.CoveredLoad

open Idealize.ShloMosaic

variable {Val : EltTy → Type} [∀ e, Nonempty (Val e)] {S : Shape} {e : EltTy}

/-- The pieces are listed last first: the head piece is the whole buffer, so the covered load is its payload. -/
theorem readCov_cons_unit_zero {sig : RefSig} {κ : Kind} {sp : Space} (v : View sig κ sp S e)
    {off : Fin S.rank → Nat} (h : off = fun _ => 0) (inb : ∀ a, off a + S.size a ≤ S.size a) (w : S.Idx → Val e)
    (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.Lib.CoveredLoad
-- ==== Proof.KIValue0.lean ====
/-
  Pipeline 0's body as arithmetic on the extended reals.  At a first tile the accumulator ends at the payload of the
  point's two blocks over the cleared accumulator; at a later tile at the payload over what it held; at a last tile the
  output block is stored with that same value.  Read at row ρ, the payload is what the accumulator held there plus the sum
  over the tile's 5000 rows k of exp (scale · Σ_d q[ρ,d] · t[k,d]).
-/
import proofs.«110517_j15659450761722_1_alg».proof.Proof.KIRegion0
import proofs.«110517_j15659450761722_1_alg».proof.Proof.LibCoveredLoad
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.ShloMosaic.Tactic Idealize.SL.Sem
namespace Cert.KernelIdeal.Hand
open Cert.KernelIdeal Cert.KernelIdeal.Gen ValueIdx

theorem hz0 : (![0, 0] : Fin 2 → Nat) = fun _ => 0 := funext fun a => by fin_cases a <;> rfl

section Pieces
variable {F : FTy → Type} [FloatOps F] [Named F]

/-- A first tile leaves the accumulator at the payload over the cleared accumulator. -/
theorem accA0_eq (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first0 i) (hlast : ¬last0 i) (x0 : Vec F S256x64 .f32) (x1 : Vec F S5000x64 .f32) :
    accA0 c i arg2 harg2 arg3 harg3 arg4 harg4 arg5 harg5 hfirst hlast x0 x1 = k0_pay2 x0 x1 (k0_pay1 (F := F)) := by
  unfold accA0
  rw [View.read_writes_eq_canon _ _ _ (accCoverA0 c i arg2 harg2 arg3 harg3 arg4 harg4 arg5 harg5 hfirst hlast x0 x1)]
  unfold bodyRun0_A
  dsimp only
  try sl_unfold_words
  first | rw [View.canon_unit_zero hz0] | rw [View.canon_cons_unit_zero hz0]
  simp only [View.readCov_unit_zero (S := S256x1) _ hz0, View.readAt_eq_ld, harg2.read_unread, harg3.read_unread, harg5.read_unread,
    View.ld_unit_zero (S := S256x64) hz0, View.ld_unit_zero (S := S5000x64) hz0, View.ld_unit_zero (S := S256x1) hz0]

/-- A middle tile leaves it at the payload over what it held. -/
theorem accB0_eq (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : ¬last0 i) (x0 : Vec F S256x64 .f32) (x1 : Vec F S5000x64 .f32) (xs : Vec F S256x1 .f32) :
    accB0 c i arg2 harg2 arg3 harg3 arg4 harg4 arg5 harg5 hfirst hlast x0 x1 xs = k0_pay2 x0 x1 xs := by
  unfold accB0
  rw [View.read_writes_eq_canon _ _ _ (accCoverB0 c i arg2 harg2 arg3 harg3 arg4 harg4 arg5 harg5 hfirst hlast x0 x1 xs)]
  unfold bodyRun0_B
  dsimp only
  try sl_unfold_words
  first | rw [View.canon_unit_zero hz0] | rw [View.canon_cons_unit_zero hz0]
  simp only [View.readCov_unit_zero (S := S256x1) _ hz0, View.readAt_eq_ld, harg2.read_unread, harg3.read_unread, harg5.read_unread,
    View.ld_unit_zero (S := S256x64) hz0, View.ld_unit_zero (S := S5000x64) hz0, View.ld_unit_zero (S := S256x1) hz0]

/-- A last tile: the same for the accumulator, -/
theorem accC0_eq (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) :
    accC0 c i arg2 harg2 arg3 harg3 arg4 harg4 arg5 harg5 hfirst hlast x0 x1 xs = k0_pay2 x0 x1 xs := by
  unfold accC0
  rw [View.read_writes_eq_canon _ _ _ (accCoverC0 c i arg2 harg2 arg3 harg3 arg4 harg4 arg5 harg5 hfirst hlast x0 x1 xs)]
  unfold bodyRun0_C
  dsimp only
  try sl_unfold_words
  first | rw [View.canon_unit_zero hz0] | rw [View.canon_cons_unit_zero hz0]
  simp only [View.readCov_unit_zero (S := S256x1) _ hz0, View.readAt_eq_ld, harg2.read_unread, harg3.read_unread, harg5.read_unread,
    View.ld_unit_zero (S := S256x64) hz0, View.ld_unit_zero (S := S5000x64) hz0, View.ld_unit_zero (S := S256x1) hz0]

/-- and the output block is stored with that value. -/
theorem outC0_eq (c : Dev nD) (i : grid0.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first0 i) (hlast : last0 i) (x0 : Vec F S256x64 .f32) (x1 : Vec F S5000x64 .f32) (xs : Vec F S256x1 .f32) :
    outC0 c i arg2 harg2 arg3 harg3 arg4 harg4 arg5 harg5 hfirst hlast x0 x1 xs = k0_pay2 x0 x1 xs := by
  unfold outC0
  rw [View.read_writes_eq_canon _ _ _ (outCoverC0 c i arg2 harg2 arg3 harg3 arg4 harg4 arg5 harg5 hfirst hlast x0 x1 xs)]
  unfold bodyRun0_C
  dsimp only
  try sl_unfold_words
  first | rw [View.canon_unit_zero hz0] | rw [View.canon_cons_unit_zero hz0]
  simp only [View.readCov_unit_zero (S := S256x1) _ hz0, View.readAt_eq_ld, harg2.read_unread, harg3.read_unread, harg5.read_unread,
    View.ld_unit_zero (S := S256x64) hz0, View.ld_unit_zero (S := S5000x64) hz0, View.ld_unit_zero (S := S256x1) hz0]

end Pieces

/-- The lane sum at a row. -/
theorem lane0_apply (y : FVec Ideal S256x5000 .f32) (ρ : Fin 256) :
    multiReduction .add [1] S256 y 0x00000000#32 reduces_S256x5000_S256 (.inl rfl) rfl (ix1 ρ) = ∑ k : Fin 5000, y (ix2 ρ k) := by
  refine (Ideal.multiReduction_add_single y 0x00000000#32 reduces_S256x5000_S256 (.inl rfl) rfl (ix1 ρ)).trans ?_
  exact Finset.sum_congr rfl fun k _ => congrArg y (funext fun a => Fin.ext (by match a with | ⟨0, _⟩ => rfl | ⟨1, _⟩ => rfl))

/-- A vector of 256 stood up as a 256 × 1 column, read at row ρ. -/
theorem col0_apply {α : Type} (y : S256.Idx → α) (ρ : Fin 256) :
    shapeCast S256x1 y shapeCasts_S256_S256x1 (ix2 ρ 0) = y (ix1 ρ) :=
  shapeCast_apply y shapeCasts_S256_S256x1 (ix2 ρ 0) (ix1 ρ) (by
    rw [Shape.rowMajor_val_one, Shape.rowMajor_val_two]
    show ρ.val = ρ.val * 1 + 0
    omega)

/-- The named scale at the extended reals. -/
theorem kappa0_val : Named.named (F := Ideal) κ "inv_temp" (φ := .f32) 0x41200000#32 = ((134217728 / 13421773 : ℝ) : EReal) :=
  IdealRules.named_const.ideal_named_scalar _ _ _ _ rfl

theorem lhs0_0 (i : S256x5000.Idx) (q : dot_S256x64_S5000x64_S256x5000_1_1_0_0_n_n.contr.Idx) : (dot_S256x64_S5000x64_S256x5000_1_1_0_0_n_n.lhsIdx i q 0).val = (i 0).val := by
  unfold DotDims.lhsIdx
  rw [dif_neg (show ¬(0 : Fin S256x64.rank) ∈ dot_S256x64_S5000x64_S256x5000_1_1_0_0_n_n.lhsBatch by decide), dif_pos (show (0 : Fin S256x64.rank) ∈ dot_S256x64_S5000x64_S256x5000_1_1_0_0_n_n.lhsNonContracting by decide)]
  rfl
theorem lhs0_1 (i : S256x5000.Idx) (q : dot_S256x64_S5000x64_S256x5000_1_1_0_0_n_n.contr.Idx) : (dot_S256x64_S5000x64_S256x5000_1_1_0_0_n_n.lhsIdx i q 1).val = (q ⟨0, by decide⟩).val :=
  dot_S256x64_S5000x64_S256x5000_1_1_0_0_n_n.lhsIdx_val_of_single rfl i q
theorem rhs0_0 (i : S256x5000.Idx) (q : dot_S256x64_S5000x64_S256x5000_1_1_0_0_n_n.contr.Idx) : (dot_S256x64_S5000x64_S256x5000_1_1_0_0_n_n.rhsIdx i q 0).val = (i 1).val := by
  unfold DotDims.rhsIdx
  rw [dif_neg (show ¬(0 : Fin S5000x64.rank) ∈ dot_S256x64_S5000x64_S256x5000_1_1_0_0_n_n.rhsBatch by decide), dif_pos (show (0 : Fin S5000x64.rank) ∈ dot_S256x64_S5000x64_S256x5000_1_1_0_0_n_n.rhsNonContracting by decide)]
  rfl
theorem rhs0_1 (i : S256x5000.Idx) (q : dot_S256x64_S5000x64_S256x5000_1_1_0_0_n_n.contr.Idx) : (dot_S256x64_S5000x64_S256x5000_1_1_0_0_n_n.rhsIdx i q 1).val = (q ⟨0, by decide⟩).val :=
  dot_S256x64_S5000x64_S256x5000_1_1_0_0_n_n.rhsIdx_val_of_single rfl i q

/-- The tile product at an entry: row ρ of the query block against row k of the table tile. -/
theorem mm0_apply (l : FVec Ideal S256x64 .bf16) (r : FVec Ideal S5000x64 .bf16) (ρ : Fin 256) (k : Fin 5000) :
    matmul dot_S256x64_S5000x64_S256x5000_1_1_0_0_n_n none l r (constant S256x5000 .f32 0x00000000#32) (ix2 ρ k)
      = ∑ d : Fin 64, l (ix2 ρ d) * r (ix2 k d) := by
  refine (Ideal.matmul_constant_zero_apply dot_S256x64_S5000x64_S256x5000_1_1_0_0_n_n none l r (ix2 ρ k)).trans ?_
  rw [← Equiv.sum_comp (ValueIdx.contrEquiv1 dot_S256x64_S5000x64_S256x5000_1_1_0_0_n_n 64 rfl rfl).symm]
  refine Finset.sum_congr rfl fun d _ => ?_
  have hk := ValueIdx.contrEquiv1_symm_val dot_S256x64_S5000x64_S256x5000_1_1_0_0_n_n 64 rfl rfl d
  have el : dot_S256x64_S5000x64_S256x5000_1_1_0_0_n_n.lhsIdx (ix2 ρ k) ((ValueIdx.contrEquiv1 dot_S256x64_S5000x64_S256x5000_1_1_0_0_n_n 64 rfl rfl).symm d) = ix2 ρ d := funext fun a => Fin.ext (by
    match a with
    | ⟨0, _⟩ => exact lhs0_0 _ _
    | ⟨1, _⟩ => exact (lhs0_1 _ _).trans hk)
  have er : dot_S256x64_S5000x64_S256x5000_1_1_0_0_n_n.rhsIdx (ix2 ρ k) ((ValueIdx.contrEquiv1 dot_S256x64_S5000x64_S256x5000_1_1_0_0_n_n 64 rfl rfl).symm d) = ix2 k d := funext fun a => Fin.ext (by
    match a with
    | ⟨0, _⟩ => exact rhs0_0 _ _
    | ⟨1, _⟩ => exact (rhs0_1 _ _).trans hk)
  rw [el, er]

/-- The body's accumulator payload at row ρ. -/
theorem pay0_apply (x0 : Vec Ideal S256x64 .f32) (x1 : Vec Ideal S5000x64 .f32) (z : Vec Ideal S256x1 .f32) (ρ : Fin 256) :
    k0_pay2 (F := Ideal) x0 x1 z (ix2 ρ 0)
      = z (ix2 ρ 0) + ∑ k : Fin 5000, Ideal.exp ((∑ d : Fin 64, x0 (ix2 ρ d) * x1 (ix2 k d)) * ((134217728 / 13421773 : ℝ) : EReal)) := by
  have e1 : k0_pay2 (F := Ideal) x0 x1 z = addf z (shapeCast S256x1 (multiReduction .add [1] S256 (exp (mulf
      (matmul dot_S256x64_S5000x64_S256x5000_1_1_0_0_n_n none (truncf .bf16 x0 bitsLt_bf16_f32) (truncf .bf16 x1 bitsLt_bf16_f32) (constant S256x5000 .f32 0x00000000#32))
      (broadcast S256x5000 (Named.named κ "inv_temp" 0x41200000#32)))) 0x00000000#32 reduces_S256x5000_S256 (.inl rfl) rfl) shapeCasts_S256_S256x1) := by
    unfold k0_pay2; simp only [shapeCast_self]
  rw [e1, addf_apply, col0_apply, lane0_apply]
  congr 1
  refine Finset.sum_congr rfl fun k _ => ?_
  show Ideal.exp (matmul (F := Ideal) dot_S256x64_S5000x64_S256x5000_1_1_0_0_n_n none (truncf .bf16 x0 bitsLt_bf16_f32) (truncf .bf16 x1 bitsLt_bf16_f32) (constant (F := Ideal) S256x5000 .f32 0x00000000#32) (ix2 ρ k)
      * Named.named (F := Ideal) κ "inv_temp" (φ := .f32) 0x41200000#32) = _
  rw [mm0_apply, kappa0_val]
  rfl

end Cert.KernelIdeal.Hand
end
-- ==== Proof.LibBlockSum.lean ====
/-
  A sum over `K = kt * n` consecutive positions, cut into `kt` blocks of `n` positions each, is the sum over the
  blocks of the sums inside each block: position `k * n + i` is position `i` of block `k`. Stated for any
  commutative additive monoid (the extended reals among them: no finiteness is asked).
-/
import Mathlib.Algebra.BigOperators.Fin
import Mathlib.Logic.Equiv.Fin.Basic

open scoped BigOperators

namespace Cert.Lib

/-- Position `i` of block `k` is below `kt * n`. -/
theorem blockPos_lt {kt n K : ℕ} (h : kt * n = K) (k : Fin kt) (i : Fin n) : k.val * n + i.val < K := by
  have hk := k.isLt
  have hi := i.isLt
  calc k.val * n + i.val < k.val * n + n := by omega
    _ = (k.val + 1) * n := by rw [Nat.succ_mul]
    _ ≤ kt * n := Nat.mul_le_mul_right _ hk
    _ = K := h

/-- The sum over all `K = kt * n` positions is the sum over the `kt` blocks of the sums over each block's `n` positions. -/
theorem sum_blocks {M : Type*} [AddCommMonoid M] {kt n K : ℕ} (h : kt * n = K) (f : Fin K → M) :
    ∑ c : Fin K, f c = ∑ k : Fin kt, ∑ i : Fin n, f ⟨k.val * n + i.val, blockPos_lt h k i⟩ := by
  subst h
  rw [← Equiv.sum_comp finProdFinEquiv f, Fintype.sum_prod_type]
  refine Finset.sum_congr rfl fun k _ => Finset.sum_congr rfl fun i _ => ?_
  refine congrArg f (Fin.ext ?_)
  show i.val + n * k.val = k.val * n + i.val
  rw [Nat.mul_comm, Nat.add_comm]

end Cert.Lib
-- ==== Proof.KIArray0.lean ====
/-
  Pipeline 0's output array as one function of its two input arrays.  For a block of 256 query rows the body visits the
  table's 10 tiles of 5000 rows in order; after tile k the accumulator at row ρ holds the sum over tiles 0..k of the
  tile's sum of exponentials (induction on the point), and at the last tile that sum — over all 50000 table rows, tile by
  tile — is stored in the output block, which is the only point of the block's 10 that is written back.  The 16 output
  blocks tile the 4096 rows.
-/
import proofs.«110517_j15659450761722_1_alg».proof.Proof.KIValue0
import proofs.«110517_j15659450761722_1_alg».proof.Proof.LibBlockSum

set_option maxRecDepth 16384

noncomputable section
open Idealize.ShloMosaic Idealize.ShloMosaic.TcCoe Idealize.ShloMosaic.Tactic Idealize.SL.Sem
open Idealize.ShloMosaic.Pipeline (Dat)
namespace Cert.KernelIdeal.Hand
open Cert.KernelIdeal Cert.KernelIdeal.Gen ValueIdx

/-- The scale's value. -/
abbrev scaleV0 : EReal := ((134217728 / 13421773 : ℝ) : EReal)

/-- The cleared accumulator reads zero. -/
theorem pay1_0_apply (y : S256x1.Idx) : k0_pay1 (F := Ideal) y = 0 := by
  unfold k0_pay1
  simp only [shapeCast_self]
  show Ideal.ofBits .f32 0x00000000#32 = 0
  exact Ideal.ofBits_zero_f32

variable (V : (c : Dev nD) → (b : Ref sig .tc) → Buf (Elt Ideal) ((c : Thread nD τ).loc b))

/-- One term: the exponential of the scaled score of query row R against table row J. -/
def term0 (Q : S4096x64.Idx → EReal) (T : S50000x64.Idx → EReal) (R : Fin 4096) (J : Fin 50000) : EReal :=
  Ideal.exp ((∑ d : Fin 64, Q (ix2 R d) * T (ix2 J d)) * scaleV0)

/-- The array the pipeline leaves, as a function of its two input arrays. -/
def tot0 (Q : S4096x64.Idx → EReal) (T : S50000x64.Idx → EReal) : S4096x1.Idx → EReal :=
  fun i => 0 + ∑ J : Fin 50000, term0 Q T (⟨(i 0).val, idx2_lt0 i⟩ : Fin 4096) J

/-- Tile k's sum for query row R. -/
def tile0 (Q : S4096x64.Idx → EReal) (T : S50000x64.Idx → EReal) (R : Fin 4096) (k : ℕ) : EReal :=
  if hk : k < 10 then ∑ j : Fin 5000, term0 Q T R ⟨k * 5000 + j.val, by have := j.isLt; omega⟩ else 0

/-- The printed block-index maps over the 160 points: point t is row block t / 10, table tile t % 10. -/
theorem idx_facts0 : ∀ t : Fin cfg0.N, win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = 0 :=
  (by decide +kernel : ∀ t : Fin grid0.N, _)

theorem blkQ0 (c : Dev nD) (t : Fin cfg0.N) (ρ : Fin 256) (d : Fin 64) (R : Fin 4096) (hR : R.val = t.val / 10 * 256 + ρ.val) :
    iblk0 V c 0 t (ix2 ρ d) = V c (Pipeline.arrRef spec0 0) (ix2 R d) := by
  obtain ⟨e0, e1, e2, e3, e4, e5⟩ := idx_facts0 t
  unfold iblk0
  rw [View.read_apply]
  refine congrArg (V c (Pipeline.arrRef spec0 0)) (funext fun a => Fin.ext ?_)
  match a with
  | ⟨0, _⟩ => show win0_0.index t (0 : Fin 2) * 256 + 1 * ρ.val = R.val; omega
  | ⟨1, _⟩ => show win0_0.index t (1 : Fin 2) * 64 + 1 * d.val = d.val; omega

theorem blkT0 (c : Dev nD) (t : Fin cfg0.N) (k : Fin 5000) (d : Fin 64) (J : Fin 50000) (hJ : J.val = t.val % 10 * 5000 + k.val) :
    iblk0 V c 1 t (ix2 k d) = V c (Pipeline.arrRef spec0 1) (ix2 J d) := by
  obtain ⟨e0, e1, e2, e3, e4, e5⟩ := idx_facts0 t
  unfold iblk0
  rw [View.read_apply]
  refine congrArg (V c (Pipeline.arrRef spec0 1)) (funext fun a => Fin.ext ?_)
  match a with
  | ⟨0, _⟩ => show win0_1.index t (0 : Fin 2) * 5000 + 1 * k.val = J.val; omega
  | ⟨1, _⟩ => show win0_1.index t (1 : Fin 2) * 64 + 1 * d.val = d.val; omega

/-- The payload at point t, row ρ: what the accumulator held plus the point's tile sum. -/
theorem pay0_point (c : Dev nD) (t : Fin cfg0.N) (z : Vec Ideal S256x1 .f32) (ρ : Fin 256) (R : Fin 4096)
    (hR : R.val = t.val / 10 * 256 + ρ.val) :
    k0_pay2 (F := Ideal) (iblk0 V c 0 t) (iblk0 V c 1 t) z (ix2 ρ 0)
      = z (ix2 ρ 0) + tile0 (V c (Pipeline.arrRef spec0 0)) (V c (Pipeline.arrRef spec0 1)) R (t.val % 10) := by
  have hk : t.val % 10 < 10 := Nat.mod_lt _ (by decide)
  rw [pay0_apply, tile0, dif_pos hk]
  refine congrArg (_ + ·) (Finset.sum_congr rfl fun j _ => ?_)
  unfold term0
  refine congrArg (fun s => Ideal.exp (s * _)) (Finset.sum_congr rfl fun d _ => ?_)
  rw [blkQ0 V c t ρ d R hR, blkT0 V c t j d ⟨t.val % 10 * 5000 + j.val, by have := j.isLt; omega⟩ rfl]

/-- THE ACCUMULATION at a row: after point n the accumulator holds the sum of the tiles 0 .. n % 10 of the point's row block. -/
theorem acc0_row (c : Dev nD) (ρ : Fin 256) : ∀ (n : ℕ) (hn : n < cfg0.N) (R : Fin 4096) (hR : R.val = n / 10 * 256 + ρ.val),
    accAt0 V c n hn (ix2 ρ 0)
      = ∑ k ∈ Finset.range (n % 10 + 1), tile0 (V c (Pipeline.arrRef spec0 0)) (V c (Pipeline.arrRef spec0 1)) R k := by
  intro n
  induction n using Nat.strong_induction_on with
  | _ n ih =>
    intro hn R hR
    by_cases h0 : n % 10 = 0
    · have h2 : ¬n % 10 = 9 := by omega
      have e := accAt0_A V c ⟨n, hn⟩ h0 h2
      rw [show accAt0 V c n hn = accAt0 V c (⟨n, hn⟩ : Fin cfg0.N).val (⟨n, hn⟩ : Fin cfg0.N).isLt from rfl, e, accA0_eq,
        pay0_point V c ⟨n, hn⟩ _ ρ R hR, pay1_0_apply, h0]
      simp only [zero_add, Finset.sum_range_one]
    · have hpos : 0 < n := Nat.pos_of_ne_zero (fun h => h0 (by rw [h]))
      have hlt : n - 1 < cfg0.N := Nat.lt_of_le_of_lt (Nat.sub_le _ _) hn
      have hdiv : (n - 1) / 10 = n / 10 := by omega
      have hmod : (n - 1) % 10 + 1 = n % 10 := by omega
      have hprev := ih (n - 1) (by omega) hlt R (by rw [hdiv]; exact hR)
      rw [hmod] at hprev
      by_cases h2 : n % 10 = 9
      · have e := accAt0_C V c ⟨n, hn⟩ h0 h2
        rw [show accAt0 V c n hn = accAt0 V c (⟨n, hn⟩ : Fin cfg0.N).val (⟨n, hn⟩ : Fin cfg0.N).isLt from rfl, e, accC0_eq,
          pay0_point V c ⟨n, hn⟩ _ ρ R hR]
        show accAt0 V c (n - 1) hlt (ix2 ρ 0) + tile0 _ _ R (n % 10) = _
        rw [hprev, Finset.sum_range_succ]
      · have e := accAt0_B V c ⟨n, hn⟩ h0 h2
        rw [show accAt0 V c n hn = accAt0 V c (⟨n, hn⟩ : Fin cfg0.N).val (⟨n, hn⟩ : Fin cfg0.N).isLt from rfl, e, accB0_eq,
          pay0_point V c ⟨n, hn⟩ _ ρ R hR]
        show accAt0 V c (n - 1) hlt (ix2 ρ 0) + tile0 _ _ R (n % 10) = _
        rw [hprev, Finset.sum_range_succ]

/-- The 10 tile sums of a row are the sum over the whole table. -/
theorem tiles0_eq (Q : S4096x64.Idx → EReal) (T : S50000x64.Idx → EReal) (R : Fin 4096) :
    ∑ k ∈ Finset.range 10, tile0 Q T R k = ∑ J : Fin 50000, term0 Q T R J := by
  rw [Finset.sum_range, Cert.Lib.sum_blocks (show 10 * 5000 = 50000 from rfl) (term0 Q T R)]
  refine Finset.sum_congr rfl fun k _ => ?_
  rw [tile0, dif_pos k.isLt]

set_option maxRecDepth 65536 in
/-- WHAT A LAST-TILE POINT WRITES BACK is its block of `tot0` of the input arrays. -/
theorem flushed0_eq (c : Dev nD) (t : Fin cfg0.N) (hf : (cfg0.win 2).flush t = true) :
    (dat0 V c).flushed 2 t
      = ((cfg0.win 2).blk t).view.read (Elt Ideal) (tot0 (V c (Pipeline.arrRef spec0 0)) (V c (Pipeline.arrRef spec0 1))) := by
  have h2 : t.val % 10 = 9 := (flush0_2 t).mp hf
  have h0 : ¬t.val % 10 = 0 := by omega
  have hN : cfg0.N = 160 := N_0
  have htl : t.val < 160 := hN ▸ t.isLt
  obtain ⟨e0, e1, e2, e3, e4, e5⟩ := idx_facts0 t
  show (cfg0.win 2).cut (grid0.coords t) ((dat0 V c).after 2 t) = _
  rw [after0_2, outAt0_C V c t h0 h2, outC0_eq]
  funext j
  rw [View.read_apply]
  have hemb : ∀ y : S256x1.Idx, (((cfg0.win 2).blk t).view.emb y 0).val = win0_2.index t (0 : Fin 2) * 256 + 1 * (y 0).val := fun _ => rfl
  obtain ⟨ρ, q, rfl⟩ : ∃ (ρ : Fin 256) (q : Fin 1), j = ix2 ρ q := ⟨j 0, j 1, eq_ix2 j⟩
  obtain rfl : q = 0 := Subsingleton.elim _ _
  have hRlt : t.val / 10 * 256 + ρ.val < 4096 := by have := ρ.isLt; omega
  show k0_pay2 (F := Ideal) (iblk0 V c 0 t) (iblk0 V c 1 t) (accAt0 V c (t.val - 1) (Nat.lt_of_le_of_lt (Nat.sub_le _ _) t.isLt)) (ix2 ρ 0) = _
  rw [pay0_point V c t _ ρ ⟨t.val / 10 * 256 + ρ.val, hRlt⟩ rfl,
    acc0_row V c ρ (t.val - 1) _ ⟨t.val / 10 * 256 + ρ.val, hRlt⟩ (by show t.val / 10 * 256 + ρ.val = (t.val - 1) / 10 * 256 + ρ.val; omega),
    show (t.val - 1) % 10 + 1 = 9 from by omega, h2, ← Finset.sum_range_succ, tiles0_eq]
  unfold tot0
  rw [zero_add]
  refine Finset.sum_congr rfl fun J _ => ?_
  refine congrArg (fun R => term0 _ _ R J) (Fin.ext ?_)
  refine Eq.trans ?_ (hemb (ix2 ρ 0)).symm
  show t.val / 10 * 256 + ρ.val = win0_2.index t (0 : Fin 2) * 256 + 1 * ρ.val
  omega

/-- An index of the output array is in point t's block iff each coordinate is in the block's range. -/
theorem mem_blk0 (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v138).slice (win0_2.rect t)).set ↔ _
  rw [View.set_slice_whole, Rect.mem_set_unit]
  exact Iff.rfl

/-- THE ARRAY after the pipeline: `tot0` of the two input arrays. -/
theorem final0 (c : Dev nD) :
    (dat0 V c).arrAt 2 cfg0.N = tot0 (V c (Pipeline.arrRef spec0 0)) (V c (Pipeline.arrRef spec0 1)) :=
  (dat0 V c).arrAt_eq_of_cover 2 _ (flushed0_eq V c) fun i => by
    have hN : cfg0.N = 160 := N_0
    have hi0 : (i 0).val < 4096 := (i 0).isLt
    have hi1 : (i 1).val < 1 := (i 1).isLt
    have htl : (i 0).val / 256 * 10 + 9 < cfg0.N := by rw [hN]; omega
    obtain ⟨e0, e1, e2, e3, e4, e5⟩ := idx_facts0 ⟨(i 0).val / 256 * 10 + 9, htl⟩
    refine ⟨⟨(i 0).val / 256 * 10 + 9, htl⟩, (flush0_2 _).mpr (by show ((i 0).val / 256 * 10 + 9) % 10 = 9; omega), ?_⟩
    rw [mem_blk0]
    intro a
    have q0 : win0_2.index ⟨(i 0).val / 256 * 10 + 9, htl⟩ (0 : Fin 2) = (i 0).val / 256 := by rw [e4]; show ((i 0).val / 256 * 10 + 9) / 10 = _; omega
    match a with
    | ⟨0, _⟩ => show win0_2.index _ (0 : Fin 2) * 256 ≤ (i 0).val ∧ (i 0).val < win0_2.index _ (0 : Fin 2) * 256 + 256; rw [q0]; omega
    | ⟨1, _⟩ => show win0_2.index _ (1 : Fin 2) * 1 ≤ (i 1).val ∧ (i 1).val < win0_2.index _ (1 : Fin 2) * 1 + 1; rw [e5]; omega

end Cert.KernelIdeal.Hand
end
-- ==== Proof.RefTotBig.lean ====
/-
  The reference's sum of exponentials read at a row: reduceAdd (exp (dot (q, tᵀ) / D)) at row r is the initial value
  plus the sum over the table's rows k of exp ((Σ_d q[r,d] · t[k,d]) / D) — the host's product at an entry is the plain
  sum over the contracted axis, a transpose swaps the two coordinates, a broadcast scalar reads the scalar, and the
  host's float sum is the initial value plus the plain sum along the reduced axis.
-/
import proofs.«110517_j15659450761722_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.SL.Sem
namespace Cert.Proof.RefTotBig
open Cert.ReferenceIdeal Cert.ReferenceIdeal.Gen ValueIdx

/-- The reference's temperature word 0x3DCCCCCD is the real 13421773 / 2^27, -/
theorem ofBits_temp : Ideal.ofBits .f32 0x3DCCCCCD#32 = ((13421773 / 134217728 : ℝ) : EReal) := by
  simp [Ideal.ofBits, Ideal.ieee, -EReal.coe_mul]; norm_num

/-- so dividing by it is multiplying by 2^27 / 13421773, on every extended real. -/
theorem div_temp (x : EReal) : Ideal.div x (Ideal.ofBits .f32 0x3DCCCCCD#32) = x * ((134217728 / 13421773 : ℝ) : EReal) := by
  rw [ofBits_temp, Ideal.div_coe (by norm_num : (13421773 / 134217728 : ℝ) ≠ 0)]
  congr 2; norm_num

/-! ## A table of 1000 rows -/

theorem dl1000_0 (i : S4096x1000.Idx) (q : dot_S4096x64_S64x1000_S4096x1000_1_0_0_1_n_n.contr.Idx) : (dot_S4096x64_S64x1000_S4096x1000_1_0_0_1_n_n.lhsIdx i q 0).val = (i 0).val := by
  unfold DotDims.lhsIdx
  rw [dif_neg (show ¬(0 : Fin S4096x64.rank) ∈ dot_S4096x64_S64x1000_S4096x1000_1_0_0_1_n_n.lhsBatch by decide), dif_pos (show (0 : Fin S4096x64.rank) ∈ dot_S4096x64_S64x1000_S4096x1000_1_0_0_1_n_n.lhsNonContracting by decide)]
  rfl
theorem dl1000_1 (i : S4096x1000.Idx) (q : dot_S4096x64_S64x1000_S4096x1000_1_0_0_1_n_n.contr.Idx) : (dot_S4096x64_S64x1000_S4096x1000_1_0_0_1_n_n.lhsIdx i q 1).val = (q ⟨0, by decide⟩).val :=
  dot_S4096x64_S64x1000_S4096x1000_1_0_0_1_n_n.lhsIdx_val_of_single rfl i q
theorem dr1000_0 (i : S4096x1000.Idx) (q : dot_S4096x64_S64x1000_S4096x1000_1_0_0_1_n_n.contr.Idx) : (dot_S4096x64_S64x1000_S4096x1000_1_0_0_1_n_n.rhsIdx i q 0).val = (q ⟨0, by decide⟩).val :=
  dot_S4096x64_S64x1000_S4096x1000_1_0_0_1_n_n.rhsIdx_val_of_single rfl i q
theorem dr1000_1 (i : S4096x1000.Idx) (q : dot_S4096x64_S64x1000_S4096x1000_1_0_0_1_n_n.contr.Idx) : (dot_S4096x64_S64x1000_S4096x1000_1_0_0_1_n_n.rhsIdx i q 1).val = (i 1).val := by
  unfold DotDims.rhsIdx
  rw [dif_neg (show ¬(1 : Fin S64x1000.rank) ∈ dot_S4096x64_S64x1000_S4096x1000_1_0_0_1_n_n.rhsBatch by decide), dif_pos (show (1 : Fin S64x1000.rank) ∈ dot_S4096x64_S64x1000_S4096x1000_1_0_0_1_n_n.rhsNonContracting by decide)]
  rfl

/-- The score of query row r against table row k: the host's product with the transposed table, at an entry. -/
theorem refDot1000 (q : FVec Ideal S4096x64 .f32) (t : FVec Ideal S1000x64 .f32) (r : Fin 4096) (k : Fin 1000) :
    Host.dotGeneral dot_S4096x64_S64x1000_S4096x1000_1_0_0_1_n_n none q (transpose S64x1000 [1, 0] t transposes_S1000x64_S64x1000_1_0) (ix2 r k) = ∑ d : Fin 64, q (ix2 r d) * t (ix2 k d) := by
  simp only [Host.dotGeneral]
  rw [Ideal.dotGeneral_apply, ← Equiv.sum_comp (ValueIdx.contrEquiv1 dot_S4096x64_S64x1000_S4096x1000_1_0_0_1_n_n 64 rfl rfl).symm]
  refine Finset.sum_congr rfl fun d _ => ?_
  have hk := ValueIdx.contrEquiv1_symm_val dot_S4096x64_S64x1000_S4096x1000_1_0_0_1_n_n 64 rfl rfl d
  have el : dot_S4096x64_S64x1000_S4096x1000_1_0_0_1_n_n.lhsIdx (ix2 r k) ((ValueIdx.contrEquiv1 dot_S4096x64_S64x1000_S4096x1000_1_0_0_1_n_n 64 rfl rfl).symm d) = ix2 r d := funext fun a => Fin.ext (by
    match a with
    | ⟨0, _⟩ => exact dl1000_0 _ _
    | ⟨1, _⟩ => exact (dl1000_1 _ _).trans hk)
  have er : dot_S4096x64_S64x1000_S4096x1000_1_0_0_1_n_n.rhsIdx (ix2 r k) ((ValueIdx.contrEquiv1 dot_S4096x64_S64x1000_S4096x1000_1_0_0_1_n_n 64 rfl rfl).symm d) = ix2 d k := funext fun a => Fin.ext (by
    match a with
    | ⟨0, _⟩ => exact (dr1000_0 _ _).trans hk
    | ⟨1, _⟩ => exact dr1000_1 _ _)
  rw [el, er]
  refine congrArg (_ * ·) ?_
  exact transpose_apply [1, 0] t transposes_S1000x64_S64x1000_1_0 (ix2 d k) (ix2 k d) (fun b => match b with
    | ⟨0, _⟩ => rfl
    | ⟨1, _⟩ => rfl)

/-- The host's sum along the table axis at row r: the initial value plus the plain sum over the 1000 columns. -/
theorem refRed1000 (y0 : FVec Ideal S4096x1000 .f32) (z : FVec Ideal S_ .f32) (r : Fin 4096) :
    Host.reduceAdd y0 z reducesTo_S4096x1000_S4096_d1 h_S_ (ix1 r) = z (Shape.Idx.first h_S_) + ∑ k : Fin 1000, y0 (ix2 r k) := by
  simp only [Host.reduceAdd, Ideal.hostReduceAdd_def]
  rw [Ideal.hostReduceAdd_single reducesTo_S4096x1000_S4096_d1 (by decide)]
  refine congrArg (_ + ·) (Finset.sum_congr rfl fun k _ => ?_)
  exact congrArg y0 (funext fun a => Fin.ext (by match a with | ⟨0, _⟩ => rfl | ⟨1, _⟩ => rfl))

/-- The reference's sum of exponentials at row r: the initial value plus, over the table's 1000 rows, the exponential of
    the score divided by the temperature. -/
theorem refTot1000 (q : FVec Ideal S4096x64 .f32) (t : FVec Ideal S1000x64 .f32) (D z : FVec Ideal S_ .f32) (r : Fin 4096) :
    Host.reduceAdd (Host.exp (Host.divf (Host.dotGeneral dot_S4096x64_S64x1000_S4096x1000_1_0_0_1_n_n none q (transpose S64x1000 [1, 0] t transposes_S1000x64_S64x1000_1_0))
        (broadcastInDim S4096x1000 ![] bcast_S_S4096x1000 D))) z reducesTo_S4096x1000_S4096_d1 h_S_ (ix1 r)
      = z (Shape.Idx.first h_S_) + ∑ k : Fin 1000, Ideal.exp (Ideal.div (∑ d : Fin 64, q (ix2 r d) * t (ix2 k d)) (D ix0)) := by
  rw [refRed1000]
  refine congrArg (_ + ·) (Finset.sum_congr rfl fun k _ => ?_)
  show Ideal.exp (Ideal.div (Host.dotGeneral dot_S4096x64_S64x1000_S4096x1000_1_0_0_1_n_n none q (transpose S64x1000 [1, 0] t transposes_S1000x64_S64x1000_1_0) (ix2 r k))
      (broadcastInDim S4096x1000 ![] bcast_S_S4096x1000 D (ix2 r k))) = _
  rw [refDot1000, broadcastInDim_apply _ bcast_S_S4096x1000 D (ix2 r k) ix0 (fun a => a.elim0)]

/-! ## A table of 50000 rows -/

theorem dl50000_0 (i : S4096x50000.Idx) (q : dot_S4096x64_S64x50000_S4096x50000_1_0_0_1_n_n.contr.Idx) : (dot_S4096x64_S64x50000_S4096x50000_1_0_0_1_n_n.lhsIdx i q 0).val = (i 0).val := by
  unfold DotDims.lhsIdx
  rw [dif_neg (show ¬(0 : Fin S4096x64.rank) ∈ dot_S4096x64_S64x50000_S4096x50000_1_0_0_1_n_n.lhsBatch by decide), dif_pos (show (0 : Fin S4096x64.rank) ∈ dot_S4096x64_S64x50000_S4096x50000_1_0_0_1_n_n.lhsNonContracting by decide)]
  rfl
theorem dl50000_1 (i : S4096x50000.Idx) (q : dot_S4096x64_S64x50000_S4096x50000_1_0_0_1_n_n.contr.Idx) : (dot_S4096x64_S64x50000_S4096x50000_1_0_0_1_n_n.lhsIdx i q 1).val = (q ⟨0, by decide⟩).val :=
  dot_S4096x64_S64x50000_S4096x50000_1_0_0_1_n_n.lhsIdx_val_of_single rfl i q
theorem dr50000_0 (i : S4096x50000.Idx) (q : dot_S4096x64_S64x50000_S4096x50000_1_0_0_1_n_n.contr.Idx) : (dot_S4096x64_S64x50000_S4096x50000_1_0_0_1_n_n.rhsIdx i q 0).val = (q ⟨0, by decide⟩).val :=
  dot_S4096x64_S64x50000_S4096x50000_1_0_0_1_n_n.rhsIdx_val_of_single rfl i q
theorem dr50000_1 (i : S4096x50000.Idx) (q : dot_S4096x64_S64x50000_S4096x50000_1_0_0_1_n_n.contr.Idx) : (dot_S4096x64_S64x50000_S4096x50000_1_0_0_1_n_n.rhsIdx i q 1).val = (i 1).val := by
  unfold DotDims.rhsIdx
  rw [dif_neg (show ¬(1 : Fin S64x50000.rank) ∈ dot_S4096x64_S64x50000_S4096x50000_1_0_0_1_n_n.rhsBatch by decide), dif_pos (show (1 : Fin S64x50000.rank) ∈ dot_S4096x64_S64x50000_S4096x50000_1_0_0_1_n_n.rhsNonContracting by decide)]
  rfl

/-- The score of query row r against table row k: the host's product with the transposed table, at an entry. -/
theorem refDot50000 (q : FVec Ideal S4096x64 .f32) (t : FVec Ideal S50000x64 .f32) (r : Fin 4096) (k : Fin 50000) :
    Host.dotGeneral dot_S4096x64_S64x50000_S4096x50000_1_0_0_1_n_n none q (transpose S64x50000 [1, 0] t transposes_S50000x64_S64x50000_1_0) (ix2 r k) = ∑ d : Fin 64, q (ix2 r d) * t (ix2 k d) := by
  simp only [Host.dotGeneral]
  rw [Ideal.dotGeneral_apply, ← Equiv.sum_comp (ValueIdx.contrEquiv1 dot_S4096x64_S64x50000_S4096x50000_1_0_0_1_n_n 64 rfl rfl).symm]
  refine Finset.sum_congr rfl fun d _ => ?_
  have hk := ValueIdx.contrEquiv1_symm_val dot_S4096x64_S64x50000_S4096x50000_1_0_0_1_n_n 64 rfl rfl d
  have el : dot_S4096x64_S64x50000_S4096x50000_1_0_0_1_n_n.lhsIdx (ix2 r k) ((ValueIdx.contrEquiv1 dot_S4096x64_S64x50000_S4096x50000_1_0_0_1_n_n 64 rfl rfl).symm d) = ix2 r d := funext fun a => Fin.ext (by
    match a with
    | ⟨0, _⟩ => exact dl50000_0 _ _
    | ⟨1, _⟩ => exact (dl50000_1 _ _).trans hk)
  have er : dot_S4096x64_S64x50000_S4096x50000_1_0_0_1_n_n.rhsIdx (ix2 r k) ((ValueIdx.contrEquiv1 dot_S4096x64_S64x50000_S4096x50000_1_0_0_1_n_n 64 rfl rfl).symm d) = ix2 d k := funext fun a => Fin.ext (by
    match a with
    | ⟨0, _⟩ => exact (dr50000_0 _ _).trans hk
    | ⟨1, _⟩ => exact dr50000_1 _ _)
  rw [el, er]
  refine congrArg (_ * ·) ?_
  exact transpose_apply [1, 0] t transposes_S50000x64_S64x50000_1_0 (ix2 d k) (ix2 k d) (fun b => match b with
    | ⟨0, _⟩ => rfl
    | ⟨1, _⟩ => rfl)

/-- The host's sum along the table axis at row r: the initial value plus the plain sum over the 50000 columns. -/
theorem refRed50000 (y0 : FVec Ideal S4096x50000 .f32) (z : FVec Ideal S_ .f32) (r : Fin 4096) :
    Host.reduceAdd y0 z reducesTo_S4096x50000_S4096_d1 h_S_ (ix1 r) = z (Shape.Idx.first h_S_) + ∑ k : Fin 50000, y0 (ix2 r k) := by
  simp only [Host.reduceAdd, Ideal.hostReduceAdd_def]
  rw [Ideal.hostReduceAdd_single reducesTo_S4096x50000_S4096_d1 (by decide)]
  refine congrArg (_ + ·) (Finset.sum_congr rfl fun k _ => ?_)
  exact congrArg y0 (funext fun a => Fin.ext (by match a with | ⟨0, _⟩ => rfl | ⟨1, _⟩ => rfl))

/-- The reference's sum of exponentials at row r: the initial value plus, over the table's 50000 rows, the exponential of
    the score divided by the temperature. -/
theorem refTot50000 (q : FVec Ideal S4096x64 .f32) (t : FVec Ideal S50000x64 .f32) (D z : FVec Ideal S_ .f32) (r : Fin 4096) :
    Host.reduceAdd (Host.exp (Host.divf (Host.dotGeneral dot_S4096x64_S64x50000_S4096x50000_1_0_0_1_n_n none q (transpose S64x50000 [1, 0] t transposes_S50000x64_S64x50000_1_0))
        (broadcastInDim S4096x50000 ![] bcast_S_S4096x50000 D))) z reducesTo_S4096x50000_S4096_d1 h_S_ (ix1 r)
      = z (Shape.Idx.first h_S_) + ∑ k : Fin 50000, Ideal.exp (Ideal.div (∑ d : Fin 64, q (ix2 r d) * t (ix2 k d)) (D ix0)) := by
  rw [refRed50000]
  refine congrArg (_ + ·) (Finset.sum_congr rfl fun k _ => ?_)
  show Ideal.exp (Ideal.div (Host.dotGeneral dot_S4096x64_S64x50000_S4096x50000_1_0_0_1_n_n none q (transpose S64x50000 [1, 0] t transposes_S50000x64_S64x50000_1_0) (ix2 r k))
      (broadcastInDim S4096x50000 ![] bcast_S_S4096x50000 D (ix2 r k))) = _
  rw [refDot50000, broadcastInDim_apply _ bcast_S_S4096x50000 D (ix2 r k) ix0 (fun a => a.elim0)]

/-! ## A table of 25000 rows -/

theorem dl25000_0 (i : S4096x25000.Idx) (q : dot_S4096x64_S64x25000_S4096x25000_1_0_0_1_n_n.contr.Idx) : (dot_S4096x64_S64x25000_S4096x25000_1_0_0_1_n_n.lhsIdx i q 0).val = (i 0).val := by
  unfold DotDims.lhsIdx
  rw [dif_neg (show ¬(0 : Fin S4096x64.rank) ∈ dot_S4096x64_S64x25000_S4096x25000_1_0_0_1_n_n.lhsBatch by decide), dif_pos (show (0 : Fin S4096x64.rank) ∈ dot_S4096x64_S64x25000_S4096x25000_1_0_0_1_n_n.lhsNonContracting by decide)]
  rfl
theorem dl25000_1 (i : S4096x25000.Idx) (q : dot_S4096x64_S64x25000_S4096x25000_1_0_0_1_n_n.contr.Idx) : (dot_S4096x64_S64x25000_S4096x25000_1_0_0_1_n_n.lhsIdx i q 1).val = (q ⟨0, by decide⟩).val :=
  dot_S4096x64_S64x25000_S4096x25000_1_0_0_1_n_n.lhsIdx_val_of_single rfl i q
theorem dr25000_0 (i : S4096x25000.Idx) (q : dot_S4096x64_S64x25000_S4096x25000_1_0_0_1_n_n.contr.Idx) : (dot_S4096x64_S64x25000_S4096x25000_1_0_0_1_n_n.rhsIdx i q 0).val = (q ⟨0, by decide⟩).val :=
  dot_S4096x64_S64x25000_S4096x25000_1_0_0_1_n_n.rhsIdx_val_of_single rfl i q
theorem dr25000_1 (i : S4096x25000.Idx) (q : dot_S4096x64_S64x25000_S4096x25000_1_0_0_1_n_n.contr.Idx) : (dot_S4096x64_S64x25000_S4096x25000_1_0_0_1_n_n.rhsIdx i q 1).val = (i 1).val := by
  unfold DotDims.rhsIdx
  rw [dif_neg (show ¬(1 : Fin S64x25000.rank) ∈ dot_S4096x64_S64x25000_S4096x25000_1_0_0_1_n_n.rhsBatch by decide), dif_pos (show (1 : Fin S64x25000.rank) ∈ dot_S4096x64_S64x25000_S4096x25000_1_0_0_1_n_n.rhsNonContracting by decide)]
  rfl

/-- The score of query row r against table row k: the host's product with the transposed table, at an entry. -/
theorem refDot25000 (q : FVec Ideal S4096x64 .f32) (t : FVec Ideal S25000x64 .f32) (r : Fin 4096) (k : Fin 25000) :
    Host.dotGeneral dot_S4096x64_S64x25000_S4096x25000_1_0_0_1_n_n none q (transpose S64x25000 [1, 0] t transposes_S25000x64_S64x25000_1_0) (ix2 r k) = ∑ d : Fin 64, q (ix2 r d) * t (ix2 k d) := by
  simp only [Host.dotGeneral]
  rw [Ideal.dotGeneral_apply, ← Equiv.sum_comp (ValueIdx.contrEquiv1 dot_S4096x64_S64x25000_S4096x25000_1_0_0_1_n_n 64 rfl rfl).symm]
  refine Finset.sum_congr rfl fun d _ => ?_
  have hk := ValueIdx.contrEquiv1_symm_val dot_S4096x64_S64x25000_S4096x25000_1_0_0_1_n_n 64 rfl rfl d
  have el : dot_S4096x64_S64x25000_S4096x25000_1_0_0_1_n_n.lhsIdx (ix2 r k) ((ValueIdx.contrEquiv1 dot_S4096x64_S64x25000_S4096x25000_1_0_0_1_n_n 64 rfl rfl).symm d) = ix2 r d := funext fun a => Fin.ext (by
    match a with
    | ⟨0, _⟩ => exact dl25000_0 _ _
    | ⟨1, _⟩ => exact (dl25000_1 _ _).trans hk)
  have er : dot_S4096x64_S64x25000_S4096x25000_1_0_0_1_n_n.rhsIdx (ix2 r k) ((ValueIdx.contrEquiv1 dot_S4096x64_S64x25000_S4096x25000_1_0_0_1_n_n 64 rfl rfl).symm d) = ix2 d k := funext fun a => Fin.ext (by
    match a with
    | ⟨0, _⟩ => exact (dr25000_0 _ _).trans hk
    | ⟨1, _⟩ => exact dr25000_1 _ _)
  rw [el, er]
  refine congrArg (_ * ·) ?_
  exact transpose_apply [1, 0] t transposes_S25000x64_S64x25000_1_0 (ix2 d k) (ix2 k d) (fun b => match b with
    | ⟨0, _⟩ => rfl
    | ⟨1, _⟩ => rfl)

/-- The host's sum along the table axis at row r: the initial value plus the plain sum over the 25000 columns. -/
theorem refRed25000 (y0 : FVec Ideal S4096x25000 .f32) (z : FVec Ideal S_ .f32) (r : Fin 4096) :
    Host.reduceAdd y0 z reducesTo_S4096x25000_S4096_d1 h_S_ (ix1 r) = z (Shape.Idx.first h_S_) + ∑ k : Fin 25000, y0 (ix2 r k) := by
  simp only [Host.reduceAdd, Ideal.hostReduceAdd_def]
  rw [Ideal.hostReduceAdd_single reducesTo_S4096x25000_S4096_d1 (by decide)]
  refine congrArg (_ + ·) (Finset.sum_congr rfl fun k _ => ?_)
  exact congrArg y0 (funext fun a => Fin.ext (by match a with | ⟨0, _⟩ => rfl | ⟨1, _⟩ => rfl))

/-- The reference's sum of exponentials at row r: the initial value plus, over the table's 25000 rows, the exponential of
    the score divided by the temperature. -/
theorem refTot25000 (q : FVec Ideal S4096x64 .f32) (t : FVec Ideal S25000x64 .f32) (D z : FVec Ideal S_ .f32) (r : Fin 4096) :
    Host.reduceAdd (Host.exp (Host.divf (Host.dotGeneral dot_S4096x64_S64x25000_S4096x25000_1_0_0_1_n_n none q (transpose S64x25000 [1, 0] t transposes_S25000x64_S64x25000_1_0))
        (broadcastInDim S4096x25000 ![] bcast_S_S4096x25000 D))) z reducesTo_S4096x25000_S4096_d1 h_S_ (ix1 r)
      = z (Shape.Idx.first h_S_) + ∑ k : Fin 25000, Ideal.exp (Ideal.div (∑ d : Fin 64, q (ix2 r d) * t (ix2 k d)) (D ix0)) := by
  rw [refRed25000]
  refine congrArg (_ + ·) (Finset.sum_congr rfl fun k _ => ?_)
  show Ideal.exp (Ideal.div (Host.dotGeneral dot_S4096x64_S64x25000_S4096x25000_1_0_0_1_n_n none q (transpose S64x25000 [1, 0] t transposes_S25000x64_S64x25000_1_0) (ix2 r k))
      (broadcastInDim S4096x25000 ![] bcast_S_S4096x25000 D (ix2 r k))) = _
  rw [refDot25000, broadcastInDim_apply _ bcast_S_S4096x25000 D (ix2 r k) ix0 (fun a => a.elim0)]

end Cert.Proof.RefTotBig
end
-- ==== Proof.Tot0.lean ====
/-
  Pipeline 0: the sum of exponentials the kernel program takes from the pipeline's output array is the reference's.
  Kernel side: the buffer is the output array stood as a vector; the array is `tot0` of the pipeline's two input arrays
  (Proof/KIArray0.lean), which are buffers already paired with the reference's.  Reference side: its buffer is
  reduceAdd (exp (dot (q, tᵀ) / D)) from 0 (Proof/RefTotBig.lean).  Row by row both are 0 + Σ_k exp (s_k · 2^27/13421773), the
  reference's quotient by D = 13421773/2^27 being that product.
-/
import proofs.«110517_j15659450761722_1_alg».proof.Proof.MatchIn
import proofs.«110517_j15659450761722_1_alg».proof.Proof.KIArray0
import proofs.«110517_j15659450761722_1_alg».proof.Proof.RefTotBig
import proofs.«110517_j15659450761722_1_alg».proof.Proof.TotFacts

set_option maxRecDepth 16384

noncomputable section

open Idealize.ShloMosaic Idealize.ShloMosaic.TcCoe Idealize.SL.Sem Idealize.ShloMosaic.StableHlo ValueIdx

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag

/-- The kernel program's vector is the pipeline's output array, reshaped. -/
theorem kshape0 (c : Dev Cert.KernelIdeal.nD) :
    Cert.KernelIdeal.Hand.W29 (F := Ideal) m ρ c (Proc.devRef .tc Cert.KernelIdeal.main_v139) = shapeCast Cert.KernelIdeal.S4096 (Cert.KernelIdeal.Hand.W29 (F := Ideal) m ρ c (Proc.devRef .tc Cert.KernelIdeal.main_v138) : Cert.KernelIdeal.S4096x1.Idx → EReal) Cert.KernelIdeal.Gen.shapeCasts_S4096x1_S4096 := by
  rw [Cert.KernelIdeal.Hand.kept8 (F := Ideal) m ρ c Cert.KernelIdeal.main_v139 (by decide), Cert.KernelIdeal.Hand.kept8 (F := Ideal) m ρ c Cert.KernelIdeal.main_v138 (by decide)]
  exact Cert.Lib.ReadFinal.reshape (l := Cert.KernelIdeal.Gen.hostOps1) (Cert.KernelIdeal.Hand.hostOps1_inOrder (F := Ideal)) 0 rfl (by decide) (by decide) (Cert.KernelIdeal.Hand.W8 (F := Ideal) m ρ c)

/-- The output array is `tot0` of the reference's two paired buffers. -/
theorem karr0 (c : Dev Cert.KernelIdeal.nD) :
    (Cert.KernelIdeal.Hand.W29 (F := Ideal) m ρ c (Proc.devRef .tc Cert.KernelIdeal.main_v138) : Cert.KernelIdeal.S4096x1.Idx → EReal)
      = Cert.KernelIdeal.Hand.tot0 (Cert.Proof.Parts.RW (F := Ideal) m' c (Proc.devRef .tc Cert.ReferenceIdeal.main_v127)) (Cert.Proof.Parts.RW (F := Ideal) m' c (Proc.devRef .tc Cert.ReferenceIdeal.main_v137)) := by
  rw [Cert.KernelIdeal.Hand.kept7 (F := Ideal) m ρ c Cert.KernelIdeal.main_v138 (by decide)]
  refine (Cert.KernelIdeal.Hand.W8_arr (F := Ideal) m ρ c 2).trans ?_
  rw [Cert.KernelIdeal.Hand.final0 (Cert.KernelIdeal.Hand.V7 (F := Ideal) m ρ) c]
  have hq : Cert.KernelIdeal.Hand.V7 (F := Ideal) m ρ c (Pipeline.arrRef Cert.KernelIdeal.spec0 0) = Cert.Proof.Parts.RW (F := Ideal) m' c (Proc.devRef .tc Cert.ReferenceIdeal.main_v127) :=
    ((Cert.KernelIdeal.Hand.kept6 (F := Ideal) m ρ c Cert.KernelIdeal.main_v127 (by decide)).symm).trans (i_v127__v127 m ρ m' hag c)
  have ht : Cert.KernelIdeal.Hand.V7 (F := Ideal) m ρ c (Pipeline.arrRef Cert.KernelIdeal.spec0 1) = Cert.Proof.Parts.RW (F := Ideal) m' c (Proc.devRef .tc Cert.ReferenceIdeal.main_v137) :=
    ((Cert.KernelIdeal.Hand.kept6 (F := Ideal) m ρ c Cert.KernelIdeal.main_v137 (by decide)).symm).trans (i_v137__v137 m ρ m' hag c)
  rw [hq, ht]

/-- The reference's buffer is its sum of exponentials of the paired buffers. -/
theorem rsum0 (c : Dev Cert.KernelIdeal.nD) :
    Cert.Proof.Parts.RW (F := Ideal) m' c (Proc.devRef .tc Cert.ReferenceIdeal.main_v148) = Host.reduceAdd (Host.exp (Host.divf (Host.dotGeneral (φ₁ := .f32) (φ₂ := .f32) Cert.ReferenceIdeal.dot_S4096x64_S64x50000_S4096x50000_1_0_0_1_n_n none
        (Cert.Proof.Parts.RW (F := Ideal) m' c (Proc.devRef .tc Cert.ReferenceIdeal.main_v127) : FVec Ideal Cert.ReferenceIdeal.S4096x64 .f32) (transpose (α := EReal) Cert.ReferenceIdeal.S64x50000 [1, 0] (Cert.Proof.Parts.RW (F := Ideal) m' c (Proc.devRef .tc Cert.ReferenceIdeal.main_v137) : FVec Ideal Cert.ReferenceIdeal.S50000x64 .f32) Cert.ReferenceIdeal.Gen.transposes_S50000x64_S64x50000_1_0))
        (broadcastInDim Cert.ReferenceIdeal.S4096x50000 ![] Cert.ReferenceIdeal.Gen.bcast_S_S4096x50000 (constant (F := Ideal) Cert.ReferenceIdeal.S_ .f32 0x3DCCCCCD#32))))
        (constant (F := Ideal) Cert.ReferenceIdeal.S_ .f32 0x00000000#32) Cert.ReferenceIdeal.Gen.reducesTo_S4096x50000_S4096_d1 Cert.ReferenceIdeal.Gen.h_S_ := by
  rw [Cert.Proof.Parts.rst_main_v148 (F := Ideal) m' c, Cert.Proof.Parts.rst_main_v147 (F := Ideal) m' c, Cert.Proof.Parts.rst_main_v146 (F := Ideal) m' c,
    Cert.Proof.Parts.rst_main_v144 (F := Ideal) m' c, Cert.Proof.Parts.rst_main_v143 (F := Ideal) m' c, Cert.Proof.Parts.rst_main_v145 (F := Ideal) m' c,
    Cert.Proof.Parts.rst_main_cst_32 (F := Ideal) m' c, Cert.Proof.Parts.rst_main_cst_33 (F := Ideal) m' c]

/-- THE PAIRING for pipeline 0. -/
theorem sum_v139__v148 (c : Dev Cert.KernelIdeal.nD) : Cert.KernelIdeal.Hand.W29 (F := Ideal) m ρ c (Proc.devRef .tc Cert.KernelIdeal.main_v139) = Cert.Proof.Parts.RW (F := Ideal) m' c (Proc.devRef .tc Cert.ReferenceIdeal.main_v148) := by
  rw [kshape0 m ρ m' hag c, karr0 m ρ m' hag c, rsum0 m m' hag c]
  funext i
  obtain ⟨r, rfl⟩ : ∃ r : Fin 4096, i = ix1 r := ⟨i 0, eq_ix1 i⟩
  rw [Cert.Proof.RefTotBig.refTot50000]
  rw [shapeCast_apply _ Cert.KernelIdeal.Gen.shapeCasts_S4096x1_S4096 (ix1 r) (ix2 r 0) (by
    rw [Shape.rowMajor_val_two, Shape.rowMajor_val_one]; show r.val * 1 + 0 = r.val; omega)]
  unfold Cert.KernelIdeal.Hand.tot0
  refine congrArg₂ (· + ·) ?_ (Finset.sum_congr rfl fun k _ => ?_)
  · show (0 : EReal) = Ideal.ofBits .f32 0x00000000#32
    exact Ideal.ofBits_zero_f32.symm
  · unfold Cert.KernelIdeal.Hand.term0
    show Ideal.exp (_ * _) = Ideal.exp (Ideal.div _ (Ideal.ofBits .f32 0x3DCCCCCD#32))
    rw [Cert.Proof.RefTotBig.div_temp]

end Cert.Proof.Match

end
-- ==== Proof.KIValue1.lean ====
/-
  Pipeline 1's body as arithmetic on the extended reals.  At a first tile the accumulator ends at the payload of the
  point's two blocks over the cleared accumulator; at a later tile at the payload over what it held; at a last tile the
  output block is stored with that same value.  Read at row ρ, the payload is what the accumulator held there plus the sum
  over the tile's 5000 rows k of exp (scale · Σ_d q[ρ,d] · t[k,d]).
-/
import proofs.«110517_j15659450761722_1_alg».proof.Proof.KIRegion1
import proofs.«110517_j15659450761722_1_alg».proof.Proof.LibCoveredLoad
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.ShloMosaic.Tactic Idealize.SL.Sem
namespace Cert.KernelIdeal.Hand
open Cert.KernelIdeal Cert.KernelIdeal.Gen ValueIdx

theorem hz1 : (![0, 0] : Fin 2 → Nat) = fun _ => 0 := funext fun a => by fin_cases a <;> rfl

section Pieces
variable {F : FTy → Type} [FloatOps F] [Named F]

/-- A first tile leaves the accumulator at the payload over the cleared accumulator. -/
theorem accA1_eq (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : first1 i) (hlast : ¬last1 i) (x0 : Vec F S256x64 .f32) (x1 : Vec F S5000x64 .f32) :
    accA1 c i arg2 harg2 arg3 harg3 arg4 harg4 arg5 harg5 hfirst hlast x0 x1 = k1_pay2 x0 x1 (k1_pay1 (F := F)) := by
  unfold accA1
  rw [View.read_writes_eq_canon _ _ _ (accCoverA1 c i arg2 harg2 arg3 harg3 arg4 harg4 arg5 harg5 hfirst hlast x0 x1)]
  unfold bodyRun1_A
  dsimp only
  try sl_unfold_words
  first | rw [View.canon_unit_zero hz1] | rw [View.canon_cons_unit_zero hz1]
  simp only [View.readCov_unit_zero (S := S256x1) _ hz1, View.readAt_eq_ld, harg2.read_unread, harg3.read_unread, harg5.read_unread,
    View.ld_unit_zero (S := S256x64) hz1, View.ld_unit_zero (S := S5000x64) hz1, View.ld_unit_zero (S := S256x1) hz1]

/-- A middle tile leaves it at the payload over what it held. -/
theorem accB1_eq (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : ¬last1 i) (x0 : Vec F S256x64 .f32) (x1 : Vec F S5000x64 .f32) (xs : Vec F S256x1 .f32) :
    accB1 c i arg2 harg2 arg3 harg3 arg4 harg4 arg5 harg5 hfirst hlast x0 x1 xs = k1_pay2 x0 x1 xs := by
  unfold accB1
  rw [View.read_writes_eq_canon _ _ _ (accCoverB1 c i arg2 harg2 arg3 harg3 arg4 harg4 arg5 harg5 hfirst hlast x0 x1 xs)]
  unfold bodyRun1_B
  dsimp only
  try sl_unfold_words
  first | rw [View.canon_unit_zero hz1] | rw [View.canon_cons_unit_zero hz1]
  simp only [View.readCov_unit_zero (S := S256x1) _ hz1, View.readAt_eq_ld, harg2.read_unread, harg3.read_unread, harg5.read_unread,
    View.ld_unit_zero (S := S256x64) hz1, View.ld_unit_zero (S := S5000x64) hz1, View.ld_unit_zero (S := S256x1) hz1]

/-- A last tile: the same for the accumulator, -/
theorem accC1_eq (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) :
    accC1 c i arg2 harg2 arg3 harg3 arg4 harg4 arg5 harg5 hfirst hlast x0 x1 xs = k1_pay2 x0 x1 xs := by
  unfold accC1
  rw [View.read_writes_eq_canon _ _ _ (accCoverC1 c i arg2 harg2 arg3 harg3 arg4 harg4 arg5 harg5 hfirst hlast x0 x1 xs)]
  unfold bodyRun1_C
  dsimp only
  try sl_unfold_words
  first | rw [View.canon_unit_zero hz1] | rw [View.canon_cons_unit_zero hz1]
  simp only [View.readCov_unit_zero (S := S256x1) _ hz1, View.readAt_eq_ld, harg2.read_unread, harg3.read_unread, harg5.read_unread,
    View.ld_unit_zero (S := S256x64) hz1, View.ld_unit_zero (S := S5000x64) hz1, View.ld_unit_zero (S := S256x1) hz1]

/-- and the output block is stored with that value. -/
theorem outC1_eq (c : Dev nD) (i : grid1.Coords) (arg2 : Memref sig .tc .vmem S256x64 .f32) (harg2 : arg2.IsWhole) (arg3 : Memref sig .tc .vmem S5000x64 .f32) (harg3 : arg3.IsWhole)
    (arg4 : Memref sig .tc .vmem S256x1 .f32) (harg4 : arg4.IsWhole) (arg5 : Memref sig .tc .vmem S256x1 .f32) (harg5 : arg5.IsWhole) (hfirst : ¬first1 i) (hlast : last1 i) (x0 : Vec F S256x64 .f32) (x1 : Vec F S5000x64 .f32) (xs : Vec F S256x1 .f32) :
    outC1 c i arg2 harg2 arg3 harg3 arg4 harg4 arg5 harg5 hfirst hlast x0 x1 xs = k1_pay2 x0 x1 xs := by
  unfold outC1
  rw [View.read_writes_eq_canon _ _ _ (outCoverC1 c i arg2 harg2 arg3 harg3 arg4 harg4 arg5 harg5 hfirst hlast x0 x1 xs)]
  unfold bodyRun1_C
  dsimp only
  try sl_unfold_words
  first | rw [View.canon_unit_zero hz1] | rw [View.canon_cons_unit_zero hz1]
  simp only [View.readCov_unit_zero (S := S256x1) _ hz1, View.readAt_eq_ld, harg2.read_unread, harg3.read_unread, harg5.read_unread,
    View.ld_unit_zero (S := S256x64) hz1, View.ld_unit_zero (S := S5000x64) hz1, View.ld_unit_zero (S := S256x1) hz1]

end Pieces

/-- The lane sum at a row. -/
theorem lane1_apply (y : FVec Ideal S256x5000 .f32) (ρ : Fin 256) :
    multiReduction .add [1] S256 y 0x00000000#32 reduces_S256x5000_S256 (.inl rfl) rfl (ix1 ρ) = ∑ k : Fin 5000, y (ix2 ρ k) := by
  refine (Ideal.multiReduction_add_single y 0x00000000#32 reduces_S256x5000_S256 (.inl rfl) rfl (ix1 ρ)).trans ?_
  exact Finset.sum_congr rfl fun k _ => congrArg y (funext fun a => Fin.ext (by match a with | ⟨0, _⟩ => rfl | ⟨1, _⟩ => rfl))

/-- A vector of 256 stood up as a 256 × 1 column, read at row ρ. -/
theorem col1_apply {α : Type} (y : S256.Idx → α) (ρ : Fin 256) :
    shapeCast S256x1 y shapeCasts_S256_S256x1 (ix2 ρ 0) = y (ix1 ρ) :=
  shapeCast_apply y shapeCasts_S256_S256x1 (ix2 ρ 0) (ix1 ρ) (by
    rw [Shape.rowMajor_val_one, Shape.rowMajor_val_two]
    show ρ.val = ρ.val * 1 + 0
    omega)

/-- The named scale at the extended reals. -/
theorem kappa1_val : Named.named (F := Ideal) κ "inv_temp" (φ := .f32) 0x41200000#32 = ((134217728 / 13421773 : ℝ) : EReal) :=
  IdealRules.named_const.ideal_named_scalar _ _ _ _ rfl

theorem lhs1_0 (i : S256x5000.Idx) (q : dot_S256x64_S5000x64_S256x5000_1_1_0_0_n_n.contr.Idx) : (dot_S256x64_S5000x64_S256x5000_1_1_0_0_n_n.lhsIdx i q 0).val = (i 0).val := by
  unfold DotDims.lhsIdx
  rw [dif_neg (show ¬(0 : Fin S256x64.rank) ∈ dot_S256x64_S5000x64_S256x5000_1_1_0_0_n_n.lhsBatch by decide), dif_pos (show (0 : Fin S256x64.rank) ∈ dot_S256x64_S5000x64_S256x5000_1_1_0_0_n_n.lhsNonContracting by decide)]
  rfl
theorem lhs1_1 (i : S256x5000.Idx) (q : dot_S256x64_S5000x64_S256x5000_1_1_0_0_n_n.contr.Idx) : (dot_S256x64_S5000x64_S256x5000_1_1_0_0_n_n.lhsIdx i q 1).val = (q ⟨0, by decide⟩).val :=
  dot_S256x64_S5000x64_S256x5000_1_1_0_0_n_n.lhsIdx_val_of_single rfl i q
theorem rhs1_0 (i : S256x5000.Idx) (q : dot_S256x64_S5000x64_S256x5000_1_1_0_0_n_n.contr.Idx) : (dot_S256x64_S5000x64_S256x5000_1_1_0_0_n_n.rhsIdx i q 0).val = (i 1).val := by
  unfold DotDims.rhsIdx
  rw [dif_neg (show ¬(0 : Fin S5000x64.rank) ∈ dot_S256x64_S5000x64_S256x5000_1_1_0_0_n_n.rhsBatch by decide), dif_pos (show (0 : Fin S5000x64.rank) ∈ dot_S256x64_S5000x64_S256x5000_1_1_0_0_n_n.rhsNonContracting by decide)]
  rfl
theorem rhs1_1 (i : S256x5000.Idx) (q : dot_S256x64_S5000x64_S256x5000_1_1_0_0_n_n.contr.Idx) : (dot_S256x64_S5000x64_S256x5000_1_1_0_0_n_n.rhsIdx i q 1).val = (q ⟨0, by decide⟩).val :=
  dot_S256x64_S5000x64_S256x5000_1_1_0_0_n_n.rhsIdx_val_of_single rfl i q

/-- The tile product at an entry: row ρ of the query block against row k of the table tile. -/
theorem mm1_apply (l : FVec Ideal S256x64 .bf16) (r : FVec Ideal S5000x64 .bf16) (ρ : Fin 256) (k : Fin 5000) :
    matmul dot_S256x64_S5000x64_S256x5000_1_1_0_0_n_n none l r (constant S256x5000 .f32 0x00000000#32) (ix2 ρ k)
      = ∑ d : Fin 64, l (ix2 ρ d) * r (ix2 k d) := by
  refine (Ideal.matmul_constant_zero_apply dot_S256x64_S5000x64_S256x5000_1_1_0_0_n_n none l r (ix2 ρ k)).trans ?_
  rw [← Equiv.sum_comp (ValueIdx.contrEquiv1 dot_S256x64_S5000x64_S256x5000_1_1_0_0_n_n 64 rfl rfl).symm]
  refine Finset.sum_congr rfl fun d _ => ?_
  have hk := ValueIdx.contrEquiv1_symm_val dot_S256x64_S5000x64_S256x5000_1_1_0_0_n_n 64 rfl rfl d
  have el : dot_S256x64_S5000x64_S256x5000_1_1_0_0_n_n.lhsIdx (ix2 ρ k) ((ValueIdx.contrEquiv1 dot_S256x64_S5000x64_S256x5000_1_1_0_0_n_n 64 rfl rfl).symm d) = ix2 ρ d := funext fun a => Fin.ext (by
    match a with
    | ⟨0, _⟩ => exact lhs1_0 _ _
    | ⟨1, _⟩ => exact (lhs1_1 _ _).trans hk)
  have er : dot_S256x64_S5000x64_S256x5000_1_1_0_0_n_n.rhsIdx (ix2 ρ k) ((ValueIdx.contrEquiv1 dot_S256x64_S5000x64_S256x5000_1_1_0_0_n_n 64 rfl rfl).symm d) = ix2 k d := funext fun a => Fin.ext (by
    match a with
    | ⟨0, _⟩ => exact rhs1_0 _ _
    | ⟨1, _⟩ => exact (rhs1_1 _ _).trans hk)
  rw [el, er]

/-- The body's accumulator payload at row ρ. -/
theorem pay1_apply (x0 : Vec Ideal S256x64 .f32) (x1 : Vec Ideal S5000x64 .f32) (z : Vec Ideal S256x1 .f32) (ρ : Fin 256) :
    k1_pay2 (F := Ideal) x0 x1 z (ix2 ρ 0)
      = z (ix2 ρ 0) + ∑ k : Fin 5000, Ideal.exp ((∑ d : Fin 64, x0 (ix2 ρ d) * x1 (ix2 k d)) * ((134217728 / 13421773 : ℝ) : EReal)) := by
  have e1 : k1_pay2 (F := Ideal) x0 x1 z = addf z (shapeCast S256x1 (multiReduction .add [1] S256 (exp (mulf
      (matmul dot_S256x64_S5000x64_S256x5000_1_1_0_0_n_n none (truncf .bf16 x0 bitsLt_bf16_f32) (truncf .bf16 x1 bitsLt_bf16_f32) (constant S256x5000 .f32 0x00000000#32))
      (broadcast S256x5000 (Named.named κ "inv_temp" 0x41200000#32)))) 0x00000000#32 reduces_S256x5000_S256 (.inl rfl) rfl) shapeCasts_S256_S256x1) := by
    unfold k1_pay2; simp only [shapeCast_self]
  rw [e1, addf_apply, col1_apply, lane1_apply]
  congr 1
  refine Finset.sum_congr rfl fun k _ => ?_
  show Ideal.exp (matmul (F := Ideal) dot_S256x64_S5000x64_S256x5000_1_1_0_0_n_n none (truncf .bf16 x0 bitsLt_bf16_f32) (truncf .bf16 x1 bitsLt_bf16_f32) (constant (F := Ideal) S256x5000 .f32 0x00000000#32) (ix2 ρ k)
      * Named.named (F := Ideal) κ "inv_temp" (φ := .f32) 0x41200000#32) = _
  rw [mm1_apply, kappa1_val]
  rfl

end Cert.KernelIdeal.Hand
end
-- ==== Proof.KIArray1.lean ====
/-
  Pipeline 1's output array as one function of its two input arrays.  For a block of 256 query rows the body visits the
  table's 5 tiles of 5000 rows in order; after tile k the accumulator at row ρ holds the sum over tiles 0..k of the
  tile's sum of exponentials (induction on the point), and at the last tile that sum — over all 25000 table rows, tile by
  tile — is stored in the output block, which is the only point of the block's 5 that is written back.  The 16 output
  blocks tile the 4096 rows.
-/
import proofs.«110517_j15659450761722_1_alg».proof.Proof.KIValue1
import proofs.«110517_j15659450761722_1_alg».proof.Proof.LibBlockSum

set_option maxRecDepth 16384

noncomputable section
open Idealize.ShloMosaic Idealize.ShloMosaic.TcCoe Idealize.ShloMosaic.Tactic Idealize.SL.Sem
open Idealize.ShloMosaic.Pipeline (Dat)
namespace Cert.KernelIdeal.Hand
open Cert.KernelIdeal Cert.KernelIdeal.Gen ValueIdx

/-- The scale's value. -/
abbrev scaleV1 : EReal := ((134217728 / 13421773 : ℝ) : EReal)

/-- The cleared accumulator reads zero. -/
theorem pay1_1_apply (y : S256x1.Idx) : k1_pay1 (F := Ideal) y = 0 := by
  unfold k1_pay1
  simp only [shapeCast_self]
  show Ideal.ofBits .f32 0x00000000#32 = 0
  exact Ideal.ofBits_zero_f32

variable (V : (c : Dev nD) → (b : Ref sig .tc) → Buf (Elt Ideal) ((c : Thread nD τ).loc b))

/-- One term: the exponential of the scaled score of query row R against table row J. -/
def term1 (Q : S4096x64.Idx → EReal) (T : S25000x64.Idx → EReal) (R : Fin 4096) (J : Fin 25000) : EReal :=
  Ideal.exp ((∑ d : Fin 64, Q (ix2 R d) * T (ix2 J d)) * scaleV1)

/-- The array the pipeline leaves, as a function of its two input arrays. -/
def tot1 (Q : S4096x64.Idx → EReal) (T : S25000x64.Idx → EReal) : S4096x1.Idx → EReal :=
  fun i => 0 + ∑ J : Fin 25000, term1 Q T (⟨(i 0).val, idx2_lt0 i⟩ : Fin 4096) J

/-- Tile k's sum for query row R. -/
def tile1 (Q : S4096x64.Idx → EReal) (T : S25000x64.Idx → EReal) (R : Fin 4096) (k : ℕ) : EReal :=
  if hk : k < 5 then ∑ j : Fin 5000, term1 Q T R ⟨k * 5000 + j.val, by have := j.isLt; omega⟩ else 0

/-- The printed block-index maps over the 80 points: point t is row block t / 5, table tile t % 5. -/
theorem idx_facts1 : ∀ t : Fin cfg1.N, win1_0.index t (0 : Fin 2) = t.val / 5 ∧ win1_0.index t (1 : Fin 2) = 0
    ∧ win1_1.index t (0 : Fin 2) = t.val % 5 ∧ win1_1.index t (1 : Fin 2) = 0
    ∧ win1_2.index t (0 : Fin 2) = t.val / 5 ∧ win1_2.index t (1 : Fin 2) = 0 :=
  (by decide +kernel : ∀ t : Fin grid1.N, _)

theorem blkQ1 (c : Dev nD) (t : Fin cfg1.N) (ρ : Fin 256) (d : Fin 64) (R : Fin 4096) (hR : R.val = t.val / 5 * 256 + ρ.val) :
    iblk1 V c 0 t (ix2 ρ d) = V c (Pipeline.arrRef spec1 0) (ix2 R d) := by
  obtain ⟨e0, e1, e2, e3, e4, e5⟩ := idx_facts1 t
  unfold iblk1
  rw [View.read_apply]
  refine congrArg (V c (Pipeline.arrRef spec1 0)) (funext fun a => Fin.ext ?_)
  match a with
  | ⟨0, _⟩ => show win1_0.index t (0 : Fin 2) * 256 + 1 * ρ.val = R.val; omega
  | ⟨1, _⟩ => show win1_0.index t (1 : Fin 2) * 64 + 1 * d.val = d.val; omega

theorem blkT1 (c : Dev nD) (t : Fin cfg1.N) (k : Fin 5000) (d : Fin 64) (J : Fin 25000) (hJ : J.val = t.val % 5 * 5000 + k.val) :
    iblk1 V c 1 t (ix2 k d) = V c (Pipeline.arrRef spec1 1) (ix2 J d) := by
  obtain ⟨e0, e1, e2, e3, e4, e5⟩ := idx_facts1 t
  unfold iblk1
  rw [View.read_apply]
  refine congrArg (V c (Pipeline.arrRef spec1 1)) (funext fun a => Fin.ext ?_)
  match a with
  | ⟨0, _⟩ => show win1_1.index t (0 : Fin 2) * 5000 + 1 * k.val = J.val; omega
  | ⟨1, _⟩ => show win1_1.index t (1 : Fin 2) * 64 + 1 * d.val = d.val; omega

/-- The payload at point t, row ρ: what the accumulator held plus the point's tile sum. -/
theorem pay1_point (c : Dev nD) (t : Fin cfg1.N) (z : Vec Ideal S256x1 .f32) (ρ : Fin 256) (R : Fin 4096)
    (hR : R.val = t.val / 5 * 256 + ρ.val) :
    k1_pay2 (F := Ideal) (iblk1 V c 0 t) (iblk1 V c 1 t) z (ix2 ρ 0)
      = z (ix2 ρ 0) + tile1 (V c (Pipeline.arrRef spec1 0)) (V c (Pipeline.arrRef spec1 1)) R (t.val % 5) := by
  have hk : t.val % 5 < 5 := Nat.mod_lt _ (by decide)
  rw [pay1_apply, tile1, dif_pos hk]
  refine congrArg (_ + ·) (Finset.sum_congr rfl fun j _ => ?_)
  unfold term1
  refine congrArg (fun s => Ideal.exp (s * _)) (Finset.sum_congr rfl fun d _ => ?_)
  rw [blkQ1 V c t ρ d R hR, blkT1 V c t j d ⟨t.val % 5 * 5000 + j.val, by have := j.isLt; omega⟩ rfl]

/-- THE ACCUMULATION at a row: after point n the accumulator holds the sum of the tiles 0 .. n % 5 of the point's row block. -/
theorem acc1_row (c : Dev nD) (ρ : Fin 256) : ∀ (n : ℕ) (hn : n < cfg1.N) (R : Fin 4096) (hR : R.val = n / 5 * 256 + ρ.val),
    accAt1 V c n hn (ix2 ρ 0)
      = ∑ k ∈ Finset.range (n % 5 + 1), tile1 (V c (Pipeline.arrRef spec1 0)) (V c (Pipeline.arrRef spec1 1)) R k := by
  intro n
  induction n using Nat.strong_induction_on with
  | _ n ih =>
    intro hn R hR
    by_cases h0 : n % 5 = 0
    · have h2 : ¬n % 5 = 4 := by omega
      have e := accAt1_A V c ⟨n, hn⟩ h0 h2
      rw [show accAt1 V c n hn = accAt1 V c (⟨n, hn⟩ : Fin cfg1.N).val (⟨n, hn⟩ : Fin cfg1.N).isLt from rfl, e, accA1_eq,
        pay1_point V c ⟨n, hn⟩ _ ρ R hR, pay1_1_apply, h0]
      simp only [zero_add, Finset.sum_range_one]
    · have hpos : 0 < n := Nat.pos_of_ne_zero (fun h => h0 (by rw [h]))
      have hlt : n - 1 < cfg1.N := Nat.lt_of_le_of_lt (Nat.sub_le _ _) hn
      have hdiv : (n - 1) / 5 = n / 5 := by omega
      have hmod : (n - 1) % 5 + 1 = n % 5 := by omega
      have hprev := ih (n - 1) (by omega) hlt R (by rw [hdiv]; exact hR)
      rw [hmod] at hprev
      by_cases h2 : n % 5 = 4
      · have e := accAt1_C V c ⟨n, hn⟩ h0 h2
        rw [show accAt1 V c n hn = accAt1 V c (⟨n, hn⟩ : Fin cfg1.N).val (⟨n, hn⟩ : Fin cfg1.N).isLt from rfl, e, accC1_eq,
          pay1_point V c ⟨n, hn⟩ _ ρ R hR]
        show accAt1 V c (n - 1) hlt (ix2 ρ 0) + tile1 _ _ R (n % 5) = _
        rw [hprev, Finset.sum_range_succ]
      · have e := accAt1_B V c ⟨n, hn⟩ h0 h2
        rw [show accAt1 V c n hn = accAt1 V c (⟨n, hn⟩ : Fin cfg1.N).val (⟨n, hn⟩ : Fin cfg1.N).isLt from rfl, e, accB1_eq,
          pay1_point V c ⟨n, hn⟩ _ ρ R hR]
        show accAt1 V c (n - 1) hlt (ix2 ρ 0) + tile1 _ _ R (n % 5) = _
        rw [hprev, Finset.sum_range_succ]

/-- The 5 tile sums of a row are the sum over the whole table. -/
theorem tiles1_eq (Q : S4096x64.Idx → EReal) (T : S25000x64.Idx → EReal) (R : Fin 4096) :
    ∑ k ∈ Finset.range 5, tile1 Q T R k = ∑ J : Fin 25000, term1 Q T R J := by
  rw [Finset.sum_range, Cert.Lib.sum_blocks (show 5 * 5000 = 25000 from rfl) (term1 Q T R)]
  refine Finset.sum_congr rfl fun k _ => ?_
  rw [tile1, dif_pos k.isLt]

set_option maxRecDepth 65536 in
/-- WHAT A LAST-TILE POINT WRITES BACK is its block of `tot1` of the input arrays. -/
theorem flushed1_eq (c : Dev nD) (t : Fin cfg1.N) (hf : (cfg1.win 2).flush t = true) :
    (dat1 V c).flushed 2 t
      = ((cfg1.win 2).blk t).view.read (Elt Ideal) (tot1 (V c (Pipeline.arrRef spec1 0)) (V c (Pipeline.arrRef spec1 1))) := by
  have h2 : t.val % 5 = 4 := (flush1_2 t).mp hf
  have h0 : ¬t.val % 5 = 0 := by omega
  have hN : cfg1.N = 80 := N_1
  have htl : t.val < 80 := hN ▸ t.isLt
  obtain ⟨e0, e1, e2, e3, e4, e5⟩ := idx_facts1 t
  show (cfg1.win 2).cut (grid1.coords t) ((dat1 V c).after 2 t) = _
  rw [after1_2, outAt1_C V c t h0 h2, outC1_eq]
  funext j
  rw [View.read_apply]
  have hemb : ∀ y : S256x1.Idx, (((cfg1.win 2).blk t).view.emb y 0).val = win1_2.index t (0 : Fin 2) * 256 + 1 * (y 0).val := fun _ => rfl
  obtain ⟨ρ, q, rfl⟩ : ∃ (ρ : Fin 256) (q : Fin 1), j = ix2 ρ q := ⟨j 0, j 1, eq_ix2 j⟩
  obtain rfl : q = 0 := Subsingleton.elim _ _
  have hRlt : t.val / 5 * 256 + ρ.val < 4096 := by have := ρ.isLt; omega
  show k1_pay2 (F := Ideal) (iblk1 V c 0 t) (iblk1 V c 1 t) (accAt1 V c (t.val - 1) (Nat.lt_of_le_of_lt (Nat.sub_le _ _) t.isLt)) (ix2 ρ 0) = _
  rw [pay1_point V c t _ ρ ⟨t.val / 5 * 256 + ρ.val, hRlt⟩ rfl,
    acc1_row V c ρ (t.val - 1) _ ⟨t.val / 5 * 256 + ρ.val, hRlt⟩ (by show t.val / 5 * 256 + ρ.val = (t.val - 1) / 5 * 256 + ρ.val; omega),
    show (t.val - 1) % 5 + 1 = 4 from by omega, h2, ← Finset.sum_range_succ, tiles1_eq]
  unfold tot1
  rw [zero_add]
  refine Finset.sum_congr rfl fun J _ => ?_
  refine congrArg (fun R => term1 _ _ R J) (Fin.ext ?_)
  refine Eq.trans ?_ (hemb (ix2 ρ 0)).symm
  show t.val / 5 * 256 + ρ.val = win1_2.index t (0 : Fin 2) * 256 + 1 * ρ.val
  omega

/-- An index of the output array is in point t's block iff each coordinate is in the block's range. -/
theorem mem_blk1 (t : Fin cfg1.N) (i : S4096x1.Idx) :
    i ∈ ((cfg1.win 2).blk t).view.set ↔ ∀ a : Fin 2, win1_2.index t a * S256x1.size a ≤ (i a).val ∧ (i a).val < win1_2.index t a * S256x1.size a + S256x1.size a := by
  show i ∈ ((View.whole main_v165).slice (win1_2.rect t)).set ↔ _
  rw [View.set_slice_whole, Rect.mem_set_unit]
  exact Iff.rfl

/-- THE ARRAY after the pipeline: `tot1` of the two input arrays. -/
theorem final1 (c : Dev nD) :
    (dat1 V c).arrAt 2 cfg1.N = tot1 (V c (Pipeline.arrRef spec1 0)) (V c (Pipeline.arrRef spec1 1)) :=
  (dat1 V c).arrAt_eq_of_cover 2 _ (flushed1_eq V c) fun i => by
    have hN : cfg1.N = 80 := N_1
    have hi0 : (i 0).val < 4096 := (i 0).isLt
    have hi1 : (i 1).val < 1 := (i 1).isLt
    have htl : (i 0).val / 256 * 5 + 4 < cfg1.N := by rw [hN]; omega
    obtain ⟨e0, e1, e2, e3, e4, e5⟩ := idx_facts1 ⟨(i 0).val / 256 * 5 + 4, htl⟩
    refine ⟨⟨(i 0).val / 256 * 5 + 4, htl⟩, (flush1_2 _).mpr (by show ((i 0).val / 256 * 5 + 4) % 5 = 4; omega), ?_⟩
    rw [mem_blk1]
    intro a
    have q0 : win1_2.index ⟨(i 0).val / 256 * 5 + 4, htl⟩ (0 : Fin 2) = (i 0).val / 256 := by rw [e4]; show ((i 0).val / 256 * 5 + 4) / 5 = _; omega
    match a with
    | ⟨0, _⟩ => show win1_2.index _ (0 : Fin 2) * 256 ≤ (i 0).val ∧ (i 0).val < win1_2.index _ (0 : Fin 2) * 256 + 256; rw [q0]; omega
    | ⟨1, _⟩ => show win1_2.index _ (1 : Fin 2) * 1 ≤ (i 1).val ∧ (i 1).val < win1_2.index _ (1 : Fin 2) * 1 + 1; rw [e5]; omega

end Cert.KernelIdeal.Hand
end
-- ==== Proof.Tot1.lean ====
/-
  Pipeline 1: the sum of exponentials the kernel program takes from the pipeline's output array is the reference's.
  Kernel side: the buffer is the output array stood as a vector; the array is `tot1` of the pipeline's two input arrays
  (Proof/KIArray1.lean), which are buffers already paired with the reference's.  Reference side: its buffer is
  reduceAdd (exp (dot (q, tᵀ) / D)) from 0 (Proof/RefTotBig.lean).  Row by row both are 0 + Σ_k exp (s_k · 2^27/13421773), the
  reference's quotient by D = 13421773/2^27 being that product.
-/
import proofs.«110517_j15659450761722_1_alg».proof.Proof.MatchIn
import proofs.«110517_j15659450761722_1_alg».proof.Proof.KIArray1
import proofs.«110517_j15659450761722_1_alg».proof.Proof.RefTotBig
import proofs.«110517_j15659450761722_1_alg».proof.Proof.TotFacts

set_option maxRecDepth 16384

noncomputable section

open Idealize.ShloMosaic Idealize.ShloMosaic.TcCoe Idealize.SL.Sem Idealize.ShloMosaic.StableHlo ValueIdx

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag

/-- The kernel program's vector is the pipeline's output array, reshaped. -/
theorem kshape1 (c : Dev Cert.KernelIdeal.nD) :
    Cert.KernelIdeal.Hand.W29 (F := Ideal) m ρ c (Proc.devRef .tc Cert.KernelIdeal.main_v166) = shapeCast Cert.KernelIdeal.S4096 (Cert.KernelIdeal.Hand.W29 (F := Ideal) m ρ c (Proc.devRef .tc Cert.KernelIdeal.main_v165) : Cert.KernelIdeal.S4096x1.Idx → EReal) Cert.KernelIdeal.Gen.shapeCasts_S4096x1_S4096 := by
  rw [Cert.KernelIdeal.Hand.kept16 (F := Ideal) m ρ c Cert.KernelIdeal.main_v166 (by decide), Cert.KernelIdeal.Hand.kept16 (F := Ideal) m ρ c Cert.KernelIdeal.main_v165 (by decide)]
  exact Cert.Lib.ReadFinal.reshape (l := Cert.KernelIdeal.Gen.hostOps2) (Cert.KernelIdeal.Hand.hostOps2_inOrder (F := Ideal)) 0 rfl (by decide) (by decide) (Cert.KernelIdeal.Hand.W16 (F := Ideal) m ρ c)

/-- The output array is `tot1` of the reference's two paired buffers. -/
theorem karr1 (c : Dev Cert.KernelIdeal.nD) :
    (Cert.KernelIdeal.Hand.W29 (F := Ideal) m ρ c (Proc.devRef .tc Cert.KernelIdeal.main_v165) : Cert.KernelIdeal.S4096x1.Idx → EReal)
      = Cert.KernelIdeal.Hand.tot1 (Cert.Proof.Parts.RW (F := Ideal) m' c (Proc.devRef .tc Cert.ReferenceIdeal.main_v157)) (Cert.Proof.Parts.RW (F := Ideal) m' c (Proc.devRef .tc Cert.ReferenceIdeal.main_v167)) := by
  rw [Cert.KernelIdeal.Hand.kept15 (F := Ideal) m ρ c Cert.KernelIdeal.main_v165 (by decide)]
  refine (Cert.KernelIdeal.Hand.W16_arr (F := Ideal) m ρ c 2).trans ?_
  rw [Cert.KernelIdeal.Hand.final1 (Cert.KernelIdeal.Hand.V15 (F := Ideal) m ρ) c]
  have hq : Cert.KernelIdeal.Hand.V15 (F := Ideal) m ρ c (Pipeline.arrRef Cert.KernelIdeal.spec1 0) = Cert.Proof.Parts.RW (F := Ideal) m' c (Proc.devRef .tc Cert.ReferenceIdeal.main_v157) :=
    ((Cert.KernelIdeal.Hand.kept14 (F := Ideal) m ρ c Cert.KernelIdeal.main_v154 (by decide)).symm).trans (i_v154__v157 m ρ m' hag c)
  have ht : Cert.KernelIdeal.Hand.V15 (F := Ideal) m ρ c (Pipeline.arrRef Cert.KernelIdeal.spec1 1) = Cert.Proof.Parts.RW (F := Ideal) m' c (Proc.devRef .tc Cert.ReferenceIdeal.main_v167) :=
    ((Cert.KernelIdeal.Hand.kept14 (F := Ideal) m ρ c Cert.KernelIdeal.main_v164 (by decide)).symm).trans (i_v164__v167 m ρ m' hag c)
  rw [hq, ht]

/-- The reference's buffer is its sum of exponentials of the paired buffers. -/
theorem rsum1 (c : Dev Cert.KernelIdeal.nD) :
    Cert.Proof.Parts.RW (F := Ideal) m' c (Proc.devRef .tc Cert.ReferenceIdeal.main_v178) = Host.reduceAdd (Host.exp (Host.divf (Host.dotGeneral (φ₁ := .f32) (φ₂ := .f32) Cert.ReferenceIdeal.dot_S4096x64_S64x25000_S4096x25000_1_0_0_1_n_n none
        (Cert.Proof.Parts.RW (F := Ideal) m' c (Proc.devRef .tc Cert.ReferenceIdeal.main_v157) : FVec Ideal Cert.ReferenceIdeal.S4096x64 .f32) (transpose (α := EReal) Cert.ReferenceIdeal.S64x25000 [1, 0] (Cert.Proof.Parts.RW (F := Ideal) m' c (Proc.devRef .tc Cert.ReferenceIdeal.main_v167) : FVec Ideal Cert.ReferenceIdeal.S25000x64 .f32) Cert.ReferenceIdeal.Gen.transposes_S25000x64_S64x25000_1_0))
        (broadcastInDim Cert.ReferenceIdeal.S4096x25000 ![] Cert.ReferenceIdeal.Gen.bcast_S_S4096x25000 (constant (F := Ideal) Cert.ReferenceIdeal.S_ .f32 0x3DCCCCCD#32))))
        (constant (F := Ideal) Cert.ReferenceIdeal.S_ .f32 0x00000000#32) Cert.ReferenceIdeal.Gen.reducesTo_S4096x25000_S4096_d1 Cert.ReferenceIdeal.Gen.h_S_ := by
  rw [Cert.Proof.Parts.rst_main_v178 (F := Ideal) m' c, Cert.Proof.Parts.rst_main_v177 (F := Ideal) m' c, Cert.Proof.Parts.rst_main_v176 (F := Ideal) m' c,
    Cert.Proof.Parts.rst_main_v174 (F := Ideal) m' c, Cert.Proof.Parts.rst_main_v173 (F := Ideal) m' c, Cert.Proof.Parts.rst_main_v175 (F := Ideal) m' c,
    Cert.Proof.Parts.rst_main_cst_40 (F := Ideal) m' c, Cert.Proof.Parts.rst_main_cst_41 (F := Ideal) m' c]

/-- THE PAIRING for pipeline 1. -/
theorem sum_v166__v178 (c : Dev Cert.KernelIdeal.nD) : Cert.KernelIdeal.Hand.W29 (F := Ideal) m ρ c (Proc.devRef .tc Cert.KernelIdeal.main_v166) = Cert.Proof.Parts.RW (F := Ideal) m' c (Proc.devRef .tc Cert.ReferenceIdeal.main_v178) := by
  rw [kshape1 m ρ m' hag c, karr1 m ρ m' hag c, rsum1 m m' hag c]
  funext i
  obtain ⟨r, rfl⟩ : ∃ r : Fin 4096, i = ix1 r := ⟨i 0, eq_ix1 i⟩
  rw [Cert.Proof.RefTotBig.refTot25000]
  rw [shapeCast_apply _ Cert.KernelIdeal.Gen.shapeCasts_S4096x1_S4096 (ix1 r) (ix2 r 0) (by
    rw [Shape.rowMajor_val_two, Shape.rowMajor_val_one]; show r.val * 1 + 0 = r.val; omega)]
  unfold Cert.KernelIdeal.Hand.tot1
  refine congrArg₂ (· + ·) ?_ (Finset.sum_congr rfl fun k _ => ?_)
  · show (0 : EReal) = Ideal.ofBits .f32 0x00000000#32
    exact Ideal.ofBits_zero_f32.symm
  · unfold Cert.KernelIdeal.Hand.term1
    show Ideal.exp (_ * _) = Ideal.exp (Ideal.div _ (Ideal.ofBits .f32 0x3DCCCCCD#32))
    rw [Cert.Proof.RefTotBig.div_temp]

end Cert.Proof.Match

end
-- ==== Proof.KIValue2.lean ====
/-
  Pipeline 2's body as arithmetic on the extended reals.  What the body's stores leave in the output block is the
  accumulator payload of the point's two input blocks and the cleared accumulator.  Read at row ρ, that payload is what
  the accumulator held there plus the sum over the tile's 1000 rows k of exp (scale · Σ_d q[ρ,d] · t[k,d]): the product
  into a zero block is the plain sum over the contracted axis, the lane reduction the plain sum over the tile's rows,
  a change of float format the identity, and the scale the named constant's value.
-/
import proofs.«110517_j15659450761722_1_alg».proof.Proof.KIRegion2
import proofs.«110517_j15659450761722_1_alg».proof.Proof.LibCoveredLoad
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.ShloMosaic.Tactic Idealize.SL.Sem
namespace Cert.KernelIdeal.Hand
open Cert.KernelIdeal Cert.KernelIdeal.Gen ValueIdx

theorem hz2 : (![0, 0] : Fin 2 → Nat) = fun _ => 0 := funext fun a => by fin_cases a <;> rfl

/-- What the body leaves in the output block: the accumulator payload of the two input blocks over the cleared
    accumulator (the output's one store is a load of the accumulator after its two whole-block stores). -/
theorem out2_eq {F : FTy → Type} [FloatOps F] [Named F] (c : Dev nD) (i : grid2.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first2 i) (hlast : last2 i) (x0 : Vec F S256x64 .f32) (x1 : Vec F S1000x64 .f32) :
    out2 c i arg2 harg2 arg3 harg3 arg4 harg4 arg5 harg5 hfirst hlast x0 x1 = k2_pay2 x0 x1 (k2_pay1 (F := F)) := by
  unfold out2
  rw [View.read_writes_eq_canon _ _ _ (cover2 c i arg2 harg2 arg3 harg3 arg4 harg4 arg5 harg5 hfirst hlast x0 x1)]
  unfold bodyRun2
  dsimp only
  try sl_unfold_words
  rw [View.canon_unit_zero hz2]
  simp only [View.readCov_unit_zero (S := S256x1) _ hz2, View.readAt_eq_ld, harg2.read_unread, harg3.read_unread,
    View.ld_unit_zero (S := S256x64) hz2, View.ld_unit_zero (S := S1000x64) hz2]
  exact Cert.Lib.CoveredLoad.readCov_cons_unit_zero _ hz2 _ _ _

/-- The lane sum at a row. -/
theorem lane2_apply (y : FVec Ideal S256x1000 .f32) (ρ : Fin 256) :
    multiReduction .add [1] S256 y 0x00000000#32 reduces_S256x1000_S256 (.inl rfl) rfl (ix1 ρ) = ∑ k : Fin 1000, y (ix2 ρ k) := by
  refine (Ideal.multiReduction_add_single y 0x00000000#32 reduces_S256x1000_S256 (.inl rfl) rfl (ix1 ρ)).trans ?_
  exact Finset.sum_congr rfl fun k _ => congrArg y (funext fun a => Fin.ext (by match a with | ⟨0, _⟩ => rfl | ⟨1, _⟩ => rfl))

/-- A vector of 256 stood up as a 256 × 1 column, read at row ρ. -/
theorem col2_apply {α : Type} (y : S256.Idx → α) (ρ : Fin 256) :
    shapeCast S256x1 y shapeCasts_S256_S256x1 (ix2 ρ 0) = y (ix1 ρ) :=
  shapeCast_apply y shapeCasts_S256_S256x1 (ix2 ρ 0) (ix1 ρ) (by
    rw [Shape.rowMajor_val_one, Shape.rowMajor_val_two]
    show ρ.val = ρ.val * 1 + 0
    omega)

/-- The named scale at the extended reals. -/
theorem kappa2_val : Named.named (F := Ideal) κ "inv_temp" (φ := .f32) 0x41200000#32 = ((134217728 / 13421773 : ℝ) : EReal) :=
  IdealRules.named_const.ideal_named_scalar _ _ _ _ rfl

theorem lhs2_0 (i : S256x1000.Idx) (q : dot_S256x64_S1000x64_S256x1000_1_1_0_0_n_n.contr.Idx) : (dot_S256x64_S1000x64_S256x1000_1_1_0_0_n_n.lhsIdx i q 0).val = (i 0).val := by
  unfold DotDims.lhsIdx
  rw [dif_neg (show ¬(0 : Fin S256x64.rank) ∈ dot_S256x64_S1000x64_S256x1000_1_1_0_0_n_n.lhsBatch by decide), dif_pos (show (0 : Fin S256x64.rank) ∈ dot_S256x64_S1000x64_S256x1000_1_1_0_0_n_n.lhsNonContracting by decide)]
  rfl
theorem lhs2_1 (i : S256x1000.Idx) (q : dot_S256x64_S1000x64_S256x1000_1_1_0_0_n_n.contr.Idx) : (dot_S256x64_S1000x64_S256x1000_1_1_0_0_n_n.lhsIdx i q 1).val = (q ⟨0, by decide⟩).val :=
  dot_S256x64_S1000x64_S256x1000_1_1_0_0_n_n.lhsIdx_val_of_single rfl i q
theorem rhs2_0 (i : S256x1000.Idx) (q : dot_S256x64_S1000x64_S256x1000_1_1_0_0_n_n.contr.Idx) : (dot_S256x64_S1000x64_S256x1000_1_1_0_0_n_n.rhsIdx i q 0).val = (i 1).val := by
  unfold DotDims.rhsIdx
  rw [dif_neg (show ¬(0 : Fin S1000x64.rank) ∈ dot_S256x64_S1000x64_S256x1000_1_1_0_0_n_n.rhsBatch by decide), dif_pos (show (0 : Fin S1000x64.rank) ∈ dot_S256x64_S1000x64_S256x1000_1_1_0_0_n_n.rhsNonContracting by decide)]
  rfl
theorem rhs2_1 (i : S256x1000.Idx) (q : dot_S256x64_S1000x64_S256x1000_1_1_0_0_n_n.contr.Idx) : (dot_S256x64_S1000x64_S256x1000_1_1_0_0_n_n.rhsIdx i q 1).val = (q ⟨0, by decide⟩).val :=
  dot_S256x64_S1000x64_S256x1000_1_1_0_0_n_n.rhsIdx_val_of_single rfl i q

/-- The tile product at an entry: row ρ of the query block against row k of the table tile. -/
theorem mm2_apply (l : FVec Ideal S256x64 .bf16) (r : FVec Ideal S1000x64 .bf16) (ρ : Fin 256) (k : Fin 1000) :
    matmul dot_S256x64_S1000x64_S256x1000_1_1_0_0_n_n none l r (constant S256x1000 .f32 0x00000000#32) (ix2 ρ k)
      = ∑ d : Fin 64, l (ix2 ρ d) * r (ix2 k d) := by
  refine (Ideal.matmul_constant_zero_apply dot_S256x64_S1000x64_S256x1000_1_1_0_0_n_n none l r (ix2 ρ k)).trans ?_
  rw [← Equiv.sum_comp (ValueIdx.contrEquiv1 dot_S256x64_S1000x64_S256x1000_1_1_0_0_n_n 64 rfl rfl).symm]
  refine Finset.sum_congr rfl fun d _ => ?_
  have hk := ValueIdx.contrEquiv1_symm_val dot_S256x64_S1000x64_S256x1000_1_1_0_0_n_n 64 rfl rfl d
  have el : dot_S256x64_S1000x64_S256x1000_1_1_0_0_n_n.lhsIdx (ix2 ρ k) ((ValueIdx.contrEquiv1 dot_S256x64_S1000x64_S256x1000_1_1_0_0_n_n 64 rfl rfl).symm d) = ix2 ρ d := funext fun a => Fin.ext (by
    match a with
    | ⟨0, _⟩ => exact lhs2_0 _ _
    | ⟨1, _⟩ => exact (lhs2_1 _ _).trans hk)
  have er : dot_S256x64_S1000x64_S256x1000_1_1_0_0_n_n.rhsIdx (ix2 ρ k) ((ValueIdx.contrEquiv1 dot_S256x64_S1000x64_S256x1000_1_1_0_0_n_n 64 rfl rfl).symm d) = ix2 k d := funext fun a => Fin.ext (by
    match a with
    | ⟨0, _⟩ => exact rhs2_0 _ _
    | ⟨1, _⟩ => exact (rhs2_1 _ _).trans hk)
  rw [el, er]

/-- The body's accumulator payload at row ρ: what the accumulator held there plus the tile's sum of exponentials of the
    scaled scores of query row ρ against the tile's rows. -/
theorem pay2_apply (x0 : Vec Ideal S256x64 .f32) (x1 : Vec Ideal S1000x64 .f32) (z : Vec Ideal S256x1 .f32) (ρ : Fin 256) :
    k2_pay2 (F := Ideal) x0 x1 z (ix2 ρ 0)
      = z (ix2 ρ 0) + ∑ k : Fin 1000, Ideal.exp ((∑ d : Fin 64, x0 (ix2 ρ d) * x1 (ix2 k d)) * ((134217728 / 13421773 : ℝ) : EReal)) := by
  have e1 : k2_pay2 (F := Ideal) x0 x1 z = addf z (shapeCast S256x1 (multiReduction .add [1] S256 (exp (mulf
      (matmul dot_S256x64_S1000x64_S256x1000_1_1_0_0_n_n none (truncf .bf16 x0 bitsLt_bf16_f32) (truncf .bf16 x1 bitsLt_bf16_f32) (constant S256x1000 .f32 0x00000000#32))
      (broadcast S256x1000 (Named.named κ "inv_temp" 0x41200000#32)))) 0x00000000#32 reduces_S256x1000_S256 (.inl rfl) rfl) shapeCasts_S256_S256x1) := by
    unfold k2_pay2; simp only [shapeCast_self]
  rw [e1, addf_apply, col2_apply, lane2_apply]
  congr 1
  refine Finset.sum_congr rfl fun k _ => ?_
  show Ideal.exp (matmul (F := Ideal) dot_S256x64_S1000x64_S256x1000_1_1_0_0_n_n none (truncf .bf16 x0 bitsLt_bf16_f32) (truncf .bf16 x1 bitsLt_bf16_f32) (constant (F := Ideal) S256x1000 .f32 0x00000000#32) (ix2 ρ k)
      * Named.named (F := Ideal) κ "inv_temp" (φ := .f32) 0x41200000#32) = _
  rw [mm2_apply, kappa2_val]
  rfl

end Cert.KernelIdeal.Hand
end
-- ==== Proof.KIArray2.lean ====
/-
  Pipeline 2's output array as one function of its two input arrays: row R of the output is the sum over the table's
  1000 rows k of exp (scale · Σ_d q[R,d] · t[k,d]).  Each of the 16 points writes back the 256 rows of its block, computed
  from that block of the queries and the whole table, and the 16 blocks tile the 4096 rows.
-/
import proofs.«110517_j15659450761722_1_alg».proof.Proof.KIValue2

set_option maxRecDepth 16384

noncomputable section
open Idealize.ShloMosaic Idealize.ShloMosaic.TcCoe Idealize.ShloMosaic.Tactic Idealize.SL.Sem
open Idealize.ShloMosaic.Pipeline (Dat)
namespace Cert.KernelIdeal.Hand
open Cert.KernelIdeal Cert.KernelIdeal.Gen ValueIdx

/-- The scale's value. -/
abbrev scaleV2 : EReal := ((134217728 / 13421773 : ℝ) : EReal)

/-- The cleared accumulator reads zero. -/
theorem pay1_2_apply (y : S256x1.Idx) : k2_pay1 (F := Ideal) y = 0 := by
  unfold k2_pay1
  simp only [shapeCast_self]
  show Ideal.ofBits .f32 0x00000000#32 = 0
  exact Ideal.ofBits_zero_f32

/-- The payload at any index of the 256 × 1 block. -/
theorem pay2_at (x0 : Vec Ideal S256x64 .f32) (x1 : Vec Ideal S1000x64 .f32) (z : Vec Ideal S256x1 .f32) (y : S256x1.Idx) :
    k2_pay2 (F := Ideal) x0 x1 z y
      = z y + ∑ k : Fin 1000, Ideal.exp ((∑ d : Fin 64, x0 (ix2 (⟨(y 0).val, idx2_lt0 y⟩ : Fin 256) d) * x1 (ix2 k d)) * scaleV2) := by
  obtain ⟨p, q, rfl⟩ : ∃ (p : Fin 256) (q : Fin 1), y = ix2 p q := ⟨y 0, y 1, eq_ix2 y⟩
  obtain rfl : q = 0 := Subsingleton.elim _ _
  exact pay2_apply x0 x1 z p

variable (V : (c : Dev nD) → (b : Ref sig .tc) → Buf (Elt Ideal) ((c : Thread nD τ).loc b))

/-- The array the pipeline leaves, as a function of its two input arrays. -/
def tot2 (Q : S4096x64.Idx → EReal) (T : S1000x64.Idx → EReal) : S4096x1.Idx → EReal :=
  fun i => 0 + ∑ k : Fin 1000, Ideal.exp ((∑ d : Fin 64, Q (ix2 (⟨(i 0).val, idx2_lt0 i⟩ : Fin 4096) d) * T (ix2 k d)) * scaleV2)

/-- The printed block-index maps, decided over the grid: the query block moves with the output block along the rows,
    the table's one tile stays, and there are 16 row blocks. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 15 :=
  (by decide +kernel : ∀ t : Fin grid2.N, _)

/-- Every row block is some point's. -/
theorem idx_onto2 : ∀ q0 : Fin 16, ∃ t : Fin cfg2.N, win2_2.index t = ![q0.val, 0] :=
  (by decide +kernel : ∀ q0 : Fin 16, ∃ t : Fin grid2.N, win2_2.index t = ![q0.val, 0])

/-- Row ρ of point t's query block is row (block index · 256 + ρ) of the query array. -/
theorem blkQ2 (c : Dev nD) (t : Fin cfg2.N) (ρ : Fin 256) (d : Fin 64) (R : Fin 4096)
    (hR : R.val = win2_2.index t (0 : Fin 2) * 256 + ρ.val) :
    iblk2 V c 0 t (ix2 ρ d) = V c (Pipeline.arrRef spec2 0) (ix2 R d) := by
  obtain ⟨e0, e1, e2, e3, e4, e5⟩ := idx_facts2 t
  unfold iblk2
  rw [View.read_apply]
  refine congrArg (V c (Pipeline.arrRef spec2 0)) (funext fun a => Fin.ext ?_)
  match a with
  | ⟨0, _⟩ => show win2_0.index t (0 : Fin 2) * 256 + 1 * ρ.val = R.val; omega
  | ⟨1, _⟩ => show win2_0.index t (1 : Fin 2) * 64 + 1 * d.val = d.val; omega

/-- Point t's table block is the whole table. -/
theorem blkT2 (c : Dev nD) (t : Fin cfg2.N) (k : Fin 1000) (d : Fin 64) :
    iblk2 V c 1 t (ix2 k d) = V c (Pipeline.arrRef spec2 1) (ix2 k d) := by
  obtain ⟨e0, e1, e2, e3, e4, e5⟩ := idx_facts2 t
  unfold iblk2
  rw [View.read_apply]
  refine congrArg (V c (Pipeline.arrRef spec2 1)) (funext fun a => Fin.ext ?_)
  match a with
  | ⟨0, _⟩ => show win2_1.index t (0 : Fin 2) * 1000 + 1 * k.val = k.val; omega
  | ⟨1, _⟩ => show win2_1.index t (1 : Fin 2) * 64 + 1 * d.val = d.val; omega

/-- WHAT POINT t WRITES BACK is block t of `tot2` of the input arrays as the region finds them. -/
theorem flushed2_eq (c : Dev nD) (t : Fin cfg2.N) :
    (dat2 V c).flushed 2 t
      = ((cfg2.win 2).blk t).view.read (Elt Ideal) (tot2 (V c (Pipeline.arrRef spec2 0)) (V c (Pipeline.arrRef spec2 1))) := by
  show (cfg2.win 2).cut (grid2.coords t) ((dat2 V c).after 2 t) = _
  rw [after2_2]
  unfold outAt2
  rw [out2_eq]
  obtain ⟨e0, e1, e2, e3, e4, e5⟩ := idx_facts2 t
  funext j
  rw [View.read_apply]
  show k2_pay2 (F := Ideal) (iblk2 V c 0 t) (iblk2 V c 1 t) (k2_pay1 (F := Ideal)) j = _
  rw [pay2_at, pay1_2_apply]
  unfold tot2
  refine congrArg (0 + ·) (Finset.sum_congr rfl fun k _ => ?_)
  refine congrArg (fun s => Ideal.exp (s * scaleV2)) (Finset.sum_congr rfl fun d _ => ?_)
  rw [blkT2 V c t k d]
  refine congrArg (· * _) (blkQ2 V c t _ d _ ?_)
  show (((cfg2.win 2).blk t).view.emb j 0).val = win2_2.index t (0 : Fin 2) * 256 + (j 0).val
  show win2_2.index t (0 : Fin 2) * 256 + 1 * (j 0).val = _
  omega

/-- An index of the output array is in point t's block iff each coordinate is in the block's range. -/
theorem mem_blk2 (t : Fin cfg2.N) (i : S4096x1.Idx) :
    i ∈ ((cfg2.win 2).blk t).view.set ↔ ∀ a : Fin 2, win2_2.index t a * S256x1.size a ≤ (i a).val ∧ (i a).val < win2_2.index t a * S256x1.size a + S256x1.size a := by
  show i ∈ ((View.whole main_v216).slice (win2_2.rect t)).set ↔ _
  rw [View.set_slice_whole, Rect.mem_set_unit]
  exact Iff.rfl

/-- THE ARRAY after the pipeline: `tot2` of the two input arrays. -/
theorem final2 (c : Dev nD) :
    (dat2 V c).arrAt 2 cfg2.N = tot2 (V c (Pipeline.arrRef spec2 0)) (V c (Pipeline.arrRef spec2 1)) :=
  (dat2 V c).arrAt_eq_of_cover 2 _ (fun t _ => flushed2_eq V c t) fun i => by
    have hi0 : (i 0).val < 4096 := (i 0).isLt
    have hi1 : (i 1).val < 1 := (i 1).isLt
    obtain ⟨t, ht⟩ := idx_onto2 ⟨(i 0).val / 256, by omega⟩
    have q0 : win2_2.index t (0 : Fin 2) = (i 0).val / 256 := congrFun ht 0
    have q1 : win2_2.index t (1 : Fin 2) = 0 := congrFun ht 1
    refine ⟨t, flush2_2 t, ?_⟩
    rw [mem_blk2]
    intro a
    match a with
    | ⟨0, _⟩ => show win2_2.index t (0 : Fin 2) * 256 ≤ (i 0).val ∧ (i 0).val < win2_2.index t (0 : Fin 2) * 256 + 256; omega
    | ⟨1, _⟩ => show win2_2.index t (1 : Fin 2) * 1 ≤ (i 1).val ∧ (i 1).val < win2_2.index t (1 : Fin 2) * 1 + 1; omega

end Cert.KernelIdeal.Hand
end
-- ==== Proof.Tot2.lean ====
/-
  Pipeline 2: the sum of exponentials the kernel program takes from the pipeline's output array is the reference's.
  Kernel side: the buffer is the output array stood as a vector; the array is `tot2` of the pipeline's two input arrays
  (Proof/KIArray2.lean), which are buffers already paired with the reference's.  Reference side: its buffer is
  reduceAdd (exp (dot (q, tᵀ) / D)) from 0 (Proof/RefTotBig.lean).  Row by row both are 0 + Σ_k exp (s_k · 2^27/13421773), the
  reference's quotient by D = 13421773/2^27 being that product.
-/
import proofs.«110517_j15659450761722_1_alg».proof.Proof.MatchIn
import proofs.«110517_j15659450761722_1_alg».proof.Proof.KIArray2
import proofs.«110517_j15659450761722_1_alg».proof.Proof.RefTotBig
import proofs.«110517_j15659450761722_1_alg».proof.Proof.TotFacts

set_option maxRecDepth 16384

noncomputable section

open Idealize.ShloMosaic Idealize.ShloMosaic.TcCoe Idealize.SL.Sem Idealize.ShloMosaic.StableHlo ValueIdx

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag

/-- The kernel program's vector is the pipeline's output array, reshaped. -/
theorem kshape2 (c : Dev Cert.KernelIdeal.nD) :
    Cert.KernelIdeal.Hand.W29 (F := Ideal) m ρ c (Proc.devRef .tc Cert.KernelIdeal.main_v217) = shapeCast Cert.KernelIdeal.S4096 (Cert.KernelIdeal.Hand.W29 (F := Ideal) m ρ c (Proc.devRef .tc Cert.KernelIdeal.main_v216) : Cert.KernelIdeal.S4096x1.Idx → EReal) Cert.KernelIdeal.Gen.shapeCasts_S4096x1_S4096 := by
  rw [Cert.KernelIdeal.Hand.kept22 (F := Ideal) m ρ c Cert.KernelIdeal.main_v217 (by decide), Cert.KernelIdeal.Hand.kept22 (F := Ideal) m ρ c Cert.KernelIdeal.main_v216 (by decide)]
  exact Cert.Lib.ReadFinal.reshape (l := Cert.KernelIdeal.Gen.hostOps3) (Cert.KernelIdeal.Hand.hostOps3_inOrder (F := Ideal)) 0 rfl (by decide) (by decide) (Cert.KernelIdeal.Hand.W22 (F := Ideal) m ρ c)

/-- The output array is `tot2` of the reference's two paired buffers. -/
theorem karr2 (c : Dev Cert.KernelIdeal.nD) :
    (Cert.KernelIdeal.Hand.W29 (F := Ideal) m ρ c (Proc.devRef .tc Cert.KernelIdeal.main_v216) : Cert.KernelIdeal.S4096x1.Idx → EReal)
      = Cert.KernelIdeal.Hand.tot2 (Cert.Proof.Parts.RW (F := Ideal) m' c (Proc.devRef .tc Cert.ReferenceIdeal.main_v197)) (Cert.Proof.Parts.RW (F := Ideal) m' c (Proc.devRef .tc Cert.ReferenceIdeal.main_v202)) := by
  rw [Cert.KernelIdeal.Hand.kept21 (F := Ideal) m ρ c Cert.KernelIdeal.main_v216 (by decide)]
  refine (Cert.KernelIdeal.Hand.W22_arr (F := Ideal) m ρ c 2).trans ?_
  rw [Cert.KernelIdeal.Hand.final2 (Cert.KernelIdeal.Hand.V21 (F := Ideal) m ρ) c]
  have hq : Cert.KernelIdeal.Hand.V21 (F := Ideal) m ρ c (Pipeline.arrRef Cert.KernelIdeal.spec2 0) = Cert.Proof.Parts.RW (F := Ideal) m' c (Proc.devRef .tc Cert.ReferenceIdeal.main_v197) :=
    ((Cert.KernelIdeal.Hand.kept20 (F := Ideal) m ρ c Cert.KernelIdeal.main_v191 (by decide)).symm).trans (i_v191__v197 m ρ m' hag c)
  have ht : Cert.KernelIdeal.Hand.V21 (F := Ideal) m ρ c (Pipeline.arrRef Cert.KernelIdeal.spec2 1) = Cert.Proof.Parts.RW (F := Ideal) m' c (Proc.devRef .tc Cert.ReferenceIdeal.main_v202) :=
    ((Cert.KernelIdeal.Hand.kept20 (F := Ideal) m ρ c Cert.KernelIdeal.main_v196 (by decide)).symm).trans (i_v196__v202 m ρ m' hag c)
  rw [hq, ht]

/-- The reference's buffer is its sum of exponentials of the paired buffers. -/
theorem rsum2 (c : Dev Cert.KernelIdeal.nD) :
    Cert.Proof.Parts.RW (F := Ideal) m' c (Proc.devRef .tc Cert.ReferenceIdeal.main_v227) = Host.reduceAdd (Host.exp (Host.divf (Host.dotGeneral (φ₁ := .f32) (φ₂ := .f32) Cert.ReferenceIdeal.dot_S4096x64_S64x1000_S4096x1000_1_0_0_1_n_n none
        (Cert.Proof.Parts.RW (F := Ideal) m' c (Proc.devRef .tc Cert.ReferenceIdeal.main_v197) : FVec Ideal Cert.ReferenceIdeal.S4096x64 .f32) (transpose (α := EReal) Cert.ReferenceIdeal.S64x1000 [1, 0] (Cert.Proof.Parts.RW (F := Ideal) m' c (Proc.devRef .tc Cert.ReferenceIdeal.main_v202) : FVec Ideal Cert.ReferenceIdeal.S1000x64 .f32) Cert.ReferenceIdeal.Gen.transposes_S1000x64_S64x1000_1_0))
        (broadcastInDim Cert.ReferenceIdeal.S4096x1000 ![] Cert.ReferenceIdeal.Gen.bcast_S_S4096x1000 (constant (F := Ideal) Cert.ReferenceIdeal.S_ .f32 0x3DCCCCCD#32))))
        (constant (F := Ideal) Cert.ReferenceIdeal.S_ .f32 0x00000000#32) Cert.ReferenceIdeal.Gen.reducesTo_S4096x1000_S4096_d1 Cert.ReferenceIdeal.Gen.h_S_ := by
  rw [Cert.Proof.Parts.rst_main_v227 (F := Ideal) m' c, Cert.Proof.Parts.rst_main_v226 (F := Ideal) m' c, Cert.Proof.Parts.rst_main_v225 (F := Ideal) m' c,
    Cert.Proof.Parts.rst_main_v223 (F := Ideal) m' c, Cert.Proof.Parts.rst_main_v222 (F := Ideal) m' c, Cert.Proof.Parts.rst_main_v224 (F := Ideal) m' c,
    Cert.Proof.Parts.rst_main_cst_55 (F := Ideal) m' c, Cert.Proof.Parts.rst_main_cst_56 (F := Ideal) m' c]

/-- THE PAIRING for pipeline 2. -/
theorem sum_v217__v227 (c : Dev Cert.KernelIdeal.nD) : Cert.KernelIdeal.Hand.W29 (F := Ideal) m ρ c (Proc.devRef .tc Cert.KernelIdeal.main_v217) = Cert.Proof.Parts.RW (F := Ideal) m' c (Proc.devRef .tc Cert.ReferenceIdeal.main_v227) := by
  rw [kshape2 m ρ m' hag c, karr2 m ρ m' hag c, rsum2 m m' hag c]
  funext i
  obtain ⟨r, rfl⟩ : ∃ r : Fin 4096, i = ix1 r := ⟨i 0, eq_ix1 i⟩
  rw [Cert.Proof.RefTotBig.refTot1000]
  rw [shapeCast_apply _ Cert.KernelIdeal.Gen.shapeCasts_S4096x1_S4096 (ix1 r) (ix2 r 0) (by
    rw [Shape.rowMajor_val_two, Shape.rowMajor_val_one]; show r.val * 1 + 0 = r.val; omega)]
  unfold Cert.KernelIdeal.Hand.tot2
  refine congrArg₂ (· + ·) ?_ (Finset.sum_congr rfl fun k _ => ?_)
  · show (0 : EReal) = Ideal.ofBits .f32 0x00000000#32
    exact Ideal.ofBits_zero_f32.symm
  · show Ideal.exp (_ * _) = Ideal.exp (Ideal.div _ (Ideal.ofBits .f32 0x3DCCCCCD#32))
    rw [Cert.Proof.RefTotBig.div_temp]

end Cert.Proof.Match

end
-- ==== Proof.KIValue3.lean ====
/-
  Pipeline 3's body as arithmetic on the extended reals.  What the body's stores leave in the output block is the
  accumulator payload of the point's two input blocks and the cleared accumulator.  Read at row ρ, that payload is what
  the accumulator held there plus the sum over the tile's 1000 rows k of exp (scale · Σ_d q[ρ,d] · t[k,d]): the product
  into a zero block is the plain sum over the contracted axis, the lane reduction the plain sum over the tile's rows,
  a change of float format the identity, and the scale the named constant's value.
-/
import proofs.«110517_j15659450761722_1_alg».proof.Proof.KIRegion3
import proofs.«110517_j15659450761722_1_alg».proof.Proof.LibCoveredLoad
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.ShloMosaic.Tactic Idealize.SL.Sem
namespace Cert.KernelIdeal.Hand
open Cert.KernelIdeal Cert.KernelIdeal.Gen ValueIdx

theorem hz3 : (![0, 0] : Fin 2 → Nat) = fun _ => 0 := funext fun a => by fin_cases a <;> rfl

/-- What the body leaves in the output block: the accumulator payload of the two input blocks over the cleared
    accumulator (the output's one store is a load of the accumulator after its two whole-block stores). -/
theorem out3_eq {F : FTy → Type} [FloatOps F] [Named F] (c : Dev nD) (i : grid3.Coords) (arg2 : Memref sig .tc .vmem S256x64 .f32) (harg2 : arg2.IsWhole) (arg3 : Memref sig .tc .vmem S1000x64 .f32) (harg3 : arg3.IsWhole)
    (arg4 : Memref sig .tc .vmem S256x1 .f32) (harg4 : arg4.IsWhole) (arg5 : Memref sig .tc .vmem S256x1 .f32) (harg5 : arg5.IsWhole)
    (hfirst : first3 i) (hlast : last3 i) (x0 : Vec F S256x64 .f32) (x1 : Vec F S1000x64 .f32) :
    out3 c i arg2 harg2 arg3 harg3 arg4 harg4 arg5 harg5 hfirst hlast x0 x1 = k3_pay2 x0 x1 (k3_pay1 (F := F)) := by
  unfold out3
  rw [View.read_writes_eq_canon _ _ _ (cover3 c i arg2 harg2 arg3 harg3 arg4 harg4 arg5 harg5 hfirst hlast x0 x1)]
  unfold bodyRun3
  dsimp only
  try sl_unfold_words
  rw [View.canon_unit_zero hz3]
  simp only [View.readCov_unit_zero (S := S256x1) _ hz3, View.readAt_eq_ld, harg2.read_unread, harg3.read_unread,
    View.ld_unit_zero (S := S256x64) hz3, View.ld_unit_zero (S := S1000x64) hz3]
  exact Cert.Lib.CoveredLoad.readCov_cons_unit_zero _ hz3 _ _ _

/-- The lane sum at a row. -/
theorem lane3_apply (y : FVec Ideal S256x1000 .f32) (ρ : Fin 256) :
    multiReduction .add [1] S256 y 0x00000000#32 reduces_S256x1000_S256 (.inl rfl) rfl (ix1 ρ) = ∑ k : Fin 1000, y (ix2 ρ k) := by
  refine (Ideal.multiReduction_add_single y 0x00000000#32 reduces_S256x1000_S256 (.inl rfl) rfl (ix1 ρ)).trans ?_
  exact Finset.sum_congr rfl fun k _ => congrArg y (funext fun a => Fin.ext (by match a with | ⟨0, _⟩ => rfl | ⟨1, _⟩ => rfl))

/-- A vector of 256 stood up as a 256 × 1 column, read at row ρ. -/
theorem col3_apply {α : Type} (y : S256.Idx → α) (ρ : Fin 256) :
    shapeCast S256x1 y shapeCasts_S256_S256x1 (ix2 ρ 0) = y (ix1 ρ) :=
  shapeCast_apply y shapeCasts_S256_S256x1 (ix2 ρ 0) (ix1 ρ) (by
    rw [Shape.rowMajor_val_one, Shape.rowMajor_val_two]
    show ρ.val = ρ.val * 1 + 0
    omega)

/-- The named scale at the extended reals. -/
theorem kappa3_val : Named.named (F := Ideal) κ "inv_temp" (φ := .f32) 0x41200000#32 = ((134217728 / 13421773 : ℝ) : EReal) :=
  IdealRules.named_const.ideal_named_scalar _ _ _ _ rfl

theorem lhs3_0 (i : S256x1000.Idx) (q : dot_S256x64_S1000x64_S256x1000_1_1_0_0_n_n.contr.Idx) : (dot_S256x64_S1000x64_S256x1000_1_1_0_0_n_n.lhsIdx i q 0).val = (i 0).val := by
  unfold DotDims.lhsIdx
  rw [dif_neg (show ¬(0 : Fin S256x64.rank) ∈ dot_S256x64_S1000x64_S256x1000_1_1_0_0_n_n.lhsBatch by decide), dif_pos (show (0 : Fin S256x64.rank) ∈ dot_S256x64_S1000x64_S256x1000_1_1_0_0_n_n.lhsNonContracting by decide)]
  rfl
theorem lhs3_1 (i : S256x1000.Idx) (q : dot_S256x64_S1000x64_S256x1000_1_1_0_0_n_n.contr.Idx) : (dot_S256x64_S1000x64_S256x1000_1_1_0_0_n_n.lhsIdx i q 1).val = (q ⟨0, by decide⟩).val :=
  dot_S256x64_S1000x64_S256x1000_1_1_0_0_n_n.lhsIdx_val_of_single rfl i q
theorem rhs3_0 (i : S256x1000.Idx) (q : dot_S256x64_S1000x64_S256x1000_1_1_0_0_n_n.contr.Idx) : (dot_S256x64_S1000x64_S256x1000_1_1_0_0_n_n.rhsIdx i q 0).val = (i 1).val := by
  unfold DotDims.rhsIdx
  rw [dif_neg (show ¬(0 : Fin S1000x64.rank) ∈ dot_S256x64_S1000x64_S256x1000_1_1_0_0_n_n.rhsBatch by decide), dif_pos (show (0 : Fin S1000x64.rank) ∈ dot_S256x64_S1000x64_S256x1000_1_1_0_0_n_n.rhsNonContracting by decide)]
  rfl
theorem rhs3_1 (i : S256x1000.Idx) (q : dot_S256x64_S1000x64_S256x1000_1_1_0_0_n_n.contr.Idx) : (dot_S256x64_S1000x64_S256x1000_1_1_0_0_n_n.rhsIdx i q 1).val = (q ⟨0, by decide⟩).val :=
  dot_S256x64_S1000x64_S256x1000_1_1_0_0_n_n.rhsIdx_val_of_single rfl i q

/-- The tile product at an entry: row ρ of the query block against row k of the table tile. -/
theorem mm3_apply (l : FVec Ideal S256x64 .bf16) (r : FVec Ideal S1000x64 .bf16) (ρ : Fin 256) (k : Fin 1000) :
    matmul dot_S256x64_S1000x64_S256x1000_1_1_0_0_n_n none l r (constant S256x1000 .f32 0x00000000#32) (ix2 ρ k)
      = ∑ d : Fin 64, l (ix2 ρ d) * r (ix2 k d) := by
  refine (Ideal.matmul_constant_zero_apply dot_S256x64_S1000x64_S256x1000_1_1_0_0_n_n none l r (ix2 ρ k)).trans ?_
  rw [← Equiv.sum_comp (ValueIdx.contrEquiv1 dot_S256x64_S1000x64_S256x1000_1_1_0_0_n_n 64 rfl rfl).symm]
  refine Finset.sum_congr rfl fun d _ => ?_
  have hk := ValueIdx.contrEquiv1_symm_val dot_S256x64_S1000x64_S256x1000_1_1_0_0_n_n 64 rfl rfl d
  have el : dot_S256x64_S1000x64_S256x1000_1_1_0_0_n_n.lhsIdx (ix2 ρ k) ((ValueIdx.contrEquiv1 dot_S256x64_S1000x64_S256x1000_1_1_0_0_n_n 64 rfl rfl).symm d) = ix2 ρ d := funext fun a => Fin.ext (by
    match a with
    | ⟨0, _⟩ => exact lhs3_0 _ _
    | ⟨1, _⟩ => exact (lhs3_1 _ _).trans hk)
  have er : dot_S256x64_S1000x64_S256x1000_1_1_0_0_n_n.rhsIdx (ix2 ρ k) ((ValueIdx.contrEquiv1 dot_S256x64_S1000x64_S256x1000_1_1_0_0_n_n 64 rfl rfl).symm d) = ix2 k d := funext fun a => Fin.ext (by
    match a with
    | ⟨0, _⟩ => exact rhs3_0 _ _
    | ⟨1, _⟩ => exact (rhs3_1 _ _).trans hk)
  rw [el, er]

/-- The body's accumulator payload at row ρ: what the accumulator held there plus the tile's sum of exponentials of the
    scaled scores of query row ρ against the tile's rows. -/
theorem pay3_apply (x0 : Vec Ideal S256x64 .f32) (x1 : Vec Ideal S1000x64 .f32) (z : Vec Ideal S256x1 .f32) (ρ : Fin 256) :
    k3_pay2 (F := Ideal) x0 x1 z (ix2 ρ 0)
      = z (ix2 ρ 0) + ∑ k : Fin 1000, Ideal.exp ((∑ d : Fin 64, x0 (ix2 ρ d) * x1 (ix2 k d)) * ((134217728 / 13421773 : ℝ) : EReal)) := by
  have e1 : k3_pay2 (F := Ideal) x0 x1 z = addf z (shapeCast S256x1 (multiReduction .add [1] S256 (exp (mulf
      (matmul dot_S256x64_S1000x64_S256x1000_1_1_0_0_n_n none (truncf .bf16 x0 bitsLt_bf16_f32) (truncf .bf16 x1 bitsLt_bf16_f32) (constant S256x1000 .f32 0x00000000#32))
      (broadcast S256x1000 (Named.named κ "inv_temp" 0x41200000#32)))) 0x00000000#32 reduces_S256x1000_S256 (.inl rfl) rfl) shapeCasts_S256_S256x1) := by
    unfold k3_pay2; simp only [shapeCast_self]
  rw [e1, addf_apply, col3_apply, lane3_apply]
  congr 1
  refine Finset.sum_congr rfl fun k _ => ?_
  show Ideal.exp (matmul (F := Ideal) dot_S256x64_S1000x64_S256x1000_1_1_0_0_n_n none (truncf .bf16 x0 bitsLt_bf16_f32) (truncf .bf16 x1 bitsLt_bf16_f32) (constant (F := Ideal) S256x1000 .f32 0x00000000#32) (ix2 ρ k)
      * Named.named (F := Ideal) κ "inv_temp" (φ := .f32) 0x41200000#32) = _
  rw [mm3_apply, kappa3_val]
  rfl

end Cert.KernelIdeal.Hand
end
-- ==== Proof.KIArray3.lean ====
/-
  Pipeline 3's output array as one function of its two input arrays: row R of the output is the sum over the table's
  1000 rows k of exp (scale · Σ_d q[R,d] · t[k,d]).  Each of the 16 points writes back the 256 rows of its block, computed
  from that block of the queries and the whole table, and the 16 blocks tile the 4096 rows.
-/
import proofs.«110517_j15659450761722_1_alg».proof.Proof.KIValue3

set_option maxRecDepth 16384

noncomputable section
open Idealize.ShloMosaic Idealize.ShloMosaic.TcCoe Idealize.ShloMosaic.Tactic Idealize.SL.Sem
open Idealize.ShloMosaic.Pipeline (Dat)
namespace Cert.KernelIdeal.Hand
open Cert.KernelIdeal Cert.KernelIdeal.Gen ValueIdx

/-- The scale's value. -/
abbrev scaleV3 : EReal := ((134217728 / 13421773 : ℝ) : EReal)

/-- The cleared accumulator reads zero. -/
theorem pay1_3_apply (y : S256x1.Idx) : k3_pay1 (F := Ideal) y = 0 := by
  unfold k3_pay1
  simp only [shapeCast_self]
  show Ideal.ofBits .f32 0x00000000#32 = 0
  exact Ideal.ofBits_zero_f32

/-- The payload at any index of the 256 × 1 block. -/
theorem pay3_at (x0 : Vec Ideal S256x64 .f32) (x1 : Vec Ideal S1000x64 .f32) (z : Vec Ideal S256x1 .f32) (y : S256x1.Idx) :
    k3_pay2 (F := Ideal) x0 x1 z y
      = z y + ∑ k : Fin 1000, Ideal.exp ((∑ d : Fin 64, x0 (ix2 (⟨(y 0).val, idx2_lt0 y⟩ : Fin 256) d) * x1 (ix2 k d)) * scaleV3) := by
  obtain ⟨p, q, rfl⟩ : ∃ (p : Fin 256) (q : Fin 1), y = ix2 p q := ⟨y 0, y 1, eq_ix2 y⟩
  obtain rfl : q = 0 := Subsingleton.elim _ _
  exact pay3_apply x0 x1 z p

variable (V : (c : Dev nD) → (b : Ref sig .tc) → Buf (Elt Ideal) ((c : Thread nD τ).loc b))

/-- The array the pipeline leaves, as a function of its two input arrays. -/
def tot3 (Q : S4096x64.Idx → EReal) (T : S1000x64.Idx → EReal) : S4096x1.Idx → EReal :=
  fun i => 0 + ∑ k : Fin 1000, Ideal.exp ((∑ d : Fin 64, Q (ix2 (⟨(i 0).val, idx2_lt0 i⟩ : Fin 4096) d) * T (ix2 k d)) * scaleV3)

/-- The printed block-index maps, decided over the grid: the query block moves with the output block along the rows,
    the table's one tile stays, and there are 16 row blocks. -/
theorem idx_facts3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 15 :=
  (by decide +kernel : ∀ t : Fin grid3.N, _)

/-- Every row block is some point's. -/
theorem idx_onto3 : ∀ q0 : Fin 16, ∃ t : Fin cfg3.N, win3_2.index t = ![q0.val, 0] :=
  (by decide +kernel : ∀ q0 : Fin 16, ∃ t : Fin grid3.N, win3_2.index t = ![q0.val, 0])

/-- Row ρ of point t's query block is row (block index · 256 + ρ) of the query array. -/
theorem blkQ3 (c : Dev nD) (t : Fin cfg3.N) (ρ : Fin 256) (d : Fin 64) (R : Fin 4096)
    (hR : R.val = win3_2.index t (0 : Fin 2) * 256 + ρ.val) :
    iblk3 V c 0 t (ix2 ρ d) = V c (Pipeline.arrRef spec3 0) (ix2 R d) := by
  obtain ⟨e0, e1, e2, e3, e4, e5⟩ := idx_facts3 t
  unfold iblk3
  rw [View.read_apply]
  refine congrArg (V c (Pipeline.arrRef spec3 0)) (funext fun a => Fin.ext ?_)
  match a with
  | ⟨0, _⟩ => show win3_0.index t (0 : Fin 2) * 256 + 1 * ρ.val = R.val; omega
  | ⟨1, _⟩ => show win3_0.index t (1 : Fin 2) * 64 + 1 * d.val = d.val; omega

/-- Point t's table block is the whole table. -/
theorem blkT3 (c : Dev nD) (t : Fin cfg3.N) (k : Fin 1000) (d : Fin 64) :
    iblk3 V c 1 t (ix2 k d) = V c (Pipeline.arrRef spec3 1) (ix2 k d) := by
  obtain ⟨e0, e1, e2, e3, e4, e5⟩ := idx_facts3 t
  unfold iblk3
  rw [View.read_apply]
  refine congrArg (V c (Pipeline.arrRef spec3 1)) (funext fun a => Fin.ext ?_)
  match a with
  | ⟨0, _⟩ => show win3_1.index t (0 : Fin 2) * 1000 + 1 * k.val = k.val; omega
  | ⟨1, _⟩ => show win3_1.index t (1 : Fin 2) * 64 + 1 * d.val = d.val; omega

/-- WHAT POINT t WRITES BACK is block t of `tot3` of the input arrays as the region finds them. -/
theorem flushed3_eq (c : Dev nD) (t : Fin cfg3.N) :
    (dat3 V c).flushed 2 t
      = ((cfg3.win 2).blk t).view.read (Elt Ideal) (tot3 (V c (Pipeline.arrRef spec3 0)) (V c (Pipeline.arrRef spec3 1))) := by
  show (cfg3.win 2).cut (grid3.coords t) ((dat3 V c).after 2 t) = _
  rw [after3_2]
  unfold outAt3
  rw [out3_eq]
  obtain ⟨e0, e1, e2, e3, e4, e5⟩ := idx_facts3 t
  funext j
  rw [View.read_apply]
  show k3_pay2 (F := Ideal) (iblk3 V c 0 t) (iblk3 V c 1 t) (k3_pay1 (F := Ideal)) j = _
  rw [pay3_at, pay1_3_apply]
  unfold tot3
  refine congrArg (0 + ·) (Finset.sum_congr rfl fun k _ => ?_)
  refine congrArg (fun s => Ideal.exp (s * scaleV3)) (Finset.sum_congr rfl fun d _ => ?_)
  rw [blkT3 V c t k d]
  refine congrArg (· * _) (blkQ3 V c t _ d _ ?_)
  show (((cfg3.win 2).blk t).view.emb j 0).val = win3_2.index t (0 : Fin 2) * 256 + (j 0).val
  show win3_2.index t (0 : Fin 2) * 256 + 1 * (j 0).val = _
  omega

/-- An index of the output array is in point t's block iff each coordinate is in the block's range. -/
theorem mem_blk3 (t : Fin cfg3.N) (i : S4096x1.Idx) :
    i ∈ ((cfg3.win 2).blk t).view.set ↔ ∀ a : Fin 2, win3_2.index t a * S256x1.size a ≤ (i a).val ∧ (i a).val < win3_2.index t a * S256x1.size a + S256x1.size a := by
  show i ∈ ((View.whole main_v259).slice (win3_2.rect t)).set ↔ _
  rw [View.set_slice_whole, Rect.mem_set_unit]
  exact Iff.rfl

/-- THE ARRAY after the pipeline: `tot3` of the two input arrays. -/
theorem final3 (c : Dev nD) :
    (dat3 V c).arrAt 2 cfg3.N = tot3 (V c (Pipeline.arrRef spec3 0)) (V c (Pipeline.arrRef spec3 1)) :=
  (dat3 V c).arrAt_eq_of_cover 2 _ (fun t _ => flushed3_eq V c t) fun i => by
    have hi0 : (i 0).val < 4096 := (i 0).isLt
    have hi1 : (i 1).val < 1 := (i 1).isLt
    obtain ⟨t, ht⟩ := idx_onto3 ⟨(i 0).val / 256, by omega⟩
    have q0 : win3_2.index t (0 : Fin 2) = (i 0).val / 256 := congrFun ht 0
    have q1 : win3_2.index t (1 : Fin 2) = 0 := congrFun ht 1
    refine ⟨t, flush3_2 t, ?_⟩
    rw [mem_blk3]
    intro a
    match a with
    | ⟨0, _⟩ => show win3_2.index t (0 : Fin 2) * 256 ≤ (i 0).val ∧ (i 0).val < win3_2.index t (0 : Fin 2) * 256 + 256; omega
    | ⟨1, _⟩ => show win3_2.index t (1 : Fin 2) * 1 ≤ (i 1).val ∧ (i 1).val < win3_2.index t (1 : Fin 2) * 1 + 1; omega

end Cert.KernelIdeal.Hand
end
-- ==== Proof.Tot3.lean ====
/-
  Pipeline 3: the sum of exponentials the kernel program takes from the pipeline's output array is the reference's.
  Kernel side: the buffer is the output array stood as a vector; the array is `tot3` of the pipeline's two input arrays
  (Proof/KIArray3.lean), which are buffers already paired with the reference's.  Reference side: its buffer is
  reduceAdd (exp (dot (q, tᵀ) / D)) from 0 (Proof/RefTotBig.lean).  Row by row both are 0 + Σ_k exp (s_k · 2^27/13421773), the
  reference's quotient by D = 13421773/2^27 being that product.
-/
import proofs.«110517_j15659450761722_1_alg».proof.Proof.MatchIn
import proofs.«110517_j15659450761722_1_alg».proof.Proof.KIArray3
import proofs.«110517_j15659450761722_1_alg».proof.Proof.RefTotBig
import proofs.«110517_j15659450761722_1_alg».proof.Proof.TotFacts

set_option maxRecDepth 16384

noncomputable section

open Idealize.ShloMosaic Idealize.ShloMosaic.TcCoe Idealize.SL.Sem Idealize.ShloMosaic.StableHlo ValueIdx

namespace Cert.Proof.Match

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (hag : Agree m m')
include hag

/-- The kernel program's vector is the pipeline's output array, reshaped. -/
theorem kshape3 (c : Dev Cert.KernelIdeal.nD) :
    Cert.KernelIdeal.Hand.W29 (F := Ideal) m ρ c (Proc.devRef .tc Cert.KernelIdeal.main_v260) = shapeCast Cert.KernelIdeal.S4096 (Cert.KernelIdeal.Hand.W29 (F := Ideal) m ρ c (Proc.devRef .tc Cert.KernelIdeal.main_v259) : Cert.KernelIdeal.S4096x1.Idx → EReal) Cert.KernelIdeal.Gen.shapeCasts_S4096x1_S4096 := by
  rw [Cert.KernelIdeal.Hand.kept28 (F := Ideal) m ρ c Cert.KernelIdeal.main_v260 (by decide), Cert.KernelIdeal.Hand.kept28 (F := Ideal) m ρ c Cert.KernelIdeal.main_v259 (by decide)]
  exact Cert.Lib.ReadFinal.reshape (l := Cert.KernelIdeal.Gen.hostOps4) (Cert.KernelIdeal.Hand.hostOps4_inOrder (F := Ideal)) 0 rfl (by decide) (by decide) (Cert.KernelIdeal.Hand.W28 (F := Ideal) m ρ c)

/-- The output array is `tot3` of the reference's two paired buffers. -/
theorem karr3 (c : Dev Cert.KernelIdeal.nD) :
    (Cert.KernelIdeal.Hand.W29 (F := Ideal) m ρ c (Proc.devRef .tc Cert.KernelIdeal.main_v259) : Cert.KernelIdeal.S4096x1.Idx → EReal)
      = Cert.KernelIdeal.Hand.tot3 (Cert.Proof.Parts.RW (F := Ideal) m' c (Proc.devRef .tc Cert.ReferenceIdeal.main_v243)) (Cert.Proof.Parts.RW (F := Ideal) m' c (Proc.devRef .tc Cert.ReferenceIdeal.main_v248)) := by
  rw [Cert.KernelIdeal.Hand.kept27 (F := Ideal) m ρ c Cert.KernelIdeal.main_v259 (by decide)]
  refine (Cert.KernelIdeal.Hand.W28_arr (F := Ideal) m ρ c 2).trans ?_
  rw [Cert.KernelIdeal.Hand.final3 (Cert.KernelIdeal.Hand.V27 (F := Ideal) m ρ) c]
  have hq : Cert.KernelIdeal.Hand.V27 (F := Ideal) m ρ c (Pipeline.arrRef Cert.KernelIdeal.spec3 0) = Cert.Proof.Parts.RW (F := Ideal) m' c (Proc.devRef .tc Cert.ReferenceIdeal.main_v243) :=
    ((Cert.KernelIdeal.Hand.kept26 (F := Ideal) m ρ c Cert.KernelIdeal.main_v234 (by decide)).symm).trans (i_v234__v243 m ρ m' hag c)
  have ht : Cert.KernelIdeal.Hand.V27 (F := Ideal) m ρ c (Pipeline.arrRef Cert.KernelIdeal.spec3 1) = Cert.Proof.Parts.RW (F := Ideal) m' c (Proc.devRef .tc Cert.ReferenceIdeal.main_v248) :=
    ((Cert.KernelIdeal.Hand.kept26 (F := Ideal) m ρ c Cert.KernelIdeal.main_v239 (by decide)).symm).trans (i_v239__v248 m ρ m' hag c)
  rw [hq, ht]

/-- The reference's buffer is its sum of exponentials of the paired buffers. -/
theorem rsum3 (c : Dev Cert.KernelIdeal.nD) :
    Cert.Proof.Parts.RW (F := Ideal) m' c (Proc.devRef .tc Cert.ReferenceIdeal.main_v273) = Host.reduceAdd (Host.exp (Host.divf (Host.dotGeneral (φ₁ := .f32) (φ₂ := .f32) Cert.ReferenceIdeal.dot_S4096x64_S64x1000_S4096x1000_1_0_0_1_n_n none
        (Cert.Proof.Parts.RW (F := Ideal) m' c (Proc.devRef .tc Cert.ReferenceIdeal.main_v243) : FVec Ideal Cert.ReferenceIdeal.S4096x64 .f32) (transpose (α := EReal) Cert.ReferenceIdeal.S64x1000 [1, 0] (Cert.Proof.Parts.RW (F := Ideal) m' c (Proc.devRef .tc Cert.ReferenceIdeal.main_v248) : FVec Ideal Cert.ReferenceIdeal.S1000x64 .f32) Cert.ReferenceIdeal.Gen.transposes_S1000x64_S64x1000_1_0))
        (broadcastInDim Cert.ReferenceIdeal.S4096x1000 ![] Cert.ReferenceIdeal.Gen.bcast_S_S4096x1000 (constant (F := Ideal) Cert.ReferenceIdeal.S_ .f32 0x3DCCCCCD#32))))
        (constant (F := Ideal) Cert.ReferenceIdeal.S_ .f32 0x00000000#32) Cert.ReferenceIdeal.Gen.reducesTo_S4096x1000_S4096_d1 Cert.ReferenceIdeal.Gen.h_S_ := by
  rw [Cert.Proof.Parts.rst_main_v273 (F := Ideal) m' c, Cert.Proof.Parts.rst_main_v272 (F := Ideal) m' c, Cert.Proof.Parts.rst_main_v271 (F := Ideal) m' c,
    Cert.Proof.Parts.rst_main_v269 (F := Ideal) m' c, Cert.Proof.Parts.rst_main_v268 (F := Ideal) m' c, Cert.Proof.Parts.rst_main_v270 (F := Ideal) m' c,
    Cert.Proof.Parts.rst_main_cst_68 (F := Ideal) m' c, Cert.Proof.Parts.rst_main_cst_69 (F := Ideal) m' c]

/-- THE PAIRING for pipeline 3. -/
theorem sum_v260__v273 (c : Dev Cert.KernelIdeal.nD) : Cert.KernelIdeal.Hand.W29 (F := Ideal) m ρ c (Proc.devRef .tc Cert.KernelIdeal.main_v260) = Cert.Proof.Parts.RW (F := Ideal) m' c (Proc.devRef .tc Cert.ReferenceIdeal.main_v273) := by
  rw [kshape3 m ρ m' hag c, karr3 m ρ m' hag c, rsum3 m m' hag c]
  funext i
  obtain ⟨r, rfl⟩ : ∃ r : Fin 4096, i = ix1 r := ⟨i 0, eq_ix1 i⟩
  rw [Cert.Proof.RefTotBig.refTot1000]
  rw [shapeCast_apply _ Cert.KernelIdeal.Gen.shapeCasts_S4096x1_S4096 (ix1 r) (ix2 r 0) (by
    rw [Shape.rowMajor_val_two, Shape.rowMajor_val_one]; show r.val * 1 + 0 = r.val; omega)]
  unfold Cert.KernelIdeal.Hand.tot3
  refine congrArg₂ (· + ·) ?_ (Finset.sum_congr rfl fun k _ => ?_)
  · show (0 : EReal) = Ideal.ofBits .f32 0x00000000#32
    exact Ideal.ofBits_zero_f32.symm
  · show Ideal.exp (_ * _) = Ideal.exp (Ideal.div _ (Ideal.ofBits .f32 0x3DCCCCCD#32))
    rw [Cert.Proof.RefTotBig.div_temp]

end Cert.Proof.Match

end
-- ==== Proof.TotAll.lean ====
/-
  The four sums of exponentials agree (Proof/Tot0.lean … Proof/Tot3.lean), which is the hypothesis the pairing downstream
  of them was checked under.
-/
import proofs.«110517_j15659450761722_1_alg».proof.Proof.Tot0
import proofs.«110517_j15659450761722_1_alg».proof.Proof.Tot1
import proofs.«110517_j15659450761722_1_alg».proof.Proof.Tot2
import proofs.«110517_j15659450761722_1_alg».proof.Proof.Tot3

noncomputable section

open Idealize.ShloMosaic Idealize.ShloMosaic.TcCoe Idealize.SL.Sem

namespace Cert.Proof.Match

theorem totFacts (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hag : Agree m m') : TotFacts m ρ m' := fun c =>
  ⟨sum_v139__v148 m ρ m' hag c,
   sum_v166__v178 m ρ m' hag c,
   sum_v217__v227 m ρ m' hag c,
   sum_v260__v273 m ρ m' hag c⟩

end Cert.Proof.Match

end
-- ==== Proof.Algebraic.lean ====
/-
  Equal results.  The idealized kernel program's run ends with every unscoped buffer at the last boundary's contents;
  the reference's with every buffer at the fold of its operations.  Paired buffer by buffer from the arguments upward
  (Proof/Match*.lean, with the four sums of exponentials paired in Proof/Tot*.lean), the four result buffers of the two
  runs hold the same extended reals, and both runs leave the arguments as launched.
-/
import proofs.«110517_j15659450761722_1_alg».proof.Defs
import proofs.«110517_j15659450761722_1_alg».proof.Proof.MatchC
import proofs.«110517_j15659450761722_1_alg».proof.Proof.TotAll
import proofs.«110517_j15659450761722_1_alg».proof.Proof.Gen.Pre_finite_inputs

set_option maxRecDepth 65536

noncomputable section

open Idealize.ShloMosaic Idealize.ShloMosaic.TcCoe Idealize.SL.Sem Idealize.ShloMosaic.StableHlo

namespace Cert.Proof.Parts

set_option maxHeartbeats 16000000 in
theorem algebraic : Cert.algebraic_KernelIdeal_ReferenceIdeal := by
  intro m ρ m' ρ' _ hagree
  have htot : Cert.Proof.Match.TotFacts m ρ m' := Cert.Proof.Match.totFacts m ρ m' hagree
  refine ⟨fun c => Cert.KernelIdeal.Hand.W29 (F := Ideal) m ρ c (Proc.devRef .tc Cert.KernelIdeal.main_v288),
    fun c => Cert.KernelIdeal.Hand.W29 (F := Ideal) m ρ c (Proc.devRef .tc Cert.KernelIdeal.main_v305),
    fun c => Cert.KernelIdeal.Hand.W29 (F := Ideal) m ρ c (Proc.devRef .tc Cert.KernelIdeal.main_v179),
    fun c => Cert.KernelIdeal.Hand.W29 (F := Ideal) m ρ c (Proc.devRef .tc Cert.KernelIdeal.main_v267), ?_, ?_⟩
  · exact (θ_run Cert.KernelIdeal.defs _ _).mono (fun _ h c =>
      ⟨h c _ (Cert.KernelIdeal.Hand.mem_uc Cert.KernelIdeal.main_v288 (by decide)),
       h c _ (Cert.KernelIdeal.Hand.mem_uc Cert.KernelIdeal.main_v305 (by decide)),
       h c _ (Cert.KernelIdeal.Hand.mem_uc Cert.KernelIdeal.main_v179 (by decide)),
       h c _ (Cert.KernelIdeal.Hand.mem_uc Cert.KernelIdeal.main_v267 (by decide)),
       (h c _ (Cert.KernelIdeal.Hand.mem_uc Cert.KernelIdeal.main_arg0 (by decide))).trans (Cert.KernelIdeal.Hand.W29_main_arg0 (F := Ideal) m ρ c),
       (h c _ (Cert.KernelIdeal.Hand.mem_uc Cert.KernelIdeal.main_arg1 (by decide))).trans (Cert.KernelIdeal.Hand.W29_main_arg1 (F := Ideal) m ρ c),
       (h c _ (Cert.KernelIdeal.Hand.mem_uc Cert.KernelIdeal.main_arg2 (by decide))).trans (Cert.KernelIdeal.Hand.W29_main_arg2 (F := Ideal) m ρ c),
       (h c _ (Cert.KernelIdeal.Hand.mem_uc Cert.KernelIdeal.main_arg3 (by decide))).trans (Cert.KernelIdeal.Hand.W29_main_arg3 (F := Ideal) m ρ c),
       (h c _ (Cert.KernelIdeal.Hand.mem_uc Cert.KernelIdeal.main_arg4 (by decide))).trans (Cert.KernelIdeal.Hand.W29_main_arg4 (F := Ideal) m ρ c),
       (h c _ (Cert.KernelIdeal.Hand.mem_uc Cert.KernelIdeal.main_arg5 (by decide))).trans (Cert.KernelIdeal.Hand.W29_main_arg5 (F := Ideal) m ρ c),
       (h c _ (Cert.KernelIdeal.Hand.mem_uc Cert.KernelIdeal.main_arg6 (by decide))).trans (Cert.KernelIdeal.Hand.W29_main_arg6 (F := Ideal) m ρ c),
       (h c _ (Cert.KernelIdeal.Hand.mem_uc Cert.KernelIdeal.main_arg7 (by decide))).trans (Cert.KernelIdeal.Hand.W29_main_arg7 (F := Ideal) m ρ c),
       (h c _ (Cert.KernelIdeal.Hand.mem_uc Cert.KernelIdeal.main_arg8 (by decide))).trans (Cert.KernelIdeal.Hand.W29_main_arg8 (F := Ideal) m ρ c),
       (h c _ (Cert.KernelIdeal.Hand.mem_uc Cert.KernelIdeal.main_arg9 (by decide))).trans (Cert.KernelIdeal.Hand.W29_main_arg9 (F := Ideal) m ρ c),
       (h c _ (Cert.KernelIdeal.Hand.mem_uc Cert.KernelIdeal.main_arg10 (by decide))).trans (Cert.KernelIdeal.Hand.W29_main_arg10 (F := Ideal) m ρ c),
       (h c _ (Cert.KernelIdeal.Hand.mem_uc Cert.KernelIdeal.main_arg11 (by decide))).trans (Cert.KernelIdeal.Hand.W29_main_arg11 (F := Ideal) m ρ c),
       (h c _ (Cert.KernelIdeal.Hand.mem_uc Cert.KernelIdeal.main_arg12 (by decide))).trans (Cert.KernelIdeal.Hand.W29_main_arg12 (F := Ideal) m ρ c),
       (h c _ (Cert.KernelIdeal.Hand.mem_uc Cert.KernelIdeal.main_arg13 (by decide))).trans (Cert.KernelIdeal.Hand.W29_main_arg13 (F := Ideal) m ρ c)⟩)
      (Cert.KernelIdeal.Hand.run_all (F := Ideal) m ρ)
  · exact (θ_run Cert.ReferenceIdeal.defs _ _).mono (fun _ h c =>
      ⟨(h c Cert.ReferenceIdeal.main_v300).trans (Cert.Proof.Match.e_v288__v300 m ρ m' hagree htot c).symm,
       (h c Cert.ReferenceIdeal.main_v317).trans (Cert.Proof.Match.e_v305__v317 m ρ m' hagree htot c).symm,
       (h c Cert.ReferenceIdeal.main_v185).trans (Cert.Proof.Match.e_v179__v185 m ρ m' hagree htot c).symm,
       (h c Cert.ReferenceIdeal.main_v279).trans (Cert.Proof.Match.e_v267__v279 m ρ m' hagree htot c).symm,
       (h c Cert.ReferenceIdeal.main_arg0).trans (ref_kept (F := Ideal) m' c Cert.ReferenceIdeal.main_arg0 (by decide)),
       (h c Cert.ReferenceIdeal.main_arg1).trans (ref_kept (F := Ideal) m' c Cert.ReferenceIdeal.main_arg1 (by decide)),
       (h c Cert.ReferenceIdeal.main_arg2).trans (ref_kept (F := Ideal) m' c Cert.ReferenceIdeal.main_arg2 (by decide)),
       (h c Cert.ReferenceIdeal.main_arg3).trans (ref_kept (F := Ideal) m' c Cert.ReferenceIdeal.main_arg3 (by decide)),
       (h c Cert.ReferenceIdeal.main_arg4).trans (ref_kept (F := Ideal) m' c Cert.ReferenceIdeal.main_arg4 (by decide)),
       (h c Cert.ReferenceIdeal.main_arg5).trans (ref_kept (F := Ideal) m' c Cert.ReferenceIdeal.main_arg5 (by decide)),
       (h c Cert.ReferenceIdeal.main_arg6).trans (ref_kept (F := Ideal) m' c Cert.ReferenceIdeal.main_arg6 (by decide)),
       (h c Cert.ReferenceIdeal.main_arg7).trans (ref_kept (F := Ideal) m' c Cert.ReferenceIdeal.main_arg7 (by decide)),
       (h c Cert.ReferenceIdeal.main_arg8).trans (ref_kept (F := Ideal) m' c Cert.ReferenceIdeal.main_arg8 (by decide)),
       (h c Cert.ReferenceIdeal.main_arg9).trans (ref_kept (F := Ideal) m' c Cert.ReferenceIdeal.main_arg9 (by decide)),
       (h c Cert.ReferenceIdeal.main_arg10).trans (ref_kept (F := Ideal) m' c Cert.ReferenceIdeal.main_arg10 (by decide)),
       (h c Cert.ReferenceIdeal.main_arg11).trans (ref_kept (F := Ideal) m' c Cert.ReferenceIdeal.main_arg11 (by decide)),
       (h c Cert.ReferenceIdeal.main_arg12).trans (ref_kept (F := Ideal) m' c Cert.ReferenceIdeal.main_arg12 (by decide)),
       (h c Cert.ReferenceIdeal.main_arg13).trans (ref_kept (F := Ideal) m' c Cert.ReferenceIdeal.main_arg13 (by decide))⟩)
      (run_seq Cert.ReferenceIdeal.RunP.scopedRefs_eq Cert.ReferenceIdeal.RunP.scopedSems_eq Cert.ReferenceIdeal.defs Cert.ReferenceIdeal.main
        (fun _ => Cert.ReferenceIdeal.RunP.ops) Cert.ReferenceIdeal.RunP.main_eq (fun _ => Cert.ReferenceIdeal.RunP.ops_sub) m' ρ'
        (hfresh := fun _ => List.forall_iff_forall_mem.mp ref_fresh))

end Cert.Proof.Parts

end
-- ==== Proof.lean ====
/-
  The claim's five conjuncts.

  Frames.  Both kernel programs are the same @main: twenty-five stretches of host operations around four launches of
  one streaming kernel, which for a block of 256 query rows adds up, table tile by table tile, the row sums of
  exp (scale · q · tᵀ) in an accumulator column carried across the tiles, and writes the column out at the block's
  last tile.  Each launch is a segment whose proof data name what the accumulator holds after every grid point
  (Proof/K*Run*.lean: the body's run per case; Proof/K*Region*.lean: the accumulation, the invariant, the body
  obligation), the stretches are segments by themselves, and the library's launch theorem over the twenty-nine
  segments gives termination without a fault and every buffer's final contents as a fold from the launch memory
  (Proof/KFrame.lean at words, Proof/KIFrame.lean at any float instance); no segment writes an argument buffer.  The
  reference is one straight line of host operations (Proof/RefRun.lean, Proof/RefFrame.lean).

  The idealization.  Its only rewrite reads the kernel's scale 10.0 as 2^27 / 13421773, the reciprocal of the
  reference's divisor (the single-precision number nearest one tenth): Proof/Preserves.lean.

  Equal results.  With that reading, index by index both programs compute the same four results on the extended
  reals.  The two programs are paired buffer by buffer from the arguments upward (Proof/Match*.lean): almost every
  kernel-side host operation is a reference operation on operands already paired.  They differ in the four sums of
  exponentials: a pipeline's output array is, row by row, the sum over the whole table of exp (scale · score) — tile by
  tile through the accumulator, the tiles regrouped into one sum, addition of extended reals being commutative and
  associative (Proof/KIValue*.lean, Proof/KIArray*.lean) — and the reference's reduceAdd (exp (dot / D)) is the same sum,
  the quotient by D = 13421773 / 2^27 being the product with 2^27 / 13421773 on every extended real (Proof/RefTotBig.lean,
  Proof/Tot*.lean).  After them the kernel's log p - log t meets the reference's log (p / t), which holds for all
  nonnegative extended reals p, t with the ideal instance's conventions at 0 and +∞ (Proof/LibLogQuotient.lean), so
  finiteness of the inputs is never used.  Proof/Algebraic.lean assembles the conjunct from the two runs.
-/
import proofs.«110517_j15659450761722_1_alg».proof.Defs
import proofs.«110517_j15659450761722_1_alg».proof.Proof.Gen.Kernel
import proofs.«110517_j15659450761722_1_alg».proof.Proof.Gen.KernelIdeal
import proofs.«110517_j15659450761722_1_alg».proof.Proof.Gen.ReferenceIdeal
import proofs.«110517_j15659450761722_1_alg».proof.Proof.Gen.Pre_finite_inputs
import proofs.«110517_j15659450761722_1_alg».proof.Proof.Preserves
import proofs.«110517_j15659450761722_1_alg».proof.Proof.RefFrame
import proofs.«110517_j15659450761722_1_alg».proof.Proof.KFrame
import proofs.«110517_j15659450761722_1_alg».proof.Proof.KIFrame
import proofs.«110517_j15659450761722_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
   fun m ρ _ => Cert.Kernel.Hand.frame m ρ,
   fun m ρ _ => Cert.KernelIdeal.Hand.frame m ρ,
   Cert.Proof.Parts.frame_reference,
   Cert.Proof.Parts.preserves,
   Cert.Proof.Parts.algebraic⟩

end Cert.Proof

end
